-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v80_0)) (v2 : (c : Dev Cert.KernelIdeal.nD) → Buf (Elt Ideal) ((c.tc : Thread Cert.KernelIdeal.nD Cert.KernelIdeal.τ).loc Cert.KernelIdeal.main_v80_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v80_0) = v1 c
          ∧ r.2.mem ((c.tc : Thread Cert.KernelIdeal.nD Cert.KernelIdeal.τ).loc Cert.KernelIdeal.main_v80_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S384x256 : Shape := ⟨2, ![384, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S256x1 .f32) (main_arg20 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x1 .f32 := Host.absf main_arg19
  let main_cst_34 : FVec F S_ .f32 := constant S_ .f32 0x7F800000#32
  let main_v90 : FVec F S256x1 .f32 := broadcastInDim S256x1 ![] bcast_S_S256x1 main_cst_34
  let main_v91 : IVec S256x1 1 := cmpf .olt main_v89 main_v90
  let main_c_35 : IVec S_ 1 := constantI S_ 1 1#1
  let main_v92 : IVec S_ 1 := (fun x v => Host.reduce IntOp.andi x v reducesTo_S256x1_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S128 .f32) (main_arg16 : FVec F S128 .f32) (main_arg17 : FVec F S384x256 .f32) (main_arg18 : FVec F S256 .f32) (main_arg19 : FVec F S256x1 .f32) (main_arg20 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S384x256 .f32 := Host.absf main_arg17
  let main_cst_30 : FVec F S_ .f32 := constant S_ .f32 0x7F800000#32
  let main_v80 : FVec F S384x256 .f32 := broadcastInDim S384x256 ![] bcast_S_S384x256 main_cst_30
  let main_v81 : IVec S384x256 1 := cmpf .olt main_v79 main_v80
  let main_c_31 : IVec S_ 1 := constantI S_ 1 1#1
  let main_v82 : IVec S_ 1 := (fun x v => Host.reduce IntOp.andi x v reducesTo_S384x256_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S384x256 .f32) (main_arg18 : FVec F S256 .f32) (main_arg19 : FVec F S256x1 .f32) (main_arg20 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S384x256 .f32) (main_arg18 : FVec F S256 .f32) (main_arg19 : FVec F S256x1 .f32) (main_arg20 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S384x256 .f32) (main_arg18 : FVec F S256 .f32) (main_arg19 : FVec F S256x1 .f32) (main_arg20 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S40000x128 .f32) (main_arg1 : FVec F S640000x128 .f32) (main_arg2 : IVec S2x640000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S384x256 .f32) (main_arg18 : FVec F S256 .f32) (main_arg19 : FVec F S256x1 .f32) (main_arg20 : FVec F S1 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S40000x128 : Shape := ⟨2, ![40000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S384x256 : Shape := ⟨2, ![384, 256]⟩
abbrev S256 : Shape := ⟨1, ![256]⟩
abbrev S256x1 : Shape := ⟨2, ![256, 1]⟩
abbrev S1 : Shape := ⟨1, ![1]⟩
abbrev S1x640000 : Shape := ⟨2, ![1, 640000]⟩
abbrev S640000 : Shape := ⟨1, ![640000]⟩
abbrev S128x512 : Shape := ⟨2, ![128, 512]⟩
abbrev S512 : Shape := ⟨1, ![512]⟩
abbrev S1x512 : Shape := ⟨2, ![1, 512]⟩
abbrev S40000x512 : Shape := ⟨2, ![40000, 512]⟩
abbrev S2000x128 : Shape := ⟨2, ![2000, 128]⟩
abbrev S2000x512 : Shape := ⟨2, ![2000, 512]⟩
abbrev S40000x256 : Shape := ⟨2, ![40000, 256]⟩
abbrev S_ : Shape := ⟨0, ![]⟩
abbrev S640000x1 : Shape := ⟨2, ![640000, 1]⟩
abbrev S640000x256 : Shape := ⟨2, ![640000, 256]⟩
abbrev S1x128 : Shape := ⟨2, ![1, 128]⟩
abbrev S4000x128 : Shape := ⟨2, ![4000, 128]⟩
abbrev S4000x256 : Shape := ⟨2, ![4000, 256]⟩
abbrev S1280000 : Shape := ⟨1, ![1280000]⟩
abbrev S1280000x1 : Shape := ⟨2, ![1280000, 1]⟩
abbrev S1280000x128 : Shape := ⟨2, ![1280000, 128]⟩
abbrev S256x127 : Shape := ⟨2, ![256, 127]⟩
abbrev S256x128 : Shape := ⟨2, ![256, 128]⟩
abbrev S127 : Shape := ⟨1, ![127]⟩
abbrev S1x256 : Shape := ⟨2, ![1, 256]⟩
abbrev S4000x1 : Shape := ⟨2, ![4000, 1]⟩
abbrev S4000x384 : Shape := ⟨2, ![4000, 384]⟩

abbrev nBuf : Space → Nat
  | .hbm => 166
  | .vmem => 42
  | .smem => 0
  | _ => 0

abbrev hbmTy0_0 (i : Nat) : BufTy := match i % 128 with
  | 0 => ⟨S40000x128, .f32⟩
  | 1 => ⟨S640000x128, .f32⟩
  | 2 => ⟨S2x640000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S384x256, .f32⟩
  | 18 => ⟨S256, .f32⟩
  | 19 => ⟨S256x1, .f32⟩
  | 20 => ⟨S1, .f32⟩
  | 21 => ⟨S1x640000, .i32⟩
  | 22 => ⟨S640000, .i32⟩
  | 23 => ⟨S1x640000, .i32⟩
  | 24 => ⟨S640000, .i32⟩
  | 25 => ⟨S128x512, .f32⟩
  | 26 => ⟨S512, .f32⟩
  | 27 => ⟨S1x512, .f32⟩
  | 28 => ⟨S40000x512, .f32⟩
  | 29 => ⟨S40000x128, .f32⟩
  | 30 => ⟨S40000x128, .f32⟩
  | 31 => ⟨S40000x256, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000x128, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000x256, .f32⟩
  | 50 => ⟨S1x128, .f32⟩
  | 51 => ⟨S640000x128, .f32⟩
  | 52 => ⟨S640000x128, .f32⟩
  | 53 => ⟨S640000x128, .f32⟩
  | 54 => ⟨S_, .f32⟩
  | 55 => ⟨S40000x128, .f32⟩
  | 56 => ⟨S640000x1, .i32⟩
  | 57 => ⟨S40000x128, .f32⟩
  | 58 => ⟨S_, .f32⟩
  | 59 => ⟨S40000x128, .f32⟩
  | 60 => ⟨S640000x1, .i32⟩
  | 61 => ⟨S40000x128, .f32⟩
  | 62 => ⟨S_, .f32⟩
  | 63 => ⟨S40000x128, .f32⟩
  | 64 => ⟨S40000x128, .f32⟩
  | 65 => ⟨S40000x128, .f32⟩
  | 66 => ⟨S40000x128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S40000x128, .f32⟩
  | 80 => ⟨S40000x128, .f32⟩
  | 81 => ⟨S40000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S_, .f32⟩
  | 96 => ⟨S128, .f32⟩
  | 97 => ⟨S128, .f32⟩
  | 98 => ⟨S128, .f32⟩
  | 99 => ⟨S128, .f32⟩
  | 100 => ⟨S1x128, .f32⟩
  | 101 => ⟨S128, .f32⟩
  | 102 => ⟨S128, .f32⟩
  | 103 => ⟨S128, .f32⟩
  | 104 => ⟨S1x128, .f32⟩
  | 105 => ⟨S40000x128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S640000x128, .f32⟩
  | 119 => ⟨S640000x128, .f32⟩
  | 120 => ⟨S640000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S40000x128, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S_, .f32⟩
  | 7 => ⟨S128, .f32⟩
  | 8 => ⟨S128, .f32⟩
  | 9 => ⟨S128, .f32⟩
  | 10 => ⟨S128, .f32⟩
  | 11 => ⟨S1x128, .f32⟩
  | 12 => ⟨S128, .f32⟩
  | 13 => ⟨S128, .f32⟩
  | 14 => ⟨S128, .f32⟩
  | 15 => ⟨S1x128, .f32⟩
  | 16 => ⟨S1280000, .i32⟩
  | 17 => ⟨S_, .i32⟩
  | 18 => ⟨S1280000, .i32⟩
  | 19 => ⟨S1280000, .i1⟩
  | 20 => ⟨S_, .i32⟩
  | 21 => ⟨S1280000, .i32⟩
  | 22 => ⟨S1280000, .i32⟩
  | 23 => ⟨S1280000, .i32⟩
  | 24 => ⟨S1280000x1, .i32⟩
  | 25 => ⟨S1280000x128, .f32⟩
  | 26 => ⟨S640000x128, .f32⟩
  | 27 => ⟨S640000x128, .f32⟩
  | 28 => ⟨S_, .f32⟩
  | 29 => ⟨S256x127, .f32⟩
  | 30 => ⟨S256x128, .f32⟩
  | 31 => ⟨S_, .f32⟩
  | 32 => ⟨S127, .f32⟩
  | 33 => ⟨S128, .f32⟩
  | 34 => ⟨S1x128, .f32⟩
  | 35 => ⟨S1x256, .f32⟩
  | 36 => ⟨S640000x128, .f32⟩
  | 37 => ⟨S640000x1, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x256, .f32⟩
  | .local _ .vmem, ⟨13, _⟩ => ⟨S4000x256, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S1x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S1x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S384x256, .f32⟩
  | .local _ .vmem, ⟨35, _⟩ => ⟨S1x256, .f32⟩
  | .local _ .vmem, ⟨36, _⟩ => ⟨S256x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S4000x1, .f32⟩
  | .local _ .vmem, ⟨41, _⟩ => ⟨S4000x1, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_1 : Ref sig .tc := ⟨.hbm, 41, rfl⟩
abbrev main_v18 : Ref sig .tc := ⟨.hbm, 42, rfl⟩
abbrev main_v19 : Ref sig .tc := ⟨.hbm, 43, rfl⟩
abbrev main_c_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26_0 : Ref sig .tc := ⟨.hbm, 51, rfl⟩
abbrev main_v26_1 : Ref sig .tc := ⟨.hbm, 52, rfl⟩
abbrev main_v26_2 : Ref sig .tc := ⟨.hbm, 53, rfl⟩
abbrev main_cst : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_v39 : Ref sig .tc := ⟨.hbm, 71, rfl⟩
abbrev main_c_7 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_cst_0 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_cst_1 : Ref sig .tc := ⟨.hbm, 83, rfl⟩
abbrev main_call0_v8 : Ref sig .tc := ⟨.hbm, 84, rfl⟩
abbrev main_call0_cst_2 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_cst_3 : Ref sig .tc := ⟨.hbm, 89, rfl⟩
abbrev main_call0_v12 : Ref sig .tc := ⟨.hbm, 90, rfl⟩
abbrev main_call0_cst_4 : Ref sig .tc := ⟨.hbm, 91, rfl⟩
abbrev main_call0_call0_v0 : Ref sig .tc := ⟨.hbm, 92, rfl⟩
abbrev main_call0_call0_v1 : Ref sig .tc := ⟨.hbm, 93, rfl⟩
abbrev main_v40 : Ref sig .tc := ⟨.hbm, 94, rfl⟩
abbrev main_cst_8 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_9 : Ref sig .tc := ⟨.hbm, 106, rfl⟩
abbrev main_v51 : Ref sig .tc := ⟨.hbm, 107, rfl⟩
abbrev main_cst_10 : Ref sig .tc := ⟨.hbm, 108, rfl⟩
abbrev main_v52 : Ref sig .tc := ⟨.hbm, 109, rfl⟩
abbrev main_v53 : Ref sig .tc := ⟨.hbm, 110, rfl⟩
abbrev main_c_11 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_cst_0 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_v6 : Ref sig .tc := ⟨.hbm, 120, rfl⟩
abbrev main_call1_v7 : Ref sig .tc := ⟨.hbm, 121, rfl⟩
abbrev main_call1_cst_1 : Ref sig .tc := ⟨.hbm, 122, rfl⟩
abbrev main_call1_v8 : Ref sig .tc := ⟨.hbm, 123, rfl⟩
abbrev main_call1_cst_2 : Ref sig .tc := ⟨.hbm, 124, rfl⟩
abbrev main_call1_v9 : Ref sig .tc := ⟨.hbm, 125, rfl⟩
abbrev main_call1_v10 : Ref sig .tc := ⟨.hbm, 126, rfl⟩
abbrev main_call1_v11 : Ref sig .tc := ⟨.hbm, 127, rfl⟩
abbrev main_call1_cst_3 : Ref sig .tc := ⟨.hbm, 128, rfl⟩
abbrev main_call1_v12 : Ref sig .tc := ⟨.hbm, 129, rfl⟩
abbrev main_call1_cst_4 : Ref sig .tc := ⟨.hbm, 130, rfl⟩
abbrev main_call1_call0_v0 : Ref sig .tc := ⟨.hbm, 131, rfl⟩
abbrev main_call1_call0_v1 : Ref sig .tc := ⟨.hbm, 132, rfl⟩
abbrev main_v54 : Ref sig .tc := ⟨.hbm, 133, rfl⟩
abbrev main_cst_12 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_c_13 : Ref sig .tc := ⟨.hbm, 145, rfl⟩
abbrev main_v65 : Ref sig .tc := ⟨.hbm, 146, rfl⟩
abbrev main_v66 : Ref sig .tc := ⟨.hbm, 147, rfl⟩
abbrev main_c_14 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_cst_15 : Ref sig .tc := ⟨.hbm, 156, rfl⟩
abbrev main_v74 : Ref sig .tc := ⟨.hbm, 157, rfl⟩
abbrev main_v75 : Ref sig .tc := ⟨.hbm, 158, rfl⟩
abbrev main_cst_16 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80_0 : Ref sig .tc := ⟨.hbm, 164, rfl⟩
abbrev main_v80_1 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg9_1 : Ref sig .tc := ⟨.vmem, 39, rfl⟩
abbrev cc3_stg10_0 : Ref sig .tc := ⟨.vmem, 40, rfl⟩
abbrev cc3_stg10_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem9_1 : DmaSem sig := 39
abbrev cc3_sem10_0 : DmaSem sig := 40
abbrev cc3_sem10_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S384x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S4000x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S40000x512_S40000x128_0_0 : S40000x512.Slices ![0, 0] S40000x128
  slices_S40000x512_S40000x128_0_128 : S40000x512.Slices ![0, 128] S40000x128
  slices_S40000x512_S40000x256_0_256 : S40000x512.Slices ![0, 256] S40000x256
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x256_S4000x128_0_0 : ∀ a, (![0, 0] : Fin 2 → Nat) a + S4000x128.size a ≤ S4000x256.size a
  shapeCasts_S4000x128_S4000x128 : S4000x128.ShapeCasts S4000x128
  inb_S4000x256_S4000x128_0_128 : ∀ a, (![0, 128] : Fin 2 → Nat) a + S4000x128.size a ≤ S4000x256.size a
  bcast_S_S40000x128 : S_.BroadcastsInDim S40000x128 (![] : Fin 0 → Fin S40000x128.rank)
  reducesTo_S40000x128_S128_d0 : S40000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S40000x128_0_1 : S1x128.BroadcastsInDim S40000x128 (![0, 1] : Fin 2 → Fin S40000x128.rank)
  reducesTo_S640000x128_S128_d0 : S640000x128.ReducesTo [0] S128
  bcast_S1x128_S640000x128_0_1 : S1x128.BroadcastsInDim S640000x128 (![0, 1] : Fin 2 → Fin S640000x128.rank)
  concatenates_S640000_S640000_S1280000_d0 : Shape.Concatenates [S640000, S640000] S1280000 0
  bcast_S_S1280000 : S_.BroadcastsInDim S1280000 (![] : Fin 0 → Fin S1280000.rank)
  bcast_S1280000_S1280000x1_0 : S1280000.BroadcastsInDim S1280000x1 (![0] : Fin 1 → Fin S1280000x1.rank)
  slices_S1280000x128_S640000x128_0_0 : S1280000x128.Slices ![0, 0] S640000x128
  slices_S1280000x128_S640000x128_640000_0 : S1280000x128.Slices ![640000, 0] S640000x128
  bcast_S_S256x127 : S_.BroadcastsInDim S256x127 (![] : Fin 0 → Fin S256x127.rank)
  concatenates_S256x1_S256x127_S256x128_d1 : Shape.Concatenates [S256x1, S256x127] S256x128 1
  bcast_S_S127 : S_.BroadcastsInDim S127 (![] : Fin 0 → Fin S127.rank)
  concatenates_S1_S127_S128_d0 : Shape.Concatenates [S1, S127] S128 0
  shapeCasts_S256_S1x256 : S256.ShapeCasts S1x256
  concatenates_S4000x128_S4000x128_S4000x128_S4000x384_d1 : Shape.Concatenates [S4000x128, S4000x128, S4000x128] S4000x384 1
  inb_S384x256_S384x256_0_0 : ∀ a, (![0, 0] : Fin 2 → Nat) a + S384x256.size a ≤ S384x256.size a
  h_S384x256 : 0 < S384x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S4000x128_o0_0_S4000x1 : S4000x128.Slices ![0, 0] S4000x1
  inb_S4000x1_S4000x1_0_0 : ∀ a, (![0, 0] : Fin 2 → Nat) a + S4000x1.size a ≤ S4000x1.size a
  h_S4000x1 : 0 < S4000x1.numel
  dot_S2000x128_S128x512_S2000x512_1_0_0_1_n_n_wf : DotDims.WF S2000x128 S128x512 S2000x512 [1] [0] [0] [1] [] []
  gather_S40000x128_S640000x1_S640000x128_1_0_n_n_0_1_1128_wf : GatherDims.WF S40000x128 S640000x1 S640000x128 [1] [0] [] [0] [] 1 ![1, 128]
  gather_S40000x256_S640000x1_S640000x256_1_0_n_n_0_1_1256_wf : GatherDims.WF S40000x256 S640000x1 S640000x256 [1] [0] [] [0] [] 1 ![1, 256]
  dot_S4000x128_S128x128_S4000x128_1_0_0_1_n_n_wf : DotDims.WF S4000x128 S128x128 S4000x128 [1] [0] [0] [1] [] []
  scatter_S40000x128_S640000x1_S640000x128_1_0_0_1_wf : ScatterDims.WF S40000x128 S640000x1 S640000x128 [1] [0] [0] 1
  gather_S40000x128_S1280000x1_S1280000x128_1_0_n_n_0_1_1128_wf : GatherDims.WF S40000x128 S1280000x1 S1280000x128 [1] [0] [] [0] [] 1 ![1, 128]
  dot_S4000x384_S384x256_S4000x256_1_0_0_1_n_n_wf : DotDims.WF S4000x384 S384x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S40000x512.size a
  hwx0_3 : ∀ i : grid0.Coords, EltTy.bits .f32 = 32 ∨ (Rect.block (s := S40000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S640000x128.size a
  hwx1_0 : ∀ i : grid1.Coords, EltTy.bits .f32 = 32 ∨ (Rect.block (s := S640000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S640000x128.size a
  hwx1_3 : ∀ i : grid1.Coords, EltTy.bits .f32 = 32 ∨ (Rect.block (s := S640000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x256.size a ≤ S640000x256.size a
  hwx1_4 : ∀ i : grid1.Coords, EltTy.bits .f32 = 32 ∨ (Rect.block (s := S640000x256) S4000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S640000x128.size a
  hwx1_5 : ∀ i : grid1.Coords, EltTy.bits .f32 = 32 ∨ (Rect.block (s := S640000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S640000x128.size a
  hwx1_6 : ∀ i : grid1.Coords, EltTy.bits .f32 = 32 ∨ (Rect.block (s := S640000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S640000x128.size a
  hwx1_7 : ∀ i : grid1.Coords, EltTy.bits .f32 = 32 ∨ (Rect.block (s := S640000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S40000x128.size a
  hwx2_3 : ∀ i : grid2.Coords, EltTy.bits .f32 = 32 ∨ (Rect.block (s := S40000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S640000x128.size a
  hwx3_0 : ∀ i : grid3.Coords, EltTy.bits .f32 = 32 ∨ (Rect.block (s := S640000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S640000x128.size a
  hwx3_3 : ∀ i : grid3.Coords, EltTy.bits .f32 = 32 ∨ (Rect.block (s := S640000x128) S4000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S640000x128.size a
  hwx3_4 : ∀ i : grid3.Coords, EltTy.bits .f32 = 32 ∨ (Rect.block (s := S640000x128) S4000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S384x256.size a ≤ S384x256.size a
  hwx3_5 : ∀ i : grid3.Coords, EltTy.bits .f32 = 32 ∨ (Rect.block (s := S384x256) S384x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x128.size a ≤ S256x128.size a
  hwx3_7 : ∀ i : grid3.Coords, EltTy.bits .f32 = 32 ∨ (Rect.block (s := S256x128) S256x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x128.size a ≤ S640000x128.size a
  hwx3_9 : ∀ i : grid3.Coords, EltTy.bits .f32 = 32 ∨ (Rect.block (s := S640000x128) S4000x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S4000x1.size a ≤ S640000x1.size a
  hwx3_10 : ∀ i : grid3.Coords, EltTy.bits .f32 = 32 ∨ (Rect.block (s := S640000x1) S4000x1.size (cc3_transform_10 i) (hinb3_10 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def gather_S40000x128_S1280000x1_S1280000x128_1_0_n_n_0_1_1128 : GatherDims S40000x128 S1280000x1 S1280000x128 where
  offsetDims := [1]
  collapsedSliceDims := [0]
  operandBatchingDims := []
  startIndicesBatchingDims := []
  startIndexMap := [0]
  indexVectorDim := 1
  sliceSizes := ![1, 128]
  wf := gather_S40000x128_S1280000x1_S1280000x128_1_0_n_n_0_1_1128_wf
def dot_S4000x384_S384x256_S4000x256_1_0_0_1_n_n : DotDims S4000x384 S384x256 S4000x256 where
  lhsContracting := [1]
  rhsContracting := [0]
  lhsNonContracting := [0]
  rhsNonContracting := [1]
  lhsBatch := []
  rhsBatch := []
  wf := dot_S4000x384_S384x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S4000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_1) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26_2) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v26_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S4000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v73) S4000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S384x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v75) S256x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v78) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v80_0) S4000x128.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v80_1) S4000x1.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S40000x128 : Shape := ⟨2, ![40000, 128]⟩
abbrev S640000x128 : Shape := ⟨2, ![640000, 128]⟩
abbrev S2x640000 : Shape := ⟨2, ![2, 640000]⟩
abbrev S128x128 : Shape := ⟨2, ![128, 128]⟩
abbrev S128 : Shape := ⟨1, ![128]⟩
abbrev S384x256 : Shape := ⟨2, ![384, 256]⟩
abbrev S256 : Shape := ⟨1, ![256]⟩
abbrev S256x1 : Shape := ⟨2, ![256, 1]⟩
abbrev S1 : Shape := ⟨1, ![1]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S640000x384 : Shape := ⟨2, ![640000, 384]⟩
abbrev S640000x256 : Shape := ⟨2, ![640000, 256]⟩
abbrev S1x256 : Shape := ⟨2, ![1, 256]⟩
abbrev S1x1 : Shape := ⟨2, ![1, 1]⟩

abbrev nBuf : Space → Nat
  | .hbm => 228
  | .vmem => 0
  | .smem => 0
  | _ => 0

abbrev hbmTy0_0 (i : Nat) : BufTy := match i % 128 with
  | 0 => ⟨S40000x128, .f32⟩
  | 1 => ⟨S640000x128, .f32⟩
  | 2 => ⟨S2x640000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S384x256, .f32⟩
  | 18 => ⟨S256, .f32⟩
  | 19 => ⟨S256x1, .f32⟩
  | 20 => ⟨S1, .f32⟩
  | 21 => ⟨S1x640000, .i32⟩
  | 22 => ⟨S640000, .i32⟩
  | 23 => ⟨S1x640000, .i32⟩
  | 24 => ⟨S640000, .i32⟩
  | 25 => ⟨S40000x128, .f32⟩
  | 26 => ⟨S1x128, .f32⟩
  | 27 => ⟨S40000x128, .f32⟩
  | 28 => ⟨S40000x128, .f32⟩
  | 29 => ⟨S40000x128, .f32⟩
  | 30 => ⟨S1x128, .f32⟩
  | 31 => ⟨S40000x128, .f32⟩
  | 32 => ⟨S40000x128, .f32⟩
  | 33 => ⟨S640000x128, .f32⟩
  | 34 => ⟨S1x128, .f32⟩
  | 35 => ⟨S640000x128, .f32⟩
  | 36 => ⟨S640000x128, .f32⟩
  | 37 => ⟨S40000x128, .f32⟩
  | 38 => ⟨S1x128, .f32⟩
  | 39 => ⟨S40000x128, .f32⟩
  | 40 => ⟨S40000x128, .f32⟩
  | 41 => ⟨S40000x128, .f32⟩
  | 42 => ⟨S1x128, .f32⟩
  | 43 => ⟨S40000x128, .f32⟩
  | 44 => ⟨S40000x128, .f32⟩
  | 45 => ⟨S_, .i32⟩
  | 46 => ⟨S640000, .i32⟩
  | 47 => ⟨S640000, .i1⟩
  | 48 => ⟨S_, .i32⟩
  | 49 => ⟨S640000, .i32⟩
  | 50 => ⟨S640000, .i32⟩
  | 51 => ⟨S640000, .i32⟩
  | 52 => ⟨S640000x1, .i32⟩
  | 53 => ⟨S640000x128, .f32⟩
  | 54 => ⟨S_, .i32⟩
  | 55 => ⟨S640000, .i32⟩
  | 56 => ⟨S640000, .i1⟩
  | 57 => ⟨S_, .i32⟩
  | 58 => ⟨S640000, .i32⟩
  | 59 => ⟨S640000, .i32⟩
  | 60 => ⟨S640000, .i32⟩
  | 61 => ⟨S640000x1, .i32⟩
  | 62 => ⟨S640000x128, .f32⟩
  | 63 => ⟨S640000x128, .f32⟩
  | 64 => ⟨S640000x128, .f32⟩
  | 65 => ⟨S640000x128, .f32⟩
  | 66 => ⟨S640000x128, .f32⟩
  | 67 => ⟨S_, .f32⟩
  | 68 => ⟨S640000x128, .f32⟩
  | 69 => ⟨S640000x128, .f32⟩
  | 70 => ⟨S_, .f32⟩
  | 71 => ⟨S640000x128, .f32⟩
  | 72 => ⟨S640000x128, .f32⟩
  | 73 => ⟨S_, .i32⟩
  | 74 => ⟨S640000, .i32⟩
  | 75 => ⟨S640000, .i1⟩
  | 76 => ⟨S_, .i32⟩
  | 77 => ⟨S640000, .i32⟩
  | 78 => ⟨S640000, .i32⟩
  | 79 => ⟨S640000, .i32⟩
  | 80 => ⟨S640000x1, .i32⟩
  | 81 => ⟨S640000x128, .f32⟩
  | 82 => ⟨S640000x128, .f32⟩
  | 83 => ⟨S_, .f32⟩
  | 84 => ⟨S40000x128, .f32⟩
  | 85 => ⟨S640000x1, .i32⟩
  | 86 => ⟨S40000x128, .f32⟩
  | 87 => ⟨S_, .f32⟩
  | 88 => ⟨S40000x128, .f32⟩
  | 89 => ⟨S640000x1, .i32⟩
  | 90 => ⟨S40000x128, .f32⟩
  | 91 => ⟨S_, .f32⟩
  | 92 => ⟨S40000x128, .f32⟩
  | 93 => ⟨S40000x128, .f32⟩
  | 94 => ⟨S40000x128, .f32⟩
  | 95 => ⟨S40000x128, .f32⟩
  | 96 => ⟨S_, .f32⟩
  | 97 => ⟨S128, .f32⟩
  | 98 => ⟨S_, .f32⟩
  | 99 => ⟨S128, .f32⟩
  | 100 => ⟨S128, .f32⟩
  | 101 => ⟨S_, .i32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S40000x128, .f32⟩
  | 109 => ⟨S40000x128, .f32⟩
  | 110 => ⟨S40000x128, .f32⟩
  | 111 => ⟨S_, .f32⟩
  | 112 => ⟨S_, .f32⟩
  | 113 => ⟨S_, .f32⟩
  | 114 => ⟨S_, .f32⟩
  | 115 => ⟨S128, .f32⟩
  | 116 => ⟨S128, .f32⟩
  | 117 => ⟨S128, .f32⟩
  | 118 => ⟨S_, .f32⟩
  | 119 => ⟨S_, .i1⟩
  | 120 => ⟨S_, .f32⟩
  | 121 => ⟨S_, .f32⟩
  | 122 => ⟨S128, .f32⟩
  | 123 => ⟨S128, .f32⟩
  | 124 => ⟨S1x128, .f32⟩
  | 125 => ⟨S40000x128, .f32⟩
  | 126 => ⟨S40000x128, .f32⟩
  | 127 => ⟨S_, .f32⟩
  | _ => ⟨S40000x128, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S40000x128, .f32⟩
  | 5 => ⟨S40000x128, .f32⟩
  | 6 => ⟨S1x128, .f32⟩
  | 7 => ⟨S40000x128, .f32⟩
  | 8 => ⟨S40000x128, .f32⟩
  | 9 => ⟨S1x128, .f32⟩
  | 10 => ⟨S40000x128, .f32⟩
  | 11 => ⟨S40000x128, .f32⟩
  | 12 => ⟨S_, .f32⟩
  | 13 => ⟨S40000x128, .f32⟩
  | 14 => ⟨S40000x128, .f32⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S640000x128, .f32⟩
  | 28 => ⟨S640000x128, .f32⟩
  | 29 => ⟨S640000x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S1x128, .f32⟩
  | 44 => ⟨S640000x128, .f32⟩
  | 45 => ⟨S640000x128, .f32⟩
  | 46 => ⟨S_, .f32⟩
  | 47 => ⟨S128, .f32⟩
  | 48 => ⟨S128, .f32⟩
  | 49 => ⟨S128, .f32⟩
  | 50 => ⟨S1x128, .f32⟩
  | 51 => ⟨S640000x128, .f32⟩
  | 52 => ⟨S640000x128, .f32⟩
  | 53 => ⟨S1x128, .f32⟩
  | 54 => ⟨S640000x128, .f32⟩
  | 55 => ⟨S640000x128, .f32⟩
  | 56 => ⟨S1x128, .f32⟩
  | 57 => ⟨S640000x128, .f32⟩
  | 58 => ⟨S640000x128, .f32⟩
  | 59 => ⟨S_, .f32⟩
  | 60 => ⟨S640000x128, .f32⟩
  | 61 => ⟨S640000x128, .f32⟩
  | 62 => ⟨S_, .i32⟩
  | 63 => ⟨S640000, .i32⟩
  | 64 => ⟨S640000, .i1⟩
  | 65 => ⟨S_, .i32⟩
  | 66 => ⟨S640000, .i32⟩
  | 67 => ⟨S640000, .i32⟩
  | 68 => ⟨S640000, .i32⟩
  | 69 => ⟨S640000x1, .i32⟩
  | 70 => ⟨S640000x128, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x128, .f32⟩
  | 80 => ⟨S640000x384, .f32⟩
  | 81 => ⟨S640000x256, .f32⟩
  | 82 => ⟨S1x256, .f32⟩
  | 83 => ⟨S640000x256, .f32⟩
  | 84 => ⟨S640000x256, .f32⟩
  | 85 => ⟨S_, .f32⟩
  | 86 => ⟨S640000x256, .f32⟩
  | 87 => ⟨S640000x256, .f32⟩
  | 88 => ⟨S640000x1, .f32⟩
  | 89 => ⟨S1x1, .f32⟩
  | 90 => ⟨S640000x1, .f32⟩
  | 91 => ⟨S640000x1, .f32⟩
  | 92 => ⟨S640000x1, .f32⟩
  | 93 => ⟨S640000x1, .f32⟩
  | 94 => ⟨S_, .f32⟩
  | 95 => ⟨S640000x1, .f32⟩
  | 96 => ⟨S640000x1, .f32⟩
  | 97 => ⟨S_, .f32⟩
  | 98 => ⟨S640000x1, .f32⟩
  | 99 => ⟨S640000x1, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_v25 : Ref sig .tc := ⟨.hbm, 47, rfl⟩
abbrev main_c_0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_1 : Ref sig .tc := ⟨.hbm, 54, rfl⟩
abbrev main_v31 : Ref sig .tc := ⟨.hbm, 55, rfl⟩
abbrev main_v32 : Ref sig .tc := ⟨.hbm, 56, rfl⟩
abbrev main_c_2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_v45 : Ref sig .tc := ⟨.hbm, 72, rfl⟩
abbrev main_c_4 : Ref sig .tc := ⟨.hbm, 73, rfl⟩
abbrev main_v46 : Ref sig .tc := ⟨.hbm, 74, rfl⟩
abbrev main_v47 : Ref sig .tc := ⟨.hbm, 75, rfl⟩
abbrev main_c_5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_6 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_8 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_9 : Ref sig .tc := ⟨.hbm, 96, rfl⟩
abbrev main_v64 : Ref sig .tc := ⟨.hbm, 97, rfl⟩
abbrev main_cst_10 : Ref sig .tc := ⟨.hbm, 98, rfl⟩
abbrev main_v65 : Ref sig .tc := ⟨.hbm, 99, rfl⟩
abbrev main_v66 : Ref sig .tc := ⟨.hbm, 100, rfl⟩
abbrev main_c_11 : Ref sig .tc := ⟨.hbm, 101, rfl⟩
abbrev main_call0_cst : Ref sig .tc := ⟨.hbm, 102, rfl⟩
abbrev main_call0_v0 : Ref sig .tc := ⟨.hbm, 103, rfl⟩
abbrev main_call0_v1 : Ref sig .tc := ⟨.hbm, 104, rfl⟩
abbrev main_call0_cst_0 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_v5 : Ref sig .tc := ⟨.hbm, 109, rfl⟩
abbrev main_call0_v6 : Ref sig .tc := ⟨.hbm, 110, rfl⟩
abbrev main_call0_v7 : Ref sig .tc := ⟨.hbm, 111, rfl⟩
abbrev main_call0_cst_1 : Ref sig .tc := ⟨.hbm, 112, rfl⟩
abbrev main_call0_v8 : Ref sig .tc := ⟨.hbm, 113, rfl⟩
abbrev main_call0_cst_2 : Ref sig .tc := ⟨.hbm, 114, rfl⟩
abbrev main_call0_v9 : Ref sig .tc := ⟨.hbm, 115, rfl⟩
abbrev main_call0_v10 : Ref sig .tc := ⟨.hbm, 116, rfl⟩
abbrev main_call0_v11 : Ref sig .tc := ⟨.hbm, 117, rfl⟩
abbrev main_call0_cst_3 : Ref sig .tc := ⟨.hbm, 118, rfl⟩
abbrev main_call0_v12 : Ref sig .tc := ⟨.hbm, 119, rfl⟩
abbrev main_call0_cst_4 : Ref sig .tc := ⟨.hbm, 120, rfl⟩
abbrev main_call0_call0_v0 : Ref sig .tc := ⟨.hbm, 121, rfl⟩
abbrev main_call0_call0_v1 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_12 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_call1_cst : Ref sig .tc := ⟨.hbm, 140, rfl⟩
abbrev main_call1_v0 : Ref sig .tc := ⟨.hbm, 141, rfl⟩
abbrev main_v83 : Ref sig .tc := ⟨.hbm, 142, rfl⟩
abbrev main_cst_13 : Ref sig .tc := ⟨.hbm, 143, rfl⟩
abbrev main_v84 : Ref sig .tc := ⟨.hbm, 144, rfl⟩
abbrev main_cst_14 : Ref sig .tc := ⟨.hbm, 145, rfl⟩
abbrev main_v85 : Ref sig .tc := ⟨.hbm, 146, rfl⟩
abbrev main_v86 : Ref sig .tc := ⟨.hbm, 147, rfl⟩
abbrev main_c_15 : Ref sig .tc := ⟨.hbm, 148, rfl⟩
abbrev main_call2_cst : Ref sig .tc := ⟨.hbm, 149, rfl⟩
abbrev main_call2_v0 : Ref sig .tc := ⟨.hbm, 150, rfl⟩
abbrev main_call2_v1 : Ref sig .tc := ⟨.hbm, 151, rfl⟩
abbrev main_call2_cst_0 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_call2_v5 : Ref sig .tc := ⟨.hbm, 156, rfl⟩
abbrev main_call2_v6 : Ref sig .tc := ⟨.hbm, 157, rfl⟩
abbrev main_call2_v7 : Ref sig .tc := ⟨.hbm, 158, rfl⟩
abbrev main_call2_cst_1 : Ref sig .tc := ⟨.hbm, 159, rfl⟩
abbrev main_call2_v8 : Ref sig .tc := ⟨.hbm, 160, rfl⟩
abbrev main_call2_cst_2 : Ref sig .tc := ⟨.hbm, 161, rfl⟩
abbrev main_call2_v9 : Ref sig .tc := ⟨.hbm, 162, rfl⟩
abbrev main_call2_v10 : Ref sig .tc := ⟨.hbm, 163, rfl⟩
abbrev main_call2_v11 : Ref sig .tc := ⟨.hbm, 164, rfl⟩
abbrev main_call2_cst_3 : Ref sig .tc := ⟨.hbm, 165, rfl⟩
abbrev main_call2_v12 : Ref sig .tc := ⟨.hbm, 166, rfl⟩
abbrev main_call2_cst_4 : Ref sig .tc := ⟨.hbm, 167, rfl⟩
abbrev main_call2_call0_v0 : Ref sig .tc := ⟨.hbm, 168, rfl⟩
abbrev main_call2_call0_v1 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_cst_16 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_call3_cst : Ref sig .tc := ⟨.hbm, 187, rfl⟩
abbrev main_call3_v0 : Ref sig .tc := ⟨.hbm, 188, rfl⟩
abbrev main_v103 : Ref sig .tc := ⟨.hbm, 189, rfl⟩
abbrev main_c_17 : Ref sig .tc := ⟨.hbm, 190, rfl⟩
abbrev main_v104 : Ref sig .tc := ⟨.hbm, 191, rfl⟩
abbrev main_v105 : Ref sig .tc := ⟨.hbm, 192, rfl⟩
abbrev main_c_18 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_c_19 : Ref sig .tc := ⟨.hbm, 199, rfl⟩
abbrev main_v111 : Ref sig .tc := ⟨.hbm, 200, rfl⟩
abbrev main_v112 : Ref sig .tc := ⟨.hbm, 201, rfl⟩
abbrev main_c_20 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_call4_cst : Ref sig .tc := ⟨.hbm, 213, rfl⟩
abbrev main_call4_v0 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_cst_21 : Ref sig .tc := ⟨.hbm, 222, rfl⟩
abbrev main_v130 : Ref sig .tc := ⟨.hbm, 223, rfl⟩
abbrev main_v131 : Ref sig .tc := ⟨.hbm, 224, rfl⟩
abbrev main_cst_22 : Ref sig .tc := ⟨.hbm, 225, rfl⟩
abbrev main_v132 : Ref sig .tc := ⟨.hbm, 226, rfl⟩
abbrev main_v133 : Ref sig .tc := ⟨.hbm, 227, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S640000x128_S128_d0 : S640000x128.ReducesTo [0] S128
  concatenates_S640000x128_S640000x128_S640000x128_S640000x384_d1 : Shape.Concatenates [S640000x128, S640000x128, S640000x128] S640000x384 1
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  dot_S40000x128_S128x128_S40000x128_1_0_0_1_n_n_wf : DotDims.WF S40000x128 S128x128 S40000x128 [1] [0] [0] [1] [] []
  dot_S640000x128_S128x128_S640000x128_1_0_0_1_n_n_wf : DotDims.WF S640000x128 S128x128 S640000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S640000x384_S384x256_S640000x256_1_0_0_1_n_n_wf : DotDims.WF S640000x384 S384x256 S640000x256 [1] [0] [0] [1] [] []
  dot_S640000x256_S256x1_S640000x1_1_0_0_1_n_n_wf : DotDims.WF S640000x256 S256x1 S640000x1 [1] [0] [0] [1] [] []

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S640000x384_S384x256_S640000x256_1_0_0_1_n_n : DotDims S640000x384 S384x256 S640000x256 where
  lhsContracting := [1]
  rhsContracting := [0]
  lhsNonContracting := [0]
  rhsNonContracting := [1]
  lhsBatch := []
  rhsBatch := []
  wf := dot_S640000x384_S384x256_S640000x256_1_0_0_1_n_n_wf
def dot_S640000x256_S256x1_S640000x1_1_0_0_1_n_n : DotDims S640000x256 S256x1 S640000x1 where
  lhsContracting := [1]
  rhsContracting := [0]
  lhsNonContracting := [0]
  rhsNonContracting := [1]
  lhsBatch := []
  rhsBatch := []
  wf := dot_S640000x256_S256x1_S640000x1_1_0_0_1_n_n_wf

class Facts : Prop extends Facts₀ where

variable [Facts]
-- ==== Proof.Half0.lean ====
import proofs.«143299_j13005160972635_2_alg».proof.Proof.Gen.KernelIdeal.Launch
import proofs.«143299_j13005160972635_2_alg».proof.Proof.Gen.KernelIdeal.Skeleton
import proofs.«143299_j13005160972635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node projection region (the first kernel launch), at the buffer contents `V` it is entered from

Each grid point reads a block of 2000 rows of the node features `x` (128 columns), the whole 128 x 512 weight matrix
and the one-row bias (512 columns), and writes `x * W + bias` (a matrix product, the bias row added to every row)
over the same 2000 rows of the 512-column output. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2000x128 := Rect.unit (s := S2000x128) ![0, 0] S2000x128.size inb_S2000x128_S2000x128_0_0
abbrev r0_w : Rect S128x512 := Rect.unit (s := S128x512) ![0, 0] S128x512.size inb_S128x512_S128x512_0_0
abbrev r0_b : Rect S1x512 := Rect.unit (s := S1x512) ![0, 0] S1x512.size inb_S1x512_S1x512_0_0
abbrev r0_o : Rect S2000x512 := Rect.unit (s := S2000x512) ![0, 0] S2000x512.size inb_S2000x512_S2000x512_0_0

/-- The output block after the body: the one store of the payload over the three loaded blocks. -/
def out0_3 (x0 : Vec F S2000x128 .f32) (x1 : Vec F S128x512 .f32) (x2 : Vec F S1x512 .f32) : Vec F S2000x512 .f32 :=
  View.canon [⟨r0_o, k0_pay1 (View.ld x0 r0_x) (View.ld x1 r0_w) (View.ld x2 r0_b)⟩]

theorem cover0_3 (p0 : Vec F S2000x512 .f32) (y : S2000x512.Idx) :
    ∃ pc ∈ ([⟨r0_o, p0⟩] : List (View.Piece (Elt F) S2000x512 .f32)), y ∈ pc.1.set :=
  View.cover_of_tiled [⟨r0_o, p0⟩] S2000x512.size (by rfl) y

set_option maxHeartbeats 1000000 in
theorem sound_kernel0 (c : Dev nD) (E : Set ℕ) (i : grid0.Coords)
    (arg1 : Memref sig .tc .vmem S2000x128 .f32) (harg1 : arg1.IsWhole) (arg2 : Memref sig .tc .vmem S128x512 .f32) (harg2 : arg2.IsWhole)
    (arg3 : Memref sig .tc .vmem S1x512 .f32) (harg3 : arg3.IsWhole) (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the region on core `c`: the arrays as the region finds them; after the body at point `t` each
    input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Half1.lean ====
import proofs.«143299_j13005160972635_2_alg».proof.Proof.Gen.KernelIdeal.Launch
import proofs.«143299_j13005160972635_2_alg».proof.Proof.Gen.KernelIdeal.Skeleton
import proofs.«143299_j13005160972635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The edge gate region (the second kernel launch), at the buffer contents `V` it is entered from

Each grid point reads a block of 4000 edge rows `e`, the square weight `Cw`, the one-row bias `Cb`, the 4000 gathered
rows `dxd` and the 4000 gathered double-width rows `bex`, and writes three blocks over the same 4000 rows:
`(dxd + bex[:, 128:]) + (e · Cw + Cb)`, its logistic, and the logistic times `bex[:, :128]`. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_big : Rect S4000x128 := Rect.unit (s := S4000x128) ![0, 0] S4000x128.size inb_S4000x128_S4000x128_0_0
abbrev r1_sq : Rect S128x128 := Rect.unit (s := S128x128) ![0, 0] S128x128.size inb_S128x128_S128x128_0_0
abbrev r1_row : Rect S1x128 := Rect.unit (s := S1x128) ![0, 0] S1x128.size inb_S1x128_S1x128_0_0
/-- The left and the right half (columns 0..127 and 128..255) of the double-width block. -/
abbrev r1_lo : Rect S4000x256 := Rect.unit (s := S4000x256) ![0, 0] S4000x128.size inb_S4000x256_S4000x128_0_0
abbrev r1_hi : Rect S4000x256 := Rect.unit (s := S4000x256) ![0, 128] S4000x128.size inb_S4000x256_S4000x128_0_128

/-- The first output block after the body: the one store of the pre-activation payload over the loaded blocks. -/
def out1_5 (x0 : Vec F S4000x128 .f32) (x1 : Vec F S128x128 .f32) (x2 : Vec F S1x128 .f32) (x3 : Vec F S4000x128 .f32)
    (x4 : Vec F S4000x256 .f32) : Vec F S4000x128 .f32 :=
  View.canon [⟨r1_big, k1_pay1 (View.ld x0 r1_big) (View.ld x1 r1_sq) (View.ld x2 r1_row) (View.ld x4 r1_hi) (View.ld x3 r1_big)⟩]

/-- The second output block: the one store of the logistic payload. -/
def out1_6 (x0 : Vec F S4000x128 .f32) (x1 : Vec F S128x128 .f32) (x2 : Vec F S1x128 .f32) (x3 : Vec F S4000x128 .f32)
    (x4 : Vec F S4000x256 .f32) : Vec F S4000x128 .f32 :=
  View.canon [⟨r1_big, k1_pay2 (View.ld x0 r1_big) (View.ld x1 r1_sq) (View.ld x2 r1_row) (View.ld x4 r1_hi) (View.ld x3 r1_big)⟩]

/-- The third output block: the one store of the gated payload. -/
def out1_7 (x0 : Vec F S4000x128 .f32) (x1 : Vec F S128x128 .f32) (x2 : Vec F S1x128 .f32) (x3 : Vec F S4000x128 .f32)
    (x4 : Vec F S4000x256 .f32) : Vec F S4000x128 .f32 :=
  View.canon [⟨r1_big, k1_pay3 (View.ld x0 r1_big) (View.ld x1 r1_sq) (View.ld x2 r1_row) (View.ld x4 r1_lo) (View.ld x4 r1_hi) (View.ld x3 r1_big)⟩]

theorem cover1_out (p0 : Vec F S4000x128 .f32) (y : S4000x128.Idx) :
    ∃ pc ∈ ([⟨r1_big, p0⟩] : List (View.Piece (Elt F) S4000x128 .f32)), y ∈ pc.1.set :=
  View.cover_of_tiled [⟨r1_big, p0⟩] S4000x128.size (by rfl) y

set_option maxHeartbeats 2000000 in
theorem sound_kernel1 (c : Dev nD) (E : Set ℕ) (i : grid1.Coords)
    (arg1 : Memref sig .tc .vmem S4000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S4000x128 .f32) (harg4 : arg4.IsWhole)
    (arg5 : Memref sig .tc .vmem S4000x256 .f32) (harg5 : arg5.IsWhole) (arg6 : Memref sig .tc .vmem S4000x128 .f32) (harg6 : arg6.IsWhole)
    (arg7 : Memref sig .tc .vmem S4000x128 .f32) (harg7 : arg7.IsWhole) (arg8 : Memref sig .tc .vmem S4000x128 .f32) (harg8 : arg8.IsWhole)
    (x0 : Vec F S4000x128 .f32) (x1 : Vec F S128x128 .f32) (x2 : Vec F S1x128 .f32) (x3 : Vec F S4000x128 .f32) (x4 : Vec F S4000x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)
            ∗ owns (c : Thread nD τ) arg7 fullShare (out1_6 x0 x1 x2 x3 x4)
            ∗ owns (c : Thread nD τ) arg8 fullShare (out1_7 x0 x1 x2 x3 x4)) -∗ K ⟨⟩))
      ⊢ wp frame (wpE (defs₀ (F := F)) Variants.none c none) E
          (cc1__edge_sigma_kernel i arg1 harg1 arg2 harg2 arg3 harg3 arg4 harg4 arg5 harg5 arg6 harg6 arg7 harg7 arg8 harg8) K := by
  simp only [cc1__edge_sigma_kernel_eq_skeleton]; unfold cc1__edge_sigma_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_out _)
  isplitl [H6]
  · iexists _; isplitr
    swap; · iexact H6
    ipureintro
    exact View.read_writes_eq_canon _ _ _ (cover1_out _)
  iexists _; isplitr
  swap; · iexact H7
  ipureintro
  exact View.read_writes_eq_canon _ _ _ (cover1_out _)

/-- The proof data of the region on core `c`: the arrays as the region finds them; after the body at point `t` each
    input's buffer at its block and each output's at its `out1_w` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Half2.lean ====
import proofs.«143299_j13005160972635_2_alg».proof.Proof.Gen.KernelIdeal.Launch
import proofs.«143299_j13005160972635_2_alg».proof.Proof.Gen.KernelIdeal.Skeleton
import proofs.«143299_j13005160972635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node normalisation region (the third kernel launch), at the buffer contents `V` it is entered from

Each grid point reads a block of 4000 rows of the pre-activation, the one-row scale and the one-row shift, and writes
`max (x * scale + shift, 0)` over the same 4000 rows. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_big : Rect S4000x128 := Rect.unit (s := S4000x128) ![0, 0] S4000x128.size inb_S4000x128_S4000x128_0_0
abbrev r2_row : Rect S1x128 := Rect.unit (s := S1x128) ![0, 0] S1x128.size inb_S1x128_S1x128_0_0

/-- The output block after the body: the one store of the payload over the three loaded blocks. -/
def out2_3 (x0 : Vec F S4000x128 .f32) (x1 : Vec F S1x128 .f32) (x2 : Vec F S1x128 .f32) : Vec F S4000x128 .f32 :=
  View.canon [⟨r2_big, k2_pay1 (View.ld x0 r2_big) (View.ld x1 r2_row) (View.ld x2 r2_row)⟩]

theorem cover2_3 (p0 : Vec F S4000x128 .f32) (y : S4000x128.Idx) :
    ∃ pc ∈ ([⟨r2_big, p0⟩] : List (View.Piece (Elt F) S4000x128 .f32)), y ∈ pc.1.set :=
  View.cover_of_tiled [⟨r2_big, p0⟩] S4000x128.size (by rfl) y

set_option maxHeartbeats 1000000 in
theorem sound_kernel2 (c : Dev nD) (E : Set ℕ) (i : grid2.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__x_bn_relu_kernel i arg1 harg1 arg2 harg2 arg3 harg3 arg4 harg4) K := by
  simp only [cc2__x_bn_relu_kernel_eq_skeleton]; unfold cc2__x_bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region on core `c`: the arrays as the region finds them; after the body at point `t` each
    input's buffer at its block and the output's at `out2_3` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Half3.lean ====
import proofs.«143299_j13005160972635_2_alg».proof.Proof.Gen.KernelIdeal.Launch
import proofs.«143299_j13005160972635_2_alg».proof.Proof.Gen.KernelIdeal.Skeleton
import proofs.«143299_j13005160972635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The edge output region (the fourth kernel launch), at the buffer contents `V` it is entered from

Each grid point reads a block of 4000 rows of the edge pre-activation, the one-row scale and shift, the 4000 gathered source
and destination node rows, and the two dense layers' weights and bias rows. It writes the normalised, clamped edge rows
`max (e * scale + shift, 0)`, and the one-column logistic of the second dense layer over the concatenated features. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

abbrev r3_big : Rect S4000x128 := Rect.unit (s := S4000x128) ![0, 0] S4000x128.size inb_S4000x128_S4000x128_0_0
abbrev r3_row : Rect S1x128 := Rect.unit (s := S1x128) ![0, 0] S1x128.size inb_S1x128_S1x128_0_0
abbrev r3_w1 : Rect S384x256 := Rect.unit (s := S384x256) ![0, 0] S384x256.size inb_S384x256_S384x256_0_0
abbrev r3_b1 : Rect S1x256 := Rect.unit (s := S1x256) ![0, 0] S1x256.size inb_S1x256_S1x256_0_0
abbrev r3_w2 : Rect S256x128 := Rect.unit (s := S256x128) ![0, 0] S256x128.size inb_S256x128_S256x128_0_0
abbrev r3_col : Rect S4000x1 := Rect.unit (s := S4000x1) ![0, 0] S4000x1.size inb_S4000x1_S4000x1_0_0

/-- The edge-row output block after the body: the one store of the clamped affine image of the edge block. -/
def out3_9 (x0 : Vec F S4000x128 .f32) (x1 : Vec F S1x128 .f32) (x2 : Vec F S1x128 .f32) : Vec F S4000x128 .f32 :=
  View.canon [⟨r3_big, k3_pay2 (View.ld x0 r3_big) (View.ld x1 r3_row) (View.ld x2 r3_row)⟩]

/-- The score output block after the body: the one store of the logistic of the second layer's first column. -/
def out3_10 (x0 : Vec F S4000x128 .f32) (x1 : Vec F S1x128 .f32) (x2 : Vec F S1x128 .f32) (x3 : Vec F S4000x128 .f32)
    (x4 : Vec F S4000x128 .f32) (x5 : Vec F S384x256 .f32) (x6 : Vec F S1x256 .f32) (x7 : Vec F S256x128 .f32)
    (x8 : Vec F S1x128 .f32) : Vec F S4000x1 .f32 :=
  View.canon [⟨r3_col, k3_pay1 (k3_pay3 (View.ld x0 r3_big) (View.ld x1 r3_row) (View.ld x2 r3_row) (View.ld x3 r3_big)
    (View.ld x4 r3_big) (View.ld x5 r3_w1) (View.ld x6 r3_b1) (View.ld x7 r3_w2) (View.ld x8 r3_row))⟩]

theorem cover3_9 (p0 : Vec F S4000x128 .f32) (y : S4000x128.Idx) :
    ∃ pc ∈ ([⟨r3_big, p0⟩] : List (View.Piece (Elt F) S4000x128 .f32)), y ∈ pc.1.set :=
  View.cover_of_tiled [⟨r3_big, p0⟩] S4000x128.size (by rfl) y

theorem cover3_10 (p0 : Vec F S4000x1 .f32) (y : S4000x1.Idx) :
    ∃ pc ∈ ([⟨r3_col, p0⟩] : List (View.Piece (Elt F) S4000x1 .f32)), y ∈ pc.1.set :=
  View.cover_of_tiled [⟨r3_col, p0⟩] S4000x1.size (by rfl) y

set_option maxHeartbeats 4000000 in
theorem sound_kernel3 (c : Dev nD) (E : Set ℕ) (i : grid3.Coords)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S4000x128 .f32) (harg4 : arg4.IsWhole)
    (arg5 : Memref sig .tc .vmem S4000x128 .f32) (harg5 : arg5.IsWhole)
    (arg6 : Memref sig .tc .vmem S384x256 .f32) (harg6 : arg6.IsWhole)
    (arg7 : Memref sig .tc .vmem S1x256 .f32) (harg7 : arg7.IsWhole)
    (arg8 : Memref sig .tc .vmem S256x128 .f32) (harg8 : arg8.IsWhole)
    (arg9 : Memref sig .tc .vmem S1x128 .f32) (harg9 : arg9.IsWhole)
    (arg10 : Memref sig .tc .vmem S4000x128 .f32) (harg10 : arg10.IsWhole)
    (arg11 : Memref sig .tc .vmem S4000x1 .f32) (harg11 : arg11.IsWhole)
    (x0 : Vec F S4000x128 .f32) (x1 : Vec F S1x128 .f32) (x2 : Vec F S1x128 .f32) (x3 : Vec F S4000x128 .f32) (x4 : Vec F S4000x128 .f32) (x5 : Vec F S384x256 .f32) (x6 : Vec F S1x256 .f32) (x7 : Vec F S256x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out3_9 x0 x1 x2)
            ∗ owns (c : Thread nD τ) arg11 fullShare (out3_10 x0 x1 x2 x3 x4 x5 x6 x7 x8)) -∗ K ⟨⟩))
      ⊢ wp frame (wpE (defs₀ (F := F)) Variants.none c none) E (cc3__edge_final_kernel i arg1 harg1 arg2 harg2 arg3 harg3 arg4 harg4 arg5 harg5 arg6 harg6 arg7 harg7 arg8 harg8 arg9 harg9 arg10 harg10 arg11 harg11) K := by
  simp only [cc3__edge_final_kernel_eq_skeleton]; unfold cc3__edge_final_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover3_9 _)
  iexists _; isplitr
  swap; · iexact H10
  ipureintro
  exact View.read_writes_eq_canon _ _ _ (cover3_10 _)

/-- The proof data of the region on core `c`: the arrays as the region finds them; after the body at point `t` each
    input's buffer at its block and each output's at its store of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t)
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) :
    (dat3 V c).after 9 t = out3_9 (iblk3 V c 0 t) (iblk3 V c 1 t) (iblk3 V c 2 t) := by dsimp only [dat3]
theorem after3_10 (c : Dev nD) (t : Fin cfg3.N) :
    (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ (grid3.coords t) _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KRun.lean ====
import proofs.«143299_j13005160972635_2_alg».proof.Proof.Gen.KernelIdeal.Launch
import proofs.«143299_j13005160972635_2_alg».proof.Proof.Gen.KernelIdeal.Skeleton
import proofs.«143299_j13005160972635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«143299_j13005160972635_2_alg».proof.Proof.Half0
import proofs.«143299_j13005160972635_2_alg».proof.Proof.Half1
import proofs.«143299_j13005160972635_2_alg».proof.Proof.Half2
import proofs.«143299_j13005160972635_2_alg».proof.Proof.Half3
import proofs.«143299_j13005160972635_2_alg».proof.Proof.Gen.KernelIdeal.Regions
import Idealize.ShloMosaic.Lib.Pipeline.Regions
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The program's run: the four regions between the host stretches

Between two items of the program every unscoped buffer of a core is held whole at a known contents: the launch memory, then
each host stretch applied to it, then, after a region, the region's output arrays at what its write-backs leave and every
other buffer as the region was entered. The run reads every unscoped buffer of the final memory at the last of these. -/

/-- A valuation read at the TensorCore's references. -/
abbrev rd (W : Dev nD → Valuation τ sig (Elt F)) : (c : Dev nD) → (b : Ref sig .tc) → Buf (Elt F) ((c : Thread nD τ).loc b) := fun c b => W c b

set_option backward.isDefEq.respectTransparency.types false

/-! ## Region 0 between two valuations -/

section Region0
variable (Yin : Dev nD → Valuation τ sig (Elt F))

/-- What region 0 leaves in `main_v7`: output window 3's write-backs folded over the whole grid. -/
def o0_3 (c : Dev nD) : Buf (Elt F) ((c : Thread nD τ).loc main_v7) := (dat0 (rd Yin) c).arrAt 3 cfg0.N
/-- The buffers after region 0: its output arrays at what it leaves, every other buffer as entered. -/
def Yout0 (c : Dev nD) : Valuation τ sig (Elt F) := Function.update (Yin c) (Proc.devRef .tc main_v7) (o0_3 Yin c)

theorem hF0 (c : Dev nD) : ∀ w : Fin cfg0.W, (dat0 (rd Yin) c).arrAt w cfg0.N = rd (Yout0 Yin) c (Pipeline.arrRef spec0 w)
  | ⟨0, _⟩ => by
      refine (((dat0 (rd Yin) c).arrAt_in ⟨0, by decide⟩ rfl _).trans (A_eq0 (rd Yin) c ⟨0, by decide⟩)).trans ?_
      show Yin c (Proc.devRef .tc (Pipeline.arrRef spec0 ⟨0, by decide⟩)) = Yout0 Yin c (Proc.devRef .tc (Pipeline.arrRef spec0 ⟨0, by decide⟩))
      unfold Yout0
      rw [Function.update_of_ne (StableHlo.devRef_ne_of_ne (by decide : Pipeline.arrRef spec0 ⟨0, by decide⟩ ≠ main_v7))]
  | ⟨1, _⟩ => by
      refine (((dat0 (rd Yin) c).arrAt_in ⟨1, by decide⟩ rfl _).trans (A_eq0 (rd Yin) c ⟨1, by decide⟩)).trans ?_
      show Yin c (Proc.devRef .tc (Pipeline.arrRef spec0 ⟨1, by decide⟩)) = Yout0 Yin c (Proc.devRef .tc (Pipeline.arrRef spec0 ⟨1, by decide⟩))
      unfold Yout0
      rw [Function.update_of_ne (StableHlo.devRef_ne_of_ne (by decide : Pipeline.arrRef spec0 ⟨1, by decide⟩ ≠ main_v7))]
  | ⟨2, _⟩ => by
      refine (((dat0 (rd Yin) c).arrAt_in ⟨2, by decide⟩ rfl _).trans (A_eq0 (rd Yin) c ⟨2, by decide⟩)).trans ?_
      show Yin c (Proc.devRef .tc (Pipeline.arrRef spec0 ⟨2, by decide⟩)) = Yout0 Yin c (Proc.devRef .tc (Pipeline.arrRef spec0 ⟨2, by decide⟩))
      unfold Yout0
      rw [Function.update_of_ne (StableHlo.devRef_ne_of_ne (by decide : Pipeline.arrRef spec0 ⟨2, by decide⟩ ≠ main_v7))]
  | ⟨3, _⟩ => by
      show _ = Yout0 Yin c (Proc.devRef .tc main_v7)
      unfold Yout0
      rw [Function.update_self]
      rfl

theorem hrest0 (c : Dev nD) : ∀ b, b ∉ Finset.univ.image (Pipeline.arrRef spec0) → rd (Yout0 Yin) c b = rd Yin c b := fun b hb => by
  show Yout0 Yin c (Proc.devRef .tc b) = Yin c (Proc.devRef .tc b)
  unfold Yout0
  rw [Function.update_of_ne (StableHlo.devRef_ne_of_ne (fun e => hb (Finset.mem_image.mpr ⟨⟨3, by decide⟩, Finset.mem_univ _, (e.symm : Pipeline.arrRef spec0 ⟨3, by decide⟩ = b)⟩)))]

/-- A buffer region 0 does not write keeps its contents. -/
theorem Yout0_of (c : Dev nD) (b : Ref sig .tc) (h : b ∉ ([main_v7] : List (Ref sig .tc))) : Yout0 Yin c (Proc.devRef .tc b) = Yin c (Proc.devRef .tc b) := by
  unfold Yout0
  rw [Function.update_of_ne (StableHlo.devRef_ne_of_ne (List.ne_of_not_mem_cons h))]

end Region0

/-! ## Region 1 between two valuations -/

section Region1
variable (Yin : Dev nD → Valuation τ sig (Elt F))

/-- What region 1 leaves in `main_v26_0`: output window 5's write-backs folded over the whole grid. -/
def o1_5 (c : Dev nD) : Buf (Elt F) ((c : Thread nD τ).loc main_v26_0) := (dat1 (rd Yin) c).arrAt 5 cfg1.N
/-- What region 1 leaves in `main_v26_1`: output window 6's write-backs folded over the whole grid. -/
def o1_6 (c : Dev nD) : Buf (Elt F) ((c : Thread nD τ).loc main_v26_1) := (dat1 (rd Yin) c).arrAt 6 cfg1.N
/-- What region 1 leaves in `main_v26_2`: output window 7's write-backs folded over the whole grid. -/
def o1_7 (c : Dev nD) : Buf (Elt F) ((c : Thread nD τ).loc main_v26_2) := (dat1 (rd Yin) c).arrAt 7 cfg1.N
/-- The buffers after region 1: its output arrays at what it leaves, every other buffer as entered. -/
def Yout1 (c : Dev nD) : Valuation τ sig (Elt F) := Function.update (Function.update (Function.update (Yin c) (Proc.devRef .tc main_v26_0) (o1_5 Yin c)) (Proc.devRef .tc main_v26_1) (o1_6 Yin c)) (Proc.devRef .tc main_v26_2) (o1_7 Yin c)

theorem hF1 (c : Dev nD) : ∀ w : Fin cfg1.W, (dat1 (rd Yin) c).arrAt w cfg1.N = rd (Yout1 Yin) c (Pipeline.arrRef spec1 w)
  | ⟨0, _⟩ => by
      refine (((dat1 (rd Yin) c).arrAt_in ⟨0, by decide⟩ rfl _).trans (A_eq1 (rd Yin) c ⟨0, by decide⟩)).trans ?_
      show Yin c (Proc.devRef .tc (Pipeline.arrRef spec1 ⟨0, by decide⟩)) = Yout1 Yin c (Proc.devRef .tc (Pipeline.arrRef spec1 ⟨0, by decide⟩))
      unfold Yout1
      rw [Function.update_of_ne (StableHlo.devRef_ne_of_ne (by decide : Pipeline.arrRef spec1 ⟨0, by decide⟩ ≠ main_v26_2)), Function.update_of_ne (StableHlo.devRef_ne_of_ne (by decide : Pipeline.arrRef spec1 ⟨0, by decide⟩ ≠ main_v26_1)), Function.update_of_ne (StableHlo.devRef_ne_of_ne (by decide : Pipeline.arrRef spec1 ⟨0, by decide⟩ ≠ main_v26_0))]
  | ⟨1, _⟩ => by
      refine (((dat1 (rd Yin) c).arrAt_in ⟨1, by decide⟩ rfl _).trans (A_eq1 (rd Yin) c ⟨1, by decide⟩)).trans ?_
      show Yin c (Proc.devRef .tc (Pipeline.arrRef spec1 ⟨1, by decide⟩)) = Yout1 Yin c (Proc.devRef .tc (Pipeline.arrRef spec1 ⟨1, by decide⟩))
      unfold Yout1
      rw [Function.update_of_ne (StableHlo.devRef_ne_of_ne (by decide : Pipeline.arrRef spec1 ⟨1, by decide⟩ ≠ main_v26_2)), Function.update_of_ne (StableHlo.devRef_ne_of_ne (by decide : Pipeline.arrRef spec1 ⟨1, by decide⟩ ≠ main_v26_1)), Function.update_of_ne (StableHlo.devRef_ne_of_ne (by decide : Pipeline.arrRef spec1 ⟨1, by decide⟩ ≠ main_v26_0))]
  | ⟨2, _⟩ => by
      refine (((dat1 (rd Yin) c).arrAt_in ⟨2, by decide⟩ rfl _).trans (A_eq1 (rd Yin) c ⟨2, by decide⟩)).trans ?_
      show Yin c (Proc.devRef .tc (Pipeline.arrRef spec1 ⟨2, by decide⟩)) = Yout1 Yin c (Proc.devRef .tc (Pipeline.arrRef spec1 ⟨2, by decide⟩))
      unfold Yout1
      rw [Function.update_of_ne (StableHlo.devRef_ne_of_ne (by decide : Pipeline.arrRef spec1 ⟨2, by decide⟩ ≠ main_v26_2)), Function.update_of_ne (StableHlo.devRef_ne_of_ne (by decide : Pipeline.arrRef spec1 ⟨2, by decide⟩ ≠ main_v26_1)), Function.update_of_ne (StableHlo.devRef_ne_of_ne (by decide : Pipeline.arrRef spec1 ⟨2, by decide⟩ ≠ main_v26_0))]
  | ⟨3, _⟩ => by
      refine (((dat1 (rd Yin) c).arrAt_in ⟨3, by decide⟩ rfl _).trans (A_eq1 (rd Yin) c ⟨3, by decide⟩)).trans ?_
      show Yin c (Proc.devRef .tc (Pipeline.arrRef spec1 ⟨3, by decide⟩)) = Yout1 Yin c (Proc.devRef .tc (Pipeline.arrRef spec1 ⟨3, by decide⟩))
      unfold Yout1
      rw [Function.update_of_ne (StableHlo.devRef_ne_of_ne (by decide : Pipeline.arrRef spec1 ⟨3, by decide⟩ ≠ main_v26_2)), Function.update_of_ne (StableHlo.devRef_ne_of_ne (by decide : Pipeline.arrRef spec1 ⟨3, by decide⟩ ≠ main_v26_1)), Function.update_of_ne (StableHlo.devRef_ne_of_ne (by decide : Pipeline.arrRef spec1 ⟨3, by decide⟩ ≠ main_v26_0))]
  | ⟨4, _⟩ => by
      refine (((dat1 (rd Yin) c).arrAt_in ⟨4, by decide⟩ rfl _).trans (A_eq1 (rd Yin) c ⟨4, by decide⟩)).trans ?_
      show Yin c (Proc.devRef .tc (Pipeline.arrRef spec1 ⟨4, by decide⟩)) = Yout1 Yin c (Proc.devRef .tc (Pipeline.arrRef spec1 ⟨4, by decide⟩))
      unfold Yout1
      rw [Function.update_of_ne (StableHlo.devRef_ne_of_ne (by decide : Pipeline.arrRef spec1 ⟨4, by decide⟩ ≠ main_v26_2)), Function.update_of_ne (StableHlo.devRef_ne_of_ne (by decide : Pipeline.arrRef spec1 ⟨4, by decide⟩ ≠ main_v26_1)), Function.update_of_ne (StableHlo.devRef_ne_of_ne (by decide : Pipeline.arrRef spec1 ⟨4, by decide⟩ ≠ main_v26_0))]
  | ⟨5, _⟩ => by
      show _ = Yout1 Yin c (Proc.devRef .tc main_v26_0)
      unfold Yout1
      rw [Function.update_of_ne (StableHlo.devRef_ne_of_ne (by decide : main_v26_0 ≠ main_v26_2)), Function.update_of_ne (StableHlo.devRef_ne_of_ne (by decide : main_v26_0 ≠ main_v26_1)), Function.update_self]
      rfl
  | ⟨6, _⟩ => by
      show _ = Yout1 Yin c (Proc.devRef .tc main_v26_1)
      unfold Yout1
      rw [Function.update_of_ne (StableHlo.devRef_ne_of_ne (by decide : main_v26_1 ≠ main_v26_2)), Function.update_self]
      rfl
  | ⟨7, _⟩ => by
      show _ = Yout1 Yin c (Proc.devRef .tc main_v26_2)
      unfold Yout1
      rw [Function.update_self]
      rfl

theorem hrest1 (c : Dev nD) : ∀ b, b ∉ Finset.univ.image (Pipeline.arrRef spec1) → rd (Yout1 Yin) c b = rd Yin c b := fun b hb => by
  show Yout1 Yin c (Proc.devRef .tc b) = Yin c (Proc.devRef .tc b)
  unfold Yout1
  rw [Function.update_of_ne (StableHlo.devRef_ne_of_ne (fun e => hb (Finset.mem_image.mpr ⟨⟨7, by decide⟩, Finset.mem_univ _, (e.symm : Pipeline.arrRef spec1 ⟨7, by decide⟩ = b)⟩))), Function.update_of_ne (StableHlo.devRef_ne_of_ne (fun e => hb (Finset.mem_image.mpr ⟨⟨6, by decide⟩, Finset.mem_univ _, (e.symm : Pipeline.arrRef spec1 ⟨6, by decide⟩ = b)⟩))), Function.update_of_ne (StableHlo.devRef_ne_of_ne (fun e => hb (Finset.mem_image.mpr ⟨⟨5, by decide⟩, Finset.mem_univ _, (e.symm : Pipeline.arrRef spec1 ⟨5, by decide⟩ = b)⟩)))]

/-- A buffer region 1 does not write keeps its contents. -/
theorem Yout1_of (c : Dev nD) (b : Ref sig .tc) (h : b ∉ ([main_v26_0, main_v26_1, main_v26_2] : List (Ref sig .tc))) : Yout1 Yin c (Proc.devRef .tc b) = Yin c (Proc.devRef .tc b) := by
  unfold Yout1
  rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]

end Region1

/-! ## Region 2 between two valuations -/

section Region2
variable (Yin : Dev nD → Valuation τ sig (Elt F))

/-- What region 2 leaves in `main_v50`: output window 3's write-backs folded over the whole grid. -/
def o2_3 (c : Dev nD) : Buf (Elt F) ((c : Thread nD τ).loc main_v50) := (dat2 (rd Yin) c).arrAt 3 cfg2.N
/-- The buffers after region 2: its output arrays at what it leaves, every other buffer as entered. -/
def Yout2 (c : Dev nD) : Valuation τ sig (Elt F) := Function.update (Yin c) (Proc.devRef .tc main_v50) (o2_3 Yin c)

theorem hF2 (c : Dev nD) : ∀ w : Fin cfg2.W, (dat2 (rd Yin) c).arrAt w cfg2.N = rd (Yout2 Yin) c (Pipeline.arrRef spec2 w)
  | ⟨0, _⟩ => by
      refine (((dat2 (rd Yin) c).arrAt_in ⟨0, by decide⟩ rfl _).trans (A_eq2 (rd Yin) c ⟨0, by decide⟩)).trans ?_
      show Yin c (Proc.devRef .tc (Pipeline.arrRef spec2 ⟨0, by decide⟩)) = Yout2 Yin c (Proc.devRef .tc (Pipeline.arrRef spec2 ⟨0, by decide⟩))
      unfold Yout2
      rw [Function.update_of_ne (StableHlo.devRef_ne_of_ne (by decide : Pipeline.arrRef spec2 ⟨0, by decide⟩ ≠ main_v50))]
  | ⟨1, _⟩ => by
      refine (((dat2 (rd Yin) c).arrAt_in ⟨1, by decide⟩ rfl _).trans (A_eq2 (rd Yin) c ⟨1, by decide⟩)).trans ?_
      show Yin c (Proc.devRef .tc (Pipeline.arrRef spec2 ⟨1, by decide⟩)) = Yout2 Yin c (Proc.devRef .tc (Pipeline.arrRef spec2 ⟨1, by decide⟩))
      unfold Yout2
      rw [Function.update_of_ne (StableHlo.devRef_ne_of_ne (by decide : Pipeline.arrRef spec2 ⟨1, by decide⟩ ≠ main_v50))]
  | ⟨2, _⟩ => by
      refine (((dat2 (rd Yin) c).arrAt_in ⟨2, by decide⟩ rfl _).trans (A_eq2 (rd Yin) c ⟨2, by decide⟩)).trans ?_
      show Yin c (Proc.devRef .tc (Pipeline.arrRef spec2 ⟨2, by decide⟩)) = Yout2 Yin c (Proc.devRef .tc (Pipeline.arrRef spec2 ⟨2, by decide⟩))
      unfold Yout2
      rw [Function.update_of_ne (StableHlo.devRef_ne_of_ne (by decide : Pipeline.arrRef spec2 ⟨2, by decide⟩ ≠ main_v50))]
  | ⟨3, _⟩ => by
      show _ = Yout2 Yin c (Proc.devRef .tc main_v50)
      unfold Yout2
      rw [Function.update_self]
      rfl

theorem hrest2 (c : Dev nD) : ∀ b, b ∉ Finset.univ.image (Pipeline.arrRef spec2) → rd (Yout2 Yin) c b = rd Yin c b := fun b hb => by
  show Yout2 Yin c (Proc.devRef .tc b) = Yin c (Proc.devRef .tc b)
  unfold Yout2
  rw [Function.update_of_ne (StableHlo.devRef_ne_of_ne (fun e => hb (Finset.mem_image.mpr ⟨⟨3, by decide⟩, Finset.mem_univ _, (e.symm : Pipeline.arrRef spec2 ⟨3, by decide⟩ = b)⟩)))]

/-- A buffer region 2 does not write keeps its contents. -/
theorem Yout2_of (c : Dev nD) (b : Ref sig .tc) (h : b ∉ ([main_v50] : List (Ref sig .tc))) : Yout2 Yin c (Proc.devRef .tc b) = Yin c (Proc.devRef .tc b) := by
  unfold Yout2
  rw [Function.update_of_ne (StableHlo.devRef_ne_of_ne (List.ne_of_not_mem_cons h))]

end Region2

/-! ## Region 3 between two valuations -/

section Region3
variable (Yin : Dev nD → Valuation τ sig (Elt F))

/-- What region 3 leaves in `main_v80_0`: output window 9's write-backs folded over the whole grid. -/
def o3_9 (c : Dev nD) : Buf (Elt F) ((c : Thread nD τ).loc main_v80_0) := (dat3 (rd Yin) c).arrAt 9 cfg3.N
/-- What region 3 leaves in `main_v80_1`: output window 10's write-backs folded over the whole grid. -/
def o3_10 (c : Dev nD) : Buf (Elt F) ((c : Thread nD τ).loc main_v80_1) := (dat3 (rd Yin) c).arrAt 10 cfg3.N
/-- The buffers after region 3: its output arrays at what it leaves, every other buffer as entered. -/
def Yout3 (c : Dev nD) : Valuation τ sig (Elt F) := Function.update (Function.update (Yin c) (Proc.devRef .tc main_v80_0) (o3_9 Yin c)) (Proc.devRef .tc main_v80_1) (o3_10 Yin c)

theorem hF3 (c : Dev nD) : ∀ w : Fin cfg3.W, (dat3 (rd Yin) c).arrAt w cfg3.N = rd (Yout3 Yin) c (Pipeline.arrRef spec3 w)
  | ⟨0, _⟩ => by
      refine (((dat3 (rd Yin) c).arrAt_in ⟨0, by decide⟩ rfl _).trans (A_eq3 (rd Yin) c ⟨0, by decide⟩)).trans ?_
      show Yin c (Proc.devRef .tc (Pipeline.arrRef spec3 ⟨0, by decide⟩)) = Yout3 Yin c (Proc.devRef .tc (Pipeline.arrRef spec3 ⟨0, by decide⟩))
      unfold Yout3
      rw [Function.update_of_ne (StableHlo.devRef_ne_of_ne (by decide : Pipeline.arrRef spec3 ⟨0, by decide⟩ ≠ main_v80_1)), Function.update_of_ne (StableHlo.devRef_ne_of_ne (by decide : Pipeline.arrRef spec3 ⟨0, by decide⟩ ≠ main_v80_0))]
  | ⟨1, _⟩ => by
      refine (((dat3 (rd Yin) c).arrAt_in ⟨1, by decide⟩ rfl _).trans (A_eq3 (rd Yin) c ⟨1, by decide⟩)).trans ?_
      show Yin c (Proc.devRef .tc (Pipeline.arrRef spec3 ⟨1, by decide⟩)) = Yout3 Yin c (Proc.devRef .tc (Pipeline.arrRef spec3 ⟨1, by decide⟩))
      unfold Yout3
      rw [Function.update_of_ne (StableHlo.devRef_ne_of_ne (by decide : Pipeline.arrRef spec3 ⟨1, by decide⟩ ≠ main_v80_1)), Function.update_of_ne (StableHlo.devRef_ne_of_ne (by decide : Pipeline.arrRef spec3 ⟨1, by decide⟩ ≠ main_v80_0))]
  | ⟨2, _⟩ => by
      refine (((dat3 (rd Yin) c).arrAt_in ⟨2, by decide⟩ rfl _).trans (A_eq3 (rd Yin) c ⟨2, by decide⟩)).trans ?_
      show Yin c (Proc.devRef .tc (Pipeline.arrRef spec3 ⟨2, by decide⟩)) = Yout3 Yin c (Proc.devRef .tc (Pipeline.arrRef spec3 ⟨2, by decide⟩))
      unfold Yout3
      rw [Function.update_of_ne (StableHlo.devRef_ne_of_ne (by decide : Pipeline.arrRef spec3 ⟨2, by decide⟩ ≠ main_v80_1)), Function.update_of_ne (StableHlo.devRef_ne_of_ne (by decide : Pipeline.arrRef spec3 ⟨2, by decide⟩ ≠ main_v80_0))]
  | ⟨3, _⟩ => by
      refine (((dat3 (rd Yin) c).arrAt_in ⟨3, by decide⟩ rfl _).trans (A_eq3 (rd Yin) c ⟨3, by decide⟩)).trans ?_
      show Yin c (Proc.devRef .tc (Pipeline.arrRef spec3 ⟨3, by decide⟩)) = Yout3 Yin c (Proc.devRef .tc (Pipeline.arrRef spec3 ⟨3, by decide⟩))
      unfold Yout3
      rw [Function.update_of_ne (StableHlo.devRef_ne_of_ne (by decide : Pipeline.arrRef spec3 ⟨3, by decide⟩ ≠ main_v80_1)), Function.update_of_ne (StableHlo.devRef_ne_of_ne (by decide : Pipeline.arrRef spec3 ⟨3, by decide⟩ ≠ main_v80_0))]
  | ⟨4, _⟩ => by
      refine (((dat3 (rd Yin) c).arrAt_in ⟨4, by decide⟩ rfl _).trans (A_eq3 (rd Yin) c ⟨4, by decide⟩)).trans ?_
      show Yin c (Proc.devRef .tc (Pipeline.arrRef spec3 ⟨4, by decide⟩)) = Yout3 Yin c (Proc.devRef .tc (Pipeline.arrRef spec3 ⟨4, by decide⟩))
      unfold Yout3
      rw [Function.update_of_ne (StableHlo.devRef_ne_of_ne (by decide : Pipeline.arrRef spec3 ⟨4, by decide⟩ ≠ main_v80_1)), Function.update_of_ne (StableHlo.devRef_ne_of_ne (by decide : Pipeline.arrRef spec3 ⟨4, by decide⟩ ≠ main_v80_0))]
  | ⟨5, _⟩ => by
      refine (((dat3 (rd Yin) c).arrAt_in ⟨5, by decide⟩ rfl _).trans (A_eq3 (rd Yin) c ⟨5, by decide⟩)).trans ?_
      show Yin c (Proc.devRef .tc (Pipeline.arrRef spec3 ⟨5, by decide⟩)) = Yout3 Yin c (Proc.devRef .tc (Pipeline.arrRef spec3 ⟨5, by decide⟩))
      unfold Yout3
      rw [Function.update_of_ne (StableHlo.devRef_ne_of_ne (by decide : Pipeline.arrRef spec3 ⟨5, by decide⟩ ≠ main_v80_1)), Function.update_of_ne (StableHlo.devRef_ne_of_ne (by decide : Pipeline.arrRef spec3 ⟨5, by decide⟩ ≠ main_v80_0))]
  | ⟨6, _⟩ => by
      refine (((dat3 (rd Yin) c).arrAt_in ⟨6, by decide⟩ rfl _).trans (A_eq3 (rd Yin) c ⟨6, by decide⟩)).trans ?_
      show Yin c (Proc.devRef .tc (Pipeline.arrRef spec3 ⟨6, by decide⟩)) = Yout3 Yin c (Proc.devRef .tc (Pipeline.arrRef spec3 ⟨6, by decide⟩))
      unfold Yout3
      rw [Function.update_of_ne (StableHlo.devRef_ne_of_ne (by decide : Pipeline.arrRef spec3 ⟨6, by decide⟩ ≠ main_v80_1)), Function.update_of_ne (StableHlo.devRef_ne_of_ne (by decide : Pipeline.arrRef spec3 ⟨6, by decide⟩ ≠ main_v80_0))]
  | ⟨7, _⟩ => by
      refine (((dat3 (rd Yin) c).arrAt_in ⟨7, by decide⟩ rfl _).trans (A_eq3 (rd Yin) c ⟨7, by decide⟩)).trans ?_
      show Yin c (Proc.devRef .tc (Pipeline.arrRef spec3 ⟨7, by decide⟩)) = Yout3 Yin c (Proc.devRef .tc (Pipeline.arrRef spec3 ⟨7, by decide⟩))
      unfold Yout3
      rw [Function.update_of_ne (StableHlo.devRef_ne_of_ne (by decide : Pipeline.arrRef spec3 ⟨7, by decide⟩ ≠ main_v80_1)), Function.update_of_ne (StableHlo.devRef_ne_of_ne (by decide : Pipeline.arrRef spec3 ⟨7, by decide⟩ ≠ main_v80_0))]
  | ⟨8, _⟩ => by
      refine (((dat3 (rd Yin) c).arrAt_in ⟨8, by decide⟩ rfl _).trans (A_eq3 (rd Yin) c ⟨8, by decide⟩)).trans ?_
      show Yin c (Proc.devRef .tc (Pipeline.arrRef spec3 ⟨8, by decide⟩)) = Yout3 Yin c (Proc.devRef .tc (Pipeline.arrRef spec3 ⟨8, by decide⟩))
      unfold Yout3
      rw [Function.update_of_ne (StableHlo.devRef_ne_of_ne (by decide : Pipeline.arrRef spec3 ⟨8, by decide⟩ ≠ main_v80_1)), Function.update_of_ne (StableHlo.devRef_ne_of_ne (by decide : Pipeline.arrRef spec3 ⟨8, by decide⟩ ≠ main_v80_0))]
  | ⟨9, _⟩ => by
      show _ = Yout3 Yin c (Proc.devRef .tc main_v80_0)
      unfold Yout3
      rw [Function.update_of_ne (StableHlo.devRef_ne_of_ne (by decide : main_v80_0 ≠ main_v80_1)), Function.update_self]
      rfl
  | ⟨10, _⟩ => by
      show _ = Yout3 Yin c (Proc.devRef .tc main_v80_1)
      unfold Yout3
      rw [Function.update_self]
      rfl

theorem hrest3 (c : Dev nD) : ∀ b, b ∉ Finset.univ.image (Pipeline.arrRef spec3) → rd (Yout3 Yin) c b = rd Yin c b := fun b hb => by
  show Yout3 Yin c (Proc.devRef .tc b) = Yin c (Proc.devRef .tc b)
  unfold Yout3
  rw [Function.update_of_ne (StableHlo.devRef_ne_of_ne (fun e => hb (Finset.mem_image.mpr ⟨⟨10, by decide⟩, Finset.mem_univ _, (e.symm : Pipeline.arrRef spec3 ⟨10, by decide⟩ = b)⟩))), Function.update_of_ne (StableHlo.devRef_ne_of_ne (fun e => hb (Finset.mem_image.mpr ⟨⟨9, by decide⟩, Finset.mem_univ _, (e.symm : Pipeline.arrRef spec3 ⟨9, by decide⟩ = b)⟩)))]

/-- A buffer region 3 does not write keeps its contents. -/
theorem Yout3_of (c : Dev nD) (b : Ref sig .tc) (h : b ∉ ([main_v80_0, main_v80_1] : List (Ref sig .tc))) : Yout3 Yin c (Proc.devRef .tc b) = Yin c (Proc.devRef .tc b) := by
  unfold Yout3
  rw [Function.update_of_ne (StableHlo.devRef_ne_of_ne (List.ne_of_not_mem_cons (List.not_mem_of_not_mem_cons h))), Function.update_of_ne (StableHlo.devRef_ne_of_ne (List.ne_of_not_mem_cons h))]

end Region3

variable (m : (ℓ : Loc nD τ sig) → Buf (Elt F) ℓ) (ρ : Dev nD → PrngReg)

/-! ## The buffers' contents between items -/

/-- Core `c`'s unscoped buffers at launch. -/
def Y0 (c : Dev nD) : Valuation τ sig (Elt F) := fun b => m (c, b)
/-- … after the host stretch `hostOps0`. -/
def Y1 (c : Dev nD) : Valuation τ sig (Elt F) := StableHlo.after hostOps0 (Y0 m c)
/-- … after region 0. -/
def Y2 : Dev nD → Valuation τ sig (Elt F) := Yout0 (Y1 m)
/-- … after the host stretch `hostOps1`. -/
def Y3 (c : Dev nD) : Valuation τ sig (Elt F) := StableHlo.after hostOps1 (Y2 m c)
/-- … after region 1. -/
def Y4 : Dev nD → Valuation τ sig (Elt F) := Yout1 (Y3 m)
/-- … after the host stretch `hostOps2`. -/
def Y5 (c : Dev nD) : Valuation τ sig (Elt F) := StableHlo.after hostOps2 (Y4 m c)
/-- … after the host stretch `hostOps2_1`. -/
def Y6 (c : Dev nD) : Valuation τ sig (Elt F) := StableHlo.after hostOps2_1 (Y5 m c)
/-- … after the host stretch `hostOps2_2`. -/
def Y7 (c : Dev nD) : Valuation τ sig (Elt F) := StableHlo.after hostOps2_2 (Y6 m c)
/-- … after region 2. -/
def Y8 : Dev nD → Valuation τ sig (Elt F) := Yout2 (Y7 m)
/-- … after the host stretch `hostOps3`. -/
def Y9 (c : Dev nD) : Valuation τ sig (Elt F) := StableHlo.after hostOps3 (Y8 m c)
/-- … after the host stretch `hostOps3_1`. -/
def Y10 (c : Dev nD) : Valuation τ sig (Elt F) := StableHlo.after hostOps3_1 (Y9 m c)
/-- … after the host stretch `hostOps3_2`. -/
def Y11 (c : Dev nD) : Valuation τ sig (Elt F) := StableHlo.after hostOps3_2 (Y10 m c)
/-- … after region 3. -/
def Y12 : Dev nD → Valuation τ sig (Elt F) := Yout3 (Y11 m)

/-- A buffer that no host stretch and no region writes ends as launched. -/
theorem Y12_keep (c : Dev nD) (b : Ref sig .tc) (h0 : b ∉ hostOps0_W) (h1 : b ∉ ([main_v7] : List (Ref sig .tc))) (h2 : b ∉ hostOps1_W) (h3 : b ∉ ([main_v26_0, main_v26_1, main_v26_2] : List (Ref sig .tc))) (h4 : b ∉ hostOps2_W) (h5 : b ∉ hostOps2_1_W) (h6 : b ∉ hostOps2_2_W) (h7 : b ∉ ([main_v50] : List (Ref sig .tc))) (h8 : b ∉ hostOps3_W) (h9 : b ∉ hostOps3_1_W) (h10 : b ∉ hostOps3_2_W) (h11 : b ∉ ([main_v80_0, main_v80_1] : List (Ref sig .tc))) :
    Y12 m c (Proc.devRef .tc b) = m ((c : Thread nD τ).loc b) :=
  (Yout3_of (Y11 m) c b h11).trans <|
  (StableHlo.after_of_writes_sub hostOps3_2 _ hostOps3_2_writes h10).trans <|
  (StableHlo.after_of_writes_sub hostOps3_1 _ hostOps3_1_writes h9).trans <|
  (StableHlo.after_of_writes_sub hostOps3 _ hostOps3_writes h8).trans <|
  (Yout2_of (Y7 m) c b h7).trans <|
  (StableHlo.after_of_writes_sub hostOps2_2 _ hostOps2_2_writes h6).trans <|
  (StableHlo.after_of_writes_sub hostOps2_1 _ hostOps2_1_writes h5).trans <|
  (StableHlo.after_of_writes_sub hostOps2 _ hostOps2_writes h4).trans <|
  (Yout1_of (Y3 m) c b h3).trans <|
  (StableHlo.after_of_writes_sub hostOps1 _ hostOps1_writes h2).trans <|
  (Yout0_of (Y1 m) c b h1).trans <|
  (StableHlo.after_of_writes_sub hostOps0 _ hostOps0_writes h0).trans <| rfl

/-! ## The proof data family and the thread state -/

/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (rd (Y1 m)) c
  | ⟨1, _⟩ => fun c => dat1 (rd (Y3 m)) c
  | ⟨2, _⟩ => fun c => dat2 (rd (Y7 m)) c
  | ⟨3, _⟩ => fun c => dat3 (rd (Y11 m)) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (Y12 m c) ∗ ∃ r, prngReg c r)

/-! ## The regions as segments -/

set_option backward.isDefEq.respectTransparency.types false in
/-- Region 0 over the thread state: entered from every unscoped buffer at `Y1`, left at `Y2`. Its arrays are split out
    of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (Y1 m)) c).loose
  hwaits := Pipeline.hwaits_of_owed_zero _ _ _ _ L lv 0 fun _ _ => rfl
  pre c := iprop(StableHlo.held (c : Thread nD τ) (Pipeline.ucRefs τ sig) (Y1 m c) ∗ R c)
  post c := iprop(StableHlo.held (c : Thread nD τ) (Pipeline.ucRefs τ sig) (Y2 m c) ∗ R c)
  X c := iprop(∃ r, prngReg c r)
  Y c := iprop(∃ r, prngReg c r)
  Z c := Pipeline.unscopedRest (Ix := Unit) (Name := ℕ) (U := UR sig nD τ) (Lvl := ℕ) spec0 c (rd (Y1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (Y1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (Y1 m) c) (rd (Y2 m) c) ((pdats m 0 c).arrAt · cfg0.N) (hF0 (Y1 m) c) (hrest0 (Y1 m) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Y3`, left at `Y4`. Its arrays are split out
    of the unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (Y3 m)) c).loose
  hwaits := Pipeline.hwaits_of_owed_zero _ _ _ _ L lv 1 fun _ _ => rfl
  pre c := iprop(StableHlo.held (c : Thread nD τ) (Pipeline.ucRefs τ sig) (Y3 m c) ∗ R c)
  post c := iprop(StableHlo.held (c : Thread nD τ) (Pipeline.ucRefs τ sig) (Y4 m c) ∗ R c)
  X c := iprop(∃ r, prngReg c r)
  Y c := iprop(∃ r, prngReg c r)
  Z c := Pipeline.unscopedRest (Ix := Unit) (Name := ℕ) (U := UR sig nD τ) (Lvl := ℕ) spec1 c (rd (Y3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (Y3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (Y3 m) c) (rd (Y4 m) c) ((pdats m 1 c).arrAt · cfg1.N) (hF1 (Y3 m) c) (hrest1 (Y3 m) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Y7`, left at `Y8`. Its arrays are split out
    of the unscoped buffers and put back at the exit contents; the generator register goes into the invariant and comes
    back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (Y7 m)) c).loose
  hwaits := Pipeline.hwaits_of_owed_zero _ _ _ _ L lv 2 fun _ _ => rfl
  pre c := iprop(StableHlo.held (c : Thread nD τ) (Pipeline.ucRefs τ sig) (Y7 m c) ∗ R c)
  post c := iprop(StableHlo.held (c : Thread nD τ) (Pipeline.ucRefs τ sig) (Y8 m c) ∗ R c)
  X c := iprop(∃ r, prngReg c r)
  Y c := iprop(∃ r, prngReg c r)
  Z c := Pipeline.unscopedRest (Ix := Unit) (Name := ℕ) (U := UR sig nD τ) (Lvl := ℕ) spec2 c (rd (Y7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (Y7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (Y7 m) c) (rd (Y8 m) c) ((pdats m 2 c).arrAt · cfg2.N) (hF2 (Y7 m) c) (hrest2 (Y7 m) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Y11`, left at `Y12`. Its arrays are split out
    of the unscoped buffers and put back at the exit contents; the generator register goes into the invariant and comes
    back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (Y11 m)) c).loose
  hwaits := Pipeline.hwaits_of_owed_zero _ _ _ _ L lv 3 fun _ _ => rfl
  pre c := iprop(StableHlo.held (c : Thread nD τ) (Pipeline.ucRefs τ sig) (Y11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (rd (Y11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (Y11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (Y11 m) c) (rd (Y12 m) c) ((pdats m 3 c).arrAt · cfg3.N) (hF3 (Y11 m) c) (hrest3 (Y11 m) c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (Y0 m)),
    .region (reg0 m),
    .host (hseg hostOps1 hostOps1_sub hostOps1_fresh (Y2 m)),
    .region (reg1 m),
    .host (hseg hostOps2 hostOps2_sub hostOps2_fresh (Y4 m)),
    .host (hseg hostOps2_1 hostOps2_1_sub hostOps2_1_fresh (Y5 m)),
    .host (hseg hostOps2_2 hostOps2_2_sub hostOps2_2_fresh (Y6 m)),
    .region (reg2 m),
    .host (hseg hostOps3 hostOps3_sub hostOps3_fresh (Y8 m)),
    .host (hseg hostOps3_1 hostOps3_1_sub hostOps3_1_fresh (Y9 m)),
    .host (hseg hostOps3_2 hostOps3_2_sub hostOps3_2_fresh (Y10 m)),
    .region (reg3 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final memory holds each unscoped buffer of each core at `Y12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Y12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Y0 m c)
        from Pipeline.unscopedBufs_held c (Y0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y12 m c b)
    (hfin := fun c s' => by
      iintro ⟨⟨Hh, -⟩, HSI⟩
      unfold StableHlo.held
      imodintro
      iapply (pointsTo_read_all (Pipeline.ucRefs τ sig) (fun b => (((c : Thread nD τ)).1, b)) (Y12 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨
    (h c _ (mem_uc main_arg0 (by decide))).trans (Y12_keep m c main_arg0 (by decide) (by decide) (by decide) (by decide) (by decide) (by decide) (by decide) (by decide) (by decide) (by decide) (by decide) (by decide)),
    (h c _ (mem_uc main_arg1 (by decide))).trans (Y12_keep m c main_arg1 (by decide) (by decide) (by decide) (by decide) (by decide) (by decide) (by decide) (by decide) (by decide) (by decide) (by decide) (by decide)),
    (h c _ (mem_uc main_arg2 (by decide))).trans (Y12_keep m c main_arg2 (by decide) (by decide) (by decide) (by decide) (by decide) (by decide) (by decide) (by decide) (by decide) (by decide) (by decide) (by decide)),
    (h c _ (mem_uc main_arg3 (by decide))).trans (Y12_keep m c main_arg3 (by decide) (by decide) (by decide) (by decide) (by decide) (by decide) (by decide) (by decide) (by decide) (by decide) (by decide) (by decide)),
    (h c _ (mem_uc main_arg4 (by decide))).trans (Y12_keep m c main_arg4 (by decide) (by decide) (by decide) (by decide) (by decide) (by decide) (by decide) (by decide) (by decide) (by decide) (by decide) (by decide)),
    (h c _ (mem_uc main_arg5 (by decide))).trans (Y12_keep m c main_arg5 (by decide) (by decide) (by decide) (by decide) (by decide) (by decide) (by decide) (by decide) (by decide) (by decide) (by decide) (by decide)),
    (h c _ (mem_uc main_arg6 (by decide))).trans (Y12_keep m c main_arg6 (by decide) (by decide) (by decide) (by decide) (by decide) (by decide) (by decide) (by decide) (by decide) (by decide) (by decide) (by decide)),
    (h c _ (mem_uc main_arg7 (by decide))).trans (Y12_keep m c main_arg7 (by decide) (by decide) (by decide) (by decide) (by decide) (by decide) (by decide) (by decide) (by decide) (by decide) (by decide) (by decide)),
    (h c _ (mem_uc main_arg8 (by decide))).trans (Y12_keep m c main_arg8 (by decide) (by decide) (by decide) (by decide) (by decide) (by decide) (by decide) (by decide) (by decide) (by decide) (by decide) (by decide)),
    (h c _ (mem_uc main_arg9 (by decide))).trans (Y12_keep m c main_arg9 (by decide) (by decide) (by decide) (by decide) (by decide) (by decide) (by decide) (by decide) (by decide) (by decide) (by decide) (by decide)),
    (h c _ (mem_uc main_arg10 (by decide))).trans (Y12_keep m c main_arg10 (by decide) (by decide) (by decide) (by decide) (by decide) (by decide) (by decide) (by decide) (by decide) (by decide) (by decide) (by decide)),
    (h c _ (mem_uc main_arg11 (by decide))).trans (Y12_keep m c main_arg11 (by decide) (by decide) (by decide) (by decide) (by decide) (by decide) (by decide) (by decide) (by decide) (by decide) (by decide) (by decide)),
    (h c _ (mem_uc main_arg12 (by decide))).trans (Y12_keep m c main_arg12 (by decide) (by decide) (by decide) (by decide) (by decide) (by decide) (by decide) (by decide) (by decide) (by decide) (by decide) (by decide)),
    (h c _ (mem_uc main_arg13 (by decide))).trans (Y12_keep m c main_arg13 (by decide) (by decide) (by decide) (by decide) (by decide) (by decide) (by decide) (by decide) (by decide) (by decide) (by decide) (by decide)),
    (h c _ (mem_uc main_arg14 (by decide))).trans (Y12_keep m c main_arg14 (by decide) (by decide) (by decide) (by decide) (by decide) (by decide) (by decide) (by decide) (by decide) (by decide) (by decide) (by decide)),
    (h c _ (mem_uc main_arg15 (by decide))).trans (Y12_keep m c main_arg15 (by decide) (by decide) (by decide) (by decide) (by decide) (by decide) (by decide) (by decide) (by decide) (by decide) (by decide) (by decide)),
    (h c _ (mem_uc main_arg16 (by decide))).trans (Y12_keep m c main_arg16 (by decide) (by decide) (by decide) (by decide) (by decide) (by decide) (by decide) (by decide) (by decide) (by decide) (by decide) (by decide)),
    (h c _ (mem_uc main_arg17 (by decide))).trans (Y12_keep m c main_arg17 (by decide) (by decide) (by decide) (by decide) (by decide) (by decide) (by decide) (by decide) (by decide) (by decide) (by decide) (by decide)),
    (h c _ (mem_uc main_arg18 (by decide))).trans (Y12_keep m c main_arg18 (by decide) (by decide) (by decide) (by decide) (by decide) (by decide) (by decide) (by decide) (by decide) (by decide) (by decide) (by decide)),
    (h c _ (mem_uc main_arg19 (by decide))).trans (Y12_keep m c main_arg19 (by decide) (by decide) (by decide) (by decide) (by decide) (by decide) (by decide) (by decide) (by decide) (by decide) (by decide) (by decide)),
    (h c _ (mem_uc main_arg20 (by decide))).trans (Y12_keep m c main_arg20 (by decide) (by decide) (by decide) (by decide) (by decide) (by decide) (by decide) (by decide) (by decide) (by decide) (by decide) (by decide))⟩) (run_all m ρ)

/-- The run with the three results named: each at the last contents, beside the frame. -/
theorem run_results : θ_run defs (onTc (τ := τ) (main (F := F))) ⟨m, fun _ => 0, ρ⟩ (fun r => ∀ c : Dev nD,
      r.2.mem ((c.tc : Thread nD τ).loc main_v50) = Y12 m c (Proc.devRef .tc main_v50)
      ∧ r.2.mem ((c.tc : Thread nD τ).loc main_v80_0) = Y12 m c (Proc.devRef .tc main_v80_0)
      ∧ r.2.mem ((c.tc : Thread nD τ).loc main_v80_1) = Y12 m c (Proc.devRef .tc main_v80_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨h c _ (mem_uc main_v50 (by decide)), h c _ (mem_uc main_v80_0 (by decide)), h c _ (mem_uc main_v80_1 (by decide)),
    (h c _ (mem_uc main_arg0 (by decide))).trans (Y12_keep m c main_arg0 (by decide) (by decide) (by decide) (by decide) (by decide) (by decide) (by decide) (by decide) (by decide) (by decide) (by decide) (by decide)),
    (h c _ (mem_uc main_arg1 (by decide))).trans (Y12_keep m c main_arg1 (by decide) (by decide) (by decide) (by decide) (by decide) (by decide) (by decide) (by decide) (by decide) (by decide) (by decide) (by decide)),
    (h c _ (mem_uc main_arg2 (by decide))).trans (Y12_keep m c main_arg2 (by decide) (by decide) (by decide) (by decide) (by decide) (by decide) (by decide) (by decide) (by decide) (by decide) (by decide) (by decide)),
    (h c _ (mem_uc main_arg3 (by decide))).trans (Y12_keep m c main_arg3 (by decide) (by decide) (by decide) (by decide) (by decide) (by decide) (by decide) (by decide) (by decide) (by decide) (by decide) (by decide)),
    (h c _ (mem_uc main_arg4 (by decide))).trans (Y12_keep m c main_arg4 (by decide) (by decide) (by decide) (by decide) (by decide) (by decide) (by decide) (by decide) (by decide) (by decide) (by decide) (by decide)),
    (h c _ (mem_uc main_arg5 (by decide))).trans (Y12_keep m c main_arg5 (by decide) (by decide) (by decide) (by decide) (by decide) (by decide) (by decide) (by decide) (by decide) (by decide) (by decide) (by decide)),
    (h c _ (mem_uc main_arg6 (by decide))).trans (Y12_keep m c main_arg6 (by decide) (by decide) (by decide) (by decide) (by decide) (by decide) (by decide) (by decide) (by decide) (by decide) (by decide) (by decide)),
    (h c _ (mem_uc main_arg7 (by decide))).trans (Y12_keep m c main_arg7 (by decide) (by decide) (by decide) (by decide) (by decide) (by decide) (by decide) (by decide) (by decide) (by decide) (by decide) (by decide)),
    (h c _ (mem_uc main_arg8 (by decide))).trans (Y12_keep m c main_arg8 (by decide) (by decide) (by decide) (by decide) (by decide) (by decide) (by decide) (by decide) (by decide) (by decide) (by decide) (by decide)),
    (h c _ (mem_uc main_arg9 (by decide))).trans (Y12_keep m c main_arg9 (by decide) (by decide) (by decide) (by decide) (by decide) (by decide) (by decide) (by decide) (by decide) (by decide) (by decide) (by decide)),
    (h c _ (mem_uc main_arg10 (by decide))).trans (Y12_keep m c main_arg10 (by decide) (by decide) (by decide) (by decide) (by decide) (by decide) (by decide) (by decide) (by decide) (by decide) (by decide) (by decide)),
    (h c _ (mem_uc main_arg11 (by decide))).trans (Y12_keep m c main_arg11 (by decide) (by decide) (by decide) (by decide) (by decide) (by decide) (by decide) (by decide) (by decide) (by decide) (by decide) (by decide)),
    (h c _ (mem_uc main_arg12 (by decide))).trans (Y12_keep m c main_arg12 (by decide) (by decide) (by decide) (by decide) (by decide) (by decide) (by decide) (by decide) (by decide) (by decide) (by decide) (by decide)),
    (h c _ (mem_uc main_arg13 (by decide))).trans (Y12_keep m c main_arg13 (by decide) (by decide) (by decide) (by decide) (by decide) (by decide) (by decide) (by decide) (by decide) (by decide) (by decide) (by decide)),
    (h c _ (mem_uc main_arg14 (by decide))).trans (Y12_keep m c main_arg14 (by decide) (by decide) (by decide) (by decide) (by decide) (by decide) (by decide) (by decide) (by decide) (by decide) (by decide) (by decide)),
    (h c _ (mem_uc main_arg15 (by decide))).trans (Y12_keep m c main_arg15 (by decide) (by decide) (by decide) (by decide) (by decide) (by decide) (by decide) (by decide) (by decide) (by decide) (by decide) (by decide)),
    (h c _ (mem_uc main_arg16 (by decide))).trans (Y12_keep m c main_arg16 (by decide) (by decide) (by decide) (by decide) (by decide) (by decide) (by decide) (by decide) (by decide) (by decide) (by decide) (by decide)),
    (h c _ (mem_uc main_arg17 (by decide))).trans (Y12_keep m c main_arg17 (by decide) (by decide) (by decide) (by decide) (by decide) (by decide) (by decide) (by decide) (by decide) (by decide) (by decide) (by decide)),
    (h c _ (mem_uc main_arg18 (by decide))).trans (Y12_keep m c main_arg18 (by decide) (by decide) (by decide) (by decide) (by decide) (by decide) (by decide) (by decide) (by decide) (by decide) (by decide) (by decide)),
    (h c _ (mem_uc main_arg19 (by decide))).trans (Y12_keep m c main_arg19 (by decide) (by decide) (by decide) (by decide) (by decide) (by decide) (by decide) (by decide) (by decide) (by decide) (by decide) (by decide)),
    (h c _ (mem_uc main_arg20 (by decide))).trans (Y12_keep m c main_arg20 (by decide) (by decide) (by decide) (by decide) (by decide) (by decide) (by decide) (by decide) (by decide) (by decide) (by decide) (by decide))⟩) (run_all m ρ)

end Cert.KernelIdeal.Hand

end
-- ==== Proof.BHalf0.lean ====
import proofs.«143299_j13005160972635_2_alg».proof.Proof.Gen.Kernel.Launch
import proofs.«143299_j13005160972635_2_alg».proof.Proof.Gen.Kernel.Skeleton
import proofs.«143299_j13005160972635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node projection region (the first kernel launch), at the buffer contents `V` it is entered from

Each grid point reads a block of 2000 rows of the node features `x` (128 columns), the whole 128 x 512 weight matrix
and the one-row bias (512 columns), and writes `x * W + bias` (a matrix product, the bias row added to every row)
over the same 2000 rows of the 512-column output. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2000x128 := Rect.unit (s := S2000x128) ![0, 0] S2000x128.size inb_S2000x128_S2000x128_0_0
abbrev r0_w : Rect S128x512 := Rect.unit (s := S128x512) ![0, 0] S128x512.size inb_S128x512_S128x512_0_0
abbrev r0_b : Rect S1x512 := Rect.unit (s := S1x512) ![0, 0] S1x512.size inb_S1x512_S1x512_0_0
abbrev r0_o : Rect S2000x512 := Rect.unit (s := S2000x512) ![0, 0] S2000x512.size inb_S2000x512_S2000x512_0_0

/-- The output block after the body: the one store of the payload over the three loaded blocks. -/
def out0_3 (x0 : Vec F S2000x128 .f32) (x1 : Vec F S128x512 .f32) (x2 : Vec F S1x512 .f32) : Vec F S2000x512 .f32 :=
  View.canon [⟨r0_o, k0_pay1 (View.ld x0 r0_x) (View.ld x1 r0_w) (View.ld x2 r0_b)⟩]

theorem cover0_3 (p0 : Vec F S2000x512 .f32) (y : S2000x512.Idx) :
    ∃ pc ∈ ([⟨r0_o, p0⟩] : List (View.Piece (Elt F) S2000x512 .f32)), y ∈ pc.1.set :=
  View.cover_of_tiled [⟨r0_o, p0⟩] S2000x512.size (by rfl) y

set_option maxHeartbeats 1000000 in
theorem sound_kernel0 (c : Dev nD) (E : Set ℕ) (i : grid0.Coords)
    (arg1 : Memref sig .tc .vmem S2000x128 .f32) (harg1 : arg1.IsWhole) (arg2 : Memref sig .tc .vmem S128x512 .f32) (harg2 : arg2.IsWhole)
    (arg3 : Memref sig .tc .vmem S1x512 .f32) (harg3 : arg3.IsWhole) (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the region on core `c`: the arrays as the region finds them; after the body at point `t` each
    input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BHalf1.lean ====
import proofs.«143299_j13005160972635_2_alg».proof.Proof.Gen.Kernel.Launch
import proofs.«143299_j13005160972635_2_alg».proof.Proof.Gen.Kernel.Skeleton
import proofs.«143299_j13005160972635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The edge gate region (the second kernel launch), at the buffer contents `V` it is entered from

Each grid point reads a block of 4000 edge rows `e`, the square weight `Cw`, the one-row bias `Cb`, the 4000 gathered
rows `dxd` and the 4000 gathered double-width rows `bex`, and writes three blocks over the same 4000 rows:
`(dxd + bex[:, 128:]) + (e · Cw + Cb)`, its logistic, and the logistic times `bex[:, :128]`. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_big : Rect S4000x128 := Rect.unit (s := S4000x128) ![0, 0] S4000x128.size inb_S4000x128_S4000x128_0_0
abbrev r1_sq : Rect S128x128 := Rect.unit (s := S128x128) ![0, 0] S128x128.size inb_S128x128_S128x128_0_0
abbrev r1_row : Rect S1x128 := Rect.unit (s := S1x128) ![0, 0] S1x128.size inb_S1x128_S1x128_0_0
/-- The left and the right half (columns 0..127 and 128..255) of the double-width block. -/
abbrev r1_lo : Rect S4000x256 := Rect.unit (s := S4000x256) ![0, 0] S4000x128.size inb_S4000x256_S4000x128_0_0
abbrev r1_hi : Rect S4000x256 := Rect.unit (s := S4000x256) ![0, 128] S4000x128.size inb_S4000x256_S4000x128_0_128

/-- The first output block after the body: the one store of the pre-activation payload over the loaded blocks. -/
def out1_5 (x0 : Vec F S4000x128 .f32) (x1 : Vec F S128x128 .f32) (x2 : Vec F S1x128 .f32) (x3 : Vec F S4000x128 .f32)
    (x4 : Vec F S4000x256 .f32) : Vec F S4000x128 .f32 :=
  View.canon [⟨r1_big, k1_pay1 (View.ld x0 r1_big) (View.ld x1 r1_sq) (View.ld x2 r1_row) (View.ld x4 r1_hi) (View.ld x3 r1_big)⟩]

/-- The second output block: the one store of the logistic payload. -/
def out1_6 (x0 : Vec F S4000x128 .f32) (x1 : Vec F S128x128 .f32) (x2 : Vec F S1x128 .f32) (x3 : Vec F S4000x128 .f32)
    (x4 : Vec F S4000x256 .f32) : Vec F S4000x128 .f32 :=
  View.canon [⟨r1_big, k1_pay2 (View.ld x0 r1_big) (View.ld x1 r1_sq) (View.ld x2 r1_row) (View.ld x4 r1_hi) (View.ld x3 r1_big)⟩]

/-- The third output block: the one store of the gated payload. -/
def out1_7 (x0 : Vec F S4000x128 .f32) (x1 : Vec F S128x128 .f32) (x2 : Vec F S1x128 .f32) (x3 : Vec F S4000x128 .f32)
    (x4 : Vec F S4000x256 .f32) : Vec F S4000x128 .f32 :=
  View.canon [⟨r1_big, k1_pay3 (View.ld x0 r1_big) (View.ld x1 r1_sq) (View.ld x2 r1_row) (View.ld x4 r1_lo) (View.ld x4 r1_hi) (View.ld x3 r1_big)⟩]

theorem cover1_out (p0 : Vec F S4000x128 .f32) (y : S4000x128.Idx) :
    ∃ pc ∈ ([⟨r1_big, p0⟩] : List (View.Piece (Elt F) S4000x128 .f32)), y ∈ pc.1.set :=
  View.cover_of_tiled [⟨r1_big, p0⟩] S4000x128.size (by rfl) y

set_option maxHeartbeats 2000000 in
theorem sound_kernel1 (c : Dev nD) (E : Set ℕ) (i : grid1.Coords)
    (arg1 : Memref sig .tc .vmem S4000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S4000x128 .f32) (harg4 : arg4.IsWhole)
    (arg5 : Memref sig .tc .vmem S4000x256 .f32) (harg5 : arg5.IsWhole) (arg6 : Memref sig .tc .vmem S4000x128 .f32) (harg6 : arg6.IsWhole)
    (arg7 : Memref sig .tc .vmem S4000x128 .f32) (harg7 : arg7.IsWhole) (arg8 : Memref sig .tc .vmem S4000x128 .f32) (harg8 : arg8.IsWhole)
    (x0 : Vec F S4000x128 .f32) (x1 : Vec F S128x128 .f32) (x2 : Vec F S1x128 .f32) (x3 : Vec F S4000x128 .f32) (x4 : Vec F S4000x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)
            ∗ owns (c : Thread nD τ) arg7 fullShare (out1_6 x0 x1 x2 x3 x4)
            ∗ owns (c : Thread nD τ) arg8 fullShare (out1_7 x0 x1 x2 x3 x4)) -∗ K ⟨⟩))
      ⊢ wp frame (wpE (defs₀ (F := F)) Variants.none c none) E
          (cc1__edge_sigma_kernel i arg1 harg1 arg2 harg2 arg3 harg3 arg4 harg4 arg5 harg5 arg6 harg6 arg7 harg7 arg8 harg8) K := by
  simp only [cc1__edge_sigma_kernel_eq_skeleton]; unfold cc1__edge_sigma_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_out _)
  isplitl [H6]
  · iexists _; isplitr
    swap; · iexact H6
    ipureintro
    exact View.read_writes_eq_canon _ _ _ (cover1_out _)
  iexists _; isplitr
  swap; · iexact H7
  ipureintro
  exact View.read_writes_eq_canon _ _ _ (cover1_out _)

/-- The proof data of the region on core `c`: the arrays as the region finds them; after the body at point `t` each
    input's buffer at its block and each output's at its `out1_w` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BHalf2.lean ====
import proofs.«143299_j13005160972635_2_alg».proof.Proof.Gen.Kernel.Launch
import proofs.«143299_j13005160972635_2_alg».proof.Proof.Gen.Kernel.Skeleton
import proofs.«143299_j13005160972635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node normalisation region (the third kernel launch), at the buffer contents `V` it is entered from

Each grid point reads a block of 4000 rows of the pre-activation, the one-row scale and the one-row shift, and writes
`max (x * scale + shift, 0)` over the same 4000 rows. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_big : Rect S4000x128 := Rect.unit (s := S4000x128) ![0, 0] S4000x128.size inb_S4000x128_S4000x128_0_0
abbrev r2_row : Rect S1x128 := Rect.unit (s := S1x128) ![0, 0] S1x128.size inb_S1x128_S1x128_0_0

/-- The output block after the body: the one store of the payload over the three loaded blocks. -/
def out2_3 (x0 : Vec F S4000x128 .f32) (x1 : Vec F S1x128 .f32) (x2 : Vec F S1x128 .f32) : Vec F S4000x128 .f32 :=
  View.canon [⟨r2_big, k2_pay1 (View.ld x0 r2_big) (View.ld x1 r2_row) (View.ld x2 r2_row)⟩]

theorem cover2_3 (p0 : Vec F S4000x128 .f32) (y : S4000x128.Idx) :
    ∃ pc ∈ ([⟨r2_big, p0⟩] : List (View.Piece (Elt F) S4000x128 .f32)), y ∈ pc.1.set :=
  View.cover_of_tiled [⟨r2_big, p0⟩] S4000x128.size (by rfl) y

set_option maxHeartbeats 1000000 in
theorem sound_kernel2 (c : Dev nD) (E : Set ℕ) (i : grid2.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__x_bn_relu_kernel i arg1 harg1 arg2 harg2 arg3 harg3 arg4 harg4) K := by
  simp only [cc2__x_bn_relu_kernel_eq_skeleton]; unfold cc2__x_bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region on core `c`: the arrays as the region finds them; after the body at point `t` each
    input's buffer at its block and the output's at `out2_3` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BHalf3.lean ====
import proofs.«143299_j13005160972635_2_alg».proof.Proof.Gen.Kernel.Launch
import proofs.«143299_j13005160972635_2_alg».proof.Proof.Gen.Kernel.Skeleton
import proofs.«143299_j13005160972635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The edge output region (the fourth kernel launch), at the buffer contents `V` it is entered from

Each grid point reads a block of 4000 rows of the edge pre-activation, the one-row scale and shift, the 4000 gathered source
and destination node rows, and the two dense layers' weights and bias rows. It writes the normalised, clamped edge rows
`max (e * scale + shift, 0)`, and the one-column logistic of the second dense layer over the concatenated features. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

abbrev r3_big : Rect S4000x128 := Rect.unit (s := S4000x128) ![0, 0] S4000x128.size inb_S4000x128_S4000x128_0_0
abbrev r3_row : Rect S1x128 := Rect.unit (s := S1x128) ![0, 0] S1x128.size inb_S1x128_S1x128_0_0
abbrev r3_w1 : Rect S384x256 := Rect.unit (s := S384x256) ![0, 0] S384x256.size inb_S384x256_S384x256_0_0
abbrev r3_b1 : Rect S1x256 := Rect.unit (s := S1x256) ![0, 0] S1x256.size inb_S1x256_S1x256_0_0
abbrev r3_w2 : Rect S256x128 := Rect.unit (s := S256x128) ![0, 0] S256x128.size inb_S256x128_S256x128_0_0
abbrev r3_col : Rect S4000x1 := Rect.unit (s := S4000x1) ![0, 0] S4000x1.size inb_S4000x1_S4000x1_0_0

/-- The edge-row output block after the body: the one store of the clamped affine image of the edge block. -/
def out3_9 (x0 : Vec F S4000x128 .f32) (x1 : Vec F S1x128 .f32) (x2 : Vec F S1x128 .f32) : Vec F S4000x128 .f32 :=
  View.canon [⟨r3_big, k3_pay2 (View.ld x0 r3_big) (View.ld x1 r3_row) (View.ld x2 r3_row)⟩]

/-- The score output block after the body: the one store of the logistic of the second layer's first column. -/
def out3_10 (x0 : Vec F S4000x128 .f32) (x1 : Vec F S1x128 .f32) (x2 : Vec F S1x128 .f32) (x3 : Vec F S4000x128 .f32)
    (x4 : Vec F S4000x128 .f32) (x5 : Vec F S384x256 .f32) (x6 : Vec F S1x256 .f32) (x7 : Vec F S256x128 .f32)
    (x8 : Vec F S1x128 .f32) : Vec F S4000x1 .f32 :=
  View.canon [⟨r3_col, k3_pay1 (k3_pay3 (View.ld x0 r3_big) (View.ld x1 r3_row) (View.ld x2 r3_row) (View.ld x3 r3_big)
    (View.ld x4 r3_big) (View.ld x5 r3_w1) (View.ld x6 r3_b1) (View.ld x7 r3_w2) (View.ld x8 r3_row))⟩]

theorem cover3_9 (p0 : Vec F S4000x128 .f32) (y : S4000x128.Idx) :
    ∃ pc ∈ ([⟨r3_big, p0⟩] : List (View.Piece (Elt F) S4000x128 .f32)), y ∈ pc.1.set :=
  View.cover_of_tiled [⟨r3_big, p0⟩] S4000x128.size (by rfl) y

theorem cover3_10 (p0 : Vec F S4000x1 .f32) (y : S4000x1.Idx) :
    ∃ pc ∈ ([⟨r3_col, p0⟩] : List (View.Piece (Elt F) S4000x1 .f32)), y ∈ pc.1.set :=
  View.cover_of_tiled [⟨r3_col, p0⟩] S4000x1.size (by rfl) y

set_option maxHeartbeats 4000000 in
theorem sound_kernel3 (c : Dev nD) (E : Set ℕ) (i : grid3.Coords)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S4000x128 .f32) (harg4 : arg4.IsWhole)
    (arg5 : Memref sig .tc .vmem S4000x128 .f32) (harg5 : arg5.IsWhole)
    (arg6 : Memref sig .tc .vmem S384x256 .f32) (harg6 : arg6.IsWhole)
    (arg7 : Memref sig .tc .vmem S1x256 .f32) (harg7 : arg7.IsWhole)
    (arg8 : Memref sig .tc .vmem S256x128 .f32) (harg8 : arg8.IsWhole)
    (arg9 : Memref sig .tc .vmem S1x128 .f32) (harg9 : arg9.IsWhole)
    (arg10 : Memref sig .tc .vmem S4000x128 .f32) (harg10 : arg10.IsWhole)
    (arg11 : Memref sig .tc .vmem S4000x1 .f32) (harg11 : arg11.IsWhole)
    (x0 : Vec F S4000x128 .f32) (x1 : Vec F S1x128 .f32) (x2 : Vec F S1x128 .f32) (x3 : Vec F S4000x128 .f32) (x4 : Vec F S4000x128 .f32) (x5 : Vec F S384x256 .f32) (x6 : Vec F S1x256 .f32) (x7 : Vec F S256x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out3_9 x0 x1 x2)
            ∗ owns (c : Thread nD τ) arg11 fullShare (out3_10 x0 x1 x2 x3 x4 x5 x6 x7 x8)) -∗ K ⟨⟩))
      ⊢ wp frame (wpE (defs₀ (F := F)) Variants.none c none) E (cc3__edge_final_kernel i arg1 harg1 arg2 harg2 arg3 harg3 arg4 harg4 arg5 harg5 arg6 harg6 arg7 harg7 arg8 harg8 arg9 harg9 arg10 harg10 arg11 harg11) K := by
  simp only [cc3__edge_final_kernel_eq_skeleton]; unfold cc3__edge_final_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover3_9 _)
  iexists _; isplitr
  swap; · iexact H10
  ipureintro
  exact View.read_writes_eq_canon _ _ _ (cover3_10 _)

/-- The proof data of the region on core `c`: the arrays as the region finds them; after the body at point `t` each
    input's buffer at its block and each output's at its store of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t)
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) :
    (dat3 V c).after 9 t = out3_9 (iblk3 V c 0 t) (iblk3 V c 1 t) (iblk3 V c 2 t) := by dsimp only [dat3]
theorem after3_10 (c : Dev nD) (t : Fin cfg3.N) :
    (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ (grid3.coords t) _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BRun.lean ====
import proofs.«143299_j13005160972635_2_alg».proof.Proof.Gen.Kernel.Launch
import proofs.«143299_j13005160972635_2_alg».proof.Proof.Gen.Kernel.Skeleton
import proofs.«143299_j13005160972635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«143299_j13005160972635_2_alg».proof.Proof.BHalf0
import proofs.«143299_j13005160972635_2_alg».proof.Proof.BHalf1
import proofs.«143299_j13005160972635_2_alg».proof.Proof.BHalf2
import proofs.«143299_j13005160972635_2_alg».proof.Proof.BHalf3
import proofs.«143299_j13005160972635_2_alg».proof.Proof.Gen.Kernel.Regions
import Idealize.ShloMosaic.Lib.Pipeline.Regions
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The program's run: the four regions between the host stretches

Between two items of the program every unscoped buffer of a core is held whole at a known contents: the launch memory, then
each host stretch applied to it, then, after a region, the region's output arrays at what its write-backs leave and every
other buffer as the region was entered. The run reads every unscoped buffer of the final memory at the last of these. -/

/-- A valuation read at the TensorCore's references. -/
abbrev rd (W : Dev nD → Valuation τ sig (Elt F)) : (c : Dev nD) → (b : Ref sig .tc) → Buf (Elt F) ((c : Thread nD τ).loc b) := fun c b => W c b

set_option backward.isDefEq.respectTransparency.types false

/-! ## Region 0 between two valuations -/

section Region0
variable (Yin : Dev nD → Valuation τ sig (Elt F))

/-- What region 0 leaves in `main_v7`: output window 3's write-backs folded over the whole grid. -/
def o0_3 (c : Dev nD) : Buf (Elt F) ((c : Thread nD τ).loc main_v7) := (dat0 (rd Yin) c).arrAt 3 cfg0.N
/-- The buffers after region 0: its output arrays at what it leaves, every other buffer as entered. -/
def Yout0 (c : Dev nD) : Valuation τ sig (Elt F) := Function.update (Yin c) (Proc.devRef .tc main_v7) (o0_3 Yin c)

theorem hF0 (c : Dev nD) : ∀ w : Fin cfg0.W, (dat0 (rd Yin) c).arrAt w cfg0.N = rd (Yout0 Yin) c (Pipeline.arrRef spec0 w)
  | ⟨0, _⟩ => by
      refine (((dat0 (rd Yin) c).arrAt_in ⟨0, by decide⟩ rfl _).trans (A_eq0 (rd Yin) c ⟨0, by decide⟩)).trans ?_
      show Yin c (Proc.devRef .tc (Pipeline.arrRef spec0 ⟨0, by decide⟩)) = Yout0 Yin c (Proc.devRef .tc (Pipeline.arrRef spec0 ⟨0, by decide⟩))
      unfold Yout0
      rw [Function.update_of_ne (StableHlo.devRef_ne_of_ne (by decide : Pipeline.arrRef spec0 ⟨0, by decide⟩ ≠ main_v7))]
  | ⟨1, _⟩ => by
      refine (((dat0 (rd Yin) c).arrAt_in ⟨1, by decide⟩ rfl _).trans (A_eq0 (rd Yin) c ⟨1, by decide⟩)).trans ?_
      show Yin c (Proc.devRef .tc (Pipeline.arrRef spec0 ⟨1, by decide⟩)) = Yout0 Yin c (Proc.devRef .tc (Pipeline.arrRef spec0 ⟨1, by decide⟩))
      unfold Yout0
      rw [Function.update_of_ne (StableHlo.devRef_ne_of_ne (by decide : Pipeline.arrRef spec0 ⟨1, by decide⟩ ≠ main_v7))]
  | ⟨2, _⟩ => by
      refine (((dat0 (rd Yin) c).arrAt_in ⟨2, by decide⟩ rfl _).trans (A_eq0 (rd Yin) c ⟨2, by decide⟩)).trans ?_
      show Yin c (Proc.devRef .tc (Pipeline.arrRef spec0 ⟨2, by decide⟩)) = Yout0 Yin c (Proc.devRef .tc (Pipeline.arrRef spec0 ⟨2, by decide⟩))
      unfold Yout0
      rw [Function.update_of_ne (StableHlo.devRef_ne_of_ne (by decide : Pipeline.arrRef spec0 ⟨2, by decide⟩ ≠ main_v7))]
  | ⟨3, _⟩ => by
      show _ = Yout0 Yin c (Proc.devRef .tc main_v7)
      unfold Yout0
      rw [Function.update_self]
      rfl

theorem hrest0 (c : Dev nD) : ∀ b, b ∉ Finset.univ.image (Pipeline.arrRef spec0) → rd (Yout0 Yin) c b = rd Yin c b := fun b hb => by
  show Yout0 Yin c (Proc.devRef .tc b) = Yin c (Proc.devRef .tc b)
  unfold Yout0
  rw [Function.update_of_ne (StableHlo.devRef_ne_of_ne (fun e => hb (Finset.mem_image.mpr ⟨⟨3, by decide⟩, Finset.mem_univ _, (e.symm : Pipeline.arrRef spec0 ⟨3, by decide⟩ = b)⟩)))]

/-- A buffer region 0 does not write keeps its contents. -/
theorem Yout0_of (c : Dev nD) (b : Ref sig .tc) (h : b ∉ ([main_v7] : List (Ref sig .tc))) : Yout0 Yin c (Proc.devRef .tc b) = Yin c (Proc.devRef .tc b) := by
  unfold Yout0
  rw [Function.update_of_ne (StableHlo.devRef_ne_of_ne (List.ne_of_not_mem_cons h))]

end Region0

/-! ## Region 1 between two valuations -/

section Region1
variable (Yin : Dev nD → Valuation τ sig (Elt F))

/-- What region 1 leaves in `main_v26_0`: output window 5's write-backs folded over the whole grid. -/
def o1_5 (c : Dev nD) : Buf (Elt F) ((c : Thread nD τ).loc main_v26_0) := (dat1 (rd Yin) c).arrAt 5 cfg1.N
/-- What region 1 leaves in `main_v26_1`: output window 6's write-backs folded over the whole grid. -/
def o1_6 (c : Dev nD) : Buf (Elt F) ((c : Thread nD τ).loc main_v26_1) := (dat1 (rd Yin) c).arrAt 6 cfg1.N
/-- What region 1 leaves in `main_v26_2`: output window 7's write-backs folded over the whole grid. -/
def o1_7 (c : Dev nD) : Buf (Elt F) ((c : Thread nD τ).loc main_v26_2) := (dat1 (rd Yin) c).arrAt 7 cfg1.N
/-- The buffers after region 1: its output arrays at what it leaves, every other buffer as entered. -/
def Yout1 (c : Dev nD) : Valuation τ sig (Elt F) := Function.update (Function.update (Function.update (Yin c) (Proc.devRef .tc main_v26_0) (o1_5 Yin c)) (Proc.devRef .tc main_v26_1) (o1_6 Yin c)) (Proc.devRef .tc main_v26_2) (o1_7 Yin c)

theorem hF1 (c : Dev nD) : ∀ w : Fin cfg1.W, (dat1 (rd Yin) c).arrAt w cfg1.N = rd (Yout1 Yin) c (Pipeline.arrRef spec1 w)
  | ⟨0, _⟩ => by
      refine (((dat1 (rd Yin) c).arrAt_in ⟨0, by decide⟩ rfl _).trans (A_eq1 (rd Yin) c ⟨0, by decide⟩)).trans ?_
      show Yin c (Proc.devRef .tc (Pipeline.arrRef spec1 ⟨0, by decide⟩)) = Yout1 Yin c (Proc.devRef .tc (Pipeline.arrRef spec1 ⟨0, by decide⟩))
      unfold Yout1
      rw [Function.update_of_ne (StableHlo.devRef_ne_of_ne (by decide : Pipeline.arrRef spec1 ⟨0, by decide⟩ ≠ main_v26_2)), Function.update_of_ne (StableHlo.devRef_ne_of_ne (by decide : Pipeline.arrRef spec1 ⟨0, by decide⟩ ≠ main_v26_1)), Function.update_of_ne (StableHlo.devRef_ne_of_ne (by decide : Pipeline.arrRef spec1 ⟨0, by decide⟩ ≠ main_v26_0))]
  | ⟨1, _⟩ => by
      refine (((dat1 (rd Yin) c).arrAt_in ⟨1, by decide⟩ rfl _).trans (A_eq1 (rd Yin) c ⟨1, by decide⟩)).trans ?_
      show Yin c (Proc.devRef .tc (Pipeline.arrRef spec1 ⟨1, by decide⟩)) = Yout1 Yin c (Proc.devRef .tc (Pipeline.arrRef spec1 ⟨1, by decide⟩))
      unfold Yout1
      rw [Function.update_of_ne (StableHlo.devRef_ne_of_ne (by decide : Pipeline.arrRef spec1 ⟨1, by decide⟩ ≠ main_v26_2)), Function.update_of_ne (StableHlo.devRef_ne_of_ne (by decide : Pipeline.arrRef spec1 ⟨1, by decide⟩ ≠ main_v26_1)), Function.update_of_ne (StableHlo.devRef_ne_of_ne (by decide : Pipeline.arrRef spec1 ⟨1, by decide⟩ ≠ main_v26_0))]
  | ⟨2, _⟩ => by
      refine (((dat1 (rd Yin) c).arrAt_in ⟨2, by decide⟩ rfl _).trans (A_eq1 (rd Yin) c ⟨2, by decide⟩)).trans ?_
      show Yin c (Proc.devRef .tc (Pipeline.arrRef spec1 ⟨2, by decide⟩)) = Yout1 Yin c (Proc.devRef .tc (Pipeline.arrRef spec1 ⟨2, by decide⟩))
      unfold Yout1
      rw [Function.update_of_ne (StableHlo.devRef_ne_of_ne (by decide : Pipeline.arrRef spec1 ⟨2, by decide⟩ ≠ main_v26_2)), Function.update_of_ne (StableHlo.devRef_ne_of_ne (by decide : Pipeline.arrRef spec1 ⟨2, by decide⟩ ≠ main_v26_1)), Function.update_of_ne (StableHlo.devRef_ne_of_ne (by decide : Pipeline.arrRef spec1 ⟨2, by decide⟩ ≠ main_v26_0))]
  | ⟨3, _⟩ => by
      refine (((dat1 (rd Yin) c).arrAt_in ⟨3, by decide⟩ rfl _).trans (A_eq1 (rd Yin) c ⟨3, by decide⟩)).trans ?_
      show Yin c (Proc.devRef .tc (Pipeline.arrRef spec1 ⟨3, by decide⟩)) = Yout1 Yin c (Proc.devRef .tc (Pipeline.arrRef spec1 ⟨3, by decide⟩))
      unfold Yout1
      rw [Function.update_of_ne (StableHlo.devRef_ne_of_ne (by decide : Pipeline.arrRef spec1 ⟨3, by decide⟩ ≠ main_v26_2)), Function.update_of_ne (StableHlo.devRef_ne_of_ne (by decide : Pipeline.arrRef spec1 ⟨3, by decide⟩ ≠ main_v26_1)), Function.update_of_ne (StableHlo.devRef_ne_of_ne (by decide : Pipeline.arrRef spec1 ⟨3, by decide⟩ ≠ main_v26_0))]
  | ⟨4, _⟩ => by
      refine (((dat1 (rd Yin) c).arrAt_in ⟨4, by decide⟩ rfl _).trans (A_eq1 (rd Yin) c ⟨4, by decide⟩)).trans ?_
      show Yin c (Proc.devRef .tc (Pipeline.arrRef spec1 ⟨4, by decide⟩)) = Yout1 Yin c (Proc.devRef .tc (Pipeline.arrRef spec1 ⟨4, by decide⟩))
      unfold Yout1
      rw [Function.update_of_ne (StableHlo.devRef_ne_of_ne (by decide : Pipeline.arrRef spec1 ⟨4, by decide⟩ ≠ main_v26_2)), Function.update_of_ne (StableHlo.devRef_ne_of_ne (by decide : Pipeline.arrRef spec1 ⟨4, by decide⟩ ≠ main_v26_1)), Function.update_of_ne (StableHlo.devRef_ne_of_ne (by decide : Pipeline.arrRef spec1 ⟨4, by decide⟩ ≠ main_v26_0))]
  | ⟨5, _⟩ => by
      show _ = Yout1 Yin c (Proc.devRef .tc main_v26_0)
      unfold Yout1
      rw [Function.update_of_ne (StableHlo.devRef_ne_of_ne (by decide : main_v26_0 ≠ main_v26_2)), Function.update_of_ne (StableHlo.devRef_ne_of_ne (by decide : main_v26_0 ≠ main_v26_1)), Function.update_self]
      rfl
  | ⟨6, _⟩ => by
      show _ = Yout1 Yin c (Proc.devRef .tc main_v26_1)
      unfold Yout1
      rw [Function.update_of_ne (StableHlo.devRef_ne_of_ne (by decide : main_v26_1 ≠ main_v26_2)), Function.update_self]
      rfl
  | ⟨7, _⟩ => by
      show _ = Yout1 Yin c (Proc.devRef .tc main_v26_2)
      unfold Yout1
      rw [Function.update_self]
      rfl

theorem hrest1 (c : Dev nD) : ∀ b, b ∉ Finset.univ.image (Pipeline.arrRef spec1) → rd (Yout1 Yin) c b = rd Yin c b := fun b hb => by
  show Yout1 Yin c (Proc.devRef .tc b) = Yin c (Proc.devRef .tc b)
  unfold Yout1
  rw [Function.update_of_ne (StableHlo.devRef_ne_of_ne (fun e => hb (Finset.mem_image.mpr ⟨⟨7, by decide⟩, Finset.mem_univ _, (e.symm : Pipeline.arrRef spec1 ⟨7, by decide⟩ = b)⟩))), Function.update_of_ne (StableHlo.devRef_ne_of_ne (fun e => hb (Finset.mem_image.mpr ⟨⟨6, by decide⟩, Finset.mem_univ _, (e.symm : Pipeline.arrRef spec1 ⟨6, by decide⟩ = b)⟩))), Function.update_of_ne (StableHlo.devRef_ne_of_ne (fun e => hb (Finset.mem_image.mpr ⟨⟨5, by decide⟩, Finset.mem_univ _, (e.symm : Pipeline.arrRef spec1 ⟨5, by decide⟩ = b)⟩)))]

/-- A buffer region 1 does not write keeps its contents. -/
theorem Yout1_of (c : Dev nD) (b : Ref sig .tc) (h : b ∉ ([main_v26_0, main_v26_1, main_v26_2] : List (Ref sig .tc))) : Yout1 Yin c (Proc.devRef .tc b) = Yin c (Proc.devRef .tc b) := by
  unfold Yout1
  rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]

end Region1

/-! ## Region 2 between two valuations -/

section Region2
variable (Yin : Dev nD → Valuation τ sig (Elt F))

/-- What region 2 leaves in `main_v50`: output window 3's write-backs folded over the whole grid. -/
def o2_3 (c : Dev nD) : Buf (Elt F) ((c : Thread nD τ).loc main_v50) := (dat2 (rd Yin) c).arrAt 3 cfg2.N
/-- The buffers after region 2: its output arrays at what it leaves, every other buffer as entered. -/
def Yout2 (c : Dev nD) : Valuation τ sig (Elt F) := Function.update (Yin c) (Proc.devRef .tc main_v50) (o2_3 Yin c)

theorem hF2 (c : Dev nD) : ∀ w : Fin cfg2.W, (dat2 (rd Yin) c).arrAt w cfg2.N = rd (Yout2 Yin) c (Pipeline.arrRef spec2 w)
  | ⟨0, _⟩ => by
      refine (((dat2 (rd Yin) c).arrAt_in ⟨0, by decide⟩ rfl _).trans (A_eq2 (rd Yin) c ⟨0, by decide⟩)).trans ?_
      show Yin c (Proc.devRef .tc (Pipeline.arrRef spec2 ⟨0, by decide⟩)) = Yout2 Yin c (Proc.devRef .tc (Pipeline.arrRef spec2 ⟨0, by decide⟩))
      unfold Yout2
      rw [Function.update_of_ne (StableHlo.devRef_ne_of_ne (by decide : Pipeline.arrRef spec2 ⟨0, by decide⟩ ≠ main_v50))]
  | ⟨1, _⟩ => by
      refine (((dat2 (rd Yin) c).arrAt_in ⟨1, by decide⟩ rfl _).trans (A_eq2 (rd Yin) c ⟨1, by decide⟩)).trans ?_
      show Yin c (Proc.devRef .tc (Pipeline.arrRef spec2 ⟨1, by decide⟩)) = Yout2 Yin c (Proc.devRef .tc (Pipeline.arrRef spec2 ⟨1, by decide⟩))
      unfold Yout2
      rw [Function.update_of_ne (StableHlo.devRef_ne_of_ne (by decide : Pipeline.arrRef spec2 ⟨1, by decide⟩ ≠ main_v50))]
  | ⟨2, _⟩ => by
      refine (((dat2 (rd Yin) c).arrAt_in ⟨2, by decide⟩ rfl _).trans (A_eq2 (rd Yin) c ⟨2, by decide⟩)).trans ?_
      show Yin c (Proc.devRef .tc (Pipeline.arrRef spec2 ⟨2, by decide⟩)) = Yout2 Yin c (Proc.devRef .tc (Pipeline.arrRef spec2 ⟨2, by decide⟩))
      unfold Yout2
      rw [Function.update_of_ne (StableHlo.devRef_ne_of_ne (by decide : Pipeline.arrRef spec2 ⟨2, by decide⟩ ≠ main_v50))]
  | ⟨3, _⟩ => by
      show _ = Yout2 Yin c (Proc.devRef .tc main_v50)
      unfold Yout2
      rw [Function.update_self]
      rfl

theorem hrest2 (c : Dev nD) : ∀ b, b ∉ Finset.univ.image (Pipeline.arrRef spec2) → rd (Yout2 Yin) c b = rd Yin c b := fun b hb => by
  show Yout2 Yin c (Proc.devRef .tc b) = Yin c (Proc.devRef .tc b)
  unfold Yout2
  rw [Function.update_of_ne (StableHlo.devRef_ne_of_ne (fun e => hb (Finset.mem_image.mpr ⟨⟨3, by decide⟩, Finset.mem_univ _, (e.symm : Pipeline.arrRef spec2 ⟨3, by decide⟩ = b)⟩)))]

/-- A buffer region 2 does not write keeps its contents. -/
theorem Yout2_of (c : Dev nD) (b : Ref sig .tc) (h : b ∉ ([main_v50] : List (Ref sig .tc))) : Yout2 Yin c (Proc.devRef .tc b) = Yin c (Proc.devRef .tc b) := by
  unfold Yout2
  rw [Function.update_of_ne (StableHlo.devRef_ne_of_ne (List.ne_of_not_mem_cons h))]

end Region2

/-! ## Region 3 between two valuations -/

section Region3
variable (Yin : Dev nD → Valuation τ sig (Elt F))

/-- What region 3 leaves in `main_v80_0`: output window 9's write-backs folded over the whole grid. -/
def o3_9 (c : Dev nD) : Buf (Elt F) ((c : Thread nD τ).loc main_v80_0) := (dat3 (rd Yin) c).arrAt 9 cfg3.N
/-- What region 3 leaves in `main_v80_1`: output window 10's write-backs folded over the whole grid. -/
def o3_10 (c : Dev nD) : Buf (Elt F) ((c : Thread nD τ).loc main_v80_1) := (dat3 (rd Yin) c).arrAt 10 cfg3.N
/-- The buffers after region 3: its output arrays at what it leaves, every other buffer as entered. -/
def Yout3 (c : Dev nD) : Valuation τ sig (Elt F) := Function.update (Function.update (Yin c) (Proc.devRef .tc main_v80_0) (o3_9 Yin c)) (Proc.devRef .tc main_v80_1) (o3_10 Yin c)

theorem hF3 (c : Dev nD) : ∀ w : Fin cfg3.W, (dat3 (rd Yin) c).arrAt w cfg3.N = rd (Yout3 Yin) c (Pipeline.arrRef spec3 w)
  | ⟨0, _⟩ => by
      refine (((dat3 (rd Yin) c).arrAt_in ⟨0, by decide⟩ rfl _).trans (A_eq3 (rd Yin) c ⟨0, by decide⟩)).trans ?_
      show Yin c (Proc.devRef .tc (Pipeline.arrRef spec3 ⟨0, by decide⟩)) = Yout3 Yin c (Proc.devRef .tc (Pipeline.arrRef spec3 ⟨0, by decide⟩))
      unfold Yout3
      rw [Function.update_of_ne (StableHlo.devRef_ne_of_ne (by decide : Pipeline.arrRef spec3 ⟨0, by decide⟩ ≠ main_v80_1)), Function.update_of_ne (StableHlo.devRef_ne_of_ne (by decide : Pipeline.arrRef spec3 ⟨0, by decide⟩ ≠ main_v80_0))]
  | ⟨1, _⟩ => by
      refine (((dat3 (rd Yin) c).arrAt_in ⟨1, by decide⟩ rfl _).trans (A_eq3 (rd Yin) c ⟨1, by decide⟩)).trans ?_
      show Yin c (Proc.devRef .tc (Pipeline.arrRef spec3 ⟨1, by decide⟩)) = Yout3 Yin c (Proc.devRef .tc (Pipeline.arrRef spec3 ⟨1, by decide⟩))
      unfold Yout3
      rw [Function.update_of_ne (StableHlo.devRef_ne_of_ne (by decide : Pipeline.arrRef spec3 ⟨1, by decide⟩ ≠ main_v80_1)), Function.update_of_ne (StableHlo.devRef_ne_of_ne (by decide : Pipeline.arrRef spec3 ⟨1, by decide⟩ ≠ main_v80_0))]
  | ⟨2, _⟩ => by
      refine (((dat3 (rd Yin) c).arrAt_in ⟨2, by decide⟩ rfl _).trans (A_eq3 (rd Yin) c ⟨2, by decide⟩)).trans ?_
      show Yin c (Proc.devRef .tc (Pipeline.arrRef spec3 ⟨2, by decide⟩)) = Yout3 Yin c (Proc.devRef .tc (Pipeline.arrRef spec3 ⟨2, by decide⟩))
      unfold Yout3
      rw [Function.update_of_ne (StableHlo.devRef_ne_of_ne (by decide : Pipeline.arrRef spec3 ⟨2, by decide⟩ ≠ main_v80_1)), Function.update_of_ne (StableHlo.devRef_ne_of_ne (by decide : Pipeline.arrRef spec3 ⟨2, by decide⟩ ≠ main_v80_0))]
  | ⟨3, _⟩ => by
      refine (((dat3 (rd Yin) c).arrAt_in ⟨3, by decide⟩ rfl _).trans (A_eq3 (rd Yin) c ⟨3, by decide⟩)).trans ?_
      show Yin c (Proc.devRef .tc (Pipeline.arrRef spec3 ⟨3, by decide⟩)) = Yout3 Yin c (Proc.devRef .tc (Pipeline.arrRef spec3 ⟨3, by decide⟩))
      unfold Yout3
      rw [Function.update_of_ne (StableHlo.devRef_ne_of_ne (by decide : Pipeline.arrRef spec3 ⟨3, by decide⟩ ≠ main_v80_1)), Function.update_of_ne (StableHlo.devRef_ne_of_ne (by decide : Pipeline.arrRef spec3 ⟨3, by decide⟩ ≠ main_v80_0))]
  | ⟨4, _⟩ => by
      refine (((dat3 (rd Yin) c).arrAt_in ⟨4, by decide⟩ rfl _).trans (A_eq3 (rd Yin) c ⟨4, by decide⟩)).trans ?_
      show Yin c (Proc.devRef .tc (Pipeline.arrRef spec3 ⟨4, by decide⟩)) = Yout3 Yin c (Proc.devRef .tc (Pipeline.arrRef spec3 ⟨4, by decide⟩))
      unfold Yout3
      rw [Function.update_of_ne (StableHlo.devRef_ne_of_ne (by decide : Pipeline.arrRef spec3 ⟨4, by decide⟩ ≠ main_v80_1)), Function.update_of_ne (StableHlo.devRef_ne_of_ne (by decide : Pipeline.arrRef spec3 ⟨4, by decide⟩ ≠ main_v80_0))]
  | ⟨5, _⟩ => by
      refine (((dat3 (rd Yin) c).arrAt_in ⟨5, by decide⟩ rfl _).trans (A_eq3 (rd Yin) c ⟨5, by decide⟩)).trans ?_
      show Yin c (Proc.devRef .tc (Pipeline.arrRef spec3 ⟨5, by decide⟩)) = Yout3 Yin c (Proc.devRef .tc (Pipeline.arrRef spec3 ⟨5, by decide⟩))
      unfold Yout3
      rw [Function.update_of_ne (StableHlo.devRef_ne_of_ne (by decide : Pipeline.arrRef spec3 ⟨5, by decide⟩ ≠ main_v80_1)), Function.update_of_ne (StableHlo.devRef_ne_of_ne (by decide : Pipeline.arrRef spec3 ⟨5, by decide⟩ ≠ main_v80_0))]
  | ⟨6, _⟩ => by
      refine (((dat3 (rd Yin) c).arrAt_in ⟨6, by decide⟩ rfl _).trans (A_eq3 (rd Yin) c ⟨6, by decide⟩)).trans ?_
      show Yin c (Proc.devRef .tc (Pipeline.arrRef spec3 ⟨6, by decide⟩)) = Yout3 Yin c (Proc.devRef .tc (Pipeline.arrRef spec3 ⟨6, by decide⟩))
      unfold Yout3
      rw [Function.update_of_ne (StableHlo.devRef_ne_of_ne (by decide : Pipeline.arrRef spec3 ⟨6, by decide⟩ ≠ main_v80_1)), Function.update_of_ne (StableHlo.devRef_ne_of_ne (by decide : Pipeline.arrRef spec3 ⟨6, by decide⟩ ≠ main_v80_0))]
  | ⟨7, _⟩ => by
      refine (((dat3 (rd Yin) c).arrAt_in ⟨7, by decide⟩ rfl _).trans (A_eq3 (rd Yin) c ⟨7, by decide⟩)).trans ?_
      show Yin c (Proc.devRef .tc (Pipeline.arrRef spec3 ⟨7, by decide⟩)) = Yout3 Yin c (Proc.devRef .tc (Pipeline.arrRef spec3 ⟨7, by decide⟩))
      unfold Yout3
      rw [Function.update_of_ne (StableHlo.devRef_ne_of_ne (by decide : Pipeline.arrRef spec3 ⟨7, by decide⟩ ≠ main_v80_1)), Function.update_of_ne (StableHlo.devRef_ne_of_ne (by decide : Pipeline.arrRef spec3 ⟨7, by decide⟩ ≠ main_v80_0))]
  | ⟨8, _⟩ => by
      refine (((dat3 (rd Yin) c).arrAt_in ⟨8, by decide⟩ rfl _).trans (A_eq3 (rd Yin) c ⟨8, by decide⟩)).trans ?_
      show Yin c (Proc.devRef .tc (Pipeline.arrRef spec3 ⟨8, by decide⟩)) = Yout3 Yin c (Proc.devRef .tc (Pipeline.arrRef spec3 ⟨8, by decide⟩))
      unfold Yout3
      rw [Function.update_of_ne (StableHlo.devRef_ne_of_ne (by decide : Pipeline.arrRef spec3 ⟨8, by decide⟩ ≠ main_v80_1)), Function.update_of_ne (StableHlo.devRef_ne_of_ne (by decide : Pipeline.arrRef spec3 ⟨8, by decide⟩ ≠ main_v80_0))]
  | ⟨9, _⟩ => by
      show _ = Yout3 Yin c (Proc.devRef .tc main_v80_0)
      unfold Yout3
      rw [Function.update_of_ne (StableHlo.devRef_ne_of_ne (by decide : main_v80_0 ≠ main_v80_1)), Function.update_self]
      rfl
  | ⟨10, _⟩ => by
      show _ = Yout3 Yin c (Proc.devRef .tc main_v80_1)
      unfold Yout3
      rw [Function.update_self]
      rfl

theorem hrest3 (c : Dev nD) : ∀ b, b ∉ Finset.univ.image (Pipeline.arrRef spec3) → rd (Yout3 Yin) c b = rd Yin c b := fun b hb => by
  show Yout3 Yin c (Proc.devRef .tc b) = Yin c (Proc.devRef .tc b)
  unfold Yout3
  rw [Function.update_of_ne (StableHlo.devRef_ne_of_ne (fun e => hb (Finset.mem_image.mpr ⟨⟨10, by decide⟩, Finset.mem_univ _, (e.symm : Pipeline.arrRef spec3 ⟨10, by decide⟩ = b)⟩))), Function.update_of_ne (StableHlo.devRef_ne_of_ne (fun e => hb (Finset.mem_image.mpr ⟨⟨9, by decide⟩, Finset.mem_univ _, (e.symm : Pipeline.arrRef spec3 ⟨9, by decide⟩ = b)⟩)))]

/-- A buffer region 3 does not write keeps its contents. -/
theorem Yout3_of (c : Dev nD) (b : Ref sig .tc) (h : b ∉ ([main_v80_0, main_v80_1] : List (Ref sig .tc))) : Yout3 Yin c (Proc.devRef .tc b) = Yin c (Proc.devRef .tc b) := by
  unfold Yout3
  rw [Function.update_of_ne (StableHlo.devRef_ne_of_ne (List.ne_of_not_mem_cons (List.not_mem_of_not_mem_cons h))), Function.update_of_ne (StableHlo.devRef_ne_of_ne (List.ne_of_not_mem_cons h))]

end Region3

variable (m : (ℓ : Loc nD τ sig) → Buf (Elt F) ℓ) (ρ : Dev nD → PrngReg)

/-! ## The buffers' contents between items -/

/-- Core `c`'s unscoped buffers at launch. -/
def Y0 (c : Dev nD) : Valuation τ sig (Elt F) := fun b => m (c, b)
/-- … after the host stretch `hostOps0`. -/
def Y1 (c : Dev nD) : Valuation τ sig (Elt F) := StableHlo.after hostOps0 (Y0 m c)
/-- … after region 0. -/
def Y2 : Dev nD → Valuation τ sig (Elt F) := Yout0 (Y1 m)
/-- … after the host stretch `hostOps1`. -/
def Y3 (c : Dev nD) : Valuation τ sig (Elt F) := StableHlo.after hostOps1 (Y2 m c)
/-- … after region 1. -/
def Y4 : Dev nD → Valuation τ sig (Elt F) := Yout1 (Y3 m)
/-- … after the host stretch `hostOps2`. -/
def Y5 (c : Dev nD) : Valuation τ sig (Elt F) := StableHlo.after hostOps2 (Y4 m c)
/-- … after the host stretch `hostOps2_1`. -/
def Y6 (c : Dev nD) : Valuation τ sig (Elt F) := StableHlo.after hostOps2_1 (Y5 m c)
/-- … after the host stretch `hostOps2_2`. -/
def Y7 (c : Dev nD) : Valuation τ sig (Elt F) := StableHlo.after hostOps2_2 (Y6 m c)
/-- … after region 2. -/
def Y8 : Dev nD → Valuation τ sig (Elt F) := Yout2 (Y7 m)
/-- … after the host stretch `hostOps3`. -/
def Y9 (c : Dev nD) : Valuation τ sig (Elt F) := StableHlo.after hostOps3 (Y8 m c)
/-- … after the host stretch `hostOps3_1`. -/
def Y10 (c : Dev nD) : Valuation τ sig (Elt F) := StableHlo.after hostOps3_1 (Y9 m c)
/-- … after the host stretch `hostOps3_2`. -/
def Y11 (c : Dev nD) : Valuation τ sig (Elt F) := StableHlo.after hostOps3_2 (Y10 m c)
/-- … after region 3. -/
def Y12 : Dev nD → Valuation τ sig (Elt F) := Yout3 (Y11 m)

/-- A buffer that no host stretch and no region writes ends as launched. -/
theorem Y12_keep (c : Dev nD) (b : Ref sig .tc) (h0 : b ∉ hostOps0_W) (h1 : b ∉ ([main_v7] : List (Ref sig .tc))) (h2 : b ∉ hostOps1_W) (h3 : b ∉ ([main_v26_0, main_v26_1, main_v26_2] : List (Ref sig .tc))) (h4 : b ∉ hostOps2_W) (h5 : b ∉ hostOps2_1_W) (h6 : b ∉ hostOps2_2_W) (h7 : b ∉ ([main_v50] : List (Ref sig .tc))) (h8 : b ∉ hostOps3_W) (h9 : b ∉ hostOps3_1_W) (h10 : b ∉ hostOps3_2_W) (h11 : b ∉ ([main_v80_0, main_v80_1] : List (Ref sig .tc))) :
    Y12 m c (Proc.devRef .tc b) = m ((c : Thread nD τ).loc b) :=
  (Yout3_of (Y11 m) c b h11).trans <|
  (StableHlo.after_of_writes_sub hostOps3_2 _ hostOps3_2_writes h10).trans <|
  (StableHlo.after_of_writes_sub hostOps3_1 _ hostOps3_1_writes h9).trans <|
  (StableHlo.after_of_writes_sub hostOps3 _ hostOps3_writes h8).trans <|
  (Yout2_of (Y7 m) c b h7).trans <|
  (StableHlo.after_of_writes_sub hostOps2_2 _ hostOps2_2_writes h6).trans <|
  (StableHlo.after_of_writes_sub hostOps2_1 _ hostOps2_1_writes h5).trans <|
  (StableHlo.after_of_writes_sub hostOps2 _ hostOps2_writes h4).trans <|
  (Yout1_of (Y3 m) c b h3).trans <|
  (StableHlo.after_of_writes_sub hostOps1 _ hostOps1_writes h2).trans <|
  (Yout0_of (Y1 m) c b h1).trans <|
  (StableHlo.after_of_writes_sub hostOps0 _ hostOps0_writes h0).trans <| rfl

/-! ## The proof data family and the thread state -/

/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (rd (Y1 m)) c
  | ⟨1, _⟩ => fun c => dat1 (rd (Y3 m)) c
  | ⟨2, _⟩ => fun c => dat2 (rd (Y7 m)) c
  | ⟨3, _⟩ => fun c => dat3 (rd (Y11 m)) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (Y12 m c) ∗ ∃ r, prngReg c r)

/-! ## The regions as segments -/

set_option backward.isDefEq.respectTransparency.types false in
/-- Region 0 over the thread state: entered from every unscoped buffer at `Y1`, left at `Y2`. Its arrays are split out
    of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (Y1 m)) c).loose
  hwaits := Pipeline.hwaits_of_owed_zero _ _ _ _ L lv 0 fun _ _ => rfl
  pre c := iprop(StableHlo.held (c : Thread nD τ) (Pipeline.ucRefs τ sig) (Y1 m c) ∗ R c)
  post c := iprop(StableHlo.held (c : Thread nD τ) (Pipeline.ucRefs τ sig) (Y2 m c) ∗ R c)
  X c := iprop(∃ r, prngReg c r)
  Y c := iprop(∃ r, prngReg c r)
  Z c := Pipeline.unscopedRest (Ix := Unit) (Name := ℕ) (U := UR sig nD τ) (Lvl := ℕ) spec0 c (rd (Y1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (Y1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (Y1 m) c) (rd (Y2 m) c) ((pdats m 0 c).arrAt · cfg0.N) (hF0 (Y1 m) c) (hrest0 (Y1 m) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Y3`, left at `Y4`. Its arrays are split out
    of the unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (Y3 m)) c).loose
  hwaits := Pipeline.hwaits_of_owed_zero _ _ _ _ L lv 1 fun _ _ => rfl
  pre c := iprop(StableHlo.held (c : Thread nD τ) (Pipeline.ucRefs τ sig) (Y3 m c) ∗ R c)
  post c := iprop(StableHlo.held (c : Thread nD τ) (Pipeline.ucRefs τ sig) (Y4 m c) ∗ R c)
  X c := iprop(∃ r, prngReg c r)
  Y c := iprop(∃ r, prngReg c r)
  Z c := Pipeline.unscopedRest (Ix := Unit) (Name := ℕ) (U := UR sig nD τ) (Lvl := ℕ) spec1 c (rd (Y3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (Y3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (Y3 m) c) (rd (Y4 m) c) ((pdats m 1 c).arrAt · cfg1.N) (hF1 (Y3 m) c) (hrest1 (Y3 m) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Y7`, left at `Y8`. Its arrays are split out
    of the unscoped buffers and put back at the exit contents; the generator register goes into the invariant and comes
    back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (Y7 m)) c).loose
  hwaits := Pipeline.hwaits_of_owed_zero _ _ _ _ L lv 2 fun _ _ => rfl
  pre c := iprop(StableHlo.held (c : Thread nD τ) (Pipeline.ucRefs τ sig) (Y7 m c) ∗ R c)
  post c := iprop(StableHlo.held (c : Thread nD τ) (Pipeline.ucRefs τ sig) (Y8 m c) ∗ R c)
  X c := iprop(∃ r, prngReg c r)
  Y c := iprop(∃ r, prngReg c r)
  Z c := Pipeline.unscopedRest (Ix := Unit) (Name := ℕ) (U := UR sig nD τ) (Lvl := ℕ) spec2 c (rd (Y7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (Y7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (Y7 m) c) (rd (Y8 m) c) ((pdats m 2 c).arrAt · cfg2.N) (hF2 (Y7 m) c) (hrest2 (Y7 m) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Y11`, left at `Y12`. Its arrays are split out
    of the unscoped buffers and put back at the exit contents; the generator register goes into the invariant and comes
    back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (Y11 m)) c).loose
  hwaits := Pipeline.hwaits_of_owed_zero _ _ _ _ L lv 3 fun _ _ => rfl
  pre c := iprop(StableHlo.held (c : Thread nD τ) (Pipeline.ucRefs τ sig) (Y11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (rd (Y11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (Y11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (Y11 m) c) (rd (Y12 m) c) ((pdats m 3 c).arrAt · cfg3.N) (hF3 (Y11 m) c) (hrest3 (Y11 m) c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (Y0 m)),
    .region (reg0 m),
    .host (hseg hostOps1 hostOps1_sub hostOps1_fresh (Y2 m)),
    .region (reg1 m),
    .host (hseg hostOps2 hostOps2_sub hostOps2_fresh (Y4 m)),
    .host (hseg hostOps2_1 hostOps2_1_sub hostOps2_1_fresh (Y5 m)),
    .host (hseg hostOps2_2 hostOps2_2_sub hostOps2_2_fresh (Y6 m)),
    .region (reg2 m),
    .host (hseg hostOps3 hostOps3_sub hostOps3_fresh (Y8 m)),
    .host (hseg hostOps3_1 hostOps3_1_sub hostOps3_1_fresh (Y9 m)),
    .host (hseg hostOps3_2 hostOps3_2_sub hostOps3_2_fresh (Y10 m)),
    .region (reg3 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final memory holds each unscoped buffer of each core at `Y12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Y12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Y0 m c)
        from Pipeline.unscopedBufs_held c (Y0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y12 m c b)
    (hfin := fun c s' => by
      iintro ⟨⟨Hh, -⟩, HSI⟩
      unfold StableHlo.held
      imodintro
      iapply (pointsTo_read_all (Pipeline.ucRefs τ sig) (fun b => (((c : Thread nD τ)).1, b)) (Y12 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨
    (h c _ (mem_uc main_arg0 (by decide))).trans (Y12_keep m c main_arg0 (by decide) (by decide) (by decide) (by decide) (by decide) (by decide) (by decide) (by decide) (by decide) (by decide) (by decide) (by decide)),
    (h c _ (mem_uc main_arg1 (by decide))).trans (Y12_keep m c main_arg1 (by decide) (by decide) (by decide) (by decide) (by decide) (by decide) (by decide) (by decide) (by decide) (by decide) (by decide) (by decide)),
    (h c _ (mem_uc main_arg2 (by decide))).trans (Y12_keep m c main_arg2 (by decide) (by decide) (by decide) (by decide) (by decide) (by decide) (by decide) (by decide) (by decide) (by decide) (by decide) (by decide)),
    (h c _ (mem_uc main_arg3 (by decide))).trans (Y12_keep m c main_arg3 (by decide) (by decide) (by decide) (by decide) (by decide) (by decide) (by decide) (by decide) (by decide) (by decide) (by decide) (by decide)),
    (h c _ (mem_uc main_arg4 (by decide))).trans (Y12_keep m c main_arg4 (by decide) (by decide) (by decide) (by decide) (by decide) (by decide) (by decide) (by decide) (by decide) (by decide) (by decide) (by decide)),
    (h c _ (mem_uc main_arg5 (by decide))).trans (Y12_keep m c main_arg5 (by decide) (by decide) (by decide) (by decide) (by decide) (by decide) (by decide) (by decide) (by decide) (by decide) (by decide) (by decide)),
    (h c _ (mem_uc main_arg6 (by decide))).trans (Y12_keep m c main_arg6 (by decide) (by decide) (by decide) (by decide) (by decide) (by decide) (by decide) (by decide) (by decide) (by decide) (by decide) (by decide)),
    (h c _ (mem_uc main_arg7 (by decide))).trans (Y12_keep m c main_arg7 (by decide) (by decide) (by decide) (by decide) (by decide) (by decide) (by decide) (by decide) (by decide) (by decide) (by decide) (by decide)),
    (h c _ (mem_uc main_arg8 (by decide))).trans (Y12_keep m c main_arg8 (by decide) (by decide) (by decide) (by decide) (by decide) (by decide) (by decide) (by decide) (by decide) (by decide) (by decide) (by decide)),
    (h c _ (mem_uc main_arg9 (by decide))).trans (Y12_keep m c main_arg9 (by decide) (by decide) (by decide) (by decide) (by decide) (by decide) (by decide) (by decide) (by decide) (by decide) (by decide) (by decide)),
    (h c _ (mem_uc main_arg10 (by decide))).trans (Y12_keep m c main_arg10 (by decide) (by decide) (by decide) (by decide) (by decide) (by decide) (by decide) (by decide) (by decide) (by decide) (by decide) (by decide)),
    (h c _ (mem_uc main_arg11 (by decide))).trans (Y12_keep m c main_arg11 (by decide) (by decide) (by decide) (by decide) (by decide) (by decide) (by decide) (by decide) (by decide) (by decide) (by decide) (by decide)),
    (h c _ (mem_uc main_arg12 (by decide))).trans (Y12_keep m c main_arg12 (by decide) (by decide) (by decide) (by decide) (by decide) (by decide) (by decide) (by decide) (by decide) (by decide) (by decide) (by decide)),
    (h c _ (mem_uc main_arg13 (by decide))).trans (Y12_keep m c main_arg13 (by decide) (by decide) (by decide) (by decide) (by decide) (by decide) (by decide) (by decide) (by decide) (by decide) (by decide) (by decide)),
    (h c _ (mem_uc main_arg14 (by decide))).trans (Y12_keep m c main_arg14 (by decide) (by decide) (by decide) (by decide) (by decide) (by decide) (by decide) (by decide) (by decide) (by decide) (by decide) (by decide)),
    (h c _ (mem_uc main_arg15 (by decide))).trans (Y12_keep m c main_arg15 (by decide) (by decide) (by decide) (by decide) (by decide) (by decide) (by decide) (by decide) (by decide) (by decide) (by decide) (by decide)),
    (h c _ (mem_uc main_arg16 (by decide))).trans (Y12_keep m c main_arg16 (by decide) (by decide) (by decide) (by decide) (by decide) (by decide) (by decide) (by decide) (by decide) (by decide) (by decide) (by decide)),
    (h c _ (mem_uc main_arg17 (by decide))).trans (Y12_keep m c main_arg17 (by decide) (by decide) (by decide) (by decide) (by decide) (by decide) (by decide) (by decide) (by decide) (by decide) (by decide) (by decide)),
    (h c _ (mem_uc main_arg18 (by decide))).trans (Y12_keep m c main_arg18 (by decide) (by decide) (by decide) (by decide) (by decide) (by decide) (by decide) (by decide) (by decide) (by decide) (by decide) (by decide)),
    (h c _ (mem_uc main_arg19 (by decide))).trans (Y12_keep m c main_arg19 (by decide) (by decide) (by decide) (by decide) (by decide) (by decide) (by decide) (by decide) (by decide) (by decide) (by decide) (by decide)),
    (h c _ (mem_uc main_arg20 (by decide))).trans (Y12_keep m c main_arg20 (by decide) (by decide) (by decide) (by decide) (by decide) (by decide) (by decide) (by decide) (by decide) (by decide) (by decide) (by decide))⟩) (run_all m ρ)

/-- The run with the three results named: each at the last contents, beside the frame. -/
theorem run_results : θ_run defs (onTc (τ := τ) (main (F := F))) ⟨m, fun _ => 0, ρ⟩ (fun r => ∀ c : Dev nD,
      r.2.mem ((c.tc : Thread nD τ).loc main_v50) = Y12 m c (Proc.devRef .tc main_v50)
      ∧ r.2.mem ((c.tc : Thread nD τ).loc main_v80_0) = Y12 m c (Proc.devRef .tc main_v80_0)
      ∧ r.2.mem ((c.tc : Thread nD τ).loc main_v80_1) = Y12 m c (Proc.devRef .tc main_v80_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨h c _ (mem_uc main_v50 (by decide)), h c _ (mem_uc main_v80_0 (by decide)), h c _ (mem_uc main_v80_1 (by decide)),
    (h c _ (mem_uc main_arg0 (by decide))).trans (Y12_keep m c main_arg0 (by decide) (by decide) (by decide) (by decide) (by decide) (by decide) (by decide) (by decide) (by decide) (by decide) (by decide) (by decide)),
    (h c _ (mem_uc main_arg1 (by decide))).trans (Y12_keep m c main_arg1 (by decide) (by decide) (by decide) (by decide) (by decide) (by decide) (by decide) (by decide) (by decide) (by decide) (by decide) (by decide)),
    (h c _ (mem_uc main_arg2 (by decide))).trans (Y12_keep m c main_arg2 (by decide) (by decide) (by decide) (by decide) (by decide) (by decide) (by decide) (by decide) (by decide) (by decide) (by decide) (by decide)),
    (h c _ (mem_uc main_arg3 (by decide))).trans (Y12_keep m c main_arg3 (by decide) (by decide) (by decide) (by decide) (by decide) (by decide) (by decide) (by decide) (by decide) (by decide) (by decide) (by decide)),
    (h c _ (mem_uc main_arg4 (by decide))).trans (Y12_keep m c main_arg4 (by decide) (by decide) (by decide) (by decide) (by decide) (by decide) (by decide) (by decide) (by decide) (by decide) (by decide) (by decide)),
    (h c _ (mem_uc main_arg5 (by decide))).trans (Y12_keep m c main_arg5 (by decide) (by decide) (by decide) (by decide) (by decide) (by decide) (by decide) (by decide) (by decide) (by decide) (by decide) (by decide)),
    (h c _ (mem_uc main_arg6 (by decide))).trans (Y12_keep m c main_arg6 (by decide) (by decide) (by decide) (by decide) (by decide) (by decide) (by decide) (by decide) (by decide) (by decide) (by decide) (by decide)),
    (h c _ (mem_uc main_arg7 (by decide))).trans (Y12_keep m c main_arg7 (by decide) (by decide) (by decide) (by decide) (by decide) (by decide) (by decide) (by decide) (by decide) (by decide) (by decide) (by decide)),
    (h c _ (mem_uc main_arg8 (by decide))).trans (Y12_keep m c main_arg8 (by decide) (by decide) (by decide) (by decide) (by decide) (by decide) (by decide) (by decide) (by decide) (by decide) (by decide) (by decide)),
    (h c _ (mem_uc main_arg9 (by decide))).trans (Y12_keep m c main_arg9 (by decide) (by decide) (by decide) (by decide) (by decide) (by decide) (by decide) (by decide) (by decide) (by decide) (by decide) (by decide)),
    (h c _ (mem_uc main_arg10 (by decide))).trans (Y12_keep m c main_arg10 (by decide) (by decide) (by decide) (by decide) (by decide) (by decide) (by decide) (by decide) (by decide) (by decide) (by decide) (by decide)),
    (h c _ (mem_uc main_arg11 (by decide))).trans (Y12_keep m c main_arg11 (by decide) (by decide) (by decide) (by decide) (by decide) (by decide) (by decide) (by decide) (by decide) (by decide) (by decide) (by decide)),
    (h c _ (mem_uc main_arg12 (by decide))).trans (Y12_keep m c main_arg12 (by decide) (by decide) (by decide) (by decide) (by decide) (by decide) (by decide) (by decide) (by decide) (by decide) (by decide) (by decide)),
    (h c _ (mem_uc main_arg13 (by decide))).trans (Y12_keep m c main_arg13 (by decide) (by decide) (by decide) (by decide) (by decide) (by decide) (by decide) (by decide) (by decide) (by decide) (by decide) (by decide)),
    (h c _ (mem_uc main_arg14 (by decide))).trans (Y12_keep m c main_arg14 (by decide) (by decide) (by decide) (by decide) (by decide) (by decide) (by decide) (by decide) (by decide) (by decide) (by decide) (by decide)),
    (h c _ (mem_uc main_arg15 (by decide))).trans (Y12_keep m c main_arg15 (by decide) (by decide) (by decide) (by decide) (by decide) (by decide) (by decide) (by decide) (by decide) (by decide) (by decide) (by decide)),
    (h c _ (mem_uc main_arg16 (by decide))).trans (Y12_keep m c main_arg16 (by decide) (by decide) (by decide) (by decide) (by decide) (by decide) (by decide) (by decide) (by decide) (by decide) (by decide) (by decide)),
    (h c _ (mem_uc main_arg17 (by decide))).trans (Y12_keep m c main_arg17 (by decide) (by decide) (by decide) (by decide) (by decide) (by decide) (by decide) (by decide) (by decide) (by decide) (by decide) (by decide)),
    (h c _ (mem_uc main_arg18 (by decide))).trans (Y12_keep m c main_arg18 (by decide) (by decide) (by decide) (by decide) (by decide) (by decide) (by decide) (by decide) (by decide) (by decide) (by decide) (by decide)),
    (h c _ (mem_uc main_arg19 (by decide))).trans (Y12_keep m c main_arg19 (by decide) (by decide) (by decide) (by decide) (by decide) (by decide) (by decide) (by decide) (by decide) (by decide) (by decide) (by decide)),
    (h c _ (mem_uc main_arg20 (by decide))).trans (Y12_keep m c main_arg20 (by decide) (by decide) (by decide) (by decide) (by decide) (by decide) (by decide) (by decide) (by decide) (by decide) (by decide) (by decide))⟩) (run_all m ρ)

end Cert.Kernel.Hand

end
-- ==== Proof.LibAfter.lean ====
/-
  The contents after two lines of host operations run one after the other: the second line's fold over the first's.

  General in the topology, the signature and the element values; imports Lib/StableHlo/Run only.
-/
import Idealize.ShloMosaic.Lib.StableHlo.Run

namespace Cert.After

open Idealize.ShloMosaic

/-- Folding a concatenation is folding the second list over the first list's fold. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.After
-- ==== Proof.RefOps.lean ====
/-
  The reference program's @main as a list of its host operations, in program order, every call of a module-local
  function written out at its call site over the call's record of buffers (the function's operations with the
  record's typed references in place of its own, its arguments' typed references in place of its parameters). The
  list is cut into eight consecutive stages; `ops` is their concatenation, and @main is the straight line of `ops`.
-/
import proofs.«143299_j13005160972635_2_alg».proof.Proof.Gen.ReferenceIdeal
import Idealize.ShloMosaic.Lib.StableHlo.Run
import proofs.«143299_j13005160972635_2_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's statements %0 … %23: the two rows of the index table as vectors, the five linear maps with their biases. (24 operations) -/
abbrev stage0 : List (HloOp τ sig (Elt F)) :=
  [ StableHlo.unary main_arg2 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg2 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.binary main_arg0 main_arg3 main_v4 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg4 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S40000x128 ![0, 1] bcast_S1x128_S40000x128_0_1 : (⟨S1x128, .f32⟩ : BufTy).Contents (Elt F) → (⟨S40000x128, .f32⟩ : BufTy).Contents (Elt F)),
    StableHlo.binary main_v4 main_v6 main_v7 (addf : (⟨S40000x128, .f32⟩ : BufTy).Contents (Elt F) → (⟨S40000x128, .f32⟩ : BufTy).Contents (Elt F) → (⟨S40000x128, .f32⟩ : BufTy).Contents (Elt F)),
    StableHlo.binary main_arg0 main_arg5 main_v8 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg6 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S40000x128 ![0, 1] bcast_S1x128_S40000x128_0_1 : (⟨S1x128, .f32⟩ : BufTy).Contents (Elt F) → (⟨S40000x128, .f32⟩ : BufTy).Contents (Elt F)),
    StableHlo.binary main_v8 main_v10 main_v11 (addf : (⟨S40000x128, .f32⟩ : BufTy).Contents (Elt F) → (⟨S40000x128, .f32⟩ : BufTy).Contents (Elt F) → (⟨S40000x128, .f32⟩ : BufTy).Contents (Elt F)),
    StableHlo.binary main_arg1 main_arg7 main_v12 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.unary main_arg8 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S640000x128 ![0, 1] bcast_S1x128_S640000x128_0_1 : (⟨S1x128, .f32⟩ : BufTy).Contents (Elt F) → (⟨S640000x128, .f32⟩ : BufTy).Contents (Elt F)),
    StableHlo.binary main_v12 main_v14 main_v15 (addf : (⟨S640000x128, .f32⟩ : BufTy).Contents (Elt F) → (⟨S640000x128, .f32⟩ : BufTy).Contents (Elt F) → (⟨S640000x128, .f32⟩ : BufTy).Contents (Elt F)),
    StableHlo.binary main_arg0 main_arg9 main_v16 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg10 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S40000x128 ![0, 1] bcast_S1x128_S40000x128_0_1 : (⟨S1x128, .f32⟩ : BufTy).Contents (Elt F) → (⟨S40000x128, .f32⟩ : BufTy).Contents (Elt F)),
    StableHlo.binary main_v16 main_v18 main_v19 (addf : (⟨S40000x128, .f32⟩ : BufTy).Contents (Elt F) → (⟨S40000x128, .f32⟩ : BufTy).Contents (Elt F) → (⟨S40000x128, .f32⟩ : BufTy).Contents (Elt F)),
    StableHlo.binary main_arg0 main_arg11 main_v20 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg12 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S40000x128 ![0, 1] bcast_S1x128_S40000x128_0_1 : (⟨S1x128, .f32⟩ : BufTy).Contents (Elt F) → (⟨S40000x128, .f32⟩ : BufTy).Contents (Elt F)),
    StableHlo.binary main_v20 main_v22 main_v23 (addf : (⟨S40000x128, .f32⟩ : BufTy).Contents (Elt F) → (⟨S40000x128, .f32⟩ : BufTy).Contents (Elt F) → (⟨S40000x128, .f32⟩ : BufTy).Contents (Elt F)) ]

/-- @main's statements %c … %51: the wrapped indices, the two gathers, the gate (the logistic function of their sum with the edge map), the third index. (36 operations) -/
abbrev stage1 : List (HloOp τ sig (Elt F)) :=
  [ StableHlo.nullary main_c (constantI S_ 32 0#32),
    StableHlo.unary main_c main_v24 (broadcastInDim S640000 ![] bcast_S_S640000 : (⟨S_, .i32⟩ : BufTy).Contents (Elt F) → (⟨S640000, .i32⟩ : BufTy).Contents (Elt F)),
    StableHlo.binary main_v3 main_v24 main_v25 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 40000#32),
    StableHlo.unary main_c_0 main_v26 (broadcastInDim S640000 ![] bcast_S_S640000 : (⟨S_, .i32⟩ : BufTy).Contents (Elt F) → (⟨S640000, .i32⟩ : BufTy).Contents (Elt F)),
    StableHlo.binary main_v3 main_v26 main_v27 (addi : (⟨S640000, .i32⟩ : BufTy).Contents (Elt F) → (⟨S640000, .i32⟩ : BufTy).Contents (Elt F) → (⟨S640000, .i32⟩ : BufTy).Contents (Elt F)),
    StableHlo.ternary main_v25 main_v27 main_v3 main_v28 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v28 main_v29 (broadcastInDim S640000x1 ![0] bcast_S640000_S640000x1_0 : (⟨S640000, .i32⟩ : BufTy).Contents (Elt F) → (⟨S640000x1, .i32⟩ : BufTy).Contents (Elt F)),
    StableHlo.binary main_v19 main_v29 main_v30 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nullary main_c_1 (constantI S_ 32 0#32),
    StableHlo.unary main_c_1 main_v31 (broadcastInDim S640000 ![] bcast_S_S640000 : (⟨S_, .i32⟩ : BufTy).Contents (Elt F) → (⟨S640000, .i32⟩ : BufTy).Contents (Elt F)),
    StableHlo.binary main_v1 main_v31 main_v32 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 40000#32),
    StableHlo.unary main_c_2 main_v33 (broadcastInDim S640000 ![] bcast_S_S640000 : (⟨S_, .i32⟩ : BufTy).Contents (Elt F) → (⟨S640000, .i32⟩ : BufTy).Contents (Elt F)),
    StableHlo.binary main_v1 main_v33 main_v34 (addi : (⟨S640000, .i32⟩ : BufTy).Contents (Elt F) → (⟨S640000, .i32⟩ : BufTy).Contents (Elt F) → (⟨S640000, .i32⟩ : BufTy).Contents (Elt F)),
    StableHlo.ternary main_v32 main_v34 main_v1 main_v35 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v35 main_v36 (broadcastInDim S640000x1 ![0] bcast_S640000_S640000x1_0 : (⟨S640000, .i32⟩ : BufTy).Contents (Elt F) → (⟨S640000x1, .i32⟩ : BufTy).Contents (Elt F)),
    StableHlo.binary main_v23 main_v36 main_v37 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.binary main_v30 main_v37 main_v38 (addf : (⟨S640000x128, .f32⟩ : BufTy).Contents (Elt F) → (⟨S640000x128, .f32⟩ : BufTy).Contents (Elt F) → (⟨S640000x128, .f32⟩ : BufTy).Contents (Elt F)),
    StableHlo.binary main_v38 main_v15 main_v39 (addf : (⟨S640000x128, .f32⟩ : BufTy).Contents (Elt F) → (⟨S640000x128, .f32⟩ : BufTy).Contents (Elt F) → (⟨S640000x128, .f32⟩ : BufTy).Contents (Elt F)),
    StableHlo.unary main_v39 main_v40 (Host.negf : (⟨S640000x128, .f32⟩ : BufTy).Contents (Elt F) → (⟨S640000x128, .f32⟩ : BufTy).Contents (Elt F)),
    StableHlo.unary main_v40 main_v41 (Host.exp : (⟨S640000x128, .f32⟩ : BufTy).Contents (Elt F) → (⟨S640000x128, .f32⟩ : BufTy).Contents (Elt F)),
    StableHlo.nullary main_cst (constant S_ .f32 0x3F800000#32),
    StableHlo.unary main_cst main_v42 (broadcastInDim S640000x128 ![] bcast_S_S640000x128 : (⟨S_, .f32⟩ : BufTy).Contents (Elt F) → (⟨S640000x128, .f32⟩ : BufTy).Contents (Elt F)),
    StableHlo.binary main_v42 main_v41 main_v43 (addf : (⟨S640000x128, .f32⟩ : BufTy).Contents (Elt F) → (⟨S640000x128, .f32⟩ : BufTy).Contents (Elt F) → (⟨S640000x128, .f32⟩ : BufTy).Contents (Elt F)),
    StableHlo.nullary main_cst_3 (constant S_ .f32 0x3F800000#32),
    StableHlo.unary main_cst_3 main_v44 (broadcastInDim S640000x128 ![] bcast_S_S640000x128 : (⟨S_, .f32⟩ : BufTy).Contents (Elt F) → (⟨S640000x128, .f32⟩ : BufTy).Contents (Elt F)),
    StableHlo.binary main_v44 main_v43 main_v45 (Host.divf : (⟨S640000x128, .f32⟩ : BufTy).Contents (Elt F) → (⟨S640000x128, .f32⟩ : BufTy).Contents (Elt F) → (⟨S640000x128, .f32⟩ : BufTy).Contents (Elt F)),
    StableHlo.nullary main_c_4 (constantI S_ 32 0#32),
    StableHlo.unary main_c_4 main_v46 (broadcastInDim S640000 ![] bcast_S_S640000 : (⟨S_, .i32⟩ : BufTy).Contents (Elt F) → (⟨S640000, .i32⟩ : BufTy).Contents (Elt F)),
    StableHlo.binary main_v1 main_v46 main_v47 (cmpi .slt : (⟨S640000, .i32⟩ : BufTy).Contents (Elt F) → (⟨S640000, .i32⟩ : BufTy).Contents (Elt F) → (⟨S640000, .i1⟩ : BufTy).Contents (Elt F)),
    StableHlo.nullary main_c_5 (constantI S_ 32 40000#32),
    StableHlo.unary main_c_5 main_v48 (broadcastInDim S640000 ![] bcast_S_S640000 : (⟨S_, .i32⟩ : BufTy).Contents (Elt F) → (⟨S640000, .i32⟩ : BufTy).Contents (Elt F)),
    StableHlo.binary main_v1 main_v48 main_v49 (addi : (⟨S640000, .i32⟩ : BufTy).Contents (Elt F) → (⟨S640000, .i32⟩ : BufTy).Contents (Elt F) → (⟨S640000, .i32⟩ : BufTy).Contents (Elt F)),
    StableHlo.ternary main_v47 main_v49 main_v1 main_v50 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v50 main_v51 (broadcastInDim S640000x1 ![0] bcast_S640000_S640000x1_0 : (⟨S640000, .i32⟩ : BufTy).Contents (Elt F) → (⟨S640000x1, .i32⟩ : BufTy).Contents (Elt F)) ]

/-- @main's statements %52 … %66: the third gather, the gated message, the two scatter-adds, their quotient added to the node map, its column mean. (20 operations) -/
abbrev stage2 : List (HloOp τ sig (Elt F)) :=
  [ StableHlo.binary main_v11 main_v51 main_v52 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.binary main_v45 main_v52 main_v53 (mulf : (⟨S640000x128, .f32⟩ : BufTy).Contents (Elt F) → (⟨S640000x128, .f32⟩ : BufTy).Contents (Elt F) → (⟨S640000x128, .f32⟩ : BufTy).Contents (Elt F)),
    StableHlo.nullary main_cst_6 (constant S_ .f32 0x00000000#32),
    StableHlo.unary main_cst_6 main_v54 (broadcastInDim S40000x128 ![] bcast_S_S40000x128 : (⟨S_, .f32⟩ : BufTy).Contents (Elt F) → (⟨S40000x128, .f32⟩ : BufTy).Contents (Elt F)),
    StableHlo.unary main_v3 main_v55 (broadcastInDim S640000x1 ![0] bcast_S640000_S640000x1_0 : (⟨S640000, .i32⟩ : BufTy).Contents (Elt F) → (⟨S640000x1, .i32⟩ : BufTy).Contents (Elt F)),
    StableHlo.ternary main_v54 main_v55 main_v53 main_v56 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.nullary main_cst_7 (constant S_ .f32 0x00000000#32),
    StableHlo.unary main_cst_7 main_v57 (broadcastInDim S40000x128 ![] bcast_S_S40000x128 : (⟨S_, .f32⟩ : BufTy).Contents (Elt F) → (⟨S40000x128, .f32⟩ : BufTy).Contents (Elt F)),
    StableHlo.unary main_v3 main_v58 (broadcastInDim S640000x1 ![0] bcast_S640000_S640000x1_0 : (⟨S640000, .i32⟩ : BufTy).Contents (Elt F) → (⟨S640000x1, .i32⟩ : BufTy).Contents (Elt F)),
    StableHlo.ternary main_v57 main_v58 main_v45 main_v59 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.nullary main_cst_8 (constant S_ .f32 0x358637BD#32),
    StableHlo.unary main_cst_8 main_v60 (broadcastInDim S40000x128 ![] bcast_S_S40000x128 : (⟨S_, .f32⟩ : BufTy).Contents (Elt F) → (⟨S40000x128, .f32⟩ : BufTy).Contents (Elt F)),
    StableHlo.binary main_v59 main_v60 main_v61 (addf : (⟨S40000x128, .f32⟩ : BufTy).Contents (Elt F) → (⟨S40000x128, .f32⟩ : BufTy).Contents (Elt F) → (⟨S40000x128, .f32⟩ : BufTy).Contents (Elt F)),
    StableHlo.binary main_v56 main_v61 main_v62 (Host.divf : (⟨S40000x128, .f32⟩ : BufTy).Contents (Elt F) → (⟨S40000x128, .f32⟩ : BufTy).Contents (Elt F) → (⟨S40000x128, .f32⟩ : BufTy).Contents (Elt F)),
    StableHlo.binary main_v7 main_v62 main_v63 (addf : (⟨S40000x128, .f32⟩ : BufTy).Contents (Elt F) → (⟨S40000x128, .f32⟩ : BufTy).Contents (Elt F) → (⟨S40000x128, .f32⟩ : BufTy).Contents (Elt F)),
    StableHlo.nullary main_cst_9 (constant S_ .f32 0x00000000#32),
    StableHlo.binary main_v63 main_cst_9 main_v64 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_10 (constant S_ .f32 0x471C4000#32),
    StableHlo.unary main_cst_10 main_v65 (broadcastInDim S128 ![] bcast_S_S128 : (⟨S_, .f32⟩ : BufTy).Contents (Elt F) → (⟨S128, .f32⟩ : BufTy).Contents (Elt F)),
    StableHlo.binary main_v64 main_v65 main_v66 (Host.divf : (⟨S128, .f32⟩ : BufTy).Contents (Elt F) → (⟨S128, .f32⟩ : BufTy).Contents (Elt F) → (⟨S128, .f32⟩ : BufTy).Contents (Elt F)) ]

/-- @main's %c_11 and the call of @_var, inlined over its record (its own call of @_where over the nested record): the column variance of %63. (23 operations) -/
abbrev stage3 : List (HloOp τ sig (Elt F)) :=
  [ StableHlo.nullary main_c_11 (constantI S_ 32 0#32),
    StableHlo.TRef.nullary main_call0.cst (constant S_ .f32 0x00000000#32),
    StableHlo.TRef.binary (.of main_v63 : TRef sig ⟨S40000x128, .f32⟩) main_call0.cst main_call0.v0 (fun x v => Host.reduceAdd x v reducesTo_S40000x128_S128_d0 h_S_),
    StableHlo.TRef.unary main_call0.v0 main_call0.v1 (broadcastInDim S1x128 ![1] bcast_S128_S1x128_1),
    StableHlo.TRef.nullary main_call0.cst_0 (constant S_ .f32 0x471C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S40000x128 ![0, 1] bcast_S1x128_S40000x128_0_1),
    StableHlo.TRef.binary (.of main_v63 : TRef sig ⟨S40000x128, .f32⟩) main_call0.v4 main_call0.v5 subf,
    StableHlo.TRef.binary main_call0.v5 main_call0.v5 main_call0.v6 mulf,
    StableHlo.TRef.unary (.of main_c_11 : TRef sig ⟨S_, .i32⟩) main_call0.v7 (sitofp .f32),
    StableHlo.TRef.nullary main_call0.cst_1 (constant S_ .f32 0x471C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S40000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- @main's statements %68 … %82, the call of @relu inlined over its record, %cst_13 … %86: the normalised node features and the edge features' column mean. (24 operations) -/
abbrev stage4 : List (HloOp τ sig (Elt F)) :=
  [ StableHlo.unary main_v66 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S40000x128 ![0, 1] bcast_S1x128_S40000x128_0_1 : (⟨S1x128, .f32⟩ : BufTy).Contents (Elt F) → (⟨S40000x128, .f32⟩ : BufTy).Contents (Elt F)),
    StableHlo.binary main_v63 main_v69 main_v70 (subf : (⟨S40000x128, .f32⟩ : BufTy).Contents (Elt F) → (⟨S40000x128, .f32⟩ : BufTy).Contents (Elt F) → (⟨S40000x128, .f32⟩ : BufTy).Contents (Elt F)),
    StableHlo.nullary main_cst_12 (constant S_ .f32 0x3727C5AC#32),
    StableHlo.unary main_cst_12 main_v71 (broadcastInDim S128 ![] bcast_S_S128 : (⟨S_, .f32⟩ : BufTy).Contents (Elt F) → (⟨S128, .f32⟩ : BufTy).Contents (Elt F)),
    StableHlo.binary main_v67 main_v71 main_v72 (addf : (⟨S128, .f32⟩ : BufTy).Contents (Elt F) → (⟨S128, .f32⟩ : BufTy).Contents (Elt F) → (⟨S128, .f32⟩ : BufTy).Contents (Elt F)),
    StableHlo.unary main_v72 main_v73 (Host.rsqrt : (⟨S128, .f32⟩ : BufTy).Contents (Elt F) → (⟨S128, .f32⟩ : BufTy).Contents (Elt F)),
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S40000x128 ![0, 1] bcast_S1x128_S40000x128_0_1 : (⟨S1x128, .f32⟩ : BufTy).Contents (Elt F) → (⟨S40000x128, .f32⟩ : BufTy).Contents (Elt F)),
    StableHlo.binary main_v70 main_v75 main_v76 (mulf : (⟨S40000x128, .f32⟩ : BufTy).Contents (Elt F) → (⟨S40000x128, .f32⟩ : BufTy).Contents (Elt F) → (⟨S40000x128, .f32⟩ : BufTy).Contents (Elt F)),
    StableHlo.unary main_arg13 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S40000x128 ![0, 1] bcast_S1x128_S40000x128_0_1 : (⟨S1x128, .f32⟩ : BufTy).Contents (Elt F) → (⟨S40000x128, .f32⟩ : BufTy).Contents (Elt F)),
    StableHlo.binary main_v76 main_v78 main_v79 (mulf : (⟨S40000x128, .f32⟩ : BufTy).Contents (Elt F) → (⟨S40000x128, .f32⟩ : BufTy).Contents (Elt F) → (⟨S40000x128, .f32⟩ : BufTy).Contents (Elt F)),
    StableHlo.unary main_arg14 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S40000x128 ![0, 1] bcast_S1x128_S40000x128_0_1 : (⟨S1x128, .f32⟩ : BufTy).Contents (Elt F) → (⟨S40000x128, .f32⟩ : BufTy).Contents (Elt F)),
    StableHlo.binary main_v79 main_v81 main_v82 (addf : (⟨S40000x128, .f32⟩ : BufTy).Contents (Elt F) → (⟨S40000x128, .f32⟩ : BufTy).Contents (Elt F) → (⟨S40000x128, .f32⟩ : BufTy).Contents (Elt F)),
    StableHlo.TRef.nullary main_call1.cst (constant S_ .f32 0x00000000#32),
    StableHlo.TRef.unary main_call1.cst main_call1.v0 (broadcastInDim S40000x128 ![] bcast_S_S40000x128),
    StableHlo.TRef.binary (.of main_v82 : TRef sig ⟨S40000x128, .f32⟩) main_call1.v0 main_call1.v1 maximumf,
    StableHlo.nullary main_cst_13 (constant S_ .f32 0x00000000#32),
    StableHlo.binary main_v39 main_cst_13 main_v84 ((fun x v => Host.reduceAdd x v reducesTo_S640000x128_S128_d0 h_S_) : (⟨S640000x128, .f32⟩ : BufTy).Contents (Elt F) → (⟨S_, .f32⟩ : BufTy).Contents (Elt F) → (⟨S128, .f32⟩ : BufTy).Contents (Elt F)),
    StableHlo.nullary main_cst_14 (constant S_ .f32 0x491C4000#32),
    StableHlo.unary main_cst_14 main_v85 (broadcastInDim S128 ![] bcast_S_S128 : (⟨S_, .f32⟩ : BufTy).Contents (Elt F) → (⟨S128, .f32⟩ : BufTy).Contents (Elt F)),
    StableHlo.binary main_v84 main_v85 main_v86 (Host.divf : (⟨S128, .f32⟩ : BufTy).Contents (Elt F) → (⟨S128, .f32⟩ : BufTy).Contents (Elt F) → (⟨S128, .f32⟩ : BufTy).Contents (Elt F)) ]

/-- @main's %c_15 and the call of @_var_0, inlined over its record (its own call of @_where over the nested record): the column variance of %39. (23 operations) -/
abbrev stage5 : List (HloOp τ sig (Elt F)) :=
  [ StableHlo.nullary main_c_15 (constantI S_ 32 0#32),
    StableHlo.TRef.nullary main_call2.cst (constant S_ .f32 0x00000000#32),
    StableHlo.TRef.binary (.of main_v39 : TRef sig ⟨S640000x128, .f32⟩) main_call2.cst main_call2.v0 (fun x v => Host.reduceAdd x v reducesTo_S640000x128_S128_d0 h_S_),
    StableHlo.TRef.unary main_call2.v0 main_call2.v1 (broadcastInDim S1x128 ![1] bcast_S128_S1x128_1),
    StableHlo.TRef.nullary main_call2.cst_0 (constant S_ .f32 0x491C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S640000x128 ![0, 1] bcast_S1x128_S640000x128_0_1),
    StableHlo.TRef.binary (.of main_v39 : TRef sig ⟨S640000x128, .f32⟩) main_call2.v4 main_call2.v5 subf,
    StableHlo.TRef.binary main_call2.v5 main_call2.v5 main_call2.v6 mulf,
    StableHlo.TRef.unary (.of main_c_15 : TRef sig ⟨S_, .i32⟩) main_call2.v7 (sitofp .f32),
    StableHlo.TRef.nullary main_call2.cst_1 (constant S_ .f32 0x491C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S640000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- @main's statements %88 … %100: the normalised edge features before the shift. (14 operations) -/
abbrev stage6 : List (HloOp τ sig (Elt F)) :=
  [ StableHlo.unary main_v86 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S640000x128 ![0, 1] bcast_S1x128_S640000x128_0_1 : (⟨S1x128, .f32⟩ : BufTy).Contents (Elt F) → (⟨S640000x128, .f32⟩ : BufTy).Contents (Elt F)),
    StableHlo.binary main_v39 main_v89 main_v90 (subf : (⟨S640000x128, .f32⟩ : BufTy).Contents (Elt F) → (⟨S640000x128, .f32⟩ : BufTy).Contents (Elt F) → (⟨S640000x128, .f32⟩ : BufTy).Contents (Elt F)),
    StableHlo.nullary main_cst_16 (constant S_ .f32 0x3727C5AC#32),
    StableHlo.unary main_cst_16 main_v91 (broadcastInDim S128 ![] bcast_S_S128 : (⟨S_, .f32⟩ : BufTy).Contents (Elt F) → (⟨S128, .f32⟩ : BufTy).Contents (Elt F)),
    StableHlo.binary main_v87 main_v91 main_v92 (addf : (⟨S128, .f32⟩ : BufTy).Contents (Elt F) → (⟨S128, .f32⟩ : BufTy).Contents (Elt F) → (⟨S128, .f32⟩ : BufTy).Contents (Elt F)),
    StableHlo.unary main_v92 main_v93 (Host.rsqrt : (⟨S128, .f32⟩ : BufTy).Contents (Elt F) → (⟨S128, .f32⟩ : BufTy).Contents (Elt F)),
    StableHlo.unary main_v93 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S640000x128 ![0, 1] bcast_S1x128_S640000x128_0_1 : (⟨S1x128, .f32⟩ : BufTy).Contents (Elt F) → (⟨S640000x128, .f32⟩ : BufTy).Contents (Elt F)),
    StableHlo.binary main_v90 main_v95 main_v96 (mulf : (⟨S640000x128, .f32⟩ : BufTy).Contents (Elt F) → (⟨S640000x128, .f32⟩ : BufTy).Contents (Elt F) → (⟨S640000x128, .f32⟩ : BufTy).Contents (Elt F)),
    StableHlo.unary main_arg15 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S640000x128 ![0, 1] bcast_S1x128_S640000x128_0_1 : (⟨S1x128, .f32⟩ : BufTy).Contents (Elt F) → (⟨S640000x128, .f32⟩ : BufTy).Contents (Elt F)),
    StableHlo.binary main_v96 main_v98 main_v99 (mulf : (⟨S640000x128, .f32⟩ : BufTy).Contents (Elt F) → (⟨S640000x128, .f32⟩ : BufTy).Contents (Elt F) → (⟨S640000x128, .f32⟩ : BufTy).Contents (Elt F)),
    StableHlo.unary main_arg16 main_v100 (broadcastInDim S1x128 ![1] bcast_S128_S1x128_1 : (⟨S128, .f32⟩ : BufTy).Contents (Elt F) → (⟨S1x128, .f32⟩ : BufTy).Contents (Elt F)) ]

/-- @main's statements %101, %102, the call of @relu_1 inlined, %c_17 … %122, the call of @relu_2 inlined, %124 … %133: the edge result, the two gathers of the node result, their concatenation, the two-layer map and its logistic function. (43 operations) -/
abbrev stage7 : List (HloOp τ sig (Elt F)) :=
  [ StableHlo.unary main_v100 main_v101 (broadcastInDim S640000x128 ![0, 1] bcast_S1x128_S640000x128_0_1 : (⟨S1x128, .f32⟩ : BufTy).Contents (Elt F) → (⟨S640000x128, .f32⟩ : BufTy).Contents (Elt F)),
    StableHlo.binary main_v99 main_v101 main_v102 (addf : (⟨S640000x128, .f32⟩ : BufTy).Contents (Elt F) → (⟨S640000x128, .f32⟩ : BufTy).Contents (Elt F) → (⟨S640000x128, .f32⟩ : BufTy).Contents (Elt F)),
    StableHlo.TRef.nullary main_call3.cst (constant S_ .f32 0x00000000#32),
    StableHlo.TRef.unary main_call3.cst main_call3.v0 (broadcastInDim S640000x128 ![] bcast_S_S640000x128),
    StableHlo.TRef.binary (.of main_v102 : TRef sig ⟨S640000x128, .f32⟩) main_call3.v0 main_call3.v1 maximumf,
    StableHlo.nullary main_c_17 (constantI S_ 32 0#32),
    StableHlo.unary main_c_17 main_v104 (broadcastInDim S640000 ![] bcast_S_S640000 : (⟨S_, .i32⟩ : BufTy).Contents (Elt F) → (⟨S640000, .i32⟩ : BufTy).Contents (Elt F)),
    StableHlo.binary main_v1 main_v104 main_v105 (cmpi .slt : (⟨S640000, .i32⟩ : BufTy).Contents (Elt F) → (⟨S640000, .i32⟩ : BufTy).Contents (Elt F) → (⟨S640000, .i1⟩ : BufTy).Contents (Elt F)),
    StableHlo.nullary main_c_18 (constantI S_ 32 40000#32),
    StableHlo.unary main_c_18 main_v106 (broadcastInDim S640000 ![] bcast_S_S640000 : (⟨S_, .i32⟩ : BufTy).Contents (Elt F) → (⟨S640000, .i32⟩ : BufTy).Contents (Elt F)),
    StableHlo.binary main_v1 main_v106 main_v107 (addi : (⟨S640000, .i32⟩ : BufTy).Contents (Elt F) → (⟨S640000, .i32⟩ : BufTy).Contents (Elt F) → (⟨S640000, .i32⟩ : BufTy).Contents (Elt F)),
    StableHlo.ternary main_v105 main_v107 main_v1 main_v108 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v108 main_v109 (broadcastInDim S640000x1 ![0] bcast_S640000_S640000x1_0 : (⟨S640000, .i32⟩ : BufTy).Contents (Elt F) → (⟨S640000x1, .i32⟩ : BufTy).Contents (Elt F)),
    StableHlo.binary main_v83 main_v109 main_v110 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nullary main_c_19 (constantI S_ 32 0#32),
    StableHlo.unary main_c_19 main_v111 (broadcastInDim S640000 ![] bcast_S_S640000 : (⟨S_, .i32⟩ : BufTy).Contents (Elt F) → (⟨S640000, .i32⟩ : BufTy).Contents (Elt F)),
    StableHlo.binary main_v3 main_v111 main_v112 (cmpi .slt : (⟨S640000, .i32⟩ : BufTy).Contents (Elt F) → (⟨S640000, .i32⟩ : BufTy).Contents (Elt F) → (⟨S640000, .i1⟩ : BufTy).Contents (Elt F)),
    StableHlo.nullary main_c_20 (constantI S_ 32 40000#32),
    StableHlo.unary main_c_20 main_v113 (broadcastInDim S640000 ![] bcast_S_S640000 : (⟨S_, .i32⟩ : BufTy).Contents (Elt F) → (⟨S640000, .i32⟩ : BufTy).Contents (Elt F)),
    StableHlo.binary main_v3 main_v113 main_v114 (addi : (⟨S640000, .i32⟩ : BufTy).Contents (Elt F) → (⟨S640000, .i32⟩ : BufTy).Contents (Elt F) → (⟨S640000, .i32⟩ : BufTy).Contents (Elt F)),
    StableHlo.ternary main_v112 main_v114 main_v3 main_v115 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v115 main_v116 (broadcastInDim S640000x1 ![0] bcast_S640000_S640000x1_0 : (⟨S640000, .i32⟩ : BufTy).Contents (Elt F) → (⟨S640000x1, .i32⟩ : BufTy).Contents (Elt F)),
    StableHlo.binary main_v83 main_v116 main_v117 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nary ![main_v110, main_v117, main_v103] main_v118 (fun u => concatenate S640000x384 1 [⟨S640000x128, u 0⟩, ⟨S640000x128, u 1⟩, ⟨S640000x128, u 2⟩] concatenates_S640000x128_S640000x128_S640000x128_S640000x384_d1),
    StableHlo.binary main_v118 main_arg17 main_v119 ((fun l r => Host.dotGeneral dot_S640000x384_S384x256_S640000x256_1_0_0_1_n_n none l r) : (⟨S640000x384, .f32⟩ : BufTy).Contents (Elt F) → (⟨S384x256, .f32⟩ : BufTy).Contents (Elt F) → (⟨S640000x256, .f32⟩ : BufTy).Contents (Elt F)),
    StableHlo.unary main_arg18 main_v120 (broadcastInDim S1x256 ![1] bcast_S256_S1x256_1 : (⟨S256, .f32⟩ : BufTy).Contents (Elt F) → (⟨S1x256, .f32⟩ : BufTy).Contents (Elt F)),
    StableHlo.unary main_v120 main_v121 (broadcastInDim S640000x256 ![0, 1] bcast_S1x256_S640000x256_0_1 : (⟨S1x256, .f32⟩ : BufTy).Contents (Elt F) → (⟨S640000x256, .f32⟩ : BufTy).Contents (Elt F)),
    StableHlo.binary main_v119 main_v121 main_v122 (addf : (⟨S640000x256, .f32⟩ : BufTy).Contents (Elt F) → (⟨S640000x256, .f32⟩ : BufTy).Contents (Elt F) → (⟨S640000x256, .f32⟩ : BufTy).Contents (Elt F)),
    StableHlo.TRef.nullary main_call4.cst (constant S_ .f32 0x00000000#32),
    StableHlo.TRef.unary main_call4.cst main_call4.v0 (broadcastInDim S640000x256 ![] bcast_S_S640000x256),
    StableHlo.TRef.binary (.of main_v122 : TRef sig ⟨S640000x256, .f32⟩) main_call4.v0 main_call4.v1 maximumf,
    StableHlo.binary main_v123 main_arg19 main_v124 ((fun l r => Host.dotGeneral dot_S640000x256_S256x1_S640000x1_1_0_0_1_n_n none l r) : (⟨S640000x256, .f32⟩ : BufTy).Contents (Elt F) → (⟨S256x1, .f32⟩ : BufTy).Contents (Elt F) → (⟨S640000x1, .f32⟩ : BufTy).Contents (Elt F)),
    StableHlo.unary main_arg20 main_v125 (broadcastInDim S1x1 ![1] bcast_S1_S1x1_1 : (⟨S1, .f32⟩ : BufTy).Contents (Elt F) → (⟨S1x1, .f32⟩ : BufTy).Contents (Elt F)),
    StableHlo.unary main_v125 main_v126 (broadcastInDim S640000x1 ![0, 1] bcast_S1x1_S640000x1_0_1 : (⟨S1x1, .f32⟩ : BufTy).Contents (Elt F) → (⟨S640000x1, .f32⟩ : BufTy).Contents (Elt F)),
    StableHlo.binary main_v124 main_v126 main_v127 (addf : (⟨S640000x1, .f32⟩ : BufTy).Contents (Elt F) → (⟨S640000x1, .f32⟩ : BufTy).Contents (Elt F) → (⟨S640000x1, .f32⟩ : BufTy).Contents (Elt F)),
    StableHlo.unary main_v127 main_v128 (Host.negf : (⟨S640000x1, .f32⟩ : BufTy).Contents (Elt F) → (⟨S640000x1, .f32⟩ : BufTy).Contents (Elt F)),
    StableHlo.unary main_v128 main_v129 (Host.exp : (⟨S640000x1, .f32⟩ : BufTy).Contents (Elt F) → (⟨S640000x1, .f32⟩ : BufTy).Contents (Elt F)),
    StableHlo.nullary main_cst_21 (constant S_ .f32 0x3F800000#32),
    StableHlo.unary main_cst_21 main_v130 (broadcastInDim S640000x1 ![] bcast_S_S640000x1 : (⟨S_, .f32⟩ : BufTy).Contents (Elt F) → (⟨S640000x1, .f32⟩ : BufTy).Contents (Elt F)),
    StableHlo.binary main_v130 main_v129 main_v131 (addf : (⟨S640000x1, .f32⟩ : BufTy).Contents (Elt F) → (⟨S640000x1, .f32⟩ : BufTy).Contents (Elt F) → (⟨S640000x1, .f32⟩ : BufTy).Contents (Elt F)),
    StableHlo.nullary main_cst_22 (constant S_ .f32 0x3F800000#32),
    StableHlo.unary main_cst_22 main_v132 (broadcastInDim S640000x1 ![] bcast_S_S640000x1 : (⟨S_, .f32⟩ : BufTy).Contents (Elt F) → (⟨S640000x1, .f32⟩ : BufTy).Contents (Elt F)),
    StableHlo.binary main_v132 main_v131 main_v133 (Host.divf : (⟨S640000x1, .f32⟩ : BufTy).Contents (Elt F) → (⟨S640000x1, .f32⟩ : BufTy).Contents (Elt F) → (⟨S640000x1, .f32⟩ : BufTy).Contents (Elt F)) ]

/-- @main's operations, in order: the eight stages one after the other. -/
abbrev ops : List (HloOp τ sig (Elt F)) := stage0 ++ stage1 ++ stage2 ++ stage3 ++ stage4 ++ stage5 ++ stage6 ++ stage7

/-- The first window of @main is the straight line of the first two stages (it makes no call). -/
theorem part0_eq (c : Dev nD) : main_part0 (F := F) c = seq (stage0 ++ stage1) := rfl

/-- The second window: the straight line of stages two to six, the three calls it makes unfolded at their sites
    (binding after a request is the request continued by the binding, so the nested lines flatten by computation). -/
theorem part1_eq (c : Dev nD) : main_part1 (F := F) c = seq (stage2 ++ stage3 ++ stage4 ++ stage5 ++ stage6) := rfl

/-- The third window: the last stage, its two calls unfolded. -/
theorem part2_eq (c : Dev nD) : main_part2 (F := F) c = seq stage7 := rfl

/-- @main is the straight line of `ops`: its three windows in order are the concatenation's line. -/
theorem main_eq (c : Dev nD) : main (F := F) c = seq ops := by
  have h : (ops : List (HloOp τ sig (Elt F))) = (stage0 ++ stage1) ++ ((stage2 ++ stage3 ++ stage4 ++ stage5 ++ stage6) ++ stage7) := by
    simp only [ops, List.append_assoc]
  rw [h, seq_append (stage0 ++ stage1), seq_append (stage2 ++ stage3 ++ stage4 ++ stage5 ++ stage6) stage7,
    ← part0_eq c, ← part1_eq c, ← part2_eq c]
  rfl

/-- The contents after `ops`, stage by stage. -/
theorem after_ops (V : Valuation τ sig (Elt F)) :
    after ops V = after stage7 (after stage6 (after stage5 (after stage4 (after stage3 (after stage2 (after stage1 (after stage0 V))))))) := by
  simp only [ops, Cert.After.after_append]

end Cert.ReferenceIdeal.Hand

end
-- ==== Proof.RefRun.lean ====
/-
  The reference program's run: every weakly fair execution of @main terminates with each buffer at the fold of
  @main's operations (`ops`, module RefOps) over the launch contents; no operation writes an argument, so the
  twenty-one arguments end as they began.
-/
import proofs.«143299_j13005160972635_2_alg».proof.Proof.RefOps
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- A property of every operation of each stage is one of every operation of `ops`. -/
theorem ops_forall {p : HloOp τ sig (Elt F) → Prop} (h0 : (stage0 (F := F)).Forall p) (h1 : (stage1 (F := F)).Forall p)
    (h2 : (stage2 (F := F)).Forall p) (h3 : (stage3 (F := F)).Forall p) (h4 : (stage4 (F := F)).Forall p)
    (h5 : (stage5 (F := F)).Forall p) (h6 : (stage6 (F := F)).Forall p) (h7 : (stage7 (F := F)).Forall p) :
    (ops (F := F)).Forall p :=
  List.forall_append.2 ⟨List.forall_append.2 ⟨List.forall_append.2 ⟨List.forall_append.2 ⟨List.forall_append.2
    ⟨List.forall_append.2 ⟨List.forall_append.2 ⟨h0, h1⟩, h2⟩, h3⟩, h4⟩, h5⟩, h6⟩, h7⟩

/-! ## Every operation touches TensorCore references only, and determines its results -/

theorem stage0_sub : (stage0 : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., binary_bufs_sub .., unary_bufs_sub .., unary_bufs_sub .., binary_bufs_sub ..,
    binary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..⟩
theorem stage0_fresh : (stage0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl⟩

theorem stage1_sub : (stage1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., unary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..⟩
theorem stage1_fresh : (stage1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem stage2_sub : (stage2 : List (HloOp τ sig (Elt F))).Forall fun op => op.bufs ⊆ tcRefs τ sig :=
  ⟨binary_bufs_sub .., binary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., binary_bufs_sub .., binary_bufs_sub .., nullary_bufs_sub .., binary_bufs_sub .., nullary_bufs_sub ..,
    unary_bufs_sub .., binary_bufs_sub ..⟩
theorem stage2_fresh : (stage2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem stage3_sub : (stage3 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem stage3_fresh : (stage3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl⟩

theorem stage4_sub : (stage4 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..⟩
theorem stage4_fresh : (stage4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl⟩

theorem stage5_sub : (stage5 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem stage5_fresh : (stage5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl⟩

theorem stage6_sub : (stage6 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub ..⟩
theorem stage6_fresh : (stage6 : List (HloOp τ sig (Elt F))).Forall fun op => op.fresh = ∅ :=
  ⟨rfl, rfl, rfl, rfl, rfl, rfl, rfl, rfl, rfl, rfl, rfl, rfl, rfl, rfl⟩

theorem stage7_sub : (stage7 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub ..⟩
theorem stage7_fresh : (stage7 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem ops_sub : (ops : List (HloOp τ sig (Elt F))).Forall fun op => op.bufs ⊆ tcRefs τ sig :=
  ops_forall stage0_sub stage1_sub stage2_sub stage3_sub stage4_sub stage5_sub stage6_sub stage7_sub
theorem ops_fresh : ∀ op ∈ (ops : List (HloOp τ sig (Elt F))), op.fresh = ∅ :=
  List.forall_iff_forall_mem.1 (ops_forall stage0_fresh stage1_fresh stage2_fresh stage3_fresh stage4_fresh stage5_fresh stage6_fresh stage7_fresh)

/-! ## The run -/

/-- On every device, for any float values, from any memory with zero counters: every weakly fair execution of @main
    terminates, and every final state has each buffer at the fold of @main's operations over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## What each stage writes, and what it therefore leaves -/

/-- One result reference, among the device references of a list that holds it. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The result references of stage 0, in order. -/
abbrev stage0_writes : List (Ref sig .tc) :=
  [main_v0, main_v1, main_v2, main_v3, main_v4, main_v5, main_v6, main_v7,
   main_v8, main_v9, main_v10, main_v11, main_v12, main_v13, main_v14, main_v15,
   main_v16, main_v17, main_v18, main_v19, main_v20, main_v21, main_v22, main_v23]
theorem stage0_wsub : (stage0 : List (HloOp τ sig (Elt F))).Forall fun op =>
    op.writes ⊆ (stage0_writes.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference stage 0 does not write holds after it what it held before. -/
theorem stage0_keeps (V : Valuation τ sig (Elt F)) {r : Ref sig .tc} (hr : r ∉ stage0_writes) :
    after stage0 V (Proc.devRef .tc r) = V (Proc.devRef .tc r) :=
  after_of_writes_sub stage0 V stage0_wsub hr

/-- The result references of stage 1, in order. -/
abbrev stage1_writes : List (Ref sig .tc) :=
  [main_c, main_v24, main_v25, main_c_0, main_v26, main_v27, main_v28, main_v29,
   main_v30, main_c_1, main_v31, main_v32, main_c_2, main_v33, main_v34, main_v35,
   main_v36, main_v37, main_v38, main_v39, main_v40, main_v41, main_cst, main_v42,
   main_v43, main_cst_3, main_v44, main_v45, main_c_4, main_v46, main_v47, main_c_5,
   main_v48, main_v49, main_v50, main_v51]
theorem stage1_wsub : (stage1 : List (HloOp τ sig (Elt F))).Forall fun op =>
    op.writes ⊆ (stage1_writes.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference stage 1 does not write holds after it what it held before. -/
theorem stage1_keeps (V : Valuation τ sig (Elt F)) {r : Ref sig .tc} (hr : r ∉ stage1_writes) :
    after stage1 V (Proc.devRef .tc r) = V (Proc.devRef .tc r) :=
  after_of_writes_sub stage1 V stage1_wsub hr

/-- The result references of stage 2, in order. -/
abbrev stage2_writes : List (Ref sig .tc) :=
  [main_v52, main_v53, main_cst_6, main_v54, main_v55, main_v56, main_cst_7, main_v57,
   main_v58, main_v59, main_cst_8, main_v60, main_v61, main_v62, main_v63, main_cst_9,
   main_v64, main_cst_10, main_v65, main_v66]
theorem stage2_wsub : (stage2 : List (HloOp τ sig (Elt F))).Forall fun op =>
    op.writes ⊆ (stage2_writes.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference stage 2 does not write holds after it what it held before. -/
theorem stage2_keeps (V : Valuation τ sig (Elt F)) {r : Ref sig .tc} (hr : r ∉ stage2_writes) :
    after stage2 V (Proc.devRef .tc r) = V (Proc.devRef .tc r) :=
  after_of_writes_sub stage2 V stage2_wsub hr

/-- The result references of stage 3, in order. -/
abbrev stage3_writes : List (Ref sig .tc) :=
  [main_c_11, main_call0.cst.ref, main_call0.v0.ref, main_call0.v1.ref, main_call0.cst_0.ref, main_call0.v2.ref, main_call0.v3.ref, main_call0.v4.ref,
   main_call0.v5.ref, main_call0.v6.ref, main_call0.v7.ref, main_call0.cst_1.ref, main_call0.v8.ref, main_call0.cst_2.ref, main_call0.v9.ref, main_call0.v10.ref,
   main_call0.v11.ref, main_call0.cst_3.ref, main_call0.v12.ref, main_call0.cst_4.ref, main_call0.call0.v0.ref, main_call0.call0.v1.ref, main_call0.call0.v2.ref]
theorem stage3_wsub : (stage3 : List (HloOp τ sig (Elt F))).Forall fun op =>
    op.writes ⊆ (stage3_writes.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide)⟩
/-- A reference stage 3 does not write holds after it what it held before. -/
theorem stage3_keeps (V : Valuation τ sig (Elt F)) {r : Ref sig .tc} (hr : r ∉ stage3_writes) :
    after stage3 V (Proc.devRef .tc r) = V (Proc.devRef .tc r) :=
  after_of_writes_sub stage3 V stage3_wsub hr

/-- The result references of stage 4, in order. -/
abbrev stage4_writes : List (Ref sig .tc) :=
  [main_v68, main_v69, main_v70, main_cst_12, main_v71, main_v72, main_v73, main_v74,
   main_v75, main_v76, main_v77, main_v78, main_v79, main_v80, main_v81, main_v82,
   main_call1.cst.ref, main_call1.v0.ref, main_call1.v1.ref, main_cst_13, main_v84, main_cst_14, main_v85, main_v86]
theorem stage4_wsub : (stage4 : List (HloOp τ sig (Elt F))).Forall fun op =>
    op.writes ⊆ (stage4_writes.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference stage 4 does not write holds after it what it held before. -/
theorem stage4_keeps (V : Valuation τ sig (Elt F)) {r : Ref sig .tc} (hr : r ∉ stage4_writes) :
    after stage4 V (Proc.devRef .tc r) = V (Proc.devRef .tc r) :=
  after_of_writes_sub stage4 V stage4_wsub hr

/-- The result references of stage 5, in order. -/
abbrev stage5_writes : List (Ref sig .tc) :=
  [main_c_15, main_call2.cst.ref, main_call2.v0.ref, main_call2.v1.ref, main_call2.cst_0.ref, main_call2.v2.ref, main_call2.v3.ref, main_call2.v4.ref,
   main_call2.v5.ref, main_call2.v6.ref, main_call2.v7.ref, main_call2.cst_1.ref, main_call2.v8.ref, main_call2.cst_2.ref, main_call2.v9.ref, main_call2.v10.ref,
   main_call2.v11.ref, main_call2.cst_3.ref, main_call2.v12.ref, main_call2.cst_4.ref, main_call2.call0.v0.ref, main_call2.call0.v1.ref, main_call2.call0.v2.ref]
theorem stage5_wsub : (stage5 : List (HloOp τ sig (Elt F))).Forall fun op =>
    op.writes ⊆ (stage5_writes.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide)⟩
/-- A reference stage 5 does not write holds after it what it held before. -/
theorem stage5_keeps (V : Valuation τ sig (Elt F)) {r : Ref sig .tc} (hr : r ∉ stage5_writes) :
    after stage5 V (Proc.devRef .tc r) = V (Proc.devRef .tc r) :=
  after_of_writes_sub stage5 V stage5_wsub hr

/-- The result references of stage 6, in order. -/
abbrev stage6_writes : List (Ref sig .tc) :=
  [main_v88, main_v89, main_v90, main_cst_16, main_v91, main_v92, main_v93, main_v94,
   main_v95, main_v96, main_v97, main_v98, main_v99, main_v100]
theorem stage6_wsub : (stage6 : List (HloOp τ sig (Elt F))).Forall fun op =>
    op.writes ⊆ (stage6_writes.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide)⟩
/-- A reference stage 6 does not write holds after it what it held before. -/
theorem stage6_keeps (V : Valuation τ sig (Elt F)) {r : Ref sig .tc} (hr : r ∉ stage6_writes) :
    after stage6 V (Proc.devRef .tc r) = V (Proc.devRef .tc r) :=
  after_of_writes_sub stage6 V stage6_wsub hr

/-- The result references of stage 7, in order. -/
abbrev stage7_writes : List (Ref sig .tc) :=
  [main_v101, main_v102, main_call3.cst.ref, main_call3.v0.ref, main_call3.v1.ref, main_c_17, main_v104, main_v105,
   main_c_18, main_v106, main_v107, main_v108, main_v109, main_v110, main_c_19, main_v111,
   main_v112, main_c_20, main_v113, main_v114, main_v115, main_v116, main_v117, main_v118,
   main_v119, main_v120, main_v121, main_v122, main_call4.cst.ref, main_call4.v0.ref, main_call4.v1.ref, main_v124,
   main_v125, main_v126, main_v127, main_v128, main_v129, main_cst_21, main_v130, main_v131,
   main_cst_22, main_v132, main_v133]
theorem stage7_wsub : (stage7 : List (HloOp τ sig (Elt F))).Forall fun op =>
    op.writes ⊆ (stage7_writes.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide)⟩
/-- A reference stage 7 does not write holds after it what it held before. -/
theorem stage7_keeps (V : Valuation τ sig (Elt F)) {r : Ref sig .tc} (hr : r ∉ stage7_writes) :
    after stage7 V (Proc.devRef .tc r) = V (Proc.devRef .tc r) :=
  after_of_writes_sub stage7 V stage7_wsub hr

/-- A reference no stage writes holds after `ops` what it held before. -/
theorem ops_keeps (V : Valuation τ sig (Elt F)) {r : Ref sig .tc} (h0 : r ∉ stage0_writes) (h1 : r ∉ stage1_writes)
    (h2 : r ∉ stage2_writes) (h3 : r ∉ stage3_writes) (h4 : r ∉ stage4_writes) (h5 : r ∉ stage5_writes)
    (h6 : r ∉ stage6_writes) (h7 : r ∉ stage7_writes) :
    after ops V (Proc.devRef .tc r) = V (Proc.devRef .tc r) := by
  rw [after_ops, stage7_keeps _ h7, stage6_keeps _ h6, stage5_keeps _ h5, stage4_keeps _ h4, stage3_keeps _ h3,
    stage2_keeps _ h2, stage1_keeps _ h1, stage0_keeps _ h0]

/-! ## The arguments are unchanged -/

theorem arg0_eq (V : Valuation τ sig (Elt F)) : after ops V (Proc.devRef .tc main_arg0) = V (Proc.devRef .tc main_arg0) :=
  ops_keeps V (by decide) (by decide) (by decide) (by decide) (by decide) (by decide) (by decide) (by decide)
theorem arg1_eq (V : Valuation τ sig (Elt F)) : after ops V (Proc.devRef .tc main_arg1) = V (Proc.devRef .tc main_arg1) :=
  ops_keeps V (by decide) (by decide) (by decide) (by decide) (by decide) (by decide) (by decide) (by decide)
theorem arg2_eq (V : Valuation τ sig (Elt F)) : after ops V (Proc.devRef .tc main_arg2) = V (Proc.devRef .tc main_arg2) :=
  ops_keeps V (by decide) (by decide) (by decide) (by decide) (by decide) (by decide) (by decide) (by decide)
theorem arg3_eq (V : Valuation τ sig (Elt F)) : after ops V (Proc.devRef .tc main_arg3) = V (Proc.devRef .tc main_arg3) :=
  ops_keeps V (by decide) (by decide) (by decide) (by decide) (by decide) (by decide) (by decide) (by decide)
theorem arg4_eq (V : Valuation τ sig (Elt F)) : after ops V (Proc.devRef .tc main_arg4) = V (Proc.devRef .tc main_arg4) :=
  ops_keeps V (by decide) (by decide) (by decide) (by decide) (by decide) (by decide) (by decide) (by decide)
theorem arg5_eq (V : Valuation τ sig (Elt F)) : after ops V (Proc.devRef .tc main_arg5) = V (Proc.devRef .tc main_arg5) :=
  ops_keeps V (by decide) (by decide) (by decide) (by decide) (by decide) (by decide) (by decide) (by decide)
theorem arg6_eq (V : Valuation τ sig (Elt F)) : after ops V (Proc.devRef .tc main_arg6) = V (Proc.devRef .tc main_arg6) :=
  ops_keeps V (by decide) (by decide) (by decide) (by decide) (by decide) (by decide) (by decide) (by decide)
theorem arg7_eq (V : Valuation τ sig (Elt F)) : after ops V (Proc.devRef .tc main_arg7) = V (Proc.devRef .tc main_arg7) :=
  ops_keeps V (by decide) (by decide) (by decide) (by decide) (by decide) (by decide) (by decide) (by decide)
theorem arg8_eq (V : Valuation τ sig (Elt F)) : after ops V (Proc.devRef .tc main_arg8) = V (Proc.devRef .tc main_arg8) :=
  ops_keeps V (by decide) (by decide) (by decide) (by decide) (by decide) (by decide) (by decide) (by decide)
theorem arg9_eq (V : Valuation τ sig (Elt F)) : after ops V (Proc.devRef .tc main_arg9) = V (Proc.devRef .tc main_arg9) :=
  ops_keeps V (by decide) (by decide) (by decide) (by decide) (by decide) (by decide) (by decide) (by decide)
theorem arg10_eq (V : Valuation τ sig (Elt F)) : after ops V (Proc.devRef .tc main_arg10) = V (Proc.devRef .tc main_arg10) :=
  ops_keeps V (by decide) (by decide) (by decide) (by decide) (by decide) (by decide) (by decide) (by decide)
theorem arg11_eq (V : Valuation τ sig (Elt F)) : after ops V (Proc.devRef .tc main_arg11) = V (Proc.devRef .tc main_arg11) :=
  ops_keeps V (by decide) (by decide) (by decide) (by decide) (by decide) (by decide) (by decide) (by decide)
theorem arg12_eq (V : Valuation τ sig (Elt F)) : after ops V (Proc.devRef .tc main_arg12) = V (Proc.devRef .tc main_arg12) :=
  ops_keeps V (by decide) (by decide) (by decide) (by decide) (by decide) (by decide) (by decide) (by decide)
theorem arg13_eq (V : Valuation τ sig (Elt F)) : after ops V (Proc.devRef .tc main_arg13) = V (Proc.devRef .tc main_arg13) :=
  ops_keeps V (by decide) (by decide) (by decide) (by decide) (by decide) (by decide) (by decide) (by decide)
theorem arg14_eq (V : Valuation τ sig (Elt F)) : after ops V (Proc.devRef .tc main_arg14) = V (Proc.devRef .tc main_arg14) :=
  ops_keeps V (by decide) (by decide) (by decide) (by decide) (by decide) (by decide) (by decide) (by decide)
theorem arg15_eq (V : Valuation τ sig (Elt F)) : after ops V (Proc.devRef .tc main_arg15) = V (Proc.devRef .tc main_arg15) :=
  ops_keeps V (by decide) (by decide) (by decide) (by decide) (by decide) (by decide) (by decide) (by decide)
theorem arg16_eq (V : Valuation τ sig (Elt F)) : after ops V (Proc.devRef .tc main_arg16) = V (Proc.devRef .tc main_arg16) :=
  ops_keeps V (by decide) (by decide) (by decide) (by decide) (by decide) (by decide) (by decide) (by decide)
theorem arg17_eq (V : Valuation τ sig (Elt F)) : after ops V (Proc.devRef .tc main_arg17) = V (Proc.devRef .tc main_arg17) :=
  ops_keeps V (by decide) (by decide) (by decide) (by decide) (by decide) (by decide) (by decide) (by decide)
theorem arg18_eq (V : Valuation τ sig (Elt F)) : after ops V (Proc.devRef .tc main_arg18) = V (Proc.devRef .tc main_arg18) :=
  ops_keeps V (by decide) (by decide) (by decide) (by decide) (by decide) (by decide) (by decide) (by decide)
theorem arg19_eq (V : Valuation τ sig (Elt F)) : after ops V (Proc.devRef .tc main_arg19) = V (Proc.devRef .tc main_arg19) :=
  ops_keeps V (by decide) (by decide) (by decide) (by decide) (by decide) (by decide) (by decide) (by decide)
theorem arg20_eq (V : Valuation τ sig (Elt F)) : after ops V (Proc.devRef .tc main_arg20) = V (Proc.devRef .tc main_arg20) :=
  ops_keeps V (by decide) (by decide) (by decide) (by decide) (by decide) (by decide) (by decide) (by decide)

/-- At the ideal values: every weakly fair execution of @main terminates with the twenty-one arguments unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run (defs (F := Ideal)) _ _).mono (fun _ h c => ⟨(h c main_arg0).trans (arg0_eq _), (h c main_arg1).trans (arg1_eq _), (h c main_arg2).trans (arg2_eq _),
    (h c main_arg3).trans (arg3_eq _), (h c main_arg4).trans (arg4_eq _), (h c main_arg5).trans (arg5_eq _),
    (h c main_arg6).trans (arg6_eq _), (h c main_arg7).trans (arg7_eq _), (h c main_arg8).trans (arg8_eq _),
    (h c main_arg9).trans (arg9_eq _), (h c main_arg10).trans (arg10_eq _), (h c main_arg11).trans (arg11_eq _),
    (h c main_arg12).trans (arg12_eq _), (h c main_arg13).trans (arg13_eq _), (h c main_arg14).trans (arg14_eq _),
    (h c main_arg15).trans (arg15_eq _), (h c main_arg16).trans (arg16_eq _), (h c main_arg17).trans (arg17_eq _),
    (h c main_arg18).trans (arg18_eq _), (h c main_arg19).trans (arg19_eq _), (h c main_arg20).trans (arg20_eq _)⟩)
    (run m ρ)

end Cert.ReferenceIdeal.Hand

end
-- ==== Proof.KDefs.lean ====
/-
  The host functions the program applies between its regions, named: the node update before normalisation, and the
  per-column mean and variance over the rows of a node table and of an edge table. Each is the composition of the printed
  host operations, with the printed records, and nothing else.
-/
import proofs.«143299_j13005160972635_2_alg».proof.KernelIdeal
import Idealize.ShloMosaic.PureOps

noncomputable section

namespace Cert.KernelIdeal.Hand

open Idealize.ShloMosaic
open Cert.KernelIdeal Cert.KernelIdeal.Facts₀

variable {F : FTy → Type} [FloatOps F] [Facts₀]

/-- The node update before its normalisation: the features plus the quotient of two sums over the edges that arrive at each
    node, the second sum offset by a small constant. -/
def preK (Ax : (⟨S40000x128, .f32⟩ : BufTy).Contents (Elt F)) (numt sigma : (⟨S640000x128, .f32⟩ : BufTy).Contents (Elt F))
    (dst : (⟨S640000, .i32⟩ : BufTy).Contents (Elt F)) : (⟨S40000x128, .f32⟩ : BufTy).Contents (Elt F) :=
  addf Ax (Host.divf
    (Host.scatterAdd scatter_S40000x128_S640000x1_S640000x128_1_0_0_1 (broadcastInDim S40000x128 ![] bcast_S_S40000x128 (constant S_ .f32 0x00000000#32)) (broadcastInDim S640000x1 ![0] bcast_S640000_S640000x1_0 dst) numt)
    (addf (Host.scatterAdd scatter_S40000x128_S640000x1_S640000x128_1_0_0_1 (broadcastInDim S40000x128 ![] bcast_S_S40000x128 (constant S_ .f32 0x00000000#32)) (broadcastInDim S640000x1 ![0] bcast_S640000_S640000x1_0 dst) sigma)
      (broadcastInDim S40000x128 ![] bcast_S_S40000x128 (constant S_ .f32 0x358637BD#32))))

/-- The mean over the 40000 rows, per column: the column sums divided by the row count. -/
def meanK40000 (x : (⟨S40000x128, .f32⟩ : BufTy).Contents (Elt F)) : (⟨S128, .f32⟩ : BufTy).Contents (Elt F) :=
  Host.divf (Host.reduceAdd x (constant S_ .f32 0x00000000#32) reducesTo_S40000x128_S128_d0 h_S_)
    (broadcastInDim S128 ![] bcast_S_S128 (constant S_ .f32 0x471C4000#32))

/-- The variance over the 40000 rows, per column, with `ddof` degrees of freedom removed: the column sums of the squared
    deviations from the column means, divided by the row count less `ddof` where that is positive, and NaN where not. -/
def varK40000 (x : (⟨S40000x128, .f32⟩ : BufTy).Contents (Elt F)) (ddof : (⟨S_, .i32⟩ : BufTy).Contents (Elt F)) : (⟨S128, .f32⟩ : BufTy).Contents (Elt F) :=
  select (broadcastInDim S128 ![] bcast_S_S128 (cmpf (F := F) .ogt (subf (constant S_ .f32 0x471C4000#32) (sitofp .f32 ddof)) (constant S_ .f32 0x00000000#32)))
    (Host.divf
      (Host.reduceAdd (mulf (subf x (broadcastInDim S40000x128 ![0, 1] bcast_S1x128_S40000x128_0_1 (Host.divf (broadcastInDim S1x128 ![1] bcast_S128_S1x128_1 (Host.reduceAdd x (constant S_ .f32 0x00000000#32) reducesTo_S40000x128_S128_d0 h_S_)) (broadcastInDim S1x128 ![] bcast_S_S1x128 (constant S_ .f32 0x471C4000#32))))) (subf x (broadcastInDim S40000x128 ![0, 1] bcast_S1x128_S40000x128_0_1 (Host.divf (broadcastInDim S1x128 ![1] bcast_S128_S1x128_1 (Host.reduceAdd x (constant S_ .f32 0x00000000#32) reducesTo_S40000x128_S128_d0 h_S_)) (broadcastInDim S1x128 ![] bcast_S_S1x128 (constant S_ .f32 0x471C4000#32)))))) (constant S_ .f32 0x00000000#32) reducesTo_S40000x128_S128_d0 h_S_)
      (broadcastInDim S128 ![] bcast_S_S128 (subf (constant S_ .f32 0x471C4000#32) (sitofp .f32 ddof))))
    (broadcastInDim S128 ![] bcast_S_S128 (id (constant S_ .f32 0x7FC00000#32)))

/-- The mean over the 640000 rows, per column: the column sums divided by the row count. -/
def meanK640000 (x : (⟨S640000x128, .f32⟩ : BufTy).Contents (Elt F)) : (⟨S128, .f32⟩ : BufTy).Contents (Elt F) :=
  Host.divf (Host.reduceAdd x (constant S_ .f32 0x00000000#32) reducesTo_S640000x128_S128_d0 h_S_)
    (broadcastInDim S128 ![] bcast_S_S128 (constant S_ .f32 0x491C4000#32))

/-- The variance over the 640000 rows, per column, with `ddof` degrees of freedom removed: the column sums of the squared
    deviations from the column means, divided by the row count less `ddof` where that is positive, and NaN where not. -/
def varK640000 (x : (⟨S640000x128, .f32⟩ : BufTy).Contents (Elt F)) (ddof : (⟨S_, .i32⟩ : BufTy).Contents (Elt F)) : (⟨S128, .f32⟩ : BufTy).Contents (Elt F) :=
  select (broadcastInDim S128 ![] bcast_S_S128 (cmpf (F := F) .ogt (subf (constant S_ .f32 0x491C4000#32) (sitofp .f32 ddof)) (constant S_ .f32 0x00000000#32)))
    (Host.divf
      (Host.reduceAdd (mulf (subf x (broadcastInDim S640000x128 ![0, 1] bcast_S1x128_S640000x128_0_1 (Host.divf (broadcastInDim S1x128 ![1] bcast_S128_S1x128_1 (Host.reduceAdd x (constant S_ .f32 0x00000000#32) reducesTo_S640000x128_S128_d0 h_S_)) (broadcastInDim S1x128 ![] bcast_S_S1x128 (constant S_ .f32 0x491C4000#32))))) (subf x (broadcastInDim S640000x128 ![0, 1] bcast_S1x128_S640000x128_0_1 (Host.divf (broadcastInDim S1x128 ![1] bcast_S128_S1x128_1 (Host.reduceAdd x (constant S_ .f32 0x00000000#32) reducesTo_S640000x128_S128_d0 h_S_)) (broadcastInDim S1x128 ![] bcast_S_S1x128 (constant S_ .f32 0x491C4000#32)))))) (constant S_ .f32 0x00000000#32) reducesTo_S640000x128_S128_d0 h_S_)
      (broadcastInDim S128 ![] bcast_S_S128 (subf (constant S_ .f32 0x491C4000#32) (sitofp .f32 ddof))))
    (broadcastInDim S128 ![] bcast_S_S128 (id (constant S_ .f32 0x7FC00000#32)))

end Cert.KernelIdeal.Hand
-- ==== Proof.Val0.lean ====
import proofs.«143299_j13005160972635_2_alg».proof.Proof.Half0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- The node projection as one function of its three input arrays: entry `(n, j)` of the output is the inner product of
    row `n` of `x` with column `j` of `W`, plus entry `j` of the bias row. -/
def G0_3 (x : S40000x128.Idx → Elt Ideal .f32) (W : S128x512.Idx → Elt Ideal .f32) (b : S1x512.Idx → Elt Ideal .f32) :
    S40000x512.Idx → Elt Ideal .f32 :=
  fun i => (∑ k : Fin 128, x (ix2 (i 0) k) * W (ix2 k (i 1))) + b (ix2 (0 : Fin 1) (i 1))

theorem hz0 : (![0, 0] : Fin 2 → Nat) = fun _ => 0 := funext fun a => by fin_cases a <;> rfl

/-- The matrix product of a 2000 x 128 block by the 128 x 512 weights, accumulated into zero, at entry `(p, q)`: the sum over
    the contracted coordinate of the products of the entries. -/
theorem matmul0_entry {φ₁ φ₂ : FTy} (A : FVec Ideal S2000x128 φ₁) (B : FVec Ideal S128x512 φ₂) (p : Fin 2000) (q : Fin 512) :
    matmul dot_S2000x128_S128x512_S2000x512_1_0_0_1_n_n none A B (constant (F := Ideal) S2000x512 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S2000x128_S128x512_S2000x512_1_0_0_1_n_n 128 rfl rfl).symm]
  refine Finset.sum_congr rfl fun c _ => ?_
  have c2 := contrEquiv1_symm_val dot_S2000x128_S128x512_S2000x512_1_0_0_1_n_n 128 rfl rfl c
  have l2 : dot_S2000x128_S128x512_S2000x512_1_0_0_1_n_n.lhsIdx (ix2 p q) ((contrEquiv1 _ 128 rfl rfl).symm c) = ix2 p c := by
    funext ax; apply Fin.ext
    match ax with
    | ⟨0, _⟩ => simp [DotDims.lhsIdx, dot_S2000x128_S128x512_S2000x512_1_0_0_1_n_n]; rfl
    | ⟨1, _⟩ => simp [DotDims.lhsIdx, dot_S2000x128_S128x512_S2000x512_1_0_0_1_n_n]; exact c2
  have r2 : dot_S2000x128_S128x512_S2000x512_1_0_0_1_n_n.rhsIdx (ix2 p q) ((contrEquiv1 _ 128 rfl rfl).symm c) = ix2 c q := by
    funext ax; apply Fin.ext
    match ax with
    | ⟨0, _⟩ => simp [DotDims.rhsIdx, dot_S2000x128_S128x512_S2000x512_1_0_0_1_n_n]; exact c2
    | ⟨1, _⟩ => simp [DotDims.rhsIdx, dot_S2000x128_S128x512_S2000x512_1_0_0_1_n_n]; rfl
  rw [l2, r2]

/-- The body's payload at entry `(p, q)` of the block: at the ideal values the two roundings to bf16 are the identity, so it
    is the inner product of row `p` of the `x` block with column `q` of the weights, plus entry `q` of the bias row. -/
theorem pay0_entry (x0 : Vec Ideal S2000x128 .f32) (x1 : Vec Ideal S128x512 .f32) (x2 : Vec Ideal S1x512 .f32) (p : Fin 2000) (q : Fin 512) :
    k0_pay1 x0 x1 x2 (ix2 p q) = (∑ k : Fin 128, x0 (ix2 p k) * x1 (ix2 k q)) + x2 (ix2 (0 : Fin 1) q) := by
  unfold k0_pay1
  simp only [shapeCast_self]
  refine (addf_apply _ _ (ix2 p q)).trans ?_
  refine congrArg₂ (· + ·) ?_ ?_
  · exact matmul0_entry _ _ p q
  · exact broadcastTo_1b_ab_apply x2 broadcasts_S1x512_S2000x512 p q

variable (V : (c : Dev nD) → (b : Ref sig .tc) → Buf (Elt Ideal) ((c : Thread nD τ).loc b))

/-- The printed index maps, decided over the 20 grid points: the `x` window and the output window are at block `(t, 0)`,
    the weights and the bias row at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The `x` window's block at point `t` is rows `2000 t … 2000 t + 1999` of the array. -/
theorem xblock_entry (c : Dev nD) (t : Fin cfg0.N) (y : S2000x128.Idx) (i : S40000x128.Idx)
    (h0 : (i 0).val = t.val * 2000 + (y 0).val) (h1 : (i 1).val = (y 1).val) :
    (iblk0 V c 0 t : Vec Ideal S2000x128 .f32) y = (V c (Pipeline.arrRef spec0 0) : S40000x128.Idx → Elt Ideal .f32) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 2000 + 1 * (y 0).val = (i 0).val; rw [e0, h0]; omega
  | ⟨1, _⟩ => show win0_0.index t 1 * 128 + 1 * (y 1).val = (i 1).val; rw [e1, h1]; omega

/-- The weights' window's block at every point is the whole array. -/
theorem wblock_entry (c : Dev nD) (t : Fin cfg0.N) (y : S128x512.Idx) :
    (iblk0 V c 1 t : Vec Ideal S128x512 .f32) y = (V c (Pipeline.arrRef spec0 1) : S128x512.Idx → Elt Ideal .f32) y := by
  obtain ⟨-, -, e0, e1, -⟩ := idx_facts0 t
  unfold iblk0
  rw [View.read_apply]
  show V c main_v4 _ = V c main_v4 _
  congr 1
  funext a
  apply Fin.ext
  match a with
  | ⟨0, _⟩ => show win0_1.index t 0 * 128 + 1 * (y 0).val = (y 0).val; rw [e0]; omega
  | ⟨1, _⟩ => show win0_1.index t 1 * 512 + 1 * (y 1).val = (y 1).val; rw [e1]; omega

/-- The bias row's window's block at every point is the whole array. -/
theorem bblock_entry (c : Dev nD) (t : Fin cfg0.N) (y : S1x512.Idx) :
    (iblk0 V c 2 t : Vec Ideal S1x512 .f32) y = (V c (Pipeline.arrRef spec0 2) : S1x512.Idx → Elt Ideal .f32) y := by
  obtain ⟨-, -, -, -, e0, e1, -⟩ := idx_facts0 t
  unfold iblk0
  rw [View.read_apply]
  show V c main_v6 _ = V c main_v6 _
  congr 1
  funext a
  apply Fin.ext
  match a with
  | ⟨0, _⟩ => show win0_2.index t 0 * 1 + 1 * (y 0).val = (y 0).val; rw [e0]; omega
  | ⟨1, _⟩ => show win0_2.index t 1 * 512 + 1 * (y 1).val = (y 1).val; rw [e1]; omega

/-- The payload of three blocks that are rows `2000 n …` of `X`, the whole of `W` and the whole of `b`, at entry `j` of the
    block, is the projection `G0_3 X W b` at the array index `i` that entry sits at. -/
theorem pay0_eq_G (X : S40000x128.Idx → Elt Ideal .f32) (W : S128x512.Idx → Elt Ideal .f32) (b : S1x512.Idx → Elt Ideal .f32)
    (x0 : Vec Ideal S2000x128 .f32) (x1 : Vec Ideal S128x512 .f32) (x2 : Vec Ideal S1x512 .f32) (n : Nat)
    (hx0 : ∀ (y : S2000x128.Idx) (i : S40000x128.Idx), (i 0).val = n * 2000 + (y 0).val → (i 1).val = (y 1).val → x0 y = X i)
    (hx1 : ∀ y, x1 y = W y) (hx2 : ∀ y, x2 y = b y)
    (j : S2000x512.Idx) (i : S40000x512.Idx) (hi0 : (i 0).val = n * 2000 + (j 0).val) (hi1 : (i 1).val = (j 1).val) :
    k0_pay1 x0 x1 x2 j = G0_3 X W b i := by
  obtain ⟨p, q, rfl⟩ : ∃ (p : Fin 2000) (q : Fin 512), j = ix2 p q := ⟨j 0, j 1, eq_ix2 j⟩
  have hq : (i 1 : Fin 512) = q := Fin.ext hi1
  refine (pay0_entry x0 x1 x2 p q).trans ?_
  unfold G0_3
  rw [hq]
  refine congrArg₂ (· + ·) (Finset.sum_congr rfl fun k _ => ?_) (hx2 _)
  rw [hx0 (ix2 p k) (ix2 (i 0) k) hi0 rfl, hx1]

/-- WHAT POINT `t` WRITES BACK is block `t` of the projection of the three arrays as the region finds them. -/
theorem flushed0_3_eq (c : Dev nD) (t : Fin cfg0.N) :
    (dat0 (F := Ideal) V c).flushed 3 t = ((cfg0.win 3).blk t).view.read (Elt Ideal)
      (G0_3 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz0]
  simp only [View.ld_unit_zero (S := S2000x128) hz0, View.ld_unit_zero (S := S128x512) hz0, View.ld_unit_zero (S := S1x512) hz0]
  obtain ⟨-, -, -, -, -, -, e0, e1⟩ := idx_facts0 t
  funext j
  refine pay0_eq_G _ _ _ (iblk0 V c 0 t) (iblk0 V c 1 t) (iblk0 V c 2 t) t.val
    (fun y i h0 h1 => xblock_entry V c t y i h0 h1) (fun y => wblock_entry V c t y) (fun y => bblock_entry V c t y) j _ ?_ ?_
  · show win0_3.index t 0 * 2000 + 1 * (j 0).val = t.val * 2000 + (j 0).val; rw [e0]; omega
  · show win0_3.index t 1 * 512 + 1 * (j 1).val = (j 1).val; rw [e1]; omega

/-- An index of the output array is in point `t`'s block iff each coordinate is in the block's range on its axis. -/
theorem mem_blk0_3 (t : Fin cfg0.N) (i : S40000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v7).slice (win0_3.rect t)).set ↔ _
  rw [View.set_slice_whole, Rect.mem_set_unit]
  exact Iff.rfl

/-- Every index of the output array is in the block of the point its row falls to: row `r` is written by point `r / 2000`. -/
theorem cover0_3_arr (i : S40000x512.Idx) : ∃ t : Fin cfg0.N, (cfg0.win 3).flush t = true ∧ i ∈ ((cfg0.win 3).blk t).view.set := by
  have hi0 : (i 0).val < 40000 := (i 0).isLt
  have hi1 : (i 1).val < 512 := (i 1).isLt
  have hN : cfg0.N = 20 := N_0
  let t : Fin cfg0.N := ⟨(i 0).val / 2000, by rw [hN]; omega⟩
  obtain ⟨-, -, -, -, -, -, e0, e1⟩ := idx_facts0 t
  have ht : t.val = (i 0).val / 2000 := rfl
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 512 ≤ (i 1).val ∧ (i 1).val < win0_3.index t (1 : Fin 2) * 512 + 512; rw [e1]; omega

/-- THE OUTPUT ARRAY after the whole grid: the projection of the three input arrays, entry by entry. -/
theorem arr0_3 (c : Dev nD) :
    (dat0 (F := Ideal) V c).arrAt 3 cfg0.N
      = G0_3 (V c (Pipeline.arrRef spec0 0)) (V c (Pipeline.arrRef spec0 1)) (V c (Pipeline.arrRef spec0 2)) :=
  (dat0 (F := Ideal) V c).arrAt_eq_of_cover 3 _ (fun t _ => flushed0_3_eq V c t) cover0_3_arr

end Cert.KernelIdeal.Hand

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.Val1.lean ====
import proofs.«143299_j13005160972635_2_alg».proof.Proof.Half1
import proofs.«143299_j13005160972635_2_alg».proof.Proof.LibMatProd
import proofs.«143299_j13005160972635_2_alg».proof.Proof.LibBroadcastTo
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! # The edge gate region's three output arrays after the whole grid, index by index -/

/-- The pre-activation at row `r`, column `j`: `(dxd + bex[:, 128:]) + (e · Cw + Cb)`, in the body's own association. -/
def pre1 (e : Vec Ideal S640000x128 .f32) (Cw : Vec Ideal S128x128 .f32) (Cb : Vec Ideal S1x128 .f32)
    (dxd : Vec Ideal S640000x128 .f32) (bex : Vec Ideal S640000x256 .f32) (r : Fin 640000) (j : Fin 128) : EReal :=
  (dxd (ix2 r j) + bex (ix2 r (⟨128 + j.val, by have := j.isLt; omega⟩ : Fin 256)))
    + ((∑ k : Fin 128, e (ix2 r k) * Cw (ix2 k j)) + Cb (ix2 (0 : Fin 1) j))

/-- The first output array: the pre-activation. -/
def G1_5 (e : Vec Ideal S640000x128 .f32) (Cw : Vec Ideal S128x128 .f32) (Cb : Vec Ideal S1x128 .f32)
    (dxd : Vec Ideal S640000x128 .f32) (bex : Vec Ideal S640000x256 .f32) : Vec Ideal S640000x128 .f32 :=
  fun i => pre1 e Cw Cb dxd bex (i 0) (i 1)

/-- The second output array: its logistic. -/
def G1_6 (e : Vec Ideal S640000x128 .f32) (Cw : Vec Ideal S128x128 .f32) (Cb : Vec Ideal S1x128 .f32)
    (dxd : Vec Ideal S640000x128 .f32) (bex : Vec Ideal S640000x256 .f32) : Vec Ideal S640000x128 .f32 :=
  fun i => Ideal.logistic (pre1 e Cw Cb dxd bex (i 0) (i 1))

/-- The third output array: the logistic times the left half of the double-width rows. -/
def G1_7 (e : Vec Ideal S640000x128 .f32) (Cw : Vec Ideal S128x128 .f32) (Cb : Vec Ideal S1x128 .f32)
    (dxd : Vec Ideal S640000x128 .f32) (bex : Vec Ideal S640000x256 .f32) : Vec Ideal S640000x128 .f32 :=
  fun i => Ideal.logistic (pre1 e Cw Cb dxd bex (i 0) (i 1)) * bex (ix2 (i 0) (⟨(i 1).val, by have h : (i 1).val < 128 := (i 1).isLt; omega⟩ : Fin 256))

/-! ## The body's payloads read at an entry of the block -/

theorem dot1_eq_plain : dot_S4000x128_S128x128_S4000x128_1_0_0_1_n_n = DotDims.plain 4000 128 128 := rfl

/-- The pre-activation payload at `(p, j)` of the block. -/
theorem pay1_apply (v0 : Vec Ideal S4000x128 .f32) (v2 : Vec Ideal S128x128 .f32) (v5 : Vec Ideal S1x128 .f32)
    (v11 v13 : Vec Ideal S4000x128 .f32) (p : Fin 4000) (j : Fin 128) :
    k1_pay1 v0 v2 v5 v11 v13 (ix2 p j)
      = (v13 (ix2 p j) + v11 (ix2 p j)) + ((∑ k : Fin 128, v0 (ix2 p k) * v2 (ix2 k j)) + v5 (ix2 (0 : Fin 1) j)) := by
  have hm := Cert.MatProd.matmul_plain_zero_apply (M := 4000) (K := 128) (N := 128) none
    (truncf .bf16 v0 bitsLt_bf16_f32 : FVec Ideal S4000x128 .bf16) (truncf .bf16 v2 bitsLt_bf16_f32 : FVec Ideal S128x128 .bf16) p j
  have hb := Cert.BroadcastTo.row_apply (m := 4000) (n := 128) (shapeCast S1x128 v5 shapeCasts_S1x128_S1x128)
    broadcasts_S1x128_S4000x128 p j
  unfold k1_pay1
  rw [addf_apply, addf_apply, addf_apply, shapeCast_self, shapeCast_self]
  rw [hb, shapeCast_self]
  refine congrArg (fun z => (v13 (ix2 p j) + v11 (ix2 p j)) + (z + v5 (ix2 (0 : Fin 1) j))) ?_
  exact hm

/-- The logistic payload at `(p, j)`. -/
theorem pay2_apply (v0 : Vec Ideal S4000x128 .f32) (v2 : Vec Ideal S128x128 .f32) (v5 : Vec Ideal S1x128 .f32)
    (v11 v13 : Vec Ideal S4000x128 .f32) (i : S4000x128.Idx) :
    k1_pay2 v0 v2 v5 v11 v13 i = Ideal.logistic (k1_pay1 v0 v2 v5 v11 v13 i) := rfl

/-- The gated payload at `(p, j)`. -/
theorem pay3_apply (v0 : Vec Ideal S4000x128 .f32) (v2 : Vec Ideal S128x128 .f32) (v5 : Vec Ideal S1x128 .f32)
    (v9 v11 v13 : Vec Ideal S4000x128 .f32) (i : S4000x128.Idx) :
    k1_pay3 v0 v2 v5 v9 v11 v13 i = Ideal.logistic (k1_pay1 v0 v2 v5 v11 v13 i) * v9 i := by
  unfold k1_pay3
  rw [mulf_apply, shapeCast_self, pay2_apply]

/-! ## Where a block's entry sits in its array -/

theorem hz1 : (![0, 0] : Fin 2 → Nat) = fun _ => 0 := funext fun a => by fin_cases a <;> rfl

theorem point1_lt (t : Fin cfg1.N) : t.val < 160 := by
  have h := t.isLt
  have e : cfg1.N = 160 := N_1
  omega

/-- The printed index maps over the grid: the row-blocked windows sit at block row `t` and block column 0, the
    weight and the bias at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row `p` of block `t` is row `t * 4000 + p` of the array. -/
def row1 (t : Fin cfg1.N) (p : Fin 4000) : Fin 640000 :=
  ⟨t.val * 4000 + p.val, by have := point1_lt t; have := p.isLt; omega⟩

theorem emb1_0 (t : Fin cfg1.N) (p : Fin 4000) (k : Fin 128) :
    ((cfg1.win 0).blk t).view.emb (ix2 p k) = ix2 (row1 t p) k := by
  have hf := idx_facts1 t
  funext a; apply Fin.ext
  match a with
  | ⟨0, _⟩ => show win1_0.index t (0 : Fin 2) * 4000 + 1 * p.val = t.val * 4000 + p.val; omega
  | ⟨1, _⟩ => show win1_0.index t (1 : Fin 2) * 128 + 1 * k.val = k.val; omega

theorem emb1_3 (t : Fin cfg1.N) (p : Fin 4000) (k : Fin 128) :
    ((cfg1.win 3).blk t).view.emb (ix2 p k) = ix2 (row1 t p) k := by
  have hf := idx_facts1 t
  funext a; apply Fin.ext
  match a with
  | ⟨0, _⟩ => show win1_3.index t (0 : Fin 2) * 4000 + 1 * p.val = t.val * 4000 + p.val; omega
  | ⟨1, _⟩ => show win1_3.index t (1 : Fin 2) * 128 + 1 * k.val = k.val; omega

theorem emb1_4 (t : Fin cfg1.N) (p : Fin 4000) (k : Fin 256) :
    ((cfg1.win 4).blk t).view.emb (ix2 p k) = ix2 (row1 t p) k := by
  have hf := idx_facts1 t
  funext a; apply Fin.ext
  match a with
  | ⟨0, _⟩ => show win1_4.index t (0 : Fin 2) * 4000 + 1 * p.val = t.val * 4000 + p.val; omega
  | ⟨1, _⟩ => show win1_4.index t (1 : Fin 2) * 256 + 1 * k.val = k.val; omega

theorem emb1_5 (t : Fin cfg1.N) (p : Fin 4000) (k : Fin 128) :
    ((cfg1.win 5).blk t).view.emb (ix2 p k) = ix2 (row1 t p) k := by
  have hf := idx_facts1 t
  funext a; apply Fin.ext
  match a with
  | ⟨0, _⟩ => show win1_5.index t (0 : Fin 2) * 4000 + 1 * p.val = t.val * 4000 + p.val; omega
  | ⟨1, _⟩ => show win1_5.index t (1 : Fin 2) * 128 + 1 * k.val = k.val; omega

theorem emb1_6 (t : Fin cfg1.N) (p : Fin 4000) (k : Fin 128) :
    ((cfg1.win 6).blk t).view.emb (ix2 p k) = ix2 (row1 t p) k := by
  have hf := idx_facts1 t
  funext a; apply Fin.ext
  match a with
  | ⟨0, _⟩ => show win1_6.index t (0 : Fin 2) * 4000 + 1 * p.val = t.val * 4000 + p.val; omega
  | ⟨1, _⟩ => show win1_6.index t (1 : Fin 2) * 128 + 1 * k.val = k.val; omega

theorem emb1_7 (t : Fin cfg1.N) (p : Fin 4000) (k : Fin 128) :
    ((cfg1.win 7).blk t).view.emb (ix2 p k) = ix2 (row1 t p) k := by
  have hf := idx_facts1 t
  funext a; apply Fin.ext
  match a with
  | ⟨0, _⟩ => show win1_7.index t (0 : Fin 2) * 4000 + 1 * p.val = t.val * 4000 + p.val; omega
  | ⟨1, _⟩ => show win1_7.index t (1 : Fin 2) * 128 + 1 * k.val = k.val; omega

theorem emb1_1 (t : Fin cfg1.N) (k : Fin 128) (j : Fin 128) :
    ((cfg1.win 1).blk t).view.emb (ix2 k j) = ix2 k j := by
  have hf := idx_facts1 t
  funext a; apply Fin.ext
  match a with
  | ⟨0, _⟩ => show win1_1.index t (0 : Fin 2) * 128 + 1 * k.val = k.val; omega
  | ⟨1, _⟩ => show win1_1.index t (1 : Fin 2) * 128 + 1 * j.val = j.val; omega

theorem emb1_2 (t : Fin cfg1.N) (z : Fin 1) (j : Fin 128) :
    ((cfg1.win 2).blk t).view.emb (ix2 z j) = ix2 z j := by
  have hf := idx_facts1 t
  funext a; apply Fin.ext
  match a with
  | ⟨0, _⟩ => show win1_2.index t (0 : Fin 2) * 1 + 1 * z.val = z.val; omega
  | ⟨1, _⟩ => show win1_2.index t (1 : Fin 2) * 128 + 1 * j.val = j.val; omega

/-- The right half of a double-width block row: column `128 + j`. -/
theorem hi1_idx (p : Fin 4000) (j : Fin 128) :
    r1_hi.idx (ix2 p j) = ix2 p (⟨128 + j.val, by have := j.isLt; omega⟩ : Fin 256) := by
  funext a; apply Fin.ext
  match a with
  | ⟨0, _⟩ => show 0 + 1 * p.val = p.val; omega
  | ⟨1, _⟩ => show 128 + 1 * j.val = 128 + j.val; omega

/-- The left half: column `j`. -/
theorem lo1_idx (p : Fin 4000) (j : Fin 128) :
    r1_lo.idx (ix2 p j) = ix2 p (⟨j.val, by have := j.isLt; omega⟩ : Fin 256) := by
  funext a; apply Fin.ext
  match a with
  | ⟨0, _⟩ => show 0 + 1 * p.val = p.val; omega
  | ⟨1, _⟩ => show 0 + 1 * j.val = j.val; omega

/-! ## What a point writes back is its block of the closed form -/

section Arrays

variable (V : (c : Dev nD) → (b : Ref sig .tc) → Buf (Elt Ideal) ((c : Thread nD τ).loc b))

/-- The pre-activation payload over the blocks of point `t`, at `(p, j)`: the closed form at row `t * 4000 + p`. -/
theorem pay1_blocks (c : Dev nD) (t : Fin cfg1.N) (p : Fin 4000) (j : Fin 128) :
    k1_pay1 (iblk1 V c 0 t) (iblk1 V c 1 t) (iblk1 V c 2 t) (View.ld (iblk1 V c 4 t) r1_hi) (iblk1 V c 3 t) (ix2 p j)
      = pre1 (V c (Pipeline.arrRef spec1 0)) (V c (Pipeline.arrRef spec1 1)) (V c (Pipeline.arrRef spec1 2)) (V c (Pipeline.arrRef spec1 3)) (V c (Pipeline.arrRef spec1 4)) (row1 t p) j := by
  rw [pay1_apply]
  unfold pre1
  have h3 : iblk1 V c 3 t (ix2 p j) = V c (Pipeline.arrRef spec1 3) (ix2 (row1 t p) j) := by
    show V c (Pipeline.arrRef spec1 3) (((cfg1.win 3).blk t).view.emb (ix2 p j)) = _
    rw [emb1_3]
  have h4 : View.ld (iblk1 V c 4 t) r1_hi (ix2 p j)
      = V c (Pipeline.arrRef spec1 4) (ix2 (row1 t p) (⟨128 + j.val, by have := j.isLt; omega⟩ : Fin 256)) := by
    show V c (Pipeline.arrRef spec1 4) (((cfg1.win 4).blk t).view.emb (r1_hi.idx (ix2 p j))) = _
    rw [hi1_idx, emb1_4]
  have h0 : ∀ k : Fin 128, iblk1 V c 0 t (ix2 p k) = V c (Pipeline.arrRef spec1 0) (ix2 (row1 t p) k) := fun k => by
    show V c (Pipeline.arrRef spec1 0) (((cfg1.win 0).blk t).view.emb (ix2 p k)) = _
    rw [emb1_0]
  have h1 : ∀ k : Fin 128, iblk1 V c 1 t (ix2 k j) = V c (Pipeline.arrRef spec1 1) (ix2 k j) := fun k => by
    show V c (Pipeline.arrRef spec1 1) (((cfg1.win 1).blk t).view.emb (ix2 k j)) = _
    rw [emb1_1]
  have h2 : iblk1 V c 2 t (ix2 (0 : Fin 1) j) = V c (Pipeline.arrRef spec1 2) (ix2 (0 : Fin 1) j) := by
    show V c (Pipeline.arrRef spec1 2) (((cfg1.win 2).blk t).view.emb (ix2 (0 : Fin 1) j)) = _
    rw [emb1_2]
  rw [h3, h4, h2]
  simp only [h0, h1]

/-- The left half of the double-width block of point `t`, at `(p, j)`. -/
theorem lo_blocks (c : Dev nD) (t : Fin cfg1.N) (p : Fin 4000) (j : Fin 128) :
    View.ld (iblk1 V c 4 t) r1_lo (ix2 p j)
      = V c (Pipeline.arrRef spec1 4) (ix2 (row1 t p) (⟨j.val, by have := j.isLt; omega⟩ : Fin 256)) := by
  show V c (Pipeline.arrRef spec1 4) (((cfg1.win 4).blk t).view.emb (r1_lo.idx (ix2 p j))) = _
  rw [lo1_idx, emb1_4]

theorem flushed1_5_eq (c : Dev nD) (t : Fin cfg1.N) :
    (dat1 (F := Ideal) V c).flushed 5 t = ((cfg1.win 5).blk t).view.read (Elt Ideal) (G1_5 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz1]
  simp only [View.ld_unit_zero (S := S4000x128) hz1, View.ld_unit_zero (S := S128x128) hz1, View.ld_unit_zero (S := S1x128) hz1]
  funext x
  obtain ⟨p, j, rfl⟩ : ∃ (p : Fin 4000) (j : Fin 128), x = ix2 p j := ⟨x 0, x 1, eq_ix2 x⟩
  show k1_pay1 (F := Ideal) _ _ _ _ _ (ix2 p j) = G1_5 _ _ _ _ _ (((cfg1.win 5).blk t).view.emb (ix2 p j))
  refine (pay1_blocks V c t p j).trans ?_
  rw [emb1_5]
  rfl

theorem flushed1_6_eq (c : Dev nD) (t : Fin cfg1.N) :
    (dat1 (F := Ideal) V c).flushed 6 t = ((cfg1.win 6).blk t).view.read (Elt Ideal) (G1_6 (V c (Pipeline.arrRef spec1 0)) (V c (Pipeline.arrRef spec1 1)) (V c (Pipeline.arrRef spec1 2)) (V c (Pipeline.arrRef spec1 3)) (V c (Pipeline.arrRef spec1 4))) := by
  show (cfg1.win 6).cut (grid1.coords t) ((dat1 V c).after 6 t) = _
  rw [after1_6]
  unfold out1_6
  rw [View.canon_unit_zero hz1]
  simp only [View.ld_unit_zero (S := S4000x128) hz1, View.ld_unit_zero (S := S128x128) hz1, View.ld_unit_zero (S := S1x128) hz1]
  funext x
  obtain ⟨p, j, rfl⟩ : ∃ (p : Fin 4000) (j : Fin 128), x = ix2 p j := ⟨x 0, x 1, eq_ix2 x⟩
  show k1_pay2 (F := Ideal) _ _ _ _ _ (ix2 p j) = G1_6 _ _ _ _ _ (((cfg1.win 6).blk t).view.emb (ix2 p j))
  rw [pay2_apply]
  refine (congrArg Ideal.logistic (pay1_blocks V c t p j)).trans ?_
  rw [emb1_6]
  rfl

theorem flushed1_7_eq (c : Dev nD) (t : Fin cfg1.N) :
    (dat1 (F := Ideal) V c).flushed 7 t = ((cfg1.win 7).blk t).view.read (Elt Ideal) (G1_7 (V c (Pipeline.arrRef spec1 0)) (V c (Pipeline.arrRef spec1 1)) (V c (Pipeline.arrRef spec1 2)) (V c (Pipeline.arrRef spec1 3)) (V c (Pipeline.arrRef spec1 4))) := by
  show (cfg1.win 7).cut (grid1.coords t) ((dat1 V c).after 7 t) = _
  rw [after1_7]
  unfold out1_7
  rw [View.canon_unit_zero hz1]
  simp only [View.ld_unit_zero (S := S4000x128) hz1, View.ld_unit_zero (S := S128x128) hz1, View.ld_unit_zero (S := S1x128) hz1]
  funext x
  obtain ⟨p, j, rfl⟩ : ∃ (p : Fin 4000) (j : Fin 128), x = ix2 p j := ⟨x 0, x 1, eq_ix2 x⟩
  show k1_pay3 (F := Ideal) _ _ _ _ _ _ (ix2 p j) = G1_7 _ _ _ _ _ (((cfg1.win 7).blk t).view.emb (ix2 p j))
  rw [pay3_apply]
  refine (congrArg₂ (fun a b : EReal => Ideal.logistic a * b) (pay1_blocks V c t p j) (lo_blocks V c t p j)).trans ?_
  rw [emb1_7]
  rfl

/-! ## The blocks cover the arrays -/

theorem mem_blk1_5 (t : Fin cfg1.N) (i : S640000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v26_0).slice (win1_5.rect t)).set ↔ _
  rw [View.set_slice_whole, Rect.mem_set_unit]
  exact Iff.rfl

/-- Row `r` is in the block of point `r / 4000`: the blocks cover the array. -/
theorem covered1_5 (i : S640000x128.Idx) :
    ∃ t : Fin cfg1.N, (cfg1.win 5).flush t = true ∧ i ∈ ((cfg1.win 5).blk t).view.set := by
  have hi0 : (i 0).val < 640000 := (i 0).isLt
  have hi1 : (i 1).val < 128 := (i 1).isLt
  have e : cfg1.N = 160 := N_1
  have ht : (i 0).val / 4000 < cfg1.N := by omega
  have hf := idx_facts1 ⟨(i 0).val / 4000, ht⟩
  refine ⟨⟨(i 0).val / 4000, ht⟩, flush1_5 _, ?_⟩
  rw [mem_blk1_5]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    have hv : (⟨(i 0).val / 4000, ht⟩ : Fin cfg1.N).val = (i 0).val / 4000 := rfl
    omega
  | ⟨1, _⟩ =>
    show win1_5.index ⟨(i 0).val / 4000, ht⟩ (1 : Fin 2) * 128 ≤ (i 1).val
      ∧ (i 1).val < win1_5.index ⟨(i 0).val / 4000, ht⟩ (1 : Fin 2) * 128 + 128
    omega

/-- THE ARRAY after the whole grid. -/
theorem arr1_5 (c : Dev nD) : (dat1 (F := Ideal) V c).arrAt 5 cfg1.N = G1_5 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_5_eq V c t) covered1_5

theorem mem_blk1_6 (t : Fin cfg1.N) (i : S640000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v26_1).slice (win1_6.rect t)).set ↔ _
  rw [View.set_slice_whole, Rect.mem_set_unit]
  exact Iff.rfl

/-- Row `r` is in the block of point `r / 4000`: the blocks cover the array. -/
theorem covered1_6 (i : S640000x128.Idx) :
    ∃ t : Fin cfg1.N, (cfg1.win 6).flush t = true ∧ i ∈ ((cfg1.win 6).blk t).view.set := by
  have hi0 : (i 0).val < 640000 := (i 0).isLt
  have hi1 : (i 1).val < 128 := (i 1).isLt
  have e : cfg1.N = 160 := N_1
  have ht : (i 0).val / 4000 < cfg1.N := by omega
  have hf := idx_facts1 ⟨(i 0).val / 4000, ht⟩
  refine ⟨⟨(i 0).val / 4000, ht⟩, flush1_6 _, ?_⟩
  rw [mem_blk1_6]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    have hv : (⟨(i 0).val / 4000, ht⟩ : Fin cfg1.N).val = (i 0).val / 4000 := rfl
    omega
  | ⟨1, _⟩ =>
    show win1_6.index ⟨(i 0).val / 4000, ht⟩ (1 : Fin 2) * 128 ≤ (i 1).val
      ∧ (i 1).val < win1_6.index ⟨(i 0).val / 4000, ht⟩ (1 : Fin 2) * 128 + 128
    omega

/-- THE ARRAY after the whole grid. -/
theorem arr1_6 (c : Dev nD) : (dat1 (F := Ideal) V c).arrAt 6 cfg1.N = G1_6 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 6 _ (fun t _ => flushed1_6_eq V c t) covered1_6

theorem mem_blk1_7 (t : Fin cfg1.N) (i : S640000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v26_2).slice (win1_7.rect t)).set ↔ _
  rw [View.set_slice_whole, Rect.mem_set_unit]
  exact Iff.rfl

/-- Row `r` is in the block of point `r / 4000`: the blocks cover the array. -/
theorem covered1_7 (i : S640000x128.Idx) :
    ∃ t : Fin cfg1.N, (cfg1.win 7).flush t = true ∧ i ∈ ((cfg1.win 7).blk t).view.set := by
  have hi0 : (i 0).val < 640000 := (i 0).isLt
  have hi1 : (i 1).val < 128 := (i 1).isLt
  have e : cfg1.N = 160 := N_1
  have ht : (i 0).val / 4000 < cfg1.N := by omega
  have hf := idx_facts1 ⟨(i 0).val / 4000, ht⟩
  refine ⟨⟨(i 0).val / 4000, ht⟩, flush1_7 _, ?_⟩
  rw [mem_blk1_7]
  intro a
  match a with
  | ⟨0, _⟩ =>
    show win1_7.index ⟨(i 0).val / 4000, ht⟩ (0 : Fin 2) * 4000 ≤ (i 0).val
      ∧ (i 0).val < win1_7.index ⟨(i 0).val / 4000, ht⟩ (0 : Fin 2) * 4000 + 4000
    have hv : (⟨(i 0).val / 4000, ht⟩ : Fin cfg1.N).val = (i 0).val / 4000 := rfl
    omega
  | ⟨1, _⟩ =>
    show win1_7.index ⟨(i 0).val / 4000, ht⟩ (1 : Fin 2) * 128 ≤ (i 1).val
      ∧ (i 1).val < win1_7.index ⟨(i 0).val / 4000, ht⟩ (1 : Fin 2) * 128 + 128
    omega

/-- THE ARRAY after the whole grid. -/
theorem arr1_7 (c : Dev nD) : (dat1 (F := Ideal) V c).arrAt 7 cfg1.N = G1_7 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 7 _ (fun t _ => flushed1_7_eq V c t) covered1_7

end Arrays

end Cert.KernelIdeal.Hand

end
-- ==== Proof.Val2.lean ====
import proofs.«143299_j13005160972635_2_alg».proof.Proof.Half2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- The node normalisation as one function of its three input arrays: entry `(n, j)` of the output is
    `max (p(n, j) * s(j) + t(j), 0)` for the scale row `s` and the shift row `t`. -/
def G2_3 (p : S40000x128.Idx → Elt Ideal .f32) (s : S1x128.Idx → Elt Ideal .f32) (t : S1x128.Idx → Elt Ideal .f32) :
    S40000x128.Idx → Elt Ideal .f32 :=
  fun i => max (p i * s (ix2 (0 : Fin 1) (i 1)) + t (ix2 (0 : Fin 1) (i 1))) 0

theorem hz2 : (![0, 0] : Fin 2 → Nat) = fun _ => 0 := funext fun a => by fin_cases a <;> rfl

/-- The body's payload at entry `(p, q)` of the block: the pre-activation there times the scale row's entry `q`, plus the
    shift row's entry `q`, clamped below at zero. -/
theorem pay2_entry (x0 : Vec Ideal S4000x128 .f32) (x1 : Vec Ideal S1x128 .f32) (x2 : Vec Ideal S1x128 .f32) (p : Fin 4000) (q : Fin 128) :
    k2_pay1 x0 x1 x2 (ix2 p q) = max (x0 (ix2 p q) * x1 (ix2 (0 : Fin 1) q) + x2 (ix2 (0 : Fin 1) q)) 0 := by
  unfold k2_pay1
  simp only [shapeCast_self]
  refine (maximumf_apply _ _ (ix2 p q)).trans ?_
  refine congrArg₂ max ?_ ?_
  · refine (addf_apply _ _ (ix2 p q)).trans (congrArg₂ (· + ·) ?_ ?_)
    · refine (mulf_apply _ _ (ix2 p q)).trans (congrArg₂ (· * ·) rfl ?_)
      exact broadcastTo_1b_ab_apply x1 broadcasts_S1x128_S4000x128 p q
    · exact broadcastTo_1b_ab_apply x2 broadcasts_S1x128_S4000x128 p q
  · exact Ideal.ofBits_zero_f32

variable (V : (c : Dev nD) → (b : Ref sig .tc) → Buf (Elt Ideal) ((c : Thread nD τ).loc b))

/-- The printed index maps, decided over the 10 grid points: the pre-activation window and the output window are at block
    `(t, 0)`, the two rows at block `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The pre-activation window's block at point `t` is rows `4000 t … 4000 t + 3999` of the array. -/
theorem pblock_entry (c : Dev nD) (t : Fin cfg2.N) (y : S4000x128.Idx) (i : S40000x128.Idx)
    (h0 : (i 0).val = t.val * 4000 + (y 0).val) (h1 : (i 1).val = (y 1).val) :
    (iblk2 V c 0 t : Vec Ideal S4000x128 .f32) y = (V c (Pipeline.arrRef spec2 0) : S40000x128.Idx → Elt Ideal .f32) i := by
  obtain ⟨e0, e1, -⟩ := idx_facts2 t
  unfold iblk2
  rw [View.read_apply]
  show V c main_v36 _ = V c main_v36 _
  congr 1
  funext a
  apply Fin.ext
  match a with
  | ⟨0, _⟩ => show win2_0.index t 0 * 4000 + 1 * (y 0).val = (i 0).val; rw [e0, h0]; omega
  | ⟨1, _⟩ => show win2_0.index t 1 * 128 + 1 * (y 1).val = (i 1).val; rw [e1, h1]; omega

/-- The scale row's window's block at every point is the whole row. -/
theorem sblock_entry (c : Dev nD) (t : Fin cfg2.N) (y : S1x128.Idx) :
    (iblk2 V c 1 t : Vec Ideal S1x128 .f32) y = (V c (Pipeline.arrRef spec2 1) : S1x128.Idx → Elt Ideal .f32) y := by
  obtain ⟨-, -, e0, e1, -⟩ := idx_facts2 t
  unfold iblk2
  rw [View.read_apply]
  show V c main_v45 _ = V c main_v45 _
  congr 1
  funext a
  apply Fin.ext
  match a with
  | ⟨0, _⟩ => show win2_1.index t 0 * 1 + 1 * (y 0).val = (y 0).val; rw [e0]; omega
  | ⟨1, _⟩ => show win2_1.index t 1 * 128 + 1 * (y 1).val = (y 1).val; rw [e1]; omega

/-- The shift row's window's block at every point is the whole row. -/
theorem tblock_entry (c : Dev nD) (t : Fin cfg2.N) (y : S1x128.Idx) :
    (iblk2 V c 2 t : Vec Ideal S1x128 .f32) y = (V c (Pipeline.arrRef spec2 2) : S1x128.Idx → Elt Ideal .f32) y := by
  obtain ⟨-, -, -, -, e0, e1, -⟩ := idx_facts2 t
  unfold iblk2
  rw [View.read_apply]
  show V c main_v49 _ = V c main_v49 _
  congr 1
  funext a
  apply Fin.ext
  match a with
  | ⟨0, _⟩ => show win2_2.index t 0 * 1 + 1 * (y 0).val = (y 0).val; rw [e0]; omega
  | ⟨1, _⟩ => show win2_2.index t 1 * 128 + 1 * (y 1).val = (y 1).val; rw [e1]; omega

/-- The payload of three blocks that are rows `4000 n …` of `P`, the whole of `s` and the whole of `t`, at entry `j` of the
    block, is `G2_3 P s t` at the array index that entry sits at. -/
theorem pay2_eq_G (P : S40000x128.Idx → Elt Ideal .f32) (s t : S1x128.Idx → Elt Ideal .f32)
    (x0 : Vec Ideal S4000x128 .f32) (x1 : Vec Ideal S1x128 .f32) (x2 : Vec Ideal S1x128 .f32) (n : Nat)
    (hx0 : ∀ (y : S4000x128.Idx) (i : S40000x128.Idx), (i 0).val = n * 4000 + (y 0).val → (i 1).val = (y 1).val → x0 y = P i)
    (hx1 : ∀ y, x1 y = s y) (hx2 : ∀ y, x2 y = t y)
    (j : S4000x128.Idx) (i : S40000x128.Idx) (hi0 : (i 0).val = n * 4000 + (j 0).val) (hi1 : (i 1).val = (j 1).val) :
    k2_pay1 x0 x1 x2 j = G2_3 P s t i := by
  obtain ⟨p, q, rfl⟩ : ∃ (p : Fin 4000) (q : Fin 128), j = ix2 p q := ⟨j 0, j 1, eq_ix2 j⟩
  have hq : (i 1 : Fin 128) = q := Fin.ext hi1
  refine (pay2_entry x0 x1 x2 p q).trans ?_
  unfold G2_3
  rw [hq, hx0 (ix2 p q) i hi0 hi1, hx1, hx2]

/-- WHAT POINT `t` WRITES BACK is block `t` of `G2_3` of the three arrays as the region finds them. -/
theorem flushed2_3_eq (c : Dev nD) (t : Fin cfg2.N) :
    (dat2 (F := Ideal) V c).flushed 3 t = ((cfg2.win 3).blk t).view.read (Elt Ideal)
      (G2_3 (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero hz2]
  simp only [View.ld_unit_zero (S := S4000x128) hz2, View.ld_unit_zero (S := S1x128) hz2]
  obtain ⟨-, -, -, -, -, -, e0, e1⟩ := idx_facts2 t
  funext j
  refine pay2_eq_G _ _ _ (iblk2 V c 0 t) (iblk2 V c 1 t) (iblk2 V c 2 t) t.val
    (fun y i h0 h1 => pblock_entry V c t y i h0 h1) (fun y => sblock_entry V c t y) (fun y => tblock_entry V c t y) j _ ?_ ?_
  · show win2_3.index t 0 * 4000 + 1 * (j 0).val = t.val * 4000 + (j 0).val; rw [e0]; omega
  · show win2_3.index t 1 * 128 + 1 * (j 1).val = (j 1).val; rw [e1]; omega

/-- An index of the output array is in point `t`'s block iff each coordinate is in the block's range on its axis. -/
theorem mem_blk2_3 (t : Fin cfg2.N) (i : S40000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v50).slice (win2_3.rect t)).set ↔ _
  rw [View.set_slice_whole, Rect.mem_set_unit]
  exact Iff.rfl

/-- Every index of the output array is in the block of the point its row falls to: row `r` is written by point `r / 4000`. -/
theorem cover2_3_arr (i : S40000x128.Idx) : ∃ t : Fin cfg2.N, (cfg2.win 3).flush t = true ∧ i ∈ ((cfg2.win 3).blk t).view.set := by
  have hi0 : (i 0).val < 40000 := (i 0).isLt
  have hi1 : (i 1).val < 128 := (i 1).isLt
  have hN : cfg2.N = 10 := N_2
  let t : Fin cfg2.N := ⟨(i 0).val / 4000, by rw [hN]; omega⟩
  obtain ⟨-, -, -, -, -, -, e0, e1⟩ := idx_facts2 t
  have ht : t.val = (i 0).val / 4000 := rfl
  refine ⟨t, flush2_3 t, ?_⟩
  rw [mem_blk2_3]
  intro a
  match a with
  | ⟨0, _⟩ => show win2_3.index t (0 : Fin 2) * 4000 ≤ (i 0).val ∧ (i 0).val < win2_3.index t (0 : Fin 2) * 4000 + 4000; rw [e0, ht]; omega
  | ⟨1, _⟩ => show win2_3.index t (1 : Fin 2) * 128 ≤ (i 1).val ∧ (i 1).val < win2_3.index t (1 : Fin 2) * 128 + 128; rw [e1]; omega

/-- THE OUTPUT ARRAY after the whole grid, entry by entry. -/
theorem arr2_3 (c : Dev nD) :
    (dat2 (F := Ideal) V c).arrAt 3 cfg2.N
      = G2_3 (V c (Pipeline.arrRef spec2 0)) (V c (Pipeline.arrRef spec2 1)) (V c (Pipeline.arrRef spec2 2)) :=
  (dat2 (F := Ideal) V c).arrAt_eq_of_cover 3 _ (fun t _ => flushed2_3_eq V c t) cover2_3_arr

end Cert.KernelIdeal.Hand

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.LibDenseLayer.lean ====
/-
  One dense layer of a perceptron — a matrix product with a weight matrix, plus a bias row, clamped below at zero — read
  over the extended reals as ONE function (`Cert.MatProd.denseRelu`) in the two spellings it is met in, general in the
  three extents and in the operands' float formats:

    * the kernel's: a matrix product into a zero accumulator, plus the bias ROW `[1, N]` broadcast down the rows, then a
      maximum with a splat zero (`kernel_layer`; without the clamp, entry by entry, `kernel_affine`);
    * the host's: a `dot_general`, plus the bias VECTOR `[N]` laid out as a row and broadcast down the rows (two
      `broadcast_in_dim`s), then a maximum with a broadcast zero constant (`host_layer`; without the clamp,
      `host_affine`).

  The product's dimension record is any record equal to the plain one (rows by contraction times contraction by
  columns); `asRow` lays a vector out as a one-row matrix. No finiteness is asked: both sides are the same sum, term by
  term. Imports LibMatProd, LibBroadcastTo and LibBroadcast, which must be copied with it.
-/
import proofs.«143299_j13005160972635_2_alg».proof.Proof.LibMatProd
import proofs.«143299_j13005160972635_2_alg».proof.Proof.LibBroadcastTo
import proofs.«143299_j13005160972635_2_alg».proof.Proof.LibBroadcast
import Idealize.ShloMosaic.PureOps.Contract
import Idealize.ShloMosaic.Lib.Pipeline.Value

noncomputable section

open scoped BigOperators

namespace Cert.DenseLayer

open Idealize.ShloMosaic Idealize.ShloMosaic.ValueIdx Cert.MatProd

/-- A matrix of extended reals with `M` rows and `N` columns. -/
abbrev Mat (M N : Nat) : Type := (⟨2, ![M, N]⟩ : Shape).Idx → EReal

/-- A vector of length `N` laid out as a one-row matrix. -/
def asRow {N : Nat} (b : (⟨1, ![N]⟩ : Shape).Idx → EReal) : Mat 1 N := fun i => b (ix1 (i 1))

/-- The kernel's product plus bias row: a matrix product into a zero accumulator, plus the bias row broadcast down the rows. -/
theorem kernel_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (matmul d none a w (constant ⟨2, ![M, N]⟩ .f32 0x00000000#32)) (broadcastTo ⟨2, ![M, N]⟩ b hb) (ix2 p q)
      = prod a w (ix2 p q) + b (ix2 0 q) := by
  subst hd
  show FloatOps.matmul (DotDims.plain M K N) none a w (constant ⟨2, ![M, N]⟩ .f32 0x00000000#32) (ix2 p q)
      + broadcastTo ⟨2, ![M, N]⟩ b hb (ix2 p q) = _
  rw [matmul_plain_zero_apply, Cert.BroadcastTo.row_apply]
  rfl

/-- The kernel's dense layer is `denseRelu`. -/
theorem kernel_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    maximumf (addf (matmul d none a w (constant ⟨2, ![M, N]⟩ .f32 0x00000000#32)) (broadcastTo ⟨2, ![M, N]⟩ b hb))
        (broadcast ⟨2, ![M, N]⟩ (Scalar.ofBits (F := Ideal) .f32 0x00000000#32))
      = denseRelu a w b := by
  funext i
  obtain ⟨p, q, rfl⟩ : ∃ (p : Fin M) (q : Fin N), i = ix2 p q := ⟨i 0, i 1, eq_ix2 i⟩
  show max (addf (matmul d none a w (constant ⟨2, ![M, N]⟩ .f32 0x00000000#32)) (broadcastTo ⟨2, ![M, N]⟩ b hb) (ix2 p q)) _ = _
  rw [kernel_affine d hd a w b hb p q]
  rfl

/-- The host's product plus bias: a `dot_general`, plus the bias vector laid out as a row and broadcast down the rows. -/
theorem host_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral d none a w) (broadcastInDim ⟨2, ![M, N]⟩ ![0, 1] h2 (broadcastInDim ⟨2, ![1, N]⟩ ![1] h1 b)) (ix2 p q)
      = prod a w (ix2 p q) + asRow b (ix2 0 q) := by
  subst hd
  show FloatOps.dotGeneral (DotDims.plain M K N) none .single a w (ix2 p q)
      + broadcastInDim ⟨2, ![M, N]⟩ ![0, 1] h2 (broadcastInDim ⟨2, ![1, N]⟩ ![1] h1 b) (ix2 p q) = _
  rw [dotGeneral_plain_apply, Cert.Layout.rows_of_vec_apply]
  rfl

/-- The host's dense layer is `denseRelu`. -/
theorem host_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ (![] : Fin 0 → Fin 2)) :
    maximumf (addf (Host.dotGeneral d none a w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = denseRelu a w (asRow b) := by
  funext i
  obtain ⟨p, q, rfl⟩ : ∃ (p : Fin M) (q : Fin N), i = ix2 p q := ⟨i 0, i 1, eq_ix2 i⟩
  show max (addf (Host.dotGeneral d none a w) (broadcastInDim ⟨2, ![M, N]⟩ ![0, 1] h2 (broadcastInDim ⟨2, ![1, N]⟩ ![1] h1 b)) (ix2 p q))
      (broadcastInDim ⟨2, ![M, N]⟩ ![] h0 (constant (F := Ideal) ⟨0, ![]⟩ .f32 0x00000000#32) (ix2 p q)) = _
  rw [host_affine d hd a w b h1 h2 p q, Cert.Layout.splat_apply]
  rfl

end Cert.DenseLayer

end
-- ==== Proof.Val3.lean ====
import proofs.«143299_j13005160972635_2_alg».proof.Proof.Half3
import proofs.«143299_j13005160972635_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

/-! # The edge output region's two output arrays after the whole grid, index by index -/

/-- The normalised, clamped edge feature at row `r`, lane `j`. -/
def eout3 (eij : S640000x128.Idx → EReal) (scale shift : S1x128.Idx → EReal) (r : Fin 640000) (j : Fin 128) : EReal :=
  max (eij (ix2 r j) * scale (ix2 0 j) + shift (ix2 0 j)) 0

/-- The edge-row output array. -/
def G3_9 (eij : S640000x128.Idx → EReal) (scale shift : S1x128.Idx → EReal) : S640000x128.Idx → EReal :=
  fun i => eout3 eij scale shift (i 0) (i 1)

/-- The concatenated feature row of edge `r`: its source node's row, its destination node's row, its own clamped row. -/
def feat3 (eij : S640000x128.Idx → EReal) (scale shift : S1x128.Idx → EReal) (xs xd : S640000x128.Idx → EReal)
    (r : Fin 640000) (k : Fin 384) : EReal :=
  if h : k.val < 128 then xs (ix2 r ⟨k.val, h⟩)
  else if h2 : k.val < 256 then xd (ix2 r ⟨k.val - 128, by omega⟩)
  else eout3 eij scale shift r ⟨k.val - 256, by omega⟩

/-- The hidden layer: the first dense layer of the feature row, clamped below at zero. -/
def hid3 (eij : S640000x128.Idx → EReal) (scale shift : S1x128.Idx → EReal) (xs xd : S640000x128.Idx → EReal)
    (W1 : S384x256.Idx → EReal) (b1 : S1x256.Idx → EReal) (r : Fin 640000) (j : Fin 256) : EReal :=
  max ((∑ k : Fin 384, feat3 eij scale shift xs xd r k * W1 (ix2 k j)) + b1 (ix2 0 j)) 0

/-- The score before the logistic: column 0 of the second dense layer. -/
def score3 (eij : S640000x128.Idx → EReal) (scale shift : S1x128.Idx → EReal) (xs xd : S640000x128.Idx → EReal)
    (W1 : S384x256.Idx → EReal) (b1 : S1x256.Idx → EReal) (W2 : S256x128.Idx → EReal) (b2 : S1x128.Idx → EReal)
    (r : Fin 640000) : EReal :=
  (∑ j : Fin 256, hid3 eij scale shift xs xd W1 b1 r j * W2 (ix2 j 0)) + b2 (ix2 0 0)

/-- The score output array. -/
def G3_10 (eij : S640000x128.Idx → EReal) (scale shift : S1x128.Idx → EReal) (xs xd : S640000x128.Idx → EReal)
    (W1 : S384x256.Idx → EReal) (b1 : S1x256.Idx → EReal) (W2 : S256x128.Idx → EReal) (b2 : S1x128.Idx → EReal) :
    S640000x1.Idx → EReal :=
  fun i => Ideal.logistic (score3 eij scale shift xs xd W1 b1 W2 b2 (i 0))

theorem hz3 : (![0, 0] : Fin 2 → Nat) = fun _ => 0 := funext fun a => by fin_cases a <;> rfl

/-! ## The body's values at an entry, over variables -/

/-- The clamped affine image of the edge block at an entry. -/
theorem pay3_2_apply (v0 : Vec Ideal S4000x128 .f32) (v2 v6 : Vec Ideal S1x128 .f32) (p : Fin 4000) (q : Fin 128) :
    k3_pay2 v0 v2 v6 (ix2 p q) = max (v0 (ix2 p q) * v2 (ix2 0 q) + v6 (ix2 0 q)) 0 := by
  unfold k3_pay2
  show max (shapeCast S4000x128 v0 _ (ix2 p q) * broadcastTo S4000x128 (shapeCast S1x128 v2 _) _ (ix2 p q)
      + broadcastTo S4000x128 (shapeCast S1x128 v6 _) _ (ix2 p q)) (Ideal.ofBits .f32 0x00000000#32) = _
  rw [Cert.BroadcastTo.row_apply, Cert.BroadcastTo.row_apply, shapeCast_self, shapeCast_self, shapeCast_self,
    Ideal.ofBits_zero_f32]

/-- Three 128-column pieces side by side, read at an entry: the piece the column falls in. -/
theorem cat3_apply (a b e : S4000x128.Idx → EReal)
    (h : Shape.Concatenates (([⟨S4000x128, a⟩, ⟨S4000x128, b⟩, ⟨S4000x128, e⟩] : List ((s : Shape) × (s.Idx → EReal))).map (·.1)) S4000x384 1)
    (p : Fin 4000) (m : Fin 384) :
    concatenate S4000x384 1 [⟨S4000x128, a⟩, ⟨S4000x128, b⟩, ⟨S4000x128, e⟩] h (ix2 p m)
      = if h1 : m.val < 128 then a (ix2 p ⟨m.val, h1⟩)
        else if h2 : m.val < 256 then b (ix2 p ⟨m.val - 128, by omega⟩)
        else e (ix2 p ⟨m.val - 256, by omega⟩) := by
  have hm : m.val < 384 := m.isLt
  split
  · rename_i h1
    refine concatenate_apply_piece 1 _ h (ix2 p m) 0 (by show (0 : ℕ) < 3; omega) S4000x128 a rfl rfl 0 (by rfl) (ix2 p ⟨m.val, h1⟩) (fun b hb => ?_) ?_
    · match b with
      | ⟨0, _⟩ => rfl
      | ⟨1, _⟩ => exact absurd rfl hb
    · show 0 + m.val = m.val; omega
  · rename_i h1
    split
    · rename_i h2
      refine concatenate_apply_piece 1 _ h (ix2 p m) 1 (by show (1 : ℕ) < 3; omega) S4000x128 b rfl rfl 128 (by rfl) (ix2 p ⟨m.val - 128, by omega⟩) (fun b hb => ?_) ?_
      · match b with
        | ⟨0, _⟩ => rfl
        | ⟨1, _⟩ => exact absurd rfl hb
      · show 128 + (m.val - 128) = m.val; omega
    · rename_i h2
      refine concatenate_apply_piece 1 _ h (ix2 p m) 2 (by show (2 : ℕ) < 3; omega) S4000x128 e rfl rfl 256 (by rfl) (ix2 p ⟨m.val - 256, by omega⟩) (fun b hb => ?_) ?_
      · match b with
        | ⟨0, _⟩ => rfl
        | ⟨1, _⟩ => exact absurd rfl hb
      · show 256 + (m.val - 256) = m.val; omega

section point
variable (eij : S640000x128.Idx → EReal) (scale shift : S1x128.Idx → EReal) (xs xd : S640000x128.Idx → EReal)
  (W1 : S384x256.Idx → EReal) (b1 : S1x256.Idx → EReal) (W2 : S256x128.Idx → EReal) (b2 : S1x128.Idx → EReal)
  (r : Fin 640000) (p : Fin 4000)

/-- The clamped edge entry of a block is the array's, when the block's row `p` is the array's row `r`. -/
theorem eout3_point (x0 : Vec Ideal S4000x128 .f32) (x1 x2 : Vec Ideal S1x128 .f32)
    (h0 : ∀ q : Fin 128, x0 (ix2 p q) = eij (ix2 r q)) (h1 : ∀ q : Fin 128, x1 (ix2 0 q) = scale (ix2 0 q))
    (h2 : ∀ q : Fin 128, x2 (ix2 0 q) = shift (ix2 0 q)) (q : Fin 128) :
    k3_pay2 x0 x1 x2 (ix2 p q) = eout3 eij scale shift r q := by
  rw [pay3_2_apply, h0, h1, h2]; rfl

/-- The concatenated feature row of a block is the array's. -/
theorem feat3_point (x0 : Vec Ideal S4000x128 .f32) (x1 x2 : Vec Ideal S1x128 .f32) (x3 x4 : Vec Ideal S4000x128 .f32)
    (hc3 : S4000x128.ShapeCasts S4000x128)
    (h : Shape.Concatenates (([⟨S4000x128, shapeCast S4000x128 x3 hc3⟩, ⟨S4000x128, shapeCast S4000x128 x4 hc3⟩, ⟨S4000x128, k3_pay2 x0 x1 x2⟩] : List ((s : Shape) × (s.Idx → EReal))).map (·.1)) S4000x384 1)
    (h0 : ∀ q : Fin 128, x0 (ix2 p q) = eij (ix2 r q)) (h1 : ∀ q : Fin 128, x1 (ix2 0 q) = scale (ix2 0 q))
    (h2 : ∀ q : Fin 128, x2 (ix2 0 q) = shift (ix2 0 q))
    (h3 : ∀ q : Fin 128, x3 (ix2 p q) = xs (ix2 r q)) (h4 : ∀ q : Fin 128, x4 (ix2 p q) = xd (ix2 r q)) (m : Fin 384) :
    concatenate S4000x384 1 [⟨S4000x128, shapeCast S4000x128 x3 hc3⟩, ⟨S4000x128, shapeCast S4000x128 x4 hc3⟩, ⟨S4000x128, k3_pay2 x0 x1 x2⟩] h (ix2 p m)
      = feat3 eij scale shift xs xd r m := by
  rw [cat3_apply]
  unfold feat3
  split
  · rw [shapeCast_self]; exact h3 _
  · split
    · rw [shapeCast_self]; exact h4 _
    · exact eout3_point eij scale shift r p x0 x1 x2 h0 h1 h2 _

/-- The hidden row of a block is the array's. -/
theorem hid3_point {φ₁ φ₂ : FTy} (A : FVec Ideal S4000x384 φ₁) (Wt : FVec Ideal S384x256 φ₂) (B : FVec Ideal S1x256 .f32)
    (hA : ∀ m : Fin 384, A (ix2 p m) = feat3 eij scale shift xs xd r m)
    (hW : ∀ (k : Fin 384) (j : Fin 256), Wt (ix2 k j) = W1 (ix2 k j)) (hB : ∀ j : Fin 256, B (ix2 0 j) = b1 (ix2 0 j))
    (j : Fin 256) :
    Cert.MatProd.denseRelu A Wt B (ix2 p j) = hid3 eij scale shift xs xd W1 b1 r j := by
  show max ((∑ k : Fin 384, A (ix2 p k) * Wt (ix2 k j)) + B (ix2 0 j)) (Ideal.ofBits .f32 0x00000000#32) = _
  rw [Ideal.ofBits_zero_f32, hB]
  unfold hid3
  refine congrArg (fun s => max (s + b1 (ix2 0 j)) 0) (Finset.sum_congr rfl fun k _ => ?_)
  rw [hA, hW]

/-- The score of a block's row is the array's. -/
theorem score3_point {φ₁ φ₂ : FTy} (H : FVec Ideal S4000x256 φ₁) (Wt : FVec Ideal S256x128 φ₂) (B : FVec Ideal S1x128 .f32)
    (hH : ∀ j : Fin 256, H (ix2 p j) = hid3 eij scale shift xs xd W1 b1 r j)
    (hW : ∀ j : Fin 256, Wt (ix2 j 0) = W2 (ix2 j 0)) (hB : B (ix2 0 0) = b2 (ix2 0 0)) :
    Cert.MatProd.prod H Wt (ix2 p 0) + B (ix2 0 0) = score3 eij scale shift xs xd W1 b1 W2 b2 r := by
  show (∑ k : Fin 256, H (ix2 p k) * Wt (ix2 k 0)) + B (ix2 0 0) = _
  rw [hB]
  unfold score3
  refine congrArg (fun s => s + b2 (ix2 0 0)) (Finset.sum_congr rfl fun k _ => ?_)
  rw [hH, hW]

/-- What the body stores in the score block at row `p`, when the block's row `p` is the array's row `r`. -/
theorem logit3_point (x0 : Vec Ideal S4000x128 .f32) (x1 x2 : Vec Ideal S1x128 .f32) (x3 x4 : Vec Ideal S4000x128 .f32)
    (x5 : Vec Ideal S384x256 .f32) (x6 : Vec Ideal S1x256 .f32) (x7 : Vec Ideal S256x128 .f32) (x8 : Vec Ideal S1x128 .f32)
    (h0 : ∀ q : Fin 128, x0 (ix2 p q) = eij (ix2 r q)) (h1 : ∀ q : Fin 128, x1 (ix2 0 q) = scale (ix2 0 q))
    (h2 : ∀ q : Fin 128, x2 (ix2 0 q) = shift (ix2 0 q))
    (h3 : ∀ q : Fin 128, x3 (ix2 p q) = xs (ix2 r q)) (h4 : ∀ q : Fin 128, x4 (ix2 p q) = xd (ix2 r q))
    (h5 : ∀ (k : Fin 384) (j : Fin 256), x5 (ix2 k j) = W1 (ix2 k j)) (h6 : ∀ j : Fin 256, x6 (ix2 0 j) = b1 (ix2 0 j))
    (h7 : ∀ j : Fin 256, x7 (ix2 j 0) = W2 (ix2 j 0)) (h8 : x8 (ix2 0 0) = b2 (ix2 0 0)) :
    k3_pay1 (k3_pay3 x0 x1 x2 x3 x4 x5 x6 x7 x8) (ix2 p 0)
      = Ideal.logistic (score3 eij scale shift xs xd W1 b1 W2 b2 r) := by
  unfold k3_pay1 k3_pay3
  dsimp only
  show Ideal.logistic _ = Ideal.logistic _
  refine congrArg Ideal.logistic ?_
  refine (extractStridedSlice_apply _ _ _ (ix2 p 0) (ix2 p 0) (fun a => ?_)).trans ?_
  · match a with
    | ⟨0, _⟩ => show p.val = 0 + p.val; omega
    | ⟨1, _⟩ => show (0 : ℕ) = 0 + 0; rfl
  refine (Cert.DenseLayer.kernel_affine _ rfl _ _ _ _ p 0).trans ?_
  refine score3_point eij scale shift xs xd W1 b1 W2 b2 r p _ _ _ (fun j => ?_) (fun j => ?_) ?_
  · refine (congrFun (Cert.DenseLayer.kernel_layer _ rfl _ _ _ _) (ix2 p j)).trans ?_
    refine hid3_point eij scale shift xs xd W1 b1 r p _ _ _ (fun m => ?_) (fun k j => ?_) (fun j => ?_) j
    · exact feat3_point eij scale shift xs xd r p x0 x1 x2 x3 x4 shapeCasts_S4000x128_S4000x128
        concatenates_S4000x128_S4000x128_S4000x128_S4000x384_d1 h0 h1 h2 h3 h4 m
    · exact h5 k j
    · show shapeCast S1x256 x6 _ (ix2 0 j) = _
      rw [shapeCast_self]; exact h6 j
  · show shapeCast S256x128 x7 _ (ix2 j 0) = _
    rw [shapeCast_self]; exact h7 j
  · show shapeCast S1x128 x8 _ (ix2 0 0) = _
    rw [shapeCast_self]; exact h8

end point

/-! ## From blocks to the arrays -/

variable (V : (c : Dev nD) → (b : Ref sig .tc) → Buf (Elt Ideal) ((c : Thread nD τ).loc b))

/-- The windows' block indices over the grid: a row-blocked window sits at block `t`, a whole-array window at block 0. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0
    ∧ win3_10.index t (0 : Fin 2) = t.val ∧ win3_10.index t (1 : Fin 2) = 0 :=
  (by decide +kernel : ∀ t : Fin grid3.N, _)

/-- Row `p` of window 0's block at point `t` is row `4000 t + p` of its array. -/
theorem iblk3_0_apply (c : Dev nD) (t : Fin cfg3.N) (p : Fin 4000) (q : Fin 128) (r : Fin 640000) (hr : r.val = t.val * 4000 + p.val) :
    (iblk3 V c 0 t : Vec Ideal S4000x128 .f32) (ix2 p q) = (V c (Pipeline.arrRef spec3 0) : S640000x128.Idx → EReal) (ix2 r q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  unfold iblk3
  rw [View.read_apply]
  show V c (Pipeline.arrRef spec3 0) (((cfg3.win 0).blk t).view.emb (ix2 p q)) = V c (Pipeline.arrRef spec3 0) (ix2 r q)
  have h : ((cfg3.win 0).blk t).view.emb (ix2 p q) = ix2 r q := by
    funext a; apply Fin.ext
    match a with
    | ⟨0, _⟩ => show win3_0.index t (0 : Fin 2) * 4000 + 1 * p.val = r.val; omega
    | ⟨1, _⟩ => show win3_0.index t (1 : Fin 2) * 128 + 1 * q.val = q.val; omega
  rw [h]

/-- Row `p` of window 3's block at point `t` is row `4000 t + p` of its array. -/
theorem iblk3_3_apply (c : Dev nD) (t : Fin cfg3.N) (p : Fin 4000) (q : Fin 128) (r : Fin 640000) (hr : r.val = t.val * 4000 + p.val) :
    (iblk3 V c 3 t : Vec Ideal S4000x128 .f32) (ix2 p q) = (V c (Pipeline.arrRef spec3 3) : S640000x128.Idx → EReal) (ix2 r q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  unfold iblk3
  rw [View.read_apply]
  show V c (Pipeline.arrRef spec3 3) (((cfg3.win 3).blk t).view.emb (ix2 p q)) = V c (Pipeline.arrRef spec3 3) (ix2 r q)
  have h : ((cfg3.win 3).blk t).view.emb (ix2 p q) = ix2 r q := by
    funext a; apply Fin.ext
    match a with
    | ⟨0, _⟩ => show win3_3.index t (0 : Fin 2) * 4000 + 1 * p.val = r.val; omega
    | ⟨1, _⟩ => show win3_3.index t (1 : Fin 2) * 128 + 1 * q.val = q.val; omega
  rw [h]

/-- Row `p` of window 4's block at point `t` is row `4000 t + p` of its array. -/
theorem iblk3_4_apply (c : Dev nD) (t : Fin cfg3.N) (p : Fin 4000) (q : Fin 128) (r : Fin 640000) (hr : r.val = t.val * 4000 + p.val) :
    (iblk3 V c 4 t : Vec Ideal S4000x128 .f32) (ix2 p q) = (V c (Pipeline.arrRef spec3 4) : S640000x128.Idx → EReal) (ix2 r q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  unfold iblk3
  rw [View.read_apply]
  show V c (Pipeline.arrRef spec3 4) (((cfg3.win 4).blk t).view.emb (ix2 p q)) = V c (Pipeline.arrRef spec3 4) (ix2 r q)
  have h : ((cfg3.win 4).blk t).view.emb (ix2 p q) = ix2 r q := by
    funext a; apply Fin.ext
    match a with
    | ⟨0, _⟩ => show win3_4.index t (0 : Fin 2) * 4000 + 1 * p.val = r.val; omega
    | ⟨1, _⟩ => show win3_4.index t (1 : Fin 2) * 128 + 1 * q.val = q.val; omega
  rw [h]

/-- Window 1's block at every point is its whole array. -/
theorem iblk3_1_apply (c : Dev nD) (t : Fin cfg3.N) (k : Fin 1) (q : Fin 128) :
    (iblk3 V c 1 t : Vec Ideal S1x128 .f32) (ix2 k q) = (V c (Pipeline.arrRef spec3 1) : S1x128.Idx → EReal) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  unfold iblk3
  rw [View.read_apply]
  show V c (Pipeline.arrRef spec3 1) (((cfg3.win 1).blk t).view.emb (ix2 k q)) = V c (Pipeline.arrRef spec3 1) (ix2 k q)
  have h : ((cfg3.win 1).blk t).view.emb (ix2 k q) = ix2 k q := by
    funext a; apply Fin.ext
    match a with
    | ⟨0, _⟩ => show win3_1.index t (0 : Fin 2) * 1 + 1 * k.val = k.val; omega
    | ⟨1, _⟩ => show win3_1.index t (1 : Fin 2) * 128 + 1 * q.val = q.val; omega
  rw [h]

/-- Window 2's block at every point is its whole array. -/
theorem iblk3_2_apply (c : Dev nD) (t : Fin cfg3.N) (k : Fin 1) (q : Fin 128) :
    (iblk3 V c 2 t : Vec Ideal S1x128 .f32) (ix2 k q) = (V c (Pipeline.arrRef spec3 2) : S1x128.Idx → EReal) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  unfold iblk3
  rw [View.read_apply]
  show V c (Pipeline.arrRef spec3 2) (((cfg3.win 2).blk t).view.emb (ix2 k q)) = V c (Pipeline.arrRef spec3 2) (ix2 k q)
  have h : ((cfg3.win 2).blk t).view.emb (ix2 k q) = ix2 k q := by
    funext a; apply Fin.ext
    match a with
    | ⟨0, _⟩ => show win3_2.index t (0 : Fin 2) * 1 + 1 * k.val = k.val; omega
    | ⟨1, _⟩ => show win3_2.index t (1 : Fin 2) * 128 + 1 * q.val = q.val; omega
  rw [h]

/-- Window 5's block at every point is its whole array. -/
theorem iblk3_5_apply (c : Dev nD) (t : Fin cfg3.N) (k : Fin 384) (q : Fin 256) :
    (iblk3 V c 5 t : Vec Ideal S384x256 .f32) (ix2 k q) = (V c (Pipeline.arrRef spec3 5) : S384x256.Idx → EReal) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  unfold iblk3
  rw [View.read_apply]
  show V c (Pipeline.arrRef spec3 5) (((cfg3.win 5).blk t).view.emb (ix2 k q)) = V c (Pipeline.arrRef spec3 5) (ix2 k q)
  have h : ((cfg3.win 5).blk t).view.emb (ix2 k q) = ix2 k q := by
    funext a; apply Fin.ext
    match a with
    | ⟨0, _⟩ => show win3_5.index t (0 : Fin 2) * 384 + 1 * k.val = k.val; omega
    | ⟨1, _⟩ => show win3_5.index t (1 : Fin 2) * 256 + 1 * q.val = q.val; omega
  rw [h]

/-- Window 6's block at every point is its whole array. -/
theorem iblk3_6_apply (c : Dev nD) (t : Fin cfg3.N) (k : Fin 1) (q : Fin 256) :
    (iblk3 V c 6 t : Vec Ideal S1x256 .f32) (ix2 k q) = (V c (Pipeline.arrRef spec3 6) : S1x256.Idx → EReal) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  unfold iblk3
  rw [View.read_apply]
  show V c (Pipeline.arrRef spec3 6) (((cfg3.win 6).blk t).view.emb (ix2 k q)) = V c (Pipeline.arrRef spec3 6) (ix2 k q)
  have h : ((cfg3.win 6).blk t).view.emb (ix2 k q) = ix2 k q := by
    funext a; apply Fin.ext
    match a with
    | ⟨0, _⟩ => show win3_6.index t (0 : Fin 2) * 1 + 1 * k.val = k.val; omega
    | ⟨1, _⟩ => show win3_6.index t (1 : Fin 2) * 256 + 1 * q.val = q.val; omega
  rw [h]

/-- Window 7's block at every point is its whole array. -/
theorem iblk3_7_apply (c : Dev nD) (t : Fin cfg3.N) (k : Fin 256) (q : Fin 128) :
    (iblk3 V c 7 t : Vec Ideal S256x128 .f32) (ix2 k q) = (V c (Pipeline.arrRef spec3 7) : S256x128.Idx → EReal) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  unfold iblk3
  rw [View.read_apply]
  show V c (Pipeline.arrRef spec3 7) (((cfg3.win 7).blk t).view.emb (ix2 k q)) = V c (Pipeline.arrRef spec3 7) (ix2 k q)
  have h : ((cfg3.win 7).blk t).view.emb (ix2 k q) = ix2 k q := by
    funext a; apply Fin.ext
    match a with
    | ⟨0, _⟩ => show win3_7.index t (0 : Fin 2) * 256 + 1 * k.val = k.val; omega
    | ⟨1, _⟩ => show win3_7.index t (1 : Fin 2) * 128 + 1 * q.val = q.val; omega
  rw [h]

/-- Window 8's block at every point is its whole array. -/
theorem iblk3_8_apply (c : Dev nD) (t : Fin cfg3.N) (k : Fin 1) (q : Fin 128) :
    (iblk3 V c 8 t : Vec Ideal S1x128 .f32) (ix2 k q) = (V c (Pipeline.arrRef spec3 8) : S1x128.Idx → EReal) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  unfold iblk3
  rw [View.read_apply]
  show V c (Pipeline.arrRef spec3 8) (((cfg3.win 8).blk t).view.emb (ix2 k q)) = V c (Pipeline.arrRef spec3 8) (ix2 k q)
  have h : ((cfg3.win 8).blk t).view.emb (ix2 k q) = ix2 k q := by
    funext a; apply Fin.ext
    match a with
    | ⟨0, _⟩ => show win3_8.index t (0 : Fin 2) * 1 + 1 * k.val = k.val; omega
    | ⟨1, _⟩ => show win3_8.index t (1 : Fin 2) * 128 + 1 * q.val = q.val; omega
  rw [h]

/-- The row of the arrays that row `p` of point `t`'s blocks is. -/
theorem row_of3 (t : Fin cfg3.N) (p : Fin 4000) : ∃ r : Fin 640000, r.val = t.val * 4000 + p.val := by
  have ht : t.val < 160 := Nat.lt_of_lt_of_eq t.isLt (N_3 : cfg3.N = 160)
  exact ⟨⟨t.val * 4000 + p.val, by have := p.isLt; omega⟩, rfl⟩

/-- What point `t` writes back to the edge-row array is block `t` of `G3_9` of the input arrays. -/
theorem flushed3_9 (c : Dev nD) (t : Fin cfg3.N) :
    (dat3 (F := Ideal) V c).flushed 9 t
      = ((cfg3.win 9).blk t).view.read (Elt Ideal) (G3_9 (V c (Pipeline.arrRef spec3 0)) (V c (Pipeline.arrRef spec3 1)) (V c (Pipeline.arrRef spec3 2))) := by
  show (cfg3.win 9).cut (grid3.coords t) ((dat3 (F := Ideal) V c).after 9 t) = _
  rw [after3_9]
  unfold out3_9
  rw [View.canon_unit_zero hz3]
  simp only [View.ld_unit_zero (S := S4000x128) hz3, View.ld_unit_zero (S := S1x128) hz3, View.ld_unit_zero (S := S384x256) hz3, View.ld_unit_zero (S := S1x256) hz3, View.ld_unit_zero (S := S256x128) hz3]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  funext j
  obtain ⟨p, q, rfl⟩ : ∃ (p : Fin 4000) (q : Fin 128), j = ix2 p q := ⟨j 0, j 1, eq_ix2 (n0 := 4000) (n1 := 128) j⟩
  obtain ⟨r, hr⟩ := row_of3 t p
  show k3_pay2 (iblk3 V c 0 t) (iblk3 V c 1 t) (iblk3 V c 2 t) (ix2 p q)
    = G3_9 (V c (Pipeline.arrRef spec3 0)) (V c (Pipeline.arrRef spec3 1)) (V c (Pipeline.arrRef spec3 2)) (((cfg3.win 9).blk t).view.emb (ix2 p q))
  have he : ((cfg3.win 9).blk t).view.emb (ix2 p q) = ix2 r q := by
    funext a; apply Fin.ext
    match a with
    | ⟨0, _⟩ => show win3_9.index t (0 : Fin 2) * 4000 + 1 * p.val = r.val; omega
    | ⟨1, _⟩ => show win3_9.index t (1 : Fin 2) * 128 + 1 * q.val = q.val; omega
  rw [he]
  exact eout3_point (V c (Pipeline.arrRef spec3 0)) (V c (Pipeline.arrRef spec3 1)) (V c (Pipeline.arrRef spec3 2)) r p (iblk3 V c 0 t) (iblk3 V c 1 t) (iblk3 V c 2 t)
    (fun q => iblk3_0_apply V c t p q r hr) (fun q => iblk3_1_apply V c t 0 q) (fun q => iblk3_2_apply V c t 0 q) q

set_option maxHeartbeats 1000000 in
/-- What point `t` writes back to the score array is block `t` of `G3_10` of the input arrays. -/
theorem flushed3_10 (c : Dev nD) (t : Fin cfg3.N) :
    (dat3 (F := Ideal) V c).flushed 10 t
      = ((cfg3.win 10).blk t).view.read (Elt Ideal) (G3_10 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) := by
  show (cfg3.win 10).cut (grid3.coords t) ((dat3 (F := Ideal) V c).after 10 t) = _
  rw [after3_10]
  unfold out3_10
  rw [View.canon_unit_zero hz3]
  simp only [View.ld_unit_zero (S := S4000x128) hz3, View.ld_unit_zero (S := S1x128) hz3, View.ld_unit_zero (S := S384x256) hz3, View.ld_unit_zero (S := S1x256) hz3, View.ld_unit_zero (S := S256x128) hz3]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  funext j
  obtain ⟨p, q, rfl⟩ : ∃ (p : Fin 4000) (q : Fin 1), j = ix2 p q := ⟨j 0, j 1, eq_ix2 (n0 := 4000) (n1 := 1) j⟩
  obtain rfl : q = 0 := Subsingleton.elim _ _
  obtain ⟨r, hr⟩ := row_of3 t p
  show k3_pay1 (k3_pay3 (iblk3 V c 0 t) (iblk3 V c 1 t) (iblk3 V c 2 t) (iblk3 V c 3 t) (iblk3 V c 4 t) (iblk3 V c 5 t) (iblk3 V c 6 t) (iblk3 V c 7 t) (iblk3 V c 8 t)) (ix2 p 0)
    = G3_10 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (((cfg3.win 10).blk t).view.emb (ix2 p 0))
  have he : ((cfg3.win 10).blk t).view.emb (ix2 p (0 : Fin 1)) = ix2 r (0 : Fin 1) := by
    funext a; apply Fin.ext
    match a with
    | ⟨0, _⟩ => show win3_10.index t (0 : Fin 2) * 4000 + 1 * p.val = r.val; omega
    | ⟨1, _⟩ => show win3_10.index t (1 : Fin 2) * 1 + 1 * 0 = 0; omega
  rw [he]
  exact logit3_point (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) r p
    (iblk3 V c 0 t) (iblk3 V c 1 t) (iblk3 V c 2 t) (iblk3 V c 3 t) (iblk3 V c 4 t) (iblk3 V c 5 t) (iblk3 V c 6 t) (iblk3 V c 7 t) (iblk3 V c 8 t)
    (fun q => iblk3_0_apply V c t p q r hr) (fun q => iblk3_1_apply V c t 0 q) (fun q => iblk3_2_apply V c t 0 q)
    (fun q => iblk3_3_apply V c t p q r hr) (fun q => iblk3_4_apply V c t p q r hr)
    (fun k j => iblk3_5_apply V c t k j) (fun j => iblk3_6_apply V c t 0 j) (fun j => iblk3_7_apply V c t j 0)
    (iblk3_8_apply V c t 0 0)

/-- An index of output array 9 is in point `t`'s block iff each coordinate is in the block's range on its axis. -/
theorem mem_blk3_9 (t : Fin cfg3.N) (i : S640000x128.Idx) :
    i ∈ ((cfg3.win 9).blk t).view.set ↔ ∀ a : Fin 2, win3_9.index t a * S4000x128.size a ≤ (i a).val ∧ (i a).val < win3_9.index t a * S4000x128.size a + S4000x128.size a := by
  show i ∈ ((View.whole main_v80_0).slice (win3_9.rect t)).set ↔ _
  rw [View.set_slice_whole, Rect.mem_set_unit]
  exact Iff.rfl

/-- Every row of output array 9 is in the block of the point its row number over 4000 names. -/
theorem covered3_9 (i : S640000x128.Idx) :
    ∃ t : Fin cfg3.N, (cfg3.win 9).flush t = true ∧ i ∈ ((cfg3.win 9).blk t).view.set := by
  have hi0 : (i 0).val < 640000 := (i 0).isLt
  have hi1 : (i 1).val < 128 := (i 1).isLt
  obtain ⟨t, ht⟩ : ∃ t : Fin cfg3.N, t.val = (i 0).val / 4000 :=
    ⟨⟨(i 0).val / 4000, by rw [show cfg3.N = 160 from N_3]; omega⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  refine ⟨t, flush3_9 t, ?_⟩
  rw [mem_blk3_9]
  intro a
  match a with
  | ⟨0, _⟩ => show win3_9.index t (0 : Fin 2) * 4000 ≤ (i 0).val ∧ (i 0).val < win3_9.index t (0 : Fin 2) * 4000 + 4000; omega
  | ⟨1, _⟩ => show win3_9.index t (1 : Fin 2) * 128 ≤ (i 1).val ∧ (i 1).val < win3_9.index t (1 : Fin 2) * 128 + 128; omega

/-- An index of output array 10 is in point `t`'s block iff each coordinate is in the block's range on its axis. -/
theorem mem_blk3_10 (t : Fin cfg3.N) (i : S640000x1.Idx) :
    i ∈ ((cfg3.win 10).blk t).view.set ↔ ∀ a : Fin 2, win3_10.index t a * S4000x1.size a ≤ (i a).val ∧ (i a).val < win3_10.index t a * S4000x1.size a + S4000x1.size a := by
  show i ∈ ((View.whole main_v80_1).slice (win3_10.rect t)).set ↔ _
  rw [View.set_slice_whole, Rect.mem_set_unit]
  exact Iff.rfl

/-- Every row of output array 10 is in the block of the point its row number over 4000 names. -/
theorem covered3_10 (i : S640000x1.Idx) :
    ∃ t : Fin cfg3.N, (cfg3.win 10).flush t = true ∧ i ∈ ((cfg3.win 10).blk t).view.set := by
  have hi0 : (i 0).val < 640000 := (i 0).isLt
  have hi1 : (i 1).val < 1 := (i 1).isLt
  obtain ⟨t, ht⟩ : ∃ t : Fin cfg3.N, t.val = (i 0).val / 4000 :=
    ⟨⟨(i 0).val / 4000, by rw [show cfg3.N = 160 from N_3]; omega⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts3 t
  refine ⟨t, flush3_10 t, ?_⟩
  rw [mem_blk3_10]
  intro a
  match a with
  | ⟨0, _⟩ => show win3_10.index t (0 : Fin 2) * 4000 ≤ (i 0).val ∧ (i 0).val < win3_10.index t (0 : Fin 2) * 4000 + 4000; omega
  | ⟨1, _⟩ => show win3_10.index t (1 : Fin 2) * 1 ≤ (i 1).val ∧ (i 1).val < win3_10.index t (1 : Fin 2) * 1 + 1; omega

/-- The edge-row array after the whole grid. -/
theorem arr3_9 (c : Dev nD) : (dat3 (F := Ideal) V c).arrAt 9 cfg3.N
    = G3_9 (V c (Pipeline.arrRef spec3 0)) (V c (Pipeline.arrRef spec3 1)) (V c (Pipeline.arrRef spec3 2)) :=
  (dat3 (F := Ideal) V c).arrAt_eq_of_cover 9 (G3_9 (V c (Pipeline.arrRef spec3 0)) (V c (Pipeline.arrRef spec3 1)) (V c (Pipeline.arrRef spec3 2))) (fun t _ => flushed3_9 V c t) covered3_9

/-- The score array after the whole grid. -/
theorem arr3_10 (c : Dev nD) : (dat3 (F := Ideal) V c).arrAt 10 cfg3.N
    = G3_10 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (dat3 (F := Ideal) V c).arrAt_eq_of_cover 10 (G3_10 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)))
    (fun t _ => flushed3_10 V c t) covered3_10

end Cert.KernelIdeal.Hand

end
-- ==== Proof.KTerms.lean ====
/-
  The three results of the program as closed expressions of its twenty-one argument arrays: each region's output arrays as
  the region's function of its inputs, each host stretch as its printed operations composed, named piece by piece.
-/
import proofs.«143299_j13005160972635_2_alg».proof.Proof.KDefs
import proofs.«143299_j13005160972635_2_alg».proof.Proof.Val0
import proofs.«143299_j13005160972635_2_alg».proof.Proof.Val1
import proofs.«143299_j13005160972635_2_alg».proof.Proof.Val2
import proofs.«143299_j13005160972635_2_alg».proof.Proof.Val3

set_option maxRecDepth 16384

noncomputable section

namespace Cert.KernelIdeal.Hand

open Idealize.ShloMosaic Idealize.ShloMosaic.TcCoe
open Idealize.SL.Sem
open Cert.KernelIdeal Cert.KernelIdeal.Gen

variable (m : (ℓ : Loc nD τ sig) → Buf (Elt Ideal) ℓ) (c : Dev nD)

set_option backward.isDefEq.respectTransparency.types false

/-- The edges' source nodes: row 0 of the index pair array. -/
def kSrc : (⟨S640000, .i32⟩ : BufTy).Contents (Elt Ideal) :=
  shapeCast S640000 (extractStridedSlice S1x640000 ![0, 0] (m ((c : Thread nD τ).loc main_arg2) : (⟨S2x640000, .i32⟩ : BufTy).Contents (Elt Ideal)) slices_S2x640000_S1x640000_0_0) shapeCasts_S1x640000_S640000

/-- The edges' destination nodes: row 1 of the index pair array. -/
def kDst : (⟨S640000, .i32⟩ : BufTy).Contents (Elt Ideal) :=
  shapeCast S640000 (extractStridedSlice S1x640000 ![1, 0] (m ((c : Thread nD τ).loc main_arg2) : (⟨S2x640000, .i32⟩ : BufTy).Contents (Elt Ideal)) slices_S2x640000_S1x640000_1_0) shapeCasts_S1x640000_S640000

/-- The four node weight matrices side by side. -/
def kWcat : (⟨S128x512, .f32⟩ : BufTy).Contents (Elt Ideal) :=
  concatenate S128x512 1 [⟨S128x128, (m ((c : Thread nD τ).loc main_arg3) : (⟨S128x128, .f32⟩ : BufTy).Contents (Elt Ideal))⟩, ⟨S128x128, (m ((c : Thread nD τ).loc main_arg9) : (⟨S128x128, .f32⟩ : BufTy).Contents (Elt Ideal))⟩, ⟨S128x128, (m ((c : Thread nD τ).loc main_arg5) : (⟨S128x128, .f32⟩ : BufTy).Contents (Elt Ideal))⟩, ⟨S128x128, (m ((c : Thread nD τ).loc main_arg11) : (⟨S128x128, .f32⟩ : BufTy).Contents (Elt Ideal))⟩] concatenates_S128x128_S128x128_S128x128_S128x128_S128x512_d1

/-- The four node biases end to end, as one row. -/
def kBcat : (⟨S1x512, .f32⟩ : BufTy).Contents (Elt Ideal) :=
  shapeCast S1x512 (concatenate S512 0 [⟨S128, (m ((c : Thread nD τ).loc main_arg4) : (⟨S128, .f32⟩ : BufTy).Contents (Elt Ideal))⟩, ⟨S128, (m ((c : Thread nD τ).loc main_arg10) : (⟨S128, .f32⟩ : BufTy).Contents (Elt Ideal))⟩, ⟨S128, (m ((c : Thread nD τ).loc main_arg6) : (⟨S128, .f32⟩ : BufTy).Contents (Elt Ideal))⟩, ⟨S128, (m ((c : Thread nD τ).loc main_arg12) : (⟨S128, .f32⟩ : BufTy).Contents (Elt Ideal))⟩] concatenates_S128_S128_S128_S128_S512_d0) shapeCasts_S512_S1x512

/-- The node projection: region 0's output. -/
def kProj : (⟨S40000x512, .f32⟩ : BufTy).Contents (Elt Ideal) :=
  G0_3 (m ((c : Thread nD τ).loc main_arg0) : (⟨S40000x128, .f32⟩ : BufTy).Contents (Elt Ideal)) (kWcat m c) (kBcat m c)

/-- The second quarter of the projection gathered at the edges' destination nodes. -/
def kDxd : (⟨S640000x128, .f32⟩ : BufTy).Contents (Elt Ideal) :=
  Host.gather gather_S40000x128_S640000x1_S640000x128_1_0_n_n_0_1_1128
    (extractStridedSlice S40000x128 ![0, 128] (kProj m c) slices_S40000x512_S40000x128_0_128)
    (broadcastInDim S640000x1 ![0] bcast_S640000_S640000x1_0 (select (cmpi .slt (kDst m c) (broadcastInDim S640000 ![] bcast_S_S640000 (constantI S_ 32 0#32))) (addi (kDst m c) (broadcastInDim S640000 ![] bcast_S_S640000 (constantI S_ 32 40000#32))) (kDst m c)))

/-- The second half of the projection gathered at the edges' source nodes. -/
def kBex : (⟨S640000x256, .f32⟩ : BufTy).Contents (Elt Ideal) :=
  Host.gather gather_S40000x256_S640000x1_S640000x256_1_0_n_n_0_1_1256
    (extractStridedSlice S40000x256 ![0, 256] (kProj m c) slices_S40000x512_S40000x256_0_256)
    (broadcastInDim S640000x1 ![0] bcast_S640000_S640000x1_0 (select (cmpi .slt (kSrc m c) (broadcastInDim S640000 ![] bcast_S_S640000 (constantI S_ 32 0#32))) (addi (kSrc m c) (broadcastInDim S640000 ![] bcast_S_S640000 (constantI S_ 32 40000#32))) (kSrc m c)))

/-- The edge pre-activation: region 1's first output. -/
def kEij : (⟨S640000x128, .f32⟩ : BufTy).Contents (Elt Ideal) :=
  G1_5 (m ((c : Thread nD τ).loc main_arg1) : (⟨S640000x128, .f32⟩ : BufTy).Contents (Elt Ideal)) (m ((c : Thread nD τ).loc main_arg7) : (⟨S128x128, .f32⟩ : BufTy).Contents (Elt Ideal)) (shapeCast S1x128 (m ((c : Thread nD τ).loc main_arg8) : (⟨S128, .f32⟩ : BufTy).Contents (Elt Ideal)) shapeCasts_S128_S1x128) (kDxd m c) (kBex m c)

/-- Its logistic: region 1's second output. -/
def kSig : (⟨S640000x128, .f32⟩ : BufTy).Contents (Elt Ideal) :=
  G1_6 (m ((c : Thread nD τ).loc main_arg1) : (⟨S640000x128, .f32⟩ : BufTy).Contents (Elt Ideal)) (m ((c : Thread nD τ).loc main_arg7) : (⟨S128x128, .f32⟩ : BufTy).Contents (Elt Ideal)) (shapeCast S1x128 (m ((c : Thread nD τ).loc main_arg8) : (⟨S128, .f32⟩ : BufTy).Contents (Elt Ideal)) shapeCasts_S128_S1x128) (kDxd m c) (kBex m c)

/-- The gated messages: region 1's third output. -/
def kNumt : (⟨S640000x128, .f32⟩ : BufTy).Contents (Elt Ideal) :=
  G1_7 (m ((c : Thread nD τ).loc main_arg1) : (⟨S640000x128, .f32⟩ : BufTy).Contents (Elt Ideal)) (m ((c : Thread nD τ).loc main_arg7) : (⟨S128x128, .f32⟩ : BufTy).Contents (Elt Ideal)) (shapeCast S1x128 (m ((c : Thread nD τ).loc main_arg8) : (⟨S128, .f32⟩ : BufTy).Contents (Elt Ideal)) shapeCasts_S128_S1x128) (kDxd m c) (kBex m c)

/-- The node update before its normalisation. -/
def kPre : (⟨S40000x128, .f32⟩ : BufTy).Contents (Elt Ideal) :=
  preK (F := Ideal) (extractStridedSlice S40000x128 ![0, 0] (kProj m c) slices_S40000x512_S40000x128_0_0) (kNumt m c) (kSig m c) (kDst m c)

/-- Its column means. -/
def kMu : (⟨S128, .f32⟩ : BufTy).Contents (Elt Ideal) :=
  meanK40000 (F := Ideal) (kPre m c)

/-- The reciprocal square roots of its column variances offset by a small constant. -/
def kInv : (⟨S128, .f32⟩ : BufTy).Contents (Elt Ideal) :=
  Host.rsqrt (F := Ideal) (s := S128) (φ := .f32) (addf (F := Ideal) (s := S128) (φ := .f32) (varK40000 (F := Ideal) (kPre m c) (constantI S_ 32 0#32)) (broadcastInDim S128 ![] bcast_S_S128 (constant (F := Ideal) S_ .f32 0x3727C5AC#32)))

/-- The first result: the normalised node update, region 2's output. -/
def kXout : (⟨S40000x128, .f32⟩ : BufTy).Contents (Elt Ideal) :=
  G2_3 (kPre m c) (shapeCast S1x128 (mulf (F := Ideal) (s := S128) (φ := .f32) (kInv m c) (m ((c : Thread nD τ).loc main_arg13) : (⟨S128, .f32⟩ : BufTy).Contents (Elt Ideal))) shapeCasts_S128_S1x128)
    (shapeCast S1x128 (subf (F := Ideal) (s := S128) (φ := .f32) (m ((c : Thread nD τ).loc main_arg14) : (⟨S128, .f32⟩ : BufTy).Contents (Elt Ideal)) (mulf (F := Ideal) (s := S128) (φ := .f32) (mulf (F := Ideal) (s := S128) (φ := .f32) (kMu m c) (kInv m c)) (m ((c : Thread nD τ).loc main_arg13) : (⟨S128, .f32⟩ : BufTy).Contents (Elt Ideal)))) shapeCasts_S128_S1x128)

/-- The column means of the edge pre-activation. -/
def kMuE : (⟨S128, .f32⟩ : BufTy).Contents (Elt Ideal) :=
  meanK640000 (F := Ideal) (kEij m c)

/-- The reciprocal square roots of its column variances offset by a small constant. -/
def kInvE : (⟨S128, .f32⟩ : BufTy).Contents (Elt Ideal) :=
  Host.rsqrt (F := Ideal) (s := S128) (φ := .f32) (addf (F := Ideal) (s := S128) (φ := .f32) (varK640000 (F := Ideal) (kEij m c) (constantI S_ 32 0#32)) (broadcastInDim S128 ![] bcast_S_S128 (constant (F := Ideal) S_ .f32 0x3727C5AC#32)))

/-- The edge normalisation's scale row. -/
def kScaleE : (⟨S1x128, .f32⟩ : BufTy).Contents (Elt Ideal) :=
  shapeCast S1x128 (mulf (F := Ideal) (s := S128) (φ := .f32) (kInvE m c) (m ((c : Thread nD τ).loc main_arg15) : (⟨S128, .f32⟩ : BufTy).Contents (Elt Ideal))) shapeCasts_S128_S1x128

/-- The edge normalisation's shift row. -/
def kShiftE : (⟨S1x128, .f32⟩ : BufTy).Contents (Elt Ideal) :=
  shapeCast S1x128 (subf (F := Ideal) (s := S128) (φ := .f32) (m ((c : Thread nD τ).loc main_arg16) : (⟨S128, .f32⟩ : BufTy).Contents (Elt Ideal)) (mulf (F := Ideal) (s := S128) (φ := .f32) (mulf (F := Ideal) (s := S128) (φ := .f32) (kMuE m c) (kInvE m c)) (m ((c : Thread nD τ).loc main_arg15) : (⟨S128, .f32⟩ : BufTy).Contents (Elt Ideal)))) shapeCasts_S128_S1x128

/-- The second result: the normalised edge rows, region 3's first output. -/
def kEout : (⟨S640000x128, .f32⟩ : BufTy).Contents (Elt Ideal) :=
  G3_9 (kEij m c) (kScaleE m c) (kShiftE m c)

/-- The normalised node rows gathered at the edges' source nodes. -/
def kXs : (⟨S640000x128, .f32⟩ : BufTy).Contents (Elt Ideal) :=
  extractStridedSlice S640000x128 ![0, 0]
    (Host.gather gather_S40000x128_S1280000x1_S1280000x128_1_0_n_n_0_1_1128 (kXout m c) (broadcastInDim S1280000x1 ![0] bcast_S1280000_S1280000x1_0 (select (cmpi .slt (concatenate S1280000 0 [⟨S640000, kSrc m c⟩, ⟨S640000, kDst m c⟩] concatenates_S640000_S640000_S1280000_d0) (broadcastInDim S1280000 ![] bcast_S_S1280000 (constantI S_ 32 0#32))) (addi (concatenate S1280000 0 [⟨S640000, kSrc m c⟩, ⟨S640000, kDst m c⟩] concatenates_S640000_S640000_S1280000_d0) (broadcastInDim S1280000 ![] bcast_S_S1280000 (constantI S_ 32 40000#32))) (concatenate S1280000 0 [⟨S640000, kSrc m c⟩, ⟨S640000, kDst m c⟩] concatenates_S640000_S640000_S1280000_d0))))
    slices_S1280000x128_S640000x128_0_0

/-- The normalised node rows gathered at the edges' destination nodes. -/
def kXd : (⟨S640000x128, .f32⟩ : BufTy).Contents (Elt Ideal) :=
  extractStridedSlice S640000x128 ![640000, 0]
    (Host.gather gather_S40000x128_S1280000x1_S1280000x128_1_0_n_n_0_1_1128 (kXout m c) (broadcastInDim S1280000x1 ![0] bcast_S1280000_S1280000x1_0 (select (cmpi .slt (concatenate S1280000 0 [⟨S640000, kSrc m c⟩, ⟨S640000, kDst m c⟩] concatenates_S640000_S640000_S1280000_d0) (broadcastInDim S1280000 ![] bcast_S_S1280000 (constantI S_ 32 0#32))) (addi (concatenate S1280000 0 [⟨S640000, kSrc m c⟩, ⟨S640000, kDst m c⟩] concatenates_S640000_S640000_S1280000_d0) (broadcastInDim S1280000 ![] bcast_S_S1280000 (constantI S_ 32 40000#32))) (concatenate S1280000 0 [⟨S640000, kSrc m c⟩, ⟨S640000, kDst m c⟩] concatenates_S640000_S640000_S1280000_d0))))
    slices_S1280000x128_S640000x128_640000_0

/-- The hidden layer's bias as one row. -/
def kB1 : (⟨S1x256, .f32⟩ : BufTy).Contents (Elt Ideal) :=
  shapeCast S1x256 (m ((c : Thread nD τ).loc main_arg18) : (⟨S256, .f32⟩ : BufTy).Contents (Elt Ideal)) shapeCasts_S256_S1x256

/-- The score layer's weight column padded with zero columns. -/
def kW2pad : (⟨S256x128, .f32⟩ : BufTy).Contents (Elt Ideal) :=
  concatenate S256x128 1 [⟨S256x1, (m ((c : Thread nD τ).loc main_arg19) : (⟨S256x1, .f32⟩ : BufTy).Contents (Elt Ideal))⟩, ⟨S256x127, broadcastInDim S256x127 ![] bcast_S_S256x127 (constant (F := Ideal) S_ .f32 0x00000000#32)⟩] concatenates_S256x1_S256x127_S256x128_d1

/-- The score layer's bias padded with zeros, as one row. -/
def kB2pad : (⟨S1x128, .f32⟩ : BufTy).Contents (Elt Ideal) :=
  shapeCast S1x128 (concatenate S128 0 [⟨S1, (m ((c : Thread nD τ).loc main_arg20) : (⟨S1, .f32⟩ : BufTy).Contents (Elt Ideal))⟩, ⟨S127, broadcastInDim S127 ![] bcast_S_S127 (constant (F := Ideal) S_ .f32 0x00000000#32)⟩] concatenates_S1_S127_S128_d0) shapeCasts_S128_S1x128

/-- The third result: the edge scores, region 3's second output. -/
def kScores : (⟨S640000x1, .f32⟩ : BufTy).Contents (Elt Ideal) :=
  G3_10 (kEij m c) (kScaleE m c) (kShiftE m c) (kXs m c) (kXd m c) (m ((c : Thread nD τ).loc main_arg17) : (⟨S384x256, .f32⟩ : BufTy).Contents (Elt Ideal)) (kB1 m c) (kW2pad m c) (kB2pad m c)

end Cert.KernelIdeal.Hand
-- ==== Proof.LibNary3.lean ====
/-
  A host operation with a LITERAL family of three operand references (a concatenation of three pieces): its result
  with each operand's contents at its own reference, so that reading a line of host operations goes on through the
  three operands. Stated for three references exactly as the library states it for four; with the general statement
  the operands stay under a binder, where their references are no literals and nothing more can be read.
  Also the one-pass reading of a line of host operations with this statement in the general one's place.
-/
import Idealize.ShloMosaic.Lib.StableHlo.Run

noncomputable section

namespace Cert.Nary3

open Idealize.ShloMosaic Idealize.ShloMosaic.StableHlo Idealize.ShloMosaic.TcCoe

variable {τ : Topo} {sig : RefSig} {Val : EltTy → Type}
variable {x a b y : Ref sig .tc}

/-- The result of an operation over the three literal references `x`, `a`, `b`: its function at the three
    operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, the result reference un-indexed for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- What one buffer holds after a literal line of host operations, as ONE simp pass: each operation's result at its
    own result buffer is its function's value, at any other reference what was there; a three-operand operation by
    `nary3_result'`. -/
macro "after_results_simp3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Cert.Nary3

end
-- ==== Proof.RefRead.lean ====
/-
  What each stage of the reference program leaves in its key buffers, read from an arbitrary entry valuation: the
  stage's operations' functions applied, as the stage composes them, to the entry contents of the buffers written
  before the stage.
-/
import proofs.«143299_j13005160972635_2_alg».proof.Proof.RefOps
import proofs.«143299_j13005160972635_2_alg».proof.Proof.LibNary3

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd Host.gather Host.scatterAdd

/-! ## Stage 0 -/

theorem stage0_v1 (W : Valuation τ sig (Elt F)) :
    after stage0 W (Proc.devRef .tc main_v1)
      = (shapeCast S640000 (extractStridedSlice S1x640000 ![0, 0] ((W (Proc.devRef .tc main_arg2) : (⟨S2x640000, .i32⟩ : BufTy).Contents (Elt F))) slices_S2x640000_S1x640000_0_0 : (⟨S1x640000, .i32⟩ : BufTy).Contents (Elt F)) shapeCasts_S1x640000_S640000 : (⟨S640000, .i32⟩ : BufTy).Contents (Elt F)) := by
  after_results_simp3 <;> rfl

theorem stage0_v3 (W : Valuation τ sig (Elt F)) :
    after stage0 W (Proc.devRef .tc main_v3)
      = (shapeCast S640000 (extractStridedSlice S1x640000 ![1, 0] ((W (Proc.devRef .tc main_arg2) : (⟨S2x640000, .i32⟩ : BufTy).Contents (Elt F))) slices_S2x640000_S1x640000_1_0 : (⟨S1x640000, .i32⟩ : BufTy).Contents (Elt F)) shapeCasts_S1x640000_S640000 : (⟨S640000, .i32⟩ : BufTy).Contents (Elt F)) := by
  after_results_simp3 <;> rfl

theorem stage0_v7 (W : Valuation τ sig (Elt F)) :
    after stage0 W (Proc.devRef .tc main_v7)
      = (addf ((Host.dotGeneral dot_S40000x128_S128x128_S40000x128_1_0_0_1_n_n none ((W (Proc.devRef .tc main_arg0) : (⟨S40000x128, .f32⟩ : BufTy).Contents (Elt F))) ((W (Proc.devRef .tc main_arg3) : (⟨S128x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((W (Proc.devRef .tc main_arg4) : (⟨S128, .f32⟩ : BufTy).Contents (Elt F))) : (⟨S1x128, .f32⟩ : BufTy).Contents (Elt F))) : (⟨S40000x128, .f32⟩ : BufTy).Contents (Elt F))) : (⟨S40000x128, .f32⟩ : BufTy).Contents (Elt F)) := by
  after_results_simp3 <;> rfl

theorem stage0_v11 (W : Valuation τ sig (Elt F)) :
    after stage0 W (Proc.devRef .tc main_v11)
      = (addf ((Host.dotGeneral dot_S40000x128_S128x128_S40000x128_1_0_0_1_n_n none ((W (Proc.devRef .tc main_arg0) : (⟨S40000x128, .f32⟩ : BufTy).Contents (Elt F))) ((W (Proc.devRef .tc main_arg5) : (⟨S128x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((W (Proc.devRef .tc main_arg6) : (⟨S128, .f32⟩ : BufTy).Contents (Elt F))) : (⟨S1x128, .f32⟩ : BufTy).Contents (Elt F))) : (⟨S40000x128, .f32⟩ : BufTy).Contents (Elt F))) : (⟨S40000x128, .f32⟩ : BufTy).Contents (Elt F)) := by
  after_results_simp3 <;> rfl

theorem stage0_v15 (W : Valuation τ sig (Elt F)) :
    after stage0 W (Proc.devRef .tc main_v15)
      = (addf ((Host.dotGeneral dot_S640000x128_S128x128_S640000x128_1_0_0_1_n_n none ((W (Proc.devRef .tc main_arg1) : (⟨S640000x128, .f32⟩ : BufTy).Contents (Elt F))) ((W (Proc.devRef .tc main_arg7) : (⟨S128x128, .f32⟩ : BufTy).Contents (Elt F))) : (⟨S640000x128, .f32⟩ : BufTy).Contents (Elt F))) ((broadcastInDim S640000x128 ![0, 1] bcast_S1x128_S640000x128_0_1 ((broadcastInDim S1x128 ![1] bcast_S128_S1x128_1 ((W (Proc.devRef .tc main_arg8) : (⟨S128, .f32⟩ : BufTy).Contents (Elt F))) : (⟨S1x128, .f32⟩ : BufTy).Contents (Elt F))) : (⟨S640000x128, .f32⟩ : BufTy).Contents (Elt F))) : (⟨S640000x128, .f32⟩ : BufTy).Contents (Elt F)) := by
  after_results_simp3 <;> rfl

theorem stage0_v19 (W : Valuation τ sig (Elt F)) :
    after stage0 W (Proc.devRef .tc main_v19)
      = (addf ((Host.dotGeneral dot_S40000x128_S128x128_S40000x128_1_0_0_1_n_n none ((W (Proc.devRef .tc main_arg0) : (⟨S40000x128, .f32⟩ : BufTy).Contents (Elt F))) ((W (Proc.devRef .tc main_arg9) : (⟨S128x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((W (Proc.devRef .tc main_arg10) : (⟨S128, .f32⟩ : BufTy).Contents (Elt F))) : (⟨S1x128, .f32⟩ : BufTy).Contents (Elt F))) : (⟨S40000x128, .f32⟩ : BufTy).Contents (Elt F))) : (⟨S40000x128, .f32⟩ : BufTy).Contents (Elt F)) := by
  after_results_simp3 <;> rfl

theorem stage0_v23 (W : Valuation τ sig (Elt F)) :
    after stage0 W (Proc.devRef .tc main_v23)
      = (addf ((Host.dotGeneral dot_S40000x128_S128x128_S40000x128_1_0_0_1_n_n none ((W (Proc.devRef .tc main_arg0) : (⟨S40000x128, .f32⟩ : BufTy).Contents (Elt F))) ((W (Proc.devRef .tc main_arg11) : (⟨S128x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((W (Proc.devRef .tc main_arg12) : (⟨S128, .f32⟩ : BufTy).Contents (Elt F))) : (⟨S1x128, .f32⟩ : BufTy).Contents (Elt F))) : (⟨S40000x128, .f32⟩ : BufTy).Contents (Elt F))) : (⟨S40000x128, .f32⟩ : BufTy).Contents (Elt F)) := by
  after_results_simp3 <;> rfl

/-! ## Stage 1 -/

theorem stage1_v30 (W : Valuation τ sig (Elt F)) :
    after stage1 W (Proc.devRef .tc main_v30)
      = (Host.gather gather_S40000x128_S640000x1_S640000x128_1_0_n_n_0_1_1128 ((W (Proc.devRef .tc main_v19) : (⟨S40000x128, .f32⟩ : BufTy).Contents (Elt F))) ((broadcastInDim S640000x1 ![0] bcast_S640000_S640000x1_0 ((select ((cmpi .slt ((W (Proc.devRef .tc main_v3) : (⟨S640000, .i32⟩ : BufTy).Contents (Elt F))) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi ((W (Proc.devRef .tc main_v3) : (⟨S640000, .i32⟩ : BufTy).Contents (Elt F))) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) ((W (Proc.devRef .tc main_v3) : (⟨S640000, .i32⟩ : BufTy).Contents (Elt F))) : (⟨S640000, .i32⟩ : BufTy).Contents (Elt F))) : (⟨S640000x1, .i32⟩ : BufTy).Contents (Elt F))) : (⟨S640000x128, .f32⟩ : BufTy).Contents (Elt F)) := by
  after_results_simp3 <;> rfl

theorem stage1_v37 (W : Valuation τ sig (Elt F)) :
    after stage1 W (Proc.devRef .tc main_v37)
      = (Host.gather gather_S40000x128_S640000x1_S640000x128_1_0_n_n_0_1_1128 ((W (Proc.devRef .tc main_v23) : (⟨S40000x128, .f32⟩ : BufTy).Contents (Elt F))) ((broadcastInDim S640000x1 ![0] bcast_S640000_S640000x1_0 ((select ((cmpi .slt ((W (Proc.devRef .tc main_v1) : (⟨S640000, .i32⟩ : BufTy).Contents (Elt F))) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi ((W (Proc.devRef .tc main_v1) : (⟨S640000, .i32⟩ : BufTy).Contents (Elt F))) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) ((W (Proc.devRef .tc main_v1) : (⟨S640000, .i32⟩ : BufTy).Contents (Elt F))) : (⟨S640000, .i32⟩ : BufTy).Contents (Elt F))) : (⟨S640000x1, .i32⟩ : BufTy).Contents (Elt F))) : (⟨S640000x128, .f32⟩ : BufTy).Contents (Elt F)) := by
  after_results_simp3 <;> rfl

theorem stage1_v39 (W : Valuation τ sig (Elt F)) :
    after stage1 W (Proc.devRef .tc main_v39)
      = (addf ((addf ((Host.gather gather_S40000x128_S640000x1_S640000x128_1_0_n_n_0_1_1128 ((W (Proc.devRef .tc main_v19) : (⟨S40000x128, .f32⟩ : BufTy).Contents (Elt F))) ((broadcastInDim S640000x1 ![0] bcast_S640000_S640000x1_0 ((select ((cmpi .slt ((W (Proc.devRef .tc main_v3) : (⟨S640000, .i32⟩ : BufTy).Contents (Elt F))) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi ((W (Proc.devRef .tc main_v3) : (⟨S640000, .i32⟩ : BufTy).Contents (Elt F))) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) ((W (Proc.devRef .tc main_v3) : (⟨S640000, .i32⟩ : BufTy).Contents (Elt F))) : (⟨S640000, .i32⟩ : BufTy).Contents (Elt F))) : (⟨S640000x1, .i32⟩ : BufTy).Contents (Elt F))) : (⟨S640000x128, .f32⟩ : BufTy).Contents (Elt F))) ((Host.gather gather_S40000x128_S640000x1_S640000x128_1_0_n_n_0_1_1128 ((W (Proc.devRef .tc main_v23) : (⟨S40000x128, .f32⟩ : BufTy).Contents (Elt F))) ((broadcastInDim S640000x1 ![0] bcast_S640000_S640000x1_0 ((select ((cmpi .slt ((W (Proc.devRef .tc main_v1) : (⟨S640000, .i32⟩ : BufTy).Contents (Elt F))) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi ((W (Proc.devRef .tc main_v1) : (⟨S640000, .i32⟩ : BufTy).Contents (Elt F))) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) ((W (Proc.devRef .tc main_v1) : (⟨S640000, .i32⟩ : BufTy).Contents (Elt F))) : (⟨S640000, .i32⟩ : BufTy).Contents (Elt F))) : (⟨S640000x1, .i32⟩ : BufTy).Contents (Elt F))) : (⟨S640000x128, .f32⟩ : BufTy).Contents (Elt F))) : (⟨S640000x128, .f32⟩ : BufTy).Contents (Elt F))) ((W (Proc.devRef .tc main_v15) : (⟨S640000x128, .f32⟩ : BufTy).Contents (Elt F))) : (⟨S640000x128, .f32⟩ : BufTy).Contents (Elt F)) := by
  after_results_simp3 <;> rfl

theorem stage1_v45 (W : Valuation τ sig (Elt F)) :
    after stage1 W (Proc.devRef .tc main_v45)
      = (Host.divf ((broadcastInDim S640000x128 ![] bcast_S_S640000x128 ((constant S_ .f32 0x3F800000#32 : (⟨S_, .f32⟩ : BufTy).Contents (Elt F))) : (⟨S640000x128, .f32⟩ : BufTy).Contents (Elt F))) ((addf ((broadcastInDim S640000x128 ![] bcast_S_S640000x128 ((constant S_ .f32 0x3F800000#32 : (⟨S_, .f32⟩ : BufTy).Contents (Elt F))) : (⟨S640000x128, .f32⟩ : BufTy).Contents (Elt F))) ((Host.exp ((Host.negf ((addf ((addf ((Host.gather gather_S40000x128_S640000x1_S640000x128_1_0_n_n_0_1_1128 ((W (Proc.devRef .tc main_v19) : (⟨S40000x128, .f32⟩ : BufTy).Contents (Elt F))) ((broadcastInDim S640000x1 ![0] bcast_S640000_S640000x1_0 ((select ((cmpi .slt ((W (Proc.devRef .tc main_v3) : (⟨S640000, .i32⟩ : BufTy).Contents (Elt F))) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi ((W (Proc.devRef .tc main_v3) : (⟨S640000, .i32⟩ : BufTy).Contents (Elt F))) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) ((W (Proc.devRef .tc main_v3) : (⟨S640000, .i32⟩ : BufTy).Contents (Elt F))) : (⟨S640000, .i32⟩ : BufTy).Contents (Elt F))) : (⟨S640000x1, .i32⟩ : BufTy).Contents (Elt F))) : (⟨S640000x128, .f32⟩ : BufTy).Contents (Elt F))) ((Host.gather gather_S40000x128_S640000x1_S640000x128_1_0_n_n_0_1_1128 ((W (Proc.devRef .tc main_v23) : (⟨S40000x128, .f32⟩ : BufTy).Contents (Elt F))) ((broadcastInDim S640000x1 ![0] bcast_S640000_S640000x1_0 ((select ((cmpi .slt ((W (Proc.devRef .tc main_v1) : (⟨S640000, .i32⟩ : BufTy).Contents (Elt F))) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi ((W (Proc.devRef .tc main_v1) : (⟨S640000, .i32⟩ : BufTy).Contents (Elt F))) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) ((W (Proc.devRef .tc main_v1) : (⟨S640000, .i32⟩ : BufTy).Contents (Elt F))) : (⟨S640000, .i32⟩ : BufTy).Contents (Elt F))) : (⟨S640000x1, .i32⟩ : BufTy).Contents (Elt F))) : (⟨S640000x128, .f32⟩ : BufTy).Contents (Elt F))) : (⟨S640000x128, .f32⟩ : BufTy).Contents (Elt F))) ((W (Proc.devRef .tc main_v15) : (⟨S640000x128, .f32⟩ : BufTy).Contents (Elt F))) : (⟨S640000x128, .f32⟩ : BufTy).Contents (Elt F))) : (⟨S640000x128, .f32⟩ : BufTy).Contents (Elt F))) : (⟨S640000x128, .f32⟩ : BufTy).Contents (Elt F))) : (⟨S640000x128, .f32⟩ : BufTy).Contents (Elt F))) : (⟨S640000x128, .f32⟩ : BufTy).Contents (Elt F)) := by
  after_results_simp3 <;> rfl

theorem stage1_v51 (W : Valuation τ sig (Elt F)) :
    after stage1 W (Proc.devRef .tc main_v51)
      = (broadcastInDim S640000x1 ![0] bcast_S640000_S640000x1_0 ((select ((cmpi .slt ((W (Proc.devRef .tc main_v1) : (⟨S640000, .i32⟩ : BufTy).Contents (Elt F))) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi ((W (Proc.devRef .tc main_v1) : (⟨S640000, .i32⟩ : BufTy).Contents (Elt F))) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) ((W (Proc.devRef .tc main_v1) : (⟨S640000, .i32⟩ : BufTy).Contents (Elt F))) : (⟨S640000, .i32⟩ : BufTy).Contents (Elt F))) : (⟨S640000x1, .i32⟩ : BufTy).Contents (Elt F)) := by
  after_results_simp3 <;> rfl

/-! ## Stage 2 -/

theorem stage2_v52 (W : Valuation τ sig (Elt F)) :
    after stage2 W (Proc.devRef .tc main_v52)
      = (Host.gather gather_S40000x128_S640000x1_S640000x128_1_0_n_n_0_1_1128 ((W (Proc.devRef .tc main_v11) : (⟨S40000x128, .f32⟩ : BufTy).Contents (Elt F))) ((W (Proc.devRef .tc main_v51) : (⟨S640000x1, .i32⟩ : BufTy).Contents (Elt F))) : (⟨S640000x128, .f32⟩ : BufTy).Contents (Elt F)) := by
  after_results_simp3 <;> rfl

theorem stage2_v53 (W : Valuation τ sig (Elt F)) :
    after stage2 W (Proc.devRef .tc main_v53)
      = (mulf ((W (Proc.devRef .tc main_v45) : (⟨S640000x128, .f32⟩ : BufTy).Contents (Elt F))) ((Host.gather gather_S40000x128_S640000x1_S640000x128_1_0_n_n_0_1_1128 ((W (Proc.devRef .tc main_v11) : (⟨S40000x128, .f32⟩ : BufTy).Contents (Elt F))) ((W (Proc.devRef .tc main_v51) : (⟨S640000x1, .i32⟩ : BufTy).Contents (Elt F))) : (⟨S640000x128, .f32⟩ : BufTy).Contents (Elt F))) : (⟨S640000x128, .f32⟩ : BufTy).Contents (Elt F)) := by
  after_results_simp3 <;> rfl

theorem stage2_v56 (W : Valuation τ sig (Elt F)) :
    after stage2 W (Proc.devRef .tc main_v56)
      = (Host.scatterAdd scatter_S40000x128_S640000x1_S640000x128_1_0_0_1 ((broadcastInDim S40000x128 ![] bcast_S_S40000x128 ((constant S_ .f32 0x00000000#32 : (⟨S_, .f32⟩ : BufTy).Contents (Elt F))) : (⟨S40000x128, .f32⟩ : BufTy).Contents (Elt F))) ((broadcastInDim S640000x1 ![0] bcast_S640000_S640000x1_0 ((W (Proc.devRef .tc main_v3) : (⟨S640000, .i32⟩ : BufTy).Contents (Elt F))) : (⟨S640000x1, .i32⟩ : BufTy).Contents (Elt F))) ((mulf ((W (Proc.devRef .tc main_v45) : (⟨S640000x128, .f32⟩ : BufTy).Contents (Elt F))) ((Host.gather gather_S40000x128_S640000x1_S640000x128_1_0_n_n_0_1_1128 ((W (Proc.devRef .tc main_v11) : (⟨S40000x128, .f32⟩ : BufTy).Contents (Elt F))) ((W (Proc.devRef .tc main_v51) : (⟨S640000x1, .i32⟩ : BufTy).Contents (Elt F))) : (⟨S640000x128, .f32⟩ : BufTy).Contents (Elt F))) : (⟨S640000x128, .f32⟩ : BufTy).Contents (Elt F))) : (⟨S40000x128, .f32⟩ : BufTy).Contents (Elt F)) := by
  after_results_simp3 <;> rfl

theorem stage2_v59 (W : Valuation τ sig (Elt F)) :
    after stage2 W (Proc.devRef .tc main_v59)
      = (Host.scatterAdd scatter_S40000x128_S640000x1_S640000x128_1_0_0_1 ((broadcastInDim S40000x128 ![] bcast_S_S40000x128 ((constant S_ .f32 0x00000000#32 : (⟨S_, .f32⟩ : BufTy).Contents (Elt F))) : (⟨S40000x128, .f32⟩ : BufTy).Contents (Elt F))) ((broadcastInDim S640000x1 ![0] bcast_S640000_S640000x1_0 ((W (Proc.devRef .tc main_v3) : (⟨S640000, .i32⟩ : BufTy).Contents (Elt F))) : (⟨S640000x1, .i32⟩ : BufTy).Contents (Elt F))) ((W (Proc.devRef .tc main_v45) : (⟨S640000x128, .f32⟩ : BufTy).Contents (Elt F))) : (⟨S40000x128, .f32⟩ : BufTy).Contents (Elt F)) := by
  after_results_simp3 <;> rfl

theorem stage2_v63 (W : Valuation τ sig (Elt F)) :
    after stage2 W (Proc.devRef .tc main_v63)
      = (addf ((W (Proc.devRef .tc main_v7) : (⟨S40000x128, .f32⟩ : BufTy).Contents (Elt F))) ((Host.divf ((Host.scatterAdd scatter_S40000x128_S640000x1_S640000x128_1_0_0_1 ((broadcastInDim S40000x128 ![] bcast_S_S40000x128 ((constant S_ .f32 0x00000000#32 : (⟨S_, .f32⟩ : BufTy).Contents (Elt F))) : (⟨S40000x128, .f32⟩ : BufTy).Contents (Elt F))) ((broadcastInDim S640000x1 ![0] bcast_S640000_S640000x1_0 ((W (Proc.devRef .tc main_v3) : (⟨S640000, .i32⟩ : BufTy).Contents (Elt F))) : (⟨S640000x1, .i32⟩ : BufTy).Contents (Elt F))) ((mulf ((W (Proc.devRef .tc main_v45) : (⟨S640000x128, .f32⟩ : BufTy).Contents (Elt F))) ((Host.gather gather_S40000x128_S640000x1_S640000x128_1_0_n_n_0_1_1128 ((W (Proc.devRef .tc main_v11) : (⟨S40000x128, .f32⟩ : BufTy).Contents (Elt F))) ((W (Proc.devRef .tc main_v51) : (⟨S640000x1, .i32⟩ : BufTy).Contents (Elt F))) : (⟨S640000x128, .f32⟩ : BufTy).Contents (Elt F))) : (⟨S640000x128, .f32⟩ : BufTy).Contents (Elt F))) : (⟨S40000x128, .f32⟩ : BufTy).Contents (Elt F))) ((addf ((Host.scatterAdd scatter_S40000x128_S640000x1_S640000x128_1_0_0_1 ((broadcastInDim S40000x128 ![] bcast_S_S40000x128 ((constant S_ .f32 0x00000000#32 : (⟨S_, .f32⟩ : BufTy).Contents (Elt F))) : (⟨S40000x128, .f32⟩ : BufTy).Contents (Elt F))) ((broadcastInDim S640000x1 ![0] bcast_S640000_S640000x1_0 ((W (Proc.devRef .tc main_v3) : (⟨S640000, .i32⟩ : BufTy).Contents (Elt F))) : (⟨S640000x1, .i32⟩ : BufTy).Contents (Elt F))) ((W (Proc.devRef .tc main_v45) : (⟨S640000x128, .f32⟩ : BufTy).Contents (Elt F))) : (⟨S40000x128, .f32⟩ : BufTy).Contents (Elt F))) ((broadcastInDim S40000x128 ![] bcast_S_S40000x128 ((constant S_ .f32 0x358637BD#32 : (⟨S_, .f32⟩ : BufTy).Contents (Elt F))) : (⟨S40000x128, .f32⟩ : BufTy).Contents (Elt F))) : (⟨S40000x128, .f32⟩ : BufTy).Contents (Elt F))) : (⟨S40000x128, .f32⟩ : BufTy).Contents (Elt F))) : (⟨S40000x128, .f32⟩ : BufTy).Contents (Elt F)) := by
  after_results_simp3 <;> rfl

theorem stage2_v66 (W : Valuation τ sig (Elt F)) :
    after stage2 W (Proc.devRef .tc main_v66)
      = (Host.divf ((Host.reduceAdd ((addf ((W (Proc.devRef .tc main_v7) : (⟨S40000x128, .f32⟩ : BufTy).Contents (Elt F))) ((Host.divf ((Host.scatterAdd scatter_S40000x128_S640000x1_S640000x128_1_0_0_1 ((broadcastInDim S40000x128 ![] bcast_S_S40000x128 ((constant S_ .f32 0x00000000#32 : (⟨S_, .f32⟩ : BufTy).Contents (Elt F))) : (⟨S40000x128, .f32⟩ : BufTy).Contents (Elt F))) ((broadcastInDim S640000x1 ![0] bcast_S640000_S640000x1_0 ((W (Proc.devRef .tc main_v3) : (⟨S640000, .i32⟩ : BufTy).Contents (Elt F))) : (⟨S640000x1, .i32⟩ : BufTy).Contents (Elt F))) ((mulf ((W (Proc.devRef .tc main_v45) : (⟨S640000x128, .f32⟩ : BufTy).Contents (Elt F))) ((Host.gather gather_S40000x128_S640000x1_S640000x128_1_0_n_n_0_1_1128 ((W (Proc.devRef .tc main_v11) : (⟨S40000x128, .f32⟩ : BufTy).Contents (Elt F))) ((W (Proc.devRef .tc main_v51) : (⟨S640000x1, .i32⟩ : BufTy).Contents (Elt F))) : (⟨S640000x128, .f32⟩ : BufTy).Contents (Elt F))) : (⟨S640000x128, .f32⟩ : BufTy).Contents (Elt F))) : (⟨S40000x128, .f32⟩ : BufTy).Contents (Elt F))) ((addf ((Host.scatterAdd scatter_S40000x128_S640000x1_S640000x128_1_0_0_1 ((broadcastInDim S40000x128 ![] bcast_S_S40000x128 ((constant S_ .f32 0x00000000#32 : (⟨S_, .f32⟩ : BufTy).Contents (Elt F))) : (⟨S40000x128, .f32⟩ : BufTy).Contents (Elt F))) ((broadcastInDim S640000x1 ![0] bcast_S640000_S640000x1_0 ((W (Proc.devRef .tc main_v3) : (⟨S640000, .i32⟩ : BufTy).Contents (Elt F))) : (⟨S640000x1, .i32⟩ : BufTy).Contents (Elt F))) ((W (Proc.devRef .tc main_v45) : (⟨S640000x128, .f32⟩ : BufTy).Contents (Elt F))) : (⟨S40000x128, .f32⟩ : BufTy).Contents (Elt F))) ((broadcastInDim S40000x128 ![] bcast_S_S40000x128 ((constant S_ .f32 0x358637BD#32 : (⟨S_, .f32⟩ : BufTy).Contents (Elt F))) : (⟨S40000x128, .f32⟩ : BufTy).Contents (Elt F))) : (⟨S40000x128, .f32⟩ : BufTy).Contents (Elt F))) : (⟨S40000x128, .f32⟩ : BufTy).Contents (Elt F))) : (⟨S40000x128, .f32⟩ : BufTy).Contents (Elt F))) ((constant S_ .f32 0x00000000#32 : (⟨S_, .f32⟩ : BufTy).Contents (Elt F))) reducesTo_S40000x128_S128_d0 h_S_ : (⟨S128, .f32⟩ : BufTy).Contents (Elt F))) ((broadcastInDim S128 ![] bcast_S_S128 ((constant S_ .f32 0x471C4000#32 : (⟨S_, .f32⟩ : BufTy).Contents (Elt F))) : (⟨S128, .f32⟩ : BufTy).Contents (Elt F))) : (⟨S128, .f32⟩ : BufTy).Contents (Elt F)) := by
  after_results_simp3 <;> rfl

/-! ## Stage 3 -/

/-- The column variance of a [40000,128] array as the reference's variance function computes it: the column sums of the squared deviations from the column means, over 40000 less the integer 0 converted; the not-a-number constant where that divisor is not positive. -/
def varCols40000 (x : (⟨S40000x128, .f32⟩ : BufTy).Contents (Elt F)) : (⟨S128, .f32⟩ : BufTy).Contents (Elt F) :=
  (select (broadcastInDim S128 ![] bcast_S_S128 ((cmpf .ogt ((subf ((constant S_ .f32 0x471C4000#32 : (⟨S_, .f32⟩ : BufTy).Contents (Elt F))) ((sitofp .f32 ((constantI S_ 32 0#32 : (⟨S_, .i32⟩ : BufTy).Contents (Elt F))) : (⟨S_, .f32⟩ : BufTy).Contents (Elt F))) : (⟨S_, .f32⟩ : BufTy).Contents (Elt F))) ((constant S_ .f32 0x00000000#32 : (⟨S_, .f32⟩ : BufTy).Contents (Elt F))) : (⟨S_, .i1⟩ : BufTy).Contents (Elt F)))) ((Host.divf ((Host.reduceAdd ((mulf ((subf x ((broadcastInDim S40000x128 ![0, 1] bcast_S1x128_S40000x128_0_1 ((Host.divf ((broadcastInDim S1x128 ![1] bcast_S128_S1x128_1 ((Host.reduceAdd x ((constant S_ .f32 0x00000000#32 : (⟨S_, .f32⟩ : BufTy).Contents (Elt F))) reducesTo_S40000x128_S128_d0 h_S_ : (⟨S128, .f32⟩ : BufTy).Contents (Elt F))) : (⟨S1x128, .f32⟩ : BufTy).Contents (Elt F))) ((broadcastInDim S1x128 ![] bcast_S_S1x128 ((constant S_ .f32 0x471C4000#32 : (⟨S_, .f32⟩ : BufTy).Contents (Elt F))) : (⟨S1x128, .f32⟩ : BufTy).Contents (Elt F))) : (⟨S1x128, .f32⟩ : BufTy).Contents (Elt F))) : (⟨S40000x128, .f32⟩ : BufTy).Contents (Elt F))) : (⟨S40000x128, .f32⟩ : BufTy).Contents (Elt F))) ((subf x ((broadcastInDim S40000x128 ![0, 1] bcast_S1x128_S40000x128_0_1 ((Host.divf ((broadcastInDim S1x128 ![1] bcast_S128_S1x128_1 ((Host.reduceAdd x ((constant S_ .f32 0x00000000#32 : (⟨S_, .f32⟩ : BufTy).Contents (Elt F))) reducesTo_S40000x128_S128_d0 h_S_ : (⟨S128, .f32⟩ : BufTy).Contents (Elt F))) : (⟨S1x128, .f32⟩ : BufTy).Contents (Elt F))) ((broadcastInDim S1x128 ![] bcast_S_S1x128 ((constant S_ .f32 0x471C4000#32 : (⟨S_, .f32⟩ : BufTy).Contents (Elt F))) : (⟨S1x128, .f32⟩ : BufTy).Contents (Elt F))) : (⟨S1x128, .f32⟩ : BufTy).Contents (Elt F))) : (⟨S40000x128, .f32⟩ : BufTy).Contents (Elt F))) : (⟨S40000x128, .f32⟩ : BufTy).Contents (Elt F))) : (⟨S40000x128, .f32⟩ : BufTy).Contents (Elt F))) ((constant S_ .f32 0x00000000#32 : (⟨S_, .f32⟩ : BufTy).Contents (Elt F))) reducesTo_S40000x128_S128_d0 h_S_ : (⟨S128, .f32⟩ : BufTy).Contents (Elt F))) ((broadcastInDim S128 ![] bcast_S_S128 ((subf ((constant S_ .f32 0x471C4000#32 : (⟨S_, .f32⟩ : BufTy).Contents (Elt F))) ((sitofp .f32 ((constantI S_ 32 0#32 : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F))) ((broadcastInDim S128 ![] bcast_S_S128 ((id ((constant S_ .f32 0x7FC00000#32 : (⟨S_, .f32⟩ : BufTy).Contents (Elt F))) : (⟨S_, .f32⟩ : BufTy).Contents (Elt F))) : (⟨S128, .f32⟩ : BufTy).Contents (Elt F))) : (⟨S128, .f32⟩ : BufTy).Contents (Elt F))

theorem stage3_v67 (W : Valuation τ sig (Elt F)) :
    after stage3 W (Proc.devRef .tc main_v67)
      = varCols40000 (W (Proc.devRef .tc main_v63)) := by
  after_results_simp3 <;> rfl

/-! ## Stage 4 -/

theorem stage4_v73 (W : Valuation τ sig (Elt F)) :
    after stage4 W (Proc.devRef .tc main_v73)
      = (Host.rsqrt ((addf ((W (Proc.devRef .tc main_v67) : (⟨S128, .f32⟩ : BufTy).Contents (Elt F))) ((broadcastInDim S128 ![] bcast_S_S128 ((constant S_ .f32 0x3727C5AC#32 : (⟨S_, .f32⟩ : BufTy).Contents (Elt F))) : (⟨S128, .f32⟩ : BufTy).Contents (Elt F))) : (⟨S128, .f32⟩ : BufTy).Contents (Elt F))) : (⟨S128, .f32⟩ : BufTy).Contents (Elt F)) := by
  after_results_simp3 <;> rfl

theorem stage4_v83 (W : Valuation τ sig (Elt F)) :
    after stage4 W (Proc.devRef .tc main_v83)
      = (maximumf ((addf ((mulf ((mulf ((subf ((W (Proc.devRef .tc main_v63) : (⟨S40000x128, .f32⟩ : BufTy).Contents (Elt F))) ((broadcastInDim S40000x128 ![0, 1] bcast_S1x128_S40000x128_0_1 ((broadcastInDim S1x128 ![1] bcast_S128_S1x128_1 ((W (Proc.devRef .tc main_v66) : (⟨S128, .f32⟩ : BufTy).Contents (Elt F))) : (⟨S1x128, .f32⟩ : BufTy).Contents (Elt F))) : (⟨S40000x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((Host.rsqrt ((addf ((W (Proc.devRef .tc main_v67) : (⟨S128, .f32⟩ : BufTy).Contents (Elt F))) ((broadcastInDim S128 ![] bcast_S_S128 ((constant S_ .f32 0x3727C5AC#32 : (⟨S_, .f32⟩ : BufTy).Contents (Elt F))) : (⟨S128, .f32⟩ : BufTy).Contents (Elt F))) : (⟨S128, .f32⟩ : BufTy).Contents (Elt F))) : (⟨S128, .f32⟩ : BufTy).Contents (Elt F))) : (⟨S1x128, .f32⟩ : BufTy).Contents (Elt F))) : (⟨S40000x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((W (Proc.devRef .tc main_arg13) : (⟨S128, .f32⟩ : BufTy).Contents (Elt F))) : (⟨S1x128, .f32⟩ : BufTy).Contents (Elt F))) : (⟨S40000x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((W (Proc.devRef .tc main_arg14) : (⟨S128, .f32⟩ : BufTy).Contents (Elt F))) : (⟨S1x128, .f32⟩ : BufTy).Contents (Elt F))) : (⟨S40000x128, .f32⟩ : BufTy).Contents (Elt F))) : (⟨S40000x128, .f32⟩ : BufTy).Contents (Elt F))) ((broadcastInDim S40000x128 ![] bcast_S_S40000x128 ((constant S_ .f32 0x00000000#32 : (⟨S_, .f32⟩ : BufTy).Contents (Elt F))) : (⟨S40000x128, .f32⟩ : BufTy).Contents (Elt F))) : (⟨S40000x128, .f32⟩ : BufTy).Contents (Elt F)) := by
  after_results_simp3 <;> rfl

theorem stage4_v86 (W : Valuation τ sig (Elt F)) :
    after stage4 W (Proc.devRef .tc main_v86)
      = (Host.divf ((Host.reduceAdd ((W (Proc.devRef .tc main_v39) : (⟨S640000x128, .f32⟩ : BufTy).Contents (Elt F))) ((constant S_ .f32 0x00000000#32 : (⟨S_, .f32⟩ : BufTy).Contents (Elt F))) reducesTo_S640000x128_S128_d0 h_S_ : (⟨S128, .f32⟩ : BufTy).Contents (Elt F))) ((broadcastInDim S128 ![] bcast_S_S128 ((constant S_ .f32 0x491C4000#32 : (⟨S_, .f32⟩ : BufTy).Contents (Elt F))) : (⟨S128, .f32⟩ : BufTy).Contents (Elt F))) : (⟨S128, .f32⟩ : BufTy).Contents (Elt F)) := by
  after_results_simp3 <;> rfl

/-! ## Stage 5 -/

/-- The column variance of a [640000,128] array, likewise (the divisor 640000 less the integer 0 converted). -/
def varCols640000 (x : (⟨S640000x128, .f32⟩ : BufTy).Contents (Elt F)) : (⟨S128, .f32⟩ : BufTy).Contents (Elt F) :=
  (select (broadcastInDim S128 ![] bcast_S_S128 ((cmpf .ogt ((subf ((constant S_ .f32 0x491C4000#32 : (⟨S_, .f32⟩ : BufTy).Contents (Elt F))) ((sitofp .f32 ((constantI S_ 32 0#32 : (⟨S_, .i32⟩ : BufTy).Contents (Elt F))) : (⟨S_, .f32⟩ : BufTy).Contents (Elt F))) : (⟨S_, .f32⟩ : BufTy).Contents (Elt F))) ((constant S_ .f32 0x00000000#32 : (⟨S_, .f32⟩ : BufTy).Contents (Elt F))) : (⟨S_, .i1⟩ : BufTy).Contents (Elt F)))) ((Host.divf ((Host.reduceAdd ((mulf ((subf x ((broadcastInDim S640000x128 ![0, 1] bcast_S1x128_S640000x128_0_1 ((Host.divf ((broadcastInDim S1x128 ![1] bcast_S128_S1x128_1 ((Host.reduceAdd x ((constant S_ .f32 0x00000000#32 : (⟨S_, .f32⟩ : BufTy).Contents (Elt F))) reducesTo_S640000x128_S128_d0 h_S_ : (⟨S128, .f32⟩ : BufTy).Contents (Elt F))) : (⟨S1x128, .f32⟩ : BufTy).Contents (Elt F))) ((broadcastInDim S1x128 ![] bcast_S_S1x128 ((constant S_ .f32 0x491C4000#32 : (⟨S_, .f32⟩ : BufTy).Contents (Elt F))) : (⟨S1x128, .f32⟩ : BufTy).Contents (Elt F))) : (⟨S1x128, .f32⟩ : BufTy).Contents (Elt F))) : (⟨S640000x128, .f32⟩ : BufTy).Contents (Elt F))) : (⟨S640000x128, .f32⟩ : BufTy).Contents (Elt F))) ((subf x ((broadcastInDim S640000x128 ![0, 1] bcast_S1x128_S640000x128_0_1 ((Host.divf ((broadcastInDim S1x128 ![1] bcast_S128_S1x128_1 ((Host.reduceAdd x ((constant S_ .f32 0x00000000#32 : (⟨S_, .f32⟩ : BufTy).Contents (Elt F))) reducesTo_S640000x128_S128_d0 h_S_ : (⟨S128, .f32⟩ : BufTy).Contents (Elt F))) : (⟨S1x128, .f32⟩ : BufTy).Contents (Elt F))) ((broadcastInDim S1x128 ![] bcast_S_S1x128 ((constant S_ .f32 0x491C4000#32 : (⟨S_, .f32⟩ : BufTy).Contents (Elt F))) : (⟨S1x128, .f32⟩ : BufTy).Contents (Elt F))) : (⟨S1x128, .f32⟩ : BufTy).Contents (Elt F))) : (⟨S640000x128, .f32⟩ : BufTy).Contents (Elt F))) : (⟨S640000x128, .f32⟩ : BufTy).Contents (Elt F))) : (⟨S640000x128, .f32⟩ : BufTy).Contents (Elt F))) ((constant S_ .f32 0x00000000#32 : (⟨S_, .f32⟩ : BufTy).Contents (Elt F))) reducesTo_S640000x128_S128_d0 h_S_ : (⟨S128, .f32⟩ : BufTy).Contents (Elt F))) ((broadcastInDim S128 ![] bcast_S_S128 ((subf ((constant S_ .f32 0x491C4000#32 : (⟨S_, .f32⟩ : BufTy).Contents (Elt F))) ((sitofp .f32 ((constantI S_ 32 0#32 : (⟨S_, .i32⟩ : BufTy).Contents (Elt F))) : (⟨S_, .f32⟩ : BufTy).Contents (Elt F))) : (⟨S_, .f32⟩ : BufTy).Contents (Elt F))) : (⟨S128, .f32⟩ : BufTy).Contents (Elt F))) : (⟨S128, .f32⟩ : BufTy).Contents (Elt F))) ((broadcastInDim S128 ![] bcast_S_S128 ((id ((constant S_ .f32 0x7FC00000#32 : (⟨S_, .f32⟩ : BufTy).Contents (Elt F))) : (⟨S_, .f32⟩ : BufTy).Contents (Elt F))) : (⟨S128, .f32⟩ : BufTy).Contents (Elt F))) : (⟨S128, .f32⟩ : BufTy).Contents (Elt F))

theorem stage5_v87 (W : Valuation τ sig (Elt F)) :
    after stage5 W (Proc.devRef .tc main_v87)
      = varCols640000 (W (Proc.devRef .tc main_v39)) := by
  after_results_simp3 <;> rfl

/-! ## Stage 6 -/

theorem stage6_v93 (W : Valuation τ sig (Elt F)) :
    after stage6 W (Proc.devRef .tc main_v93)
      = (Host.rsqrt ((addf ((W (Proc.devRef .tc main_v87) : (⟨S128, .f32⟩ : BufTy).Contents (Elt F))) ((broadcastInDim S128 ![] bcast_S_S128 ((constant S_ .f32 0x3727C5AC#32 : (⟨S_, .f32⟩ : BufTy).Contents (Elt F))) : (⟨S128, .f32⟩ : BufTy).Contents (Elt F))) : (⟨S128, .f32⟩ : BufTy).Contents (Elt F))) : (⟨S128, .f32⟩ : BufTy).Contents (Elt F)) := by
  after_results_simp3 <;> rfl

theorem stage6_v96 (W : Valuation τ sig (Elt F)) :
    after stage6 W (Proc.devRef .tc main_v96)
      = (mulf ((subf ((W (Proc.devRef .tc main_v39) : (⟨S640000x128, .f32⟩ : BufTy).Contents (Elt F))) ((broadcastInDim S640000x128 ![0, 1] bcast_S1x128_S640000x128_0_1 ((broadcastInDim S1x128 ![1] bcast_S128_S1x128_1 ((W (Proc.devRef .tc main_v86) : (⟨S128, .f32⟩ : BufTy).Contents (Elt F))) : (⟨S1x128, .f32⟩ : BufTy).Contents (Elt F))) : (⟨S640000x128, .f32⟩ : BufTy).Contents (Elt F))) : (⟨S640000x128, .f32⟩ : BufTy).Contents (Elt F))) ((broadcastInDim S640000x128 ![0, 1] bcast_S1x128_S640000x128_0_1 ((broadcastInDim S1x128 ![1] bcast_S128_S1x128_1 ((Host.rsqrt ((addf ((W (Proc.devRef .tc main_v87) : (⟨S128, .f32⟩ : BufTy).Contents (Elt F))) ((broadcastInDim S128 ![] bcast_S_S128 ((constant S_ .f32 0x3727C5AC#32 : (⟨S_, .f32⟩ : BufTy).Contents (Elt F))) : (⟨S128, .f32⟩ : BufTy).Contents (Elt F))) : (⟨S128, .f32⟩ : BufTy).Contents (Elt F))) : (⟨S128, .f32⟩ : BufTy).Contents (Elt F))) : (⟨S1x128, .f32⟩ : BufTy).Contents (Elt F))) : (⟨S640000x128, .f32⟩ : BufTy).Contents (Elt F))) : (⟨S640000x128, .f32⟩ : BufTy).Contents (Elt F)) := by
  after_results_simp3 <;> rfl

theorem stage6_v99 (W : Valuation τ sig (Elt F)) :
    after stage6 W (Proc.devRef .tc main_v99)
      = (mulf ((mulf ((subf ((W (Proc.devRef .tc main_v39) : (⟨S640000x128, .f32⟩ : BufTy).Contents (Elt F))) ((broadcastInDim S640000x128 ![0, 1] bcast_S1x128_S640000x128_0_1 ((broadcastInDim S1x128 ![1] bcast_S128_S1x128_1 ((W (Proc.devRef .tc main_v86) : (⟨S128, .f32⟩ : BufTy).Contents (Elt F))) : (⟨S1x128, .f32⟩ : BufTy).Contents (Elt F))) : (⟨S640000x128, .f32⟩ : BufTy).Contents (Elt F))) : (⟨S640000x128, .f32⟩ : BufTy).Contents (Elt F))) ((broadcastInDim S640000x128 ![0, 1] bcast_S1x128_S640000x128_0_1 ((broadcastInDim S1x128 ![1] bcast_S128_S1x128_1 ((Host.rsqrt ((addf ((W (Proc.devRef .tc main_v87) : (⟨S128, .f32⟩ : BufTy).Contents (Elt F))) ((broadcastInDim S128 ![] bcast_S_S128 ((constant S_ .f32 0x3727C5AC#32 : (⟨S_, .f32⟩ : BufTy).Contents (Elt F))) : (⟨S128, .f32⟩ : BufTy).Contents (Elt F))) : (⟨S128, .f32⟩ : BufTy).Contents (Elt F))) : (⟨S128, .f32⟩ : BufTy).Contents (Elt F))) : (⟨S1x128, .f32⟩ : BufTy).Contents (Elt F))) : (⟨S640000x128, .f32⟩ : BufTy).Contents (Elt F))) : (⟨S640000x128, .f32⟩ : BufTy).Contents (Elt F))) ((broadcastInDim S640000x128 ![0, 1] bcast_S1x128_S640000x128_0_1 ((broadcastInDim S1x128 ![1] bcast_S128_S1x128_1 ((W (Proc.devRef .tc main_arg15) : (⟨S128, .f32⟩ : BufTy).Contents (Elt F))) : (⟨S1x128, .f32⟩ : BufTy).Contents (Elt F))) : (⟨S640000x128, .f32⟩ : BufTy).Contents (Elt F))) : (⟨S640000x128, .f32⟩ : BufTy).Contents (Elt F)) := by
  after_results_simp3 <;> rfl

theorem stage6_v100 (W : Valuation τ sig (Elt F)) :
    after stage6 W (Proc.devRef .tc main_v100)
      = (broadcastInDim S1x128 ![1] bcast_S128_S1x128_1 ((W (Proc.devRef .tc main_arg16) : (⟨S128, .f32⟩ : BufTy).Contents (Elt F))) : (⟨S1x128, .f32⟩ : BufTy).Contents (Elt F)) := by
  after_results_simp3 <;> rfl

/-! ## Stage 7 -/

theorem stage7_v103 (W : Valuation τ sig (Elt F)) :
    after stage7 W (Proc.devRef .tc main_v103)
      = (maximumf ((addf ((W (Proc.devRef .tc main_v99) : (⟨S640000x128, .f32⟩ : BufTy).Contents (Elt F))) ((broadcastInDim S640000x128 ![0, 1] bcast_S1x128_S640000x128_0_1 ((W (Proc.devRef .tc main_v100) : (⟨S1x128, .f32⟩ : BufTy).Contents (Elt F))) : (⟨S640000x128, .f32⟩ : BufTy).Contents (Elt F))) : (⟨S640000x128, .f32⟩ : BufTy).Contents (Elt F))) ((broadcastInDim S640000x128 ![] bcast_S_S640000x128 ((constant S_ .f32 0x00000000#32 : (⟨S_, .f32⟩ : BufTy).Contents (Elt F))) : (⟨S640000x128, .f32⟩ : BufTy).Contents (Elt F))) : (⟨S640000x128, .f32⟩ : BufTy).Contents (Elt F)) := by
  after_results_simp3 <;> rfl

theorem stage7_v110 (W : Valuation τ sig (Elt F)) :
    after stage7 W (Proc.devRef .tc main_v110)
      = (Host.gather gather_S40000x128_S640000x1_S640000x128_1_0_n_n_0_1_1128 ((W (Proc.devRef .tc main_v83) : (⟨S40000x128, .f32⟩ : BufTy).Contents (Elt F))) ((broadcastInDim S640000x1 ![0] bcast_S640000_S640000x1_0 ((select ((cmpi .slt ((W (Proc.devRef .tc main_v1) : (⟨S640000, .i32⟩ : BufTy).Contents (Elt F))) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi ((W (Proc.devRef .tc main_v1) : (⟨S640000, .i32⟩ : BufTy).Contents (Elt F))) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) ((W (Proc.devRef .tc main_v1) : (⟨S640000, .i32⟩ : BufTy).Contents (Elt F))) : (⟨S640000, .i32⟩ : BufTy).Contents (Elt F))) : (⟨S640000x1, .i32⟩ : BufTy).Contents (Elt F))) : (⟨S640000x128, .f32⟩ : BufTy).Contents (Elt F)) := by
  after_results_simp3 <;> rfl

theorem stage7_v117 (W : Valuation τ sig (Elt F)) :
    after stage7 W (Proc.devRef .tc main_v117)
      = (Host.gather gather_S40000x128_S640000x1_S640000x128_1_0_n_n_0_1_1128 ((W (Proc.devRef .tc main_v83) : (⟨S40000x128, .f32⟩ : BufTy).Contents (Elt F))) ((broadcastInDim S640000x1 ![0] bcast_S640000_S640000x1_0 ((select ((cmpi .slt ((W (Proc.devRef .tc main_v3) : (⟨S640000, .i32⟩ : BufTy).Contents (Elt F))) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi ((W (Proc.devRef .tc main_v3) : (⟨S640000, .i32⟩ : BufTy).Contents (Elt F))) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) ((W (Proc.devRef .tc main_v3) : (⟨S640000, .i32⟩ : BufTy).Contents (Elt F))) : (⟨S640000, .i32⟩ : BufTy).Contents (Elt F))) : (⟨S640000x1, .i32⟩ : BufTy).Contents (Elt F))) : (⟨S640000x128, .f32⟩ : BufTy).Contents (Elt F)) := by
  after_results_simp3 <;> rfl

theorem stage7_v133 (W : Valuation τ sig (Elt F)) :
    after stage7 W (Proc.devRef .tc main_v133)
      = (Host.divf ((broadcastInDim S640000x1 ![] bcast_S_S640000x1 ((constant S_ .f32 0x3F800000#32 : (⟨S_, .f32⟩ : BufTy).Contents (Elt F))) : (⟨S640000x1, .f32⟩ : BufTy).Contents (Elt F))) ((addf ((broadcastInDim S640000x1 ![] bcast_S_S640000x1 ((constant S_ .f32 0x3F800000#32 : (⟨S_, .f32⟩ : BufTy).Contents (Elt F))) : (⟨S640000x1, .f32⟩ : BufTy).Contents (Elt F))) ((Host.exp ((Host.negf ((addf ((Host.dotGeneral dot_S640000x256_S256x1_S640000x1_1_0_0_1_n_n none ((maximumf ((addf ((Host.dotGeneral dot_S640000x384_S384x256_S640000x256_1_0_0_1_n_n none ((concatenate S640000x384 1 [⟨S640000x128, (Host.gather gather_S40000x128_S640000x1_S640000x128_1_0_n_n_0_1_1128 ((W (Proc.devRef .tc main_v83) : (⟨S40000x128, .f32⟩ : BufTy).Contents (Elt F))) ((broadcastInDim S640000x1 ![0] bcast_S640000_S640000x1_0 ((select ((cmpi .slt ((W (Proc.devRef .tc main_v1) : (⟨S640000, .i32⟩ : BufTy).Contents (Elt F))) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi ((W (Proc.devRef .tc main_v1) : (⟨S640000, .i32⟩ : BufTy).Contents (Elt F))) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) ((W (Proc.devRef .tc main_v1) : (⟨S640000, .i32⟩ : BufTy).Contents (Elt F))) : (⟨S640000, .i32⟩ : BufTy).Contents (Elt F))) : (⟨S640000x1, .i32⟩ : BufTy).Contents (Elt F))) : (⟨S640000x128, .f32⟩ : BufTy).Contents (Elt F))⟩, ⟨S640000x128, (Host.gather gather_S40000x128_S640000x1_S640000x128_1_0_n_n_0_1_1128 ((W (Proc.devRef .tc main_v83) : (⟨S40000x128, .f32⟩ : BufTy).Contents (Elt F))) ((broadcastInDim S640000x1 ![0] bcast_S640000_S640000x1_0 ((select ((cmpi .slt ((W (Proc.devRef .tc main_v3) : (⟨S640000, .i32⟩ : BufTy).Contents (Elt F))) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi ((W (Proc.devRef .tc main_v3) : (⟨S640000, .i32⟩ : BufTy).Contents (Elt F))) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) ((W (Proc.devRef .tc main_v3) : (⟨S640000, .i32⟩ : BufTy).Contents (Elt F))) : (⟨S640000, .i32⟩ : BufTy).Contents (Elt F))) : (⟨S640000x1, .i32⟩ : BufTy).Contents (Elt F))) : (⟨S640000x128, .f32⟩ : BufTy).Contents (Elt F))⟩, ⟨S640000x128, (maximumf ((addf ((W (Proc.devRef .tc main_v99) : (⟨S640000x128, .f32⟩ : BufTy).Contents (Elt F))) ((broadcastInDim S640000x128 ![0, 1] bcast_S1x128_S640000x128_0_1 ((W (Proc.devRef .tc main_v100) : (⟨S1x128, .f32⟩ : BufTy).Contents (Elt F))) : (⟨S640000x128, .f32⟩ : BufTy).Contents (Elt F))) : (⟨S640000x128, .f32⟩ : BufTy).Contents (Elt F))) ((broadcastInDim S640000x128 ![] bcast_S_S640000x128 ((constant S_ .f32 0x00000000#32 : (⟨S_, .f32⟩ : BufTy).Contents (Elt F))) : (⟨S640000x128, .f32⟩ : BufTy).Contents (Elt F))) : (⟨S640000x128, .f32⟩ : BufTy).Contents (Elt F))⟩] concatenates_S640000x128_S640000x128_S640000x128_S640000x384_d1 : (⟨S640000x384, .f32⟩ : BufTy).Contents (Elt F))) ((W (Proc.devRef .tc main_arg17) : (⟨S384x256, .f32⟩ : BufTy).Contents (Elt F))) : (⟨S640000x256, .f32⟩ : BufTy).Contents (Elt F))) ((broadcastInDim S640000x256 ![0, 1] bcast_S1x256_S640000x256_0_1 ((broadcastInDim S1x256 ![1] bcast_S256_S1x256_1 ((W (Proc.devRef .tc main_arg18) : (⟨S256, .f32⟩ : BufTy).Contents (Elt F))) : (⟨S1x256, .f32⟩ : BufTy).Contents (Elt F))) : (⟨S640000x256, .f32⟩ : BufTy).Contents (Elt F))) : (⟨S640000x256, .f32⟩ : BufTy).Contents (Elt F))) ((broadcastInDim S640000x256 ![] bcast_S_S640000x256 ((constant S_ .f32 0x00000000#32 : (⟨S_, .f32⟩ : BufTy).Contents (Elt F))) : (⟨S640000x256, .f32⟩ : BufTy).Contents (Elt F))) : (⟨S640000x256, .f32⟩ : BufTy).Contents (Elt F))) ((W (Proc.devRef .tc main_arg19) : (⟨S256x1, .f32⟩ : BufTy).Contents (Elt F))) : (⟨S640000x1, .f32⟩ : BufTy).Contents (Elt F))) ((broadcastInDim S640000x1 ![0, 1] bcast_S1x1_S640000x1_0_1 ((broadcastInDim S1x1 ![1] bcast_S1_S1x1_1 ((W (Proc.devRef .tc main_arg20) : (⟨S1, .f32⟩ : BufTy).Contents (Elt F))) : (⟨S1x1, .f32⟩ : BufTy).Contents (Elt F))) : (⟨S640000x1, .f32⟩ : BufTy).Contents (Elt F))) : (⟨S640000x1, .f32⟩ : BufTy).Contents (Elt F))) : (⟨S640000x1, .f32⟩ : BufTy).Contents (Elt F))) : (⟨S640000x1, .f32⟩ : BufTy).Contents (Elt F))) : (⟨S640000x1, .f32⟩ : BufTy).Contents (Elt F))) : (⟨S640000x1, .f32⟩ : BufTy).Contents (Elt F)) := by
  after_results_simp3 <;> rfl

end Cert.ReferenceIdeal.Hand

end
-- ==== Proof.RefTerms.lean ====
/-
  The reference program's values as closed expressions of the launch contents, for any float values: one
  definition per named value, each operation spelled as the program prints it, a value's operands the earlier
  definitions (an operand that has no name of its own written out in place).
-/
import proofs.«143299_j13005160972635_2_alg».proof.Proof.RefRead

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- %1: the first row of the index table, as a vector. -/
def rSrc (V : Valuation τ sig (Elt F)) : (⟨S640000, .i32⟩ : BufTy).Contents (Elt F) :=
  shapeCast S640000 (extractStridedSlice S1x640000 ![0, 0] ((V (Proc.devRef .tc main_arg2) : (⟨S2x640000, .i32⟩ : BufTy).Contents (Elt F))) slices_S2x640000_S1x640000_0_0 : (⟨S1x640000, .i32⟩ : BufTy).Contents (Elt F)) shapeCasts_S1x640000_S640000

/-- %3: the second row of the index table, as a vector. -/
def rDst (V : Valuation τ sig (Elt F)) : (⟨S640000, .i32⟩ : BufTy).Contents (Elt F) :=
  shapeCast S640000 (extractStridedSlice S1x640000 ![1, 0] ((V (Proc.devRef .tc main_arg2) : (⟨S2x640000, .i32⟩ : BufTy).Contents (Elt F))) slices_S2x640000_S1x640000_1_0 : (⟨S1x640000, .i32⟩ : BufTy).Contents (Elt F)) shapeCasts_S1x640000_S640000

/-- %7: the first linear map of the node array, with its bias. -/
def rAx (V : Valuation τ sig (Elt F)) : (⟨S40000x128, .f32⟩ : BufTy).Contents (Elt F) :=
  addf ((Host.dotGeneral dot_S40000x128_S128x128_S40000x128_1_0_0_1_n_n none ((V (Proc.devRef .tc main_arg0) : (⟨S40000x128, .f32⟩ : BufTy).Contents (Elt F))) ((V (Proc.devRef .tc main_arg3) : (⟨S128x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((V (Proc.devRef .tc main_arg4) : (⟨S128, .f32⟩ : BufTy).Contents (Elt F))) : (⟨S1x128, .f32⟩ : BufTy).Contents (Elt F))) : (⟨S40000x128, .f32⟩ : BufTy).Contents (Elt F)))

/-- %11: the second. -/
def rBx (V : Valuation τ sig (Elt F)) : (⟨S40000x128, .f32⟩ : BufTy).Contents (Elt F) :=
  addf ((Host.dotGeneral dot_S40000x128_S128x128_S40000x128_1_0_0_1_n_n none ((V (Proc.devRef .tc main_arg0) : (⟨S40000x128, .f32⟩ : BufTy).Contents (Elt F))) ((V (Proc.devRef .tc main_arg5) : (⟨S128x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((V (Proc.devRef .tc main_arg6) : (⟨S128, .f32⟩ : BufTy).Contents (Elt F))) : (⟨S1x128, .f32⟩ : BufTy).Contents (Elt F))) : (⟨S40000x128, .f32⟩ : BufTy).Contents (Elt F)))

/-- %15: the linear map of the edge array, with its bias. -/
def rCe (V : Valuation τ sig (Elt F)) : (⟨S640000x128, .f32⟩ : BufTy).Contents (Elt F) :=
  addf ((Host.dotGeneral dot_S640000x128_S128x128_S640000x128_1_0_0_1_n_n none ((V (Proc.devRef .tc main_arg1) : (⟨S640000x128, .f32⟩ : BufTy).Contents (Elt F))) ((V (Proc.devRef .tc main_arg7) : (⟨S128x128, .f32⟩ : BufTy).Contents (Elt F))) : (⟨S640000x128, .f32⟩ : BufTy).Contents (Elt F))) ((broadcastInDim S640000x128 ![0, 1] bcast_S1x128_S640000x128_0_1 ((broadcastInDim S1x128 ![1] bcast_S128_S1x128_1 ((V (Proc.devRef .tc main_arg8) : (⟨S128, .f32⟩ : BufTy).Contents (Elt F))) : (⟨S1x128, .f32⟩ : BufTy).Contents (Elt F))) : (⟨S640000x128, .f32⟩ : BufTy).Contents (Elt F)))

/-- %19: the fourth linear map of the node array. -/
def rDx (V : Valuation τ sig (Elt F)) : (⟨S40000x128, .f32⟩ : BufTy).Contents (Elt F) :=
  addf ((Host.dotGeneral dot_S40000x128_S128x128_S40000x128_1_0_0_1_n_n none ((V (Proc.devRef .tc main_arg0) : (⟨S40000x128, .f32⟩ : BufTy).Contents (Elt F))) ((V (Proc.devRef .tc main_arg9) : (⟨S128x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((V (Proc.devRef .tc main_arg10) : (⟨S128, .f32⟩ : BufTy).Contents (Elt F))) : (⟨S1x128, .f32⟩ : BufTy).Contents (Elt F))) : (⟨S40000x128, .f32⟩ : BufTy).Contents (Elt F)))

/-- %23: the fifth. -/
def rEx (V : Valuation τ sig (Elt F)) : (⟨S40000x128, .f32⟩ : BufTy).Contents (Elt F) :=
  addf ((Host.dotGeneral dot_S40000x128_S128x128_S40000x128_1_0_0_1_n_n none ((V (Proc.devRef .tc main_arg0) : (⟨S40000x128, .f32⟩ : BufTy).Contents (Elt F))) ((V (Proc.devRef .tc main_arg11) : (⟨S128x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((V (Proc.devRef .tc main_arg12) : (⟨S128, .f32⟩ : BufTy).Contents (Elt F))) : (⟨S1x128, .f32⟩ : BufTy).Contents (Elt F))) : (⟨S40000x128, .f32⟩ : BufTy).Contents (Elt F)))

/-- %30: the rows of `rDx` at the second index row (negative indices wrapped by 40000). -/
def rDxd (V : Valuation τ sig (Elt F)) : (⟨S640000x128, .f32⟩ : BufTy).Contents (Elt F) :=
  Host.gather gather_S40000x128_S640000x1_S640000x128_1_0_n_n_0_1_1128 (rDx V) ((broadcastInDim S640000x1 ![0] bcast_S640000_S640000x1_0 ((select ((cmpi .slt (rDst V) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi (rDst V) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) (rDst V) : (⟨S640000, .i32⟩ : BufTy).Contents (Elt F))) : (⟨S640000x1, .i32⟩ : BufTy).Contents (Elt F)))

/-- %37: the rows of `rEx` at the first index row, likewise. -/
def rExs (V : Valuation τ sig (Elt F)) : (⟨S640000x128, .f32⟩ : BufTy).Contents (Elt F) :=
  Host.gather gather_S40000x128_S640000x1_S640000x128_1_0_n_n_0_1_1128 (rEx V) ((broadcastInDim S640000x1 ![0] bcast_S640000_S640000x1_0 ((select ((cmpi .slt (rSrc V) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi (rSrc V) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) (rSrc V) : (⟨S640000, .i32⟩ : BufTy).Contents (Elt F))) : (⟨S640000x1, .i32⟩ : BufTy).Contents (Elt F)))

/-- %39: their sum with the edge map. -/
def rEij (V : Valuation τ sig (Elt F)) : (⟨S640000x128, .f32⟩ : BufTy).Contents (Elt F) :=
  addf ((addf (rDxd V) (rExs V) : (⟨S640000x128, .f32⟩ : BufTy).Contents (Elt F))) (rCe V)

/-- %45: the logistic function of it, one over one plus the exponential of the negation. -/
def rSig (V : Valuation τ sig (Elt F)) : (⟨S640000x128, .f32⟩ : BufTy).Contents (Elt F) :=
  Host.divf ((broadcastInDim S640000x128 ![] bcast_S_S640000x128 ((constant S_ .f32 0x3F800000#32 : (⟨S_, .f32⟩ : BufTy).Contents (Elt F))) : (⟨S640000x128, .f32⟩ : BufTy).Contents (Elt F))) ((addf ((broadcastInDim S640000x128 ![] bcast_S_S640000x128 ((constant S_ .f32 0x3F800000#32 : (⟨S_, .f32⟩ : BufTy).Contents (Elt F))) : (⟨S640000x128, .f32⟩ : BufTy).Contents (Elt F))) ((Host.exp ((Host.negf (rEij V) : (⟨S640000x128, .f32⟩ : BufTy).Contents (Elt F))) : (⟨S640000x128, .f32⟩ : BufTy).Contents (Elt F))) : (⟨S640000x128, .f32⟩ : BufTy).Contents (Elt F)))

/-- %52: the rows of `rBx` at the first index row. -/
def rBxs (V : Valuation τ sig (Elt F)) : (⟨S640000x128, .f32⟩ : BufTy).Contents (Elt F) :=
  Host.gather gather_S40000x128_S640000x1_S640000x128_1_0_n_n_0_1_1128 (rBx V) ((broadcastInDim S640000x1 ![0] bcast_S640000_S640000x1_0 ((select ((cmpi .slt (rSrc V) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi (rSrc V) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) (rSrc V) : (⟨S640000, .i32⟩ : BufTy).Contents (Elt F))) : (⟨S640000x1, .i32⟩ : BufTy).Contents (Elt F)))

/-- %53: the gated message. -/
def rNumt (V : Valuation τ sig (Elt F)) : (⟨S640000x128, .f32⟩ : BufTy).Contents (Elt F) :=
  mulf (rSig V) (rBxs V)

/-- %63: the node map plus the quotient of the two scatter-adds at the second index row (the gated messages over the gates plus the small constant). -/
def rPre (V : Valuation τ sig (Elt F)) : (⟨S40000x128, .f32⟩ : BufTy).Contents (Elt F) :=
  addf (rAx V) ((Host.divf ((Host.scatterAdd scatter_S40000x128_S640000x1_S640000x128_1_0_0_1 ((broadcastInDim S40000x128 ![] bcast_S_S40000x128 ((constant S_ .f32 0x00000000#32 : (⟨S_, .f32⟩ : BufTy).Contents (Elt F))) : (⟨S40000x128, .f32⟩ : BufTy).Contents (Elt F))) ((broadcastInDim S640000x1 ![0] bcast_S640000_S640000x1_0 (rDst V) : (⟨S640000x1, .i32⟩ : BufTy).Contents (Elt F))) (rNumt V) : (⟨S40000x128, .f32⟩ : BufTy).Contents (Elt F))) ((addf ((Host.scatterAdd scatter_S40000x128_S640000x1_S640000x128_1_0_0_1 ((broadcastInDim S40000x128 ![] bcast_S_S40000x128 ((constant S_ .f32 0x00000000#32 : (⟨S_, .f32⟩ : BufTy).Contents (Elt F))) : (⟨S40000x128, .f32⟩ : BufTy).Contents (Elt F))) ((broadcastInDim S640000x1 ![0] bcast_S640000_S640000x1_0 (rDst V) : (⟨S640000x1, .i32⟩ : BufTy).Contents (Elt F))) (rSig V) : (⟨S40000x128, .f32⟩ : BufTy).Contents (Elt F))) ((broadcastInDim S40000x128 ![] bcast_S_S40000x128 ((constant S_ .f32 0x358637BD#32 : (⟨S_, .f32⟩ : BufTy).Contents (Elt F))) : (⟨S40000x128, .f32⟩ : BufTy).Contents (Elt F))) : (⟨S40000x128, .f32⟩ : BufTy).Contents (Elt F))) : (⟨S40000x128, .f32⟩ : BufTy).Contents (Elt F)))

/-- %66: its column mean. -/
def rMu (V : Valuation τ sig (Elt F)) : (⟨S128, .f32⟩ : BufTy).Contents (Elt F) :=
  Host.divf ((Host.reduceAdd (rPre V) ((constant S_ .f32 0x00000000#32 : (⟨S_, .f32⟩ : BufTy).Contents (Elt F))) reducesTo_S40000x128_S128_d0 h_S_ : (⟨S128, .f32⟩ : BufTy).Contents (Elt F))) ((broadcastInDim S128 ![] bcast_S_S128 ((constant S_ .f32 0x471C4000#32 : (⟨S_, .f32⟩ : BufTy).Contents (Elt F))) : (⟨S128, .f32⟩ : BufTy).Contents (Elt F)))

/-- %67: its column variance. -/
def rVar (V : Valuation τ sig (Elt F)) : (⟨S128, .f32⟩ : BufTy).Contents (Elt F) :=
  varCols40000 (rPre V)

/-- %73: the reciprocal square root of the variance plus the small constant. -/
def rInv (V : Valuation τ sig (Elt F)) : (⟨S128, .f32⟩ : BufTy).Contents (Elt F) :=
  Host.rsqrt ((addf (rVar V) ((broadcastInDim S128 ![] bcast_S_S128 ((constant S_ .f32 0x3727C5AC#32 : (⟨S_, .f32⟩ : BufTy).Contents (Elt F))) : (⟨S128, .f32⟩ : BufTy).Contents (Elt F))) : (⟨S128, .f32⟩ : BufTy).Contents (Elt F)))

/-- %83, the first result: the normalised, scaled and shifted node features, clamped below at zero. -/
def rXout (V : Valuation τ sig (Elt F)) : (⟨S40000x128, .f32⟩ : BufTy).Contents (Elt F) :=
  maximumf ((addf ((mulf ((mulf ((subf (rPre V) ((broadcastInDim S40000x128 ![0, 1] bcast_S1x128_S40000x128_0_1 ((broadcastInDim S1x128 ![1] bcast_S128_S1x128_1 (rMu V) : (⟨S1x128, .f32⟩ : BufTy).Contents (Elt F))) : (⟨S40000x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 (rInv V) : (⟨S1x128, .f32⟩ : BufTy).Contents (Elt F))) : (⟨S40000x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((V (Proc.devRef .tc main_arg13) : (⟨S128, .f32⟩ : BufTy).Contents (Elt F))) : (⟨S1x128, .f32⟩ : BufTy).Contents (Elt F))) : (⟨S40000x128, .f32⟩ : BufTy).Contents (Elt F))) : (⟨S40000x128, .f32⟩ : BufTy).Contents (Elt F))) ((broadcastInDim S40000x128 ![0, 1] bcast_S1x128_S40000x128_0_1 ((broadcastInDim S1x128 ![1] bcast_S128_S1x128_1 ((V (Proc.devRef .tc main_arg14) : (⟨S128, .f32⟩ : BufTy).Contents (Elt F))) : (⟨S1x128, .f32⟩ : BufTy).Contents (Elt F))) : (⟨S40000x128, .f32⟩ : BufTy).Contents (Elt F))) : (⟨S40000x128, .f32⟩ : BufTy).Contents (Elt F))) ((broadcastInDim S40000x128 ![] bcast_S_S40000x128 ((constant S_ .f32 0x00000000#32 : (⟨S_, .f32⟩ : BufTy).Contents (Elt F))) : (⟨S40000x128, .f32⟩ : BufTy).Contents (Elt F)))

/-- %86: the column mean of `rEij`. -/
def rMuE (V : Valuation τ sig (Elt F)) : (⟨S128, .f32⟩ : BufTy).Contents (Elt F) :=
  Host.divf ((Host.reduceAdd (rEij V) ((constant S_ .f32 0x00000000#32 : (⟨S_, .f32⟩ : BufTy).Contents (Elt F))) reducesTo_S640000x128_S128_d0 h_S_ : (⟨S128, .f32⟩ : BufTy).Contents (Elt F))) ((broadcastInDim S128 ![] bcast_S_S128 ((constant S_ .f32 0x491C4000#32 : (⟨S_, .f32⟩ : BufTy).Contents (Elt F))) : (⟨S128, .f32⟩ : BufTy).Contents (Elt F)))

/-- %87: its column variance. -/
def rVarE (V : Valuation τ sig (Elt F)) : (⟨S128, .f32⟩ : BufTy).Contents (Elt F) :=
  varCols640000 (rEij V)

/-- %93: the reciprocal square root of that variance plus the small constant. -/
def rInvE (V : Valuation τ sig (Elt F)) : (⟨S128, .f32⟩ : BufTy).Contents (Elt F) :=
  Host.rsqrt ((addf (rVarE V) ((broadcastInDim S128 ![] bcast_S_S128 ((constant S_ .f32 0x3727C5AC#32 : (⟨S_, .f32⟩ : BufTy).Contents (Elt F))) : (⟨S128, .f32⟩ : BufTy).Contents (Elt F))) : (⟨S128, .f32⟩ : BufTy).Contents (Elt F)))

/-- %103, the second result: the normalised, scaled and shifted edge features, clamped below at zero. -/
def rEout (V : Valuation τ sig (Elt F)) : (⟨S640000x128, .f32⟩ : BufTy).Contents (Elt F) :=
  maximumf ((addf ((mulf ((mulf ((subf (rEij V) ((broadcastInDim S640000x128 ![0, 1] bcast_S1x128_S640000x128_0_1 ((broadcastInDim S1x128 ![1] bcast_S128_S1x128_1 (rMuE V) : (⟨S1x128, .f32⟩ : BufTy).Contents (Elt F))) : (⟨S640000x128, .f32⟩ : BufTy).Contents (Elt F))) : (⟨S640000x128, .f32⟩ : BufTy).Contents (Elt F))) ((broadcastInDim S640000x128 ![0, 1] bcast_S1x128_S640000x128_0_1 ((broadcastInDim S1x128 ![1] bcast_S128_S1x128_1 (rInvE V) : (⟨S1x128, .f32⟩ : BufTy).Contents (Elt F))) : (⟨S640000x128, .f32⟩ : BufTy).Contents (Elt F))) : (⟨S640000x128, .f32⟩ : BufTy).Contents (Elt F))) ((broadcastInDim S640000x128 ![0, 1] bcast_S1x128_S640000x128_0_1 ((broadcastInDim S1x128 ![1] bcast_S128_S1x128_1 ((V (Proc.devRef .tc main_arg15) : (⟨S128, .f32⟩ : BufTy).Contents (Elt F))) : (⟨S1x128, .f32⟩ : BufTy).Contents (Elt F))) : (⟨S640000x128, .f32⟩ : BufTy).Contents (Elt F))) : (⟨S640000x128, .f32⟩ : BufTy).Contents (Elt F))) ((broadcastInDim S640000x128 ![0, 1] bcast_S1x128_S640000x128_0_1 ((broadcastInDim S1x128 ![1] bcast_S128_S1x128_1 ((V (Proc.devRef .tc main_arg16) : (⟨S128, .f32⟩ : BufTy).Contents (Elt F))) : (⟨S1x128, .f32⟩ : BufTy).Contents (Elt F))) : (⟨S640000x128, .f32⟩ : BufTy).Contents (Elt F))) : (⟨S640000x128, .f32⟩ : BufTy).Contents (Elt F))) ((broadcastInDim S640000x128 ![] bcast_S_S640000x128 ((constant S_ .f32 0x00000000#32 : (⟨S_, .f32⟩ : BufTy).Contents (Elt F))) : (⟨S640000x128, .f32⟩ : BufTy).Contents (Elt F)))

/-- %110: the rows of the first result at the first index row. -/
def rXs (V : Valuation τ sig (Elt F)) : (⟨S640000x128, .f32⟩ : BufTy).Contents (Elt F) :=
  Host.gather gather_S40000x128_S640000x1_S640000x128_1_0_n_n_0_1_1128 (rXout V) ((broadcastInDim S640000x1 ![0] bcast_S640000_S640000x1_0 ((select ((cmpi .slt (rSrc V) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi (rSrc V) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) (rSrc V) : (⟨S640000, .i32⟩ : BufTy).Contents (Elt F))) : (⟨S640000x1, .i32⟩ : BufTy).Contents (Elt F)))

/-- %117: at the second. -/
def rXd (V : Valuation τ sig (Elt F)) : (⟨S640000x128, .f32⟩ : BufTy).Contents (Elt F) :=
  Host.gather gather_S40000x128_S640000x1_S640000x128_1_0_n_n_0_1_1128 (rXout V) ((broadcastInDim S640000x1 ![0] bcast_S640000_S640000x1_0 ((select ((cmpi .slt (rDst V) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi (rDst V) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) (rDst V) : (⟨S640000, .i32⟩ : BufTy).Contents (Elt F))) : (⟨S640000x1, .i32⟩ : BufTy).Contents (Elt F)))

/-- %133, the third result: the logistic function of the two-layer map of the three pieces side by side. -/
def rScores (V : Valuation τ sig (Elt F)) : (⟨S640000x1, .f32⟩ : BufTy).Contents (Elt F) :=
  Host.divf ((broadcastInDim S640000x1 ![] bcast_S_S640000x1 ((constant S_ .f32 0x3F800000#32 : (⟨S_, .f32⟩ : BufTy).Contents (Elt F))) : (⟨S640000x1, .f32⟩ : BufTy).Contents (Elt F))) ((addf ((broadcastInDim S640000x1 ![] bcast_S_S640000x1 ((constant S_ .f32 0x3F800000#32 : (⟨S_, .f32⟩ : BufTy).Contents (Elt F))) : (⟨S640000x1, .f32⟩ : BufTy).Contents (Elt F))) ((Host.exp ((Host.negf ((addf ((Host.dotGeneral dot_S640000x256_S256x1_S640000x1_1_0_0_1_n_n none ((maximumf ((addf ((Host.dotGeneral dot_S640000x384_S384x256_S640000x256_1_0_0_1_n_n none ((concatenate S640000x384 1 [⟨S640000x128, rXs V⟩, ⟨S640000x128, rXd V⟩, ⟨S640000x128, rEout V⟩] concatenates_S640000x128_S640000x128_S640000x128_S640000x384_d1 : (⟨S640000x384, .f32⟩ : BufTy).Contents (Elt F))) ((V (Proc.devRef .tc main_arg17) : (⟨S384x256, .f32⟩ : BufTy).Contents (Elt F))) : (⟨S640000x256, .f32⟩ : BufTy).Contents (Elt F))) ((broadcastInDim S640000x256 ![0, 1] bcast_S1x256_S640000x256_0_1 ((broadcastInDim S1x256 ![1] bcast_S256_S1x256_1 ((V (Proc.devRef .tc main_arg18) : (⟨S256, .f32⟩ : BufTy).Contents (Elt F))) : (⟨S1x256, .f32⟩ : BufTy).Contents (Elt F))) : (⟨S640000x256, .f32⟩ : BufTy).Contents (Elt F))) : (⟨S640000x256, .f32⟩ : BufTy).Contents (Elt F))) ((broadcastInDim S640000x256 ![] bcast_S_S640000x256 ((constant S_ .f32 0x00000000#32 : (⟨S_, .f32⟩ : BufTy).Contents (Elt F))) : (⟨S640000x256, .f32⟩ : BufTy).Contents (Elt F))) : (⟨S640000x256, .f32⟩ : BufTy).Contents (Elt F))) ((V (Proc.devRef .tc main_arg19) : (⟨S256x1, .f32⟩ : BufTy).Contents (Elt F))) : (⟨S640000x1, .f32⟩ : BufTy).Contents (Elt F))) ((broadcastInDim S640000x1 ![0, 1] bcast_S1x1_S640000x1_0_1 ((broadcastInDim S1x1 ![1] bcast_S1_S1x1_1 ((V (Proc.devRef .tc main_arg20) : (⟨S1, .f32⟩ : BufTy).Contents (Elt F))) : (⟨S1x1, .f32⟩ : BufTy).Contents (Elt F))) : (⟨S640000x1, .f32⟩ : BufTy).Contents (Elt F))) : (⟨S640000x1, .f32⟩ : BufTy).Contents (Elt F))) : (⟨S640000x1, .f32⟩ : BufTy).Contents (Elt F))) : (⟨S640000x1, .f32⟩ : BufTy).Contents (Elt F))) : (⟨S640000x1, .f32⟩ : BufTy).Contents (Elt F)))

end Cert.ReferenceIdeal.Hand

end
-- ==== Proof.JoinBase.lean ====
import proofs.«143299_j13005160972635_2_alg».proof.Proof.KTerms
import proofs.«143299_j13005160972635_2_alg».proof.Proof.RefTerms
import proofs.«143299_j13005160972635_2_alg».proof.Proof.Gen.KernelIdeal
import proofs.«143299_j13005160972635_2_alg».proof.Proof.Gen.ReferenceIdeal
import proofs.«143299_j13005160972635_2_alg».proof.Proof.Gen.Pre_finite_inputs

set_option maxRecDepth 16384

noncomputable section

/-! # The two programs' results are one function of the arguments

With the arguments agreeing, the kernel program's closed expressions are rewritten, piece by piece, into the reference's. -/

namespace Cert.Bridge

open Idealize.ShloMosaic Idealize.ShloMosaic.TcCoe Idealize.ShloMosaic.ValueIdx
open Idealize.SL.Sem
open Cert.KernelIdeal.Hand Cert.ReferenceIdeal.Hand

attribute [local irreducible] Host.reduceAdd Host.gather Host.scatterAdd

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories agree on the twenty-one arguments of core `c`. -/
def Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

/-- The reference's launch contents on core `c`. -/
abbrev RV : Valuation Cert.ReferenceIdeal.τ Cert.ReferenceIdeal.sig (Elt Ideal) := StableHlo.launchContents m' c

set_option backward.isDefEq.respectTransparency.types false

variable (hag : Agree m m' c)
include hag

theorem arg0_agree : RV m' c (Proc.devRef .tc Cert.ReferenceIdeal.main_arg0) = m ((c.tc : Thread Cert.KernelIdeal.nD Cert.KernelIdeal.τ).loc Cert.KernelIdeal.main_arg0) := (hag).1
theorem arg1_agree : RV m' c (Proc.devRef .tc Cert.ReferenceIdeal.main_arg1) = m ((c.tc : Thread Cert.KernelIdeal.nD Cert.KernelIdeal.τ).loc Cert.KernelIdeal.main_arg1) := ((hag).2).1
theorem arg2_agree : RV m' c (Proc.devRef .tc Cert.ReferenceIdeal.main_arg2) = m ((c.tc : Thread Cert.KernelIdeal.nD Cert.KernelIdeal.τ).loc Cert.KernelIdeal.main_arg2) := (((hag).2).2).1
theorem arg3_agree : RV m' c (Proc.devRef .tc Cert.ReferenceIdeal.main_arg3) = m ((c.tc : Thread Cert.KernelIdeal.nD Cert.KernelIdeal.τ).loc Cert.KernelIdeal.main_arg3) := ((((hag).2).2).2).1
theorem arg4_agree : RV m' c (Proc.devRef .tc Cert.ReferenceIdeal.main_arg4) = m ((c.tc : Thread Cert.KernelIdeal.nD Cert.KernelIdeal.τ).loc Cert.KernelIdeal.main_arg4) := (((((hag).2).2).2).2).1
theorem arg5_agree : RV m' c (Proc.devRef .tc Cert.ReferenceIdeal.main_arg5) = m ((c.tc : Thread Cert.KernelIdeal.nD Cert.KernelIdeal.τ).loc Cert.KernelIdeal.main_arg5) := ((((((hag).2).2).2).2).2).1
theorem arg6_agree : RV m' c (Proc.devRef .tc Cert.ReferenceIdeal.main_arg6) = m ((c.tc : Thread Cert.KernelIdeal.nD Cert.KernelIdeal.τ).loc Cert.KernelIdeal.main_arg6) := (((((((hag).2).2).2).2).2).2).1
theorem arg7_agree : RV m' c (Proc.devRef .tc Cert.ReferenceIdeal.main_arg7) = m ((c.tc : Thread Cert.KernelIdeal.nD Cert.KernelIdeal.τ).loc Cert.KernelIdeal.main_arg7) := ((((((((hag).2).2).2).2).2).2).2).1
theorem arg8_agree : RV m' c (Proc.devRef .tc Cert.ReferenceIdeal.main_arg8) = m ((c.tc : Thread Cert.KernelIdeal.nD Cert.KernelIdeal.τ).loc Cert.KernelIdeal.main_arg8) := (((((((((hag).2).2).2).2).2).2).2).2).1
theorem arg9_agree : RV m' c (Proc.devRef .tc Cert.ReferenceIdeal.main_arg9) = m ((c.tc : Thread Cert.KernelIdeal.nD Cert.KernelIdeal.τ).loc Cert.KernelIdeal.main_arg9) := ((((((((((hag).2).2).2).2).2).2).2).2).2).1
theorem arg10_agree : RV m' c (Proc.devRef .tc Cert.ReferenceIdeal.main_arg10) = m ((c.tc : Thread Cert.KernelIdeal.nD Cert.KernelIdeal.τ).loc Cert.KernelIdeal.main_arg10) := (((((((((((hag).2).2).2).2).2).2).2).2).2).2).1
theorem arg11_agree : RV m' c (Proc.devRef .tc Cert.ReferenceIdeal.main_arg11) = m ((c.tc : Thread Cert.KernelIdeal.nD Cert.KernelIdeal.τ).loc Cert.KernelIdeal.main_arg11) := ((((((((((((hag).2).2).2).2).2).2).2).2).2).2).2).1
theorem arg12_agree : RV m' c (Proc.devRef .tc Cert.ReferenceIdeal.main_arg12) = m ((c.tc : Thread Cert.KernelIdeal.nD Cert.KernelIdeal.τ).loc Cert.KernelIdeal.main_arg12) := (((((((((((((hag).2).2).2).2).2).2).2).2).2).2).2).2).1
theorem arg13_agree : RV m' c (Proc.devRef .tc Cert.ReferenceIdeal.main_arg13) = m ((c.tc : Thread Cert.KernelIdeal.nD Cert.KernelIdeal.τ).loc Cert.KernelIdeal.main_arg13) := ((((((((((((((hag).2).2).2).2).2).2).2).2).2).2).2).2).2).1
theorem arg14_agree : RV m' c (Proc.devRef .tc Cert.ReferenceIdeal.main_arg14) = m ((c.tc : Thread Cert.KernelIdeal.nD Cert.KernelIdeal.τ).loc Cert.KernelIdeal.main_arg14) := (((((((((((((((hag).2).2).2).2).2).2).2).2).2).2).2).2).2).2).1
theorem arg15_agree : RV m' c (Proc.devRef .tc Cert.ReferenceIdeal.main_arg15) = m ((c.tc : Thread Cert.KernelIdeal.nD Cert.KernelIdeal.τ).loc Cert.KernelIdeal.main_arg15) := ((((((((((((((((hag).2).2).2).2).2).2).2).2).2).2).2).2).2).2).2).1
theorem arg16_agree : RV m' c (Proc.devRef .tc Cert.ReferenceIdeal.main_arg16) = m ((c.tc : Thread Cert.KernelIdeal.nD Cert.KernelIdeal.τ).loc Cert.KernelIdeal.main_arg16) := (((((((((((((((((hag).2).2).2).2).2).2).2).2).2).2).2).2).2).2).2).2).1
theorem arg17_agree : RV m' c (Proc.devRef .tc Cert.ReferenceIdeal.main_arg17) = m ((c.tc : Thread Cert.KernelIdeal.nD Cert.KernelIdeal.τ).loc Cert.KernelIdeal.main_arg17) := ((((((((((((((((((hag).2).2).2).2).2).2).2).2).2).2).2).2).2).2).2).2).2).1
theorem arg18_agree : RV m' c (Proc.devRef .tc Cert.ReferenceIdeal.main_arg18) = m ((c.tc : Thread Cert.KernelIdeal.nD Cert.KernelIdeal.τ).loc Cert.KernelIdeal.main_arg18) := (((((((((((((((((((hag).2).2).2).2).2).2).2).2).2).2).2).2).2).2).2).2).2).2).1
theorem arg19_agree : RV m' c (Proc.devRef .tc Cert.ReferenceIdeal.main_arg19) = m ((c.tc : Thread Cert.KernelIdeal.nD Cert.KernelIdeal.τ).loc Cert.KernelIdeal.main_arg19) := ((((((((((((((((((((hag).2).2).2).2).2).2).2).2).2).2).2).2).2).2).2).2).2).2).2).1
theorem arg20_agree : RV m' c (Proc.devRef .tc Cert.ReferenceIdeal.main_arg20) = m ((c.tc : Thread Cert.KernelIdeal.nD Cert.KernelIdeal.τ).loc Cert.KernelIdeal.main_arg20) := ((((((((((((((((((((hag).2).2).2).2).2).2).2).2).2).2).2).2).2).2).2).2).2).2).2).2

theorem src_eq : rSrc (RV m' c) = kSrc m c := by
  unfold rSrc kSrc
  rw [arg2_agree m m' c hag]

theorem dst_eq : rDst (RV m' c) = kDst m c := by
  unfold rDst kDst
  rw [arg2_agree m m' c hag]

end Cert.Bridge

end
-- ==== Proof.BridgeProj.lean ====
import proofs.«143299_j13005160972635_2_alg».proof.Proof.Val0
import proofs.«143299_j13005160972635_2_alg».proof.ReferenceIdeal
import proofs.«143299_j13005160972635_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.ValueIdx

/-! # The node projection against the reference's four separate projections

The kernel's program lays the four 128 x 128 weight matrices side by side into one 128 x 512 matrix and the four bias
vectors end to end into one row of 512, multiplies once, and cuts the 40000 x 512 result back into column bands. The
reference multiplies by each weight matrix separately and adds each bias vector laid along every row. Entry by entry
the two are the same sum: column `128 m + j` of the wide product only meets column `j` of the `m`-th matrix and
entry `j` of the `m`-th bias vector. -/

section Pieces
variable {α : Type}

/-! ## Four pieces of one shape, read at an index along the joined axis -/

/-- Four 128 x 128 matrices side by side: column `0 + j` of the 128 x 512 matrix is column `j` of piece 0. -/
theorem cat4_cols_0 (x0 x1 x2 x3 : (⟨2, ![128, 128]⟩ : Shape).Idx → α)
    (h : Shape.Concatenates [(⟨2, ![128, 128]⟩ : Shape), ⟨2, ![128, 128]⟩, ⟨2, ![128, 128]⟩, ⟨2, ![128, 128]⟩] ⟨2, ![128, 512]⟩ 1)
    (c : Fin 128) (j : Fin 128) (k : Fin 512) (hk : k.val = 0 + j.val) :
    concatenate ⟨2, ![128, 512]⟩ 1 [⟨⟨2, ![128, 128]⟩, x0⟩, ⟨⟨2, ![128, 128]⟩, x1⟩, ⟨⟨2, ![128, 128]⟩, x2⟩, ⟨⟨2, ![128, 128]⟩, x3⟩] h (ix2 c k)
      = x0 (ix2 c j) :=
  concatenate_apply_piece 1 [⟨⟨2, ![128, 128]⟩, x0⟩, ⟨⟨2, ![128, 128]⟩, x1⟩, ⟨⟨2, ![128, 128]⟩, x2⟩, ⟨⟨2, ![128, 128]⟩, x3⟩] h (ix2 c k) 0
    (by show 0 < 4; omega) ⟨2, ![128, 128]⟩ x0 rfl rfl 0 (by first | rfl | simp) (ix2 c j)
    (fun b hb => by
      match b with
      | ⟨0, _⟩ => rfl
      | ⟨1, _⟩ => exact absurd rfl hb)
    (by show 0 + j.val = k.val; omega)

/-- Four 128 x 128 matrices side by side: column `128 + j` of the 128 x 512 matrix is column `j` of piece 1. -/
theorem cat4_cols_1 (x0 x1 x2 x3 : (⟨2, ![128, 128]⟩ : Shape).Idx → α)
    (h : Shape.Concatenates [(⟨2, ![128, 128]⟩ : Shape), ⟨2, ![128, 128]⟩, ⟨2, ![128, 128]⟩, ⟨2, ![128, 128]⟩] ⟨2, ![128, 512]⟩ 1)
    (c : Fin 128) (j : Fin 128) (k : Fin 512) (hk : k.val = 128 + j.val) :
    concatenate ⟨2, ![128, 512]⟩ 1 [⟨⟨2, ![128, 128]⟩, x0⟩, ⟨⟨2, ![128, 128]⟩, x1⟩, ⟨⟨2, ![128, 128]⟩, x2⟩, ⟨⟨2, ![128, 128]⟩, x3⟩] h (ix2 c k)
      = x1 (ix2 c j) :=
  concatenate_apply_piece 1 [⟨⟨2, ![128, 128]⟩, x0⟩, ⟨⟨2, ![128, 128]⟩, x1⟩, ⟨⟨2, ![128, 128]⟩, x2⟩, ⟨⟨2, ![128, 128]⟩, x3⟩] h (ix2 c k) 1
    (by show 1 < 4; omega) ⟨2, ![128, 128]⟩ x1 rfl rfl 128 (by first | rfl | simp) (ix2 c j)
    (fun b hb => by
      match b with
      | ⟨0, _⟩ => rfl
      | ⟨1, _⟩ => exact absurd rfl hb)
    (by show 128 + j.val = k.val; omega)

/-- Four 128 x 128 matrices side by side: column `256 + j` of the 128 x 512 matrix is column `j` of piece 2. -/
theorem cat4_cols_2 (x0 x1 x2 x3 : (⟨2, ![128, 128]⟩ : Shape).Idx → α)
    (h : Shape.Concatenates [(⟨2, ![128, 128]⟩ : Shape), ⟨2, ![128, 128]⟩, ⟨2, ![128, 128]⟩, ⟨2, ![128, 128]⟩] ⟨2, ![128, 512]⟩ 1)
    (c : Fin 128) (j : Fin 128) (k : Fin 512) (hk : k.val = 256 + j.val) :
    concatenate ⟨2, ![128, 512]⟩ 1 [⟨⟨2, ![128, 128]⟩, x0⟩, ⟨⟨2, ![128, 128]⟩, x1⟩, ⟨⟨2, ![128, 128]⟩, x2⟩, ⟨⟨2, ![128, 128]⟩, x3⟩] h (ix2 c k)
      = x2 (ix2 c j) :=
  concatenate_apply_piece 1 [⟨⟨2, ![128, 128]⟩, x0⟩, ⟨⟨2, ![128, 128]⟩, x1⟩, ⟨⟨2, ![128, 128]⟩, x2⟩, ⟨⟨2, ![128, 128]⟩, x3⟩] h (ix2 c k) 2
    (by show 2 < 4; omega) ⟨2, ![128, 128]⟩ x2 rfl rfl 256 (by first | rfl | simp) (ix2 c j)
    (fun b hb => by
      match b with
      | ⟨0, _⟩ => rfl
      | ⟨1, _⟩ => exact absurd rfl hb)
    (by show 256 + j.val = k.val; omega)

/-- Four 128 x 128 matrices side by side: column `384 + j` of the 128 x 512 matrix is column `j` of piece 3. -/
theorem cat4_cols_3 (x0 x1 x2 x3 : (⟨2, ![128, 128]⟩ : Shape).Idx → α)
    (h : Shape.Concatenates [(⟨2, ![128, 128]⟩ : Shape), ⟨2, ![128, 128]⟩, ⟨2, ![128, 128]⟩, ⟨2, ![128, 128]⟩] ⟨2, ![128, 512]⟩ 1)
    (c : Fin 128) (j : Fin 128) (k : Fin 512) (hk : k.val = 384 + j.val) :
    concatenate ⟨2, ![128, 512]⟩ 1 [⟨⟨2, ![128, 128]⟩, x0⟩, ⟨⟨2, ![128, 128]⟩, x1⟩, ⟨⟨2, ![128, 128]⟩, x2⟩, ⟨⟨2, ![128, 128]⟩, x3⟩] h (ix2 c k)
      = x3 (ix2 c j) :=
  concatenate_apply_piece 1 [⟨⟨2, ![128, 128]⟩, x0⟩, ⟨⟨2, ![128, 128]⟩, x1⟩, ⟨⟨2, ![128, 128]⟩, x2⟩, ⟨⟨2, ![128, 128]⟩, x3⟩] h (ix2 c k) 3
    (by show 3 < 4; omega) ⟨2, ![128, 128]⟩ x3 rfl rfl 384 (by first | rfl | simp) (ix2 c j)
    (fun b hb => by
      match b with
      | ⟨0, _⟩ => rfl
      | ⟨1, _⟩ => exact absurd rfl hb)
    (by show 384 + j.val = k.val; omega)

/-- Four vectors of length 128 end to end: entry `0 + j` of the vector of length 512 is entry `j` of piece 0. -/
theorem cat4_vec_0 (x0 x1 x2 x3 : (⟨1, ![128]⟩ : Shape).Idx → α)
    (h : Shape.Concatenates [(⟨1, ![128]⟩ : Shape), ⟨1, ![128]⟩, ⟨1, ![128]⟩, ⟨1, ![128]⟩] ⟨1, ![512]⟩ 0)
    (j : Fin 128) (k : Fin 512) (hk : k.val = 0 + j.val) :
    concatenate ⟨1, ![512]⟩ 0 [⟨⟨1, ![128]⟩, x0⟩, ⟨⟨1, ![128]⟩, x1⟩, ⟨⟨1, ![128]⟩, x2⟩, ⟨⟨1, ![128]⟩, x3⟩] h (ix1 k)
      = x0 (ix1 j) :=
  concatenate_apply_piece 0 [⟨⟨1, ![128]⟩, x0⟩, ⟨⟨1, ![128]⟩, x1⟩, ⟨⟨1, ![128]⟩, x2⟩, ⟨⟨1, ![128]⟩, x3⟩] h (ix1 k) 0
    (by show 0 < 4; omega) ⟨1, ![128]⟩ x0 rfl rfl 0 (by first | rfl | simp) (ix1 j)
    (fun b hb => by
      match b with
      | ⟨0, _⟩ => exact absurd rfl hb)
    (by show 0 + j.val = k.val; omega)

/-- Four vectors of length 128 end to end: entry `128 + j` of the vector of length 512 is entry `j` of piece 1. -/
theorem cat4_vec_1 (x0 x1 x2 x3 : (⟨1, ![128]⟩ : Shape).Idx → α)
    (h : Shape.Concatenates [(⟨1, ![128]⟩ : Shape), ⟨1, ![128]⟩, ⟨1, ![128]⟩, ⟨1, ![128]⟩] ⟨1, ![512]⟩ 0)
    (j : Fin 128) (k : Fin 512) (hk : k.val = 128 + j.val) :
    concatenate ⟨1, ![512]⟩ 0 [⟨⟨1, ![128]⟩, x0⟩, ⟨⟨1, ![128]⟩, x1⟩, ⟨⟨1, ![128]⟩, x2⟩, ⟨⟨1, ![128]⟩, x3⟩] h (ix1 k)
      = x1 (ix1 j) :=
  concatenate_apply_piece 0 [⟨⟨1, ![128]⟩, x0⟩, ⟨⟨1, ![128]⟩, x1⟩, ⟨⟨1, ![128]⟩, x2⟩, ⟨⟨1, ![128]⟩, x3⟩] h (ix1 k) 1
    (by show 1 < 4; omega) ⟨1, ![128]⟩ x1 rfl rfl 128 (by first | rfl | simp) (ix1 j)
    (fun b hb => by
      match b with
      | ⟨0, _⟩ => exact absurd rfl hb)
    (by show 128 + j.val = k.val; omega)

/-- Four vectors of length 128 end to end: entry `256 + j` of the vector of length 512 is entry `j` of piece 2. -/
theorem cat4_vec_2 (x0 x1 x2 x3 : (⟨1, ![128]⟩ : Shape).Idx → α)
    (h : Shape.Concatenates [(⟨1, ![128]⟩ : Shape), ⟨1, ![128]⟩, ⟨1, ![128]⟩, ⟨1, ![128]⟩] ⟨1, ![512]⟩ 0)
    (j : Fin 128) (k : Fin 512) (hk : k.val = 256 + j.val) :
    concatenate ⟨1, ![512]⟩ 0 [⟨⟨1, ![128]⟩, x0⟩, ⟨⟨1, ![128]⟩, x1⟩, ⟨⟨1, ![128]⟩, x2⟩, ⟨⟨1, ![128]⟩, x3⟩] h (ix1 k)
      = x2 (ix1 j) :=
  concatenate_apply_piece 0 [⟨⟨1, ![128]⟩, x0⟩, ⟨⟨1, ![128]⟩, x1⟩, ⟨⟨1, ![128]⟩, x2⟩, ⟨⟨1, ![128]⟩, x3⟩] h (ix1 k) 2
    (by show 2 < 4; omega) ⟨1, ![128]⟩ x2 rfl rfl 256 (by first | rfl | simp) (ix1 j)
    (fun b hb => by
      match b with
      | ⟨0, _⟩ => exact absurd rfl hb)
    (by show 256 + j.val = k.val; omega)

/-- Four vectors of length 128 end to end: entry `384 + j` of the vector of length 512 is entry `j` of piece 3. -/
theorem cat4_vec_3 (x0 x1 x2 x3 : (⟨1, ![128]⟩ : Shape).Idx → α)
    (h : Shape.Concatenates [(⟨1, ![128]⟩ : Shape), ⟨1, ![128]⟩, ⟨1, ![128]⟩, ⟨1, ![128]⟩] ⟨1, ![512]⟩ 0)
    (j : Fin 128) (k : Fin 512) (hk : k.val = 384 + j.val) :
    concatenate ⟨1, ![512]⟩ 0 [⟨⟨1, ![128]⟩, x0⟩, ⟨⟨1, ![128]⟩, x1⟩, ⟨⟨1, ![128]⟩, x2⟩, ⟨⟨1, ![128]⟩, x3⟩] h (ix1 k)
      = x3 (ix1 j) :=
  concatenate_apply_piece 0 [⟨⟨1, ![128]⟩, x0⟩, ⟨⟨1, ![128]⟩, x1⟩, ⟨⟨1, ![128]⟩, x2⟩, ⟨⟨1, ![128]⟩, x3⟩] h (ix1 k) 3
    (by show 3 < 4; omega) ⟨1, ![128]⟩ x3 rfl rfl 384 (by first | rfl | simp) (ix1 j)
    (fun b hb => by
      match b with
      | ⟨0, _⟩ => exact absurd rfl hb)
    (by show 384 + j.val = k.val; omega)

end Pieces

/-! ## One projection, entry by entry -/

/-- The wide projection at column `k` is the reference's single projection at column `j`, when column `k` of the wide
    weights is column `j` of the single weight matrix and entry `k` of the wide bias row is entry `j` of the single bias
    vector. (`M` rows; 128 contracted; the reference's product is any record equal to the plain one.) -/
theorem proj_entry {M : Nat} (x : FVec Ideal ⟨2, ![M, 128]⟩ .f32) (W : FVec Ideal ⟨2, ![128, 512]⟩ .f32) (bb : FVec Ideal ⟨2, ![1, 512]⟩ .f32)
    (Xw : FVec Ideal ⟨2, ![128, 128]⟩ .f32) (Xb : FVec Ideal ⟨1, ![128]⟩ .f32)
    (d : DotDims ⟨2, ![M, 128]⟩ ⟨2, ![128, 128]⟩ ⟨2, ![M, 128]⟩) (hd : d = DotDims.plain M 128 128)
    (h1 : (⟨1, ![128]⟩ : Shape).BroadcastsInDim ⟨2, ![1, 128]⟩ ![1])
    (h2 : (⟨2, ![1, 128]⟩ : Shape).BroadcastsInDim ⟨2, ![M, 128]⟩ ![0, 1])
    (n : Fin M) (j : Fin 128) (k : Fin 512)
    (hW : ∀ c : Fin 128, W (ix2 c k) = Xw (ix2 c j)) (hb : bb (ix2 (0 : Fin 1) k) = Xb (ix1 j)) :
    (∑ c : Fin 128, x (ix2 n c) * W (ix2 c k)) + bb (ix2 (0 : Fin 1) k)
      = addf (Host.dotGeneral (F := Ideal) d none x Xw) (broadcastInDim ⟨2, ![M, 128]⟩ ![0, 1] h2 (broadcastInDim ⟨2, ![1, 128]⟩ ![1] h1 Xb)) (ix2 n j) := by
  rw [Cert.DenseLayer.host_affine d hd x Xw Xb h1 h2 n j, hb]
  show _ = (∑ c : Fin 128, x (ix2 n c) * Xw (ix2 c j)) + Xb (ix1 j)
  exact congrArg (· + Xb (ix1 j)) (Finset.sum_congr rfl fun c _ => by rw [hW c])

/-- Entry `(n, 0 + j)` of the wide projection is entry `(n, j)` of the reference's projection by the `A` weights and bias. -/
theorem wide_entry_A (x : FVec Ideal Cert.KernelIdeal.S40000x128 .f32) (Aw Dw Bw Ew : FVec Ideal Cert.KernelIdeal.S128x128 .f32) (Ab Db Bb Eb : FVec Ideal Cert.KernelIdeal.S128 .f32)
    (hcW : Shape.Concatenates [Cert.KernelIdeal.S128x128, Cert.KernelIdeal.S128x128, Cert.KernelIdeal.S128x128, Cert.KernelIdeal.S128x128] Cert.KernelIdeal.S128x512 1)
    (hcb : Shape.Concatenates [Cert.KernelIdeal.S128, Cert.KernelIdeal.S128, Cert.KernelIdeal.S128, Cert.KernelIdeal.S128] Cert.KernelIdeal.S512 0)
    (hsc : Cert.KernelIdeal.S512.ShapeCasts Cert.KernelIdeal.S1x512)
    (d : DotDims Cert.ReferenceIdeal.S40000x128 Cert.ReferenceIdeal.S128x128 Cert.ReferenceIdeal.S40000x128) (hd : d = DotDims.plain 40000 128 128)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S40000x128 (![0, 1] : Fin 2 → Fin Cert.ReferenceIdeal.S40000x128.rank))
    (n : Fin 40000) (j : Fin 128) (k : Fin 512) (hk : k.val = 0 + j.val) :
    (Cert.KernelIdeal.Hand.G0_3 x (concatenate Cert.KernelIdeal.S128x512 1 [⟨Cert.KernelIdeal.S128x128, Aw⟩, ⟨Cert.KernelIdeal.S128x128, Dw⟩, ⟨Cert.KernelIdeal.S128x128, Bw⟩, ⟨Cert.KernelIdeal.S128x128, Ew⟩] hcW) (shapeCast Cert.KernelIdeal.S1x512 (concatenate Cert.KernelIdeal.S512 0 [⟨Cert.KernelIdeal.S128, Ab⟩, ⟨Cert.KernelIdeal.S128, Db⟩, ⟨Cert.KernelIdeal.S128, Bb⟩, ⟨Cert.KernelIdeal.S128, Eb⟩] hcb) hsc)) (ix2 n k)
      = addf (Host.dotGeneral (F := Ideal) d none x Aw) (broadcastInDim Cert.ReferenceIdeal.S40000x128 ![0, 1] h2 (broadcastInDim Cert.ReferenceIdeal.S1x128 ![1] h1 Ab)) (ix2 n j) :=
  proj_entry x _ _ Aw Ab d hd h1 h2 n j k
    (fun c => cat4_cols_0 Aw Dw Bw Ew hcW c j k hk)
    ((Cert.Layout.row_of_vec_apply _ hsc k).trans (cat4_vec_0 Ab Db Bb Eb hcb j k hk))

/-- Entry `(n, 128 + j)` of the wide projection is entry `(n, j)` of the reference's projection by the `D` weights and bias. -/
theorem wide_entry_D (x : FVec Ideal Cert.KernelIdeal.S40000x128 .f32) (Aw Dw Bw Ew : FVec Ideal Cert.KernelIdeal.S128x128 .f32) (Ab Db Bb Eb : FVec Ideal Cert.KernelIdeal.S128 .f32)
    (hcW : Shape.Concatenates [Cert.KernelIdeal.S128x128, Cert.KernelIdeal.S128x128, Cert.KernelIdeal.S128x128, Cert.KernelIdeal.S128x128] Cert.KernelIdeal.S128x512 1)
    (hcb : Shape.Concatenates [Cert.KernelIdeal.S128, Cert.KernelIdeal.S128, Cert.KernelIdeal.S128, Cert.KernelIdeal.S128] Cert.KernelIdeal.S512 0)
    (hsc : Cert.KernelIdeal.S512.ShapeCasts Cert.KernelIdeal.S1x512)
    (d : DotDims Cert.ReferenceIdeal.S40000x128 Cert.ReferenceIdeal.S128x128 Cert.ReferenceIdeal.S40000x128) (hd : d = DotDims.plain 40000 128 128)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S40000x128 (![0, 1] : Fin 2 → Fin Cert.ReferenceIdeal.S40000x128.rank))
    (n : Fin 40000) (j : Fin 128) (k : Fin 512) (hk : k.val = 128 + j.val) :
    (Cert.KernelIdeal.Hand.G0_3 x (concatenate Cert.KernelIdeal.S128x512 1 [⟨Cert.KernelIdeal.S128x128, Aw⟩, ⟨Cert.KernelIdeal.S128x128, Dw⟩, ⟨Cert.KernelIdeal.S128x128, Bw⟩, ⟨Cert.KernelIdeal.S128x128, Ew⟩] hcW) (shapeCast Cert.KernelIdeal.S1x512 (concatenate Cert.KernelIdeal.S512 0 [⟨Cert.KernelIdeal.S128, Ab⟩, ⟨Cert.KernelIdeal.S128, Db⟩, ⟨Cert.KernelIdeal.S128, Bb⟩, ⟨Cert.KernelIdeal.S128, Eb⟩] hcb) hsc)) (ix2 n k)
      = addf (Host.dotGeneral (F := Ideal) d none x Dw) (broadcastInDim Cert.ReferenceIdeal.S40000x128 ![0, 1] h2 (broadcastInDim Cert.ReferenceIdeal.S1x128 ![1] h1 Db)) (ix2 n j) :=
  proj_entry x _ _ Dw Db d hd h1 h2 n j k
    (fun c => cat4_cols_1 Aw Dw Bw Ew hcW c j k hk)
    ((Cert.Layout.row_of_vec_apply _ hsc k).trans (cat4_vec_1 Ab Db Bb Eb hcb j k hk))

/-- Entry `(n, 256 + j)` of the wide projection is entry `(n, j)` of the reference's projection by the `B` weights and bias. -/
theorem wide_entry_B (x : FVec Ideal Cert.KernelIdeal.S40000x128 .f32) (Aw Dw Bw Ew : FVec Ideal Cert.KernelIdeal.S128x128 .f32) (Ab Db Bb Eb : FVec Ideal Cert.KernelIdeal.S128 .f32)
    (hcW : Shape.Concatenates [Cert.KernelIdeal.S128x128, Cert.KernelIdeal.S128x128, Cert.KernelIdeal.S128x128, Cert.KernelIdeal.S128x128] Cert.KernelIdeal.S128x512 1)
    (hcb : Shape.Concatenates [Cert.KernelIdeal.S128, Cert.KernelIdeal.S128, Cert.KernelIdeal.S128, Cert.KernelIdeal.S128] Cert.KernelIdeal.S512 0)
    (hsc : Cert.KernelIdeal.S512.ShapeCasts Cert.KernelIdeal.S1x512)
    (d : DotDims Cert.ReferenceIdeal.S40000x128 Cert.ReferenceIdeal.S128x128 Cert.ReferenceIdeal.S40000x128) (hd : d = DotDims.plain 40000 128 128)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S40000x128 (![0, 1] : Fin 2 → Fin Cert.ReferenceIdeal.S40000x128.rank))
    (n : Fin 40000) (j : Fin 128) (k : Fin 512) (hk : k.val = 256 + j.val) :
    (Cert.KernelIdeal.Hand.G0_3 x (concatenate Cert.KernelIdeal.S128x512 1 [⟨Cert.KernelIdeal.S128x128, Aw⟩, ⟨Cert.KernelIdeal.S128x128, Dw⟩, ⟨Cert.KernelIdeal.S128x128, Bw⟩, ⟨Cert.KernelIdeal.S128x128, Ew⟩] hcW) (shapeCast Cert.KernelIdeal.S1x512 (concatenate Cert.KernelIdeal.S512 0 [⟨Cert.KernelIdeal.S128, Ab⟩, ⟨Cert.KernelIdeal.S128, Db⟩, ⟨Cert.KernelIdeal.S128, Bb⟩, ⟨Cert.KernelIdeal.S128, Eb⟩] hcb) hsc)) (ix2 n k)
      = addf (Host.dotGeneral (F := Ideal) d none x Bw) (broadcastInDim Cert.ReferenceIdeal.S40000x128 ![0, 1] h2 (broadcastInDim Cert.ReferenceIdeal.S1x128 ![1] h1 Bb)) (ix2 n j) :=
  proj_entry x _ _ Bw Bb d hd h1 h2 n j k
    (fun c => cat4_cols_2 Aw Dw Bw Ew hcW c j k hk)
    ((Cert.Layout.row_of_vec_apply _ hsc k).trans (cat4_vec_2 Ab Db Bb Eb hcb j k hk))

/-- Entry `(n, 384 + j)` of the wide projection is entry `(n, j)` of the reference's projection by the `E` weights and bias. -/
theorem wide_entry_E (x : FVec Ideal Cert.KernelIdeal.S40000x128 .f32) (Aw Dw Bw Ew : FVec Ideal Cert.KernelIdeal.S128x128 .f32) (Ab Db Bb Eb : FVec Ideal Cert.KernelIdeal.S128 .f32)
    (hcW : Shape.Concatenates [Cert.KernelIdeal.S128x128, Cert.KernelIdeal.S128x128, Cert.KernelIdeal.S128x128, Cert.KernelIdeal.S128x128] Cert.KernelIdeal.S128x512 1)
    (hcb : Shape.Concatenates [Cert.KernelIdeal.S128, Cert.KernelIdeal.S128, Cert.KernelIdeal.S128, Cert.KernelIdeal.S128] Cert.KernelIdeal.S512 0)
    (hsc : Cert.KernelIdeal.S512.ShapeCasts Cert.KernelIdeal.S1x512)
    (d : DotDims Cert.ReferenceIdeal.S40000x128 Cert.ReferenceIdeal.S128x128 Cert.ReferenceIdeal.S40000x128) (hd : d = DotDims.plain 40000 128 128)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S40000x128 (![0, 1] : Fin 2 → Fin Cert.ReferenceIdeal.S40000x128.rank))
    (n : Fin 40000) (j : Fin 128) (k : Fin 512) (hk : k.val = 384 + j.val) :
    (Cert.KernelIdeal.Hand.G0_3 x (concatenate Cert.KernelIdeal.S128x512 1 [⟨Cert.KernelIdeal.S128x128, Aw⟩, ⟨Cert.KernelIdeal.S128x128, Dw⟩, ⟨Cert.KernelIdeal.S128x128, Bw⟩, ⟨Cert.KernelIdeal.S128x128, Ew⟩] hcW) (shapeCast Cert.KernelIdeal.S1x512 (concatenate Cert.KernelIdeal.S512 0 [⟨Cert.KernelIdeal.S128, Ab⟩, ⟨Cert.KernelIdeal.S128, Db⟩, ⟨Cert.KernelIdeal.S128, Bb⟩, ⟨Cert.KernelIdeal.S128, Eb⟩] hcb) hsc)) (ix2 n k)
      = addf (Host.dotGeneral (F := Ideal) d none x Ew) (broadcastInDim Cert.ReferenceIdeal.S40000x128 ![0, 1] h2 (broadcastInDim Cert.ReferenceIdeal.S1x128 ![1] h1 Eb)) (ix2 n j) :=
  proj_entry x _ _ Ew Eb d hd h1 h2 n j k
    (fun c => cat4_cols_3 Aw Dw Bw Ew hcW c j k hk)
    ((Cert.Layout.row_of_vec_apply _ hsc k).trans (cat4_vec_3 Ab Db Bb Eb hcb j k hk))

/-! ## The three column bands the kernel's program cuts the wide projection into -/

/-- (i) Columns 0 … 127 of the wide projection are the reference's projection by the `A` weights and bias. -/
theorem band_A (x : FVec Ideal Cert.KernelIdeal.S40000x128 .f32) (Aw Dw Bw Ew : FVec Ideal Cert.KernelIdeal.S128x128 .f32) (Ab Db Bb Eb : FVec Ideal Cert.KernelIdeal.S128 .f32)
    (hcW : Shape.Concatenates [Cert.KernelIdeal.S128x128, Cert.KernelIdeal.S128x128, Cert.KernelIdeal.S128x128, Cert.KernelIdeal.S128x128] Cert.KernelIdeal.S128x512 1)
    (hcb : Shape.Concatenates [Cert.KernelIdeal.S128, Cert.KernelIdeal.S128, Cert.KernelIdeal.S128, Cert.KernelIdeal.S128] Cert.KernelIdeal.S512 0)
    (hsc : Cert.KernelIdeal.S512.ShapeCasts Cert.KernelIdeal.S1x512)
    (hsl : Cert.KernelIdeal.S40000x512.Slices ![0, 0] Cert.KernelIdeal.S40000x128)
    (d : DotDims Cert.ReferenceIdeal.S40000x128 Cert.ReferenceIdeal.S128x128 Cert.ReferenceIdeal.S40000x128) (hd : d = DotDims.plain 40000 128 128)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S40000x128 (![0, 1] : Fin 2 → Fin Cert.ReferenceIdeal.S40000x128.rank)) :
    extractStridedSlice Cert.KernelIdeal.S40000x128 ![0, 0] (Cert.KernelIdeal.Hand.G0_3 x (concatenate Cert.KernelIdeal.S128x512 1 [⟨Cert.KernelIdeal.S128x128, Aw⟩, ⟨Cert.KernelIdeal.S128x128, Dw⟩, ⟨Cert.KernelIdeal.S128x128, Bw⟩, ⟨Cert.KernelIdeal.S128x128, Ew⟩] hcW) (shapeCast Cert.KernelIdeal.S1x512 (concatenate Cert.KernelIdeal.S512 0 [⟨Cert.KernelIdeal.S128, Ab⟩, ⟨Cert.KernelIdeal.S128, Db⟩, ⟨Cert.KernelIdeal.S128, Bb⟩, ⟨Cert.KernelIdeal.S128, Eb⟩] hcb) hsc)) hsl
      = addf (Host.dotGeneral (F := Ideal) d none x Aw) (broadcastInDim Cert.ReferenceIdeal.S40000x128 ![0, 1] h2 (broadcastInDim Cert.ReferenceIdeal.S1x128 ![1] h1 Ab)) := by
  funext i
  obtain ⟨n, j, rfl⟩ : ∃ (n : Fin 40000) (j : Fin 128), i = ix2 n j := ⟨i 0, i 1, eq_ix2 i⟩
  have hj : j.val < 128 := j.isLt
  refine (slice2_axis1_apply 0 _ hsl n j (⟨j.val, by omega⟩ : Fin 512) (by show j.val = 0 + j.val; omega)).trans ?_
  exact wide_entry_A x Aw Dw Bw Ew Ab Db Bb Eb hcW hcb hsc d hd h1 h2 n j _ (by show j.val = 0 + j.val; omega)

/-- (ii) Columns 128 … 255 of the wide projection are the reference's projection by the `D` weights and bias. -/
theorem band_D (x : FVec Ideal Cert.KernelIdeal.S40000x128 .f32) (Aw Dw Bw Ew : FVec Ideal Cert.KernelIdeal.S128x128 .f32) (Ab Db Bb Eb : FVec Ideal Cert.KernelIdeal.S128 .f32)
    (hcW : Shape.Concatenates [Cert.KernelIdeal.S128x128, Cert.KernelIdeal.S128x128, Cert.KernelIdeal.S128x128, Cert.KernelIdeal.S128x128] Cert.KernelIdeal.S128x512 1)
    (hcb : Shape.Concatenates [Cert.KernelIdeal.S128, Cert.KernelIdeal.S128, Cert.KernelIdeal.S128, Cert.KernelIdeal.S128] Cert.KernelIdeal.S512 0)
    (hsc : Cert.KernelIdeal.S512.ShapeCasts Cert.KernelIdeal.S1x512)
    (hsl : Cert.KernelIdeal.S40000x512.Slices ![0, 128] Cert.KernelIdeal.S40000x128)
    (d : DotDims Cert.ReferenceIdeal.S40000x128 Cert.ReferenceIdeal.S128x128 Cert.ReferenceIdeal.S40000x128) (hd : d = DotDims.plain 40000 128 128)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S40000x128 (![0, 1] : Fin 2 → Fin Cert.ReferenceIdeal.S40000x128.rank)) :
    extractStridedSlice Cert.KernelIdeal.S40000x128 ![0, 128] (Cert.KernelIdeal.Hand.G0_3 x (concatenate Cert.KernelIdeal.S128x512 1 [⟨Cert.KernelIdeal.S128x128, Aw⟩, ⟨Cert.KernelIdeal.S128x128, Dw⟩, ⟨Cert.KernelIdeal.S128x128, Bw⟩, ⟨Cert.KernelIdeal.S128x128, Ew⟩] hcW) (shapeCast Cert.KernelIdeal.S1x512 (concatenate Cert.KernelIdeal.S512 0 [⟨Cert.KernelIdeal.S128, Ab⟩, ⟨Cert.KernelIdeal.S128, Db⟩, ⟨Cert.KernelIdeal.S128, Bb⟩, ⟨Cert.KernelIdeal.S128, Eb⟩] hcb) hsc)) hsl
      = addf (Host.dotGeneral (F := Ideal) d none x Dw) (broadcastInDim Cert.ReferenceIdeal.S40000x128 ![0, 1] h2 (broadcastInDim Cert.ReferenceIdeal.S1x128 ![1] h1 Db)) := by
  funext i
  obtain ⟨n, j, rfl⟩ : ∃ (n : Fin 40000) (j : Fin 128), i = ix2 n j := ⟨i 0, i 1, eq_ix2 i⟩
  have hj : j.val < 128 := j.isLt
  refine (slice2_axis1_apply 128 _ hsl n j (⟨128 + j.val, by omega⟩ : Fin 512) rfl).trans ?_
  exact wide_entry_D x Aw Dw Bw Ew Ab Db Bb Eb hcW hcb hsc d hd h1 h2 n j _ rfl

/-- (iii, left half) Columns 256 … 511 of the wide projection, a 40000 x 256 array, read at column `j < 128`: the
    reference's projection by the `B` weights and bias at column `j`. -/
theorem band_BE_left (x : FVec Ideal Cert.KernelIdeal.S40000x128 .f32) (Aw Dw Bw Ew : FVec Ideal Cert.KernelIdeal.S128x128 .f32) (Ab Db Bb Eb : FVec Ideal Cert.KernelIdeal.S128 .f32)
    (hcW : Shape.Concatenates [Cert.KernelIdeal.S128x128, Cert.KernelIdeal.S128x128, Cert.KernelIdeal.S128x128, Cert.KernelIdeal.S128x128] Cert.KernelIdeal.S128x512 1)
    (hcb : Shape.Concatenates [Cert.KernelIdeal.S128, Cert.KernelIdeal.S128, Cert.KernelIdeal.S128, Cert.KernelIdeal.S128] Cert.KernelIdeal.S512 0)
    (hsc : Cert.KernelIdeal.S512.ShapeCasts Cert.KernelIdeal.S1x512)
    (hsl : Cert.KernelIdeal.S40000x512.Slices ![0, 256] Cert.KernelIdeal.S40000x256)
    (d : DotDims Cert.ReferenceIdeal.S40000x128 Cert.ReferenceIdeal.S128x128 Cert.ReferenceIdeal.S40000x128) (hd : d = DotDims.plain 40000 128 128)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S40000x128 (![0, 1] : Fin 2 → Fin Cert.ReferenceIdeal.S40000x128.rank))
    (n : Fin 40000) (j : Fin 128) (k : Fin 256) (hk : k.val = j.val) :
    extractStridedSlice Cert.KernelIdeal.S40000x256 ![0, 256] (Cert.KernelIdeal.Hand.G0_3 x (concatenate Cert.KernelIdeal.S128x512 1 [⟨Cert.KernelIdeal.S128x128, Aw⟩, ⟨Cert.KernelIdeal.S128x128, Dw⟩, ⟨Cert.KernelIdeal.S128x128, Bw⟩, ⟨Cert.KernelIdeal.S128x128, Ew⟩] hcW) (shapeCast Cert.KernelIdeal.S1x512 (concatenate Cert.KernelIdeal.S512 0 [⟨Cert.KernelIdeal.S128, Ab⟩, ⟨Cert.KernelIdeal.S128, Db⟩, ⟨Cert.KernelIdeal.S128, Bb⟩, ⟨Cert.KernelIdeal.S128, Eb⟩] hcb) hsc)) hsl (ix2 n k)
      = addf (Host.dotGeneral (F := Ideal) d none x Bw) (broadcastInDim Cert.ReferenceIdeal.S40000x128 ![0, 1] h2 (broadcastInDim Cert.ReferenceIdeal.S1x128 ![1] h1 Bb)) (ix2 n j) := by
  have hj : j.val < 128 := j.isLt
  refine (slice2_axis1_apply 256 _ hsl n k (⟨256 + j.val, by omega⟩ : Fin 512) (by show 256 + j.val = 256 + k.val; omega)).trans ?_
  exact wide_entry_B x Aw Dw Bw Ew Ab Db Bb Eb hcW hcb hsc d hd h1 h2 n j _ rfl

/-- (iii, right half) … and read at column `128 + j`: the reference's projection by the `E` weights and bias at column `j`. -/
theorem band_BE_right (x : FVec Ideal Cert.KernelIdeal.S40000x128 .f32) (Aw Dw Bw Ew : FVec Ideal Cert.KernelIdeal.S128x128 .f32) (Ab Db Bb Eb : FVec Ideal Cert.KernelIdeal.S128 .f32)
    (hcW : Shape.Concatenates [Cert.KernelIdeal.S128x128, Cert.KernelIdeal.S128x128, Cert.KernelIdeal.S128x128, Cert.KernelIdeal.S128x128] Cert.KernelIdeal.S128x512 1)
    (hcb : Shape.Concatenates [Cert.KernelIdeal.S128, Cert.KernelIdeal.S128, Cert.KernelIdeal.S128, Cert.KernelIdeal.S128] Cert.KernelIdeal.S512 0)
    (hsc : Cert.KernelIdeal.S512.ShapeCasts Cert.KernelIdeal.S1x512)
    (hsl : Cert.KernelIdeal.S40000x512.Slices ![0, 256] Cert.KernelIdeal.S40000x256)
    (d : DotDims Cert.ReferenceIdeal.S40000x128 Cert.ReferenceIdeal.S128x128 Cert.ReferenceIdeal.S40000x128) (hd : d = DotDims.plain 40000 128 128)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S40000x128 (![0, 1] : Fin 2 → Fin Cert.ReferenceIdeal.S40000x128.rank))
    (n : Fin 40000) (j : Fin 128) (k : Fin 256) (hk : k.val = 128 + j.val) :
    extractStridedSlice Cert.KernelIdeal.S40000x256 ![0, 256] (Cert.KernelIdeal.Hand.G0_3 x (concatenate Cert.KernelIdeal.S128x512 1 [⟨Cert.KernelIdeal.S128x128, Aw⟩, ⟨Cert.KernelIdeal.S128x128, Dw⟩, ⟨Cert.KernelIdeal.S128x128, Bw⟩, ⟨Cert.KernelIdeal.S128x128, Ew⟩] hcW) (shapeCast Cert.KernelIdeal.S1x512 (concatenate Cert.KernelIdeal.S512 0 [⟨Cert.KernelIdeal.S128, Ab⟩, ⟨Cert.KernelIdeal.S128, Db⟩, ⟨Cert.KernelIdeal.S128, Bb⟩, ⟨Cert.KernelIdeal.S128, Eb⟩] hcb) hsc)) hsl (ix2 n k)
      = addf (Host.dotGeneral (F := Ideal) d none x Ew) (broadcastInDim Cert.ReferenceIdeal.S40000x128 ![0, 1] h2 (broadcastInDim Cert.ReferenceIdeal.S1x128 ![1] h1 Eb)) (ix2 n j) := by
  have hj : j.val < 128 := j.isLt
  refine (slice2_axis1_apply 256 _ hsl n k (⟨384 + j.val, by omega⟩ : Fin 512) (by show 384 + j.val = 256 + k.val; omega)).trans ?_
  exact wide_entry_E x Aw Dw Bw Ew Ab Db Bb Eb hcW hcb hsc d hd h1 h2 n j _ rfl

/-! ## The reference's two product records are the plain ones -/

section Records
variable [Cert.ReferenceIdeal.Facts₀]

theorem dot_nodes_plain : Cert.ReferenceIdeal.dot_S40000x128_S128x128_S40000x128_1_0_0_1_n_n = DotDims.plain 40000 128 128 := rfl
theorem dot_edges_plain : Cert.ReferenceIdeal.dot_S640000x128_S128x128_S640000x128_1_0_0_1_n_n = DotDims.plain 640000 128 128 := rfl

end Records

/-! ## Real entries stay real through a projection -/

/-- A finite sum of real numbers, read in the extended reals, is a real number. -/
theorem proj_sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r1, e1⟩ := h a (Finset.mem_insert_self a s)
    obtain ⟨r2, e2⟩ := ih (fun i hi => h i (Finset.mem_insert_of_mem hi))
    exact ⟨r1 + r2, by rw [Finset.sum_insert ha, e1, e2, EReal.coe_add]⟩

/-- (iv) If every entry of the features, of the weights and of the bias vector is a real number, so is every entry of the
    reference's projection (a product, plus the bias vector laid along every row). General in the three extents. -/
theorem proj_real {M K N : Nat} (d : DotDims ⟨2, ![M, K]⟩ ⟨2, ![K, N]⟩ ⟨2, ![M, N]⟩) (hd : d = DotDims.plain M K N)
    (a : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (ha : ∀ i, ∃ r : ℝ, a i = (r : EReal)) (hw : ∀ i, ∃ r : ℝ, w i = (r : EReal)) (hb : ∀ i, ∃ r : ℝ, b i = (r : EReal))
    (i : (⟨2, ![M, N]⟩ : Shape).Idx) :
    ∃ r : ℝ, addf (Host.dotGeneral (F := Ideal) d none a w) (broadcastInDim ⟨2, ![M, N]⟩ ![0, 1] h2 (broadcastInDim ⟨2, ![1, N]⟩ ![1] h1 b)) i = (r : EReal) := by
  obtain ⟨p, q, rfl⟩ : ∃ (p : Fin M) (q : Fin N), i = ix2 p q := ⟨i 0, i 1, eq_ix2 i⟩
  rw [Cert.DenseLayer.host_affine d hd a w b h1 h2 p q]
  obtain ⟨s, hs⟩ := proj_sum_real Finset.univ (fun k : Fin K => a (ix2 p k) * w (ix2 k q)) (fun k _ => by
    obtain ⟨r1, e1⟩ := ha (ix2 p k)
    obtain ⟨r2, e2⟩ := hw (ix2 k q)
    exact ⟨r1 * r2, by rw [e1, e2, EReal.coe_mul]⟩)
  obtain ⟨t, ht⟩ := hb (ix1 q)
  refine ⟨s + t, ?_⟩
  show (∑ k : Fin K, a (ix2 p k) * w (ix2 k q)) + b (ix1 q) = _
  rw [hs, ht, EReal.coe_add]

end Cert.Bridge

end
-- ==== Proof.JoinProj.lean ====
import proofs.«143299_j13005160972635_2_alg».proof.Proof.JoinBase
import proofs.«143299_j13005160972635_2_alg».proof.Proof.BridgeProj

set_option maxRecDepth 16384

noncomputable section

/-! # The fused projection against the four separate ones

The kernel program multiplies the node features once by the four weight matrices side by side; its three column bands are the
reference's separate projections. -/

namespace Cert.Bridge

open Idealize.ShloMosaic Idealize.ShloMosaic.TcCoe Idealize.ShloMosaic.ValueIdx
open Idealize.SL.Sem
open Cert.KernelIdeal.Hand Cert.ReferenceIdeal.Hand

attribute [local irreducible] Host.reduceAdd Host.gather Host.scatterAdd

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : Agree m m' c)
include hag

set_option backward.isDefEq.respectTransparency.types false

/-- Columns 0..127 of the fused projection are the reference's first projection. -/
theorem ax_eq : extractStridedSlice Cert.KernelIdeal.S40000x128 ![0, 0] (kProj m c) Cert.KernelIdeal.Gen.slices_S40000x512_S40000x128_0_0 = rAx (RV m' c) := by
  unfold kProj kWcat kBcat rAx
  rw [arg0_agree m m' c hag, arg3_agree m m' c hag, arg4_agree m m' c hag]
  exact band_A _ _ _ _ _ _ _ _ _ _ _ _ _ _ dot_nodes_plain _ _

/-- Columns 128..255 are the reference's projection by the fourth weight matrix. -/
theorem dx_eq : extractStridedSlice Cert.KernelIdeal.S40000x128 ![0, 128] (kProj m c) Cert.KernelIdeal.Gen.slices_S40000x512_S40000x128_0_128 = rDx (RV m' c) := by
  unfold kProj kWcat kBcat rDx
  rw [arg0_agree m m' c hag, arg9_agree m m' c hag, arg10_agree m m' c hag]
  exact band_D _ _ _ _ _ _ _ _ _ _ _ _ _ _ dot_nodes_plain _ _

/-- Columns 256..383 are the reference's projection by the second weight matrix. -/
theorem be_lo (n : Fin 40000) (j : Fin 128) (k : Fin 256) (hk : k.val = j.val) :
    extractStridedSlice Cert.KernelIdeal.S40000x256 ![0, 256] (kProj m c) Cert.KernelIdeal.Gen.slices_S40000x512_S40000x256_0_256 (ix2 n k) = rBx (RV m' c) (ix2 n j) := by
  unfold kProj kWcat kBcat rBx
  rw [arg0_agree m m' c hag, arg5_agree m m' c hag, arg6_agree m m' c hag]
  exact band_BE_left _ _ _ _ _ _ _ _ _ _ _ _ _ _ dot_nodes_plain _ _ n j k hk

/-- Columns 384..511 are the reference's projection by the fifth weight matrix. -/
theorem be_hi (n : Fin 40000) (j : Fin 128) (k : Fin 256) (hk : k.val = 128 + j.val) :
    extractStridedSlice Cert.KernelIdeal.S40000x256 ![0, 256] (kProj m c) Cert.KernelIdeal.Gen.slices_S40000x512_S40000x256_0_256 (ix2 n k) = rEx (RV m' c) (ix2 n j) := by
  unfold kProj kWcat kBcat rEx
  rw [arg0_agree m m' c hag, arg11_agree m m' c hag, arg12_agree m m' c hag]
  exact band_BE_right _ _ _ _ _ _ _ _ _ _ _ _ _ _ dot_nodes_plain _ _ n j k hk

end Cert.Bridge

end
-- ==== Proof.LibRowGather.lean ====
/-
  Whole rows of a table gathered at integer start indices, read at an entry.

  `x[idx]` of a table `x : [N, C]` at an integer array lowers to a gather that collapses the row axis, takes a slice of
  one row and all `C` columns, and reads the row's start off the index array. Result entry `(r, k)` — or `(r, e, k)`
  when the index array has two axes — is the table at column `k` of the row named by the start index, read as a signed
  integer and brought into `[0, N - 1]`: the gather clamps every start so that the slice fits. Stated for an index array
  laid out `[R, 1]` (one start per result row) and `[R, J, 1]` (a `J`-tuple of starts per result row), general in every
  extent and in the integers' width.
-/
import Idealize.ShloMosaic.PureOps.ShapeOps
import Idealize.ShloMosaic.PureOps.Dims
import Idealize.ShloMosaic.Lib.ValueIdx

noncomputable section

namespace Cert.RowGather

open Idealize.ShloMosaic Idealize.ShloMosaic.ValueIdx

variable {α : Type}

/-- The dimension numbers of a row gather at starts laid out `[R, 1]`. -/
abbrev dims2 (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, k)` of the gathered rows is the table at column `k` of the clamped row `idx[r, 0]`. -/
theorem rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (dims2 N C R wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (dims2 N C R wf).start (ix2 r k) idx 0 + (dims2 N C R wf).batchCoord (ix2 r k) 0 + (dims2 N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N C R wf).startIndexMap from List.mem_singleton.mpr rfl)]
    have hsi : (dims2 N C R wf).siIdx (ix2 r k) ⟨List.idxOf (0 : Fin 2) (dims2 N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (dims2 N C R wf).start (ix2 r k) idx 1 + (dims2 N C R wf).batchCoord (ix2 r k) 1 + (dims2 N C R wf).offCoord (ix2 r k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

/-- The dimension numbers of a row gather at starts laid out `[R, J, 1]`. -/
abbrev dims3 (N C R J : Nat) (wf : GatherDims.WF ⟨2, ![N, C]⟩ ⟨3, ![R, J, 1]⟩ ⟨3, ![R, J, C]⟩ [2] [0] [] [0] [] 2 ![1, C]) :
    GatherDims ⟨2, ![N, C]⟩ ⟨3, ![R, J, 1]⟩ ⟨3, ![R, J, C]⟩ where
  offsetDims := [2]
  collapsedSliceDims := [0]
  operandBatchingDims := []
  startIndicesBatchingDims := []
  startIndexMap := [0]
  indexVectorDim := 2
  sliceSizes := ![1, C]
  wf := wf

/-- Entry `(r, e, k)` of the gathered rows is the table at column `k` of the clamped row `idx[r, e, 0]`. -/
theorem rows3_apply {N C R J w : Nat} (hN : 0 < N)
    (wf : GatherDims.WF ⟨2, ![N, C]⟩ ⟨3, ![R, J, 1]⟩ ⟨3, ![R, J, C]⟩ [2] [0] [] [0] [] 2 ![1, C])
    (x : (⟨2, ![N, C]⟩ : Shape).Idx → α) (idx : IVec ⟨3, ![R, J, 1]⟩ w) (r : Fin R) (e : Fin J) (k : Fin C) :
    Host.gather (dims3 N C R J wf) x idx (ix3 r e k)
      = x (ix2 (⟨min (idx (ix3 r e (0 : Fin 1))).toInt.toNat (N - 1), by omega⟩ : Fin N) k) := by
  unfold Host.gather
  refine congrArg x (funext fun a => Fin.ext ?_)
  match a with
  | ⟨0, _⟩ =>
    show (dims3 N C R J wf).start (ix3 r e k) idx 0 + (dims3 N C R J wf).batchCoord (ix3 r e k) 0 + (dims3 N C R J wf).offCoord (ix3 r e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims3 N C R J wf).startIndexMap from List.mem_singleton.mpr rfl)]
    have hsi : (dims3 N C R J wf).siIdx (ix3 r e k) ⟨List.idxOf (0 : Fin 2) (dims3 N C R J wf).startIndexMap,
        List.idxOf_lt_length_iff.2 (List.mem_singleton.mpr rfl)⟩ = ix3 r e (0 : Fin 1) := by
      funext b; refine Fin.ext ?_
      match b with
      | ⟨0, _⟩ => rfl
      | ⟨1, _⟩ => rfl
      | ⟨2, _⟩ => rfl
    rw [hsi]
    rfl
  | ⟨1, _⟩ =>
    show (dims3 N C R J wf).start (ix3 r e k) idx 1 + (dims3 N C R J wf).batchCoord (ix3 r e k) 1 + (dims3 N C R J wf).offCoord (ix3 r e k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

end Cert.RowGather

end
-- ==== Proof.LibLayoutReads.lean ====
/-
  Three layout operations read at one entry, general in the extents and in the element type.

  * a vector `[n]` reshaped to a column `[n, 1]`: entry `(r, 0)` is the vector's entry `r` (both sit at row-major
    position `r`);
  * a vector `[n]` reshaped to a row `[1, n]`: entry `(0, b)` is the vector's entry `b`;
  * `r` consecutive rows of a matrix `[R, C]` from row `o` on, all `C` columns: entry `(a, b)` is the matrix's entry
    `(o + a, b)`.
-/
import Idealize.ShloMosaic.Lib.Pipeline.Value
import Idealize.ShloMosaic.Lib.ValueIdx

noncomputable section

namespace Cert.LayoutReads

open Idealize.ShloMosaic Idealize.ShloMosaic.ValueIdx

variable {α : Type}

/-- A vector `[n]` reshaped to a column `[n, 1]`, read at `(r, 0)`, is the vector at `r`. -/
theorem col_of_vec_apply {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector `[n]` reshaped to a row `[1, n]`, read at `(0, b)`, is the vector at `b`. -/
theorem row_of_vec_apply {n : Nat} (v : (⟨1, ![n]⟩ : Shape).Idx → α) (h : (⟨1, ![n]⟩ : Shape).ShapeCasts ⟨2, ![1, n]⟩)
    (b : Fin n) : shapeCast ⟨2, ![1, n]⟩ v h (ix2 (0 : Fin 1) b) = v (ix1 b) :=
  shapeCast_apply v h (ix2 (0 : Fin 1) b) (ix1 b) (by
    rw [Shape.rowMajor_val_two, Shape.rowMajor_val_one]; show b.val = 0 * n + b.val; omega)

/-- Rows `o` to `o + r` of a matrix `[R, C]`, all columns, read at `(a, b)`, are the matrix at `(o + a, b)`. -/
theorem rows_slice_apply {R C r o : Nat} (x : (⟨2, ![R, C]⟩ : Shape).Idx → α)
    (h : (⟨2, ![R, C]⟩ : Shape).Slices ![o, 0] ⟨2, ![r, C]⟩) (hb : o + r ≤ R) (a : Fin r) (b : Fin C) :
    extractStridedSlice ⟨2, ![r, C]⟩ ![o, 0] x h (ix2 a b)
      = x (ix2 (⟨o + a.val, by have := a.isLt; omega⟩ : Fin R) b) :=
  extractStridedSlice_apply ![o, 0] x h (ix2 a b) (ix2 (⟨o + a.val, by have := a.isLt; omega⟩ : Fin R) b)
    (fun c => match c with
      | ⟨0, _⟩ => rfl
      | ⟨1, _⟩ => by show b.val = 0 + b.val; omega)

end Cert.LayoutReads

end
-- ==== Proof.BridgeIndex.lean ====
/-
  The host-side index operations of this program read entry by entry.

  An index vector is normalised (a negative entry is moved up by the table's 40000 rows), laid out as a column and
  used as the row starts of a gather of whole table rows; the gather reads every start signed and brings it into
  [0, 39999]. So each gathered entry is the table at the row `row v` that the raw index `v` names, and the
  statements below follow: a gather of a 256-column table agrees column by column with gathers of 128-column tables,
  and the two row halves of a gather at the concatenation of two index vectors are the gathers at each vector.
-/
import proofs.«143299_j13005160972635_2_alg».proof.Proof.Gen.KernelIdeal
import proofs.«143299_j13005160972635_2_alg».proof.Proof.Gen.ReferenceIdeal
import proofs.«143299_j13005160972635_2_alg».proof.Proof.LibRowGather
import proofs.«143299_j13005160972635_2_alg».proof.Proof.LibLayoutReads
import Idealize.ShloMosaic.Lib.Pipeline.Value
import Idealize.ShloMosaic.Lib.ValueIdx

noncomputable section

namespace Cert.Bridge

open Idealize.ShloMosaic Idealize.ShloMosaic.ValueIdx

variable {α : Type}

/-- A raw index after the normalisation: moved up by 40000 when it is negative. -/
def wrap (v : BitVec 32) : BitVec 32 :=
  Scalar.select (IntOp.cmpi .slt v 0#32) (IntOp.addi v 40000#32) v

/-- The table row a raw index names: normalised, read signed, brought into [0, 39999]. -/
def row (v : BitVec 32) : Fin 40000 :=
  ⟨min (wrap v).toInt.toNat (40000 - 1), by omega⟩

/-! ## The normalised column read at a row -/

/-- The kernel's normalised column of 640000 indices at row `r`. -/
theorem normK_apply (v : IVec Cert.KernelIdeal.S640000 32) (r : Fin 640000) :
    (broadcastInDim Cert.KernelIdeal.S640000x1 ![0] Cert.KernelIdeal.Facts₀.bcast_S640000_S640000x1_0 (select (cmpi .slt v (broadcastInDim Cert.KernelIdeal.S640000 ![] Cert.KernelIdeal.Facts₀.bcast_S_S640000 (constantI Cert.KernelIdeal.S_ 32 0#32))) (addi v (broadcastInDim Cert.KernelIdeal.S640000 ![] Cert.KernelIdeal.Facts₀.bcast_S_S640000 (constantI Cert.KernelIdeal.S_ 32 40000#32))) v)) (ix2 r (0 : Fin 1)) = wrap (v (ix1 r)) :=
  (broadcastInDim_apply _ _ _ (ix2 r (0 : Fin 1)) (ix1 r) (fun a => match a with | ⟨0, _⟩ => rfl)).trans rfl

/-- The reference's normalised column of 640000 indices at row `r`. -/
theorem normR_apply (v : IVec Cert.ReferenceIdeal.S640000 32) (r : Fin 640000) :
    (broadcastInDim Cert.ReferenceIdeal.S640000x1 ![0] Cert.ReferenceIdeal.Facts₀.bcast_S640000_S640000x1_0 (select (cmpi .slt v (broadcastInDim Cert.ReferenceIdeal.S640000 ![] Cert.ReferenceIdeal.Facts₀.bcast_S_S640000 (constantI Cert.ReferenceIdeal.S_ 32 0#32))) (addi v (broadcastInDim Cert.ReferenceIdeal.S640000 ![] Cert.ReferenceIdeal.Facts₀.bcast_S_S640000 (constantI Cert.ReferenceIdeal.S_ 32 40000#32))) v)) (ix2 r (0 : Fin 1)) = wrap (v (ix1 r)) :=
  (broadcastInDim_apply _ _ _ (ix2 r (0 : Fin 1)) (ix1 r) (fun a => match a with | ⟨0, _⟩ => rfl)).trans rfl

/-- The kernel's normalised column of 1280000 indices at row `r`. -/
theorem normK2_apply (v : IVec Cert.KernelIdeal.S1280000 32) (r : Fin 1280000) :
    (broadcastInDim Cert.KernelIdeal.S1280000x1 ![0] Cert.KernelIdeal.Facts₀.bcast_S1280000_S1280000x1_0 (select (cmpi .slt v (broadcastInDim Cert.KernelIdeal.S1280000 ![] Cert.KernelIdeal.Facts₀.bcast_S_S1280000 (constantI Cert.KernelIdeal.S_ 32 0#32))) (addi v (broadcastInDim Cert.KernelIdeal.S1280000 ![] Cert.KernelIdeal.Facts₀.bcast_S_S1280000 (constantI Cert.KernelIdeal.S_ 32 40000#32))) v)) (ix2 r (0 : Fin 1)) = wrap (v (ix1 r)) :=
  (broadcastInDim_apply _ _ _ (ix2 r (0 : Fin 1)) (ix1 r) (fun a => match a with | ⟨0, _⟩ => rfl)).trans rfl

/-! ## The gathers read at an entry -/

/-- The kernel's gather of a 128-column table at a normalised index vector: entry `(r, k)` is the table at row `row (v r)`. -/
theorem gatherK128_apply (X : Cert.KernelIdeal.S40000x128.Idx → α) (v : IVec Cert.KernelIdeal.S640000 32) (r : Fin 640000) (k : Fin 128) :
    Host.gather Cert.KernelIdeal.gather_S40000x128_S640000x1_S640000x128_1_0_n_n_0_1_1128 X (broadcastInDim Cert.KernelIdeal.S640000x1 ![0] Cert.KernelIdeal.Facts₀.bcast_S640000_S640000x1_0 (select (cmpi .slt v (broadcastInDim Cert.KernelIdeal.S640000 ![] Cert.KernelIdeal.Facts₀.bcast_S_S640000 (constantI Cert.KernelIdeal.S_ 32 0#32))) (addi v (broadcastInDim Cert.KernelIdeal.S640000 ![] Cert.KernelIdeal.Facts₀.bcast_S_S640000 (constantI Cert.KernelIdeal.S_ 32 40000#32))) v)) (ix2 r k) = X (ix2 (row (v (ix1 r))) k) := by
  refine (Cert.RowGather.rows2_apply (N := 40000) (C := 128) (R := 640000) (by omega)
    Cert.KernelIdeal.Facts₀.gather_S40000x128_S640000x1_S640000x128_1_0_n_n_0_1_1128_wf X _ r k).trans ?_
  refine congrArg (fun n => X (ix2 n k)) (Fin.ext ?_)
  show min (_ : BitVec 32).toInt.toNat (40000 - 1) = min (wrap (v (ix1 r))).toInt.toNat (40000 - 1)
  rw [normK_apply]

/-- The reference's gather of a 128-column table at a normalised index vector, read at an entry. -/
theorem gatherR128_apply (X : Cert.ReferenceIdeal.S40000x128.Idx → α) (v : IVec Cert.ReferenceIdeal.S640000 32) (r : Fin 640000) (k : Fin 128) :
    Host.gather Cert.ReferenceIdeal.gather_S40000x128_S640000x1_S640000x128_1_0_n_n_0_1_1128 X (broadcastInDim Cert.ReferenceIdeal.S640000x1 ![0] Cert.ReferenceIdeal.Facts₀.bcast_S640000_S640000x1_0 (select (cmpi .slt v (broadcastInDim Cert.ReferenceIdeal.S640000 ![] Cert.ReferenceIdeal.Facts₀.bcast_S_S640000 (constantI Cert.ReferenceIdeal.S_ 32 0#32))) (addi v (broadcastInDim Cert.ReferenceIdeal.S640000 ![] Cert.ReferenceIdeal.Facts₀.bcast_S_S640000 (constantI Cert.ReferenceIdeal.S_ 32 40000#32))) v)) (ix2 r k) = X (ix2 (row (v (ix1 r))) k) := by
  refine (Cert.RowGather.rows2_apply (N := 40000) (C := 128) (R := 640000) (by omega)
    Cert.ReferenceIdeal.Facts₀.gather_S40000x128_S640000x1_S640000x128_1_0_n_n_0_1_1128_wf X _ r k).trans ?_
  refine congrArg (fun n => X (ix2 n k)) (Fin.ext ?_)
  show min (_ : BitVec 32).toInt.toNat (40000 - 1) = min (wrap (v (ix1 r))).toInt.toNat (40000 - 1)
  rw [normR_apply]

/-- The kernel's gather of a 256-column table at a normalised index vector, read at an entry. -/
theorem gatherK256_apply (T : Cert.KernelIdeal.S40000x256.Idx → α) (v : IVec Cert.KernelIdeal.S640000 32) (r : Fin 640000) (k : Fin 256) :
    Host.gather Cert.KernelIdeal.gather_S40000x256_S640000x1_S640000x256_1_0_n_n_0_1_1256 T (broadcastInDim Cert.KernelIdeal.S640000x1 ![0] Cert.KernelIdeal.Facts₀.bcast_S640000_S640000x1_0 (select (cmpi .slt v (broadcastInDim Cert.KernelIdeal.S640000 ![] Cert.KernelIdeal.Facts₀.bcast_S_S640000 (constantI Cert.KernelIdeal.S_ 32 0#32))) (addi v (broadcastInDim Cert.KernelIdeal.S640000 ![] Cert.KernelIdeal.Facts₀.bcast_S_S640000 (constantI Cert.KernelIdeal.S_ 32 40000#32))) v)) (ix2 r k) = T (ix2 (row (v (ix1 r))) k) := by
  refine (Cert.RowGather.rows2_apply (N := 40000) (C := 256) (R := 640000) (by omega)
    Cert.KernelIdeal.Facts₀.gather_S40000x256_S640000x1_S640000x256_1_0_n_n_0_1_1256_wf T _ r k).trans ?_
  refine congrArg (fun n => T (ix2 n k)) (Fin.ext ?_)
  show min (_ : BitVec 32).toInt.toNat (40000 - 1) = min (wrap (v (ix1 r))).toInt.toNat (40000 - 1)
  rw [normK_apply]

/-- The kernel's gather of a 128-column table at a normalised vector of 1280000 indices, read at an entry. -/
theorem gatherK2_apply (X : Cert.KernelIdeal.S40000x128.Idx → α) (v : IVec Cert.KernelIdeal.S1280000 32) (r : Fin 1280000) (k : Fin 128) :
    Host.gather Cert.KernelIdeal.gather_S40000x128_S1280000x1_S1280000x128_1_0_n_n_0_1_1128 X (broadcastInDim Cert.KernelIdeal.S1280000x1 ![0] Cert.KernelIdeal.Facts₀.bcast_S1280000_S1280000x1_0 (select (cmpi .slt v (broadcastInDim Cert.KernelIdeal.S1280000 ![] Cert.KernelIdeal.Facts₀.bcast_S_S1280000 (constantI Cert.KernelIdeal.S_ 32 0#32))) (addi v (broadcastInDim Cert.KernelIdeal.S1280000 ![] Cert.KernelIdeal.Facts₀.bcast_S_S1280000 (constantI Cert.KernelIdeal.S_ 32 40000#32))) v)) (ix2 r k) = X (ix2 (row (v (ix1 r))) k) := by
  refine (Cert.RowGather.rows2_apply (N := 40000) (C := 128) (R := 1280000) (by omega)
    Cert.KernelIdeal.Facts₀.gather_S40000x128_S1280000x1_S1280000x128_1_0_n_n_0_1_1128_wf X _ r k).trans ?_
  refine congrArg (fun n => X (ix2 n k)) (Fin.ext ?_)
  show min (_ : BitVec 32).toInt.toNat (40000 - 1) = min (wrap (v (ix1 r))).toInt.toNat (40000 - 1)
  rw [normK2_apply]

/-! ## The concatenation of two index vectors read at a row -/

/-- A row below 640000 of the concatenation reads the first vector. -/
theorem cat_apply_lo (src dst : IVec Cert.KernelIdeal.S640000 32) (r : Fin 640000) :
    (concatenate Cert.KernelIdeal.S1280000 0 [⟨Cert.KernelIdeal.S640000, src⟩, ⟨Cert.KernelIdeal.S640000, dst⟩] Cert.KernelIdeal.Facts₀.concatenates_S640000_S640000_S1280000_d0) (ix1 (⟨0 + r.val, by omega⟩ : Fin 1280000)) = src (ix1 r) :=
  concatenate_pair_apply_left 0 src dst _ (ix1 (⟨0 + r.val, by omega⟩ : Fin 1280000)) rfl (ix1 r)
    (fun b => match b with | ⟨0, _⟩ => (Nat.zero_add r.val).symm)

/-- A row `640000 + r` of the concatenation reads the second vector at `r`. -/
theorem cat_apply_hi (src dst : IVec Cert.KernelIdeal.S640000 32) (r : Fin 640000) :
    (concatenate Cert.KernelIdeal.S1280000 0 [⟨Cert.KernelIdeal.S640000, src⟩, ⟨Cert.KernelIdeal.S640000, dst⟩] Cert.KernelIdeal.Facts₀.concatenates_S640000_S640000_S1280000_d0) (ix1 (⟨640000 + r.val, by omega⟩ : Fin 1280000)) = dst (ix1 r) :=
  concatenate_pair_apply_right 0 src dst _ (ix1 (⟨640000 + r.val, by omega⟩ : Fin 1280000)) rfl rfl (ix1 r)
    (fun b hb => match b, hb with | ⟨0, _⟩, hb => absurd rfl hb) (Nat.add_comm r.val 640000)

/-! ## The two row halves of the gather at the concatenated indices -/

/-- Rows [0, 640000) of the kernel's gather at the normalised concatenation, read at an entry. -/
theorem sliceLo_apply (X : Cert.KernelIdeal.S40000x128.Idx → α) (src dst : IVec Cert.KernelIdeal.S640000 32) (r : Fin 640000) (k : Fin 128) :
    extractStridedSlice Cert.KernelIdeal.S640000x128 ![0, 0] (Host.gather Cert.KernelIdeal.gather_S40000x128_S1280000x1_S1280000x128_1_0_n_n_0_1_1128 X (broadcastInDim Cert.KernelIdeal.S1280000x1 ![0] Cert.KernelIdeal.Facts₀.bcast_S1280000_S1280000x1_0 (select (cmpi .slt (concatenate Cert.KernelIdeal.S1280000 0 [⟨Cert.KernelIdeal.S640000, src⟩, ⟨Cert.KernelIdeal.S640000, dst⟩] Cert.KernelIdeal.Facts₀.concatenates_S640000_S640000_S1280000_d0) (broadcastInDim Cert.KernelIdeal.S1280000 ![] Cert.KernelIdeal.Facts₀.bcast_S_S1280000 (constantI Cert.KernelIdeal.S_ 32 0#32))) (addi (concatenate Cert.KernelIdeal.S1280000 0 [⟨Cert.KernelIdeal.S640000, src⟩, ⟨Cert.KernelIdeal.S640000, dst⟩] Cert.KernelIdeal.Facts₀.concatenates_S640000_S640000_S1280000_d0) (broadcastInDim Cert.KernelIdeal.S1280000 ![] Cert.KernelIdeal.Facts₀.bcast_S_S1280000 (constantI Cert.KernelIdeal.S_ 32 40000#32))) (concatenate Cert.KernelIdeal.S1280000 0 [⟨Cert.KernelIdeal.S640000, src⟩, ⟨Cert.KernelIdeal.S640000, dst⟩] Cert.KernelIdeal.Facts₀.concatenates_S640000_S640000_S1280000_d0)))) Cert.KernelIdeal.Facts₀.slices_S1280000x128_S640000x128_0_0 (ix2 r k) = X (ix2 (row (src (ix1 r))) k) := by
  refine (Cert.LayoutReads.rows_slice_apply (R := 1280000) (C := 128) (r := 640000) (o := 0) _ _ (by omega) r k).trans ?_
  refine (gatherK2_apply X _ _ k).trans ?_
  rw [cat_apply_lo]

/-- Rows [640000, 1280000) of the kernel's gather at the normalised concatenation, read at an entry. -/
theorem sliceHi_apply (X : Cert.KernelIdeal.S40000x128.Idx → α) (src dst : IVec Cert.KernelIdeal.S640000 32) (r : Fin 640000) (k : Fin 128) :
    extractStridedSlice Cert.KernelIdeal.S640000x128 ![640000, 0] (Host.gather Cert.KernelIdeal.gather_S40000x128_S1280000x1_S1280000x128_1_0_n_n_0_1_1128 X (broadcastInDim Cert.KernelIdeal.S1280000x1 ![0] Cert.KernelIdeal.Facts₀.bcast_S1280000_S1280000x1_0 (select (cmpi .slt (concatenate Cert.KernelIdeal.S1280000 0 [⟨Cert.KernelIdeal.S640000, src⟩, ⟨Cert.KernelIdeal.S640000, dst⟩] Cert.KernelIdeal.Facts₀.concatenates_S640000_S640000_S1280000_d0) (broadcastInDim Cert.KernelIdeal.S1280000 ![] Cert.KernelIdeal.Facts₀.bcast_S_S1280000 (constantI Cert.KernelIdeal.S_ 32 0#32))) (addi (concatenate Cert.KernelIdeal.S1280000 0 [⟨Cert.KernelIdeal.S640000, src⟩, ⟨Cert.KernelIdeal.S640000, dst⟩] Cert.KernelIdeal.Facts₀.concatenates_S640000_S640000_S1280000_d0) (broadcastInDim Cert.KernelIdeal.S1280000 ![] Cert.KernelIdeal.Facts₀.bcast_S_S1280000 (constantI Cert.KernelIdeal.S_ 32 40000#32))) (concatenate Cert.KernelIdeal.S1280000 0 [⟨Cert.KernelIdeal.S640000, src⟩, ⟨Cert.KernelIdeal.S640000, dst⟩] Cert.KernelIdeal.Facts₀.concatenates_S640000_S640000_S1280000_d0)))) Cert.KernelIdeal.Facts₀.slices_S1280000x128_S640000x128_640000_0 (ix2 r k) = X (ix2 (row (dst (ix1 r))) k) := by
  refine (Cert.LayoutReads.rows_slice_apply (R := 1280000) (C := 128) (r := 640000) (o := 640000) _ _ (by omega) r k).trans ?_
  refine (gatherK2_apply X _ _ k).trans ?_
  rw [cat_apply_hi]

/-- Rows [0, 640000) of the kernel's gather of `X` at the normalised concatenation of `src` and `dst`
    are the reference's gather of `X` at normalised `src`. -/
theorem sliceLo_eq (X : Cert.KernelIdeal.S40000x128.Idx → α) (src dst : IVec Cert.KernelIdeal.S640000 32) :
    extractStridedSlice Cert.KernelIdeal.S640000x128 ![0, 0] (Host.gather Cert.KernelIdeal.gather_S40000x128_S1280000x1_S1280000x128_1_0_n_n_0_1_1128 X (broadcastInDim Cert.KernelIdeal.S1280000x1 ![0] Cert.KernelIdeal.Facts₀.bcast_S1280000_S1280000x1_0 (select (cmpi .slt (concatenate Cert.KernelIdeal.S1280000 0 [⟨Cert.KernelIdeal.S640000, src⟩, ⟨Cert.KernelIdeal.S640000, dst⟩] Cert.KernelIdeal.Facts₀.concatenates_S640000_S640000_S1280000_d0) (broadcastInDim Cert.KernelIdeal.S1280000 ![] Cert.KernelIdeal.Facts₀.bcast_S_S1280000 (constantI Cert.KernelIdeal.S_ 32 0#32))) (addi (concatenate Cert.KernelIdeal.S1280000 0 [⟨Cert.KernelIdeal.S640000, src⟩, ⟨Cert.KernelIdeal.S640000, dst⟩] Cert.KernelIdeal.Facts₀.concatenates_S640000_S640000_S1280000_d0) (broadcastInDim Cert.KernelIdeal.S1280000 ![] Cert.KernelIdeal.Facts₀.bcast_S_S1280000 (constantI Cert.KernelIdeal.S_ 32 40000#32))) (concatenate Cert.KernelIdeal.S1280000 0 [⟨Cert.KernelIdeal.S640000, src⟩, ⟨Cert.KernelIdeal.S640000, dst⟩] Cert.KernelIdeal.Facts₀.concatenates_S640000_S640000_S1280000_d0)))) Cert.KernelIdeal.Facts₀.slices_S1280000x128_S640000x128_0_0
      = Host.gather Cert.ReferenceIdeal.gather_S40000x128_S640000x1_S640000x128_1_0_n_n_0_1_1128 X (broadcastInDim Cert.ReferenceIdeal.S640000x1 ![0] Cert.ReferenceIdeal.Facts₀.bcast_S640000_S640000x1_0 (select (cmpi .slt src (broadcastInDim Cert.ReferenceIdeal.S640000 ![] Cert.ReferenceIdeal.Facts₀.bcast_S_S640000 (constantI Cert.ReferenceIdeal.S_ 32 0#32))) (addi src (broadcastInDim Cert.ReferenceIdeal.S640000 ![] Cert.ReferenceIdeal.Facts₀.bcast_S_S640000 (constantI Cert.ReferenceIdeal.S_ 32 40000#32))) src)) := by
  funext j
  rw [eq_ix2 j]
  exact (sliceLo_apply X src dst (j 0) (j 1)).trans (gatherR128_apply X src (j 0) (j 1)).symm

/-- Rows [640000, 1280000) are the reference's gather of `X` at normalised `dst`. -/
theorem sliceHi_eq (X : Cert.KernelIdeal.S40000x128.Idx → α) (src dst : IVec Cert.KernelIdeal.S640000 32) :
    extractStridedSlice Cert.KernelIdeal.S640000x128 ![640000, 0] (Host.gather Cert.KernelIdeal.gather_S40000x128_S1280000x1_S1280000x128_1_0_n_n_0_1_1128 X (broadcastInDim Cert.KernelIdeal.S1280000x1 ![0] Cert.KernelIdeal.Facts₀.bcast_S1280000_S1280000x1_0 (select (cmpi .slt (concatenate Cert.KernelIdeal.S1280000 0 [⟨Cert.KernelIdeal.S640000, src⟩, ⟨Cert.KernelIdeal.S640000, dst⟩] Cert.KernelIdeal.Facts₀.concatenates_S640000_S640000_S1280000_d0) (broadcastInDim Cert.KernelIdeal.S1280000 ![] Cert.KernelIdeal.Facts₀.bcast_S_S1280000 (constantI Cert.KernelIdeal.S_ 32 0#32))) (addi (concatenate Cert.KernelIdeal.S1280000 0 [⟨Cert.KernelIdeal.S640000, src⟩, ⟨Cert.KernelIdeal.S640000, dst⟩] Cert.KernelIdeal.Facts₀.concatenates_S640000_S640000_S1280000_d0) (broadcastInDim Cert.KernelIdeal.S1280000 ![] Cert.KernelIdeal.Facts₀.bcast_S_S1280000 (constantI Cert.KernelIdeal.S_ 32 40000#32))) (concatenate Cert.KernelIdeal.S1280000 0 [⟨Cert.KernelIdeal.S640000, src⟩, ⟨Cert.KernelIdeal.S640000, dst⟩] Cert.KernelIdeal.Facts₀.concatenates_S640000_S640000_S1280000_d0)))) Cert.KernelIdeal.Facts₀.slices_S1280000x128_S640000x128_640000_0
      = Host.gather Cert.ReferenceIdeal.gather_S40000x128_S640000x1_S640000x128_1_0_n_n_0_1_1128 X (broadcastInDim Cert.ReferenceIdeal.S640000x1 ![0] Cert.ReferenceIdeal.Facts₀.bcast_S640000_S640000x1_0 (select (cmpi .slt dst (broadcastInDim Cert.ReferenceIdeal.S640000 ![] Cert.ReferenceIdeal.Facts₀.bcast_S_S640000 (constantI Cert.ReferenceIdeal.S_ 32 0#32))) (addi dst (broadcastInDim Cert.ReferenceIdeal.S640000 ![] Cert.ReferenceIdeal.Facts₀.bcast_S_S640000 (constantI Cert.ReferenceIdeal.S_ 32 40000#32))) dst)) := by
  funext j
  rw [eq_ix2 j]
  exact (sliceHi_apply X src dst (j 0) (j 1)).trans (gatherR128_apply X dst (j 0) (j 1)).symm

/-! ## The 256-column gather against 128-column gathers -/

/-- Column `k` of the kernel's gather of a 256-column table is column `j` of the reference's gather of a 128-column
    table at the same indices, as soon as the two tables agree on those columns. -/
theorem gather256_col (T : Cert.KernelIdeal.S40000x256.Idx → α) (T' : Cert.ReferenceIdeal.S40000x128.Idx → α) (src : IVec Cert.KernelIdeal.S640000 32)
    (k : Fin 256) (j : Fin 128) (h : ∀ n : Fin 40000, T (ix2 n k) = T' (ix2 n j)) (r : Fin 640000) :
    Host.gather Cert.KernelIdeal.gather_S40000x256_S640000x1_S640000x256_1_0_n_n_0_1_1256 T (broadcastInDim Cert.KernelIdeal.S640000x1 ![0] Cert.KernelIdeal.Facts₀.bcast_S640000_S640000x1_0 (select (cmpi .slt src (broadcastInDim Cert.KernelIdeal.S640000 ![] Cert.KernelIdeal.Facts₀.bcast_S_S640000 (constantI Cert.KernelIdeal.S_ 32 0#32))) (addi src (broadcastInDim Cert.KernelIdeal.S640000 ![] Cert.KernelIdeal.Facts₀.bcast_S_S640000 (constantI Cert.KernelIdeal.S_ 32 40000#32))) src)) (ix2 r k)
      = Host.gather Cert.ReferenceIdeal.gather_S40000x128_S640000x1_S640000x128_1_0_n_n_0_1_1128 T' (broadcastInDim Cert.ReferenceIdeal.S640000x1 ![0] Cert.ReferenceIdeal.Facts₀.bcast_S640000_S640000x1_0 (select (cmpi .slt src (broadcastInDim Cert.ReferenceIdeal.S640000 ![] Cert.ReferenceIdeal.Facts₀.bcast_S_S640000 (constantI Cert.ReferenceIdeal.S_ 32 0#32))) (addi src (broadcastInDim Cert.ReferenceIdeal.S640000 ![] Cert.ReferenceIdeal.Facts₀.bcast_S_S640000 (constantI Cert.ReferenceIdeal.S_ 32 40000#32))) src)) (ix2 r j) :=
  (gatherK256_apply T src r k).trans ((h _).trans (gatherR128_apply T' src r j).symm)

/-- Columns [0, 128) of the 256-column gather. -/
theorem gather256_lo (T : Cert.KernelIdeal.S40000x256.Idx → α) (Tlo : Cert.ReferenceIdeal.S40000x128.Idx → α) (src : IVec Cert.KernelIdeal.S640000 32)
    (h : ∀ (n : Fin 40000) (j : Fin 128), T (ix2 n (⟨j.val, by omega⟩ : Fin 256)) = Tlo (ix2 n j)) (r : Fin 640000) (j : Fin 128) :
    Host.gather Cert.KernelIdeal.gather_S40000x256_S640000x1_S640000x256_1_0_n_n_0_1_1256 T (broadcastInDim Cert.KernelIdeal.S640000x1 ![0] Cert.KernelIdeal.Facts₀.bcast_S640000_S640000x1_0 (select (cmpi .slt src (broadcastInDim Cert.KernelIdeal.S640000 ![] Cert.KernelIdeal.Facts₀.bcast_S_S640000 (constantI Cert.KernelIdeal.S_ 32 0#32))) (addi src (broadcastInDim Cert.KernelIdeal.S640000 ![] Cert.KernelIdeal.Facts₀.bcast_S_S640000 (constantI Cert.KernelIdeal.S_ 32 40000#32))) src)) (ix2 r (⟨j.val, by omega⟩ : Fin 256))
      = Host.gather Cert.ReferenceIdeal.gather_S40000x128_S640000x1_S640000x128_1_0_n_n_0_1_1128 Tlo (broadcastInDim Cert.ReferenceIdeal.S640000x1 ![0] Cert.ReferenceIdeal.Facts₀.bcast_S640000_S640000x1_0 (select (cmpi .slt src (broadcastInDim Cert.ReferenceIdeal.S640000 ![] Cert.ReferenceIdeal.Facts₀.bcast_S_S640000 (constantI Cert.ReferenceIdeal.S_ 32 0#32))) (addi src (broadcastInDim Cert.ReferenceIdeal.S640000 ![] Cert.ReferenceIdeal.Facts₀.bcast_S_S640000 (constantI Cert.ReferenceIdeal.S_ 32 40000#32))) src)) (ix2 r j) :=
  gather256_col T Tlo src _ j (fun n => h n j) r

/-- Columns [128, 256) of the 256-column gather. -/
theorem gather256_hi (T : Cert.KernelIdeal.S40000x256.Idx → α) (Thi : Cert.ReferenceIdeal.S40000x128.Idx → α) (src : IVec Cert.KernelIdeal.S640000 32)
    (h : ∀ (n : Fin 40000) (j : Fin 128), T (ix2 n (⟨128 + j.val, by omega⟩ : Fin 256)) = Thi (ix2 n j)) (r : Fin 640000) (j : Fin 128) :
    Host.gather Cert.KernelIdeal.gather_S40000x256_S640000x1_S640000x256_1_0_n_n_0_1_1256 T (broadcastInDim Cert.KernelIdeal.S640000x1 ![0] Cert.KernelIdeal.Facts₀.bcast_S640000_S640000x1_0 (select (cmpi .slt src (broadcastInDim Cert.KernelIdeal.S640000 ![] Cert.KernelIdeal.Facts₀.bcast_S_S640000 (constantI Cert.KernelIdeal.S_ 32 0#32))) (addi src (broadcastInDim Cert.KernelIdeal.S640000 ![] Cert.KernelIdeal.Facts₀.bcast_S_S640000 (constantI Cert.KernelIdeal.S_ 32 40000#32))) src)) (ix2 r (⟨128 + j.val, by omega⟩ : Fin 256))
      = Host.gather Cert.ReferenceIdeal.gather_S40000x128_S640000x1_S640000x128_1_0_n_n_0_1_1128 Thi (broadcastInDim Cert.ReferenceIdeal.S640000x1 ![0] Cert.ReferenceIdeal.Facts₀.bcast_S640000_S640000x1_0 (select (cmpi .slt src (broadcastInDim Cert.ReferenceIdeal.S640000 ![] Cert.ReferenceIdeal.Facts₀.bcast_S_S640000 (constantI Cert.ReferenceIdeal.S_ 32 0#32))) (addi src (broadcastInDim Cert.ReferenceIdeal.S640000 ![] Cert.ReferenceIdeal.Facts₀.bcast_S_S640000 (constantI Cert.ReferenceIdeal.S_ 32 40000#32))) src)) (ix2 r j) :=
  gather256_col T Thi src _ j (fun n => h n j) r

/-- The kernel's and the reference's gather of a 128-column table at a normalised index vector are one function: the
    two printed terms differ only in the namespace of their shape and dimension records. -/
theorem gather128_K_eq_R (X : Cert.KernelIdeal.S40000x128.Idx → α) (v : IVec Cert.KernelIdeal.S640000 32) :
    Host.gather Cert.KernelIdeal.gather_S40000x128_S640000x1_S640000x128_1_0_n_n_0_1_1128 X (broadcastInDim Cert.KernelIdeal.S640000x1 ![0] Cert.KernelIdeal.Facts₀.bcast_S640000_S640000x1_0 (select (cmpi .slt v (broadcastInDim Cert.KernelIdeal.S640000 ![] Cert.KernelIdeal.Facts₀.bcast_S_S640000 (constantI Cert.KernelIdeal.S_ 32 0#32))) (addi v (broadcastInDim Cert.KernelIdeal.S640000 ![] Cert.KernelIdeal.Facts₀.bcast_S_S640000 (constantI Cert.KernelIdeal.S_ 32 40000#32))) v))
      = Host.gather Cert.ReferenceIdeal.gather_S40000x128_S640000x1_S640000x128_1_0_n_n_0_1_1128 X (broadcastInDim Cert.ReferenceIdeal.S640000x1 ![0] Cert.ReferenceIdeal.Facts₀.bcast_S640000_S640000x1_0 (select (cmpi .slt v (broadcastInDim Cert.ReferenceIdeal.S640000 ![] Cert.ReferenceIdeal.Facts₀.bcast_S_S640000 (constantI Cert.ReferenceIdeal.S_ 32 0#32))) (addi v (broadcastInDim Cert.ReferenceIdeal.S640000 ![] Cert.ReferenceIdeal.Facts₀.bcast_S_S640000 (constantI Cert.ReferenceIdeal.S_ 32 40000#32))) v)) := rfl

/-- The kernel's and the reference's dimension records of the 128-column row gather are one record. -/
theorem gatherRec_K_eq_R :
    Cert.KernelIdeal.gather_S40000x128_S640000x1_S640000x128_1_0_n_n_0_1_1128 = Cert.ReferenceIdeal.gather_S40000x128_S640000x1_S640000x128_1_0_n_n_0_1_1128 := rfl

/-- The kernel's and the reference's dimension records of the row scatter are one record. -/
theorem scatterRec_K_eq_R :
    Cert.KernelIdeal.scatter_S40000x128_S640000x1_S640000x128_1_0_0_1 = Cert.ReferenceIdeal.scatter_S40000x128_S640000x1_S640000x128_1_0_0_1 := rfl

end Cert.Bridge

end
-- ==== Proof.JoinGather.lean ====
/-
  The two programs' gathers are one function of the arguments.

  With the two memories agreeing on the arguments, both programs read the same two index vectors. The kernel gathers
  the normalised node rows once, at the concatenation of the two vectors, and cuts the result into its two row halves:
  these are the reference's two gathers. The kernel gathers the second quarter of its four-wide projection at the
  destination nodes as the reference gathers its fourth linear map, and the second half of the projection at the source
  nodes, whose two column halves are the reference's gathers of its second and fifth linear maps.
-/
import proofs.«143299_j13005160972635_2_alg».proof.Proof.JoinBase
import proofs.«143299_j13005160972635_2_alg».proof.Proof.BridgeIndex

set_option maxRecDepth 16384

noncomputable section

namespace Cert.Bridge

open Idealize.ShloMosaic Idealize.ShloMosaic.TcCoe Idealize.ShloMosaic.ValueIdx
open Idealize.SL.Sem
open Cert.KernelIdeal.Hand Cert.ReferenceIdeal.Hand

attribute [local irreducible] Host.reduceAdd Host.gather Host.scatterAdd

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option backward.isDefEq.respectTransparency.types false

variable (hag : Agree m m' c)
include hag

/-- The first row half of the kernel's gather of the node rows is the reference's gather at the source nodes. -/
theorem join_xs (hx : kXout m c = rXout (RV m' c)) : kXs m c = rXs (RV m' c) := by
  unfold kXs rXs
  rw [src_eq m m' c hag, ← hx]
  exact sliceLo_eq (kXout m c) (kSrc m c) (kDst m c)

/-- The second row half is the reference's gather at the destination nodes. -/
theorem join_xd (hx : kXout m c = rXout (RV m' c)) : kXd m c = rXd (RV m' c) := by
  unfold kXd rXd
  rw [dst_eq m m' c hag, ← hx]
  exact sliceHi_eq (kXout m c) (kSrc m c) (kDst m c)

/-- The second quarter of the projection gathered at the destination nodes is the reference's gather of its fourth
    linear map. -/
theorem join_dxd
    (hdx : extractStridedSlice Cert.KernelIdeal.S40000x128 ![0, 128] (kProj m c) Cert.KernelIdeal.Gen.slices_S40000x512_S40000x128_0_128
      = rDx (RV m' c)) : kDxd m c = rDxd (RV m' c) := by
  unfold kDxd rDxd
  rw [dst_eq m m' c hag, ← hdx]
  exact gather128_K_eq_R _ (kDst m c)

/-- The first 128 columns of the second half of the projection gathered at the source nodes are the reference's gather
    of its second linear map. -/
theorem join_bex_lo
    (hlo : ∀ (n : Fin 40000) (j : Fin 128),
      extractStridedSlice Cert.KernelIdeal.S40000x256 ![0, 256] (kProj m c) Cert.KernelIdeal.Gen.slices_S40000x512_S40000x256_0_256
        (ix2 n (⟨j.val, by have := j.isLt; omega⟩ : Fin 256)) = rBx (RV m' c) (ix2 n j)) :
    ∀ (r : Fin 640000) (j : Fin 128),
      kBex m c (ix2 r (⟨j.val, by have := j.isLt; omega⟩ : Fin 256)) = rBxs (RV m' c) (ix2 r j) := by
  intro r j
  unfold kBex rBxs
  rw [src_eq m m' c hag]
  exact gather256_lo _ (rBx (RV m' c)) (kSrc m c) hlo r j

/-- The last 128 columns are the reference's gather of its fifth linear map. -/
theorem join_bex_hi
    (hhi : ∀ (n : Fin 40000) (j : Fin 128),
      extractStridedSlice Cert.KernelIdeal.S40000x256 ![0, 256] (kProj m c) Cert.KernelIdeal.Gen.slices_S40000x512_S40000x256_0_256
        (ix2 n (⟨128 + j.val, by have := j.isLt; omega⟩ : Fin 256)) = rEx (RV m' c) (ix2 n j)) :
    ∀ (r : Fin 640000) (j : Fin 128),
      kBex m c (ix2 r (⟨128 + j.val, by have := j.isLt; omega⟩ : Fin 256)) = rExs (RV m' c) (ix2 r j) := by
  intro r j
  unfold kBex rExs
  rw [src_eq m m' c hag]
  exact gather256_hi _ (rEx (RV m' c)) (kSrc m c) hhi r j

end Cert.Bridge

end
-- ==== Proof.BridgeEdge.lean ====
import proofs.«143299_j13005160972635_2_alg».proof.Proof.Val1
import proofs.«143299_j13005160972635_2_alg».proof.ReferenceIdeal
import Idealize.ShloMosaic.Lib.Pipeline.Value
import Idealize.ShloMosaic.Lib.ValueIdx
import Idealize.ShloMosaic.PureOps.Ideal.Laws

set_option maxRecDepth 16384

noncomputable section

open scoped BigOperators

namespace Cert.Bridge

open Idealize.ShloMosaic Idealize.ShloMosaic.ValueIdx
open Cert.KernelIdeal (S640000x128 S128x128 S1x128 S128 S640000x256 S_)
open Cert.KernelIdeal.Hand (pre1 G1_5 G1_6 G1_7)

variable [Cert.ReferenceIdeal.Facts₀]

/-! # The edge gate's three arrays against the reference's terms, over variables for the operand arrays -/

/-! ## Sums and products of reals stay real -/

theorem edge_real_add {a b : EReal} (ha : ∃ r : ℝ, a = (r : EReal)) (hb : ∃ r : ℝ, b = (r : EReal)) : ∃ r : ℝ, a + b = (r : EReal) := by
  obtain ⟨r, rfl⟩ := ha; obtain ⟨s, rfl⟩ := hb
  exact ⟨r + s, (EReal.coe_add r s).symm⟩

theorem edge_real_mul {a b : EReal} (ha : ∃ r : ℝ, a = (r : EReal)) (hb : ∃ r : ℝ, b = (r : EReal)) : ∃ r : ℝ, a * b = (r : EReal) := by
  obtain ⟨r, rfl⟩ := ha; obtain ⟨s, rfl⟩ := hb
  exact ⟨r * s, (EReal.coe_mul r s).symm⟩

theorem edge_real_sum {ι : Type} (s : Finset ι) (f : ι → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    rw [Finset.sum_insert ha]
    exact edge_real_add (hf a (Finset.mem_insert_self a s)) (ih fun k hk => hf k (Finset.mem_insert_of_mem hk))

/-! ## The reference's terms -/

section Terms

variable (e : FVec Ideal S640000x128 .f32) (Cw : FVec Ideal S128x128 .f32) (Cb : FVec Ideal S128 .f32)
  (dxd exs bxs : FVec Ideal S640000x128 .f32) (bex : FVec Ideal S640000x256 .f32)

/-- The edge projection: the product with the weight plus the bias broadcast to every row. -/
abbrev refCe : FVec Ideal S640000x128 .f32 :=
  addf (Host.dotGeneral Cert.ReferenceIdeal.dot_S640000x128_S128x128_S640000x128_1_0_0_1_n_n none e Cw)
    (broadcastInDim S640000x128 ![0, 1] Cert.ReferenceIdeal.Facts₀.bcast_S1x128_S640000x128_0_1
      (broadcastInDim S1x128 ![1] Cert.ReferenceIdeal.Facts₀.bcast_S128_S1x128_1 Cb))

/-- The pre-activation: the two gathered terms, then the edge projection. -/
abbrev refPre : FVec Ideal S640000x128 .f32 := addf (addf dxd exs) (refCe e Cw Cb)

/-- The constant one at every entry. -/
abbrev edgeOne : FVec Ideal S640000x128 .f32 :=
  broadcastInDim S640000x128 ![] Cert.ReferenceIdeal.Facts₀.bcast_S_S640000x128 (constant S_ .f32 0x3F800000#32)

/-- The logistic as the reference spells it: one over one plus the exponential of the negation. -/
abbrev refSig (x : FVec Ideal S640000x128 .f32) : FVec Ideal S640000x128 .f32 :=
  Host.divf edgeOne (addf edgeOne (Host.exp (Host.negf x)))

theorem edgeDot_eq_plain :
    Cert.ReferenceIdeal.dot_S640000x128_S128x128_S640000x128_1_0_0_1_n_n = DotDims.plain 640000 128 128 := rfl

theorem edge_ofBits_one_f32 : Ideal.ofBits .f32 0x3F800000#32 = 1 := by
  simp [Ideal.ofBits, Ideal.ieee, -EReal.coe_mul]; norm_num

theorem edgeOne_apply (i : S640000x128.Idx) : edgeOne i = 1 := by
  show broadcastInDim S640000x128 ![] Cert.ReferenceIdeal.Facts₀.bcast_S_S640000x128 (constant (F := Ideal) S_ .f32 0x3F800000#32) i = 1
  rw [broadcastInDim_apply _ _ _ i ix0 (fun a => a.elim0)]
  exact edge_ofBits_one_f32

/-- The bias, broadcast twice, read at `(r, j)`: entry `j`. -/
theorem refBias_apply (r : Fin 640000) (j : Fin 128) :
    broadcastInDim S640000x128 ![0, 1] Cert.ReferenceIdeal.Facts₀.bcast_S1x128_S640000x128_0_1
      (broadcastInDim S1x128 ![1] Cert.ReferenceIdeal.Facts₀.bcast_S128_S1x128_1 Cb) (ix2 r j) = Cb (ix1 j) := by
  rw [broadcastInDim_apply _ _ _ (ix2 r j) (ix2 (0 : Fin 1) j) (fun a => match a with
    | ⟨0, _⟩ => by show (0 : ℕ) = if (1 : ℕ) = 1 then 0 else _; rw [if_pos rfl]
    | ⟨1, _⟩ => by show j.val = if (128 : ℕ) = 1 then 0 else j.val; rw [if_neg (by decide)])]
  rw [broadcastInDim_apply _ _ _ (ix2 (0 : Fin 1) j) (ix1 j) (fun a => match a with
    | ⟨0, _⟩ => by show j.val = if (128 : ℕ) = 1 then 0 else j.val; rw [if_neg (by decide)])]

/-- The bias as the kernel receives it, a one-row matrix, read at `(0, j)`: entry `j`. -/
theorem kernelBias_apply (j : Fin 128) :
    shapeCast S1x128 Cb Cert.KernelIdeal.Gen.shapeCasts_S128_S1x128 (ix2 (0 : Fin 1) j) = Cb (ix1 j) := by
  rw [shapeCast_addUnit_apply (n := 1) ![128] Cb _ (ix2 (0 : Fin 1) j)]
  congr 1
  funext a
  match a with
  | ⟨0, _⟩ => rfl

/-- The pre-activation term at `(r, j)`. -/
theorem refPre_apply (r : Fin 640000) (j : Fin 128) :
    refPre e Cw Cb dxd exs (ix2 r j)
      = (dxd (ix2 r j) + exs (ix2 r j)) + ((∑ k : Fin 128, e (ix2 r k) * Cw (ix2 k j)) + Cb (ix1 j)) := by
  have hm := Cert.MatProd.dotGeneral_plain_apply (M := 640000) (K := 128) (N := 128) none .single e Cw r j
  show (dxd (ix2 r j) + exs (ix2 r j))
      + (FloatOps.dotGeneral Cert.ReferenceIdeal.dot_S640000x128_S128x128_S640000x128_1_0_0_1_n_n none .single e Cw (ix2 r j)
        + broadcastInDim S640000x128 ![0, 1] Cert.ReferenceIdeal.Facts₀.bcast_S1x128_S640000x128_0_1
            (broadcastInDim S1x128 ![1] Cert.ReferenceIdeal.Facts₀.bcast_S128_S1x128_1 Cb) (ix2 r j)) = _
  rw [refBias_apply]
  refine congrArg (fun z => (dxd (ix2 r j) + exs (ix2 r j)) + (z + Cb (ix1 j))) ?_
  exact hm

/-- The logistic term at an entry is the logistic of the argument there. -/
theorem refSig_apply (x : FVec Ideal S640000x128 .f32) (i : S640000x128.Idx) : refSig x i = Ideal.logistic (x i) := by
  show Ideal.div (edgeOne i) (edgeOne i + Ideal.exp (-(x i))) = Ideal.logistic (x i)
  rw [edgeOne_apply]
  rfl

/-! ## The kernel's closed forms are the reference's terms -/

/-- The kernel's pre-activation at `(r, j)` is the reference's, when the right half of the double-width rows is `exs`. -/
theorem pre1_eq_ref (hhi : ∀ (r : Fin 640000) (j : Fin 128), bex (ix2 r (⟨128 + j.val, by have := j.isLt; omega⟩ : Fin 256)) = exs (ix2 r j))
    (r : Fin 640000) (j : Fin 128) :
    pre1 e Cw (shapeCast S1x128 Cb Cert.KernelIdeal.Gen.shapeCasts_S128_S1x128) dxd bex r j = refPre e Cw Cb dxd exs (ix2 r j) := by
  rw [refPre_apply]
  unfold pre1
  rw [hhi r j, kernelBias_apply]

theorem G1_5_eq_ref (hhi : ∀ (r : Fin 640000) (j : Fin 128), bex (ix2 r (⟨128 + j.val, by have := j.isLt; omega⟩ : Fin 256)) = exs (ix2 r j)) :
    G1_5 e Cw (shapeCast S1x128 Cb Cert.KernelIdeal.Gen.shapeCasts_S128_S1x128) dxd bex = refPre e Cw Cb dxd exs := by
  funext i
  obtain ⟨r, j, rfl⟩ : ∃ (r : Fin 640000) (j : Fin 128), i = ix2 r j := ⟨i 0, i 1, eq_ix2 i⟩
  exact pre1_eq_ref e Cw Cb dxd exs bex hhi r j

theorem G1_6_eq_ref (hhi : ∀ (r : Fin 640000) (j : Fin 128), bex (ix2 r (⟨128 + j.val, by have := j.isLt; omega⟩ : Fin 256)) = exs (ix2 r j)) :
    G1_6 e Cw (shapeCast S1x128 Cb Cert.KernelIdeal.Gen.shapeCasts_S128_S1x128) dxd bex = refSig (refPre e Cw Cb dxd exs) := by
  funext i
  obtain ⟨r, j, rfl⟩ : ∃ (r : Fin 640000) (j : Fin 128), i = ix2 r j := ⟨i 0, i 1, eq_ix2 i⟩
  rw [refSig_apply]
  exact congrArg Ideal.logistic (pre1_eq_ref e Cw Cb dxd exs bex hhi r j)

theorem G1_7_eq_ref (hlo : ∀ (r : Fin 640000) (j : Fin 128), bex (ix2 r (⟨j.val, by have := j.isLt; omega⟩ : Fin 256)) = bxs (ix2 r j))
    (hhi : ∀ (r : Fin 640000) (j : Fin 128), bex (ix2 r (⟨128 + j.val, by have := j.isLt; omega⟩ : Fin 256)) = exs (ix2 r j)) :
    G1_7 e Cw (shapeCast S1x128 Cb Cert.KernelIdeal.Gen.shapeCasts_S128_S1x128) dxd bex = mulf (refSig (refPre e Cw Cb dxd exs)) bxs := by
  funext i
  obtain ⟨r, j, rfl⟩ : ∃ (r : Fin 640000) (j : Fin 128), i = ix2 r j := ⟨i 0, i 1, eq_ix2 i⟩
  rw [mulf_apply, refSig_apply]
  exact congrArg₂ (fun a b : EReal => Ideal.logistic a * b) (pre1_eq_ref e Cw Cb dxd exs bex hhi r j) (hlo r j)

/-! ## Real operands give real terms -/

theorem refPre_real (hd : ∀ i, ∃ r : ℝ, dxd i = (r : EReal)) (hx : ∀ i, ∃ r : ℝ, exs i = (r : EReal))
    (he : ∀ i, ∃ r : ℝ, e i = (r : EReal)) (hw : ∀ i, ∃ r : ℝ, Cw i = (r : EReal)) (hb : ∀ i, ∃ r : ℝ, Cb i = (r : EReal)) :
    ∀ i, ∃ r : ℝ, refPre e Cw Cb dxd exs i = (r : EReal) := by
  intro i
  obtain ⟨r, j, rfl⟩ : ∃ (r : Fin 640000) (j : Fin 128), i = ix2 r j := ⟨i 0, i 1, eq_ix2 i⟩
  rw [refPre_apply]
  exact edge_real_add (edge_real_add (hd _) (hx _)) (edge_real_add (edge_real_sum _ _ fun k _ => edge_real_mul (he _) (hw _)) (hb _))

/-- The logistic of a real is a positive real. -/
theorem refSig_pos (x : FVec Ideal S640000x128 .f32) (hx : ∀ i, ∃ r : ℝ, x i = (r : EReal)) :
    ∀ i, ∃ r : ℝ, 0 < r ∧ refSig x i = (r : EReal) := by
  intro i
  obtain ⟨r, hr⟩ := hx i
  refine ⟨(1 + Real.exp (-r))⁻¹, inv_pos.mpr (by positivity), ?_⟩
  rw [refSig_apply, hr, Ideal.logistic_coe]

theorem refGate_real (x : FVec Ideal S640000x128 .f32) (hx : ∀ i, ∃ r : ℝ, x i = (r : EReal))
    (hb : ∀ i, ∃ r : ℝ, bxs i = (r : EReal)) : ∀ i, ∃ r : ℝ, mulf (refSig x) bxs i = (r : EReal) := by
  intro i
  obtain ⟨r, -, hr⟩ := refSig_pos x hx i
  rw [mulf_apply]
  exact edge_real_mul ⟨r, hr⟩ (hb i)

end Terms

end Cert.Bridge

end
-- ==== Proof.JoinEdge.lean ====
import proofs.«143299_j13005160972635_2_alg».proof.Proof.JoinBase
import proofs.«143299_j13005160972635_2_alg».proof.Proof.BridgeEdge

set_option maxRecDepth 16384

noncomputable section

/-! # The edge gate region's three arrays are the reference's, when the arguments agree -/

namespace Cert.Bridge

open Idealize.ShloMosaic Idealize.ShloMosaic.TcCoe Idealize.ShloMosaic.ValueIdx
open Idealize.SL.Sem
open Cert.KernelIdeal.Hand Cert.ReferenceIdeal.Hand

attribute [local irreducible] Host.reduceAdd Host.gather Host.scatterAdd

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option backward.isDefEq.respectTransparency.types false

/-- The reference's pre-activation is the bridge's term of the kernel's arguments and the two gathered arrays. -/
theorem join_edge_pre (hag : Agree m m' c) (hdxd : kDxd m c = rDxd (RV m' c)) :
    refPre (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (kDxd m c) (rExs (RV m' c)) = rEij (RV m' c) := by
  unfold rEij rCe
  rw [arg1_agree m m' c hag, arg7_agree m m' c hag, arg8_agree m m' c hag, ← hdxd]

/-- Its logistic likewise. -/
theorem join_edge_sig (hag : Agree m m' c) (hdxd : kDxd m c = rDxd (RV m' c)) :
    refSig (refPre (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (kDxd m c) (rExs (RV m' c))) = rSig (RV m' c) := by
  unfold rSig
  rw [← join_edge_pre m m' c hag hdxd]

theorem join_edge (hag : Agree m m' c) (hdxd : kDxd m c = rDxd (RV m' c))
    (hlo : ∀ (r : Fin 640000) (j : Fin 128), kBex m c (ix2 r (⟨j.val, by have := j.isLt; omega⟩ : Fin 256)) = rBxs (RV m' c) (ix2 r j))
    (hhi : ∀ (r : Fin 640000) (j : Fin 128), kBex m c (ix2 r (⟨128 + j.val, by have := j.isLt; omega⟩ : Fin 256)) = rExs (RV m' c) (ix2 r j)) :
    kEij m c = rEij (RV m' c) ∧ kSig m c = rSig (RV m' c) ∧ kNumt m c = rNumt (RV m' c) := by
  refine ⟨?_, ?_, ?_⟩
  · exact (G1_5_eq_ref (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (kDxd m c) (rExs (RV m' c)) (kBex m c) hhi).trans
      (join_edge_pre m m' c hag hdxd)
  · exact (G1_6_eq_ref (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (kDxd m c) (rExs (RV m' c)) (kBex m c) hhi).trans
      (join_edge_sig m m' c hag hdxd)
  · refine (G1_7_eq_ref (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (kDxd m c) (rExs (RV m' c)) (rBxs (RV m' c)) (kBex m c) hlo hhi).trans ?_
    unfold rNumt
    rw [← join_edge_sig m m' c hag hdxd]

end Cert.Bridge

end
-- ==== Proof.LibBnAffine.lean ====
import Idealize.ShloMosaic.PureOps.Ideal

/-! # The batch-norm refactoring on the extended reals

`((h - μ) · ι · γ + β)` and `(h · (ι · γ) + (β - μ · ι · γ))` are one real number when all five are real: the affine map
applied after centring and scaling is the same affine map with the scale and the shift folded. On the extended reals
distributivity needs exactly that realness. -/

namespace Cert.Bridge

/-- Real numbers: centring, scaling, then the affine map, against the folded scale and shift. -/
theorem bn_affine_real (h mu inv g b : ℝ) :
    (((h : EReal) - (mu : EReal)) * (inv : EReal)) * (g : EReal) + (b : EReal)
      = (h : EReal) * ((inv : EReal) * (g : EReal)) + ((b : EReal) - ((mu : EReal) * (inv : EReal)) * (g : EReal)) := by
  simp only [← EReal.coe_sub, ← EReal.coe_mul, ← EReal.coe_add]
  congr 1
  ring

/-- The same for extended reals known to be real. -/
theorem bn_affine (h mu inv g b : EReal) (hh : ∃ r : ℝ, h = (r : EReal)) (hmu : ∃ r : ℝ, mu = (r : EReal))
    (hinv : ∃ r : ℝ, inv = (r : EReal)) (hg : ∃ r : ℝ, g = (r : EReal)) (hb : ∃ r : ℝ, b = (r : EReal)) :
    ((h - mu) * inv) * g + b = h * (inv * g) + (b - (mu * inv) * g) := by
  obtain ⟨h, rfl⟩ := hh; obtain ⟨mu, rfl⟩ := hmu; obtain ⟨inv, rfl⟩ := hinv; obtain ⟨g, rfl⟩ := hg; obtain ⟨b, rfl⟩ := hb
  exact bn_affine_real h mu inv g b

end Cert.Bridge
-- ==== Proof.BridgeNorm.lean ====
import proofs.«143299_j13005160972635_2_alg».proof.Proof.Val2
import proofs.«143299_j13005160972635_2_alg».proof.ReferenceIdeal
import proofs.«143299_j13005160972635_2_alg».proof.Proof.LibBnAffine
import proofs.«143299_j13005160972635_2_alg».proof.Proof.LibBroadcast
import Idealize.ShloMosaic.Lib.Pipeline.Value
import Idealize.ShloMosaic.Lib.ValueIdx
import Idealize.ShloMosaic.PureOps.Ideal.Laws

set_option maxRecDepth 16384

noncomputable section

open scoped BigOperators

namespace Cert.Bridge

open Idealize.ShloMosaic Idealize.ShloMosaic.ValueIdx

/-! # The normalisation with folded scale and shift against the reference's step-by-step normalisation

The kernel's program folds the per-column statistics into one scale row `ι · γ` and one shift row `β - μ · ι · γ` and
computes `max (h · scale + shift, 0)`; the reference centres, scales by `ι`, scales by `γ`, adds `β` and clamps at zero,
each per-column vector laid along every row. Entry by entry the two are one real number when the five operands are real
(on the extended reals distributivity needs exactly that). -/

/-- The folded form is the step-by-step form, for any number of rows `M` and 128 columns. -/
theorem norm_folded_eq {M : Nat} (pre : FVec Ideal ⟨2, ![M, 128]⟩ .f32) (mu inv g b : FVec Ideal ⟨1, ![128]⟩ .f32)
    (hsc : (⟨1, ![128]⟩ : Shape).ShapeCasts ⟨2, ![1, 128]⟩)
    (h1 : (⟨1, ![128]⟩ : Shape).BroadcastsInDim ⟨2, ![1, 128]⟩ ![1])
    (h2 : (⟨2, ![1, 128]⟩ : Shape).BroadcastsInDim ⟨2, ![M, 128]⟩ ![0, 1])
    (h0 : (⟨0, ![]⟩ : Shape).BroadcastsInDim ⟨2, ![M, 128]⟩ (![] : Fin 0 → Fin 2))
    (hpre : ∀ i, ∃ r : ℝ, pre i = (r : EReal)) (hmu : ∀ i, ∃ r : ℝ, mu i = (r : EReal)) (hinv : ∀ i, ∃ r : ℝ, inv i = (r : EReal))
    (hg : ∀ i, ∃ r : ℝ, g i = (r : EReal)) (hb : ∀ i, ∃ r : ℝ, b i = (r : EReal)) :
    (fun i : (⟨2, ![M, 128]⟩ : Shape).Idx =>
        max (pre i * shapeCast ⟨2, ![1, 128]⟩ (mulf inv g) hsc (ix2 (0 : Fin 1) (i 1))
          + shapeCast ⟨2, ![1, 128]⟩ (subf b (mulf (mulf mu inv) g)) hsc (ix2 (0 : Fin 1) (i 1))) (0 : EReal))
      = maximumf (addf (mulf (mulf (subf pre (broadcastInDim ⟨2, ![M, 128]⟩ ![0, 1] h2 (broadcastInDim ⟨2, ![1, 128]⟩ ![1] h1 mu))) (broadcastInDim ⟨2, ![M, 128]⟩ ![0, 1] h2 (broadcastInDim ⟨2, ![1, 128]⟩ ![1] h1 inv))) (broadcastInDim ⟨2, ![M, 128]⟩ ![0, 1] h2 (broadcastInDim ⟨2, ![1, 128]⟩ ![1] h1 g))) (broadcastInDim ⟨2, ![M, 128]⟩ ![0, 1] h2 (broadcastInDim ⟨2, ![1, 128]⟩ ![1] h1 b)))
        (broadcastInDim ⟨2, ![M, 128]⟩ ![] h0 (constant (F := Ideal) ⟨0, ![]⟩ .f32 0x00000000#32)) := by
  funext i
  obtain ⟨n, j, rfl⟩ : ∃ (n : Fin M) (j : Fin 128), i = ix2 n j := ⟨i 0, i 1, eq_ix2 i⟩
  show max (pre (ix2 n j) * shapeCast ⟨2, ![1, 128]⟩ (mulf inv g) hsc (ix2 (0 : Fin 1) j)
      + shapeCast ⟨2, ![1, 128]⟩ (subf b (mulf (mulf mu inv) g)) hsc (ix2 (0 : Fin 1) j)) (0 : EReal)
    = max ((((pre (ix2 n j) - (broadcastInDim ⟨2, ![M, 128]⟩ ![0, 1] h2 (broadcastInDim ⟨2, ![1, 128]⟩ ![1] h1 mu)) (ix2 n j)) * (broadcastInDim ⟨2, ![M, 128]⟩ ![0, 1] h2 (broadcastInDim ⟨2, ![1, 128]⟩ ![1] h1 inv)) (ix2 n j)) * (broadcastInDim ⟨2, ![M, 128]⟩ ![0, 1] h2 (broadcastInDim ⟨2, ![1, 128]⟩ ![1] h1 g)) (ix2 n j)) + (broadcastInDim ⟨2, ![M, 128]⟩ ![0, 1] h2 (broadcastInDim ⟨2, ![1, 128]⟩ ![1] h1 b)) (ix2 n j))
        (broadcastInDim ⟨2, ![M, 128]⟩ ![] h0 (constant (F := Ideal) ⟨0, ![]⟩ .f32 0x00000000#32) (ix2 n j))
  rw [Cert.Layout.row_of_vec_apply _ hsc j, Cert.Layout.row_of_vec_apply _ hsc j,
    Cert.Layout.rows_of_vec_apply mu h1 h2 n j, Cert.Layout.rows_of_vec_apply inv h1 h2 n j,
    Cert.Layout.rows_of_vec_apply g h1 h2 n j, Cert.Layout.rows_of_vec_apply b h1 h2 n j,
    Cert.Layout.splat_apply h0, Ideal.ofBits_zero_f32]
  show max (pre (ix2 n j) * (inv (ix1 j) * g (ix1 j)) + (b (ix1 j) - (mu (ix1 j) * inv (ix1 j)) * g (ix1 j))) (0 : EReal) = _
  rw [← bn_affine (pre (ix2 n j)) (mu (ix1 j)) (inv (ix1 j)) (g (ix1 j)) (b (ix1 j))
    (hpre _) (hmu _) (hinv _) (hg _) (hb _)]

/-- (1) NODES: the kernel's normalisation of the 40000 x 128 pre-activation with its folded scale and shift rows is the
    reference's centre, scale, scale, shift, clamp. -/
theorem norm_nodes (pre : FVec Ideal Cert.KernelIdeal.S40000x128 .f32) (mu inv g b : FVec Ideal Cert.KernelIdeal.S128 .f32)
    (hsc : Cert.KernelIdeal.S128.ShapeCasts Cert.KernelIdeal.S1x128)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S40000x128 (![0, 1] : Fin 2 → Fin Cert.ReferenceIdeal.S40000x128.rank))
    (h0 : Cert.ReferenceIdeal.S_.BroadcastsInDim Cert.ReferenceIdeal.S40000x128 (![] : Fin 0 → Fin Cert.ReferenceIdeal.S40000x128.rank))
    (hpre : ∀ i, ∃ r : ℝ, pre i = (r : EReal)) (hmu : ∀ i, ∃ r : ℝ, mu i = (r : EReal)) (hinv : ∀ i, ∃ r : ℝ, inv i = (r : EReal))
    (hg : ∀ i, ∃ r : ℝ, g i = (r : EReal)) (hb : ∀ i, ∃ r : ℝ, b i = (r : EReal)) :
    Cert.KernelIdeal.Hand.G2_3 pre (shapeCast Cert.KernelIdeal.S1x128 (mulf inv g) hsc) (shapeCast Cert.KernelIdeal.S1x128 (subf b (mulf (mulf mu inv) g)) hsc)
      = maximumf (addf (mulf (mulf (subf pre (broadcastInDim Cert.ReferenceIdeal.S40000x128 ![0, 1] h2 (broadcastInDim Cert.ReferenceIdeal.S1x128 ![1] h1 mu))) (broadcastInDim Cert.ReferenceIdeal.S40000x128 ![0, 1] h2 (broadcastInDim Cert.ReferenceIdeal.S1x128 ![1] h1 inv))) (broadcastInDim Cert.ReferenceIdeal.S40000x128 ![0, 1] h2 (broadcastInDim Cert.ReferenceIdeal.S1x128 ![1] h1 g))) (broadcastInDim Cert.ReferenceIdeal.S40000x128 ![0, 1] h2 (broadcastInDim Cert.ReferenceIdeal.S1x128 ![1] h1 b)))
        (broadcastInDim Cert.ReferenceIdeal.S40000x128 ![] h0 (constant (F := Ideal) Cert.ReferenceIdeal.S_ .f32 0x00000000#32)) :=
  norm_folded_eq (M := 40000) pre mu inv g b hsc h1 h2 h0 hpre hmu hinv hg hb

/-- (2) EDGES: the same law on the 640000 x 128 edge pre-activation, the kernel's side written as the formula
    `max (e(r, j) · scale(j) + shift(j), 0)`. -/
theorem norm_edges (pre : FVec Ideal Cert.KernelIdeal.S640000x128 .f32) (mu inv g b : FVec Ideal Cert.KernelIdeal.S128 .f32)
    (hsc : Cert.KernelIdeal.S128.ShapeCasts Cert.KernelIdeal.S1x128)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S640000x128 (![0, 1] : Fin 2 → Fin Cert.ReferenceIdeal.S640000x128.rank))
    (h0 : Cert.ReferenceIdeal.S_.BroadcastsInDim Cert.ReferenceIdeal.S640000x128 (![] : Fin 0 → Fin Cert.ReferenceIdeal.S640000x128.rank))
    (hpre : ∀ i, ∃ r : ℝ, pre i = (r : EReal)) (hmu : ∀ i, ∃ r : ℝ, mu i = (r : EReal)) (hinv : ∀ i, ∃ r : ℝ, inv i = (r : EReal))
    (hg : ∀ i, ∃ r : ℝ, g i = (r : EReal)) (hb : ∀ i, ∃ r : ℝ, b i = (r : EReal)) :
    (fun i : Cert.KernelIdeal.S640000x128.Idx =>
        max (pre i * (shapeCast Cert.KernelIdeal.S1x128 (mulf inv g) hsc) (ix2 (0 : Fin 1) (i 1)) + (shapeCast Cert.KernelIdeal.S1x128 (subf b (mulf (mulf mu inv) g)) hsc) (ix2 (0 : Fin 1) (i 1))) (0 : EReal))
      = maximumf (addf (mulf (mulf (subf pre (broadcastInDim Cert.ReferenceIdeal.S640000x128 ![0, 1] h2 (broadcastInDim Cert.ReferenceIdeal.S1x128 ![1] h1 mu))) (broadcastInDim Cert.ReferenceIdeal.S640000x128 ![0, 1] h2 (broadcastInDim Cert.ReferenceIdeal.S1x128 ![1] h1 inv))) (broadcastInDim Cert.ReferenceIdeal.S640000x128 ![0, 1] h2 (broadcastInDim Cert.ReferenceIdeal.S1x128 ![1] h1 g))) (broadcastInDim Cert.ReferenceIdeal.S640000x128 ![0, 1] h2 (broadcastInDim Cert.ReferenceIdeal.S1x128 ![1] h1 b)))
        (broadcastInDim Cert.ReferenceIdeal.S640000x128 ![] h0 (constant (F := Ideal) Cert.ReferenceIdeal.S_ .f32 0x00000000#32)) :=
  norm_folded_eq (M := 640000) pre mu inv g b hsc h1 h2 h0 hpre hmu hinv hg hb

end Cert.Bridge

end
-- ==== Proof.LibRowStats.lean ====
/-
  Realness of column statistics over the extended reals.

  An array read at the ideal instance holds extended reals. The extended reals are not a field: sums,
  products and quotients behave as on the real numbers only when their operands are real numbers. This
  module shows that the host operations a mean, a variance and a reciprocal square root are made of keep
  every entry a real number when their operands' entries are: a sum over some axes from a real initial
  value, a broadcast, an entrywise sum, difference and product, a quotient by a real that is not zero,
  and the reciprocal square root of a positive real. For squares and their sums the real numbers found
  are moreover not negative. The last section puts these together for a mean, a variance and a normalising
  reciprocal square root taken over any axes of an array of any shape. None of this depends on a particular shape.
-/
import Idealize.ShloMosaic.Lib.IdealHost

open scoped BigOperators

namespace LibRowStats

open Idealize.ShloMosaic

/-! ## Sums -/

/-- A real plus a finite sum of reals is a real. -/
theorem add_sum_real {ι : Type*} (init : EReal) (s : Finset ι) (f : ι → EReal) (hi : ∃ r : ℝ, init = (r : EReal))
    (hf : ∀ i ∈ s, ∃ r : ℝ, f i = (r : EReal)) : ∃ r : ℝ, init + ∑ i ∈ s, f i = (r : EReal) := by
  classical
  induction s using Finset.induction_on with
  | empty => obtain ⟨r, hr⟩ := hi; exact ⟨r, by simp [hr]⟩
  | insert a s ha ih =>
    obtain ⟨ra, hra⟩ := hf a (Finset.mem_insert_self a s)
    obtain ⟨rs, hrs⟩ := ih (fun i hi' => hf i (Finset.mem_insert_of_mem hi'))
    refine ⟨ra + rs, ?_⟩
    rw [Finset.sum_insert ha, add_left_comm, hrs, hra, EReal.coe_add]

/-- A real that is not negative plus a finite sum of such reals is a real that is not negative. -/
theorem add_sum_real_nonneg {ι : Type*} (init : EReal) (s : Finset ι) (f : ι → EReal)
    (hi : ∃ r : ℝ, 0 ≤ r ∧ init = (r : EReal)) (hf : ∀ i ∈ s, ∃ r : ℝ, 0 ≤ r ∧ f i = (r : EReal)) :
    ∃ r : ℝ, 0 ≤ r ∧ init + ∑ i ∈ s, f i = (r : EReal) := by
  classical
  induction s using Finset.induction_on with
  | empty => obtain ⟨r, h0, hr⟩ := hi; exact ⟨r, h0, by simp [hr]⟩
  | insert a s ha ih =>
    obtain ⟨ra, h0a, hra⟩ := hf a (Finset.mem_insert_self a s)
    obtain ⟨rs, h0s, hrs⟩ := ih (fun i hi' => hf i (Finset.mem_insert_of_mem hi'))
    refine ⟨ra + rs, add_nonneg h0a h0s, ?_⟩
    rw [Finset.sum_insert ha, add_left_comm, hrs, hra, EReal.coe_add]

/-- The host's sum over some axes, from a real initial value, of an array of reals: every entry is a real. -/
theorem hostReduceAdd_real {s t : Shape} {axes : List (Fin s.rank)} (h : s.ReducesTo axes t) (x : s.Idx → EReal)
    (init : EReal) (hx : ∀ i, ∃ r : ℝ, x i = (r : EReal)) (hi : ∃ r : ℝ, init = (r : EReal)) (j : t.Idx) :
    ∃ r : ℝ, Ideal.hostReduceAdd h x init j = (r : EReal) := by
  unfold Ideal.hostReduceAdd
  exact add_sum_real _ _ _ hi (fun i _ => hx i)

/-- The same of an array of reals that are not negative, from such an initial value: every entry is a real
    that is not negative. -/
theorem hostReduceAdd_real_nonneg {s t : Shape} {axes : List (Fin s.rank)} (h : s.ReducesTo axes t) (x : s.Idx → EReal)
    (init : EReal) (hx : ∀ i, ∃ r : ℝ, 0 ≤ r ∧ x i = (r : EReal)) (hi : ∃ r : ℝ, 0 ≤ r ∧ init = (r : EReal)) (j : t.Idx) :
    ∃ r : ℝ, 0 ≤ r ∧ Ideal.hostReduceAdd h x init j = (r : EReal) := by
  unfold Ideal.hostReduceAdd
  exact add_sum_real_nonneg _ _ _ hi (fun i _ => hx i)

/-! ## Entrywise arithmetic on reals -/

/-- The difference of two reals, squared, is a real that is not negative. -/
theorem sub_mul_self_real_nonneg {a b : EReal} (ha : ∃ r : ℝ, a = (r : EReal)) (hb : ∃ r : ℝ, b = (r : EReal)) :
    ∃ r : ℝ, 0 ≤ r ∧ (a - b) * (a - b) = (r : EReal) := by
  obtain ⟨ra, rfl⟩ := ha
  obtain ⟨rb, rfl⟩ := hb
  exact ⟨(ra - rb) * (ra - rb), mul_self_nonneg _, by rw [← EReal.coe_sub, ← EReal.coe_mul]⟩

/-- The quotient of a real by a real that is not zero is the real quotient. -/
theorem div_coe_coe (a c : ℝ) (hc : c ≠ 0) : Ideal.div (a : EReal) (c : EReal) = ((a / c : ℝ) : EReal) := by
  rw [Ideal.div_coe hc, ← EReal.coe_mul, mul_one_div]

/-- The reciprocal square root of a positive real is a positive real. -/
theorem rsqrt_coe_pos (r : ℝ) (hr : 0 < r) :
    ∃ q : ℝ, 0 < q ∧ Ideal.rsqrt (r : EReal) = (q : EReal) :=
  ⟨(Real.sqrt r)⁻¹, inv_pos.mpr (Real.sqrt_pos.mpr hr), by
    rw [Ideal.rsqrt_coe, if_neg (not_lt.mpr hr.le), if_neg hr.ne']⟩

/-! ## Broadcasts -/

/-- Whatever holds of every entry of an array holds of every entry of a broadcast of it: a broadcast only repeats
    entries. -/
theorem broadcastInDim_forall {α : Type} {s t : Shape} (dims : Fin s.rank → Fin t.rank) (h : s.BroadcastsInDim t dims)
    (x : s.Idx → α) (P : α → Prop) (hx : ∀ k, P (x k)) (j : t.Idx) : P (broadcastInDim t dims h x j) := by
  unfold broadcastInDim
  exact hx _

/-! ## Column statistics

A mean is a sum over some axes divided by a count; a variance is the sum of the squared deviations from the broadcast mean,
divided by the count less the removed degrees of freedom where that is positive; a normalisation takes the reciprocal
square root of the variance plus a small positive constant. Below, the count is any positive real given by its word, the
removed degrees of freedom are the integer zero, and the shapes and the broadcast dimensions are arbitrary. -/

open Idealize.ShloMosaic.ValueIdx

/-- The float word of zero as a real. -/
theorem zero_word_real : ∃ r : ℝ, Ideal.ofBits .f32 0x00000000#32 = (r : EReal) :=
  ⟨0, Ideal.ofBits_zero_f32.trans EReal.coe_zero.symm⟩

/-- The float word of zero as a real that is not negative. -/
theorem zero_word_real_nonneg : ∃ r : ℝ, 0 ≤ r ∧ Ideal.ofBits .f32 0x00000000#32 = (r : EReal) :=
  ⟨0, le_rfl, Ideal.ofBits_zero_f32.trans EReal.coe_zero.symm⟩

/-- A sum over some axes of an array of reals, from zero, divided by a broadcast real count that is not zero: every entry
    is a real. -/
theorem mean_real {s t u : Shape} {axes : List (Fin s.rank)} (hred : s.ReducesTo axes t) (hu : 0 < u.numel)
    (dims : Fin u.rank → Fin t.rank) (hb : u.BroadcastsInDim t dims) (cw : BitVec 32) (c : ℝ) (hc : c ≠ 0)
    (hcw : Ideal.ofBits .f32 cw = (c : EReal)) (x : FVec Ideal s .f32) (hx : ∀ i, ∃ r : ℝ, x i = (r : EReal)) (j : t.Idx) :
    ∃ r : ℝ, Host.divf (Host.reduceAdd x (constant (F := Ideal) u .f32 0x00000000#32) hred hu)
        (broadcastInDim t dims hb (constant (F := Ideal) u .f32 cw)) j = (r : EReal) := by
  obtain ⟨a, ha⟩ := hostReduceAdd_real hred x (Ideal.ofBits .f32 0x00000000#32) hx zero_word_real j
  refine ⟨a / c, ?_⟩
  show Ideal.div (Ideal.hostReduceAdd hred x (Ideal.ofBits .f32 0x00000000#32) j) (Ideal.ofBits .f32 cw) = _
  rw [ha, hcw, div_coe_coe a c hc]

/-- The mean of the previous shape, broadcast back over the array it was taken of through an intermediate shape: every entry
    is a real. -/
theorem mean_bcast_real {s t v u : Shape} {axes : List (Fin s.rank)} (hred : s.ReducesTo axes t) (hu : 0 < u.numel)
    (d_tv : Fin t.rank → Fin v.rank) (b_tv : t.BroadcastsInDim v d_tv) (d_uv : Fin u.rank → Fin v.rank)
    (b_uv : u.BroadcastsInDim v d_uv) (d_vs : Fin v.rank → Fin s.rank) (b_vs : v.BroadcastsInDim s d_vs) (cw : BitVec 32)
    (c : ℝ) (hc : c ≠ 0) (hcw : Ideal.ofBits .f32 cw = (c : EReal)) (x : FVec Ideal s .f32)
    (hx : ∀ i, ∃ r : ℝ, x i = (r : EReal)) (i : s.Idx) :
    ∃ r : ℝ, broadcastInDim s d_vs b_vs
        (Host.divf (broadcastInDim v d_tv b_tv (Host.reduceAdd x (constant (F := Ideal) u .f32 0x00000000#32) hred hu))
          (broadcastInDim v d_uv b_uv (constant (F := Ideal) u .f32 cw))) i = (r : EReal) := by
  refine broadcastInDim_forall d_vs b_vs _ (fun w => ∃ r : ℝ, w = (r : EReal)) (fun k => ?_) i
  obtain ⟨a, ha⟩ := broadcastInDim_forall d_tv b_tv
    (Host.reduceAdd x (constant (F := Ideal) u .f32 0x00000000#32) hred hu) (fun w => ∃ r : ℝ, w = (r : EReal))
    (fun j => hostReduceAdd_real hred x (Ideal.ofBits .f32 0x00000000#32) hx zero_word_real j) k
  refine ⟨a / c, ?_⟩
  show Ideal.div (broadcastInDim v d_tv b_tv (Host.reduceAdd x (constant (F := Ideal) u .f32 0x00000000#32) hred hu) k)
    (Ideal.ofBits .f32 cw) = _
  rw [ha, hcw, div_coe_coe a c hc]

/-- The variance's expression over any array of reals `M` in the place of the broadcast mean, with zero degrees of freedom
    removed and a positive real count: the comparison holds, the selection takes the quotient, and every entry is a real that
    is not negative. -/
theorem var_core_real_nonneg {s t u : Shape} {axes : List (Fin s.rank)} (hred : s.ReducesTo axes t) (hu : 0 < u.numel)
    (dims : Fin u.rank → Fin t.rank) (hb : u.BroadcastsInDim t dims) (cw : BitVec 32) (c : ℝ) (hc : 0 < c)
    (hcw : Ideal.ofBits .f32 cw = (c : EReal)) (x M : FVec Ideal s .f32) (hx : ∀ i, ∃ r : ℝ, x i = (r : EReal))
    (hM : ∀ i, ∃ r : ℝ, M i = (r : EReal)) (j : t.Idx) :
    ∃ r : ℝ, 0 ≤ r ∧
      select (broadcastInDim t dims hb (cmpf (F := Ideal) .ogt
          (subf (constant (F := Ideal) u .f32 cw) (sitofp .f32 (constantI u 32 0#32))) (constant (F := Ideal) u .f32 0x00000000#32)))
        (Host.divf (Host.reduceAdd (mulf (subf x M) (subf x M)) (constant (F := Ideal) u .f32 0x00000000#32) hred hu)
          (broadcastInDim t dims hb (subf (constant (F := Ideal) u .f32 cw) (sitofp .f32 (constantI u 32 0#32)))))
        (broadcastInDim t dims hb (id (constant (F := Ideal) u .f32 0x7FC00000#32))) j = (r : EReal) := by
  have hD : Ideal.ofBits .f32 cw - ((((0#32 : BitVec 32).toInt : ℤ) : ℝ) : EReal) = (c : EReal) := by
    rw [hcw]; simp
  have hcmp : Ideal.cmp .ogt (c : EReal) 0 = 1#1 := by
    show BitVec.ofBool (decide ((0 : EReal) < (c : EReal))) = 1#1
    rw [decide_eq_true (EReal.coe_pos.mpr hc)]; rfl
  obtain ⟨a, h0, ha⟩ := hostReduceAdd_real_nonneg hred (mulf (subf x M) (subf x M)) (Ideal.ofBits .f32 0x00000000#32)
    (fun i => sub_mul_self_real_nonneg (hx i) (hM i)) zero_word_real_nonneg j
  refine ⟨a / c, div_nonneg h0 hc.le, ?_⟩
  show Scalar.select (Ideal.cmp .ogt (Ideal.ofBits .f32 cw - ((((0#32 : BitVec 32).toInt : ℤ) : ℝ) : EReal)) (Ideal.ofBits .f32 0x00000000#32))
      (Ideal.div (Ideal.hostReduceAdd hred (mulf (subf x M) (subf x M)) (Ideal.ofBits .f32 0x00000000#32) j)
        (Ideal.ofBits .f32 cw - ((((0#32 : BitVec 32).toInt : ℤ) : ℝ) : EReal)))
      (Ideal.ofBits .f32 0x7FC00000#32) = _
  rw [hD, ha, Ideal.ofBits_zero_f32, hcmp, select_one, div_coe_coe a c hc.ne']

/-- The reciprocal square root of an array of reals that are not negative plus a broadcast positive constant: every entry is
    a positive real. -/
theorem rsqrt_add_pos_real {t u : Shape} (dims : Fin u.rank → Fin t.rank) (hb : u.BroadcastsInDim t dims) (ew : BitVec 32)
    (he : ∃ e : ℝ, 0 < e ∧ Ideal.ofBits .f32 ew = (e : EReal)) (V : FVec Ideal t .f32)
    (hV : ∀ j, ∃ r : ℝ, 0 ≤ r ∧ V j = (r : EReal)) (j : t.Idx) :
    ∃ r : ℝ, 0 < r ∧ Host.rsqrt (addf V (broadcastInDim t dims hb (constant (F := Ideal) u .f32 ew))) j = (r : EReal) := by
  obtain ⟨e, he0, hew⟩ := he
  obtain ⟨v, hv0, hv⟩ := hV j
  obtain ⟨q, hq0, hq⟩ := rsqrt_coe_pos (v + e) (by linarith)
  refine ⟨q, hq0, ?_⟩
  show Ideal.rsqrt (V j + Ideal.ofBits .f32 ew) = _
  rw [hv, hew, ← EReal.coe_add, hq]

end LibRowStats
-- ==== Proof.RealStats.lean ====
/-
  The batch statistics of the node table and of the edge table are real numbers.

  At the ideal instance an entry is an extended real, and the laws of arithmetic that the comparison of the two programs
  uses hold only of real numbers. This module shows that, for a table whose every entry is a real number, the per-column
  mean over its rows is a real number, the per-column variance with no degrees of freedom removed is a real number that
  is not negative — the row count is positive, so the guard of the variance holds and the quotient is selected —, and the
  reciprocal square root of the variance plus the small positive constant is a positive real number. The row counts 40000
  and 640000 and the small constant are read off their words.
-/
import proofs.«143299_j13005160972635_2_alg».proof.Proof.KDefs
import proofs.«143299_j13005160972635_2_alg».proof.Proof.LibRowStats

noncomputable section

namespace Cert.Bridge

open Idealize.ShloMosaic
open Cert.KernelIdeal Cert.KernelIdeal.Facts₀ Cert.KernelIdeal.Hand

variable [Facts₀]

namespace RealStats

/-- The word `0x471C4000` is the real 40000. -/
theorem word_40000 : Ideal.ofBits .f32 0x471C4000#32 = ((40000 : ℝ) : EReal) := by
  simp [Ideal.ofBits, Ideal.ieee, -EReal.coe_mul]; norm_num

/-- The word `0x491C4000` is the real 640000. -/
theorem word_640000 : Ideal.ofBits .f32 0x491C4000#32 = ((640000 : ℝ) : EReal) := by
  simp [Ideal.ofBits, Ideal.ieee, -EReal.coe_mul]; norm_num

/-- The word `0x3727C5AC` is a positive real. -/
theorem word_eps_pos : ∃ e : ℝ, 0 < e ∧ Ideal.ofBits .f32 0x3727C5AC#32 = (e : EReal) := by
  simp [Ideal.ofBits, Ideal.ieee, -EReal.coe_mul]

end RealStats

open RealStats

/-! ## The node table: 40000 rows -/

/-- Every entry of the column means of a table of reals is a real. -/
theorem meanK40000_real (x : S40000x128.Idx → Elt Ideal .f32) (hx : ∀ i, ∃ r : ℝ, x i = (r : EReal)) (j : S128.Idx) :
    ∃ r : ℝ, meanK40000 (F := Ideal) x j = (r : EReal) := by
  unfold meanK40000
  exact LibRowStats.mean_real reducesTo_S40000x128_S128_d0 h_S_ _ bcast_S_S128 _ 40000 (by norm_num) word_40000 x hx j

/-- Every entry of the column variances of a table of reals, with no degrees of freedom removed, is a real that is not
    negative. -/
theorem varK40000_real (x : S40000x128.Idx → Elt Ideal .f32) (hx : ∀ i, ∃ r : ℝ, x i = (r : EReal)) (j : S128.Idx) :
    ∃ r : ℝ, 0 ≤ r ∧ varK40000 (F := Ideal) x (constantI S_ 32 0#32) j = (r : EReal) := by
  unfold varK40000
  exact LibRowStats.var_core_real_nonneg reducesTo_S40000x128_S128_d0 h_S_ _ bcast_S_S128 _ 40000 (by norm_num) word_40000 x _ hx
    (LibRowStats.mean_bcast_real reducesTo_S40000x128_S128_d0 h_S_ _ bcast_S128_S1x128_1 _ bcast_S_S1x128 _
      bcast_S1x128_S40000x128_0_1 _ 40000 (by norm_num) word_40000 x hx) j

/-- Every entry of the reciprocal square root of those variances plus the small constant is a positive real. -/
theorem rsqrtK40000_real (x : S40000x128.Idx → Elt Ideal .f32) (hx : ∀ i, ∃ r : ℝ, x i = (r : EReal)) (j : S128.Idx) :
    ∃ r : ℝ, 0 < r ∧ Host.rsqrt (F := Ideal) (addf (varK40000 (F := Ideal) x (constantI S_ 32 0#32))
        (broadcastInDim S128 ![] bcast_S_S128 (constant (F := Ideal) S_ .f32 0x3727C5AC#32))) j = (r : EReal) :=
  LibRowStats.rsqrt_add_pos_real _ bcast_S_S128 _ word_eps_pos _ (varK40000_real x hx) j

/-! ## The edge table: 640000 rows -/

/-- Every entry of the column means of a table of reals is a real. -/
theorem meanK640000_real (x : S640000x128.Idx → Elt Ideal .f32) (hx : ∀ i, ∃ r : ℝ, x i = (r : EReal)) (j : S128.Idx) :
    ∃ r : ℝ, meanK640000 (F := Ideal) x j = (r : EReal) := by
  unfold meanK640000
  exact LibRowStats.mean_real reducesTo_S640000x128_S128_d0 h_S_ _ bcast_S_S128 _ 640000 (by norm_num) word_640000 x hx j

/-- Every entry of the column variances of a table of reals, with no degrees of freedom removed, is a real that is not
    negative. -/
theorem varK640000_real (x : S640000x128.Idx → Elt Ideal .f32) (hx : ∀ i, ∃ r : ℝ, x i = (r : EReal)) (j : S128.Idx) :
    ∃ r : ℝ, 0 ≤ r ∧ varK640000 (F := Ideal) x (constantI S_ 32 0#32) j = (r : EReal) := by
  unfold varK640000
  exact LibRowStats.var_core_real_nonneg reducesTo_S640000x128_S128_d0 h_S_ _ bcast_S_S128 _ 640000 (by norm_num) word_640000 x _ hx
    (LibRowStats.mean_bcast_real reducesTo_S640000x128_S128_d0 h_S_ _ bcast_S128_S1x128_1 _ bcast_S_S1x128 _
      bcast_S1x128_S640000x128_0_1 _ 640000 (by norm_num) word_640000 x hx) j

/-- Every entry of the reciprocal square root of those variances plus the small constant is a positive real. -/
theorem rsqrtK640000_real (x : S640000x128.Idx → Elt Ideal .f32) (hx : ∀ i, ∃ r : ℝ, x i = (r : EReal)) (j : S128.Idx) :
    ∃ r : ℝ, 0 < r ∧ Host.rsqrt (F := Ideal) (addf (varK640000 (F := Ideal) x (constantI S_ 32 0#32))
        (broadcastInDim S128 ![] bcast_S_S128 (constant (F := Ideal) S_ .f32 0x3727C5AC#32))) j = (r : EReal) :=
  LibRowStats.rsqrt_add_pos_real _ bcast_S_S128 _ word_eps_pos _ (varK640000_real x hx) j

end Cert.Bridge
-- ==== Proof.JoinNorm.lean ====
import proofs.«143299_j13005160972635_2_alg».proof.Proof.JoinBase
import proofs.«143299_j13005160972635_2_alg».proof.Proof.BridgeNorm
import proofs.«143299_j13005160972635_2_alg».proof.Proof.RealStats

set_option maxRecDepth 16384

noncomputable section

namespace Cert.Bridge

open Idealize.ShloMosaic Idealize.ShloMosaic.TcCoe Idealize.ShloMosaic.ValueIdx
open Idealize.SL.Sem
open Cert.KernelIdeal.Hand Cert.ReferenceIdeal.Hand

attribute [local irreducible] Host.reduceAdd Host.gather Host.scatterAdd

/-! # The two normalised results: the kernel's folded scale and shift against the reference's steps

Once the table being normalised is the same on both sides and is real, the per-column mean and the reciprocal square root of
the variance are the same operations of it on both sides and are real, so the folded form equals the step-by-step form. -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option backward.isDefEq.respectTransparency.types false

/-- The first result: the normalised node update. -/
theorem join_xout (hag : Agree m m' c) (hpre : kPre m c = rPre (RV m' c))
    (hP : ∀ i, ∃ r : ℝ, rPre (RV m' c) i = (r : EReal))
    (hg : ∀ i, ∃ r : ℝ, (m ((c.tc : Thread Cert.KernelIdeal.nD Cert.KernelIdeal.τ).loc Cert.KernelIdeal.main_arg13) : (⟨Cert.KernelIdeal.S128, .f32⟩ : BufTy).Contents (Elt Ideal)) i = (r : EReal))
    (hb : ∀ i, ∃ r : ℝ, (m ((c.tc : Thread Cert.KernelIdeal.nD Cert.KernelIdeal.τ).loc Cert.KernelIdeal.main_arg14) : (⟨Cert.KernelIdeal.S128, .f32⟩ : BufTy).Contents (Elt Ideal)) i = (r : EReal)) :
    kXout m c = rXout (RV m' c) := by
  have hmuR : ∀ j, ∃ r : ℝ, meanK40000 (F := Ideal) (rPre (RV m' c)) j = (r : EReal) := meanK40000_real _ hP
  have hinvR : ∀ j, ∃ r : ℝ, Host.rsqrt (F := Ideal) (addf (varK40000 (F := Ideal) (rPre (RV m' c)) (constantI Cert.KernelIdeal.S_ 32 0#32)) (broadcastInDim Cert.KernelIdeal.S128 ![] Cert.KernelIdeal.Facts₀.bcast_S_S128 (constant (F := Ideal) Cert.KernelIdeal.S_ .f32 0x3727C5AC#32))) j = (r : EReal) :=
    fun j => (rsqrtK40000_real _ hP j).imp fun _ h => h.2
  unfold kXout kMu kInv
  rw [hpre]
  refine (norm_nodes (rPre (RV m' c)) (meanK40000 (F := Ideal) (rPre (RV m' c)))
    (Host.rsqrt (F := Ideal) (addf (varK40000 (F := Ideal) (rPre (RV m' c)) (constantI Cert.KernelIdeal.S_ 32 0#32)) (broadcastInDim Cert.KernelIdeal.S128 ![] Cert.KernelIdeal.Facts₀.bcast_S_S128 (constant (F := Ideal) Cert.KernelIdeal.S_ .f32 0x3727C5AC#32))))
    (m ((c.tc : Thread Cert.KernelIdeal.nD Cert.KernelIdeal.τ).loc Cert.KernelIdeal.main_arg13) : (⟨Cert.KernelIdeal.S128, .f32⟩ : BufTy).Contents (Elt Ideal)) (m ((c.tc : Thread Cert.KernelIdeal.nD Cert.KernelIdeal.τ).loc Cert.KernelIdeal.main_arg14) : (⟨Cert.KernelIdeal.S128, .f32⟩ : BufTy).Contents (Elt Ideal)) Cert.KernelIdeal.Facts₀.shapeCasts_S128_S1x128
    Cert.ReferenceIdeal.Facts₀.bcast_S128_S1x128_1 Cert.ReferenceIdeal.Facts₀.bcast_S1x128_S40000x128_0_1 Cert.ReferenceIdeal.Facts₀.bcast_S_S40000x128
    hP hmuR hinvR hg hb).trans ?_
  unfold rXout rMu rInv rVar
  rw [arg13_agree m m' c hag, arg14_agree m m' c hag]
  unfold meanK40000 varK40000 varCols40000
  rfl

/-- The second result: the normalised edge rows. -/
theorem join_eout (hag : Agree m m' c) (heij : kEij m c = rEij (RV m' c))
    (hE : ∀ i, ∃ r : ℝ, rEij (RV m' c) i = (r : EReal))
    (hg : ∀ i, ∃ r : ℝ, (m ((c.tc : Thread Cert.KernelIdeal.nD Cert.KernelIdeal.τ).loc Cert.KernelIdeal.main_arg15) : (⟨Cert.KernelIdeal.S128, .f32⟩ : BufTy).Contents (Elt Ideal)) i = (r : EReal))
    (hb : ∀ i, ∃ r : ℝ, (m ((c.tc : Thread Cert.KernelIdeal.nD Cert.KernelIdeal.τ).loc Cert.KernelIdeal.main_arg16) : (⟨Cert.KernelIdeal.S128, .f32⟩ : BufTy).Contents (Elt Ideal)) i = (r : EReal)) :
    kEout m c = rEout (RV m' c) := by
  have hmuR : ∀ j, ∃ r : ℝ, meanK640000 (F := Ideal) (rEij (RV m' c)) j = (r : EReal) := meanK640000_real _ hE
  have hinvR : ∀ j, ∃ r : ℝ, Host.rsqrt (F := Ideal) (addf (varK640000 (F := Ideal) (rEij (RV m' c)) (constantI Cert.KernelIdeal.S_ 32 0#32)) (broadcastInDim Cert.KernelIdeal.S128 ![] Cert.KernelIdeal.Facts₀.bcast_S_S128 (constant (F := Ideal) Cert.KernelIdeal.S_ .f32 0x3727C5AC#32))) j = (r : EReal) :=
    fun j => (rsqrtK640000_real _ hE j).imp fun _ h => h.2
  unfold kEout kScaleE kShiftE kMuE kInvE
  rw [heij]
  have hform : ∀ (s t : Cert.KernelIdeal.S1x128.Idx → EReal),
      G3_9 (rEij (RV m' c)) s t = fun i : Cert.KernelIdeal.S640000x128.Idx => max (rEij (RV m' c) i * s (ix2 (0 : Fin 1) (i 1)) + t (ix2 (0 : Fin 1) (i 1))) (0 : EReal) := by
    intro s t
    funext i
    exact congrArg (fun k => max (rEij (RV m' c) k * s (ix2 (0 : Fin 1) (i 1)) + t (ix2 (0 : Fin 1) (i 1))) (0 : EReal)) (eq_ix2 i).symm
  rw [hform]
  refine (norm_edges (rEij (RV m' c)) (meanK640000 (F := Ideal) (rEij (RV m' c)))
    (Host.rsqrt (F := Ideal) (addf (varK640000 (F := Ideal) (rEij (RV m' c)) (constantI Cert.KernelIdeal.S_ 32 0#32)) (broadcastInDim Cert.KernelIdeal.S128 ![] Cert.KernelIdeal.Facts₀.bcast_S_S128 (constant (F := Ideal) Cert.KernelIdeal.S_ .f32 0x3727C5AC#32))))
    (m ((c.tc : Thread Cert.KernelIdeal.nD Cert.KernelIdeal.τ).loc Cert.KernelIdeal.main_arg15) : (⟨Cert.KernelIdeal.S128, .f32⟩ : BufTy).Contents (Elt Ideal)) (m ((c.tc : Thread Cert.KernelIdeal.nD Cert.KernelIdeal.τ).loc Cert.KernelIdeal.main_arg16) : (⟨Cert.KernelIdeal.S128, .f32⟩ : BufTy).Contents (Elt Ideal)) Cert.KernelIdeal.Facts₀.shapeCasts_S128_S1x128
    Cert.ReferenceIdeal.Facts₀.bcast_S128_S1x128_1 Cert.ReferenceIdeal.Facts₀.bcast_S1x128_S640000x128_0_1 Cert.ReferenceIdeal.Facts₀.bcast_S_S640000x128
    hE hmuR hinvR hg hb).trans ?_
  unfold rEout rMuE rInvE rVarE
  rw [arg15_agree m m' c hag, arg16_agree m m' c hag]
  unfold meanK640000 varK640000 varCols640000
  rfl

end Cert.Bridge

end
-- ==== Proof.BridgeScore.lean ====
import proofs.«143299_j13005160972635_2_alg».proof.Proof.Val3
import proofs.«143299_j13005160972635_2_alg».proof.ReferenceIdeal

set_option maxRecDepth 16384

noncomputable section

open scoped BigOperators

namespace Cert.Bridge

open Idealize.ShloMosaic Idealize.ShloMosaic.ValueIdx
open Cert.KernelIdeal Cert.KernelIdeal.Hand

/-! # The score: the region's closed form against the host's two-layer map and logistic expansion

Pure statements over variables for the operand arrays. The region reads the second layer's one-column weight padded
with zero columns to 128 columns and its one-entry bias padded with zeros to a 128-entry row, and keeps column 0 of the
product; the host multiplies by the one-column weight itself. Both are the same sums term by term. -/

/-- The clamped edge array read at an entry. -/
theorem G3_9_apply (eij : S640000x128.Idx → EReal) (scale shift : S1x128.Idx → EReal) (r : Fin 640000) (j : Fin 128) :
    G3_9 eij scale shift (ix2 r j) = max (eij (ix2 r j) * scale (ix2 0 j) + shift (ix2 0 j)) 0 := rfl

/-- The region's score array read at an entry. -/
theorem G3_10_apply (eij : S640000x128.Idx → EReal) (scale shift : S1x128.Idx → EReal) (xs xd : S640000x128.Idx → EReal)
    (W1 : S384x256.Idx → EReal) (b1 : S1x256.Idx → EReal) (W2 : S256x128.Idx → EReal) (b2 : S1x128.Idx → EReal) (r : Fin 640000) :
    G3_10 eij scale shift xs xd W1 b1 W2 b2 (ix2 r 0) = Ideal.logistic (score3 eij scale shift xs xd W1 b1 W2 b2 r) := rfl

/-- The float word of one read as an extended real. -/
theorem one_word3 : Ideal.ofBits .f32 0x3F800000#32 = 1 := by
  simp [Ideal.ofBits, Ideal.ieee, -EReal.coe_mul]; norm_num

/-- A dense layer read at an entry, the clamp's zero word read as zero. -/
theorem denseRelu_apply3 {M K N : Nat} (A : (⟨2, ![M, K]⟩ : Shape).Idx → EReal) (W : (⟨2, ![K, N]⟩ : Shape).Idx → EReal)
    (B : (⟨2, ![1, N]⟩ : Shape).Idx → EReal) (p : Fin M) (j : Fin N) :
    Cert.MatProd.denseRelu A W B (ix2 p j) = max ((∑ k : Fin K, A (ix2 p k) * W (ix2 k j)) + B (ix2 0 j)) 0 := by
  show max ((∑ k : Fin K, A (ix2 p k) * W (ix2 k j)) + B (ix2 0 j)) (Ideal.ofBits .f32 0x00000000#32) = _
  rw [Ideal.ofBits_zero_f32]

/-- Three 128-column pieces of any number of rows side by side, read at an entry: the piece the column falls in. -/
theorem cat3_rows_apply {R : Nat} (a b e : (⟨2, ![R, 128]⟩ : Shape).Idx → EReal)
    (h : Shape.Concatenates (([⟨⟨2, ![R, 128]⟩, a⟩, ⟨⟨2, ![R, 128]⟩, b⟩, ⟨⟨2, ![R, 128]⟩, e⟩] : List ((s : Shape) × (s.Idx → EReal))).map (·.1)) ⟨2, ![R, 384]⟩ 1)
    (p : Fin R) (m : Fin 384) :
    concatenate ⟨2, ![R, 384]⟩ 1 [⟨⟨2, ![R, 128]⟩, a⟩, ⟨⟨2, ![R, 128]⟩, b⟩, ⟨⟨2, ![R, 128]⟩, e⟩] h (ix2 p m)
      = if h1 : m.val < 128 then a (ix2 p ⟨m.val, h1⟩)
        else if h2 : m.val < 256 then b (ix2 p ⟨m.val - 128, by omega⟩)
        else e (ix2 p ⟨m.val - 256, by omega⟩) := by
  have hm : m.val < 384 := m.isLt
  split
  · rename_i h1
    refine concatenate_apply_piece 1 _ h (ix2 p m) 0 (by show (0 : ℕ) < 3; omega) ⟨2, ![R, 128]⟩ a rfl rfl 0 (by rfl) (ix2 p ⟨m.val, h1⟩) (fun b hb => ?_) ?_
    · match b with
      | ⟨0, _⟩ => rfl
      | ⟨1, _⟩ => exact absurd rfl hb
    · show 0 + m.val = m.val; omega
  · rename_i h1
    split
    · rename_i h2
      refine concatenate_apply_piece 1 _ h (ix2 p m) 1 (by show (1 : ℕ) < 3; omega) ⟨2, ![R, 128]⟩ b rfl rfl 128 (by rfl) (ix2 p ⟨m.val - 128, by omega⟩) (fun b hb => ?_) ?_
      · match b with
        | ⟨0, _⟩ => rfl
        | ⟨1, _⟩ => exact absurd rfl hb
      · show 128 + (m.val - 128) = m.val; omega
    · rename_i h2
      refine concatenate_apply_piece 1 _ h (ix2 p m) 2 (by show (2 : ℕ) < 3; omega) ⟨2, ![R, 128]⟩ e rfl rfl 256 (by rfl) (ix2 p ⟨m.val - 256, by omega⟩) (fun b hb => ?_) ?_
      · match b with
        | ⟨0, _⟩ => rfl
        | ⟨1, _⟩ => exact absurd rfl hb
      · show 256 + (m.val - 256) = m.val; omega

/-- The one-column weight padded with a zero block to 128 columns, as the region's operand is built. -/
abbrev w2pad (hz : S_.BroadcastsInDim S256x127 (![] : Fin 0 → Fin 2)) (hc : Shape.Concatenates [S256x1, S256x127] S256x128 1)
    (w2 : S256x1.Idx → EReal) : S256x128.Idx → EReal :=
  concatenate S256x128 1 [⟨S256x1, w2⟩, ⟨S256x127, broadcastInDim S256x127 ![] hz (constant (F := Ideal) S_ .f32 0x00000000#32)⟩] hc

/-- The one-entry bias padded with zeros to 128 entries and laid out as a row, as the region's operand is built. -/
abbrev b2pad (hz : S_.BroadcastsInDim S127 (![] : Fin 0 → Fin 1)) (hc : Shape.Concatenates [S1, S127] S128 0)
    (hs : S128.ShapeCasts S1x128) (b2 : S1.Idx → EReal) : S1x128.Idx → EReal :=
  shapeCast S1x128 (concatenate S128 0 [⟨S1, b2⟩, ⟨S127, broadcastInDim S127 ![] hz (constant (F := Ideal) S_ .f32 0x00000000#32)⟩] hc) hs

/-- The host's score: the concatenated feature rows through the first dense layer (product, bias, clamp at zero), the
    product with the one-column weight plus the bias, and the logistic function spelled as `1 / (1 + exp (-s))`. -/
abbrev refScore (hcat : Shape.Concatenates [S640000x128, S640000x128, S640000x128] Cert.ReferenceIdeal.S640000x384 1)
    (d1 : DotDims Cert.ReferenceIdeal.S640000x384 S384x256 S640000x256)
    (h120 : S256.BroadcastsInDim S1x256 ![1]) (h121 : S1x256.BroadcastsInDim S640000x256 ![0, 1])
    (h0 : S_.BroadcastsInDim S640000x256 (![] : Fin 0 → Fin 2))
    (d2 : DotDims S640000x256 S256x1 S640000x1)
    (h125 : S1.BroadcastsInDim Cert.ReferenceIdeal.S1x1 ![1]) (h126 : Cert.ReferenceIdeal.S1x1.BroadcastsInDim S640000x1 ![0, 1])
    (h1 : S_.BroadcastsInDim S640000x1 (![] : Fin 0 → Fin 2))
    (xs xd eout : FVec Ideal S640000x128 .f32) (W1 : FVec Ideal S384x256 .f32) (b1 : FVec Ideal S256 .f32)
    (w2 : FVec Ideal S256x1 .f32) (b2 : FVec Ideal S1 .f32) : FVec Ideal S640000x1 .f32 :=
  Host.divf (F := Ideal) (broadcastInDim S640000x1 ![] h1 (constant (F := Ideal) S_ .f32 0x3F800000#32))
    (addf (broadcastInDim S640000x1 ![] h1 (constant (F := Ideal) S_ .f32 0x3F800000#32))
      (Host.exp (Host.negf
        (addf
          (Host.dotGeneral (φ₁ := .f32) (φ₂ := .f32) d2 none
            (maximumf
              (addf
                (Host.dotGeneral (φ₁ := .f32) (φ₂ := .f32) d1 none
                  (concatenate Cert.ReferenceIdeal.S640000x384 1 [⟨S640000x128, xs⟩, ⟨S640000x128, xd⟩, ⟨S640000x128, eout⟩] hcat) W1)
                (broadcastInDim S640000x256 ![0, 1] h121 (broadcastInDim S1x256 ![1] h120 b1)))
              (broadcastInDim S640000x256 ![] h0 (constant (F := Ideal) S_ .f32 0x00000000#32)))
            w2)
          (broadcastInDim S640000x1 ![0, 1] h126 (broadcastInDim Cert.ReferenceIdeal.S1x1 ![1] h125 b2))))))

/-- THE SCORE: the region's closed form at the padded operands is the host's two-layer map and logistic expansion. -/
theorem score_bridge
    (hb1 : S256.ShapeCasts S1x256)
    (hzW : S_.BroadcastsInDim S256x127 (![] : Fin 0 → Fin 2)) (hcW : Shape.Concatenates [S256x1, S256x127] S256x128 1)
    (hzb : S_.BroadcastsInDim S127 (![] : Fin 0 → Fin 1)) (hcb : Shape.Concatenates [S1, S127] S128 0) (hsb : S128.ShapeCasts S1x128)
    (hcat : Shape.Concatenates [S640000x128, S640000x128, S640000x128] Cert.ReferenceIdeal.S640000x384 1)
    (d1 : DotDims Cert.ReferenceIdeal.S640000x384 S384x256 S640000x256) (hd1 : d1 = DotDims.plain 640000 384 256)
    (h120 : S256.BroadcastsInDim S1x256 ![1]) (h121 : S1x256.BroadcastsInDim S640000x256 ![0, 1])
    (h0 : S_.BroadcastsInDim S640000x256 (![] : Fin 0 → Fin 2))
    (d2 : DotDims S640000x256 S256x1 S640000x1) (hd2 : d2 = DotDims.plain 640000 256 1)
    (h125 : S1.BroadcastsInDim Cert.ReferenceIdeal.S1x1 ![1]) (h126 : Cert.ReferenceIdeal.S1x1.BroadcastsInDim S640000x1 ![0, 1])
    (h1 : S_.BroadcastsInDim S640000x1 (![] : Fin 0 → Fin 2))
    (eij : S640000x128.Idx → EReal) (scale shift : S1x128.Idx → EReal) (xs xd : S640000x128.Idx → EReal)
    (W1 : S384x256.Idx → EReal) (b1 : S256.Idx → EReal) (w2 : S256x1.Idx → EReal) (b2 : S1.Idx → EReal) :
    G3_10 eij scale shift xs xd W1 (shapeCast S1x256 b1 hb1) (w2pad hzW hcW w2) (b2pad hzb hcb hsb b2)
      = refScore hcat d1 h120 h121 h0 d2 h125 h126 h1 xs xd (G3_9 eij scale shift) W1 b1 w2 b2 := by
  funext i
  obtain ⟨r, q, rfl⟩ : ∃ (r : Fin 640000) (q : Fin 1), i = ix2 r q := ⟨i 0, i 1, eq_ix2 (n0 := 640000) (n1 := 1) i⟩
  obtain rfl : q = 0 := Subsingleton.elim _ _
  show Ideal.logistic (score3 eij scale shift xs xd W1 (shapeCast S1x256 b1 hb1) (w2pad hzW hcW w2) (b2pad hzb hcb hsb b2) r)
    = Ideal.div (Ideal.ofBits .f32 0x3F800000#32) (Ideal.ofBits .f32 0x3F800000#32 + Ideal.exp (-(_)))
  rw [one_word3]
  refine congrArg (fun s => Ideal.div 1 (1 + Ideal.exp (-s))) ?_
  symm
  refine (Cert.DenseLayer.host_affine d2 hd2 _ w2 b2 h125 h126 r 0).trans ?_
  refine (congrArg (fun H => Cert.MatProd.prod H w2 (ix2 r 0) + Cert.DenseLayer.asRow b2 (ix2 0 0))
    (Cert.DenseLayer.host_layer d1 hd1 _ W1 b1 h120 h121 h0)).trans ?_
  show (∑ j : Fin 256, Cert.MatProd.denseRelu _ W1 (Cert.DenseLayer.asRow b1) (ix2 r j) * w2 (ix2 j 0)) + b2 (ix1 0) = _
  unfold score3
  refine congrArg₂ (· + ·) (Finset.sum_congr rfl fun j _ => congrArg₂ (· * ·) ?_ ?_) ?_
  · rw [denseRelu_apply3]
    unfold hid3
    refine congrArg (fun s => max s 0) (congrArg₂ (· + ·) (Finset.sum_congr rfl fun k _ => congrArg (· * W1 (ix2 k j)) ?_) ?_)
    · rw [cat3_rows_apply]; rfl
    · exact (Cert.Layout.row_of_vec_apply b1 hb1 j).symm
  · exact (concatenate_pair_apply_left 1 w2 _ hcW (ix2 j (0 : Fin 128)) rfl (ix2 j (0 : Fin 1)) (fun b => by
      match b with
      | ⟨0, _⟩ => rfl
      | ⟨1, _⟩ => rfl)).symm
  · refine ((Cert.Layout.row_of_vec_apply _ hsb (0 : Fin 128)).trans
      (concatenate_pair_apply_left 0 b2 _ hcb (ix1 (0 : Fin 128)) rfl (ix1 (0 : Fin 1)) (fun b => by
        match b with
        | ⟨0, _⟩ => rfl))).symm

end Cert.Bridge

end
-- ==== Proof.JoinScore.lean ====
import proofs.«143299_j13005160972635_2_alg».proof.Proof.JoinBase
import proofs.«143299_j13005160972635_2_alg».proof.Proof.BridgeScore

set_option maxRecDepth 16384

noncomputable section

/-! # The edge scores of the two programs

With the arguments agreeing and the three pieces of the feature rows already identified (the gathered source rows, the
gathered destination rows, the clamped edge rows), the region's score array at its padded operands is the reference's
two-layer map and logistic expansion. -/

namespace Cert.Bridge

open Idealize.ShloMosaic Idealize.ShloMosaic.TcCoe Idealize.ShloMosaic.ValueIdx
open Idealize.SL.Sem
open Cert.KernelIdeal.Hand Cert.ReferenceIdeal.Hand

attribute [local irreducible] Host.reduceAdd Host.gather Host.scatterAdd

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option backward.isDefEq.respectTransparency.types false

/-- The third result: the kernel program's edge scores are the reference's. -/
theorem join_scores (hag : Agree m m' c) (hxs : kXs m c = rXs (RV m' c)) (hxd : kXd m c = rXd (RV m' c))
    (heout : kEout m c = rEout (RV m' c)) : kScores m c = rScores (RV m' c) := by
  unfold kScores kB1 kW2pad kB2pad rScores
  rw [← hxs, ← hxd, ← heout, arg17_agree m m' c hag, arg18_agree m m' c hag, arg19_agree m m' c hag,
    arg20_agree m m' c hag]
  unfold kEout
  exact score_bridge _ _ _ _ _ _ _ _ rfl _ _ _ _ rfl _ _ _ _ _ _ _ _ _ _ _ _

end Cert.Bridge

end
-- ==== Proof.LibScatterAddRows.lean ====
/-
  An accumulating scatter of whole rows, read at an entry.

  The operand is an `N × C` array, the updates an `E × C` array, and update row `e` is added onto the operand row
  whose number is the `e`-th scatter index (one signed integer per update row); a row whose index is negative or
  `≥ N` is dropped. On the extended reals the result at `(n, c)` is therefore the operand's entry plus the sum, over
  the update rows `e` whose index is `n`, of the update entry `(e, c)`: the columns never mix.

  Everything is general in the three extents and in the width of the index integers.
-/
import Idealize.ShloMosaic.PureOps.Ideal
import Idealize.ShloMosaic.PureOps.Contract
import Idealize.ShloMosaic.Lib.ValueIdx

noncomputable section

namespace LibScatterAddRows

open Idealize.ShloMosaic Idealize.ShloMosaic.ValueIdx

variable {N E C w : Nat}

/-- The dimension numbers of a row scatter: operand `[N, C]`, one index per update row held as `[E, 1]`, updates
    `[E, C]`; the update's axis 1 is the window, the operand's axis 0 is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- On the row axis the window of update entry `(e, b)` starts at the `e`-th scatter index, read signed. -/
theorem start_row (idx : IVec ⟨2, ![E, 1]⟩ w) (e : Fin E) (b : Fin C) :
    (rowDims N E C wf).start (ix2 e b) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e b) ⟨List.idxOf (0 : Fin 2) (rowDims N E C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis it starts at zero. -/
theorem start_col (idx : IVec ⟨2, ![E, 1]⟩ w) (e : Fin E) (b : Fin C) :
    (rowDims N E C wf).start (ix2 e b) idx 1 = 0 := by
  unfold ScatterDims.start
  rw [dif_neg (show ¬ (1 : Fin 2) ∈ (rowDims N E C wf).scatterDimsToOperandDims from by
    intro h; exact absurd (congrArg Fin.val (List.mem_singleton.mp h)) Nat.one_ne_zero)]

/-- The window coordinate on the row axis is zero … -/
theorem window_row (e : Fin E) (b : Fin C) : (rowDims N E C wf).window (ix2 e b) 0 = 0 := by
  unfold ScatterDims.window
  rw [dif_neg (show ¬ (0 : Fin 2) ∈ (rowDims N E C wf).sKept from by
    show ¬ (0 : Fin 2) ∈ ([1] : List (Fin 2))
    intro h; exact absurd (congrArg Fin.val (List.mem_singleton.mp h)) Nat.zero_ne_one)]

/-- … and on the column axis it is the update entry's column. -/
theorem window_col (e : Fin E) (b : Fin C) : (rowDims N E C wf).window (ix2 e b) 1 = b.val := by
  unfold ScatterDims.window
  rw [dif_pos (show (1 : Fin 2) ∈ (rowDims N E C wf).sKept from by
    show (1 : Fin 2) ∈ ([1] : List (Fin 2))
    exact List.mem_singleton.mpr rfl)]
  rfl

/-- WHERE AN UPDATE ENTRY LANDS: entry `(e, b)` lands on operand entry `(n, c)` exactly when the `e`-th index is
    `n` and the columns agree. -/
theorem resultIdx?_iff (idx : IVec ⟨2, ![E, 1]⟩ w) (e : Fin E) (b : Fin C) (n : Fin N) (c : Fin C) :
    (rowDims N E C wf).resultIdx? (ix2 e b) idx = some (ix2 n c)
      ↔ (idx (ix2 e (0 : Fin 1))).toInt = (n.val : Int) ∧ b = c := by
  have hs0 := start_row wf idx e b
  have hs1 := start_col wf idx e b
  have hw0 := window_row wf e b
  have hw1 := window_col wf e b
  unfold ScatterDims.resultIdx?
  constructor
  · intro H
    split at H
    · rename_i h
      have H' := Option.some.inj H
      have h0 : ((rowDims N E C wf).start (ix2 e b) idx 0 + (rowDims N E C wf).window (ix2 e b) 0).toNat = n.val :=
        congrArg (fun f => (f 0).val) H'
      have h1 : ((rowDims N E C wf).start (ix2 e b) idx 1 + (rowDims N E C wf).window (ix2 e b) 1).toNat = c.val :=
        congrArg (fun f => (f 1).val) H'
      have hh0 := (h 0).1
      rw [hs0, hw0] at h0 hh0
      rw [hs1, hw1] at h1
      exact ⟨by omega, Fin.ext (by omega)⟩
    · exact absurd H (by simp)
  · rintro ⟨h0, rfl⟩
    have hn : n.val < N := n.isLt
    have hb : b.val < C := b.isLt
    have h : ∀ a, 0 ≤ (rowDims N E C wf).start (ix2 e b) idx a + (rowDims N E C wf).window (ix2 e b) a
        ∧ (rowDims N E C wf).start (ix2 e b) idx a + (rowDims N E C wf).window (ix2 e b) a
          < (⟨2, ![N, C]⟩ : Shape).size a :=
      Fin.forall_fin_two.2 ⟨by
        rw [hs0, hw0, h0]
        refine ⟨by omega, ?_⟩
        show (n.val : Int) + ((0 : Nat) : Int) < ((N : Nat) : Int)
        omega, by
        rw [hs1, hw1]
        refine ⟨by omega, ?_⟩
        show (0 : Int) + ((b.val : Nat) : Int) < ((C : Nat) : Int)
        omega⟩
    rw [dif_pos h]
    refine congrArg some (funext ?_)
    refine Fin.forall_fin_two.2 ⟨Fin.ext ?_, Fin.ext ?_⟩
    · show ((rowDims N E C wf).start (ix2 e b) idx 0 + (rowDims N E C wf).window (ix2 e b) 0).toNat = n.val
      rw [hs0, hw0, h0]; omega
    · show ((rowDims N E C wf).start (ix2 e b) idx 1 + (rowDims N E C wf).window (ix2 e b) 1).toNat = b.val
      rw [hs1, hw1]; omega

/-- THE ROW SCATTER READ AT AN ENTRY, on the extended reals: the operand's entry plus the update entries of the
    same column in the rows whose index is `n`. -/
theorem hostScatterAdd_rows (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_iff]
  by_cases hq : (idx (ix2 e (0 : Fin 1))).toInt = (n.val : Int)
  · simp only [hq, true_and, Finset.sum_ite_eq', Finset.mem_univ, if_true]
  · simp only [hq, false_and, if_false, Finset.sum_const_zero]

/-- The same for the host operation as a program prints it, read at the exact instance. -/
theorem scatterAdd_rows (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (rowDims N E C wf) x idx upd (ix2 n c)
      = x (ix2 n c) + ∑ e : Fin E, if (idx (ix2 e (0 : Fin 1))).toInt = (n.val : Int) then upd (ix2 e c) else 0 :=
  hostScatterAdd_rows wf x idx upd n c

end LibScatterAddRows

end
-- ==== Proof.LibRealSum.lean ====
/-
  Finite sums of real numbers inside the extended reals.

  The extended reals are not a ring: a product does not distribute over a sum when an infinity meets a
  term of the other sign. Every law used by this certificate is therefore proved on the real numbers
  and carried to the extended reals through the coercion, which is additive and multiplicative on
  reals. This module holds the one general fact that makes that possible for sums of any finite length.
-/
import Idealize.ShloMosaic.PureOps.Ideal

namespace LibRealSum

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end LibRealSum
-- ==== Proof.BridgeScatter.lean ====
/-
  The host-side accumulating scatters of this program read entry by entry, and the realness of what is built on them.

  Update row `e` of a 640000 × 128 array is added onto row `dst e` of a 40000 × 128 array of zeros (a row whose index
  is negative or at least 40000 is dropped), so entry `(n, c)` of the result is the sum of the update entries `(e, c)`
  over the rows `e` with `dst e = n`. A finite sum of reals is a real and a finite sum of nonnegative reals is
  nonnegative; a real divided by a nonnegative real plus a positive constant is a real; a real plus a real is a real.
-/
import proofs.«143299_j13005160972635_2_alg».proof.Proof.Gen.KernelIdeal
import proofs.«143299_j13005160972635_2_alg».proof.Proof.Gen.ReferenceIdeal
import proofs.«143299_j13005160972635_2_alg».proof.Proof.LibScatterAddRows
import proofs.«143299_j13005160972635_2_alg».proof.Proof.LibRealSum
import Idealize.ShloMosaic.Lib.Pipeline.Value
import Idealize.ShloMosaic.Lib.ValueIdx

noncomputable section

namespace Cert.Bridge

open Idealize.ShloMosaic Idealize.ShloMosaic.ValueIdx

/-! ## Sums of reals inside the extended reals -/

/-- A finite sum of reals, some of them left out, is a real. -/
theorem sum_ite_real {ι : Type} [Fintype ι] (p : ι → Prop) [DecidablePred p] (g : ι → EReal)
    (hg : ∀ i, ∃ x : ℝ, g i = (x : EReal)) : ∃ y : ℝ, (∑ i, if p i then g i else 0) = (y : EReal) := by
  choose f hf using hg
  refine ⟨∑ i, if p i then f i else 0, ?_⟩
  rw [LibRealSum.coe_sum]
  refine Finset.sum_congr rfl fun i _ => ?_
  by_cases hp : p i
  · rw [if_pos hp, if_pos hp, hf]
  · rw [if_neg hp, if_neg hp, EReal.coe_zero]

/-- A finite sum of nonnegative reals, some of them left out, is a nonnegative real. -/
theorem sum_ite_nonneg {ι : Type} [Fintype ι] (p : ι → Prop) [DecidablePred p] (g : ι → EReal)
    (hg : ∀ i, ∃ x : ℝ, 0 ≤ x ∧ g i = (x : EReal)) : ∃ y : ℝ, 0 ≤ y ∧ (∑ i, if p i then g i else 0) = (y : EReal) := by
  choose f hf0 hf using hg
  refine ⟨∑ i, if p i then f i else 0, Finset.sum_nonneg fun i _ => ?_, ?_⟩
  · by_cases hp : p i
    · rw [if_pos hp]; exact hf0 i
    · rw [if_neg hp]
  · rw [LibRealSum.coe_sum]
    refine Finset.sum_congr rfl fun i _ => ?_
    by_cases hp : p i
    · rw [if_pos hp, if_pos hp, hf]
    · rw [if_neg hp, if_neg hp, EReal.coe_zero]

/-! ## A gather of a real table -/

/-- Every entry of a gather is an entry of the table, so a gather of a real table is real, whatever the record and
    the index array. -/
theorem gather_real {s si t : Shape} {w : Nat} (d : GatherDims s si t) (T : s.Idx → EReal) (idx : IVec si w)
    (hT : ∀ i, ∃ r : ℝ, T i = (r : EReal)) (j : t.Idx) : ∃ r : ℝ, Host.gather d T idx j = (r : EReal) :=
  hT _

/-! ## The two literals -/

/-- The literal `0x00000000` is zero. -/
theorem zero_bits : Ideal.ofBits .f32 0x00000000#32 = 0 := by simp [Ideal.ofBits, Ideal.ieee]

/-- The literal `0x358637BD` (9.99999997E-7) is a positive real. -/
theorem eps_bits : ∃ e : ℝ, 0 < e ∧ Ideal.ofBits .f32 0x358637BD#32 = (e : EReal) :=
  ⟨8796093 * (2 : ℝ) ^ (-43 : ℤ), by positivity, by simp [Ideal.ofBits, Ideal.ieee]⟩

/-- A real divided by the sum of a nonnegative real and the positive literal is a real. -/
theorem div_eps_real {a b : EReal} (ha : ∃ x : ℝ, a = (x : EReal)) (hb : ∃ y : ℝ, 0 ≤ y ∧ b = (y : EReal)) :
    ∃ q : ℝ, Ideal.div a (b + Ideal.ofBits .f32 0x358637BD#32) = (q : EReal) := by
  obtain ⟨x, rfl⟩ := ha
  obtain ⟨y, hy, rfl⟩ := hb
  obtain ⟨e, he, hE⟩ := eps_bits
  rw [hE, ← EReal.coe_add, Ideal.div_coe (by positivity : y + e ≠ 0), ← EReal.coe_mul]
  exact ⟨_, rfl⟩

/-! ## The kernel's scatters -/

/-- An index vector laid out as a column, read at a row. -/
theorem colK_apply (v : IVec Cert.KernelIdeal.S640000 32) (r : Fin 640000) :
    (broadcastInDim Cert.KernelIdeal.S640000x1 ![0] Cert.KernelIdeal.Facts₀.bcast_S640000_S640000x1_0 v) (ix2 r (0 : Fin 1)) = v (ix1 r) :=
  broadcastInDim_apply _ _ _ (ix2 r (0 : Fin 1)) (ix1 r) (fun a => match a with | ⟨0, _⟩ => rfl)

/-- Entry `(n, c)` of the scatter into zeros: the sum of the update entries `(e, c)` over the rows `e` whose index is `n`. -/
theorem scatterK_apply (dst : IVec Cert.KernelIdeal.S640000 32) (u : FVec Ideal Cert.KernelIdeal.S640000x128 .f32) (n : Fin 40000) (c : Fin 128) :
    (Host.scatterAdd (F := Ideal) Cert.KernelIdeal.scatter_S40000x128_S640000x1_S640000x128_1_0_0_1 (broadcastInDim Cert.KernelIdeal.S40000x128 ![] Cert.KernelIdeal.Facts₀.bcast_S_S40000x128 (constant (F := Ideal) Cert.KernelIdeal.S_ .f32 0x00000000#32)) (broadcastInDim Cert.KernelIdeal.S640000x1 ![0] Cert.KernelIdeal.Facts₀.bcast_S640000_S640000x1_0 dst) u) (ix2 n c)
      = ∑ e : Fin 640000, if (dst (ix1 e)).toInt = (n.val : Int) then u (ix2 e c) else 0 := by
  refine (LibScatterAddRows.scatterAdd_rows (N := 40000) (E := 640000) (C := 128)
    Cert.KernelIdeal.Facts₀.scatter_S40000x128_S640000x1_S640000x128_1_0_0_1_wf _ _ u n c).trans ?_
  show Ideal.ofBits .f32 0x00000000#32 + _ = _
  rw [zero_bits, zero_add]
  refine Finset.sum_congr rfl fun e _ => ?_
  rw [colK_apply]

/-- Every entry of the scatter of real updates is real. -/
theorem scatterK_real (dst : IVec Cert.KernelIdeal.S640000 32) (u : FVec Ideal Cert.KernelIdeal.S640000x128 .f32)
    (hu : ∀ i, ∃ x : ℝ, u i = (x : EReal)) (j : Cert.KernelIdeal.S40000x128.Idx) :
    ∃ y : ℝ, (Host.scatterAdd (F := Ideal) Cert.KernelIdeal.scatter_S40000x128_S640000x1_S640000x128_1_0_0_1 (broadcastInDim Cert.KernelIdeal.S40000x128 ![] Cert.KernelIdeal.Facts₀.bcast_S_S40000x128 (constant (F := Ideal) Cert.KernelIdeal.S_ .f32 0x00000000#32)) (broadcastInDim Cert.KernelIdeal.S640000x1 ![0] Cert.KernelIdeal.Facts₀.bcast_S640000_S640000x1_0 dst) u) j = (y : EReal) := by
  have h := scatterK_apply dst u (j 0) (j 1)
  obtain ⟨y, hy⟩ := sum_ite_real (fun e : Fin 640000 => (dst (ix1 e)).toInt = (((j 0).val : Nat) : Int))
    (fun e : Fin 640000 => u (ix2 e (j 1))) (fun e => hu _)
  rw [eq_ix2 j]
  exact ⟨y, h.trans hy⟩

/-- Every entry of the scatter of nonnegative real updates is a nonnegative real. -/
theorem scatterK_nonneg (dst : IVec Cert.KernelIdeal.S640000 32) (u : FVec Ideal Cert.KernelIdeal.S640000x128 .f32)
    (hu : ∀ i, ∃ x : ℝ, 0 ≤ x ∧ u i = (x : EReal)) (j : Cert.KernelIdeal.S40000x128.Idx) :
    ∃ y : ℝ, 0 ≤ y ∧ (Host.scatterAdd (F := Ideal) Cert.KernelIdeal.scatter_S40000x128_S640000x1_S640000x128_1_0_0_1 (broadcastInDim Cert.KernelIdeal.S40000x128 ![] Cert.KernelIdeal.Facts₀.bcast_S_S40000x128 (constant (F := Ideal) Cert.KernelIdeal.S_ .f32 0x00000000#32)) (broadcastInDim Cert.KernelIdeal.S640000x1 ![0] Cert.KernelIdeal.Facts₀.bcast_S640000_S640000x1_0 dst) u) j = (y : EReal) := by
  have h := scatterK_apply dst u (j 0) (j 1)
  obtain ⟨y, hy0, hy⟩ := sum_ite_nonneg (fun e : Fin 640000 => (dst (ix1 e)).toInt = (((j 0).val : Nat) : Int))
    (fun e : Fin 640000 => u (ix2 e (j 1))) (fun e => hu _)
  rw [eq_ix2 j]
  exact ⟨y, hy0, h.trans hy⟩

/-- The quotient of two arrays, the positive literal added to the divisor, read at an entry. -/
theorem quotK_unfold (a b : FVec Ideal Cert.KernelIdeal.S40000x128 .f32) (j : Cert.KernelIdeal.S40000x128.Idx) :
    Host.divf a (addf b (broadcastInDim Cert.KernelIdeal.S40000x128 ![] Cert.KernelIdeal.Facts₀.bcast_S_S40000x128 (constant (F := Ideal) Cert.KernelIdeal.S_ .f32 0x358637BD#32))) j = Ideal.div (a j) (b j + Ideal.ofBits .f32 0x358637BD#32) := rfl

/-- Every entry of the quotient of the scatter of real updates `u1` by the scatter of nonnegative real updates `u2`
    plus the positive literal is real. -/
theorem quotK_real (dst : IVec Cert.KernelIdeal.S640000 32) (u1 u2 : FVec Ideal Cert.KernelIdeal.S640000x128 .f32)
    (hu1 : ∀ i, ∃ x : ℝ, u1 i = (x : EReal)) (hu2 : ∀ i, ∃ x : ℝ, 0 ≤ x ∧ u2 i = (x : EReal)) (j : Cert.KernelIdeal.S40000x128.Idx) :
    ∃ q : ℝ, (Host.divf (Host.scatterAdd (F := Ideal) Cert.KernelIdeal.scatter_S40000x128_S640000x1_S640000x128_1_0_0_1 (broadcastInDim Cert.KernelIdeal.S40000x128 ![] Cert.KernelIdeal.Facts₀.bcast_S_S40000x128 (constant (F := Ideal) Cert.KernelIdeal.S_ .f32 0x00000000#32)) (broadcastInDim Cert.KernelIdeal.S640000x1 ![0] Cert.KernelIdeal.Facts₀.bcast_S640000_S640000x1_0 dst) u1) (addf (Host.scatterAdd (F := Ideal) Cert.KernelIdeal.scatter_S40000x128_S640000x1_S640000x128_1_0_0_1 (broadcastInDim Cert.KernelIdeal.S40000x128 ![] Cert.KernelIdeal.Facts₀.bcast_S_S40000x128 (constant (F := Ideal) Cert.KernelIdeal.S_ .f32 0x00000000#32)) (broadcastInDim Cert.KernelIdeal.S640000x1 ![0] Cert.KernelIdeal.Facts₀.bcast_S640000_S640000x1_0 dst) u2) (broadcastInDim Cert.KernelIdeal.S40000x128 ![] Cert.KernelIdeal.Facts₀.bcast_S_S40000x128 (constant (F := Ideal) Cert.KernelIdeal.S_ .f32 0x358637BD#32)))) j = (q : EReal) := by
  obtain ⟨q, hq⟩ := div_eps_real (scatterK_real dst u1 hu1 j) (scatterK_nonneg dst u2 hu2 j)
  exact ⟨q, (quotK_unfold _ _ j).trans hq⟩

/-- The same with positive updates `u2`. -/
theorem quotK_real_of_pos (dst : IVec Cert.KernelIdeal.S640000 32) (u1 u2 : FVec Ideal Cert.KernelIdeal.S640000x128 .f32)
    (hu1 : ∀ i, ∃ x : ℝ, u1 i = (x : EReal)) (hu2 : ∀ i, ∃ x : ℝ, 0 < x ∧ u2 i = (x : EReal)) (j : Cert.KernelIdeal.S40000x128.Idx) :
    ∃ q : ℝ, (Host.divf (Host.scatterAdd (F := Ideal) Cert.KernelIdeal.scatter_S40000x128_S640000x1_S640000x128_1_0_0_1 (broadcastInDim Cert.KernelIdeal.S40000x128 ![] Cert.KernelIdeal.Facts₀.bcast_S_S40000x128 (constant (F := Ideal) Cert.KernelIdeal.S_ .f32 0x00000000#32)) (broadcastInDim Cert.KernelIdeal.S640000x1 ![0] Cert.KernelIdeal.Facts₀.bcast_S640000_S640000x1_0 dst) u1) (addf (Host.scatterAdd (F := Ideal) Cert.KernelIdeal.scatter_S40000x128_S640000x1_S640000x128_1_0_0_1 (broadcastInDim Cert.KernelIdeal.S40000x128 ![] Cert.KernelIdeal.Facts₀.bcast_S_S40000x128 (constant (F := Ideal) Cert.KernelIdeal.S_ .f32 0x00000000#32)) (broadcastInDim Cert.KernelIdeal.S640000x1 ![0] Cert.KernelIdeal.Facts₀.bcast_S640000_S640000x1_0 dst) u2) (broadcastInDim Cert.KernelIdeal.S40000x128 ![] Cert.KernelIdeal.Facts₀.bcast_S_S40000x128 (constant (F := Ideal) Cert.KernelIdeal.S_ .f32 0x358637BD#32)))) j = (q : EReal) :=
  quotK_real dst u1 u2 hu1 (fun i => (hu2 i).imp fun _ h => ⟨h.1.le, h.2⟩) j

/-- Every entry of a real array plus that quotient is real. -/
theorem addQuotK_real (Ax : FVec Ideal Cert.KernelIdeal.S40000x128 .f32) (dst : IVec Cert.KernelIdeal.S640000 32) (u1 u2 : FVec Ideal Cert.KernelIdeal.S640000x128 .f32)
    (hA : ∀ i, ∃ x : ℝ, Ax i = (x : EReal))
    (hu1 : ∀ i, ∃ x : ℝ, u1 i = (x : EReal)) (hu2 : ∀ i, ∃ x : ℝ, 0 ≤ x ∧ u2 i = (x : EReal)) (j : Cert.KernelIdeal.S40000x128.Idx) :
    ∃ y : ℝ, addf Ax (Host.divf (Host.scatterAdd (F := Ideal) Cert.KernelIdeal.scatter_S40000x128_S640000x1_S640000x128_1_0_0_1 (broadcastInDim Cert.KernelIdeal.S40000x128 ![] Cert.KernelIdeal.Facts₀.bcast_S_S40000x128 (constant (F := Ideal) Cert.KernelIdeal.S_ .f32 0x00000000#32)) (broadcastInDim Cert.KernelIdeal.S640000x1 ![0] Cert.KernelIdeal.Facts₀.bcast_S640000_S640000x1_0 dst) u1) (addf (Host.scatterAdd (F := Ideal) Cert.KernelIdeal.scatter_S40000x128_S640000x1_S640000x128_1_0_0_1 (broadcastInDim Cert.KernelIdeal.S40000x128 ![] Cert.KernelIdeal.Facts₀.bcast_S_S40000x128 (constant (F := Ideal) Cert.KernelIdeal.S_ .f32 0x00000000#32)) (broadcastInDim Cert.KernelIdeal.S640000x1 ![0] Cert.KernelIdeal.Facts₀.bcast_S640000_S640000x1_0 dst) u2) (broadcastInDim Cert.KernelIdeal.S40000x128 ![] Cert.KernelIdeal.Facts₀.bcast_S_S40000x128 (constant (F := Ideal) Cert.KernelIdeal.S_ .f32 0x358637BD#32)))) j = (y : EReal) := by
  obtain ⟨a, ha⟩ := hA j
  obtain ⟨q, hq⟩ := quotK_real dst u1 u2 hu1 hu2 j
  refine ⟨a + q, ?_⟩
  refine (addf_apply Ax _ j).trans ?_
  rw [ha, hq, EReal.coe_add]

/-! ## The reference's scatters -/

/-- An index vector laid out as a column, read at a row. -/
theorem colR_apply (v : IVec Cert.ReferenceIdeal.S640000 32) (r : Fin 640000) :
    (broadcastInDim Cert.ReferenceIdeal.S640000x1 ![0] Cert.ReferenceIdeal.Facts₀.bcast_S640000_S640000x1_0 v) (ix2 r (0 : Fin 1)) = v (ix1 r) :=
  broadcastInDim_apply _ _ _ (ix2 r (0 : Fin 1)) (ix1 r) (fun a => match a with | ⟨0, _⟩ => rfl)

/-- Entry `(n, c)` of the scatter into zeros: the sum of the update entries `(e, c)` over the rows `e` whose index is `n`. -/
theorem scatterR_apply (dst : IVec Cert.ReferenceIdeal.S640000 32) (u : FVec Ideal Cert.ReferenceIdeal.S640000x128 .f32) (n : Fin 40000) (c : Fin 128) :
    (Host.scatterAdd (F := Ideal) Cert.ReferenceIdeal.scatter_S40000x128_S640000x1_S640000x128_1_0_0_1 (broadcastInDim Cert.ReferenceIdeal.S40000x128 ![] Cert.ReferenceIdeal.Facts₀.bcast_S_S40000x128 (constant (F := Ideal) Cert.ReferenceIdeal.S_ .f32 0x00000000#32)) (broadcastInDim Cert.ReferenceIdeal.S640000x1 ![0] Cert.ReferenceIdeal.Facts₀.bcast_S640000_S640000x1_0 dst) u) (ix2 n c)
      = ∑ e : Fin 640000, if (dst (ix1 e)).toInt = (n.val : Int) then u (ix2 e c) else 0 := by
  refine (LibScatterAddRows.scatterAdd_rows (N := 40000) (E := 640000) (C := 128)
    Cert.ReferenceIdeal.Facts₀.scatter_S40000x128_S640000x1_S640000x128_1_0_0_1_wf _ _ u n c).trans ?_
  show Ideal.ofBits .f32 0x00000000#32 + _ = _
  rw [zero_bits, zero_add]
  refine Finset.sum_congr rfl fun e _ => ?_
  rw [colR_apply]

/-- Every entry of the scatter of real updates is real. -/
theorem scatterR_real (dst : IVec Cert.ReferenceIdeal.S640000 32) (u : FVec Ideal Cert.ReferenceIdeal.S640000x128 .f32)
    (hu : ∀ i, ∃ x : ℝ, u i = (x : EReal)) (j : Cert.ReferenceIdeal.S40000x128.Idx) :
    ∃ y : ℝ, (Host.scatterAdd (F := Ideal) Cert.ReferenceIdeal.scatter_S40000x128_S640000x1_S640000x128_1_0_0_1 (broadcastInDim Cert.ReferenceIdeal.S40000x128 ![] Cert.ReferenceIdeal.Facts₀.bcast_S_S40000x128 (constant (F := Ideal) Cert.ReferenceIdeal.S_ .f32 0x00000000#32)) (broadcastInDim Cert.ReferenceIdeal.S640000x1 ![0] Cert.ReferenceIdeal.Facts₀.bcast_S640000_S640000x1_0 dst) u) j = (y : EReal) := by
  have h := scatterR_apply dst u (j 0) (j 1)
  obtain ⟨y, hy⟩ := sum_ite_real (fun e : Fin 640000 => (dst (ix1 e)).toInt = (((j 0).val : Nat) : Int))
    (fun e : Fin 640000 => u (ix2 e (j 1))) (fun e => hu _)
  rw [eq_ix2 j]
  exact ⟨y, h.trans hy⟩

/-- Every entry of the scatter of nonnegative real updates is a nonnegative real. -/
theorem scatterR_nonneg (dst : IVec Cert.ReferenceIdeal.S640000 32) (u : FVec Ideal Cert.ReferenceIdeal.S640000x128 .f32)
    (hu : ∀ i, ∃ x : ℝ, 0 ≤ x ∧ u i = (x : EReal)) (j : Cert.ReferenceIdeal.S40000x128.Idx) :
    ∃ y : ℝ, 0 ≤ y ∧ (Host.scatterAdd (F := Ideal) Cert.ReferenceIdeal.scatter_S40000x128_S640000x1_S640000x128_1_0_0_1 (broadcastInDim Cert.ReferenceIdeal.S40000x128 ![] Cert.ReferenceIdeal.Facts₀.bcast_S_S40000x128 (constant (F := Ideal) Cert.ReferenceIdeal.S_ .f32 0x00000000#32)) (broadcastInDim Cert.ReferenceIdeal.S640000x1 ![0] Cert.ReferenceIdeal.Facts₀.bcast_S640000_S640000x1_0 dst) u) j = (y : EReal) := by
  have h := scatterR_apply dst u (j 0) (j 1)
  obtain ⟨y, hy0, hy⟩ := sum_ite_nonneg (fun e : Fin 640000 => (dst (ix1 e)).toInt = (((j 0).val : Nat) : Int))
    (fun e : Fin 640000 => u (ix2 e (j 1))) (fun e => hu _)
  rw [eq_ix2 j]
  exact ⟨y, hy0, h.trans hy⟩

/-- The quotient of two arrays, the positive literal added to the divisor, read at an entry. -/
theorem quotR_unfold (a b : FVec Ideal Cert.ReferenceIdeal.S40000x128 .f32) (j : Cert.ReferenceIdeal.S40000x128.Idx) :
    Host.divf a (addf b (broadcastInDim Cert.ReferenceIdeal.S40000x128 ![] Cert.ReferenceIdeal.Facts₀.bcast_S_S40000x128 (constant (F := Ideal) Cert.ReferenceIdeal.S_ .f32 0x358637BD#32))) j = Ideal.div (a j) (b j + Ideal.ofBits .f32 0x358637BD#32) := rfl

/-- Every entry of the quotient of the scatter of real updates `u1` by the scatter of nonnegative real updates `u2`
    plus the positive literal is real. -/
theorem quotR_real (dst : IVec Cert.ReferenceIdeal.S640000 32) (u1 u2 : FVec Ideal Cert.ReferenceIdeal.S640000x128 .f32)
    (hu1 : ∀ i, ∃ x : ℝ, u1 i = (x : EReal)) (hu2 : ∀ i, ∃ x : ℝ, 0 ≤ x ∧ u2 i = (x : EReal)) (j : Cert.ReferenceIdeal.S40000x128.Idx) :
    ∃ q : ℝ, (Host.divf (Host.scatterAdd (F := Ideal) Cert.ReferenceIdeal.scatter_S40000x128_S640000x1_S640000x128_1_0_0_1 (broadcastInDim Cert.ReferenceIdeal.S40000x128 ![] Cert.ReferenceIdeal.Facts₀.bcast_S_S40000x128 (constant (F := Ideal) Cert.ReferenceIdeal.S_ .f32 0x00000000#32)) (broadcastInDim Cert.ReferenceIdeal.S640000x1 ![0] Cert.ReferenceIdeal.Facts₀.bcast_S640000_S640000x1_0 dst) u1) (addf (Host.scatterAdd (F := Ideal) Cert.ReferenceIdeal.scatter_S40000x128_S640000x1_S640000x128_1_0_0_1 (broadcastInDim Cert.ReferenceIdeal.S40000x128 ![] Cert.ReferenceIdeal.Facts₀.bcast_S_S40000x128 (constant (F := Ideal) Cert.ReferenceIdeal.S_ .f32 0x00000000#32)) (broadcastInDim Cert.ReferenceIdeal.S640000x1 ![0] Cert.ReferenceIdeal.Facts₀.bcast_S640000_S640000x1_0 dst) u2) (broadcastInDim Cert.ReferenceIdeal.S40000x128 ![] Cert.ReferenceIdeal.Facts₀.bcast_S_S40000x128 (constant (F := Ideal) Cert.ReferenceIdeal.S_ .f32 0x358637BD#32)))) j = (q : EReal) := by
  obtain ⟨q, hq⟩ := div_eps_real (scatterR_real dst u1 hu1 j) (scatterR_nonneg dst u2 hu2 j)
  exact ⟨q, (quotR_unfold _ _ j).trans hq⟩

/-- The same with positive updates `u2`. -/
theorem quotR_real_of_pos (dst : IVec Cert.ReferenceIdeal.S640000 32) (u1 u2 : FVec Ideal Cert.ReferenceIdeal.S640000x128 .f32)
    (hu1 : ∀ i, ∃ x : ℝ, u1 i = (x : EReal)) (hu2 : ∀ i, ∃ x : ℝ, 0 < x ∧ u2 i = (x : EReal)) (j : Cert.ReferenceIdeal.S40000x128.Idx) :
    ∃ q : ℝ, (Host.divf (Host.scatterAdd (F := Ideal) Cert.ReferenceIdeal.scatter_S40000x128_S640000x1_S640000x128_1_0_0_1 (broadcastInDim Cert.ReferenceIdeal.S40000x128 ![] Cert.ReferenceIdeal.Facts₀.bcast_S_S40000x128 (constant (F := Ideal) Cert.ReferenceIdeal.S_ .f32 0x00000000#32)) (broadcastInDim Cert.ReferenceIdeal.S640000x1 ![0] Cert.ReferenceIdeal.Facts₀.bcast_S640000_S640000x1_0 dst) u1) (addf (Host.scatterAdd (F := Ideal) Cert.ReferenceIdeal.scatter_S40000x128_S640000x1_S640000x128_1_0_0_1 (broadcastInDim Cert.ReferenceIdeal.S40000x128 ![] Cert.ReferenceIdeal.Facts₀.bcast_S_S40000x128 (constant (F := Ideal) Cert.ReferenceIdeal.S_ .f32 0x00000000#32)) (broadcastInDim Cert.ReferenceIdeal.S640000x1 ![0] Cert.ReferenceIdeal.Facts₀.bcast_S640000_S640000x1_0 dst) u2) (broadcastInDim Cert.ReferenceIdeal.S40000x128 ![] Cert.ReferenceIdeal.Facts₀.bcast_S_S40000x128 (constant (F := Ideal) Cert.ReferenceIdeal.S_ .f32 0x358637BD#32)))) j = (q : EReal) :=
  quotR_real dst u1 u2 hu1 (fun i => (hu2 i).imp fun _ h => ⟨h.1.le, h.2⟩) j

/-- Every entry of a real array plus that quotient is real. -/
theorem addQuotR_real (Ax : FVec Ideal Cert.ReferenceIdeal.S40000x128 .f32) (dst : IVec Cert.ReferenceIdeal.S640000 32) (u1 u2 : FVec Ideal Cert.ReferenceIdeal.S640000x128 .f32)
    (hA : ∀ i, ∃ x : ℝ, Ax i = (x : EReal))
    (hu1 : ∀ i, ∃ x : ℝ, u1 i = (x : EReal)) (hu2 : ∀ i, ∃ x : ℝ, 0 ≤ x ∧ u2 i = (x : EReal)) (j : Cert.ReferenceIdeal.S40000x128.Idx) :
    ∃ y : ℝ, addf Ax (Host.divf (Host.scatterAdd (F := Ideal) Cert.ReferenceIdeal.scatter_S40000x128_S640000x1_S640000x128_1_0_0_1 (broadcastInDim Cert.ReferenceIdeal.S40000x128 ![] Cert.ReferenceIdeal.Facts₀.bcast_S_S40000x128 (constant (F := Ideal) Cert.ReferenceIdeal.S_ .f32 0x00000000#32)) (broadcastInDim Cert.ReferenceIdeal.S640000x1 ![0] Cert.ReferenceIdeal.Facts₀.bcast_S640000_S640000x1_0 dst) u1) (addf (Host.scatterAdd (F := Ideal) Cert.ReferenceIdeal.scatter_S40000x128_S640000x1_S640000x128_1_0_0_1 (broadcastInDim Cert.ReferenceIdeal.S40000x128 ![] Cert.ReferenceIdeal.Facts₀.bcast_S_S40000x128 (constant (F := Ideal) Cert.ReferenceIdeal.S_ .f32 0x00000000#32)) (broadcastInDim Cert.ReferenceIdeal.S640000x1 ![0] Cert.ReferenceIdeal.Facts₀.bcast_S640000_S640000x1_0 dst) u2) (broadcastInDim Cert.ReferenceIdeal.S40000x128 ![] Cert.ReferenceIdeal.Facts₀.bcast_S_S40000x128 (constant (F := Ideal) Cert.ReferenceIdeal.S_ .f32 0x358637BD#32)))) j = (y : EReal) := by
  obtain ⟨a, ha⟩ := hA j
  obtain ⟨q, hq⟩ := quotR_real dst u1 u2 hu1 hu2 j
  refine ⟨a + q, ?_⟩
  refine (addf_apply Ax _ j).trans ?_
  rw [ha, hq, EReal.coe_add]

end Cert.Bridge

end
-- ==== Proof.JoinReal.lean ====
import proofs.«143299_j13005160972635_2_alg».proof.Proof.BridgeProj
import proofs.«143299_j13005160972635_2_alg».proof.Proof.BridgeEdge
import proofs.«143299_j13005160972635_2_alg».proof.Proof.BridgeScatter
import proofs.«143299_j13005160972635_2_alg».proof.Proof.BridgeIndex

set_option maxRecDepth 16384

noncomputable section

open scoped BigOperators

namespace Cert.Bridge

open Idealize.ShloMosaic Idealize.ShloMosaic.ValueIdx

/-! # Real inputs keep the reference's edge gate and node pre-activation real

Every operation between the inputs and the node pre-activation is a finite sum or product of reals, a gather (which only
copies entries), a logistic (a positive real), or a quotient whose denominator is a nonnegative real plus a positive
literal: none of them leaves the real numbers. The terms are written as the reference's program spells them. -/

/-- One projection `x W + b` of the node features keeps real entries real. -/
theorem join_proj_real (x : FVec Ideal Cert.ReferenceIdeal.S40000x128 .f32) (w : FVec Ideal Cert.ReferenceIdeal.S128x128 .f32) (b : FVec Ideal Cert.ReferenceIdeal.S128 .f32)
    (hx : ∀ i, ∃ r : ℝ, x i = (r : EReal)) (hw : ∀ i, ∃ r : ℝ, w i = (r : EReal)) (hb : ∀ i, ∃ r : ℝ, b i = (r : EReal)) :
    ∀ i, ∃ r : ℝ, (addf (Host.dotGeneral (F := Ideal) Cert.ReferenceIdeal.dot_S40000x128_S128x128_S40000x128_1_0_0_1_n_n none x w) (broadcastInDim Cert.ReferenceIdeal.S40000x128 ![0, 1] Cert.ReferenceIdeal.Facts₀.bcast_S1x128_S40000x128_0_1 (broadcastInDim Cert.ReferenceIdeal.S1x128 ![1] Cert.ReferenceIdeal.Facts₀.bcast_S128_S1x128_1 b))) i = (r : EReal) :=
  fun i => proj_real (M := 40000) (K := 128) (N := 128) _ dot_nodes_plain x w b _ _ hx hw hb i

/-- (1) Every entry of the edge pre-activation `e_ij = D x[dst] + E x[src] + C e` is real. -/
theorem join_eij_real (x : FVec Ideal Cert.ReferenceIdeal.S40000x128 .f32) (e : FVec Ideal Cert.ReferenceIdeal.S640000x128 .f32)
    (Cw Dw Ew : FVec Ideal Cert.ReferenceIdeal.S128x128 .f32) (Cb Db Eb : FVec Ideal Cert.ReferenceIdeal.S128 .f32) (src dst : IVec Cert.ReferenceIdeal.S640000 32)
    (hx : ∀ i, ∃ r : ℝ, x i = (r : EReal)) (he : ∀ i, ∃ r : ℝ, e i = (r : EReal)) (hCw : ∀ i, ∃ r : ℝ, Cw i = (r : EReal)) (hCb : ∀ i, ∃ r : ℝ, Cb i = (r : EReal)) (hDw : ∀ i, ∃ r : ℝ, Dw i = (r : EReal)) (hDb : ∀ i, ∃ r : ℝ, Db i = (r : EReal)) (hEw : ∀ i, ∃ r : ℝ, Ew i = (r : EReal)) (hEb : ∀ i, ∃ r : ℝ, Eb i = (r : EReal)) :
    ∀ i, ∃ r : ℝ, (refPre e Cw Cb (Host.gather Cert.ReferenceIdeal.gather_S40000x128_S640000x1_S640000x128_1_0_n_n_0_1_1128 (addf (Host.dotGeneral (F := Ideal) Cert.ReferenceIdeal.dot_S40000x128_S128x128_S40000x128_1_0_0_1_n_n none x Dw) (broadcastInDim Cert.ReferenceIdeal.S40000x128 ![0, 1] Cert.ReferenceIdeal.Facts₀.bcast_S1x128_S40000x128_0_1 (broadcastInDim Cert.ReferenceIdeal.S1x128 ![1] Cert.ReferenceIdeal.Facts₀.bcast_S128_S1x128_1 Db))) (broadcastInDim Cert.ReferenceIdeal.S640000x1 ![0] Cert.ReferenceIdeal.Facts₀.bcast_S640000_S640000x1_0 (select (cmpi .slt dst (broadcastInDim Cert.ReferenceIdeal.S640000 ![] Cert.ReferenceIdeal.Facts₀.bcast_S_S640000 (constantI Cert.ReferenceIdeal.S_ 32 0#32))) (addi dst (broadcastInDim Cert.ReferenceIdeal.S640000 ![] Cert.ReferenceIdeal.Facts₀.bcast_S_S640000 (constantI Cert.ReferenceIdeal.S_ 32 40000#32))) dst))) (Host.gather Cert.ReferenceIdeal.gather_S40000x128_S640000x1_S640000x128_1_0_n_n_0_1_1128 (addf (Host.dotGeneral (F := Ideal) Cert.ReferenceIdeal.dot_S40000x128_S128x128_S40000x128_1_0_0_1_n_n none x Ew) (broadcastInDim Cert.ReferenceIdeal.S40000x128 ![0, 1] Cert.ReferenceIdeal.Facts₀.bcast_S1x128_S40000x128_0_1 (broadcastInDim Cert.ReferenceIdeal.S1x128 ![1] Cert.ReferenceIdeal.Facts₀.bcast_S128_S1x128_1 Eb))) (broadcastInDim Cert.ReferenceIdeal.S640000x1 ![0] Cert.ReferenceIdeal.Facts₀.bcast_S640000_S640000x1_0 (select (cmpi .slt src (broadcastInDim Cert.ReferenceIdeal.S640000 ![] Cert.ReferenceIdeal.Facts₀.bcast_S_S640000 (constantI Cert.ReferenceIdeal.S_ 32 0#32))) (addi src (broadcastInDim Cert.ReferenceIdeal.S640000 ![] Cert.ReferenceIdeal.Facts₀.bcast_S_S640000 (constantI Cert.ReferenceIdeal.S_ 32 40000#32))) src)))) i = (r : EReal) :=
  refPre_real e Cw Cb _ _
    (fun i => gather_real _ _ _ (join_proj_real x Dw Db hx hDw hDb) i)
    (fun i => gather_real _ _ _ (join_proj_real x Ew Eb hx hEw hEb) i)
    he hCw hCb

/-- (2) Every entry of the node pre-activation `A x + (Σ σ(e_ij) · B x[src]) / (Σ σ(e_ij) + ε)` is real. -/
theorem join_pre_real (x : FVec Ideal Cert.ReferenceIdeal.S40000x128 .f32) (e : FVec Ideal Cert.ReferenceIdeal.S640000x128 .f32)
    (Aw Bw Cw Dw Ew : FVec Ideal Cert.ReferenceIdeal.S128x128 .f32) (Ab Bb Cb Db Eb : FVec Ideal Cert.ReferenceIdeal.S128 .f32) (src dst : IVec Cert.ReferenceIdeal.S640000 32)
    (hx : ∀ i, ∃ r : ℝ, x i = (r : EReal)) (he : ∀ i, ∃ r : ℝ, e i = (r : EReal)) (hAw : ∀ i, ∃ r : ℝ, Aw i = (r : EReal)) (hAb : ∀ i, ∃ r : ℝ, Ab i = (r : EReal)) (hBw : ∀ i, ∃ r : ℝ, Bw i = (r : EReal)) (hBb : ∀ i, ∃ r : ℝ, Bb i = (r : EReal)) (hCw : ∀ i, ∃ r : ℝ, Cw i = (r : EReal)) (hCb : ∀ i, ∃ r : ℝ, Cb i = (r : EReal))
    (hDw : ∀ i, ∃ r : ℝ, Dw i = (r : EReal)) (hDb : ∀ i, ∃ r : ℝ, Db i = (r : EReal)) (hEw : ∀ i, ∃ r : ℝ, Ew i = (r : EReal)) (hEb : ∀ i, ∃ r : ℝ, Eb i = (r : EReal)) :
    ∀ i, ∃ r : ℝ, (addf (addf (Host.dotGeneral (F := Ideal) Cert.ReferenceIdeal.dot_S40000x128_S128x128_S40000x128_1_0_0_1_n_n none x Aw) (broadcastInDim Cert.ReferenceIdeal.S40000x128 ![0, 1] Cert.ReferenceIdeal.Facts₀.bcast_S1x128_S40000x128_0_1 (broadcastInDim Cert.ReferenceIdeal.S1x128 ![1] Cert.ReferenceIdeal.Facts₀.bcast_S128_S1x128_1 Ab))) (Host.divf (Host.scatterAdd (F := Ideal) Cert.ReferenceIdeal.scatter_S40000x128_S640000x1_S640000x128_1_0_0_1 (broadcastInDim Cert.ReferenceIdeal.S40000x128 ![] Cert.ReferenceIdeal.Facts₀.bcast_S_S40000x128 (constant (F := Ideal) Cert.ReferenceIdeal.S_ .f32 0x00000000#32)) (broadcastInDim Cert.ReferenceIdeal.S640000x1 ![0] Cert.ReferenceIdeal.Facts₀.bcast_S640000_S640000x1_0 dst) (mulf (refSig (refPre e Cw Cb (Host.gather Cert.ReferenceIdeal.gather_S40000x128_S640000x1_S640000x128_1_0_n_n_0_1_1128 (addf (Host.dotGeneral (F := Ideal) Cert.ReferenceIdeal.dot_S40000x128_S128x128_S40000x128_1_0_0_1_n_n none x Dw) (broadcastInDim Cert.ReferenceIdeal.S40000x128 ![0, 1] Cert.ReferenceIdeal.Facts₀.bcast_S1x128_S40000x128_0_1 (broadcastInDim Cert.ReferenceIdeal.S1x128 ![1] Cert.ReferenceIdeal.Facts₀.bcast_S128_S1x128_1 Db))) (broadcastInDim Cert.ReferenceIdeal.S640000x1 ![0] Cert.ReferenceIdeal.Facts₀.bcast_S640000_S640000x1_0 (select (cmpi .slt dst (broadcastInDim Cert.ReferenceIdeal.S640000 ![] Cert.ReferenceIdeal.Facts₀.bcast_S_S640000 (constantI Cert.ReferenceIdeal.S_ 32 0#32))) (addi dst (broadcastInDim Cert.ReferenceIdeal.S640000 ![] Cert.ReferenceIdeal.Facts₀.bcast_S_S640000 (constantI Cert.ReferenceIdeal.S_ 32 40000#32))) dst))) (Host.gather Cert.ReferenceIdeal.gather_S40000x128_S640000x1_S640000x128_1_0_n_n_0_1_1128 (addf (Host.dotGeneral (F := Ideal) Cert.ReferenceIdeal.dot_S40000x128_S128x128_S40000x128_1_0_0_1_n_n none x Ew) (broadcastInDim Cert.ReferenceIdeal.S40000x128 ![0, 1] Cert.ReferenceIdeal.Facts₀.bcast_S1x128_S40000x128_0_1 (broadcastInDim Cert.ReferenceIdeal.S1x128 ![1] Cert.ReferenceIdeal.Facts₀.bcast_S128_S1x128_1 Eb))) (broadcastInDim Cert.ReferenceIdeal.S640000x1 ![0] Cert.ReferenceIdeal.Facts₀.bcast_S640000_S640000x1_0 (select (cmpi .slt src (broadcastInDim Cert.ReferenceIdeal.S640000 ![] Cert.ReferenceIdeal.Facts₀.bcast_S_S640000 (constantI Cert.ReferenceIdeal.S_ 32 0#32))) (addi src (broadcastInDim Cert.ReferenceIdeal.S640000 ![] Cert.ReferenceIdeal.Facts₀.bcast_S_S640000 (constantI Cert.ReferenceIdeal.S_ 32 40000#32))) src))))) (Host.gather Cert.ReferenceIdeal.gather_S40000x128_S640000x1_S640000x128_1_0_n_n_0_1_1128 (addf (Host.dotGeneral (F := Ideal) Cert.ReferenceIdeal.dot_S40000x128_S128x128_S40000x128_1_0_0_1_n_n none x Bw) (broadcastInDim Cert.ReferenceIdeal.S40000x128 ![0, 1] Cert.ReferenceIdeal.Facts₀.bcast_S1x128_S40000x128_0_1 (broadcastInDim Cert.ReferenceIdeal.S1x128 ![1] Cert.ReferenceIdeal.Facts₀.bcast_S128_S1x128_1 Bb))) (broadcastInDim Cert.ReferenceIdeal.S640000x1 ![0] Cert.ReferenceIdeal.Facts₀.bcast_S640000_S640000x1_0 (select (cmpi .slt src (broadcastInDim Cert.ReferenceIdeal.S640000 ![] Cert.ReferenceIdeal.Facts₀.bcast_S_S640000 (constantI Cert.ReferenceIdeal.S_ 32 0#32))) (addi src (broadcastInDim Cert.ReferenceIdeal.S640000 ![] Cert.ReferenceIdeal.Facts₀.bcast_S_S640000 (constantI Cert.ReferenceIdeal.S_ 32 40000#32))) src))))) (addf (Host.scatterAdd (F := Ideal) Cert.ReferenceIdeal.scatter_S40000x128_S640000x1_S640000x128_1_0_0_1 (broadcastInDim Cert.ReferenceIdeal.S40000x128 ![] Cert.ReferenceIdeal.Facts₀.bcast_S_S40000x128 (constant (F := Ideal) Cert.ReferenceIdeal.S_ .f32 0x00000000#32)) (broadcastInDim Cert.ReferenceIdeal.S640000x1 ![0] Cert.ReferenceIdeal.Facts₀.bcast_S640000_S640000x1_0 dst) (refSig (refPre e Cw Cb (Host.gather Cert.ReferenceIdeal.gather_S40000x128_S640000x1_S640000x128_1_0_n_n_0_1_1128 (addf (Host.dotGeneral (F := Ideal) Cert.ReferenceIdeal.dot_S40000x128_S128x128_S40000x128_1_0_0_1_n_n none x Dw) (broadcastInDim Cert.ReferenceIdeal.S40000x128 ![0, 1] Cert.ReferenceIdeal.Facts₀.bcast_S1x128_S40000x128_0_1 (broadcastInDim Cert.ReferenceIdeal.S1x128 ![1] Cert.ReferenceIdeal.Facts₀.bcast_S128_S1x128_1 Db))) (broadcastInDim Cert.ReferenceIdeal.S640000x1 ![0] Cert.ReferenceIdeal.Facts₀.bcast_S640000_S640000x1_0 (select (cmpi .slt dst (broadcastInDim Cert.ReferenceIdeal.S640000 ![] Cert.ReferenceIdeal.Facts₀.bcast_S_S640000 (constantI Cert.ReferenceIdeal.S_ 32 0#32))) (addi dst (broadcastInDim Cert.ReferenceIdeal.S640000 ![] Cert.ReferenceIdeal.Facts₀.bcast_S_S640000 (constantI Cert.ReferenceIdeal.S_ 32 40000#32))) dst))) (Host.gather Cert.ReferenceIdeal.gather_S40000x128_S640000x1_S640000x128_1_0_n_n_0_1_1128 (addf (Host.dotGeneral (F := Ideal) Cert.ReferenceIdeal.dot_S40000x128_S128x128_S40000x128_1_0_0_1_n_n none x Ew) (broadcastInDim Cert.ReferenceIdeal.S40000x128 ![0, 1] Cert.ReferenceIdeal.Facts₀.bcast_S1x128_S40000x128_0_1 (broadcastInDim Cert.ReferenceIdeal.S1x128 ![1] Cert.ReferenceIdeal.Facts₀.bcast_S128_S1x128_1 Eb))) (broadcastInDim Cert.ReferenceIdeal.S640000x1 ![0] Cert.ReferenceIdeal.Facts₀.bcast_S640000_S640000x1_0 (select (cmpi .slt src (broadcastInDim Cert.ReferenceIdeal.S640000 ![] Cert.ReferenceIdeal.Facts₀.bcast_S_S640000 (constantI Cert.ReferenceIdeal.S_ 32 0#32))) (addi src (broadcastInDim Cert.ReferenceIdeal.S640000 ![] Cert.ReferenceIdeal.Facts₀.bcast_S_S640000 (constantI Cert.ReferenceIdeal.S_ 32 40000#32))) src)))))) (broadcastInDim Cert.ReferenceIdeal.S40000x128 ![] Cert.ReferenceIdeal.Facts₀.bcast_S_S40000x128 (constant (F := Ideal) Cert.ReferenceIdeal.S_ .f32 0x358637BD#32))))) i = (r : EReal) := by
  have heij := join_eij_real x e Cw Dw Ew Cb Db Eb src dst hx he hCw hCb hDw hDb hEw hEb
  intro i
  exact addQuotR_real _ dst _ _ (join_proj_real x Aw Ab hx hAw hAb)
    (refGate_real _ _ heij (fun k => gather_real _ _ _ (join_proj_real x Bw Bb hx hBw hBb) k))
    (fun k => (refSig_pos _ heij k).imp fun _ h => ⟨h.1.le, h.2⟩) i

end Cert.Bridge

end
-- ==== Proof.Finite.lean ====
import proofs.«143299_j13005160972635_2_alg».proof.Defs
import Idealize.ShloMosaic.Lib.ReduceAll
import Idealize.ShloMosaic.Lib.ValueIdx

noncomputable section

namespace Cert.Bridge

open Idealize.ShloMosaic Idealize.SL.Sem

/-- The shape of rank 0 has exactly one index. -/
instance subsingleton_idx0 : Subsingleton (⟨0, ![]⟩ : Shape).Idx :=
  ⟨fun a b => funext fun d => d.elim0⟩

/-- The word 0x7F800000 denotes +∞. -/
theorem ofBits_pinf : Ideal.ofBits .f32 0x7F800000#32 = (⊤ : EReal) := by
  simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [ofBits_pinf] at h
  induction x using EReal.rec with
  | bot => simp [Ideal.cmp] at h
  | coe r => exact ⟨r, rfl⟩
  | top => simp [Ideal.cmp] at h

/-- If the conjunction over all entries of "|x i| < +∞" is true, every entry of x is a real number. -/
theorem real_of_all {S : Shape} {axes : List (Fin S.rank)} (x : S.Idx → EReal)
    (hb : (⟨0, ![]⟩ : Shape).BroadcastsInDim S (![] : Fin 0 → Fin S.rank))
    (hr : S.ReducesTo axes ⟨0, ![]⟩) (hu : 0 < (⟨0, ![]⟩ : Shape).numel)
    (e : Host.reduce IntOp.andi
          (cmpf .olt (Host.absf (F := Ideal) (φ := .f32) x)
            (broadcastInDim S ![] hb (constant (F := Ideal) ⟨0, ![]⟩ .f32 0x7F800000#32)))
          (constantI ⟨0, ![]⟩ 1 1#1) hr hu ValueIdx.ix0 = 1#1) :
    ∀ i, ∃ r : ℝ, x i = (r : EReal) := by
  intro i
  have h1 := Host.reduce_andi_all _ _ hr hu ValueIdx.ix0 e i
  exact real_of_abs_lt (x i) h1

/-- A pointwise conjunction of two one-bit arrays that is 1 at an index has both operands 1 there. -/
theorem andi_split {s : Shape} (a b : IVec s 1) (i : s.Idx) (h : andi a b i = 1#1) : a i = 1#1 ∧ b i = 1#1 :=
  IntOp.andi_eq_one.1 h

variable [Cert.Pre_finite_inputs.Facts]

/-- Under the precondition every entry of every floating-point argument is a real number. -/
theorem real_inputs (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S40000x128.Idx, ∃ r : ℝ, (m ((c.tc : Thread Cert.KernelIdeal.nD Cert.KernelIdeal.τ).loc Cert.KernelIdeal.main_arg0) : Cert.KernelIdeal.S40000x128.Idx → EReal) i = (r : EReal))
    ∧ (∀ i : Cert.KernelIdeal.S640000x128.Idx, ∃ r : ℝ, (m ((c.tc : Thread Cert.KernelIdeal.nD Cert.KernelIdeal.τ).loc Cert.KernelIdeal.main_arg1) : Cert.KernelIdeal.S640000x128.Idx → EReal) i = (r : EReal))
    ∧ (∀ i : Cert.KernelIdeal.S128x128.Idx, ∃ r : ℝ, (m ((c.tc : Thread Cert.KernelIdeal.nD Cert.KernelIdeal.τ).loc Cert.KernelIdeal.main_arg3) : Cert.KernelIdeal.S128x128.Idx → EReal) i = (r : EReal))
    ∧ (∀ i : Cert.KernelIdeal.S128.Idx, ∃ r : ℝ, (m ((c.tc : Thread Cert.KernelIdeal.nD Cert.KernelIdeal.τ).loc Cert.KernelIdeal.main_arg4) : Cert.KernelIdeal.S128.Idx → EReal) i = (r : EReal))
    ∧ (∀ i : Cert.KernelIdeal.S128x128.Idx, ∃ r : ℝ, (m ((c.tc : Thread Cert.KernelIdeal.nD Cert.KernelIdeal.τ).loc Cert.KernelIdeal.main_arg5) : Cert.KernelIdeal.S128x128.Idx → EReal) i = (r : EReal))
    ∧ (∀ i : Cert.KernelIdeal.S128.Idx, ∃ r : ℝ, (m ((c.tc : Thread Cert.KernelIdeal.nD Cert.KernelIdeal.τ).loc Cert.KernelIdeal.main_arg6) : Cert.KernelIdeal.S128.Idx → EReal) i = (r : EReal))
    ∧ (∀ i : Cert.KernelIdeal.S128x128.Idx, ∃ r : ℝ, (m ((c.tc : Thread Cert.KernelIdeal.nD Cert.KernelIdeal.τ).loc Cert.KernelIdeal.main_arg7) : Cert.KernelIdeal.S128x128.Idx → EReal) i = (r : EReal))
    ∧ (∀ i : Cert.KernelIdeal.S128.Idx, ∃ r : ℝ, (m ((c.tc : Thread Cert.KernelIdeal.nD Cert.KernelIdeal.τ).loc Cert.KernelIdeal.main_arg8) : Cert.KernelIdeal.S128.Idx → EReal) i = (r : EReal))
    ∧ (∀ i : Cert.KernelIdeal.S128x128.Idx, ∃ r : ℝ, (m ((c.tc : Thread Cert.KernelIdeal.nD Cert.KernelIdeal.τ).loc Cert.KernelIdeal.main_arg9) : Cert.KernelIdeal.S128x128.Idx → EReal) i = (r : EReal))
    ∧ (∀ i : Cert.KernelIdeal.S128.Idx, ∃ r : ℝ, (m ((c.tc : Thread Cert.KernelIdeal.nD Cert.KernelIdeal.τ).loc Cert.KernelIdeal.main_arg10) : Cert.KernelIdeal.S128.Idx → EReal) i = (r : EReal))
    ∧ (∀ i : Cert.KernelIdeal.S128x128.Idx, ∃ r : ℝ, (m ((c.tc : Thread Cert.KernelIdeal.nD Cert.KernelIdeal.τ).loc Cert.KernelIdeal.main_arg11) : Cert.KernelIdeal.S128x128.Idx → EReal) i = (r : EReal))
    ∧ (∀ i : Cert.KernelIdeal.S128.Idx, ∃ r : ℝ, (m ((c.tc : Thread Cert.KernelIdeal.nD Cert.KernelIdeal.τ).loc Cert.KernelIdeal.main_arg12) : Cert.KernelIdeal.S128.Idx → EReal) i = (r : EReal))
    ∧ (∀ i : Cert.KernelIdeal.S128.Idx, ∃ r : ℝ, (m ((c.tc : Thread Cert.KernelIdeal.nD Cert.KernelIdeal.τ).loc Cert.KernelIdeal.main_arg13) : Cert.KernelIdeal.S128.Idx → EReal) i = (r : EReal))
    ∧ (∀ i : Cert.KernelIdeal.S128.Idx, ∃ r : ℝ, (m ((c.tc : Thread Cert.KernelIdeal.nD Cert.KernelIdeal.τ).loc Cert.KernelIdeal.main_arg14) : Cert.KernelIdeal.S128.Idx → EReal) i = (r : EReal))
    ∧ (∀ i : Cert.KernelIdeal.S128.Idx, ∃ r : ℝ, (m ((c.tc : Thread Cert.KernelIdeal.nD Cert.KernelIdeal.τ).loc Cert.KernelIdeal.main_arg15) : Cert.KernelIdeal.S128.Idx → EReal) i = (r : EReal))
    ∧ (∀ i : Cert.KernelIdeal.S128.Idx, ∃ r : ℝ, (m ((c.tc : Thread Cert.KernelIdeal.nD Cert.KernelIdeal.τ).loc Cert.KernelIdeal.main_arg16) : Cert.KernelIdeal.S128.Idx → EReal) i = (r : EReal))
    ∧ (∀ i : Cert.KernelIdeal.S384x256.Idx, ∃ r : ℝ, (m ((c.tc : Thread Cert.KernelIdeal.nD Cert.KernelIdeal.τ).loc Cert.KernelIdeal.main_arg17) : Cert.KernelIdeal.S384x256.Idx → EReal) i = (r : EReal))
    ∧ (∀ i : Cert.KernelIdeal.S256.Idx, ∃ r : ℝ, (m ((c.tc : Thread Cert.KernelIdeal.nD Cert.KernelIdeal.τ).loc Cert.KernelIdeal.main_arg18) : Cert.KernelIdeal.S256.Idx → EReal) i = (r : EReal))
    ∧ (∀ i : Cert.KernelIdeal.S256x1.Idx, ∃ r : ℝ, (m ((c.tc : Thread Cert.KernelIdeal.nD Cert.KernelIdeal.τ).loc Cert.KernelIdeal.main_arg19) : Cert.KernelIdeal.S256x1.Idx → EReal) i = (r : EReal))
    ∧ (∀ i : Cert.KernelIdeal.S1.Idx, ∃ r : ℝ, (m ((c.tc : Thread Cert.KernelIdeal.nD Cert.KernelIdeal.τ).loc Cert.KernelIdeal.main_arg20) : Cert.KernelIdeal.S1.Idx → EReal) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h0, e20⟩ := andi_split _ _ _ h0
  obtain ⟨h0, e19⟩ := andi_split _ _ _ h0
  obtain ⟨h0, e18⟩ := andi_split _ _ _ h0
  obtain ⟨h0, e17⟩ := andi_split _ _ _ h0
  obtain ⟨h0, e16⟩ := andi_split _ _ _ h0
  obtain ⟨h0, e15⟩ := andi_split _ _ _ h0
  obtain ⟨h0, e14⟩ := andi_split _ _ _ h0
  obtain ⟨h0, e13⟩ := andi_split _ _ _ h0
  obtain ⟨h0, e12⟩ := andi_split _ _ _ h0
  obtain ⟨h0, e11⟩ := andi_split _ _ _ h0
  obtain ⟨h0, e10⟩ := andi_split _ _ _ h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨h0, e3⟩ := andi_split _ _ _ h0
  obtain ⟨e0, e1⟩ := andi_split _ _ _ h0
  exact ⟨real_of_all _ _ _ _ e0,
    real_of_all _ _ _ _ e1,
    real_of_all _ _ _ _ e3,
    real_of_all _ _ _ _ e4,
    real_of_all _ _ _ _ e5,
    real_of_all _ _ _ _ e6,
    real_of_all _ _ _ _ e7,
    real_of_all _ _ _ _ e8,
    real_of_all _ _ _ _ e9,
    real_of_all _ _ _ _ e10,
    real_of_all _ _ _ _ e11,
    real_of_all _ _ _ _ e12,
    real_of_all _ _ _ _ e13,
    real_of_all _ _ _ _ e14,
    real_of_all _ _ _ _ e15,
    real_of_all _ _ _ _ e16,
    real_of_all _ _ _ _ e17,
    real_of_all _ _ _ _ e18,
    real_of_all _ _ _ _ e19,
    real_of_all _ _ _ _ e20⟩

/-- Every entry of argument 0 is a real number. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S40000x128.Idx, ∃ r : ℝ, (m ((c.tc : Thread Cert.KernelIdeal.nD Cert.KernelIdeal.τ).loc Cert.KernelIdeal.main_arg0) : Cert.KernelIdeal.S40000x128.Idx → EReal) i = (r : EReal) :=
  (real_inputs m h c).1

/-- Every entry of argument 1 is a real number. -/
theorem real_arg1 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S640000x128.Idx, ∃ r : ℝ, (m ((c.tc : Thread Cert.KernelIdeal.nD Cert.KernelIdeal.τ).loc Cert.KernelIdeal.main_arg1) : Cert.KernelIdeal.S640000x128.Idx → EReal) i = (r : EReal) :=
  (real_inputs m h c).2.1

/-- Every entry of argument 3 is a real number. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128x128.Idx, ∃ r : ℝ, (m ((c.tc : Thread Cert.KernelIdeal.nD Cert.KernelIdeal.τ).loc Cert.KernelIdeal.main_arg3) : Cert.KernelIdeal.S128x128.Idx → EReal) i = (r : EReal) :=
  (real_inputs m h c).2.2.1

/-- Every entry of argument 4 is a real number. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ, (m ((c.tc : Thread Cert.KernelIdeal.nD Cert.KernelIdeal.τ).loc Cert.KernelIdeal.main_arg4) : Cert.KernelIdeal.S128.Idx → EReal) i = (r : EReal) :=
  (real_inputs m h c).2.2.2.1

/-- Every entry of argument 5 is a real number. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128x128.Idx, ∃ r : ℝ, (m ((c.tc : Thread Cert.KernelIdeal.nD Cert.KernelIdeal.τ).loc Cert.KernelIdeal.main_arg5) : Cert.KernelIdeal.S128x128.Idx → EReal) i = (r : EReal) :=
  (real_inputs m h c).2.2.2.2.1

/-- Every entry of argument 6 is a real number. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ, (m ((c.tc : Thread Cert.KernelIdeal.nD Cert.KernelIdeal.τ).loc Cert.KernelIdeal.main_arg6) : Cert.KernelIdeal.S128.Idx → EReal) i = (r : EReal) :=
  (real_inputs m h c).2.2.2.2.2.1

/-- Every entry of argument 7 is a real number. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128x128.Idx, ∃ r : ℝ, (m ((c.tc : Thread Cert.KernelIdeal.nD Cert.KernelIdeal.τ).loc Cert.KernelIdeal.main_arg7) : Cert.KernelIdeal.S128x128.Idx → EReal) i = (r : EReal) :=
  (real_inputs m h c).2.2.2.2.2.2.1

/-- Every entry of argument 8 is a real number. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ, (m ((c.tc : Thread Cert.KernelIdeal.nD Cert.KernelIdeal.τ).loc Cert.KernelIdeal.main_arg8) : Cert.KernelIdeal.S128.Idx → EReal) i = (r : EReal) :=
  (real_inputs m h c).2.2.2.2.2.2.2.1

/-- Every entry of argument 9 is a real number. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128x128.Idx, ∃ r : ℝ, (m ((c.tc : Thread Cert.KernelIdeal.nD Cert.KernelIdeal.τ).loc Cert.KernelIdeal.main_arg9) : Cert.KernelIdeal.S128x128.Idx → EReal) i = (r : EReal) :=
  (real_inputs m h c).2.2.2.2.2.2.2.2.1

/-- Every entry of argument 10 is a real number. -/
theorem real_arg10 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ, (m ((c.tc : Thread Cert.KernelIdeal.nD Cert.KernelIdeal.τ).loc Cert.KernelIdeal.main_arg10) : Cert.KernelIdeal.S128.Idx → EReal) i = (r : EReal) :=
  (real_inputs m h c).2.2.2.2.2.2.2.2.2.1

/-- Every entry of argument 11 is a real number. -/
theorem real_arg11 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128x128.Idx, ∃ r : ℝ, (m ((c.tc : Thread Cert.KernelIdeal.nD Cert.KernelIdeal.τ).loc Cert.KernelIdeal.main_arg11) : Cert.KernelIdeal.S128x128.Idx → EReal) i = (r : EReal) :=
  (real_inputs m h c).2.2.2.2.2.2.2.2.2.2.1

/-- Every entry of argument 12 is a real number. -/
theorem real_arg12 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ, (m ((c.tc : Thread Cert.KernelIdeal.nD Cert.KernelIdeal.τ).loc Cert.KernelIdeal.main_arg12) : Cert.KernelIdeal.S128.Idx → EReal) i = (r : EReal) :=
  (real_inputs m h c).2.2.2.2.2.2.2.2.2.2.2.1

/-- Every entry of argument 13 is a real number. -/
theorem real_arg13 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ, (m ((c.tc : Thread Cert.KernelIdeal.nD Cert.KernelIdeal.τ).loc Cert.KernelIdeal.main_arg13) : Cert.KernelIdeal.S128.Idx → EReal) i = (r : EReal) :=
  (real_inputs m h c).2.2.2.2.2.2.2.2.2.2.2.2.1

/-- Every entry of argument 14 is a real number. -/
theorem real_arg14 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ, (m ((c.tc : Thread Cert.KernelIdeal.nD Cert.KernelIdeal.τ).loc Cert.KernelIdeal.main_arg14) : Cert.KernelIdeal.S128.Idx → EReal) i = (r : EReal) :=
  (real_inputs m h c).2.2.2.2.2.2.2.2.2.2.2.2.2.1

/-- Every entry of argument 15 is a real number. -/
theorem real_arg15 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ, (m ((c.tc : Thread Cert.KernelIdeal.nD Cert.KernelIdeal.τ).loc Cert.KernelIdeal.main_arg15) : Cert.KernelIdeal.S128.Idx → EReal) i = (r : EReal) :=
  (real_inputs m h c).2.2.2.2.2.2.2.2.2.2.2.2.2.2.1

/-- Every entry of argument 16 is a real number. -/
theorem real_arg16 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S128.Idx, ∃ r : ℝ, (m ((c.tc : Thread Cert.KernelIdeal.nD Cert.KernelIdeal.τ).loc Cert.KernelIdeal.main_arg16) : Cert.KernelIdeal.S128.Idx → EReal) i = (r : EReal) :=
  (real_inputs m h c).2.2.2.2.2.2.2.2.2.2.2.2.2.2.2.1

/-- Every entry of argument 17 is a real number. -/
theorem real_arg17 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S384x256.Idx, ∃ r : ℝ, (m ((c.tc : Thread Cert.KernelIdeal.nD Cert.KernelIdeal.τ).loc Cert.KernelIdeal.main_arg17) : Cert.KernelIdeal.S384x256.Idx → EReal) i = (r : EReal) :=
  (real_inputs m h c).2.2.2.2.2.2.2.2.2.2.2.2.2.2.2.2.1

/-- Every entry of argument 18 is a real number. -/
theorem real_arg18 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S256.Idx, ∃ r : ℝ, (m ((c.tc : Thread Cert.KernelIdeal.nD Cert.KernelIdeal.τ).loc Cert.KernelIdeal.main_arg18) : Cert.KernelIdeal.S256.Idx → EReal) i = (r : EReal) :=
  (real_inputs m h c).2.2.2.2.2.2.2.2.2.2.2.2.2.2.2.2.2.1

/-- Every entry of argument 19 is a real number. -/
theorem real_arg19 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S256x1.Idx, ∃ r : ℝ, (m ((c.tc : Thread Cert.KernelIdeal.nD Cert.KernelIdeal.τ).loc Cert.KernelIdeal.main_arg19) : Cert.KernelIdeal.S256x1.Idx → EReal) i = (r : EReal) :=
  (real_inputs m h c).2.2.2.2.2.2.2.2.2.2.2.2.2.2.2.2.2.2.1

/-- Every entry of argument 20 is a real number. -/
theorem real_arg20 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S1.Idx, ∃ r : ℝ, (m ((c.tc : Thread Cert.KernelIdeal.nD Cert.KernelIdeal.τ).loc Cert.KernelIdeal.main_arg20) : Cert.KernelIdeal.S1.Idx → EReal) i = (r : EReal) :=
  (real_inputs m h c).2.2.2.2.2.2.2.2.2.2.2.2.2.2.2.2.2.2.2

end Cert.Bridge
-- ==== Proof.JoinRealArgs.lean ====
/-
  Under the precondition the reference's edge pre-activation and node pre-activation are real.

  With the two memories agreeing on the arguments, the reference's two expressions are the expressions over variables of
  the realness lemmas, read at the kernel memory's arguments, and under the precondition every entry of those arguments
  is a real number.
-/
import proofs.«143299_j13005160972635_2_alg».proof.Proof.JoinBase
import proofs.«143299_j13005160972635_2_alg».proof.Proof.JoinReal
import proofs.«143299_j13005160972635_2_alg».proof.Proof.Finite
import proofs.«143299_j13005160972635_2_alg».proof.Proof.Gen.Pre_finite_inputs

set_option maxRecDepth 16384

noncomputable section

namespace Cert.Bridge

open Idealize.ShloMosaic Idealize.ShloMosaic.TcCoe Idealize.ShloMosaic.ValueIdx
open Idealize.SL.Sem
open Cert.KernelIdeal.Hand Cert.ReferenceIdeal.Hand

attribute [local irreducible] Host.reduceAdd Host.gather Host.scatterAdd

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option backward.isDefEq.respectTransparency.types false

variable (hag : Agree m m' c)
include hag

/-- Every entry of the reference's node pre-activation is a real number. -/
theorem join_rpre_real (hpre : Cert.Pre_KernelIdeal m) : ∀ i, ∃ r : ℝ, rPre (RV m' c) i = (r : EReal) := by
  unfold rPre rAx rNumt rSig rBxs rEij rDxd rExs rCe rDx rEx rBx
  rw [src_eq m m' c hag, dst_eq m m' c hag, arg0_agree m m' c hag, arg1_agree m m' c hag, arg3_agree m m' c hag, arg4_agree m m' c hag, arg5_agree m m' c hag, arg6_agree m m' c hag, arg7_agree m m' c hag, arg8_agree m m' c hag, arg9_agree m m' c hag, arg10_agree m m' c hag, arg11_agree m m' c hag, arg12_agree m m' c hag]
  exact join_pre_real _ _ _ _ _ _ _ _ _ _ _ _ (kSrc m c) (kDst m c)
    (real_arg0 m hpre c) (real_arg1 m hpre c) (real_arg3 m hpre c) (real_arg4 m hpre c) (real_arg5 m hpre c) (real_arg6 m hpre c) (real_arg7 m hpre c) (real_arg8 m hpre c) (real_arg9 m hpre c) (real_arg10 m hpre c) (real_arg11 m hpre c) (real_arg12 m hpre c)

/-- Every entry of the reference's edge pre-activation is a real number. -/
theorem join_reij_real (hpre : Cert.Pre_KernelIdeal m) : ∀ i, ∃ r : ℝ, rEij (RV m' c) i = (r : EReal) := by
  unfold rEij rDxd rExs rCe rDx rEx
  rw [src_eq m m' c hag, dst_eq m m' c hag, arg0_agree m m' c hag, arg1_agree m m' c hag, arg7_agree m m' c hag, arg8_agree m m' c hag, arg9_agree m m' c hag, arg10_agree m m' c hag, arg11_agree m m' c hag, arg12_agree m m' c hag]
  exact join_eij_real _ _ _ _ _ _ _ _ (kSrc m c) (kDst m c)
    (real_arg0 m hpre c) (real_arg1 m hpre c) (real_arg7 m hpre c) (real_arg8 m hpre c) (real_arg9 m hpre c) (real_arg10 m hpre c) (real_arg11 m hpre c) (real_arg12 m hpre c)

end Cert.Bridge

end
-- ==== Proof.KRead.lean ====
/-
  The program's host stretches read from an arbitrary entry valuation: what each stretch leaves in the buffers the regions
  and the later stretches read, as the stretch's operations applied to the contents of the buffers it does not write.
-/
import proofs.«143299_j13005160972635_2_alg».proof.Proof.Gen.KernelIdeal.Launch
import Idealize.ShloMosaic.Lib.StableHlo.Run
import proofs.«143299_j13005160972635_2_alg».proof.Proof.KDefs
set_option maxRecDepth 16384

noncomputable section

namespace Cert.KernelIdeal.Hand

open Idealize.ShloMosaic Idealize.ShloMosaic.TcCoe Idealize.ShloMosaic.StableHlo
open Cert.KernelIdeal Cert.KernelIdeal.Gen

attribute [local irreducible] Host.gather Host.scatterAdd Host.reduceAdd Host.divf Host.rsqrt

variable {F : FTy → Type} [FloatOps F]

/-- Read a line of host operations at one buffer: each operation's result at its own buffer is its function's value,
    at any other buffer what was there. -/
local macro "rd_line" : tactic => `(tactic| (after_results_simp; try rfl))
/-! ## Stretch 1 -/

theorem k1_v8 (W : Valuation τ sig (Elt F)) :
    (StableHlo.after hostOps1 W (Proc.devRef .tc main_v8) : (⟨S40000x128, .f32⟩ : BufTy).Contents (Elt F))
      = extractStridedSlice S40000x128 ![0, 0] (W (Proc.devRef .tc main_v7) : (⟨S40000x512, .f32⟩ : BufTy).Contents (Elt F)) slices_S40000x512_S40000x128_0_0 := by
  rd_line

theorem k1_v9 (W : Valuation τ sig (Elt F)) :
    (StableHlo.after hostOps1 W (Proc.devRef .tc main_v9) : (⟨S40000x128, .f32⟩ : BufTy).Contents (Elt F))
      = extractStridedSlice S40000x128 ![0, 128] (W (Proc.devRef .tc main_v7) : (⟨S40000x512, .f32⟩ : BufTy).Contents (Elt F)) slices_S40000x512_S40000x128_0_128 := by
  rd_line

theorem k1_v10 (W : Valuation τ sig (Elt F)) :
    (StableHlo.after hostOps1 W (Proc.devRef .tc main_v10) : (⟨S40000x256, .f32⟩ : BufTy).Contents (Elt F))
      = extractStridedSlice S40000x256 ![0, 256] (W (Proc.devRef .tc main_v7) : (⟨S40000x512, .f32⟩ : BufTy).Contents (Elt F)) slices_S40000x512_S40000x256_0_256 := by
  rd_line

theorem k1_v17 (W : Valuation τ sig (Elt F)) :
    (StableHlo.after hostOps1 W (Proc.devRef .tc main_v17) : (⟨S640000x128, .f32⟩ : BufTy).Contents (Elt F))
      = Host.gather gather_S40000x128_S640000x1_S640000x128_1_0_n_n_0_1_1128
          (extractStridedSlice S40000x128 ![0, 128] (W (Proc.devRef .tc main_v7) : (⟨S40000x512, .f32⟩ : BufTy).Contents (Elt F)) slices_S40000x512_S40000x128_0_128)
          (broadcastInDim S640000x1 ![0] bcast_S640000_S640000x1_0 (select (cmpi .slt (W (Proc.devRef .tc main_v3) : (⟨S640000, .i32⟩ : BufTy).Contents (Elt F)) (broadcastInDim S640000 ![] bcast_S_S640000 (constantI S_ 32 0#32))) (addi (W (Proc.devRef .tc main_v3) : (⟨S640000, .i32⟩ : BufTy).Contents (Elt F)) (broadcastInDim S640000 ![] bcast_S_S640000 (constantI S_ 32 40000#32))) (W (Proc.devRef .tc main_v3) : (⟨S640000, .i32⟩ : BufTy).Contents (Elt F)))) := by
  rd_line

theorem k1_v24 (W : Valuation τ sig (Elt F)) :
    (StableHlo.after hostOps1 W (Proc.devRef .tc main_v24) : (⟨S640000x256, .f32⟩ : BufTy).Contents (Elt F))
      = Host.gather gather_S40000x256_S640000x1_S640000x256_1_0_n_n_0_1_1256
          (extractStridedSlice S40000x256 ![0, 256] (W (Proc.devRef .tc main_v7) : (⟨S40000x512, .f32⟩ : BufTy).Contents (Elt F)) slices_S40000x512_S40000x256_0_256)
          (broadcastInDim S640000x1 ![0] bcast_S640000_S640000x1_0 (select (cmpi .slt (W (Proc.devRef .tc main_v1) : (⟨S640000, .i32⟩ : BufTy).Contents (Elt F)) (broadcastInDim S640000 ![] bcast_S_S640000 (constantI S_ 32 0#32))) (addi (W (Proc.devRef .tc main_v1) : (⟨S640000, .i32⟩ : BufTy).Contents (Elt F)) (broadcastInDim S640000 ![] bcast_S_S640000 (constantI S_ 32 40000#32))) (W (Proc.devRef .tc main_v1) : (⟨S640000, .i32⟩ : BufTy).Contents (Elt F)))) := by
  rd_line

theorem k1_v25 (W : Valuation τ sig (Elt F)) :
    (StableHlo.after hostOps1 W (Proc.devRef .tc main_v25) : (⟨S1x128, .f32⟩ : BufTy).Contents (Elt F))
      = shapeCast S1x128 (W (Proc.devRef .tc main_arg8) : (⟨S128, .f32⟩ : BufTy).Contents (Elt F)) shapeCasts_S128_S1x128 := by
  rd_line

/-! ## Stretch 2 -/

theorem k2_v36 (W : Valuation τ sig (Elt F)) :
    (StableHlo.after hostOps2 W (Proc.devRef .tc main_v36) : (⟨S40000x128, .f32⟩ : BufTy).Contents (Elt F))
      = preK (W (Proc.devRef .tc main_v8) : (⟨S40000x128, .f32⟩ : BufTy).Contents (Elt F)) (W (Proc.devRef .tc main_v26_2) : (⟨S640000x128, .f32⟩ : BufTy).Contents (Elt F)) (W (Proc.devRef .tc main_v26_1) : (⟨S640000x128, .f32⟩ : BufTy).Contents (Elt F)) (W (Proc.devRef .tc main_v3) : (⟨S640000, .i32⟩ : BufTy).Contents (Elt F)) := by
  rd_line

theorem k2_v39 (W : Valuation τ sig (Elt F)) :
    (StableHlo.after hostOps2 W (Proc.devRef .tc main_v39) : (⟨S128, .f32⟩ : BufTy).Contents (Elt F))
      = meanK40000 (preK (W (Proc.devRef .tc main_v8) : (⟨S40000x128, .f32⟩ : BufTy).Contents (Elt F)) (W (Proc.devRef .tc main_v26_2) : (⟨S640000x128, .f32⟩ : BufTy).Contents (Elt F)) (W (Proc.devRef .tc main_v26_1) : (⟨S640000x128, .f32⟩ : BufTy).Contents (Elt F)) (W (Proc.devRef .tc main_v3) : (⟨S640000, .i32⟩ : BufTy).Contents (Elt F))) := by
  rd_line

theorem k2_c7 (W : Valuation τ sig (Elt F)) :
    (StableHlo.after hostOps2 W (Proc.devRef .tc main_c_7) : (⟨S_, .i32⟩ : BufTy).Contents (Elt F))
      = constantI S_ 32 0#32 := by
  rd_line

/-! ## Stretch 2_2 -/

theorem k22_v43 (W : Valuation τ sig (Elt F)) :
    (StableHlo.after hostOps2_2 W (Proc.devRef .tc main_v43) : (⟨S128, .f32⟩ : BufTy).Contents (Elt F))
      = Host.rsqrt (addf (W (Proc.devRef .tc main_v40) : (⟨S128, .f32⟩ : BufTy).Contents (Elt F)) (broadcastInDim S128 ![] bcast_S_S128 (constant S_ .f32 0x3727C5AC#32))) := by
  rd_line

theorem k22_v45 (W : Valuation τ sig (Elt F)) :
    (StableHlo.after hostOps2_2 W (Proc.devRef .tc main_v45) : (⟨S1x128, .f32⟩ : BufTy).Contents (Elt F))
      = shapeCast S1x128 (mulf (Host.rsqrt (addf (W (Proc.devRef .tc main_v40) : (⟨S128, .f32⟩ : BufTy).Contents (Elt F)) (broadcastInDim S128 ![] bcast_S_S128 (constant S_ .f32 0x3727C5AC#32)))) (W (Proc.devRef .tc main_arg13) : (⟨S128, .f32⟩ : BufTy).Contents (Elt F))) shapeCasts_S128_S1x128 := by
  rd_line

theorem k22_v49 (W : Valuation τ sig (Elt F)) :
    (StableHlo.after hostOps2_2 W (Proc.devRef .tc main_v49) : (⟨S1x128, .f32⟩ : BufTy).Contents (Elt F))
      = shapeCast S1x128 (subf (W (Proc.devRef .tc main_arg14) : (⟨S128, .f32⟩ : BufTy).Contents (Elt F)) (mulf (mulf (W (Proc.devRef .tc main_v39) : (⟨S128, .f32⟩ : BufTy).Contents (Elt F)) (Host.rsqrt (addf (W (Proc.devRef .tc main_v40) : (⟨S128, .f32⟩ : BufTy).Contents (Elt F)) (broadcastInDim S128 ![] bcast_S_S128 (constant S_ .f32 0x3727C5AC#32))))) (W (Proc.devRef .tc main_arg13) : (⟨S128, .f32⟩ : BufTy).Contents (Elt F)))) shapeCasts_S128_S1x128 := by
  rd_line

end Cert.KernelIdeal.Hand
-- ==== Proof.KRead0.lean ====
/-
  The program's remaining host stretches read from an arbitrary entry valuation: what each stretch leaves in the buffers the regions
  and the later stretches read, as the stretch's operations applied to the contents of the buffers it does not write.
-/
import proofs.«143299_j13005160972635_2_alg».proof.Proof.Gen.KernelIdeal.Launch
import Idealize.ShloMosaic.Lib.StableHlo.Run
import proofs.«143299_j13005160972635_2_alg».proof.Proof.KDefs
set_option maxRecDepth 16384

noncomputable section

namespace Cert.KernelIdeal.Hand

open Idealize.ShloMosaic Idealize.ShloMosaic.TcCoe Idealize.ShloMosaic.StableHlo
open Cert.KernelIdeal Cert.KernelIdeal.Gen

attribute [local irreducible] Host.gather Host.scatterAdd Host.reduceAdd Host.divf Host.rsqrt

variable {F : FTy → Type} [FloatOps F]

/-- Read a line of host operations at one buffer: each operation's result at its own buffer is its function's value,
    at any other buffer what was there. -/
local macro "rd_line" : tactic => `(tactic| (after_results_simp; try rfl))
/-! ## Stretch 0 -/

theorem k0_v1 (W : Valuation τ sig (Elt F)) :
    (StableHlo.after hostOps0 W (Proc.devRef .tc main_v1) : (⟨S640000, .i32⟩ : BufTy).Contents (Elt F))
      = shapeCast S640000 (extractStridedSlice S1x640000 ![0, 0] (W (Proc.devRef .tc main_arg2) : (⟨S2x640000, .i32⟩ : BufTy).Contents (Elt F)) slices_S2x640000_S1x640000_0_0) shapeCasts_S1x640000_S640000 := by
  rd_line

theorem k0_v3 (W : Valuation τ sig (Elt F)) :
    (StableHlo.after hostOps0 W (Proc.devRef .tc main_v3) : (⟨S640000, .i32⟩ : BufTy).Contents (Elt F))
      = shapeCast S640000 (extractStridedSlice S1x640000 ![1, 0] (W (Proc.devRef .tc main_arg2) : (⟨S2x640000, .i32⟩ : BufTy).Contents (Elt F)) slices_S2x640000_S1x640000_1_0) shapeCasts_S1x640000_S640000 := by
  rd_line

theorem k0_v4 (W : Valuation τ sig (Elt F)) :
    (StableHlo.after hostOps0 W (Proc.devRef .tc main_v4) : (⟨S128x512, .f32⟩ : BufTy).Contents (Elt F))
      = concatenate S128x512 1 [⟨S128x128, (W (Proc.devRef .tc main_arg3) : (⟨S128x128, .f32⟩ : BufTy).Contents (Elt F))⟩, ⟨S128x128, (W (Proc.devRef .tc main_arg9) : (⟨S128x128, .f32⟩ : BufTy).Contents (Elt F))⟩, ⟨S128x128, (W (Proc.devRef .tc main_arg5) : (⟨S128x128, .f32⟩ : BufTy).Contents (Elt F))⟩, ⟨S128x128, (W (Proc.devRef .tc main_arg11) : (⟨S128x128, .f32⟩ : BufTy).Contents (Elt F))⟩] concatenates_S128x128_S128x128_S128x128_S128x128_S128x512_d1 := by
  rd_line

theorem k0_v6 (W : Valuation τ sig (Elt F)) :
    (StableHlo.after hostOps0 W (Proc.devRef .tc main_v6) : (⟨S1x512, .f32⟩ : BufTy).Contents (Elt F))
      = shapeCast S1x512 (concatenate S512 0 [⟨S128, (W (Proc.devRef .tc main_arg4) : (⟨S128, .f32⟩ : BufTy).Contents (Elt F))⟩, ⟨S128, (W (Proc.devRef .tc main_arg10) : (⟨S128, .f32⟩ : BufTy).Contents (Elt F))⟩, ⟨S128, (W (Proc.devRef .tc main_arg6) : (⟨S128, .f32⟩ : BufTy).Contents (Elt F))⟩, ⟨S128, (W (Proc.devRef .tc main_arg12) : (⟨S128, .f32⟩ : BufTy).Contents (Elt F))⟩] concatenates_S128_S128_S128_S128_S512_d0) shapeCasts_S512_S1x512 := by
  rd_line

/-! ## Stretch 3 -/

theorem k3_v53 (W : Valuation τ sig (Elt F)) :
    (StableHlo.after hostOps3 W (Proc.devRef .tc main_v53) : (⟨S128, .f32⟩ : BufTy).Contents (Elt F))
      = meanK640000 (W (Proc.devRef .tc main_v26_0) : (⟨S640000x128, .f32⟩ : BufTy).Contents (Elt F)) := by
  rd_line

theorem k3_c11 (W : Valuation τ sig (Elt F)) :
    (StableHlo.after hostOps3 W (Proc.devRef .tc main_c_11) : (⟨S_, .i32⟩ : BufTy).Contents (Elt F))
      = constantI S_ 32 0#32 := by
  rd_line

/-! ## Stretch 3_2 -/

theorem k32_v57 (W : Valuation τ sig (Elt F)) :
    (StableHlo.after hostOps3_2 W (Proc.devRef .tc main_v57) : (⟨S128, .f32⟩ : BufTy).Contents (Elt F))
      = Host.rsqrt (addf (W (Proc.devRef .tc main_v54) : (⟨S128, .f32⟩ : BufTy).Contents (Elt F)) (broadcastInDim S128 ![] bcast_S_S128 (constant S_ .f32 0x3727C5AC#32))) := by
  rd_line

theorem k32_v59 (W : Valuation τ sig (Elt F)) :
    (StableHlo.after hostOps3_2 W (Proc.devRef .tc main_v59) : (⟨S1x128, .f32⟩ : BufTy).Contents (Elt F))
      = shapeCast S1x128 (mulf (Host.rsqrt (addf (W (Proc.devRef .tc main_v54) : (⟨S128, .f32⟩ : BufTy).Contents (Elt F)) (broadcastInDim S128 ![] bcast_S_S128 (constant S_ .f32 0x3727C5AC#32)))) (W (Proc.devRef .tc main_arg15) : (⟨S128, .f32⟩ : BufTy).Contents (Elt F))) shapeCasts_S128_S1x128 := by
  rd_line

theorem k32_v63 (W : Valuation τ sig (Elt F)) :
    (StableHlo.after hostOps3_2 W (Proc.devRef .tc main_v63) : (⟨S1x128, .f32⟩ : BufTy).Contents (Elt F))
      = shapeCast S1x128 (subf (W (Proc.devRef .tc main_arg16) : (⟨S128, .f32⟩ : BufTy).Contents (Elt F)) (mulf (mulf (W (Proc.devRef .tc main_v53) : (⟨S128, .f32⟩ : BufTy).Contents (Elt F)) (Host.rsqrt (addf (W (Proc.devRef .tc main_v54) : (⟨S128, .f32⟩ : BufTy).Contents (Elt F)) (broadcastInDim S128 ![] bcast_S_S128 (constant S_ .f32 0x3727C5AC#32))))) (W (Proc.devRef .tc main_arg15) : (⟨S128, .f32⟩ : BufTy).Contents (Elt F)))) shapeCasts_S128_S1x128 := by
  rd_line

theorem k32_v72 (W : Valuation τ sig (Elt F)) :
    (StableHlo.after hostOps3_2 W (Proc.devRef .tc main_v72) : (⟨S640000x128, .f32⟩ : BufTy).Contents (Elt F))
      = extractStridedSlice S640000x128 ![0, 0] (Host.gather gather_S40000x128_S1280000x1_S1280000x128_1_0_n_n_0_1_1128 (W (Proc.devRef .tc main_v50) : (⟨S40000x128, .f32⟩ : BufTy).Contents (Elt F)) (broadcastInDim S1280000x1 ![0] bcast_S1280000_S1280000x1_0 (select (cmpi .slt (concatenate S1280000 0 [⟨S640000, (W (Proc.devRef .tc main_v1) : (⟨S640000, .i32⟩ : BufTy).Contents (Elt F))⟩, ⟨S640000, (W (Proc.devRef .tc main_v3) : (⟨S640000, .i32⟩ : BufTy).Contents (Elt F))⟩] concatenates_S640000_S640000_S1280000_d0) (broadcastInDim S1280000 ![] bcast_S_S1280000 (constantI S_ 32 0#32))) (addi (concatenate S1280000 0 [⟨S640000, (W (Proc.devRef .tc main_v1) : (⟨S640000, .i32⟩ : BufTy).Contents (Elt F))⟩, ⟨S640000, (W (Proc.devRef .tc main_v3) : (⟨S640000, .i32⟩ : BufTy).Contents (Elt F))⟩] concatenates_S640000_S640000_S1280000_d0) (broadcastInDim S1280000 ![] bcast_S_S1280000 (constantI S_ 32 40000#32))) (concatenate S1280000 0 [⟨S640000, (W (Proc.devRef .tc main_v1) : (⟨S640000, .i32⟩ : BufTy).Contents (Elt F))⟩, ⟨S640000, (W (Proc.devRef .tc main_v3) : (⟨S640000, .i32⟩ : BufTy).Contents (Elt F))⟩] concatenates_S640000_S640000_S1280000_d0)))) slices_S1280000x128_S640000x128_0_0 := by
  rd_line

theorem k32_v73 (W : Valuation τ sig (Elt F)) :
    (StableHlo.after hostOps3_2 W (Proc.devRef .tc main_v73) : (⟨S640000x128, .f32⟩ : BufTy).Contents (Elt F))
      = extractStridedSlice S640000x128 ![640000, 0] (Host.gather gather_S40000x128_S1280000x1_S1280000x128_1_0_n_n_0_1_1128 (W (Proc.devRef .tc main_v50) : (⟨S40000x128, .f32⟩ : BufTy).Contents (Elt F)) (broadcastInDim S1280000x1 ![0] bcast_S1280000_S1280000x1_0 (select (cmpi .slt (concatenate S1280000 0 [⟨S640000, (W (Proc.devRef .tc main_v1) : (⟨S640000, .i32⟩ : BufTy).Contents (Elt F))⟩, ⟨S640000, (W (Proc.devRef .tc main_v3) : (⟨S640000, .i32⟩ : BufTy).Contents (Elt F))⟩] concatenates_S640000_S640000_S1280000_d0) (broadcastInDim S1280000 ![] bcast_S_S1280000 (constantI S_ 32 0#32))) (addi (concatenate S1280000 0 [⟨S640000, (W (Proc.devRef .tc main_v1) : (⟨S640000, .i32⟩ : BufTy).Contents (Elt F))⟩, ⟨S640000, (W (Proc.devRef .tc main_v3) : (⟨S640000, .i32⟩ : BufTy).Contents (Elt F))⟩] concatenates_S640000_S640000_S1280000_d0) (broadcastInDim S1280000 ![] bcast_S_S1280000 (constantI S_ 32 40000#32))) (concatenate S1280000 0 [⟨S640000, (W (Proc.devRef .tc main_v1) : (⟨S640000, .i32⟩ : BufTy).Contents (Elt F))⟩, ⟨S640000, (W (Proc.devRef .tc main_v3) : (⟨S640000, .i32⟩ : BufTy).Contents (Elt F))⟩] concatenates_S640000_S640000_S1280000_d0)))) slices_S1280000x128_S640000x128_640000_0 := by
  rd_line

theorem k32_v75 (W : Valuation τ sig (Elt F)) :
    (StableHlo.after hostOps3_2 W (Proc.devRef .tc main_v75) : (⟨S256x128, .f32⟩ : BufTy).Contents (Elt F))
      = concatenate S256x128 1 [⟨S256x1, (W (Proc.devRef .tc main_arg19) : (⟨S256x1, .f32⟩ : BufTy).Contents (Elt F))⟩, ⟨S256x127, broadcastInDim S256x127 ![] bcast_S_S256x127 (constant S_ .f32 0x00000000#32)⟩] concatenates_S256x1_S256x127_S256x128_d1 := by
  rd_line

theorem k32_v78 (W : Valuation τ sig (Elt F)) :
    (StableHlo.after hostOps3_2 W (Proc.devRef .tc main_v78) : (⟨S1x128, .f32⟩ : BufTy).Contents (Elt F))
      = shapeCast S1x128 (concatenate S128 0 [⟨S1, (W (Proc.devRef .tc main_arg20) : (⟨S1, .f32⟩ : BufTy).Contents (Elt F))⟩, ⟨S127, broadcastInDim S127 ![] bcast_S_S127 (constant S_ .f32 0x00000000#32)⟩] concatenates_S1_S127_S128_d0) shapeCasts_S128_S1x128 := by
  rd_line

theorem k32_v79 (W : Valuation τ sig (Elt F)) :
    (StableHlo.after hostOps3_2 W (Proc.devRef .tc main_v79) : (⟨S1x256, .f32⟩ : BufTy).Contents (Elt F))
      = shapeCast S1x256 (W (Proc.devRef .tc main_arg18) : (⟨S256, .f32⟩ : BufTy).Contents (Elt F)) shapeCasts_S256_S1x256 := by
  rd_line

/-! ## The two variance chains -/

theorem k21_v40 (W : Valuation τ sig (Elt F)) :
    (StableHlo.after hostOps2_1 W (Proc.devRef .tc main_v40) : (⟨S128, .f32⟩ : BufTy).Contents (Elt F))
      = varK40000 (W (Proc.devRef .tc main_v36) : (⟨S40000x128, .f32⟩ : BufTy).Contents (Elt F)) (W (Proc.devRef .tc main_c_7) : (⟨S_, .i32⟩ : BufTy).Contents (Elt F)) := by
  rd_line

theorem k31_v54 (W : Valuation τ sig (Elt F)) :
    (StableHlo.after hostOps3_1 W (Proc.devRef .tc main_v54) : (⟨S128, .f32⟩ : BufTy).Contents (Elt F))
      = varK640000 (W (Proc.devRef .tc main_v26_0) : (⟨S640000x128, .f32⟩ : BufTy).Contents (Elt F)) (W (Proc.devRef .tc main_c_11) : (⟨S_, .i32⟩ : BufTy).Contents (Elt F)) := by
  rd_line

end Cert.KernelIdeal.Hand
-- ==== Proof.KVals.lean ====
import proofs.«143299_j13005160972635_2_alg».proof.Proof.KRun
import proofs.«143299_j13005160972635_2_alg».proof.Proof.Val0
import proofs.«143299_j13005160972635_2_alg».proof.Proof.Val1
import proofs.«143299_j13005160972635_2_alg».proof.Proof.Val2
import proofs.«143299_j13005160972635_2_alg».proof.Proof.Val3

set_option maxRecDepth 16384

noncomputable section

/-! # What the four regions leave, read along the run

Each region's output arrays after its whole grid are the closed index-by-index functions of the arrays the region was entered
with; a buffer that a later item does not write keeps its contents to the end. -/

namespace Cert.KernelIdeal.Hand

open Idealize.ShloMosaic Idealize.ShloMosaic.TcCoe
open Idealize.SL.Sem
open Cert.KernelIdeal Cert.KernelIdeal.Gen

variable (m : (ℓ : Loc nD τ sig) → Buf (Elt Ideal) ℓ) (c : Dev nD)

set_option backward.isDefEq.respectTransparency.types false

/-- A buffer at a TensorCore reference, read as the array it is. -/
abbrev at_ (W : Dev nD → Valuation τ sig (Elt Ideal)) (b : Ref sig .tc) : Buf (Elt Ideal) ((c : Thread nD τ).loc b) := rd W c b

theorem v7_eq : at_ c (Y2 m) main_v7 = G0_3 (at_ c (Y1 m) main_arg0) (at_ c (Y1 m) main_v4) (at_ c (Y1 m) main_v6) := by
  show Yout0 (Y1 m) c (Proc.devRef .tc main_v7) = _
  unfold Yout0
  rw [Function.update_self]
  exact arr0_3 (rd (Y1 m)) c

theorem v26_0_eq : at_ c (Y4 m) main_v26_0 = G1_5 (at_ c (Y3 m) main_arg1) (at_ c (Y3 m) main_arg7) (at_ c (Y3 m) main_v25) (at_ c (Y3 m) main_v17) (at_ c (Y3 m) main_v24) := by
  show Yout1 (Y3 m) c (Proc.devRef .tc main_v26_0) = _
  unfold Yout1
  rw [Function.update_of_ne (StableHlo.devRef_ne_of_ne (by decide : main_v26_0 ≠ main_v26_2)), Function.update_of_ne (StableHlo.devRef_ne_of_ne (by decide : main_v26_0 ≠ main_v26_1)), Function.update_self]
  exact arr1_5 (rd (Y3 m)) c

theorem v26_1_eq : at_ c (Y4 m) main_v26_1 = G1_6 (at_ c (Y3 m) main_arg1) (at_ c (Y3 m) main_arg7) (at_ c (Y3 m) main_v25) (at_ c (Y3 m) main_v17) (at_ c (Y3 m) main_v24) := by
  show Yout1 (Y3 m) c (Proc.devRef .tc main_v26_1) = _
  unfold Yout1
  rw [Function.update_of_ne (StableHlo.devRef_ne_of_ne (by decide : main_v26_1 ≠ main_v26_2)), Function.update_self]
  exact arr1_6 (rd (Y3 m)) c

theorem v26_2_eq : at_ c (Y4 m) main_v26_2 = G1_7 (at_ c (Y3 m) main_arg1) (at_ c (Y3 m) main_arg7) (at_ c (Y3 m) main_v25) (at_ c (Y3 m) main_v17) (at_ c (Y3 m) main_v24) := by
  show Yout1 (Y3 m) c (Proc.devRef .tc main_v26_2) = _
  unfold Yout1
  rw [Function.update_self]
  exact arr1_7 (rd (Y3 m)) c

theorem v50_at8 : at_ c (Y8 m) main_v50 = G2_3 (at_ c (Y7 m) main_v36) (at_ c (Y7 m) main_v45) (at_ c (Y7 m) main_v49) := by
  show Yout2 (Y7 m) c (Proc.devRef .tc main_v50) = _
  unfold Yout2
  rw [Function.update_self]
  exact arr2_3 (rd (Y7 m)) c

theorem v50_eq : at_ c (Y12 m) main_v50 = G2_3 (at_ c (Y7 m) main_v36) (at_ c (Y7 m) main_v45) (at_ c (Y7 m) main_v49) :=
  (show Y12 m c (Proc.devRef .tc main_v50) = Y8 m c (Proc.devRef .tc main_v50) from (Yout3_of (Y11 m) c main_v50 (by decide)).trans <| (StableHlo.after_of_writes_sub hostOps3_2 _ hostOps3_2_writes (by decide : main_v50 ∉ hostOps3_2_W)).trans <| (StableHlo.after_of_writes_sub hostOps3_1 _ hostOps3_1_writes (by decide : main_v50 ∉ hostOps3_1_W)).trans <| (StableHlo.after_of_writes_sub hostOps3 _ hostOps3_writes (by decide : main_v50 ∉ hostOps3_W))).trans (v50_at8 m c)

theorem v80_0_eq : at_ c (Y12 m) main_v80_0 = G3_9 (at_ c (Y11 m) main_v26_0) (at_ c (Y11 m) main_v59) (at_ c (Y11 m) main_v63) := by
  show Yout3 (Y11 m) c (Proc.devRef .tc main_v80_0) = _
  unfold Yout3
  rw [Function.update_of_ne (StableHlo.devRef_ne_of_ne (by decide : main_v80_0 ≠ main_v80_1)), Function.update_self]
  exact arr3_9 (rd (Y11 m)) c

theorem v80_1_eq : at_ c (Y12 m) main_v80_1 = G3_10 (at_ c (Y11 m) main_v26_0) (at_ c (Y11 m) main_v59) (at_ c (Y11 m) main_v63) (at_ c (Y11 m) main_v72) (at_ c (Y11 m) main_v73) (at_ c (Y11 m) main_arg17) (at_ c (Y11 m) main_v79) (at_ c (Y11 m) main_v75) (at_ c (Y11 m) main_v78) := by
  show Yout3 (Y11 m) c (Proc.devRef .tc main_v80_1) = _
  unfold Yout3
  rw [Function.update_self]
  exact arr3_10 (rd (Y11 m)) c

/-! ## Buffers carried unchanged between items -/

theorem keep_v26_0_4_11 : Y11 m c (Proc.devRef .tc main_v26_0) = Y4 m c (Proc.devRef .tc main_v26_0) :=
  (StableHlo.after_of_writes_sub hostOps3_2 _ hostOps3_2_writes (by decide : main_v26_0 ∉ hostOps3_2_W)).trans <| (StableHlo.after_of_writes_sub hostOps3_1 _ hostOps3_1_writes (by decide : main_v26_0 ∉ hostOps3_1_W)).trans <| (StableHlo.after_of_writes_sub hostOps3 _ hostOps3_writes (by decide : main_v26_0 ∉ hostOps3_W)).trans <| (Yout2_of (Y7 m) c main_v26_0 (by decide)).trans <| (StableHlo.after_of_writes_sub hostOps2_2 _ hostOps2_2_writes (by decide : main_v26_0 ∉ hostOps2_2_W)).trans <| (StableHlo.after_of_writes_sub hostOps2_1 _ hostOps2_1_writes (by decide : main_v26_0 ∉ hostOps2_1_W)).trans <| (StableHlo.after_of_writes_sub hostOps2 _ hostOps2_writes (by decide : main_v26_0 ∉ hostOps2_W))
theorem keep_v36_5_7 : Y7 m c (Proc.devRef .tc main_v36) = Y5 m c (Proc.devRef .tc main_v36) :=
  (StableHlo.after_of_writes_sub hostOps2_2 _ hostOps2_2_writes (by decide : main_v36 ∉ hostOps2_2_W)).trans <| (StableHlo.after_of_writes_sub hostOps2_1 _ hostOps2_1_writes (by decide : main_v36 ∉ hostOps2_1_W))
theorem keep_v39_5_6 : Y6 m c (Proc.devRef .tc main_v39) = Y5 m c (Proc.devRef .tc main_v39) :=
  (StableHlo.after_of_writes_sub hostOps2_1 _ hostOps2_1_writes (by decide : main_v39 ∉ hostOps2_1_W))
theorem keep_v50_8_10 : Y10 m c (Proc.devRef .tc main_v50) = Y8 m c (Proc.devRef .tc main_v50) :=
  (StableHlo.after_of_writes_sub hostOps3_1 _ hostOps3_1_writes (by decide : main_v50 ∉ hostOps3_1_W)).trans <| (StableHlo.after_of_writes_sub hostOps3 _ hostOps3_writes (by decide : main_v50 ∉ hostOps3_W))
theorem keep_v8_3_4 : Y4 m c (Proc.devRef .tc main_v8) = Y3 m c (Proc.devRef .tc main_v8) :=
  (Yout1_of (Y3 m) c main_v8 (by decide))
theorem keep_v3_1_4 : Y4 m c (Proc.devRef .tc main_v3) = Y1 m c (Proc.devRef .tc main_v3) :=
  (Yout1_of (Y3 m) c main_v3 (by decide)).trans <| (StableHlo.after_of_writes_sub hostOps1 _ hostOps1_writes (by decide : main_v3 ∉ hostOps1_W)).trans <| (Yout0_of (Y1 m) c main_v3 (by decide))
theorem keep_v3_1_2 : Y2 m c (Proc.devRef .tc main_v3) = Y1 m c (Proc.devRef .tc main_v3) :=
  (Yout0_of (Y1 m) c main_v3 (by decide))
theorem keep_v1_1_2 : Y2 m c (Proc.devRef .tc main_v1) = Y1 m c (Proc.devRef .tc main_v1) :=
  (Yout0_of (Y1 m) c main_v1 (by decide))
theorem keep_v1_1_10 : Y10 m c (Proc.devRef .tc main_v1) = Y1 m c (Proc.devRef .tc main_v1) :=
  (StableHlo.after_of_writes_sub hostOps3_1 _ hostOps3_1_writes (by decide : main_v1 ∉ hostOps3_1_W)).trans <| (StableHlo.after_of_writes_sub hostOps3 _ hostOps3_writes (by decide : main_v1 ∉ hostOps3_W)).trans <| (Yout2_of (Y7 m) c main_v1 (by decide)).trans <| (StableHlo.after_of_writes_sub hostOps2_2 _ hostOps2_2_writes (by decide : main_v1 ∉ hostOps2_2_W)).trans <| (StableHlo.after_of_writes_sub hostOps2_1 _ hostOps2_1_writes (by decide : main_v1 ∉ hostOps2_1_W)).trans <| (StableHlo.after_of_writes_sub hostOps2 _ hostOps2_writes (by decide : main_v1 ∉ hostOps2_W)).trans <| (Yout1_of (Y3 m) c main_v1 (by decide)).trans <| (StableHlo.after_of_writes_sub hostOps1 _ hostOps1_writes (by decide : main_v1 ∉ hostOps1_W)).trans <| (Yout0_of (Y1 m) c main_v1 (by decide))
theorem keep_v3_1_10 : Y10 m c (Proc.devRef .tc main_v3) = Y1 m c (Proc.devRef .tc main_v3) :=
  (StableHlo.after_of_writes_sub hostOps3_1 _ hostOps3_1_writes (by decide : main_v3 ∉ hostOps3_1_W)).trans <| (StableHlo.after_of_writes_sub hostOps3 _ hostOps3_writes (by decide : main_v3 ∉ hostOps3_W)).trans <| (Yout2_of (Y7 m) c main_v3 (by decide)).trans <| (StableHlo.after_of_writes_sub hostOps2_2 _ hostOps2_2_writes (by decide : main_v3 ∉ hostOps2_2_W)).trans <| (StableHlo.after_of_writes_sub hostOps2_1 _ hostOps2_1_writes (by decide : main_v3 ∉ hostOps2_1_W)).trans <| (StableHlo.after_of_writes_sub hostOps2 _ hostOps2_writes (by decide : main_v3 ∉ hostOps2_W)).trans <| (Yout1_of (Y3 m) c main_v3 (by decide)).trans <| (StableHlo.after_of_writes_sub hostOps1 _ hostOps1_writes (by decide : main_v3 ∉ hostOps1_W)).trans <| (Yout0_of (Y1 m) c main_v3 (by decide))
theorem keep_v53_9_10 : Y10 m c (Proc.devRef .tc main_v53) = Y9 m c (Proc.devRef .tc main_v53) :=
  (StableHlo.after_of_writes_sub hostOps3_1 _ hostOps3_1_writes (by decide : main_v53 ∉ hostOps3_1_W))
theorem keep_arg0_1 : Y1 m c (Proc.devRef .tc main_arg0) = m ((c : Thread nD τ).loc main_arg0) :=
  ((StableHlo.after_of_writes_sub hostOps0 _ hostOps0_writes (by decide : main_arg0 ∉ hostOps0_W))).trans rfl
theorem keep_arg0_2 : Y2 m c (Proc.devRef .tc main_arg0) = m ((c : Thread nD τ).loc main_arg0) :=
  ((Yout0_of (Y1 m) c main_arg0 (by decide)).trans <| (StableHlo.after_of_writes_sub hostOps0 _ hostOps0_writes (by decide : main_arg0 ∉ hostOps0_W))).trans rfl
theorem keep_arg0_3 : Y3 m c (Proc.devRef .tc main_arg0) = m ((c : Thread nD τ).loc main_arg0) :=
  ((StableHlo.after_of_writes_sub hostOps1 _ hostOps1_writes (by decide : main_arg0 ∉ hostOps1_W)).trans <| (Yout0_of (Y1 m) c main_arg0 (by decide)).trans <| (StableHlo.after_of_writes_sub hostOps0 _ hostOps0_writes (by decide : main_arg0 ∉ hostOps0_W))).trans rfl
theorem keep_arg0_5 : Y5 m c (Proc.devRef .tc main_arg0) = m ((c : Thread nD τ).loc main_arg0) :=
  ((StableHlo.after_of_writes_sub hostOps2 _ hostOps2_writes (by decide : main_arg0 ∉ hostOps2_W)).trans <| (Yout1_of (Y3 m) c main_arg0 (by decide)).trans <| (StableHlo.after_of_writes_sub hostOps1 _ hostOps1_writes (by decide : main_arg0 ∉ hostOps1_W)).trans <| (Yout0_of (Y1 m) c main_arg0 (by decide)).trans <| (StableHlo.after_of_writes_sub hostOps0 _ hostOps0_writes (by decide : main_arg0 ∉ hostOps0_W))).trans rfl
theorem keep_arg0_6 : Y6 m c (Proc.devRef .tc main_arg0) = m ((c : Thread nD τ).loc main_arg0) :=
  ((StableHlo.after_of_writes_sub hostOps2_1 _ hostOps2_1_writes (by decide : main_arg0 ∉ hostOps2_1_W)).trans <| (StableHlo.after_of_writes_sub hostOps2 _ hostOps2_writes (by decide : main_arg0 ∉ hostOps2_W)).trans <| (Yout1_of (Y3 m) c main_arg0 (by decide)).trans <| (StableHlo.after_of_writes_sub hostOps1 _ hostOps1_writes (by decide : main_arg0 ∉ hostOps1_W)).trans <| (Yout0_of (Y1 m) c main_arg0 (by decide)).trans <| (StableHlo.after_of_writes_sub hostOps0 _ hostOps0_writes (by decide : main_arg0 ∉ hostOps0_W))).trans rfl
theorem keep_arg0_10 : Y10 m c (Proc.devRef .tc main_arg0) = m ((c : Thread nD τ).loc main_arg0) :=
  ((StableHlo.after_of_writes_sub hostOps3_1 _ hostOps3_1_writes (by decide : main_arg0 ∉ hostOps3_1_W)).trans <| (StableHlo.after_of_writes_sub hostOps3 _ hostOps3_writes (by decide : main_arg0 ∉ hostOps3_W)).trans <| (Yout2_of (Y7 m) c main_arg0 (by decide)).trans <| (StableHlo.after_of_writes_sub hostOps2_2 _ hostOps2_2_writes (by decide : main_arg0 ∉ hostOps2_2_W)).trans <| (StableHlo.after_of_writes_sub hostOps2_1 _ hostOps2_1_writes (by decide : main_arg0 ∉ hostOps2_1_W)).trans <| (StableHlo.after_of_writes_sub hostOps2 _ hostOps2_writes (by decide : main_arg0 ∉ hostOps2_W)).trans <| (Yout1_of (Y3 m) c main_arg0 (by decide)).trans <| (StableHlo.after_of_writes_sub hostOps1 _ hostOps1_writes (by decide : main_arg0 ∉ hostOps1_W)).trans <| (Yout0_of (Y1 m) c main_arg0 (by decide)).trans <| (StableHlo.after_of_writes_sub hostOps0 _ hostOps0_writes (by decide : main_arg0 ∉ hostOps0_W))).trans rfl
theorem keep_arg0_11 : Y11 m c (Proc.devRef .tc main_arg0) = m ((c : Thread nD τ).loc main_arg0) :=
  ((StableHlo.after_of_writes_sub hostOps3_2 _ hostOps3_2_writes (by decide : main_arg0 ∉ hostOps3_2_W)).trans <| (StableHlo.after_of_writes_sub hostOps3_1 _ hostOps3_1_writes (by decide : main_arg0 ∉ hostOps3_1_W)).trans <| (StableHlo.after_of_writes_sub hostOps3 _ hostOps3_writes (by decide : main_arg0 ∉ hostOps3_W)).trans <| (Yout2_of (Y7 m) c main_arg0 (by decide)).trans <| (StableHlo.after_of_writes_sub hostOps2_2 _ hostOps2_2_writes (by decide : main_arg0 ∉ hostOps2_2_W)).trans <| (StableHlo.after_of_writes_sub hostOps2_1 _ hostOps2_1_writes (by decide : main_arg0 ∉ hostOps2_1_W)).trans <| (StableHlo.after_of_writes_sub hostOps2 _ hostOps2_writes (by decide : main_arg0 ∉ hostOps2_W)).trans <| (Yout1_of (Y3 m) c main_arg0 (by decide)).trans <| (StableHlo.after_of_writes_sub hostOps1 _ hostOps1_writes (by decide : main_arg0 ∉ hostOps1_W)).trans <| (Yout0_of (Y1 m) c main_arg0 (by decide)).trans <| (StableHlo.after_of_writes_sub hostOps0 _ hostOps0_writes (by decide : main_arg0 ∉ hostOps0_W))).trans rfl
theorem keep_arg1_1 : Y1 m c (Proc.devRef .tc main_arg1) = m ((c : Thread nD τ).loc main_arg1) :=
  ((StableHlo.after_of_writes_sub hostOps0 _ hostOps0_writes (by decide : main_arg1 ∉ hostOps0_W))).trans rfl
theorem keep_arg1_2 : Y2 m c (Proc.devRef .tc main_arg1) = m ((c : Thread nD τ).loc main_arg1) :=
  ((Yout0_of (Y1 m) c main_arg1 (by decide)).trans <| (StableHlo.after_of_writes_sub hostOps0 _ hostOps0_writes (by decide : main_arg1 ∉ hostOps0_W))).trans rfl
theorem keep_arg1_3 : Y3 m c (Proc.devRef .tc main_arg1) = m ((c : Thread nD τ).loc main_arg1) :=
  ((StableHlo.after_of_writes_sub hostOps1 _ hostOps1_writes (by decide : main_arg1 ∉ hostOps1_W)).trans <| (Yout0_of (Y1 m) c main_arg1 (by decide)).trans <| (StableHlo.after_of_writes_sub hostOps0 _ hostOps0_writes (by decide : main_arg1 ∉ hostOps0_W))).trans rfl
theorem keep_arg1_5 : Y5 m c (Proc.devRef .tc main_arg1) = m ((c : Thread nD τ).loc main_arg1) :=
  ((StableHlo.after_of_writes_sub hostOps2 _ hostOps2_writes (by decide : main_arg1 ∉ hostOps2_W)).trans <| (Yout1_of (Y3 m) c main_arg1 (by decide)).trans <| (StableHlo.after_of_writes_sub hostOps1 _ hostOps1_writes (by decide : main_arg1 ∉ hostOps1_W)).trans <| (Yout0_of (Y1 m) c main_arg1 (by decide)).trans <| (StableHlo.after_of_writes_sub hostOps0 _ hostOps0_writes (by decide : main_arg1 ∉ hostOps0_W))).trans rfl
theorem keep_arg1_6 : Y6 m c (Proc.devRef .tc main_arg1) = m ((c : Thread nD τ).loc main_arg1) :=
  ((StableHlo.after_of_writes_sub hostOps2_1 _ hostOps2_1_writes (by decide : main_arg1 ∉ hostOps2_1_W)).trans <| (StableHlo.after_of_writes_sub hostOps2 _ hostOps2_writes (by decide : main_arg1 ∉ hostOps2_W)).trans <| (Yout1_of (Y3 m) c main_arg1 (by decide)).trans <| (StableHlo.after_of_writes_sub hostOps1 _ hostOps1_writes (by decide : main_arg1 ∉ hostOps1_W)).trans <| (Yout0_of (Y1 m) c main_arg1 (by decide)).trans <| (StableHlo.after_of_writes_sub hostOps0 _ hostOps0_writes (by decide : main_arg1 ∉ hostOps0_W))).trans rfl
theorem keep_arg1_10 : Y10 m c (Proc.devRef .tc main_arg1) = m ((c : Thread nD τ).loc main_arg1) :=
  ((StableHlo.after_of_writes_sub hostOps3_1 _ hostOps3_1_writes (by decide : main_arg1 ∉ hostOps3_1_W)).trans <| (StableHlo.after_of_writes_sub hostOps3 _ hostOps3_writes (by decide : main_arg1 ∉ hostOps3_W)).trans <| (Yout2_of (Y7 m) c main_arg1 (by decide)).trans <| (StableHlo.after_of_writes_sub hostOps2_2 _ hostOps2_2_writes (by decide : main_arg1 ∉ hostOps2_2_W)).trans <| (StableHlo.after_of_writes_sub hostOps2_1 _ hostOps2_1_writes (by decide : main_arg1 ∉ hostOps2_1_W)).trans <| (StableHlo.after_of_writes_sub hostOps2 _ hostOps2_writes (by decide : main_arg1 ∉ hostOps2_W)).trans <| (Yout1_of (Y3 m) c main_arg1 (by decide)).trans <| (StableHlo.after_of_writes_sub hostOps1 _ hostOps1_writes (by decide : main_arg1 ∉ hostOps1_W)).trans <| (Yout0_of (Y1 m) c main_arg1 (by decide)).trans <| (StableHlo.after_of_writes_sub hostOps0 _ hostOps0_writes (by decide : main_arg1 ∉ hostOps0_W))).trans rfl
theorem keep_arg1_11 : Y11 m c (Proc.devRef .tc main_arg1) = m ((c : Thread nD τ).loc main_arg1) :=
  ((StableHlo.after_of_writes_sub hostOps3_2 _ hostOps3_2_writes (by decide : main_arg1 ∉ hostOps3_2_W)).trans <| (StableHlo.after_of_writes_sub hostOps3_1 _ hostOps3_1_writes (by decide : main_arg1 ∉ hostOps3_1_W)).trans <| (StableHlo.after_of_writes_sub hostOps3 _ hostOps3_writes (by decide : main_arg1 ∉ hostOps3_W)).trans <| (Yout2_of (Y7 m) c main_arg1 (by decide)).trans <| (StableHlo.after_of_writes_sub hostOps2_2 _ hostOps2_2_writes (by decide : main_arg1 ∉ hostOps2_2_W)).trans <| (StableHlo.after_of_writes_sub hostOps2_1 _ hostOps2_1_writes (by decide : main_arg1 ∉ hostOps2_1_W)).trans <| (StableHlo.after_of_writes_sub hostOps2 _ hostOps2_writes (by decide : main_arg1 ∉ hostOps2_W)).trans <| (Yout1_of (Y3 m) c main_arg1 (by decide)).trans <| (StableHlo.after_of_writes_sub hostOps1 _ hostOps1_writes (by decide : main_arg1 ∉ hostOps1_W)).trans <| (Yout0_of (Y1 m) c main_arg1 (by decide)).trans <| (StableHlo.after_of_writes_sub hostOps0 _ hostOps0_writes (by decide : main_arg1 ∉ hostOps0_W))).trans rfl
theorem keep_arg2_1 : Y1 m c (Proc.devRef .tc main_arg2) = m ((c : Thread nD τ).loc main_arg2) :=
  ((StableHlo.after_of_writes_sub hostOps0 _ hostOps0_writes (by decide : main_arg2 ∉ hostOps0_W))).trans rfl
theorem keep_arg2_2 : Y2 m c (Proc.devRef .tc main_arg2) = m ((c : Thread nD τ).loc main_arg2) :=
  ((Yout0_of (Y1 m) c main_arg2 (by decide)).trans <| (StableHlo.after_of_writes_sub hostOps0 _ hostOps0_writes (by decide : main_arg2 ∉ hostOps0_W))).trans rfl
theorem keep_arg2_3 : Y3 m c (Proc.devRef .tc main_arg2) = m ((c : Thread nD τ).loc main_arg2) :=
  ((StableHlo.after_of_writes_sub hostOps1 _ hostOps1_writes (by decide : main_arg2 ∉ hostOps1_W)).trans <| (Yout0_of (Y1 m) c main_arg2 (by decide)).trans <| (StableHlo.after_of_writes_sub hostOps0 _ hostOps0_writes (by decide : main_arg2 ∉ hostOps0_W))).trans rfl
theorem keep_arg2_5 : Y5 m c (Proc.devRef .tc main_arg2) = m ((c : Thread nD τ).loc main_arg2) :=
  ((StableHlo.after_of_writes_sub hostOps2 _ hostOps2_writes (by decide : main_arg2 ∉ hostOps2_W)).trans <| (Yout1_of (Y3 m) c main_arg2 (by decide)).trans <| (StableHlo.after_of_writes_sub hostOps1 _ hostOps1_writes (by decide : main_arg2 ∉ hostOps1_W)).trans <| (Yout0_of (Y1 m) c main_arg2 (by decide)).trans <| (StableHlo.after_of_writes_sub hostOps0 _ hostOps0_writes (by decide : main_arg2 ∉ hostOps0_W))).trans rfl
theorem keep_arg2_6 : Y6 m c (Proc.devRef .tc main_arg2) = m ((c : Thread nD τ).loc main_arg2) :=
  ((StableHlo.after_of_writes_sub hostOps2_1 _ hostOps2_1_writes (by decide : main_arg2 ∉ hostOps2_1_W)).trans <| (StableHlo.after_of_writes_sub hostOps2 _ hostOps2_writes (by decide : main_arg2 ∉ hostOps2_W)).trans <| (Yout1_of (Y3 m) c main_arg2 (by decide)).trans <| (StableHlo.after_of_writes_sub hostOps1 _ hostOps1_writes (by decide : main_arg2 ∉ hostOps1_W)).trans <| (Yout0_of (Y1 m) c main_arg2 (by decide)).trans <| (StableHlo.after_of_writes_sub hostOps0 _ hostOps0_writes (by decide : main_arg2 ∉ hostOps0_W))).trans rfl
theorem keep_arg2_10 : Y10 m c (Proc.devRef .tc main_arg2) = m ((c : Thread nD τ).loc main_arg2) :=
  ((StableHlo.after_of_writes_sub hostOps3_1 _ hostOps3_1_writes (by decide : main_arg2 ∉ hostOps3_1_W)).trans <| (StableHlo.after_of_writes_sub hostOps3 _ hostOps3_writes (by decide : main_arg2 ∉ hostOps3_W)).trans <| (Yout2_of (Y7 m) c main_arg2 (by decide)).trans <| (StableHlo.after_of_writes_sub hostOps2_2 _ hostOps2_2_writes (by decide : main_arg2 ∉ hostOps2_2_W)).trans <| (StableHlo.after_of_writes_sub hostOps2_1 _ hostOps2_1_writes (by decide : main_arg2 ∉ hostOps2_1_W)).trans <| (StableHlo.after_of_writes_sub hostOps2 _ hostOps2_writes (by decide : main_arg2 ∉ hostOps2_W)).trans <| (Yout1_of (Y3 m) c main_arg2 (by decide)).trans <| (StableHlo.after_of_writes_sub hostOps1 _ hostOps1_writes (by decide : main_arg2 ∉ hostOps1_W)).trans <| (Yout0_of (Y1 m) c main_arg2 (by decide)).trans <| (StableHlo.after_of_writes_sub hostOps0 _ hostOps0_writes (by decide : main_arg2 ∉ hostOps0_W))).trans rfl
theorem keep_arg2_11 : Y11 m c (Proc.devRef .tc main_arg2) = m ((c : Thread nD τ).loc main_arg2) :=
  ((StableHlo.after_of_writes_sub hostOps3_2 _ hostOps3_2_writes (by decide : main_arg2 ∉ hostOps3_2_W)).trans <| (StableHlo.after_of_writes_sub hostOps3_1 _ hostOps3_1_writes (by decide : main_arg2 ∉ hostOps3_1_W)).trans <| (StableHlo.after_of_writes_sub hostOps3 _ hostOps3_writes (by decide : main_arg2 ∉ hostOps3_W)).trans <| (Yout2_of (Y7 m) c main_arg2 (by decide)).trans <| (StableHlo.after_of_writes_sub hostOps2_2 _ hostOps2_2_writes (by decide : main_arg2 ∉ hostOps2_2_W)).trans <| (StableHlo.after_of_writes_sub hostOps2_1 _ hostOps2_1_writes (by decide : main_arg2 ∉ hostOps2_1_W)).trans <| (StableHlo.after_of_writes_sub hostOps2 _ hostOps2_writes (by decide : main_arg2 ∉ hostOps2_W)).trans <| (Yout1_of (Y3 m) c main_arg2 (by decide)).trans <| (StableHlo.after_of_writes_sub hostOps1 _ hostOps1_writes (by decide : main_arg2 ∉ hostOps1_W)).trans <| (Yout0_of (Y1 m) c main_arg2 (by decide)).trans <| (StableHlo.after_of_writes_sub hostOps0 _ hostOps0_writes (by decide : main_arg2 ∉ hostOps0_W))).trans rfl
theorem keep_arg3_1 : Y1 m c (Proc.devRef .tc main_arg3) = m ((c : Thread nD τ).loc main_arg3) :=
  ((StableHlo.after_of_writes_sub hostOps0 _ hostOps0_writes (by decide : main_arg3 ∉ hostOps0_W))).trans rfl
theorem keep_arg3_2 : Y2 m c (Proc.devRef .tc main_arg3) = m ((c : Thread nD τ).loc main_arg3) :=
  ((Yout0_of (Y1 m) c main_arg3 (by decide)).trans <| (StableHlo.after_of_writes_sub hostOps0 _ hostOps0_writes (by decide : main_arg3 ∉ hostOps0_W))).trans rfl
theorem keep_arg3_3 : Y3 m c (Proc.devRef .tc main_arg3) = m ((c : Thread nD τ).loc main_arg3) :=
  ((StableHlo.after_of_writes_sub hostOps1 _ hostOps1_writes (by decide : main_arg3 ∉ hostOps1_W)).trans <| (Yout0_of (Y1 m) c main_arg3 (by decide)).trans <| (StableHlo.after_of_writes_sub hostOps0 _ hostOps0_writes (by decide : main_arg3 ∉ hostOps0_W))).trans rfl
theorem keep_arg3_5 : Y5 m c (Proc.devRef .tc main_arg3) = m ((c : Thread nD τ).loc main_arg3) :=
  ((StableHlo.after_of_writes_sub hostOps2 _ hostOps2_writes (by decide : main_arg3 ∉ hostOps2_W)).trans <| (Yout1_of (Y3 m) c main_arg3 (by decide)).trans <| (StableHlo.after_of_writes_sub hostOps1 _ hostOps1_writes (by decide : main_arg3 ∉ hostOps1_W)).trans <| (Yout0_of (Y1 m) c main_arg3 (by decide)).trans <| (StableHlo.after_of_writes_sub hostOps0 _ hostOps0_writes (by decide : main_arg3 ∉ hostOps0_W))).trans rfl
theorem keep_arg3_6 : Y6 m c (Proc.devRef .tc main_arg3) = m ((c : Thread nD τ).loc main_arg3) :=
  ((StableHlo.after_of_writes_sub hostOps2_1 _ hostOps2_1_writes (by decide : main_arg3 ∉ hostOps2_1_W)).trans <| (StableHlo.after_of_writes_sub hostOps2 _ hostOps2_writes (by decide : main_arg3 ∉ hostOps2_W)).trans <| (Yout1_of (Y3 m) c main_arg3 (by decide)).trans <| (StableHlo.after_of_writes_sub hostOps1 _ hostOps1_writes (by decide : main_arg3 ∉ hostOps1_W)).trans <| (Yout0_of (Y1 m) c main_arg3 (by decide)).trans <| (StableHlo.after_of_writes_sub hostOps0 _ hostOps0_writes (by decide : main_arg3 ∉ hostOps0_W))).trans rfl
theorem keep_arg3_10 : Y10 m c (Proc.devRef .tc main_arg3) = m ((c : Thread nD τ).loc main_arg3) :=
  ((StableHlo.after_of_writes_sub hostOps3_1 _ hostOps3_1_writes (by decide : main_arg3 ∉ hostOps3_1_W)).trans <| (StableHlo.after_of_writes_sub hostOps3 _ hostOps3_writes (by decide : main_arg3 ∉ hostOps3_W)).trans <| (Yout2_of (Y7 m) c main_arg3 (by decide)).trans <| (StableHlo.after_of_writes_sub hostOps2_2 _ hostOps2_2_writes (by decide : main_arg3 ∉ hostOps2_2_W)).trans <| (StableHlo.after_of_writes_sub hostOps2_1 _ hostOps2_1_writes (by decide : main_arg3 ∉ hostOps2_1_W)).trans <| (StableHlo.after_of_writes_sub hostOps2 _ hostOps2_writes (by decide : main_arg3 ∉ hostOps2_W)).trans <| (Yout1_of (Y3 m) c main_arg3 (by decide)).trans <| (StableHlo.after_of_writes_sub hostOps1 _ hostOps1_writes (by decide : main_arg3 ∉ hostOps1_W)).trans <| (Yout0_of (Y1 m) c main_arg3 (by decide)).trans <| (StableHlo.after_of_writes_sub hostOps0 _ hostOps0_writes (by decide : main_arg3 ∉ hostOps0_W))).trans rfl
theorem keep_arg3_11 : Y11 m c (Proc.devRef .tc main_arg3) = m ((c : Thread nD τ).loc main_arg3) :=
  ((StableHlo.after_of_writes_sub hostOps3_2 _ hostOps3_2_writes (by decide : main_arg3 ∉ hostOps3_2_W)).trans <| (StableHlo.after_of_writes_sub hostOps3_1 _ hostOps3_1_writes (by decide : main_arg3 ∉ hostOps3_1_W)).trans <| (StableHlo.after_of_writes_sub hostOps3 _ hostOps3_writes (by decide : main_arg3 ∉ hostOps3_W)).trans <| (Yout2_of (Y7 m) c main_arg3 (by decide)).trans <| (StableHlo.after_of_writes_sub hostOps2_2 _ hostOps2_2_writes (by decide : main_arg3 ∉ hostOps2_2_W)).trans <| (StableHlo.after_of_writes_sub hostOps2_1 _ hostOps2_1_writes (by decide : main_arg3 ∉ hostOps2_1_W)).trans <| (StableHlo.after_of_writes_sub hostOps2 _ hostOps2_writes (by decide : main_arg3 ∉ hostOps2_W)).trans <| (Yout1_of (Y3 m) c main_arg3 (by decide)).trans <| (StableHlo.after_of_writes_sub hostOps1 _ hostOps1_writes (by decide : main_arg3 ∉ hostOps1_W)).trans <| (Yout0_of (Y1 m) c main_arg3 (by decide)).trans <| (StableHlo.after_of_writes_sub hostOps0 _ hostOps0_writes (by decide : main_arg3 ∉ hostOps0_W))).trans rfl
theorem keep_arg4_1 : Y1 m c (Proc.devRef .tc main_arg4) = m ((c : Thread nD τ).loc main_arg4) :=
  ((StableHlo.after_of_writes_sub hostOps0 _ hostOps0_writes (by decide : main_arg4 ∉ hostOps0_W))).trans rfl
theorem keep_arg4_2 : Y2 m c (Proc.devRef .tc main_arg4) = m ((c : Thread nD τ).loc main_arg4) :=
  ((Yout0_of (Y1 m) c main_arg4 (by decide)).trans <| (StableHlo.after_of_writes_sub hostOps0 _ hostOps0_writes (by decide : main_arg4 ∉ hostOps0_W))).trans rfl
theorem keep_arg4_3 : Y3 m c (Proc.devRef .tc main_arg4) = m ((c : Thread nD τ).loc main_arg4) :=
  ((StableHlo.after_of_writes_sub hostOps1 _ hostOps1_writes (by decide : main_arg4 ∉ hostOps1_W)).trans <| (Yout0_of (Y1 m) c main_arg4 (by decide)).trans <| (StableHlo.after_of_writes_sub hostOps0 _ hostOps0_writes (by decide : main_arg4 ∉ hostOps0_W))).trans rfl
theorem keep_arg4_5 : Y5 m c (Proc.devRef .tc main_arg4) = m ((c : Thread nD τ).loc main_arg4) :=
  ((StableHlo.after_of_writes_sub hostOps2 _ hostOps2_writes (by decide : main_arg4 ∉ hostOps2_W)).trans <| (Yout1_of (Y3 m) c main_arg4 (by decide)).trans <| (StableHlo.after_of_writes_sub hostOps1 _ hostOps1_writes (by decide : main_arg4 ∉ hostOps1_W)).trans <| (Yout0_of (Y1 m) c main_arg4 (by decide)).trans <| (StableHlo.after_of_writes_sub hostOps0 _ hostOps0_writes (by decide : main_arg4 ∉ hostOps0_W))).trans rfl
theorem keep_arg4_6 : Y6 m c (Proc.devRef .tc main_arg4) = m ((c : Thread nD τ).loc main_arg4) :=
  ((StableHlo.after_of_writes_sub hostOps2_1 _ hostOps2_1_writes (by decide : main_arg4 ∉ hostOps2_1_W)).trans <| (StableHlo.after_of_writes_sub hostOps2 _ hostOps2_writes (by decide : main_arg4 ∉ hostOps2_W)).trans <| (Yout1_of (Y3 m) c main_arg4 (by decide)).trans <| (StableHlo.after_of_writes_sub hostOps1 _ hostOps1_writes (by decide : main_arg4 ∉ hostOps1_W)).trans <| (Yout0_of (Y1 m) c main_arg4 (by decide)).trans <| (StableHlo.after_of_writes_sub hostOps0 _ hostOps0_writes (by decide : main_arg4 ∉ hostOps0_W))).trans rfl
theorem keep_arg4_10 : Y10 m c (Proc.devRef .tc main_arg4) = m ((c : Thread nD τ).loc main_arg4) :=
  ((StableHlo.after_of_writes_sub hostOps3_1 _ hostOps3_1_writes (by decide : main_arg4 ∉ hostOps3_1_W)).trans <| (StableHlo.after_of_writes_sub hostOps3 _ hostOps3_writes (by decide : main_arg4 ∉ hostOps3_W)).trans <| (Yout2_of (Y7 m) c main_arg4 (by decide)).trans <| (StableHlo.after_of_writes_sub hostOps2_2 _ hostOps2_2_writes (by decide : main_arg4 ∉ hostOps2_2_W)).trans <| (StableHlo.after_of_writes_sub hostOps2_1 _ hostOps2_1_writes (by decide : main_arg4 ∉ hostOps2_1_W)).trans <| (StableHlo.after_of_writes_sub hostOps2 _ hostOps2_writes (by decide : main_arg4 ∉ hostOps2_W)).trans <| (Yout1_of (Y3 m) c main_arg4 (by decide)).trans <| (StableHlo.after_of_writes_sub hostOps1 _ hostOps1_writes (by decide : main_arg4 ∉ hostOps1_W)).trans <| (Yout0_of (Y1 m) c main_arg4 (by decide)).trans <| (StableHlo.after_of_writes_sub hostOps0 _ hostOps0_writes (by decide : main_arg4 ∉ hostOps0_W))).trans rfl
theorem keep_arg4_11 : Y11 m c (Proc.devRef .tc main_arg4) = m ((c : Thread nD τ).loc main_arg4) :=
  ((StableHlo.after_of_writes_sub hostOps3_2 _ hostOps3_2_writes (by decide : main_arg4 ∉ hostOps3_2_W)).trans <| (StableHlo.after_of_writes_sub hostOps3_1 _ hostOps3_1_writes (by decide : main_arg4 ∉ hostOps3_1_W)).trans <| (StableHlo.after_of_writes_sub hostOps3 _ hostOps3_writes (by decide : main_arg4 ∉ hostOps3_W)).trans <| (Yout2_of (Y7 m) c main_arg4 (by decide)).trans <| (StableHlo.after_of_writes_sub hostOps2_2 _ hostOps2_2_writes (by decide : main_arg4 ∉ hostOps2_2_W)).trans <| (StableHlo.after_of_writes_sub hostOps2_1 _ hostOps2_1_writes (by decide : main_arg4 ∉ hostOps2_1_W)).trans <| (StableHlo.after_of_writes_sub hostOps2 _ hostOps2_writes (by decide : main_arg4 ∉ hostOps2_W)).trans <| (Yout1_of (Y3 m) c main_arg4 (by decide)).trans <| (StableHlo.after_of_writes_sub hostOps1 _ hostOps1_writes (by decide : main_arg4 ∉ hostOps1_W)).trans <| (Yout0_of (Y1 m) c main_arg4 (by decide)).trans <| (StableHlo.after_of_writes_sub hostOps0 _ hostOps0_writes (by decide : main_arg4 ∉ hostOps0_W))).trans rfl
theorem keep_arg5_1 : Y1 m c (Proc.devRef .tc main_arg5) = m ((c : Thread nD τ).loc main_arg5) :=
  ((StableHlo.after_of_writes_sub hostOps0 _ hostOps0_writes (by decide : main_arg5 ∉ hostOps0_W))).trans rfl
theorem keep_arg5_2 : Y2 m c (Proc.devRef .tc main_arg5) = m ((c : Thread nD τ).loc main_arg5) :=
  ((Yout0_of (Y1 m) c main_arg5 (by decide)).trans <| (StableHlo.after_of_writes_sub hostOps0 _ hostOps0_writes (by decide : main_arg5 ∉ hostOps0_W))).trans rfl
theorem keep_arg5_3 : Y3 m c (Proc.devRef .tc main_arg5) = m ((c : Thread nD τ).loc main_arg5) :=
  ((StableHlo.after_of_writes_sub hostOps1 _ hostOps1_writes (by decide : main_arg5 ∉ hostOps1_W)).trans <| (Yout0_of (Y1 m) c main_arg5 (by decide)).trans <| (StableHlo.after_of_writes_sub hostOps0 _ hostOps0_writes (by decide : main_arg5 ∉ hostOps0_W))).trans rfl
theorem keep_arg5_5 : Y5 m c (Proc.devRef .tc main_arg5) = m ((c : Thread nD τ).loc main_arg5) :=
  ((StableHlo.after_of_writes_sub hostOps2 _ hostOps2_writes (by decide : main_arg5 ∉ hostOps2_W)).trans <| (Yout1_of (Y3 m) c main_arg5 (by decide)).trans <| (StableHlo.after_of_writes_sub hostOps1 _ hostOps1_writes (by decide : main_arg5 ∉ hostOps1_W)).trans <| (Yout0_of (Y1 m) c main_arg5 (by decide)).trans <| (StableHlo.after_of_writes_sub hostOps0 _ hostOps0_writes (by decide : main_arg5 ∉ hostOps0_W))).trans rfl
theorem keep_arg5_6 : Y6 m c (Proc.devRef .tc main_arg5) = m ((c : Thread nD τ).loc main_arg5) :=
  ((StableHlo.after_of_writes_sub hostOps2_1 _ hostOps2_1_writes (by decide : main_arg5 ∉ hostOps2_1_W)).trans <| (StableHlo.after_of_writes_sub hostOps2 _ hostOps2_writes (by decide : main_arg5 ∉ hostOps2_W)).trans <| (Yout1_of (Y3 m) c main_arg5 (by decide)).trans <| (StableHlo.after_of_writes_sub hostOps1 _ hostOps1_writes (by decide : main_arg5 ∉ hostOps1_W)).trans <| (Yout0_of (Y1 m) c main_arg5 (by decide)).trans <| (StableHlo.after_of_writes_sub hostOps0 _ hostOps0_writes (by decide : main_arg5 ∉ hostOps0_W))).trans rfl
theorem keep_arg5_10 : Y10 m c (Proc.devRef .tc main_arg5) = m ((c : Thread nD τ).loc main_arg5) :=
  ((StableHlo.after_of_writes_sub hostOps3_1 _ hostOps3_1_writes (by decide : main_arg5 ∉ hostOps3_1_W)).trans <| (StableHlo.after_of_writes_sub hostOps3 _ hostOps3_writes (by decide : main_arg5 ∉ hostOps3_W)).trans <| (Yout2_of (Y7 m) c main_arg5 (by decide)).trans <| (StableHlo.after_of_writes_sub hostOps2_2 _ hostOps2_2_writes (by decide : main_arg5 ∉ hostOps2_2_W)).trans <| (StableHlo.after_of_writes_sub hostOps2_1 _ hostOps2_1_writes (by decide : main_arg5 ∉ hostOps2_1_W)).trans <| (StableHlo.after_of_writes_sub hostOps2 _ hostOps2_writes (by decide : main_arg5 ∉ hostOps2_W)).trans <| (Yout1_of (Y3 m) c main_arg5 (by decide)).trans <| (StableHlo.after_of_writes_sub hostOps1 _ hostOps1_writes (by decide : main_arg5 ∉ hostOps1_W)).trans <| (Yout0_of (Y1 m) c main_arg5 (by decide)).trans <| (StableHlo.after_of_writes_sub hostOps0 _ hostOps0_writes (by decide : main_arg5 ∉ hostOps0_W))).trans rfl
theorem keep_arg5_11 : Y11 m c (Proc.devRef .tc main_arg5) = m ((c : Thread nD τ).loc main_arg5) :=
  ((StableHlo.after_of_writes_sub hostOps3_2 _ hostOps3_2_writes (by decide : main_arg5 ∉ hostOps3_2_W)).trans <| (StableHlo.after_of_writes_sub hostOps3_1 _ hostOps3_1_writes (by decide : main_arg5 ∉ hostOps3_1_W)).trans <| (StableHlo.after_of_writes_sub hostOps3 _ hostOps3_writes (by decide : main_arg5 ∉ hostOps3_W)).trans <| (Yout2_of (Y7 m) c main_arg5 (by decide)).trans <| (StableHlo.after_of_writes_sub hostOps2_2 _ hostOps2_2_writes (by decide : main_arg5 ∉ hostOps2_2_W)).trans <| (StableHlo.after_of_writes_sub hostOps2_1 _ hostOps2_1_writes (by decide : main_arg5 ∉ hostOps2_1_W)).trans <| (StableHlo.after_of_writes_sub hostOps2 _ hostOps2_writes (by decide : main_arg5 ∉ hostOps2_W)).trans <| (Yout1_of (Y3 m) c main_arg5 (by decide)).trans <| (StableHlo.after_of_writes_sub hostOps1 _ hostOps1_writes (by decide : main_arg5 ∉ hostOps1_W)).trans <| (Yout0_of (Y1 m) c main_arg5 (by decide)).trans <| (StableHlo.after_of_writes_sub hostOps0 _ hostOps0_writes (by decide : main_arg5 ∉ hostOps0_W))).trans rfl
theorem keep_arg6_1 : Y1 m c (Proc.devRef .tc main_arg6) = m ((c : Thread nD τ).loc main_arg6) :=
  ((StableHlo.after_of_writes_sub hostOps0 _ hostOps0_writes (by decide : main_arg6 ∉ hostOps0_W))).trans rfl
theorem keep_arg6_2 : Y2 m c (Proc.devRef .tc main_arg6) = m ((c : Thread nD τ).loc main_arg6) :=
  ((Yout0_of (Y1 m) c main_arg6 (by decide)).trans <| (StableHlo.after_of_writes_sub hostOps0 _ hostOps0_writes (by decide : main_arg6 ∉ hostOps0_W))).trans rfl
theorem keep_arg6_3 : Y3 m c (Proc.devRef .tc main_arg6) = m ((c : Thread nD τ).loc main_arg6) :=
  ((StableHlo.after_of_writes_sub hostOps1 _ hostOps1_writes (by decide : main_arg6 ∉ hostOps1_W)).trans <| (Yout0_of (Y1 m) c main_arg6 (by decide)).trans <| (StableHlo.after_of_writes_sub hostOps0 _ hostOps0_writes (by decide : main_arg6 ∉ hostOps0_W))).trans rfl
theorem keep_arg6_5 : Y5 m c (Proc.devRef .tc main_arg6) = m ((c : Thread nD τ).loc main_arg6) :=
  ((StableHlo.after_of_writes_sub hostOps2 _ hostOps2_writes (by decide : main_arg6 ∉ hostOps2_W)).trans <| (Yout1_of (Y3 m) c main_arg6 (by decide)).trans <| (StableHlo.after_of_writes_sub hostOps1 _ hostOps1_writes (by decide : main_arg6 ∉ hostOps1_W)).trans <| (Yout0_of (Y1 m) c main_arg6 (by decide)).trans <| (StableHlo.after_of_writes_sub hostOps0 _ hostOps0_writes (by decide : main_arg6 ∉ hostOps0_W))).trans rfl
theorem keep_arg6_6 : Y6 m c (Proc.devRef .tc main_arg6) = m ((c : Thread nD τ).loc main_arg6) :=
  ((StableHlo.after_of_writes_sub hostOps2_1 _ hostOps2_1_writes (by decide : main_arg6 ∉ hostOps2_1_W)).trans <| (StableHlo.after_of_writes_sub hostOps2 _ hostOps2_writes (by decide : main_arg6 ∉ hostOps2_W)).trans <| (Yout1_of (Y3 m) c main_arg6 (by decide)).trans <| (StableHlo.after_of_writes_sub hostOps1 _ hostOps1_writes (by decide : main_arg6 ∉ hostOps1_W)).trans <| (Yout0_of (Y1 m) c main_arg6 (by decide)).trans <| (StableHlo.after_of_writes_sub hostOps0 _ hostOps0_writes (by decide : main_arg6 ∉ hostOps0_W))).trans rfl
theorem keep_arg6_10 : Y10 m c (Proc.devRef .tc main_arg6) = m ((c : Thread nD τ).loc main_arg6) :=
  ((StableHlo.after_of_writes_sub hostOps3_1 _ hostOps3_1_writes (by decide : main_arg6 ∉ hostOps3_1_W)).trans <| (StableHlo.after_of_writes_sub hostOps3 _ hostOps3_writes (by decide : main_arg6 ∉ hostOps3_W)).trans <| (Yout2_of (Y7 m) c main_arg6 (by decide)).trans <| (StableHlo.after_of_writes_sub hostOps2_2 _ hostOps2_2_writes (by decide : main_arg6 ∉ hostOps2_2_W)).trans <| (StableHlo.after_of_writes_sub hostOps2_1 _ hostOps2_1_writes (by decide : main_arg6 ∉ hostOps2_1_W)).trans <| (StableHlo.after_of_writes_sub hostOps2 _ hostOps2_writes (by decide : main_arg6 ∉ hostOps2_W)).trans <| (Yout1_of (Y3 m) c main_arg6 (by decide)).trans <| (StableHlo.after_of_writes_sub hostOps1 _ hostOps1_writes (by decide : main_arg6 ∉ hostOps1_W)).trans <| (Yout0_of (Y1 m) c main_arg6 (by decide)).trans <| (StableHlo.after_of_writes_sub hostOps0 _ hostOps0_writes (by decide : main_arg6 ∉ hostOps0_W))).trans rfl
theorem keep_arg6_11 : Y11 m c (Proc.devRef .tc main_arg6) = m ((c : Thread nD τ).loc main_arg6) :=
  ((StableHlo.after_of_writes_sub hostOps3_2 _ hostOps3_2_writes (by decide : main_arg6 ∉ hostOps3_2_W)).trans <| (StableHlo.after_of_writes_sub hostOps3_1 _ hostOps3_1_writes (by decide : main_arg6 ∉ hostOps3_1_W)).trans <| (StableHlo.after_of_writes_sub hostOps3 _ hostOps3_writes (by decide : main_arg6 ∉ hostOps3_W)).trans <| (Yout2_of (Y7 m) c main_arg6 (by decide)).trans <| (StableHlo.after_of_writes_sub hostOps2_2 _ hostOps2_2_writes (by decide : main_arg6 ∉ hostOps2_2_W)).trans <| (StableHlo.after_of_writes_sub hostOps2_1 _ hostOps2_1_writes (by decide : main_arg6 ∉ hostOps2_1_W)).trans <| (StableHlo.after_of_writes_sub hostOps2 _ hostOps2_writes (by decide : main_arg6 ∉ hostOps2_W)).trans <| (Yout1_of (Y3 m) c main_arg6 (by decide)).trans <| (StableHlo.after_of_writes_sub hostOps1 _ hostOps1_writes (by decide : main_arg6 ∉ hostOps1_W)).trans <| (Yout0_of (Y1 m) c main_arg6 (by decide)).trans <| (StableHlo.after_of_writes_sub hostOps0 _ hostOps0_writes (by decide : main_arg6 ∉ hostOps0_W))).trans rfl
theorem keep_arg7_1 : Y1 m c (Proc.devRef .tc main_arg7) = m ((c : Thread nD τ).loc main_arg7) :=
  ((StableHlo.after_of_writes_sub hostOps0 _ hostOps0_writes (by decide : main_arg7 ∉ hostOps0_W))).trans rfl
theorem keep_arg7_2 : Y2 m c (Proc.devRef .tc main_arg7) = m ((c : Thread nD τ).loc main_arg7) :=
  ((Yout0_of (Y1 m) c main_arg7 (by decide)).trans <| (StableHlo.after_of_writes_sub hostOps0 _ hostOps0_writes (by decide : main_arg7 ∉ hostOps0_W))).trans rfl
theorem keep_arg7_3 : Y3 m c (Proc.devRef .tc main_arg7) = m ((c : Thread nD τ).loc main_arg7) :=
  ((StableHlo.after_of_writes_sub hostOps1 _ hostOps1_writes (by decide : main_arg7 ∉ hostOps1_W)).trans <| (Yout0_of (Y1 m) c main_arg7 (by decide)).trans <| (StableHlo.after_of_writes_sub hostOps0 _ hostOps0_writes (by decide : main_arg7 ∉ hostOps0_W))).trans rfl
theorem keep_arg7_5 : Y5 m c (Proc.devRef .tc main_arg7) = m ((c : Thread nD τ).loc main_arg7) :=
  ((StableHlo.after_of_writes_sub hostOps2 _ hostOps2_writes (by decide : main_arg7 ∉ hostOps2_W)).trans <| (Yout1_of (Y3 m) c main_arg7 (by decide)).trans <| (StableHlo.after_of_writes_sub hostOps1 _ hostOps1_writes (by decide : main_arg7 ∉ hostOps1_W)).trans <| (Yout0_of (Y1 m) c main_arg7 (by decide)).trans <| (StableHlo.after_of_writes_sub hostOps0 _ hostOps0_writes (by decide : main_arg7 ∉ hostOps0_W))).trans rfl
theorem keep_arg7_6 : Y6 m c (Proc.devRef .tc main_arg7) = m ((c : Thread nD τ).loc main_arg7) :=
  ((StableHlo.after_of_writes_sub hostOps2_1 _ hostOps2_1_writes (by decide : main_arg7 ∉ hostOps2_1_W)).trans <| (StableHlo.after_of_writes_sub hostOps2 _ hostOps2_writes (by decide : main_arg7 ∉ hostOps2_W)).trans <| (Yout1_of (Y3 m) c main_arg7 (by decide)).trans <| (StableHlo.after_of_writes_sub hostOps1 _ hostOps1_writes (by decide : main_arg7 ∉ hostOps1_W)).trans <| (Yout0_of (Y1 m) c main_arg7 (by decide)).trans <| (StableHlo.after_of_writes_sub hostOps0 _ hostOps0_writes (by decide : main_arg7 ∉ hostOps0_W))).trans rfl
theorem keep_arg7_10 : Y10 m c (Proc.devRef .tc main_arg7) = m ((c : Thread nD τ).loc main_arg7) :=
  ((StableHlo.after_of_writes_sub hostOps3_1 _ hostOps3_1_writes (by decide : main_arg7 ∉ hostOps3_1_W)).trans <| (StableHlo.after_of_writes_sub hostOps3 _ hostOps3_writes (by decide : main_arg7 ∉ hostOps3_W)).trans <| (Yout2_of (Y7 m) c main_arg7 (by decide)).trans <| (StableHlo.after_of_writes_sub hostOps2_2 _ hostOps2_2_writes (by decide : main_arg7 ∉ hostOps2_2_W)).trans <| (StableHlo.after_of_writes_sub hostOps2_1 _ hostOps2_1_writes (by decide : main_arg7 ∉ hostOps2_1_W)).trans <| (StableHlo.after_of_writes_sub hostOps2 _ hostOps2_writes (by decide : main_arg7 ∉ hostOps2_W)).trans <| (Yout1_of (Y3 m) c main_arg7 (by decide)).trans <| (StableHlo.after_of_writes_sub hostOps1 _ hostOps1_writes (by decide : main_arg7 ∉ hostOps1_W)).trans <| (Yout0_of (Y1 m) c main_arg7 (by decide)).trans <| (StableHlo.after_of_writes_sub hostOps0 _ hostOps0_writes (by decide : main_arg7 ∉ hostOps0_W))).trans rfl
theorem keep_arg7_11 : Y11 m c (Proc.devRef .tc main_arg7) = m ((c : Thread nD τ).loc main_arg7) :=
  ((StableHlo.after_of_writes_sub hostOps3_2 _ hostOps3_2_writes (by decide : main_arg7 ∉ hostOps3_2_W)).trans <| (StableHlo.after_of_writes_sub hostOps3_1 _ hostOps3_1_writes (by decide : main_arg7 ∉ hostOps3_1_W)).trans <| (StableHlo.after_of_writes_sub hostOps3 _ hostOps3_writes (by decide : main_arg7 ∉ hostOps3_W)).trans <| (Yout2_of (Y7 m) c main_arg7 (by decide)).trans <| (StableHlo.after_of_writes_sub hostOps2_2 _ hostOps2_2_writes (by decide : main_arg7 ∉ hostOps2_2_W)).trans <| (StableHlo.after_of_writes_sub hostOps2_1 _ hostOps2_1_writes (by decide : main_arg7 ∉ hostOps2_1_W)).trans <| (StableHlo.after_of_writes_sub hostOps2 _ hostOps2_writes (by decide : main_arg7 ∉ hostOps2_W)).trans <| (Yout1_of (Y3 m) c main_arg7 (by decide)).trans <| (StableHlo.after_of_writes_sub hostOps1 _ hostOps1_writes (by decide : main_arg7 ∉ hostOps1_W)).trans <| (Yout0_of (Y1 m) c main_arg7 (by decide)).trans <| (StableHlo.after_of_writes_sub hostOps0 _ hostOps0_writes (by decide : main_arg7 ∉ hostOps0_W))).trans rfl
theorem keep_arg8_1 : Y1 m c (Proc.devRef .tc main_arg8) = m ((c : Thread nD τ).loc main_arg8) :=
  ((StableHlo.after_of_writes_sub hostOps0 _ hostOps0_writes (by decide : main_arg8 ∉ hostOps0_W))).trans rfl
theorem keep_arg8_2 : Y2 m c (Proc.devRef .tc main_arg8) = m ((c : Thread nD τ).loc main_arg8) :=
  ((Yout0_of (Y1 m) c main_arg8 (by decide)).trans <| (StableHlo.after_of_writes_sub hostOps0 _ hostOps0_writes (by decide : main_arg8 ∉ hostOps0_W))).trans rfl
theorem keep_arg8_3 : Y3 m c (Proc.devRef .tc main_arg8) = m ((c : Thread nD τ).loc main_arg8) :=
  ((StableHlo.after_of_writes_sub hostOps1 _ hostOps1_writes (by decide : main_arg8 ∉ hostOps1_W)).trans <| (Yout0_of (Y1 m) c main_arg8 (by decide)).trans <| (StableHlo.after_of_writes_sub hostOps0 _ hostOps0_writes (by decide : main_arg8 ∉ hostOps0_W))).trans rfl
theorem keep_arg8_5 : Y5 m c (Proc.devRef .tc main_arg8) = m ((c : Thread nD τ).loc main_arg8) :=
  ((StableHlo.after_of_writes_sub hostOps2 _ hostOps2_writes (by decide : main_arg8 ∉ hostOps2_W)).trans <| (Yout1_of (Y3 m) c main_arg8 (by decide)).trans <| (StableHlo.after_of_writes_sub hostOps1 _ hostOps1_writes (by decide : main_arg8 ∉ hostOps1_W)).trans <| (Yout0_of (Y1 m) c main_arg8 (by decide)).trans <| (StableHlo.after_of_writes_sub hostOps0 _ hostOps0_writes (by decide : main_arg8 ∉ hostOps0_W))).trans rfl
theorem keep_arg8_6 : Y6 m c (Proc.devRef .tc main_arg8) = m ((c : Thread nD τ).loc main_arg8) :=
  ((StableHlo.after_of_writes_sub hostOps2_1 _ hostOps2_1_writes (by decide : main_arg8 ∉ hostOps2_1_W)).trans <| (StableHlo.after_of_writes_sub hostOps2 _ hostOps2_writes (by decide : main_arg8 ∉ hostOps2_W)).trans <| (Yout1_of (Y3 m) c main_arg8 (by decide)).trans <| (StableHlo.after_of_writes_sub hostOps1 _ hostOps1_writes (by decide : main_arg8 ∉ hostOps1_W)).trans <| (Yout0_of (Y1 m) c main_arg8 (by decide)).trans <| (StableHlo.after_of_writes_sub hostOps0 _ hostOps0_writes (by decide : main_arg8 ∉ hostOps0_W))).trans rfl
theorem keep_arg8_10 : Y10 m c (Proc.devRef .tc main_arg8) = m ((c : Thread nD τ).loc main_arg8) :=
  ((StableHlo.after_of_writes_sub hostOps3_1 _ hostOps3_1_writes (by decide : main_arg8 ∉ hostOps3_1_W)).trans <| (StableHlo.after_of_writes_sub hostOps3 _ hostOps3_writes (by decide : main_arg8 ∉ hostOps3_W)).trans <| (Yout2_of (Y7 m) c main_arg8 (by decide)).trans <| (StableHlo.after_of_writes_sub hostOps2_2 _ hostOps2_2_writes (by decide : main_arg8 ∉ hostOps2_2_W)).trans <| (StableHlo.after_of_writes_sub hostOps2_1 _ hostOps2_1_writes (by decide : main_arg8 ∉ hostOps2_1_W)).trans <| (StableHlo.after_of_writes_sub hostOps2 _ hostOps2_writes (by decide : main_arg8 ∉ hostOps2_W)).trans <| (Yout1_of (Y3 m) c main_arg8 (by decide)).trans <| (StableHlo.after_of_writes_sub hostOps1 _ hostOps1_writes (by decide : main_arg8 ∉ hostOps1_W)).trans <| (Yout0_of (Y1 m) c main_arg8 (by decide)).trans <| (StableHlo.after_of_writes_sub hostOps0 _ hostOps0_writes (by decide : main_arg8 ∉ hostOps0_W))).trans rfl
theorem keep_arg8_11 : Y11 m c (Proc.devRef .tc main_arg8) = m ((c : Thread nD τ).loc main_arg8) :=
  ((StableHlo.after_of_writes_sub hostOps3_2 _ hostOps3_2_writes (by decide : main_arg8 ∉ hostOps3_2_W)).trans <| (StableHlo.after_of_writes_sub hostOps3_1 _ hostOps3_1_writes (by decide : main_arg8 ∉ hostOps3_1_W)).trans <| (StableHlo.after_of_writes_sub hostOps3 _ hostOps3_writes (by decide : main_arg8 ∉ hostOps3_W)).trans <| (Yout2_of (Y7 m) c main_arg8 (by decide)).trans <| (StableHlo.after_of_writes_sub hostOps2_2 _ hostOps2_2_writes (by decide : main_arg8 ∉ hostOps2_2_W)).trans <| (StableHlo.after_of_writes_sub hostOps2_1 _ hostOps2_1_writes (by decide : main_arg8 ∉ hostOps2_1_W)).trans <| (StableHlo.after_of_writes_sub hostOps2 _ hostOps2_writes (by decide : main_arg8 ∉ hostOps2_W)).trans <| (Yout1_of (Y3 m) c main_arg8 (by decide)).trans <| (StableHlo.after_of_writes_sub hostOps1 _ hostOps1_writes (by decide : main_arg8 ∉ hostOps1_W)).trans <| (Yout0_of (Y1 m) c main_arg8 (by decide)).trans <| (StableHlo.after_of_writes_sub hostOps0 _ hostOps0_writes (by decide : main_arg8 ∉ hostOps0_W))).trans rfl
theorem keep_arg9_1 : Y1 m c (Proc.devRef .tc main_arg9) = m ((c : Thread nD τ).loc main_arg9) :=
  ((StableHlo.after_of_writes_sub hostOps0 _ hostOps0_writes (by decide : main_arg9 ∉ hostOps0_W))).trans rfl
theorem keep_arg9_2 : Y2 m c (Proc.devRef .tc main_arg9) = m ((c : Thread nD τ).loc main_arg9) :=
  ((Yout0_of (Y1 m) c main_arg9 (by decide)).trans <| (StableHlo.after_of_writes_sub hostOps0 _ hostOps0_writes (by decide : main_arg9 ∉ hostOps0_W))).trans rfl
theorem keep_arg9_3 : Y3 m c (Proc.devRef .tc main_arg9) = m ((c : Thread nD τ).loc main_arg9) :=
  ((StableHlo.after_of_writes_sub hostOps1 _ hostOps1_writes (by decide : main_arg9 ∉ hostOps1_W)).trans <| (Yout0_of (Y1 m) c main_arg9 (by decide)).trans <| (StableHlo.after_of_writes_sub hostOps0 _ hostOps0_writes (by decide : main_arg9 ∉ hostOps0_W))).trans rfl
theorem keep_arg9_5 : Y5 m c (Proc.devRef .tc main_arg9) = m ((c : Thread nD τ).loc main_arg9) :=
  ((StableHlo.after_of_writes_sub hostOps2 _ hostOps2_writes (by decide : main_arg9 ∉ hostOps2_W)).trans <| (Yout1_of (Y3 m) c main_arg9 (by decide)).trans <| (StableHlo.after_of_writes_sub hostOps1 _ hostOps1_writes (by decide : main_arg9 ∉ hostOps1_W)).trans <| (Yout0_of (Y1 m) c main_arg9 (by decide)).trans <| (StableHlo.after_of_writes_sub hostOps0 _ hostOps0_writes (by decide : main_arg9 ∉ hostOps0_W))).trans rfl
theorem keep_arg9_6 : Y6 m c (Proc.devRef .tc main_arg9) = m ((c : Thread nD τ).loc main_arg9) :=
  ((StableHlo.after_of_writes_sub hostOps2_1 _ hostOps2_1_writes (by decide : main_arg9 ∉ hostOps2_1_W)).trans <| (StableHlo.after_of_writes_sub hostOps2 _ hostOps2_writes (by decide : main_arg9 ∉ hostOps2_W)).trans <| (Yout1_of (Y3 m) c main_arg9 (by decide)).trans <| (StableHlo.after_of_writes_sub hostOps1 _ hostOps1_writes (by decide : main_arg9 ∉ hostOps1_W)).trans <| (Yout0_of (Y1 m) c main_arg9 (by decide)).trans <| (StableHlo.after_of_writes_sub hostOps0 _ hostOps0_writes (by decide : main_arg9 ∉ hostOps0_W))).trans rfl
theorem keep_arg9_10 : Y10 m c (Proc.devRef .tc main_arg9) = m ((c : Thread nD τ).loc main_arg9) :=
  ((StableHlo.after_of_writes_sub hostOps3_1 _ hostOps3_1_writes (by decide : main_arg9 ∉ hostOps3_1_W)).trans <| (StableHlo.after_of_writes_sub hostOps3 _ hostOps3_writes (by decide : main_arg9 ∉ hostOps3_W)).trans <| (Yout2_of (Y7 m) c main_arg9 (by decide)).trans <| (StableHlo.after_of_writes_sub hostOps2_2 _ hostOps2_2_writes (by decide : main_arg9 ∉ hostOps2_2_W)).trans <| (StableHlo.after_of_writes_sub hostOps2_1 _ hostOps2_1_writes (by decide : main_arg9 ∉ hostOps2_1_W)).trans <| (StableHlo.after_of_writes_sub hostOps2 _ hostOps2_writes (by decide : main_arg9 ∉ hostOps2_W)).trans <| (Yout1_of (Y3 m) c main_arg9 (by decide)).trans <| (StableHlo.after_of_writes_sub hostOps1 _ hostOps1_writes (by decide : main_arg9 ∉ hostOps1_W)).trans <| (Yout0_of (Y1 m) c main_arg9 (by decide)).trans <| (StableHlo.after_of_writes_sub hostOps0 _ hostOps0_writes (by decide : main_arg9 ∉ hostOps0_W))).trans rfl
theorem keep_arg9_11 : Y11 m c (Proc.devRef .tc main_arg9) = m ((c : Thread nD τ).loc main_arg9) :=
  ((StableHlo.after_of_writes_sub hostOps3_2 _ hostOps3_2_writes (by decide : main_arg9 ∉ hostOps3_2_W)).trans <| (StableHlo.after_of_writes_sub hostOps3_1 _ hostOps3_1_writes (by decide : main_arg9 ∉ hostOps3_1_W)).trans <| (StableHlo.after_of_writes_sub hostOps3 _ hostOps3_writes (by decide : main_arg9 ∉ hostOps3_W)).trans <| (Yout2_of (Y7 m) c main_arg9 (by decide)).trans <| (StableHlo.after_of_writes_sub hostOps2_2 _ hostOps2_2_writes (by decide : main_arg9 ∉ hostOps2_2_W)).trans <| (StableHlo.after_of_writes_sub hostOps2_1 _ hostOps2_1_writes (by decide : main_arg9 ∉ hostOps2_1_W)).trans <| (StableHlo.after_of_writes_sub hostOps2 _ hostOps2_writes (by decide : main_arg9 ∉ hostOps2_W)).trans <| (Yout1_of (Y3 m) c main_arg9 (by decide)).trans <| (StableHlo.after_of_writes_sub hostOps1 _ hostOps1_writes (by decide : main_arg9 ∉ hostOps1_W)).trans <| (Yout0_of (Y1 m) c main_arg9 (by decide)).trans <| (StableHlo.after_of_writes_sub hostOps0 _ hostOps0_writes (by decide : main_arg9 ∉ hostOps0_W))).trans rfl
theorem keep_arg10_1 : Y1 m c (Proc.devRef .tc main_arg10) = m ((c : Thread nD τ).loc main_arg10) :=
  ((StableHlo.after_of_writes_sub hostOps0 _ hostOps0_writes (by decide : main_arg10 ∉ hostOps0_W))).trans rfl
theorem keep_arg10_2 : Y2 m c (Proc.devRef .tc main_arg10) = m ((c : Thread nD τ).loc main_arg10) :=
  ((Yout0_of (Y1 m) c main_arg10 (by decide)).trans <| (StableHlo.after_of_writes_sub hostOps0 _ hostOps0_writes (by decide : main_arg10 ∉ hostOps0_W))).trans rfl
theorem keep_arg10_3 : Y3 m c (Proc.devRef .tc main_arg10) = m ((c : Thread nD τ).loc main_arg10) :=
  ((StableHlo.after_of_writes_sub hostOps1 _ hostOps1_writes (by decide : main_arg10 ∉ hostOps1_W)).trans <| (Yout0_of (Y1 m) c main_arg10 (by decide)).trans <| (StableHlo.after_of_writes_sub hostOps0 _ hostOps0_writes (by decide : main_arg10 ∉ hostOps0_W))).trans rfl
theorem keep_arg10_5 : Y5 m c (Proc.devRef .tc main_arg10) = m ((c : Thread nD τ).loc main_arg10) :=
  ((StableHlo.after_of_writes_sub hostOps2 _ hostOps2_writes (by decide : main_arg10 ∉ hostOps2_W)).trans <| (Yout1_of (Y3 m) c main_arg10 (by decide)).trans <| (StableHlo.after_of_writes_sub hostOps1 _ hostOps1_writes (by decide : main_arg10 ∉ hostOps1_W)).trans <| (Yout0_of (Y1 m) c main_arg10 (by decide)).trans <| (StableHlo.after_of_writes_sub hostOps0 _ hostOps0_writes (by decide : main_arg10 ∉ hostOps0_W))).trans rfl
theorem keep_arg10_6 : Y6 m c (Proc.devRef .tc main_arg10) = m ((c : Thread nD τ).loc main_arg10) :=
  ((StableHlo.after_of_writes_sub hostOps2_1 _ hostOps2_1_writes (by decide : main_arg10 ∉ hostOps2_1_W)).trans <| (StableHlo.after_of_writes_sub hostOps2 _ hostOps2_writes (by decide : main_arg10 ∉ hostOps2_W)).trans <| (Yout1_of (Y3 m) c main_arg10 (by decide)).trans <| (StableHlo.after_of_writes_sub hostOps1 _ hostOps1_writes (by decide : main_arg10 ∉ hostOps1_W)).trans <| (Yout0_of (Y1 m) c main_arg10 (by decide)).trans <| (StableHlo.after_of_writes_sub hostOps0 _ hostOps0_writes (by decide : main_arg10 ∉ hostOps0_W))).trans rfl
theorem keep_arg10_10 : Y10 m c (Proc.devRef .tc main_arg10) = m ((c : Thread nD τ).loc main_arg10) :=
  ((StableHlo.after_of_writes_sub hostOps3_1 _ hostOps3_1_writes (by decide : main_arg10 ∉ hostOps3_1_W)).trans <| (StableHlo.after_of_writes_sub hostOps3 _ hostOps3_writes (by decide : main_arg10 ∉ hostOps3_W)).trans <| (Yout2_of (Y7 m) c main_arg10 (by decide)).trans <| (StableHlo.after_of_writes_sub hostOps2_2 _ hostOps2_2_writes (by decide : main_arg10 ∉ hostOps2_2_W)).trans <| (StableHlo.after_of_writes_sub hostOps2_1 _ hostOps2_1_writes (by decide : main_arg10 ∉ hostOps2_1_W)).trans <| (StableHlo.after_of_writes_sub hostOps2 _ hostOps2_writes (by decide : main_arg10 ∉ hostOps2_W)).trans <| (Yout1_of (Y3 m) c main_arg10 (by decide)).trans <| (StableHlo.after_of_writes_sub hostOps1 _ hostOps1_writes (by decide : main_arg10 ∉ hostOps1_W)).trans <| (Yout0_of (Y1 m) c main_arg10 (by decide)).trans <| (StableHlo.after_of_writes_sub hostOps0 _ hostOps0_writes (by decide : main_arg10 ∉ hostOps0_W))).trans rfl
theorem keep_arg10_11 : Y11 m c (Proc.devRef .tc main_arg10) = m ((c : Thread nD τ).loc main_arg10) :=
  ((StableHlo.after_of_writes_sub hostOps3_2 _ hostOps3_2_writes (by decide : main_arg10 ∉ hostOps3_2_W)).trans <| (StableHlo.after_of_writes_sub hostOps3_1 _ hostOps3_1_writes (by decide : main_arg10 ∉ hostOps3_1_W)).trans <| (StableHlo.after_of_writes_sub hostOps3 _ hostOps3_writes (by decide : main_arg10 ∉ hostOps3_W)).trans <| (Yout2_of (Y7 m) c main_arg10 (by decide)).trans <| (StableHlo.after_of_writes_sub hostOps2_2 _ hostOps2_2_writes (by decide : main_arg10 ∉ hostOps2_2_W)).trans <| (StableHlo.after_of_writes_sub hostOps2_1 _ hostOps2_1_writes (by decide : main_arg10 ∉ hostOps2_1_W)).trans <| (StableHlo.after_of_writes_sub hostOps2 _ hostOps2_writes (by decide : main_arg10 ∉ hostOps2_W)).trans <| (Yout1_of (Y3 m) c main_arg10 (by decide)).trans <| (StableHlo.after_of_writes_sub hostOps1 _ hostOps1_writes (by decide : main_arg10 ∉ hostOps1_W)).trans <| (Yout0_of (Y1 m) c main_arg10 (by decide)).trans <| (StableHlo.after_of_writes_sub hostOps0 _ hostOps0_writes (by decide : main_arg10 ∉ hostOps0_W))).trans rfl
theorem keep_arg11_1 : Y1 m c (Proc.devRef .tc main_arg11) = m ((c : Thread nD τ).loc main_arg11) :=
  ((StableHlo.after_of_writes_sub hostOps0 _ hostOps0_writes (by decide : main_arg11 ∉ hostOps0_W))).trans rfl
theorem keep_arg11_2 : Y2 m c (Proc.devRef .tc main_arg11) = m ((c : Thread nD τ).loc main_arg11) :=
  ((Yout0_of (Y1 m) c main_arg11 (by decide)).trans <| (StableHlo.after_of_writes_sub hostOps0 _ hostOps0_writes (by decide : main_arg11 ∉ hostOps0_W))).trans rfl
theorem keep_arg11_3 : Y3 m c (Proc.devRef .tc main_arg11) = m ((c : Thread nD τ).loc main_arg11) :=
  ((StableHlo.after_of_writes_sub hostOps1 _ hostOps1_writes (by decide : main_arg11 ∉ hostOps1_W)).trans <| (Yout0_of (Y1 m) c main_arg11 (by decide)).trans <| (StableHlo.after_of_writes_sub hostOps0 _ hostOps0_writes (by decide : main_arg11 ∉ hostOps0_W))).trans rfl
theorem keep_arg11_5 : Y5 m c (Proc.devRef .tc main_arg11) = m ((c : Thread nD τ).loc main_arg11) :=
  ((StableHlo.after_of_writes_sub hostOps2 _ hostOps2_writes (by decide : main_arg11 ∉ hostOps2_W)).trans <| (Yout1_of (Y3 m) c main_arg11 (by decide)).trans <| (StableHlo.after_of_writes_sub hostOps1 _ hostOps1_writes (by decide : main_arg11 ∉ hostOps1_W)).trans <| (Yout0_of (Y1 m) c main_arg11 (by decide)).trans <| (StableHlo.after_of_writes_sub hostOps0 _ hostOps0_writes (by decide : main_arg11 ∉ hostOps0_W))).trans rfl
theorem keep_arg11_6 : Y6 m c (Proc.devRef .tc main_arg11) = m ((c : Thread nD τ).loc main_arg11) :=
  ((StableHlo.after_of_writes_sub hostOps2_1 _ hostOps2_1_writes (by decide : main_arg11 ∉ hostOps2_1_W)).trans <| (StableHlo.after_of_writes_sub hostOps2 _ hostOps2_writes (by decide : main_arg11 ∉ hostOps2_W)).trans <| (Yout1_of (Y3 m) c main_arg11 (by decide)).trans <| (StableHlo.after_of_writes_sub hostOps1 _ hostOps1_writes (by decide : main_arg11 ∉ hostOps1_W)).trans <| (Yout0_of (Y1 m) c main_arg11 (by decide)).trans <| (StableHlo.after_of_writes_sub hostOps0 _ hostOps0_writes (by decide : main_arg11 ∉ hostOps0_W))).trans rfl
theorem keep_arg11_10 : Y10 m c (Proc.devRef .tc main_arg11) = m ((c : Thread nD τ).loc main_arg11) :=
  ((StableHlo.after_of_writes_sub hostOps3_1 _ hostOps3_1_writes (by decide : main_arg11 ∉ hostOps3_1_W)).trans <| (StableHlo.after_of_writes_sub hostOps3 _ hostOps3_writes (by decide : main_arg11 ∉ hostOps3_W)).trans <| (Yout2_of (Y7 m) c main_arg11 (by decide)).trans <| (StableHlo.after_of_writes_sub hostOps2_2 _ hostOps2_2_writes (by decide : main_arg11 ∉ hostOps2_2_W)).trans <| (StableHlo.after_of_writes_sub hostOps2_1 _ hostOps2_1_writes (by decide : main_arg11 ∉ hostOps2_1_W)).trans <| (StableHlo.after_of_writes_sub hostOps2 _ hostOps2_writes (by decide : main_arg11 ∉ hostOps2_W)).trans <| (Yout1_of (Y3 m) c main_arg11 (by decide)).trans <| (StableHlo.after_of_writes_sub hostOps1 _ hostOps1_writes (by decide : main_arg11 ∉ hostOps1_W)).trans <| (Yout0_of (Y1 m) c main_arg11 (by decide)).trans <| (StableHlo.after_of_writes_sub hostOps0 _ hostOps0_writes (by decide : main_arg11 ∉ hostOps0_W))).trans rfl
theorem keep_arg11_11 : Y11 m c (Proc.devRef .tc main_arg11) = m ((c : Thread nD τ).loc main_arg11) :=
  ((StableHlo.after_of_writes_sub hostOps3_2 _ hostOps3_2_writes (by decide : main_arg11 ∉ hostOps3_2_W)).trans <| (StableHlo.after_of_writes_sub hostOps3_1 _ hostOps3_1_writes (by decide : main_arg11 ∉ hostOps3_1_W)).trans <| (StableHlo.after_of_writes_sub hostOps3 _ hostOps3_writes (by decide : main_arg11 ∉ hostOps3_W)).trans <| (Yout2_of (Y7 m) c main_arg11 (by decide)).trans <| (StableHlo.after_of_writes_sub hostOps2_2 _ hostOps2_2_writes (by decide : main_arg11 ∉ hostOps2_2_W)).trans <| (StableHlo.after_of_writes_sub hostOps2_1 _ hostOps2_1_writes (by decide : main_arg11 ∉ hostOps2_1_W)).trans <| (StableHlo.after_of_writes_sub hostOps2 _ hostOps2_writes (by decide : main_arg11 ∉ hostOps2_W)).trans <| (Yout1_of (Y3 m) c main_arg11 (by decide)).trans <| (StableHlo.after_of_writes_sub hostOps1 _ hostOps1_writes (by decide : main_arg11 ∉ hostOps1_W)).trans <| (Yout0_of (Y1 m) c main_arg11 (by decide)).trans <| (StableHlo.after_of_writes_sub hostOps0 _ hostOps0_writes (by decide : main_arg11 ∉ hostOps0_W))).trans rfl
theorem keep_arg12_1 : Y1 m c (Proc.devRef .tc main_arg12) = m ((c : Thread nD τ).loc main_arg12) :=
  ((StableHlo.after_of_writes_sub hostOps0 _ hostOps0_writes (by decide : main_arg12 ∉ hostOps0_W))).trans rfl
theorem keep_arg12_2 : Y2 m c (Proc.devRef .tc main_arg12) = m ((c : Thread nD τ).loc main_arg12) :=
  ((Yout0_of (Y1 m) c main_arg12 (by decide)).trans <| (StableHlo.after_of_writes_sub hostOps0 _ hostOps0_writes (by decide : main_arg12 ∉ hostOps0_W))).trans rfl
theorem keep_arg12_3 : Y3 m c (Proc.devRef .tc main_arg12) = m ((c : Thread nD τ).loc main_arg12) :=
  ((StableHlo.after_of_writes_sub hostOps1 _ hostOps1_writes (by decide : main_arg12 ∉ hostOps1_W)).trans <| (Yout0_of (Y1 m) c main_arg12 (by decide)).trans <| (StableHlo.after_of_writes_sub hostOps0 _ hostOps0_writes (by decide : main_arg12 ∉ hostOps0_W))).trans rfl
theorem keep_arg12_5 : Y5 m c (Proc.devRef .tc main_arg12) = m ((c : Thread nD τ).loc main_arg12) :=
  ((StableHlo.after_of_writes_sub hostOps2 _ hostOps2_writes (by decide : main_arg12 ∉ hostOps2_W)).trans <| (Yout1_of (Y3 m) c main_arg12 (by decide)).trans <| (StableHlo.after_of_writes_sub hostOps1 _ hostOps1_writes (by decide : main_arg12 ∉ hostOps1_W)).trans <| (Yout0_of (Y1 m) c main_arg12 (by decide)).trans <| (StableHlo.after_of_writes_sub hostOps0 _ hostOps0_writes (by decide : main_arg12 ∉ hostOps0_W))).trans rfl
theorem keep_arg12_6 : Y6 m c (Proc.devRef .tc main_arg12) = m ((c : Thread nD τ).loc main_arg12) :=
  ((StableHlo.after_of_writes_sub hostOps2_1 _ hostOps2_1_writes (by decide : main_arg12 ∉ hostOps2_1_W)).trans <| (StableHlo.after_of_writes_sub hostOps2 _ hostOps2_writes (by decide : main_arg12 ∉ hostOps2_W)).trans <| (Yout1_of (Y3 m) c main_arg12 (by decide)).trans <| (StableHlo.after_of_writes_sub hostOps1 _ hostOps1_writes (by decide : main_arg12 ∉ hostOps1_W)).trans <| (Yout0_of (Y1 m) c main_arg12 (by decide)).trans <| (StableHlo.after_of_writes_sub hostOps0 _ hostOps0_writes (by decide : main_arg12 ∉ hostOps0_W))).trans rfl
theorem keep_arg12_10 : Y10 m c (Proc.devRef .tc main_arg12) = m ((c : Thread nD τ).loc main_arg12) :=
  ((StableHlo.after_of_writes_sub hostOps3_1 _ hostOps3_1_writes (by decide : main_arg12 ∉ hostOps3_1_W)).trans <| (StableHlo.after_of_writes_sub hostOps3 _ hostOps3_writes (by decide : main_arg12 ∉ hostOps3_W)).trans <| (Yout2_of (Y7 m) c main_arg12 (by decide)).trans <| (StableHlo.after_of_writes_sub hostOps2_2 _ hostOps2_2_writes (by decide : main_arg12 ∉ hostOps2_2_W)).trans <| (StableHlo.after_of_writes_sub hostOps2_1 _ hostOps2_1_writes (by decide : main_arg12 ∉ hostOps2_1_W)).trans <| (StableHlo.after_of_writes_sub hostOps2 _ hostOps2_writes (by decide : main_arg12 ∉ hostOps2_W)).trans <| (Yout1_of (Y3 m) c main_arg12 (by decide)).trans <| (StableHlo.after_of_writes_sub hostOps1 _ hostOps1_writes (by decide : main_arg12 ∉ hostOps1_W)).trans <| (Yout0_of (Y1 m) c main_arg12 (by decide)).trans <| (StableHlo.after_of_writes_sub hostOps0 _ hostOps0_writes (by decide : main_arg12 ∉ hostOps0_W))).trans rfl
theorem keep_arg12_11 : Y11 m c (Proc.devRef .tc main_arg12) = m ((c : Thread nD τ).loc main_arg12) :=
  ((StableHlo.after_of_writes_sub hostOps3_2 _ hostOps3_2_writes (by decide : main_arg12 ∉ hostOps3_2_W)).trans <| (StableHlo.after_of_writes_sub hostOps3_1 _ hostOps3_1_writes (by decide : main_arg12 ∉ hostOps3_1_W)).trans <| (StableHlo.after_of_writes_sub hostOps3 _ hostOps3_writes (by decide : main_arg12 ∉ hostOps3_W)).trans <| (Yout2_of (Y7 m) c main_arg12 (by decide)).trans <| (StableHlo.after_of_writes_sub hostOps2_2 _ hostOps2_2_writes (by decide : main_arg12 ∉ hostOps2_2_W)).trans <| (StableHlo.after_of_writes_sub hostOps2_1 _ hostOps2_1_writes (by decide : main_arg12 ∉ hostOps2_1_W)).trans <| (StableHlo.after_of_writes_sub hostOps2 _ hostOps2_writes (by decide : main_arg12 ∉ hostOps2_W)).trans <| (Yout1_of (Y3 m) c main_arg12 (by decide)).trans <| (StableHlo.after_of_writes_sub hostOps1 _ hostOps1_writes (by decide : main_arg12 ∉ hostOps1_W)).trans <| (Yout0_of (Y1 m) c main_arg12 (by decide)).trans <| (StableHlo.after_of_writes_sub hostOps0 _ hostOps0_writes (by decide : main_arg12 ∉ hostOps0_W))).trans rfl
theorem keep_arg13_1 : Y1 m c (Proc.devRef .tc main_arg13) = m ((c : Thread nD τ).loc main_arg13) :=
  ((StableHlo.after_of_writes_sub hostOps0 _ hostOps0_writes (by decide : main_arg13 ∉ hostOps0_W))).trans rfl
theorem keep_arg13_2 : Y2 m c (Proc.devRef .tc main_arg13) = m ((c : Thread nD τ).loc main_arg13) :=
  ((Yout0_of (Y1 m) c main_arg13 (by decide)).trans <| (StableHlo.after_of_writes_sub hostOps0 _ hostOps0_writes (by decide : main_arg13 ∉ hostOps0_W))).trans rfl
theorem keep_arg13_3 : Y3 m c (Proc.devRef .tc main_arg13) = m ((c : Thread nD τ).loc main_arg13) :=
  ((StableHlo.after_of_writes_sub hostOps1 _ hostOps1_writes (by decide : main_arg13 ∉ hostOps1_W)).trans <| (Yout0_of (Y1 m) c main_arg13 (by decide)).trans <| (StableHlo.after_of_writes_sub hostOps0 _ hostOps0_writes (by decide : main_arg13 ∉ hostOps0_W))).trans rfl
theorem keep_arg13_5 : Y5 m c (Proc.devRef .tc main_arg13) = m ((c : Thread nD τ).loc main_arg13) :=
  ((StableHlo.after_of_writes_sub hostOps2 _ hostOps2_writes (by decide : main_arg13 ∉ hostOps2_W)).trans <| (Yout1_of (Y3 m) c main_arg13 (by decide)).trans <| (StableHlo.after_of_writes_sub hostOps1 _ hostOps1_writes (by decide : main_arg13 ∉ hostOps1_W)).trans <| (Yout0_of (Y1 m) c main_arg13 (by decide)).trans <| (StableHlo.after_of_writes_sub hostOps0 _ hostOps0_writes (by decide : main_arg13 ∉ hostOps0_W))).trans rfl
theorem keep_arg13_6 : Y6 m c (Proc.devRef .tc main_arg13) = m ((c : Thread nD τ).loc main_arg13) :=
  ((StableHlo.after_of_writes_sub hostOps2_1 _ hostOps2_1_writes (by decide : main_arg13 ∉ hostOps2_1_W)).trans <| (StableHlo.after_of_writes_sub hostOps2 _ hostOps2_writes (by decide : main_arg13 ∉ hostOps2_W)).trans <| (Yout1_of (Y3 m) c main_arg13 (by decide)).trans <| (StableHlo.after_of_writes_sub hostOps1 _ hostOps1_writes (by decide : main_arg13 ∉ hostOps1_W)).trans <| (Yout0_of (Y1 m) c main_arg13 (by decide)).trans <| (StableHlo.after_of_writes_sub hostOps0 _ hostOps0_writes (by decide : main_arg13 ∉ hostOps0_W))).trans rfl
theorem keep_arg13_10 : Y10 m c (Proc.devRef .tc main_arg13) = m ((c : Thread nD τ).loc main_arg13) :=
  ((StableHlo.after_of_writes_sub hostOps3_1 _ hostOps3_1_writes (by decide : main_arg13 ∉ hostOps3_1_W)).trans <| (StableHlo.after_of_writes_sub hostOps3 _ hostOps3_writes (by decide : main_arg13 ∉ hostOps3_W)).trans <| (Yout2_of (Y7 m) c main_arg13 (by decide)).trans <| (StableHlo.after_of_writes_sub hostOps2_2 _ hostOps2_2_writes (by decide : main_arg13 ∉ hostOps2_2_W)).trans <| (StableHlo.after_of_writes_sub hostOps2_1 _ hostOps2_1_writes (by decide : main_arg13 ∉ hostOps2_1_W)).trans <| (StableHlo.after_of_writes_sub hostOps2 _ hostOps2_writes (by decide : main_arg13 ∉ hostOps2_W)).trans <| (Yout1_of (Y3 m) c main_arg13 (by decide)).trans <| (StableHlo.after_of_writes_sub hostOps1 _ hostOps1_writes (by decide : main_arg13 ∉ hostOps1_W)).trans <| (Yout0_of (Y1 m) c main_arg13 (by decide)).trans <| (StableHlo.after_of_writes_sub hostOps0 _ hostOps0_writes (by decide : main_arg13 ∉ hostOps0_W))).trans rfl
theorem keep_arg13_11 : Y11 m c (Proc.devRef .tc main_arg13) = m ((c : Thread nD τ).loc main_arg13) :=
  ((StableHlo.after_of_writes_sub hostOps3_2 _ hostOps3_2_writes (by decide : main_arg13 ∉ hostOps3_2_W)).trans <| (StableHlo.after_of_writes_sub hostOps3_1 _ hostOps3_1_writes (by decide : main_arg13 ∉ hostOps3_1_W)).trans <| (StableHlo.after_of_writes_sub hostOps3 _ hostOps3_writes (by decide : main_arg13 ∉ hostOps3_W)).trans <| (Yout2_of (Y7 m) c main_arg13 (by decide)).trans <| (StableHlo.after_of_writes_sub hostOps2_2 _ hostOps2_2_writes (by decide : main_arg13 ∉ hostOps2_2_W)).trans <| (StableHlo.after_of_writes_sub hostOps2_1 _ hostOps2_1_writes (by decide : main_arg13 ∉ hostOps2_1_W)).trans <| (StableHlo.after_of_writes_sub hostOps2 _ hostOps2_writes (by decide : main_arg13 ∉ hostOps2_W)).trans <| (Yout1_of (Y3 m) c main_arg13 (by decide)).trans <| (StableHlo.after_of_writes_sub hostOps1 _ hostOps1_writes (by decide : main_arg13 ∉ hostOps1_W)).trans <| (Yout0_of (Y1 m) c main_arg13 (by decide)).trans <| (StableHlo.after_of_writes_sub hostOps0 _ hostOps0_writes (by decide : main_arg13 ∉ hostOps0_W))).trans rfl
theorem keep_arg14_1 : Y1 m c (Proc.devRef .tc main_arg14) = m ((c : Thread nD τ).loc main_arg14) :=
  ((StableHlo.after_of_writes_sub hostOps0 _ hostOps0_writes (by decide : main_arg14 ∉ hostOps0_W))).trans rfl
theorem keep_arg14_2 : Y2 m c (Proc.devRef .tc main_arg14) = m ((c : Thread nD τ).loc main_arg14) :=
  ((Yout0_of (Y1 m) c main_arg14 (by decide)).trans <| (StableHlo.after_of_writes_sub hostOps0 _ hostOps0_writes (by decide : main_arg14 ∉ hostOps0_W))).trans rfl
theorem keep_arg14_3 : Y3 m c (Proc.devRef .tc main_arg14) = m ((c : Thread nD τ).loc main_arg14) :=
  ((StableHlo.after_of_writes_sub hostOps1 _ hostOps1_writes (by decide : main_arg14 ∉ hostOps1_W)).trans <| (Yout0_of (Y1 m) c main_arg14 (by decide)).trans <| (StableHlo.after_of_writes_sub hostOps0 _ hostOps0_writes (by decide : main_arg14 ∉ hostOps0_W))).trans rfl
theorem keep_arg14_5 : Y5 m c (Proc.devRef .tc main_arg14) = m ((c : Thread nD τ).loc main_arg14) :=
  ((StableHlo.after_of_writes_sub hostOps2 _ hostOps2_writes (by decide : main_arg14 ∉ hostOps2_W)).trans <| (Yout1_of (Y3 m) c main_arg14 (by decide)).trans <| (StableHlo.after_of_writes_sub hostOps1 _ hostOps1_writes (by decide : main_arg14 ∉ hostOps1_W)).trans <| (Yout0_of (Y1 m) c main_arg14 (by decide)).trans <| (StableHlo.after_of_writes_sub hostOps0 _ hostOps0_writes (by decide : main_arg14 ∉ hostOps0_W))).trans rfl
theorem keep_arg14_6 : Y6 m c (Proc.devRef .tc main_arg14) = m ((c : Thread nD τ).loc main_arg14) :=
  ((StableHlo.after_of_writes_sub hostOps2_1 _ hostOps2_1_writes (by decide : main_arg14 ∉ hostOps2_1_W)).trans <| (StableHlo.after_of_writes_sub hostOps2 _ hostOps2_writes (by decide : main_arg14 ∉ hostOps2_W)).trans <| (Yout1_of (Y3 m) c main_arg14 (by decide)).trans <| (StableHlo.after_of_writes_sub hostOps1 _ hostOps1_writes (by decide : main_arg14 ∉ hostOps1_W)).trans <| (Yout0_of (Y1 m) c main_arg14 (by decide)).trans <| (StableHlo.after_of_writes_sub hostOps0 _ hostOps0_writes (by decide : main_arg14 ∉ hostOps0_W))).trans rfl
theorem keep_arg14_10 : Y10 m c (Proc.devRef .tc main_arg14) = m ((c : Thread nD τ).loc main_arg14) :=
  ((StableHlo.after_of_writes_sub hostOps3_1 _ hostOps3_1_writes (by decide : main_arg14 ∉ hostOps3_1_W)).trans <| (StableHlo.after_of_writes_sub hostOps3 _ hostOps3_writes (by decide : main_arg14 ∉ hostOps3_W)).trans <| (Yout2_of (Y7 m) c main_arg14 (by decide)).trans <| (StableHlo.after_of_writes_sub hostOps2_2 _ hostOps2_2_writes (by decide : main_arg14 ∉ hostOps2_2_W)).trans <| (StableHlo.after_of_writes_sub hostOps2_1 _ hostOps2_1_writes (by decide : main_arg14 ∉ hostOps2_1_W)).trans <| (StableHlo.after_of_writes_sub hostOps2 _ hostOps2_writes (by decide : main_arg14 ∉ hostOps2_W)).trans <| (Yout1_of (Y3 m) c main_arg14 (by decide)).trans <| (StableHlo.after_of_writes_sub hostOps1 _ hostOps1_writes (by decide : main_arg14 ∉ hostOps1_W)).trans <| (Yout0_of (Y1 m) c main_arg14 (by decide)).trans <| (StableHlo.after_of_writes_sub hostOps0 _ hostOps0_writes (by decide : main_arg14 ∉ hostOps0_W))).trans rfl
theorem keep_arg14_11 : Y11 m c (Proc.devRef .tc main_arg14) = m ((c : Thread nD τ).loc main_arg14) :=
  ((StableHlo.after_of_writes_sub hostOps3_2 _ hostOps3_2_writes (by decide : main_arg14 ∉ hostOps3_2_W)).trans <| (StableHlo.after_of_writes_sub hostOps3_1 _ hostOps3_1_writes (by decide : main_arg14 ∉ hostOps3_1_W)).trans <| (StableHlo.after_of_writes_sub hostOps3 _ hostOps3_writes (by decide : main_arg14 ∉ hostOps3_W)).trans <| (Yout2_of (Y7 m) c main_arg14 (by decide)).trans <| (StableHlo.after_of_writes_sub hostOps2_2 _ hostOps2_2_writes (by decide : main_arg14 ∉ hostOps2_2_W)).trans <| (StableHlo.after_of_writes_sub hostOps2_1 _ hostOps2_1_writes (by decide : main_arg14 ∉ hostOps2_1_W)).trans <| (StableHlo.after_of_writes_sub hostOps2 _ hostOps2_writes (by decide : main_arg14 ∉ hostOps2_W)).trans <| (Yout1_of (Y3 m) c main_arg14 (by decide)).trans <| (StableHlo.after_of_writes_sub hostOps1 _ hostOps1_writes (by decide : main_arg14 ∉ hostOps1_W)).trans <| (Yout0_of (Y1 m) c main_arg14 (by decide)).trans <| (StableHlo.after_of_writes_sub hostOps0 _ hostOps0_writes (by decide : main_arg14 ∉ hostOps0_W))).trans rfl
theorem keep_arg15_1 : Y1 m c (Proc.devRef .tc main_arg15) = m ((c : Thread nD τ).loc main_arg15) :=
  ((StableHlo.after_of_writes_sub hostOps0 _ hostOps0_writes (by decide : main_arg15 ∉ hostOps0_W))).trans rfl
theorem keep_arg15_2 : Y2 m c (Proc.devRef .tc main_arg15) = m ((c : Thread nD τ).loc main_arg15) :=
  ((Yout0_of (Y1 m) c main_arg15 (by decide)).trans <| (StableHlo.after_of_writes_sub hostOps0 _ hostOps0_writes (by decide : main_arg15 ∉ hostOps0_W))).trans rfl
theorem keep_arg15_3 : Y3 m c (Proc.devRef .tc main_arg15) = m ((c : Thread nD τ).loc main_arg15) :=
  ((StableHlo.after_of_writes_sub hostOps1 _ hostOps1_writes (by decide : main_arg15 ∉ hostOps1_W)).trans <| (Yout0_of (Y1 m) c main_arg15 (by decide)).trans <| (StableHlo.after_of_writes_sub hostOps0 _ hostOps0_writes (by decide : main_arg15 ∉ hostOps0_W))).trans rfl
theorem keep_arg15_5 : Y5 m c (Proc.devRef .tc main_arg15) = m ((c : Thread nD τ).loc main_arg15) :=
  ((StableHlo.after_of_writes_sub hostOps2 _ hostOps2_writes (by decide : main_arg15 ∉ hostOps2_W)).trans <| (Yout1_of (Y3 m) c main_arg15 (by decide)).trans <| (StableHlo.after_of_writes_sub hostOps1 _ hostOps1_writes (by decide : main_arg15 ∉ hostOps1_W)).trans <| (Yout0_of (Y1 m) c main_arg15 (by decide)).trans <| (StableHlo.after_of_writes_sub hostOps0 _ hostOps0_writes (by decide : main_arg15 ∉ hostOps0_W))).trans rfl
theorem keep_arg15_6 : Y6 m c (Proc.devRef .tc main_arg15) = m ((c : Thread nD τ).loc main_arg15) :=
  ((StableHlo.after_of_writes_sub hostOps2_1 _ hostOps2_1_writes (by decide : main_arg15 ∉ hostOps2_1_W)).trans <| (StableHlo.after_of_writes_sub hostOps2 _ hostOps2_writes (by decide : main_arg15 ∉ hostOps2_W)).trans <| (Yout1_of (Y3 m) c main_arg15 (by decide)).trans <| (StableHlo.after_of_writes_sub hostOps1 _ hostOps1_writes (by decide : main_arg15 ∉ hostOps1_W)).trans <| (Yout0_of (Y1 m) c main_arg15 (by decide)).trans <| (StableHlo.after_of_writes_sub hostOps0 _ hostOps0_writes (by decide : main_arg15 ∉ hostOps0_W))).trans rfl
theorem keep_arg15_10 : Y10 m c (Proc.devRef .tc main_arg15) = m ((c : Thread nD τ).loc main_arg15) :=
  ((StableHlo.after_of_writes_sub hostOps3_1 _ hostOps3_1_writes (by decide : main_arg15 ∉ hostOps3_1_W)).trans <| (StableHlo.after_of_writes_sub hostOps3 _ hostOps3_writes (by decide : main_arg15 ∉ hostOps3_W)).trans <| (Yout2_of (Y7 m) c main_arg15 (by decide)).trans <| (StableHlo.after_of_writes_sub hostOps2_2 _ hostOps2_2_writes (by decide : main_arg15 ∉ hostOps2_2_W)).trans <| (StableHlo.after_of_writes_sub hostOps2_1 _ hostOps2_1_writes (by decide : main_arg15 ∉ hostOps2_1_W)).trans <| (StableHlo.after_of_writes_sub hostOps2 _ hostOps2_writes (by decide : main_arg15 ∉ hostOps2_W)).trans <| (Yout1_of (Y3 m) c main_arg15 (by decide)).trans <| (StableHlo.after_of_writes_sub hostOps1 _ hostOps1_writes (by decide : main_arg15 ∉ hostOps1_W)).trans <| (Yout0_of (Y1 m) c main_arg15 (by decide)).trans <| (StableHlo.after_of_writes_sub hostOps0 _ hostOps0_writes (by decide : main_arg15 ∉ hostOps0_W))).trans rfl
theorem keep_arg15_11 : Y11 m c (Proc.devRef .tc main_arg15) = m ((c : Thread nD τ).loc main_arg15) :=
  ((StableHlo.after_of_writes_sub hostOps3_2 _ hostOps3_2_writes (by decide : main_arg15 ∉ hostOps3_2_W)).trans <| (StableHlo.after_of_writes_sub hostOps3_1 _ hostOps3_1_writes (by decide : main_arg15 ∉ hostOps3_1_W)).trans <| (StableHlo.after_of_writes_sub hostOps3 _ hostOps3_writes (by decide : main_arg15 ∉ hostOps3_W)).trans <| (Yout2_of (Y7 m) c main_arg15 (by decide)).trans <| (StableHlo.after_of_writes_sub hostOps2_2 _ hostOps2_2_writes (by decide : main_arg15 ∉ hostOps2_2_W)).trans <| (StableHlo.after_of_writes_sub hostOps2_1 _ hostOps2_1_writes (by decide : main_arg15 ∉ hostOps2_1_W)).trans <| (StableHlo.after_of_writes_sub hostOps2 _ hostOps2_writes (by decide : main_arg15 ∉ hostOps2_W)).trans <| (Yout1_of (Y3 m) c main_arg15 (by decide)).trans <| (StableHlo.after_of_writes_sub hostOps1 _ hostOps1_writes (by decide : main_arg15 ∉ hostOps1_W)).trans <| (Yout0_of (Y1 m) c main_arg15 (by decide)).trans <| (StableHlo.after_of_writes_sub hostOps0 _ hostOps0_writes (by decide : main_arg15 ∉ hostOps0_W))).trans rfl
theorem keep_arg16_1 : Y1 m c (Proc.devRef .tc main_arg16) = m ((c : Thread nD τ).loc main_arg16) :=
  ((StableHlo.after_of_writes_sub hostOps0 _ hostOps0_writes (by decide : main_arg16 ∉ hostOps0_W))).trans rfl
theorem keep_arg16_2 : Y2 m c (Proc.devRef .tc main_arg16) = m ((c : Thread nD τ).loc main_arg16) :=
  ((Yout0_of (Y1 m) c main_arg16 (by decide)).trans <| (StableHlo.after_of_writes_sub hostOps0 _ hostOps0_writes (by decide : main_arg16 ∉ hostOps0_W))).trans rfl
theorem keep_arg16_3 : Y3 m c (Proc.devRef .tc main_arg16) = m ((c : Thread nD τ).loc main_arg16) :=
  ((StableHlo.after_of_writes_sub hostOps1 _ hostOps1_writes (by decide : main_arg16 ∉ hostOps1_W)).trans <| (Yout0_of (Y1 m) c main_arg16 (by decide)).trans <| (StableHlo.after_of_writes_sub hostOps0 _ hostOps0_writes (by decide : main_arg16 ∉ hostOps0_W))).trans rfl
theorem keep_arg16_5 : Y5 m c (Proc.devRef .tc main_arg16) = m ((c : Thread nD τ).loc main_arg16) :=
  ((StableHlo.after_of_writes_sub hostOps2 _ hostOps2_writes (by decide : main_arg16 ∉ hostOps2_W)).trans <| (Yout1_of (Y3 m) c main_arg16 (by decide)).trans <| (StableHlo.after_of_writes_sub hostOps1 _ hostOps1_writes (by decide : main_arg16 ∉ hostOps1_W)).trans <| (Yout0_of (Y1 m) c main_arg16 (by decide)).trans <| (StableHlo.after_of_writes_sub hostOps0 _ hostOps0_writes (by decide : main_arg16 ∉ hostOps0_W))).trans rfl
theorem keep_arg16_6 : Y6 m c (Proc.devRef .tc main_arg16) = m ((c : Thread nD τ).loc main_arg16) :=
  ((StableHlo.after_of_writes_sub hostOps2_1 _ hostOps2_1_writes (by decide : main_arg16 ∉ hostOps2_1_W)).trans <| (StableHlo.after_of_writes_sub hostOps2 _ hostOps2_writes (by decide : main_arg16 ∉ hostOps2_W)).trans <| (Yout1_of (Y3 m) c main_arg16 (by decide)).trans <| (StableHlo.after_of_writes_sub hostOps1 _ hostOps1_writes (by decide : main_arg16 ∉ hostOps1_W)).trans <| (Yout0_of (Y1 m) c main_arg16 (by decide)).trans <| (StableHlo.after_of_writes_sub hostOps0 _ hostOps0_writes (by decide : main_arg16 ∉ hostOps0_W))).trans rfl
theorem keep_arg16_10 : Y10 m c (Proc.devRef .tc main_arg16) = m ((c : Thread nD τ).loc main_arg16) :=
  ((StableHlo.after_of_writes_sub hostOps3_1 _ hostOps3_1_writes (by decide : main_arg16 ∉ hostOps3_1_W)).trans <| (StableHlo.after_of_writes_sub hostOps3 _ hostOps3_writes (by decide : main_arg16 ∉ hostOps3_W)).trans <| (Yout2_of (Y7 m) c main_arg16 (by decide)).trans <| (StableHlo.after_of_writes_sub hostOps2_2 _ hostOps2_2_writes (by decide : main_arg16 ∉ hostOps2_2_W)).trans <| (StableHlo.after_of_writes_sub hostOps2_1 _ hostOps2_1_writes (by decide : main_arg16 ∉ hostOps2_1_W)).trans <| (StableHlo.after_of_writes_sub hostOps2 _ hostOps2_writes (by decide : main_arg16 ∉ hostOps2_W)).trans <| (Yout1_of (Y3 m) c main_arg16 (by decide)).trans <| (StableHlo.after_of_writes_sub hostOps1 _ hostOps1_writes (by decide : main_arg16 ∉ hostOps1_W)).trans <| (Yout0_of (Y1 m) c main_arg16 (by decide)).trans <| (StableHlo.after_of_writes_sub hostOps0 _ hostOps0_writes (by decide : main_arg16 ∉ hostOps0_W))).trans rfl
theorem keep_arg16_11 : Y11 m c (Proc.devRef .tc main_arg16) = m ((c : Thread nD τ).loc main_arg16) :=
  ((StableHlo.after_of_writes_sub hostOps3_2 _ hostOps3_2_writes (by decide : main_arg16 ∉ hostOps3_2_W)).trans <| (StableHlo.after_of_writes_sub hostOps3_1 _ hostOps3_1_writes (by decide : main_arg16 ∉ hostOps3_1_W)).trans <| (StableHlo.after_of_writes_sub hostOps3 _ hostOps3_writes (by decide : main_arg16 ∉ hostOps3_W)).trans <| (Yout2_of (Y7 m) c main_arg16 (by decide)).trans <| (StableHlo.after_of_writes_sub hostOps2_2 _ hostOps2_2_writes (by decide : main_arg16 ∉ hostOps2_2_W)).trans <| (StableHlo.after_of_writes_sub hostOps2_1 _ hostOps2_1_writes (by decide : main_arg16 ∉ hostOps2_1_W)).trans <| (StableHlo.after_of_writes_sub hostOps2 _ hostOps2_writes (by decide : main_arg16 ∉ hostOps2_W)).trans <| (Yout1_of (Y3 m) c main_arg16 (by decide)).trans <| (StableHlo.after_of_writes_sub hostOps1 _ hostOps1_writes (by decide : main_arg16 ∉ hostOps1_W)).trans <| (Yout0_of (Y1 m) c main_arg16 (by decide)).trans <| (StableHlo.after_of_writes_sub hostOps0 _ hostOps0_writes (by decide : main_arg16 ∉ hostOps0_W))).trans rfl
theorem keep_arg17_1 : Y1 m c (Proc.devRef .tc main_arg17) = m ((c : Thread nD τ).loc main_arg17) :=
  ((StableHlo.after_of_writes_sub hostOps0 _ hostOps0_writes (by decide : main_arg17 ∉ hostOps0_W))).trans rfl
theorem keep_arg17_2 : Y2 m c (Proc.devRef .tc main_arg17) = m ((c : Thread nD τ).loc main_arg17) :=
  ((Yout0_of (Y1 m) c main_arg17 (by decide)).trans <| (StableHlo.after_of_writes_sub hostOps0 _ hostOps0_writes (by decide : main_arg17 ∉ hostOps0_W))).trans rfl
theorem keep_arg17_3 : Y3 m c (Proc.devRef .tc main_arg17) = m ((c : Thread nD τ).loc main_arg17) :=
  ((StableHlo.after_of_writes_sub hostOps1 _ hostOps1_writes (by decide : main_arg17 ∉ hostOps1_W)).trans <| (Yout0_of (Y1 m) c main_arg17 (by decide)).trans <| (StableHlo.after_of_writes_sub hostOps0 _ hostOps0_writes (by decide : main_arg17 ∉ hostOps0_W))).trans rfl
theorem keep_arg17_5 : Y5 m c (Proc.devRef .tc main_arg17) = m ((c : Thread nD τ).loc main_arg17) :=
  ((StableHlo.after_of_writes_sub hostOps2 _ hostOps2_writes (by decide : main_arg17 ∉ hostOps2_W)).trans <| (Yout1_of (Y3 m) c main_arg17 (by decide)).trans <| (StableHlo.after_of_writes_sub hostOps1 _ hostOps1_writes (by decide : main_arg17 ∉ hostOps1_W)).trans <| (Yout0_of (Y1 m) c main_arg17 (by decide)).trans <| (StableHlo.after_of_writes_sub hostOps0 _ hostOps0_writes (by decide : main_arg17 ∉ hostOps0_W))).trans rfl
theorem keep_arg17_6 : Y6 m c (Proc.devRef .tc main_arg17) = m ((c : Thread nD τ).loc main_arg17) :=
  ((StableHlo.after_of_writes_sub hostOps2_1 _ hostOps2_1_writes (by decide : main_arg17 ∉ hostOps2_1_W)).trans <| (StableHlo.after_of_writes_sub hostOps2 _ hostOps2_writes (by decide : main_arg17 ∉ hostOps2_W)).trans <| (Yout1_of (Y3 m) c main_arg17 (by decide)).trans <| (StableHlo.after_of_writes_sub hostOps1 _ hostOps1_writes (by decide : main_arg17 ∉ hostOps1_W)).trans <| (Yout0_of (Y1 m) c main_arg17 (by decide)).trans <| (StableHlo.after_of_writes_sub hostOps0 _ hostOps0_writes (by decide : main_arg17 ∉ hostOps0_W))).trans rfl
theorem keep_arg17_10 : Y10 m c (Proc.devRef .tc main_arg17) = m ((c : Thread nD τ).loc main_arg17) :=
  ((StableHlo.after_of_writes_sub hostOps3_1 _ hostOps3_1_writes (by decide : main_arg17 ∉ hostOps3_1_W)).trans <| (StableHlo.after_of_writes_sub hostOps3 _ hostOps3_writes (by decide : main_arg17 ∉ hostOps3_W)).trans <| (Yout2_of (Y7 m) c main_arg17 (by decide)).trans <| (StableHlo.after_of_writes_sub hostOps2_2 _ hostOps2_2_writes (by decide : main_arg17 ∉ hostOps2_2_W)).trans <| (StableHlo.after_of_writes_sub hostOps2_1 _ hostOps2_1_writes (by decide : main_arg17 ∉ hostOps2_1_W)).trans <| (StableHlo.after_of_writes_sub hostOps2 _ hostOps2_writes (by decide : main_arg17 ∉ hostOps2_W)).trans <| (Yout1_of (Y3 m) c main_arg17 (by decide)).trans <| (StableHlo.after_of_writes_sub hostOps1 _ hostOps1_writes (by decide : main_arg17 ∉ hostOps1_W)).trans <| (Yout0_of (Y1 m) c main_arg17 (by decide)).trans <| (StableHlo.after_of_writes_sub hostOps0 _ hostOps0_writes (by decide : main_arg17 ∉ hostOps0_W))).trans rfl
theorem keep_arg17_11 : Y11 m c (Proc.devRef .tc main_arg17) = m ((c : Thread nD τ).loc main_arg17) :=
  ((StableHlo.after_of_writes_sub hostOps3_2 _ hostOps3_2_writes (by decide : main_arg17 ∉ hostOps3_2_W)).trans <| (StableHlo.after_of_writes_sub hostOps3_1 _ hostOps3_1_writes (by decide : main_arg17 ∉ hostOps3_1_W)).trans <| (StableHlo.after_of_writes_sub hostOps3 _ hostOps3_writes (by decide : main_arg17 ∉ hostOps3_W)).trans <| (Yout2_of (Y7 m) c main_arg17 (by decide)).trans <| (StableHlo.after_of_writes_sub hostOps2_2 _ hostOps2_2_writes (by decide : main_arg17 ∉ hostOps2_2_W)).trans <| (StableHlo.after_of_writes_sub hostOps2_1 _ hostOps2_1_writes (by decide : main_arg17 ∉ hostOps2_1_W)).trans <| (StableHlo.after_of_writes_sub hostOps2 _ hostOps2_writes (by decide : main_arg17 ∉ hostOps2_W)).trans <| (Yout1_of (Y3 m) c main_arg17 (by decide)).trans <| (StableHlo.after_of_writes_sub hostOps1 _ hostOps1_writes (by decide : main_arg17 ∉ hostOps1_W)).trans <| (Yout0_of (Y1 m) c main_arg17 (by decide)).trans <| (StableHlo.after_of_writes_sub hostOps0 _ hostOps0_writes (by decide : main_arg17 ∉ hostOps0_W))).trans rfl
theorem keep_arg18_1 : Y1 m c (Proc.devRef .tc main_arg18) = m ((c : Thread nD τ).loc main_arg18) :=
  ((StableHlo.after_of_writes_sub hostOps0 _ hostOps0_writes (by decide : main_arg18 ∉ hostOps0_W))).trans rfl
theorem keep_arg18_2 : Y2 m c (Proc.devRef .tc main_arg18) = m ((c : Thread nD τ).loc main_arg18) :=
  ((Yout0_of (Y1 m) c main_arg18 (by decide)).trans <| (StableHlo.after_of_writes_sub hostOps0 _ hostOps0_writes (by decide : main_arg18 ∉ hostOps0_W))).trans rfl
theorem keep_arg18_3 : Y3 m c (Proc.devRef .tc main_arg18) = m ((c : Thread nD τ).loc main_arg18) :=
  ((StableHlo.after_of_writes_sub hostOps1 _ hostOps1_writes (by decide : main_arg18 ∉ hostOps1_W)).trans <| (Yout0_of (Y1 m) c main_arg18 (by decide)).trans <| (StableHlo.after_of_writes_sub hostOps0 _ hostOps0_writes (by decide : main_arg18 ∉ hostOps0_W))).trans rfl
theorem keep_arg18_5 : Y5 m c (Proc.devRef .tc main_arg18) = m ((c : Thread nD τ).loc main_arg18) :=
  ((StableHlo.after_of_writes_sub hostOps2 _ hostOps2_writes (by decide : main_arg18 ∉ hostOps2_W)).trans <| (Yout1_of (Y3 m) c main_arg18 (by decide)).trans <| (StableHlo.after_of_writes_sub hostOps1 _ hostOps1_writes (by decide : main_arg18 ∉ hostOps1_W)).trans <| (Yout0_of (Y1 m) c main_arg18 (by decide)).trans <| (StableHlo.after_of_writes_sub hostOps0 _ hostOps0_writes (by decide : main_arg18 ∉ hostOps0_W))).trans rfl
theorem keep_arg18_6 : Y6 m c (Proc.devRef .tc main_arg18) = m ((c : Thread nD τ).loc main_arg18) :=
  ((StableHlo.after_of_writes_sub hostOps2_1 _ hostOps2_1_writes (by decide : main_arg18 ∉ hostOps2_1_W)).trans <| (StableHlo.after_of_writes_sub hostOps2 _ hostOps2_writes (by decide : main_arg18 ∉ hostOps2_W)).trans <| (Yout1_of (Y3 m) c main_arg18 (by decide)).trans <| (StableHlo.after_of_writes_sub hostOps1 _ hostOps1_writes (by decide : main_arg18 ∉ hostOps1_W)).trans <| (Yout0_of (Y1 m) c main_arg18 (by decide)).trans <| (StableHlo.after_of_writes_sub hostOps0 _ hostOps0_writes (by decide : main_arg18 ∉ hostOps0_W))).trans rfl
theorem keep_arg18_10 : Y10 m c (Proc.devRef .tc main_arg18) = m ((c : Thread nD τ).loc main_arg18) :=
  ((StableHlo.after_of_writes_sub hostOps3_1 _ hostOps3_1_writes (by decide : main_arg18 ∉ hostOps3_1_W)).trans <| (StableHlo.after_of_writes_sub hostOps3 _ hostOps3_writes (by decide : main_arg18 ∉ hostOps3_W)).trans <| (Yout2_of (Y7 m) c main_arg18 (by decide)).trans <| (StableHlo.after_of_writes_sub hostOps2_2 _ hostOps2_2_writes (by decide : main_arg18 ∉ hostOps2_2_W)).trans <| (StableHlo.after_of_writes_sub hostOps2_1 _ hostOps2_1_writes (by decide : main_arg18 ∉ hostOps2_1_W)).trans <| (StableHlo.after_of_writes_sub hostOps2 _ hostOps2_writes (by decide : main_arg18 ∉ hostOps2_W)).trans <| (Yout1_of (Y3 m) c main_arg18 (by decide)).trans <| (StableHlo.after_of_writes_sub hostOps1 _ hostOps1_writes (by decide : main_arg18 ∉ hostOps1_W)).trans <| (Yout0_of (Y1 m) c main_arg18 (by decide)).trans <| (StableHlo.after_of_writes_sub hostOps0 _ hostOps0_writes (by decide : main_arg18 ∉ hostOps0_W))).trans rfl
theorem keep_arg18_11 : Y11 m c (Proc.devRef .tc main_arg18) = m ((c : Thread nD τ).loc main_arg18) :=
  ((StableHlo.after_of_writes_sub hostOps3_2 _ hostOps3_2_writes (by decide : main_arg18 ∉ hostOps3_2_W)).trans <| (StableHlo.after_of_writes_sub hostOps3_1 _ hostOps3_1_writes (by decide : main_arg18 ∉ hostOps3_1_W)).trans <| (StableHlo.after_of_writes_sub hostOps3 _ hostOps3_writes (by decide : main_arg18 ∉ hostOps3_W)).trans <| (Yout2_of (Y7 m) c main_arg18 (by decide)).trans <| (StableHlo.after_of_writes_sub hostOps2_2 _ hostOps2_2_writes (by decide : main_arg18 ∉ hostOps2_2_W)).trans <| (StableHlo.after_of_writes_sub hostOps2_1 _ hostOps2_1_writes (by decide : main_arg18 ∉ hostOps2_1_W)).trans <| (StableHlo.after_of_writes_sub hostOps2 _ hostOps2_writes (by decide : main_arg18 ∉ hostOps2_W)).trans <| (Yout1_of (Y3 m) c main_arg18 (by decide)).trans <| (StableHlo.after_of_writes_sub hostOps1 _ hostOps1_writes (by decide : main_arg18 ∉ hostOps1_W)).trans <| (Yout0_of (Y1 m) c main_arg18 (by decide)).trans <| (StableHlo.after_of_writes_sub hostOps0 _ hostOps0_writes (by decide : main_arg18 ∉ hostOps0_W))).trans rfl
theorem keep_arg19_1 : Y1 m c (Proc.devRef .tc main_arg19) = m ((c : Thread nD τ).loc main_arg19) :=
  ((StableHlo.after_of_writes_sub hostOps0 _ hostOps0_writes (by decide : main_arg19 ∉ hostOps0_W))).trans rfl
theorem keep_arg19_2 : Y2 m c (Proc.devRef .tc main_arg19) = m ((c : Thread nD τ).loc main_arg19) :=
  ((Yout0_of (Y1 m) c main_arg19 (by decide)).trans <| (StableHlo.after_of_writes_sub hostOps0 _ hostOps0_writes (by decide : main_arg19 ∉ hostOps0_W))).trans rfl
theorem keep_arg19_3 : Y3 m c (Proc.devRef .tc main_arg19) = m ((c : Thread nD τ).loc main_arg19) :=
  ((StableHlo.after_of_writes_sub hostOps1 _ hostOps1_writes (by decide : main_arg19 ∉ hostOps1_W)).trans <| (Yout0_of (Y1 m) c main_arg19 (by decide)).trans <| (StableHlo.after_of_writes_sub hostOps0 _ hostOps0_writes (by decide : main_arg19 ∉ hostOps0_W))).trans rfl
theorem keep_arg19_5 : Y5 m c (Proc.devRef .tc main_arg19) = m ((c : Thread nD τ).loc main_arg19) :=
  ((StableHlo.after_of_writes_sub hostOps2 _ hostOps2_writes (by decide : main_arg19 ∉ hostOps2_W)).trans <| (Yout1_of (Y3 m) c main_arg19 (by decide)).trans <| (StableHlo.after_of_writes_sub hostOps1 _ hostOps1_writes (by decide : main_arg19 ∉ hostOps1_W)).trans <| (Yout0_of (Y1 m) c main_arg19 (by decide)).trans <| (StableHlo.after_of_writes_sub hostOps0 _ hostOps0_writes (by decide : main_arg19 ∉ hostOps0_W))).trans rfl
theorem keep_arg19_6 : Y6 m c (Proc.devRef .tc main_arg19) = m ((c : Thread nD τ).loc main_arg19) :=
  ((StableHlo.after_of_writes_sub hostOps2_1 _ hostOps2_1_writes (by decide : main_arg19 ∉ hostOps2_1_W)).trans <| (StableHlo.after_of_writes_sub hostOps2 _ hostOps2_writes (by decide : main_arg19 ∉ hostOps2_W)).trans <| (Yout1_of (Y3 m) c main_arg19 (by decide)).trans <| (StableHlo.after_of_writes_sub hostOps1 _ hostOps1_writes (by decide : main_arg19 ∉ hostOps1_W)).trans <| (Yout0_of (Y1 m) c main_arg19 (by decide)).trans <| (StableHlo.after_of_writes_sub hostOps0 _ hostOps0_writes (by decide : main_arg19 ∉ hostOps0_W))).trans rfl
theorem keep_arg19_10 : Y10 m c (Proc.devRef .tc main_arg19) = m ((c : Thread nD τ).loc main_arg19) :=
  ((StableHlo.after_of_writes_sub hostOps3_1 _ hostOps3_1_writes (by decide : main_arg19 ∉ hostOps3_1_W)).trans <| (StableHlo.after_of_writes_sub hostOps3 _ hostOps3_writes (by decide : main_arg19 ∉ hostOps3_W)).trans <| (Yout2_of (Y7 m) c main_arg19 (by decide)).trans <| (StableHlo.after_of_writes_sub hostOps2_2 _ hostOps2_2_writes (by decide : main_arg19 ∉ hostOps2_2_W)).trans <| (StableHlo.after_of_writes_sub hostOps2_1 _ hostOps2_1_writes (by decide : main_arg19 ∉ hostOps2_1_W)).trans <| (StableHlo.after_of_writes_sub hostOps2 _ hostOps2_writes (by decide : main_arg19 ∉ hostOps2_W)).trans <| (Yout1_of (Y3 m) c main_arg19 (by decide)).trans <| (StableHlo.after_of_writes_sub hostOps1 _ hostOps1_writes (by decide : main_arg19 ∉ hostOps1_W)).trans <| (Yout0_of (Y1 m) c main_arg19 (by decide)).trans <| (StableHlo.after_of_writes_sub hostOps0 _ hostOps0_writes (by decide : main_arg19 ∉ hostOps0_W))).trans rfl
theorem keep_arg19_11 : Y11 m c (Proc.devRef .tc main_arg19) = m ((c : Thread nD τ).loc main_arg19) :=
  ((StableHlo.after_of_writes_sub hostOps3_2 _ hostOps3_2_writes (by decide : main_arg19 ∉ hostOps3_2_W)).trans <| (StableHlo.after_of_writes_sub hostOps3_1 _ hostOps3_1_writes (by decide : main_arg19 ∉ hostOps3_1_W)).trans <| (StableHlo.after_of_writes_sub hostOps3 _ hostOps3_writes (by decide : main_arg19 ∉ hostOps3_W)).trans <| (Yout2_of (Y7 m) c main_arg19 (by decide)).trans <| (StableHlo.after_of_writes_sub hostOps2_2 _ hostOps2_2_writes (by decide : main_arg19 ∉ hostOps2_2_W)).trans <| (StableHlo.after_of_writes_sub hostOps2_1 _ hostOps2_1_writes (by decide : main_arg19 ∉ hostOps2_1_W)).trans <| (StableHlo.after_of_writes_sub hostOps2 _ hostOps2_writes (by decide : main_arg19 ∉ hostOps2_W)).trans <| (Yout1_of (Y3 m) c main_arg19 (by decide)).trans <| (StableHlo.after_of_writes_sub hostOps1 _ hostOps1_writes (by decide : main_arg19 ∉ hostOps1_W)).trans <| (Yout0_of (Y1 m) c main_arg19 (by decide)).trans <| (StableHlo.after_of_writes_sub hostOps0 _ hostOps0_writes (by decide : main_arg19 ∉ hostOps0_W))).trans rfl
theorem keep_arg20_1 : Y1 m c (Proc.devRef .tc main_arg20) = m ((c : Thread nD τ).loc main_arg20) :=
  ((StableHlo.after_of_writes_sub hostOps0 _ hostOps0_writes (by decide : main_arg20 ∉ hostOps0_W))).trans rfl
theorem keep_arg20_2 : Y2 m c (Proc.devRef .tc main_arg20) = m ((c : Thread nD τ).loc main_arg20) :=
  ((Yout0_of (Y1 m) c main_arg20 (by decide)).trans <| (StableHlo.after_of_writes_sub hostOps0 _ hostOps0_writes (by decide : main_arg20 ∉ hostOps0_W))).trans rfl
theorem keep_arg20_3 : Y3 m c (Proc.devRef .tc main_arg20) = m ((c : Thread nD τ).loc main_arg20) :=
  ((StableHlo.after_of_writes_sub hostOps1 _ hostOps1_writes (by decide : main_arg20 ∉ hostOps1_W)).trans <| (Yout0_of (Y1 m) c main_arg20 (by decide)).trans <| (StableHlo.after_of_writes_sub hostOps0 _ hostOps0_writes (by decide : main_arg20 ∉ hostOps0_W))).trans rfl
theorem keep_arg20_5 : Y5 m c (Proc.devRef .tc main_arg20) = m ((c : Thread nD τ).loc main_arg20) :=
  ((StableHlo.after_of_writes_sub hostOps2 _ hostOps2_writes (by decide : main_arg20 ∉ hostOps2_W)).trans <| (Yout1_of (Y3 m) c main_arg20 (by decide)).trans <| (StableHlo.after_of_writes_sub hostOps1 _ hostOps1_writes (by decide : main_arg20 ∉ hostOps1_W)).trans <| (Yout0_of (Y1 m) c main_arg20 (by decide)).trans <| (StableHlo.after_of_writes_sub hostOps0 _ hostOps0_writes (by decide : main_arg20 ∉ hostOps0_W))).trans rfl
theorem keep_arg20_6 : Y6 m c (Proc.devRef .tc main_arg20) = m ((c : Thread nD τ).loc main_arg20) :=
  ((StableHlo.after_of_writes_sub hostOps2_1 _ hostOps2_1_writes (by decide : main_arg20 ∉ hostOps2_1_W)).trans <| (StableHlo.after_of_writes_sub hostOps2 _ hostOps2_writes (by decide : main_arg20 ∉ hostOps2_W)).trans <| (Yout1_of (Y3 m) c main_arg20 (by decide)).trans <| (StableHlo.after_of_writes_sub hostOps1 _ hostOps1_writes (by decide : main_arg20 ∉ hostOps1_W)).trans <| (Yout0_of (Y1 m) c main_arg20 (by decide)).trans <| (StableHlo.after_of_writes_sub hostOps0 _ hostOps0_writes (by decide : main_arg20 ∉ hostOps0_W))).trans rfl
theorem keep_arg20_10 : Y10 m c (Proc.devRef .tc main_arg20) = m ((c : Thread nD τ).loc main_arg20) :=
  ((StableHlo.after_of_writes_sub hostOps3_1 _ hostOps3_1_writes (by decide : main_arg20 ∉ hostOps3_1_W)).trans <| (StableHlo.after_of_writes_sub hostOps3 _ hostOps3_writes (by decide : main_arg20 ∉ hostOps3_W)).trans <| (Yout2_of (Y7 m) c main_arg20 (by decide)).trans <| (StableHlo.after_of_writes_sub hostOps2_2 _ hostOps2_2_writes (by decide : main_arg20 ∉ hostOps2_2_W)).trans <| (StableHlo.after_of_writes_sub hostOps2_1 _ hostOps2_1_writes (by decide : main_arg20 ∉ hostOps2_1_W)).trans <| (StableHlo.after_of_writes_sub hostOps2 _ hostOps2_writes (by decide : main_arg20 ∉ hostOps2_W)).trans <| (Yout1_of (Y3 m) c main_arg20 (by decide)).trans <| (StableHlo.after_of_writes_sub hostOps1 _ hostOps1_writes (by decide : main_arg20 ∉ hostOps1_W)).trans <| (Yout0_of (Y1 m) c main_arg20 (by decide)).trans <| (StableHlo.after_of_writes_sub hostOps0 _ hostOps0_writes (by decide : main_arg20 ∉ hostOps0_W))).trans rfl
theorem keep_arg20_11 : Y11 m c (Proc.devRef .tc main_arg20) = m ((c : Thread nD τ).loc main_arg20) :=
  ((StableHlo.after_of_writes_sub hostOps3_2 _ hostOps3_2_writes (by decide : main_arg20 ∉ hostOps3_2_W)).trans <| (StableHlo.after_of_writes_sub hostOps3_1 _ hostOps3_1_writes (by decide : main_arg20 ∉ hostOps3_1_W)).trans <| (StableHlo.after_of_writes_sub hostOps3 _ hostOps3_writes (by decide : main_arg20 ∉ hostOps3_W)).trans <| (Yout2_of (Y7 m) c main_arg20 (by decide)).trans <| (StableHlo.after_of_writes_sub hostOps2_2 _ hostOps2_2_writes (by decide : main_arg20 ∉ hostOps2_2_W)).trans <| (StableHlo.after_of_writes_sub hostOps2_1 _ hostOps2_1_writes (by decide : main_arg20 ∉ hostOps2_1_W)).trans <| (StableHlo.after_of_writes_sub hostOps2 _ hostOps2_writes (by decide : main_arg20 ∉ hostOps2_W)).trans <| (Yout1_of (Y3 m) c main_arg20 (by decide)).trans <| (StableHlo.after_of_writes_sub hostOps1 _ hostOps1_writes (by decide : main_arg20 ∉ hostOps1_W)).trans <| (Yout0_of (Y1 m) c main_arg20 (by decide)).trans <| (StableHlo.after_of_writes_sub hostOps0 _ hostOps0_writes (by decide : main_arg20 ∉ hostOps0_W))).trans rfl

end Cert.KernelIdeal.Hand

end
-- ==== Proof.KCompose.lean ====
/-
  The three results of the program's run as the closed expressions of its argument arrays: the run's chain of valuations
  read item by item, each host stretch by its operations' composition and each region by its function of the entry buffers,
  a buffer no item writes keeping its contents in between.
-/
import proofs.«143299_j13005160972635_2_alg».proof.Proof.KRead
import proofs.«143299_j13005160972635_2_alg».proof.Proof.KRead0
import proofs.«143299_j13005160972635_2_alg».proof.Proof.KDefs
import proofs.«143299_j13005160972635_2_alg».proof.Proof.KTerms
import proofs.«143299_j13005160972635_2_alg».proof.Proof.KVals

set_option maxRecDepth 16384

noncomputable section

namespace Cert.KernelIdeal.Hand

open Idealize.ShloMosaic Idealize.ShloMosaic.TcCoe
open Idealize.SL.Sem
open Cert.KernelIdeal Cert.KernelIdeal.Gen

attribute [local irreducible] Host.gather Host.scatterAdd Host.reduceAdd Host.divf Host.rsqrt

variable (m : (ℓ : Loc nD τ sig) → Buf (Elt Ideal) ℓ) (c : Dev nD)

set_option backward.isDefEq.respectTransparency.types false

/-! ## Before region 0 -/

/-- The launch memory read at an argument's reference. -/
theorem y0_at (b : Ref sig .tc) : Y0 m c (Proc.devRef .tc b) = m ((c : Thread nD τ).loc b) := rfl

theorem s1_v1 : Y1 m c (Proc.devRef .tc main_v1) = kSrc m c :=
  k0_v1 (F := Ideal) (Y0 m c)
theorem s1_v3 : Y1 m c (Proc.devRef .tc main_v3) = kDst m c :=
  k0_v3 (F := Ideal) (Y0 m c)
theorem s1_v4 : Y1 m c (Proc.devRef .tc main_v4) = kWcat m c :=
  k0_v4 (F := Ideal) (Y0 m c)
theorem s1_v6 : Y1 m c (Proc.devRef .tc main_v6) = kBcat m c :=
  k0_v6 (F := Ideal) (Y0 m c)

/-! ## Region 0 and the stretch after it -/

theorem s2_v7 : Y2 m c (Proc.devRef .tc main_v7) = kProj m c := by
  refine (v7_eq m c).trans ?_
  show G0_3 (Y1 m c (Proc.devRef .tc main_arg0)) (Y1 m c (Proc.devRef .tc main_v4)) (Y1 m c (Proc.devRef .tc main_v6)) = _
  rw [keep_arg0_1, s1_v4, s1_v6]; rfl

theorem s3_v8 : Y3 m c (Proc.devRef .tc main_v8) = extractStridedSlice S40000x128 ![0, 0] (kProj m c) slices_S40000x512_S40000x128_0_0 := by
  refine (k1_v8 (F := Ideal) (Y2 m c)).trans ?_
  rw [s2_v7]
theorem s3_v17 : Y3 m c (Proc.devRef .tc main_v17) = kDxd m c := by
  refine (k1_v17 (F := Ideal) (Y2 m c)).trans ?_
  rw [s2_v7, keep_v3_1_2, s1_v3]; rfl
theorem s3_v24 : Y3 m c (Proc.devRef .tc main_v24) = kBex m c := by
  refine (k1_v24 (F := Ideal) (Y2 m c)).trans ?_
  rw [s2_v7, keep_v1_1_2, s1_v1]; rfl
theorem s3_v25 : Y3 m c (Proc.devRef .tc main_v25) = shapeCast S1x128 (m ((c : Thread nD τ).loc main_arg8) : (⟨S128, .f32⟩ : BufTy).Contents (Elt Ideal)) shapeCasts_S128_S1x128 := by
  refine (k1_v25 (F := Ideal) (Y2 m c)).trans ?_
  rw [keep_arg8_2]

/-! ## Region 1 and the three stretches after it -/

theorem s4_v26_0 : Y4 m c (Proc.devRef .tc main_v26_0) = kEij m c := by
  refine (v26_0_eq m c).trans ?_
  show G1_5 (Y3 m c (Proc.devRef .tc main_arg1)) (Y3 m c (Proc.devRef .tc main_arg7)) (Y3 m c (Proc.devRef .tc main_v25)) (Y3 m c (Proc.devRef .tc main_v17)) (Y3 m c (Proc.devRef .tc main_v24)) = _
  rw [keep_arg1_3, keep_arg7_3, s3_v25, s3_v17, s3_v24]; rfl
theorem s4_v26_1 : Y4 m c (Proc.devRef .tc main_v26_1) = kSig m c := by
  refine (v26_1_eq m c).trans ?_
  show G1_6 (Y3 m c (Proc.devRef .tc main_arg1)) (Y3 m c (Proc.devRef .tc main_arg7)) (Y3 m c (Proc.devRef .tc main_v25)) (Y3 m c (Proc.devRef .tc main_v17)) (Y3 m c (Proc.devRef .tc main_v24)) = _
  rw [keep_arg1_3, keep_arg7_3, s3_v25, s3_v17, s3_v24]; rfl
theorem s4_v26_2 : Y4 m c (Proc.devRef .tc main_v26_2) = kNumt m c := by
  refine (v26_2_eq m c).trans ?_
  show G1_7 (Y3 m c (Proc.devRef .tc main_arg1)) (Y3 m c (Proc.devRef .tc main_arg7)) (Y3 m c (Proc.devRef .tc main_v25)) (Y3 m c (Proc.devRef .tc main_v17)) (Y3 m c (Proc.devRef .tc main_v24)) = _
  rw [keep_arg1_3, keep_arg7_3, s3_v25, s3_v17, s3_v24]; rfl

theorem s5_v36 : Y5 m c (Proc.devRef .tc main_v36) = kPre m c := by
  refine (k2_v36 (F := Ideal) (Y4 m c)).trans ?_
  rw [keep_v8_3_4, s3_v8, s4_v26_2, s4_v26_1, keep_v3_1_4, s1_v3]; rfl
theorem s5_v39 : Y5 m c (Proc.devRef .tc main_v39) = kMu m c := by
  refine (k2_v39 (F := Ideal) (Y4 m c)).trans ?_
  rw [keep_v8_3_4, s3_v8, s4_v26_2, s4_v26_1, keep_v3_1_4, s1_v3]; rfl
theorem s5_c7 : Y5 m c (Proc.devRef .tc main_c_7) = constantI S_ 32 0#32 :=
  k2_c7 (F := Ideal) (Y4 m c)

theorem s6_v40 : Y6 m c (Proc.devRef .tc main_v40) = varK40000 (F := Ideal) (kPre m c) (constantI S_ 32 0#32) := by
  refine (k21_v40 (F := Ideal) (Y5 m c)).trans ?_
  rw [s5_v36, s5_c7]

theorem s7_v43 : Y7 m c (Proc.devRef .tc main_v43) = kInv m c := by
  refine (k22_v43 (F := Ideal) (Y6 m c)).trans ?_
  rw [s6_v40]; rfl
theorem s7_v45 : Y7 m c (Proc.devRef .tc main_v45) = shapeCast S1x128 (mulf (F := Ideal) (s := S128) (φ := .f32) (kInv m c) (m ((c : Thread nD τ).loc main_arg13) : (⟨S128, .f32⟩ : BufTy).Contents (Elt Ideal))) shapeCasts_S128_S1x128 := by
  refine (k22_v45 (F := Ideal) (Y6 m c)).trans ?_
  rw [s6_v40, keep_arg13_6]; rfl
theorem s7_v49 : Y7 m c (Proc.devRef .tc main_v49) = shapeCast S1x128 (subf (F := Ideal) (s := S128) (φ := .f32) (m ((c : Thread nD τ).loc main_arg14) : (⟨S128, .f32⟩ : BufTy).Contents (Elt Ideal)) (mulf (F := Ideal) (s := S128) (φ := .f32) (mulf (F := Ideal) (s := S128) (φ := .f32) (kMu m c) (kInv m c)) (m ((c : Thread nD τ).loc main_arg13) : (⟨S128, .f32⟩ : BufTy).Contents (Elt Ideal)))) shapeCasts_S128_S1x128 := by
  refine (k22_v49 (F := Ideal) (Y6 m c)).trans ?_
  rw [s6_v40, keep_arg13_6, keep_arg14_6, keep_v39_5_6, s5_v39]; rfl
theorem s7_v36 : Y7 m c (Proc.devRef .tc main_v36) = kPre m c :=
  (keep_v36_5_7 m c).trans (s5_v36 m c)

/-! ## Region 2: the first result -/

theorem s8_v50 : Y8 m c (Proc.devRef .tc main_v50) = kXout m c := by
  refine (v50_at8 m c).trans ?_
  show G2_3 (Y7 m c (Proc.devRef .tc main_v36)) (Y7 m c (Proc.devRef .tc main_v45)) (Y7 m c (Proc.devRef .tc main_v49)) = _
  rw [s7_v36, s7_v45, s7_v49]; rfl

theorem kres0 : at_ c (Y12 m) main_v50 = kXout m c := by
  refine (v50_eq m c).trans ?_
  show G2_3 (Y7 m c (Proc.devRef .tc main_v36)) (Y7 m c (Proc.devRef .tc main_v45)) (Y7 m c (Proc.devRef .tc main_v49)) = _
  rw [s7_v36, s7_v45, s7_v49]; rfl

/-! ## The three stretches before region 3 -/

/-- The edge pre-activation is not written between region 1 and the first stretch before region 3. -/
theorem keep_v26_0_4_8 : Y8 m c (Proc.devRef .tc main_v26_0) = Y4 m c (Proc.devRef .tc main_v26_0) :=
  (Yout2_of (Y7 m) c main_v26_0 (by decide)).trans <| (StableHlo.after_of_writes_sub hostOps2_2 _ hostOps2_2_writes (by decide : main_v26_0 ∉ hostOps2_2_W)).trans <| (StableHlo.after_of_writes_sub hostOps2_1 _ hostOps2_1_writes (by decide : main_v26_0 ∉ hostOps2_1_W)).trans <| (StableHlo.after_of_writes_sub hostOps2 _ hostOps2_writes (by decide : main_v26_0 ∉ hostOps2_W))
theorem keep_v26_0_4_9 : Y9 m c (Proc.devRef .tc main_v26_0) = Y4 m c (Proc.devRef .tc main_v26_0) :=
  (StableHlo.after_of_writes_sub hostOps3 _ hostOps3_writes (by decide : main_v26_0 ∉ hostOps3_W)).trans (keep_v26_0_4_8 m c)

theorem s9_v53 : Y9 m c (Proc.devRef .tc main_v53) = kMuE m c := by
  refine (k3_v53 (F := Ideal) (Y8 m c)).trans ?_
  rw [keep_v26_0_4_8, s4_v26_0]; rfl
theorem s9_c11 : Y9 m c (Proc.devRef .tc main_c_11) = constantI S_ 32 0#32 :=
  k3_c11 (F := Ideal) (Y8 m c)

theorem s10_v54 : Y10 m c (Proc.devRef .tc main_v54) = varK640000 (F := Ideal) (kEij m c) (constantI S_ 32 0#32) := by
  refine (k31_v54 (F := Ideal) (Y9 m c)).trans ?_
  rw [keep_v26_0_4_9, s4_v26_0, s9_c11]

theorem s11_v59 : Y11 m c (Proc.devRef .tc main_v59) = kScaleE m c := by
  refine (k32_v59 (F := Ideal) (Y10 m c)).trans ?_
  rw [s10_v54, keep_arg15_10]; rfl
theorem s11_v63 : Y11 m c (Proc.devRef .tc main_v63) = kShiftE m c := by
  refine (k32_v63 (F := Ideal) (Y10 m c)).trans ?_
  rw [s10_v54, keep_arg15_10, keep_arg16_10, keep_v53_9_10, s9_v53]; rfl
theorem s11_v72 : Y11 m c (Proc.devRef .tc main_v72) = kXs m c := by
  refine (k32_v72 (F := Ideal) (Y10 m c)).trans ?_
  rw [keep_v50_8_10, s8_v50, keep_v1_1_10, keep_v3_1_10, s1_v1, s1_v3]; rfl
theorem s11_v73 : Y11 m c (Proc.devRef .tc main_v73) = kXd m c := by
  refine (k32_v73 (F := Ideal) (Y10 m c)).trans ?_
  rw [keep_v50_8_10, s8_v50, keep_v1_1_10, keep_v3_1_10, s1_v1, s1_v3]; rfl
theorem s11_v75 : Y11 m c (Proc.devRef .tc main_v75) = kW2pad m c := by
  refine (k32_v75 (F := Ideal) (Y10 m c)).trans ?_
  rw [keep_arg19_10]; rfl
theorem s11_v78 : Y11 m c (Proc.devRef .tc main_v78) = kB2pad m c := by
  refine (k32_v78 (F := Ideal) (Y10 m c)).trans ?_
  rw [keep_arg20_10]; rfl
theorem s11_v79 : Y11 m c (Proc.devRef .tc main_v79) = kB1 m c := by
  refine (k32_v79 (F := Ideal) (Y10 m c)).trans ?_
  rw [keep_arg18_10]; rfl
theorem s11_v26_0 : Y11 m c (Proc.devRef .tc main_v26_0) = kEij m c :=
  (keep_v26_0_4_11 m c).trans (s4_v26_0 m c)

/-! ## Region 3: the second and third results -/

theorem kres1 : at_ c (Y12 m) main_v80_0 = kEout m c := by
  refine (v80_0_eq m c).trans ?_
  show G3_9 (Y11 m c (Proc.devRef .tc main_v26_0)) (Y11 m c (Proc.devRef .tc main_v59)) (Y11 m c (Proc.devRef .tc main_v63)) = _
  rw [s11_v26_0, s11_v59, s11_v63]; rfl

theorem kres2 : at_ c (Y12 m) main_v80_1 = kScores m c := by
  refine (v80_1_eq m c).trans ?_
  show G3_10 (Y11 m c (Proc.devRef .tc main_v26_0)) (Y11 m c (Proc.devRef .tc main_v59)) (Y11 m c (Proc.devRef .tc main_v63)) (Y11 m c (Proc.devRef .tc main_v72)) (Y11 m c (Proc.devRef .tc main_v73)) (Y11 m c (Proc.devRef .tc main_arg17)) (Y11 m c (Proc.devRef .tc main_v79)) (Y11 m c (Proc.devRef .tc main_v75)) (Y11 m c (Proc.devRef .tc main_v78)) = _
  rw [s11_v26_0, s11_v59, s11_v63, s11_v72, s11_v73, keep_arg17_11, s11_v79, s11_v75, s11_v78]; rfl

end Cert.KernelIdeal.Hand
-- ==== Proof.RefCompose.lean ====
/-
  The reference program's three results as closed expressions of the launch contents, for any float values (so at the ideal ones):
  stage by stage, each buffer a later stage reads (and each result) holds the value the definitions of module
  RefTerms name — by the stage's reading where the stage writes it, unchanged where it does not.
-/
import proofs.«143299_j13005160972635_2_alg».proof.Proof.RefTerms
import proofs.«143299_j13005160972635_2_alg».proof.Proof.RefRun

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd Host.gather Host.scatterAdd

/-! ## After stage 0 -/

theorem at0_v3 (V : Valuation τ sig (Elt F)) :
    after stage0 (V) (Proc.devRef .tc main_v3)
      = rDst V := by
  rw [stage0_v3]
  first | done | rfl

theorem at0_v19 (V : Valuation τ sig (Elt F)) :
    after stage0 (V) (Proc.devRef .tc main_v19)
      = rDx V := by
  rw [stage0_v19]
  first | done | rfl

theorem at0_v1 (V : Valuation τ sig (Elt F)) :
    after stage0 (V) (Proc.devRef .tc main_v1)
      = rSrc V := by
  rw [stage0_v1]
  first | done | rfl

theorem at0_v23 (V : Valuation τ sig (Elt F)) :
    after stage0 (V) (Proc.devRef .tc main_v23)
      = rEx V := by
  rw [stage0_v23]
  first | done | rfl

theorem at0_v15 (V : Valuation τ sig (Elt F)) :
    after stage0 (V) (Proc.devRef .tc main_v15)
      = rCe V := by
  rw [stage0_v15]
  first | done | rfl

theorem at0_v11 (V : Valuation τ sig (Elt F)) :
    after stage0 (V) (Proc.devRef .tc main_v11)
      = rBx V := by
  rw [stage0_v11]
  first | done | rfl

theorem at0_v7 (V : Valuation τ sig (Elt F)) :
    after stage0 (V) (Proc.devRef .tc main_v7)
      = rAx V := by
  rw [stage0_v7]
  first | done | rfl

theorem at0_arg13 (V : Valuation τ sig (Elt F)) :
    after stage0 (V) (Proc.devRef .tc main_arg13)
      = (V (Proc.devRef .tc main_arg13) : (⟨S128, .f32⟩ : BufTy).Contents (Elt F)) := by
  rw [stage0_keeps _ (r := main_arg13) (by decide)]

theorem at0_arg14 (V : Valuation τ sig (Elt F)) :
    after stage0 (V) (Proc.devRef .tc main_arg14)
      = (V (Proc.devRef .tc main_arg14) : (⟨S128, .f32⟩ : BufTy).Contents (Elt F)) := by
  rw [stage0_keeps _ (r := main_arg14) (by decide)]

theorem at0_arg15 (V : Valuation τ sig (Elt F)) :
    after stage0 (V) (Proc.devRef .tc main_arg15)
      = (V (Proc.devRef .tc main_arg15) : (⟨S128, .f32⟩ : BufTy).Contents (Elt F)) := by
  rw [stage0_keeps _ (r := main_arg15) (by decide)]

theorem at0_arg16 (V : Valuation τ sig (Elt F)) :
    after stage0 (V) (Proc.devRef .tc main_arg16)
      = (V (Proc.devRef .tc main_arg16) : (⟨S128, .f32⟩ : BufTy).Contents (Elt F)) := by
  rw [stage0_keeps _ (r := main_arg16) (by decide)]

theorem at0_arg17 (V : Valuation τ sig (Elt F)) :
    after stage0 (V) (Proc.devRef .tc main_arg17)
      = (V (Proc.devRef .tc main_arg17) : (⟨S384x256, .f32⟩ : BufTy).Contents (Elt F)) := by
  rw [stage0_keeps _ (r := main_arg17) (by decide)]

theorem at0_arg18 (V : Valuation τ sig (Elt F)) :
    after stage0 (V) (Proc.devRef .tc main_arg18)
      = (V (Proc.devRef .tc main_arg18) : (⟨S256, .f32⟩ : BufTy).Contents (Elt F)) := by
  rw [stage0_keeps _ (r := main_arg18) (by decide)]

theorem at0_arg19 (V : Valuation τ sig (Elt F)) :
    after stage0 (V) (Proc.devRef .tc main_arg19)
      = (V (Proc.devRef .tc main_arg19) : (⟨S256x1, .f32⟩ : BufTy).Contents (Elt F)) := by
  rw [stage0_keeps _ (r := main_arg19) (by decide)]

theorem at0_arg20 (V : Valuation τ sig (Elt F)) :
    after stage0 (V) (Proc.devRef .tc main_arg20)
      = (V (Proc.devRef .tc main_arg20) : (⟨S1, .f32⟩ : BufTy).Contents (Elt F)) := by
  rw [stage0_keeps _ (r := main_arg20) (by decide)]

/-! ## After stage 1 -/

theorem at1_v11 (V : Valuation τ sig (Elt F)) :
    after stage1 (after stage0 (V)) (Proc.devRef .tc main_v11)
      = rBx V := by
  rw [stage1_keeps _ (r := main_v11) (by decide)]
  exact at0_v11 V

theorem at1_v51 (V : Valuation τ sig (Elt F)) :
    after stage1 (after stage0 (V)) (Proc.devRef .tc main_v51)
      = (broadcastInDim S640000x1 ![0] bcast_S640000_S640000x1_0 ((select ((cmpi .slt (rSrc V) ((broadcastInDim S640000 ![] bcast_S_S640000 ((constantI S_ 32 0#32 : (⟨S_, .i32⟩ : BufTy).Contents (Elt F))) : (⟨S640000, .i32⟩ : BufTy).Contents (Elt F))) : (⟨S640000, .i1⟩ : BufTy).Contents (Elt F))) ((addi (rSrc V) ((broadcastInDim S640000 ![] bcast_S_S640000 ((constantI S_ 32 40000#32 : (⟨S_, .i32⟩ : BufTy).Contents (Elt F))) : (⟨S640000, .i32⟩ : BufTy).Contents (Elt F))) : (⟨S640000, .i32⟩ : BufTy).Contents (Elt F))) (rSrc V) : (⟨S640000, .i32⟩ : BufTy).Contents (Elt F))) : (⟨S640000x1, .i32⟩ : BufTy).Contents (Elt F)) := by
  rw [stage1_v51]
  rw [at0_v1 V]
  first | done | rfl

theorem at1_v45 (V : Valuation τ sig (Elt F)) :
    after stage1 (after stage0 (V)) (Proc.devRef .tc main_v45)
      = rSig V := by
  rw [stage1_v45]
  rw [at0_v19 V, at0_v3 V, at0_v23 V, at0_v1 V, at0_v15 V]
  first | done | rfl

theorem at1_v3 (V : Valuation τ sig (Elt F)) :
    after stage1 (after stage0 (V)) (Proc.devRef .tc main_v3)
      = rDst V := by
  rw [stage1_keeps _ (r := main_v3) (by decide)]
  exact at0_v3 V

theorem at1_v7 (V : Valuation τ sig (Elt F)) :
    after stage1 (after stage0 (V)) (Proc.devRef .tc main_v7)
      = rAx V := by
  rw [stage1_keeps _ (r := main_v7) (by decide)]
  exact at0_v7 V

theorem at1_arg13 (V : Valuation τ sig (Elt F)) :
    after stage1 (after stage0 (V)) (Proc.devRef .tc main_arg13)
      = (V (Proc.devRef .tc main_arg13) : (⟨S128, .f32⟩ : BufTy).Contents (Elt F)) := by
  rw [stage1_keeps _ (r := main_arg13) (by decide)]
  exact at0_arg13 V

theorem at1_arg14 (V : Valuation τ sig (Elt F)) :
    after stage1 (after stage0 (V)) (Proc.devRef .tc main_arg14)
      = (V (Proc.devRef .tc main_arg14) : (⟨S128, .f32⟩ : BufTy).Contents (Elt F)) := by
  rw [stage1_keeps _ (r := main_arg14) (by decide)]
  exact at0_arg14 V

theorem at1_v39 (V : Valuation τ sig (Elt F)) :
    after stage1 (after stage0 (V)) (Proc.devRef .tc main_v39)
      = rEij V := by
  rw [stage1_v39]
  rw [at0_v19 V, at0_v3 V, at0_v23 V, at0_v1 V, at0_v15 V]
  first | done | rfl

theorem at1_arg15 (V : Valuation τ sig (Elt F)) :
    after stage1 (after stage0 (V)) (Proc.devRef .tc main_arg15)
      = (V (Proc.devRef .tc main_arg15) : (⟨S128, .f32⟩ : BufTy).Contents (Elt F)) := by
  rw [stage1_keeps _ (r := main_arg15) (by decide)]
  exact at0_arg15 V

theorem at1_arg16 (V : Valuation τ sig (Elt F)) :
    after stage1 (after stage0 (V)) (Proc.devRef .tc main_arg16)
      = (V (Proc.devRef .tc main_arg16) : (⟨S128, .f32⟩ : BufTy).Contents (Elt F)) := by
  rw [stage1_keeps _ (r := main_arg16) (by decide)]
  exact at0_arg16 V

theorem at1_v1 (V : Valuation τ sig (Elt F)) :
    after stage1 (after stage0 (V)) (Proc.devRef .tc main_v1)
      = rSrc V := by
  rw [stage1_keeps _ (r := main_v1) (by decide)]
  exact at0_v1 V

theorem at1_arg17 (V : Valuation τ sig (Elt F)) :
    after stage1 (after stage0 (V)) (Proc.devRef .tc main_arg17)
      = (V (Proc.devRef .tc main_arg17) : (⟨S384x256, .f32⟩ : BufTy).Contents (Elt F)) := by
  rw [stage1_keeps _ (r := main_arg17) (by decide)]
  exact at0_arg17 V

theorem at1_arg18 (V : Valuation τ sig (Elt F)) :
    after stage1 (after stage0 (V)) (Proc.devRef .tc main_arg18)
      = (V (Proc.devRef .tc main_arg18) : (⟨S256, .f32⟩ : BufTy).Contents (Elt F)) := by
  rw [stage1_keeps _ (r := main_arg18) (by decide)]
  exact at0_arg18 V

theorem at1_arg19 (V : Valuation τ sig (Elt F)) :
    after stage1 (after stage0 (V)) (Proc.devRef .tc main_arg19)
      = (V (Proc.devRef .tc main_arg19) : (⟨S256x1, .f32⟩ : BufTy).Contents (Elt F)) := by
  rw [stage1_keeps _ (r := main_arg19) (by decide)]
  exact at0_arg19 V

theorem at1_arg20 (V : Valuation τ sig (Elt F)) :
    after stage1 (after stage0 (V)) (Proc.devRef .tc main_arg20)
      = (V (Proc.devRef .tc main_arg20) : (⟨S1, .f32⟩ : BufTy).Contents (Elt F)) := by
  rw [stage1_keeps _ (r := main_arg20) (by decide)]
  exact at0_arg20 V

/-! ## After stage 2 -/

theorem at2_v63 (V : Valuation τ sig (Elt F)) :
    after stage2 (after stage1 (after stage0 (V))) (Proc.devRef .tc main_v63)
      = rPre V := by
  rw [stage2_v63]
  rw [at1_v7 V, at1_v3 V, at1_v45 V, at1_v11 V, at1_v51 V]
  first | done | rfl

theorem at2_v66 (V : Valuation τ sig (Elt F)) :
    after stage2 (after stage1 (after stage0 (V))) (Proc.devRef .tc main_v66)
      = rMu V := by
  rw [stage2_v66]
  rw [at1_v7 V, at1_v3 V, at1_v45 V, at1_v11 V, at1_v51 V]
  first | done | rfl

theorem at2_arg13 (V : Valuation τ sig (Elt F)) :
    after stage2 (after stage1 (after stage0 (V))) (Proc.devRef .tc main_arg13)
      = (V (Proc.devRef .tc main_arg13) : (⟨S128, .f32⟩ : BufTy).Contents (Elt F)) := by
  rw [stage2_keeps _ (r := main_arg13) (by decide)]
  exact at1_arg13 V

theorem at2_arg14 (V : Valuation τ sig (Elt F)) :
    after stage2 (after stage1 (after stage0 (V))) (Proc.devRef .tc main_arg14)
      = (V (Proc.devRef .tc main_arg14) : (⟨S128, .f32⟩ : BufTy).Contents (Elt F)) := by
  rw [stage2_keeps _ (r := main_arg14) (by decide)]
  exact at1_arg14 V

theorem at2_v39 (V : Valuation τ sig (Elt F)) :
    after stage2 (after stage1 (after stage0 (V))) (Proc.devRef .tc main_v39)
      = rEij V := by
  rw [stage2_keeps _ (r := main_v39) (by decide)]
  exact at1_v39 V

theorem at2_arg15 (V : Valuation τ sig (Elt F)) :
    after stage2 (after stage1 (after stage0 (V))) (Proc.devRef .tc main_arg15)
      = (V (Proc.devRef .tc main_arg15) : (⟨S128, .f32⟩ : BufTy).Contents (Elt F)) := by
  rw [stage2_keeps _ (r := main_arg15) (by decide)]
  exact at1_arg15 V

theorem at2_arg16 (V : Valuation τ sig (Elt F)) :
    after stage2 (after stage1 (after stage0 (V))) (Proc.devRef .tc main_arg16)
      = (V (Proc.devRef .tc main_arg16) : (⟨S128, .f32⟩ : BufTy).Contents (Elt F)) := by
  rw [stage2_keeps _ (r := main_arg16) (by decide)]
  exact at1_arg16 V

theorem at2_v1 (V : Valuation τ sig (Elt F)) :
    after stage2 (after stage1 (after stage0 (V))) (Proc.devRef .tc main_v1)
      = rSrc V := by
  rw [stage2_keeps _ (r := main_v1) (by decide)]
  exact at1_v1 V

theorem at2_v3 (V : Valuation τ sig (Elt F)) :
    after stage2 (after stage1 (after stage0 (V))) (Proc.devRef .tc main_v3)
      = rDst V := by
  rw [stage2_keeps _ (r := main_v3) (by decide)]
  exact at1_v3 V

theorem at2_arg17 (V : Valuation τ sig (Elt F)) :
    after stage2 (after stage1 (after stage0 (V))) (Proc.devRef .tc main_arg17)
      = (V (Proc.devRef .tc main_arg17) : (⟨S384x256, .f32⟩ : BufTy).Contents (Elt F)) := by
  rw [stage2_keeps _ (r := main_arg17) (by decide)]
  exact at1_arg17 V

theorem at2_arg18 (V : Valuation τ sig (Elt F)) :
    after stage2 (after stage1 (after stage0 (V))) (Proc.devRef .tc main_arg18)
      = (V (Proc.devRef .tc main_arg18) : (⟨S256, .f32⟩ : BufTy).Contents (Elt F)) := by
  rw [stage2_keeps _ (r := main_arg18) (by decide)]
  exact at1_arg18 V

theorem at2_arg19 (V : Valuation τ sig (Elt F)) :
    after stage2 (after stage1 (after stage0 (V))) (Proc.devRef .tc main_arg19)
      = (V (Proc.devRef .tc main_arg19) : (⟨S256x1, .f32⟩ : BufTy).Contents (Elt F)) := by
  rw [stage2_keeps _ (r := main_arg19) (by decide)]
  exact at1_arg19 V

theorem at2_arg20 (V : Valuation τ sig (Elt F)) :
    after stage2 (after stage1 (after stage0 (V))) (Proc.devRef .tc main_arg20)
      = (V (Proc.devRef .tc main_arg20) : (⟨S1, .f32⟩ : BufTy).Contents (Elt F)) := by
  rw [stage2_keeps _ (r := main_arg20) (by decide)]
  exact at1_arg20 V

/-! ## After stage 3 -/

theorem at3_v66 (V : Valuation τ sig (Elt F)) :
    after stage3 (after stage2 (after stage1 (after stage0 (V)))) (Proc.devRef .tc main_v66)
      = rMu V := by
  rw [stage3_keeps _ (r := main_v66) (by decide)]
  exact at2_v66 V

theorem at3_v63 (V : Valuation τ sig (Elt F)) :
    after stage3 (after stage2 (after stage1 (after stage0 (V)))) (Proc.devRef .tc main_v63)
      = rPre V := by
  rw [stage3_keeps _ (r := main_v63) (by decide)]
  exact at2_v63 V

theorem at3_v67 (V : Valuation τ sig (Elt F)) :
    after stage3 (after stage2 (after stage1 (after stage0 (V)))) (Proc.devRef .tc main_v67)
      = rVar V := by
  rw [stage3_v67]
  rw [at2_v63 V]
  first | done | rfl

theorem at3_arg13 (V : Valuation τ sig (Elt F)) :
    after stage3 (after stage2 (after stage1 (after stage0 (V)))) (Proc.devRef .tc main_arg13)
      = (V (Proc.devRef .tc main_arg13) : (⟨S128, .f32⟩ : BufTy).Contents (Elt F)) := by
  rw [stage3_keeps _ (r := main_arg13) (by decide)]
  exact at2_arg13 V

theorem at3_arg14 (V : Valuation τ sig (Elt F)) :
    after stage3 (after stage2 (after stage1 (after stage0 (V)))) (Proc.devRef .tc main_arg14)
      = (V (Proc.devRef .tc main_arg14) : (⟨S128, .f32⟩ : BufTy).Contents (Elt F)) := by
  rw [stage3_keeps _ (r := main_arg14) (by decide)]
  exact at2_arg14 V

theorem at3_v39 (V : Valuation τ sig (Elt F)) :
    after stage3 (after stage2 (after stage1 (after stage0 (V)))) (Proc.devRef .tc main_v39)
      = rEij V := by
  rw [stage3_keeps _ (r := main_v39) (by decide)]
  exact at2_v39 V

theorem at3_arg15 (V : Valuation τ sig (Elt F)) :
    after stage3 (after stage2 (after stage1 (after stage0 (V)))) (Proc.devRef .tc main_arg15)
      = (V (Proc.devRef .tc main_arg15) : (⟨S128, .f32⟩ : BufTy).Contents (Elt F)) := by
  rw [stage3_keeps _ (r := main_arg15) (by decide)]
  exact at2_arg15 V

theorem at3_arg16 (V : Valuation τ sig (Elt F)) :
    after stage3 (after stage2 (after stage1 (after stage0 (V)))) (Proc.devRef .tc main_arg16)
      = (V (Proc.devRef .tc main_arg16) : (⟨S128, .f32⟩ : BufTy).Contents (Elt F)) := by
  rw [stage3_keeps _ (r := main_arg16) (by decide)]
  exact at2_arg16 V

theorem at3_v1 (V : Valuation τ sig (Elt F)) :
    after stage3 (after stage2 (after stage1 (after stage0 (V)))) (Proc.devRef .tc main_v1)
      = rSrc V := by
  rw [stage3_keeps _ (r := main_v1) (by decide)]
  exact at2_v1 V

theorem at3_v3 (V : Valuation τ sig (Elt F)) :
    after stage3 (after stage2 (after stage1 (after stage0 (V)))) (Proc.devRef .tc main_v3)
      = rDst V := by
  rw [stage3_keeps _ (r := main_v3) (by decide)]
  exact at2_v3 V

theorem at3_arg17 (V : Valuation τ sig (Elt F)) :
    after stage3 (after stage2 (after stage1 (after stage0 (V)))) (Proc.devRef .tc main_arg17)
      = (V (Proc.devRef .tc main_arg17) : (⟨S384x256, .f32⟩ : BufTy).Contents (Elt F)) := by
  rw [stage3_keeps _ (r := main_arg17) (by decide)]
  exact at2_arg17 V

theorem at3_arg18 (V : Valuation τ sig (Elt F)) :
    after stage3 (after stage2 (after stage1 (after stage0 (V)))) (Proc.devRef .tc main_arg18)
      = (V (Proc.devRef .tc main_arg18) : (⟨S256, .f32⟩ : BufTy).Contents (Elt F)) := by
  rw [stage3_keeps _ (r := main_arg18) (by decide)]
  exact at2_arg18 V

theorem at3_arg19 (V : Valuation τ sig (Elt F)) :
    after stage3 (after stage2 (after stage1 (after stage0 (V)))) (Proc.devRef .tc main_arg19)
      = (V (Proc.devRef .tc main_arg19) : (⟨S256x1, .f32⟩ : BufTy).Contents (Elt F)) := by
  rw [stage3_keeps _ (r := main_arg19) (by decide)]
  exact at2_arg19 V

theorem at3_arg20 (V : Valuation τ sig (Elt F)) :
    after stage3 (after stage2 (after stage1 (after stage0 (V)))) (Proc.devRef .tc main_arg20)
      = (V (Proc.devRef .tc main_arg20) : (⟨S1, .f32⟩ : BufTy).Contents (Elt F)) := by
  rw [stage3_keeps _ (r := main_arg20) (by decide)]
  exact at2_arg20 V

/-! ## After stage 4 -/

theorem at4_v39 (V : Valuation τ sig (Elt F)) :
    after stage4 (after stage3 (after stage2 (after stage1 (after stage0 (V))))) (Proc.devRef .tc main_v39)
      = rEij V := by
  rw [stage4_keeps _ (r := main_v39) (by decide)]
  exact at3_v39 V

theorem at4_v86 (V : Valuation τ sig (Elt F)) :
    after stage4 (after stage3 (after stage2 (after stage1 (after stage0 (V))))) (Proc.devRef .tc main_v86)
      = rMuE V := by
  rw [stage4_v86]
  rw [at3_v39 V]
  first | done | rfl

theorem at4_arg15 (V : Valuation τ sig (Elt F)) :
    after stage4 (after stage3 (after stage2 (after stage1 (after stage0 (V))))) (Proc.devRef .tc main_arg15)
      = (V (Proc.devRef .tc main_arg15) : (⟨S128, .f32⟩ : BufTy).Contents (Elt F)) := by
  rw [stage4_keeps _ (r := main_arg15) (by decide)]
  exact at3_arg15 V

theorem at4_arg16 (V : Valuation τ sig (Elt F)) :
    after stage4 (after stage3 (after stage2 (after stage1 (after stage0 (V))))) (Proc.devRef .tc main_arg16)
      = (V (Proc.devRef .tc main_arg16) : (⟨S128, .f32⟩ : BufTy).Contents (Elt F)) := by
  rw [stage4_keeps _ (r := main_arg16) (by decide)]
  exact at3_arg16 V

theorem at4_v1 (V : Valuation τ sig (Elt F)) :
    after stage4 (after stage3 (after stage2 (after stage1 (after stage0 (V))))) (Proc.devRef .tc main_v1)
      = rSrc V := by
  rw [stage4_keeps _ (r := main_v1) (by decide)]
  exact at3_v1 V

theorem at4_v83 (V : Valuation τ sig (Elt F)) :
    after stage4 (after stage3 (after stage2 (after stage1 (after stage0 (V))))) (Proc.devRef .tc main_v83)
      = rXout V := by
  rw [stage4_v83]
  rw [at3_v63 V, at3_v66 V, at3_v67 V, at3_arg13 V, at3_arg14 V]
  first | done | rfl

theorem at4_v3 (V : Valuation τ sig (Elt F)) :
    after stage4 (after stage3 (after stage2 (after stage1 (after stage0 (V))))) (Proc.devRef .tc main_v3)
      = rDst V := by
  rw [stage4_keeps _ (r := main_v3) (by decide)]
  exact at3_v3 V

theorem at4_arg17 (V : Valuation τ sig (Elt F)) :
    after stage4 (after stage3 (after stage2 (after stage1 (after stage0 (V))))) (Proc.devRef .tc main_arg17)
      = (V (Proc.devRef .tc main_arg17) : (⟨S384x256, .f32⟩ : BufTy).Contents (Elt F)) := by
  rw [stage4_keeps _ (r := main_arg17) (by decide)]
  exact at3_arg17 V

theorem at4_arg18 (V : Valuation τ sig (Elt F)) :
    after stage4 (after stage3 (after stage2 (after stage1 (after stage0 (V))))) (Proc.devRef .tc main_arg18)
      = (V (Proc.devRef .tc main_arg18) : (⟨S256, .f32⟩ : BufTy).Contents (Elt F)) := by
  rw [stage4_keeps _ (r := main_arg18) (by decide)]
  exact at3_arg18 V

theorem at4_arg19 (V : Valuation τ sig (Elt F)) :
    after stage4 (after stage3 (after stage2 (after stage1 (after stage0 (V))))) (Proc.devRef .tc main_arg19)
      = (V (Proc.devRef .tc main_arg19) : (⟨S256x1, .f32⟩ : BufTy).Contents (Elt F)) := by
  rw [stage4_keeps _ (r := main_arg19) (by decide)]
  exact at3_arg19 V

theorem at4_arg20 (V : Valuation τ sig (Elt F)) :
    after stage4 (after stage3 (after stage2 (after stage1 (after stage0 (V))))) (Proc.devRef .tc main_arg20)
      = (V (Proc.devRef .tc main_arg20) : (⟨S1, .f32⟩ : BufTy).Contents (Elt F)) := by
  rw [stage4_keeps _ (r := main_arg20) (by decide)]
  exact at3_arg20 V

/-! ## After stage 5 -/

theorem at5_v86 (V : Valuation τ sig (Elt F)) :
    after stage5 (after stage4 (after stage3 (after stage2 (after stage1 (after stage0 (V)))))) (Proc.devRef .tc main_v86)
      = rMuE V := by
  rw [stage5_keeps _ (r := main_v86) (by decide)]
  exact at4_v86 V

theorem at5_v39 (V : Valuation τ sig (Elt F)) :
    after stage5 (after stage4 (after stage3 (after stage2 (after stage1 (after stage0 (V)))))) (Proc.devRef .tc main_v39)
      = rEij V := by
  rw [stage5_keeps _ (r := main_v39) (by decide)]
  exact at4_v39 V

theorem at5_v87 (V : Valuation τ sig (Elt F)) :
    after stage5 (after stage4 (after stage3 (after stage2 (after stage1 (after stage0 (V)))))) (Proc.devRef .tc main_v87)
      = rVarE V := by
  rw [stage5_v87]
  rw [at4_v39 V]
  first | done | rfl

theorem at5_arg15 (V : Valuation τ sig (Elt F)) :
    after stage5 (after stage4 (after stage3 (after stage2 (after stage1 (after stage0 (V)))))) (Proc.devRef .tc main_arg15)
      = (V (Proc.devRef .tc main_arg15) : (⟨S128, .f32⟩ : BufTy).Contents (Elt F)) := by
  rw [stage5_keeps _ (r := main_arg15) (by decide)]
  exact at4_arg15 V

theorem at5_arg16 (V : Valuation τ sig (Elt F)) :
    after stage5 (after stage4 (after stage3 (after stage2 (after stage1 (after stage0 (V)))))) (Proc.devRef .tc main_arg16)
      = (V (Proc.devRef .tc main_arg16) : (⟨S128, .f32⟩ : BufTy).Contents (Elt F)) := by
  rw [stage5_keeps _ (r := main_arg16) (by decide)]
  exact at4_arg16 V

theorem at5_v1 (V : Valuation τ sig (Elt F)) :
    after stage5 (after stage4 (after stage3 (after stage2 (after stage1 (after stage0 (V)))))) (Proc.devRef .tc main_v1)
      = rSrc V := by
  rw [stage5_keeps _ (r := main_v1) (by decide)]
  exact at4_v1 V

theorem at5_v83 (V : Valuation τ sig (Elt F)) :
    after stage5 (after stage4 (after stage3 (after stage2 (after stage1 (after stage0 (V)))))) (Proc.devRef .tc main_v83)
      = rXout V := by
  rw [stage5_keeps _ (r := main_v83) (by decide)]
  exact at4_v83 V

theorem at5_v3 (V : Valuation τ sig (Elt F)) :
    after stage5 (after stage4 (after stage3 (after stage2 (after stage1 (after stage0 (V)))))) (Proc.devRef .tc main_v3)
      = rDst V := by
  rw [stage5_keeps _ (r := main_v3) (by decide)]
  exact at4_v3 V

theorem at5_arg17 (V : Valuation τ sig (Elt F)) :
    after stage5 (after stage4 (after stage3 (after stage2 (after stage1 (after stage0 (V)))))) (Proc.devRef .tc main_arg17)
      = (V (Proc.devRef .tc main_arg17) : (⟨S384x256, .f32⟩ : BufTy).Contents (Elt F)) := by
  rw [stage5_keeps _ (r := main_arg17) (by decide)]
  exact at4_arg17 V

theorem at5_arg18 (V : Valuation τ sig (Elt F)) :
    after stage5 (after stage4 (after stage3 (after stage2 (after stage1 (after stage0 (V)))))) (Proc.devRef .tc main_arg18)
      = (V (Proc.devRef .tc main_arg18) : (⟨S256, .f32⟩ : BufTy).Contents (Elt F)) := by
  rw [stage5_keeps _ (r := main_arg18) (by decide)]
  exact at4_arg18 V

theorem at5_arg19 (V : Valuation τ sig (Elt F)) :
    after stage5 (after stage4 (after stage3 (after stage2 (after stage1 (after stage0 (V)))))) (Proc.devRef .tc main_arg19)
      = (V (Proc.devRef .tc main_arg19) : (⟨S256x1, .f32⟩ : BufTy).Contents (Elt F)) := by
  rw [stage5_keeps _ (r := main_arg19) (by decide)]
  exact at4_arg19 V

theorem at5_arg20 (V : Valuation τ sig (Elt F)) :
    after stage5 (after stage4 (after stage3 (after stage2 (after stage1 (after stage0 (V)))))) (Proc.devRef .tc main_arg20)
      = (V (Proc.devRef .tc main_arg20) : (⟨S1, .f32⟩ : BufTy).Contents (Elt F)) := by
  rw [stage5_keeps _ (r := main_arg20) (by decide)]
  exact at4_arg20 V

/-! ## After stage 6 -/

theorem at6_v100 (V : Valuation τ sig (Elt F)) :
    after stage6 (after stage5 (after stage4 (after stage3 (after stage2 (after stage1 (after stage0 (V))))))) (Proc.devRef .tc main_v100)
      = (broadcastInDim S1x128 ![1] bcast_S128_S1x128_1 ((V (Proc.devRef .tc main_arg16) : (⟨S128, .f32⟩ : BufTy).Contents (Elt F))) : (⟨S1x128, .f32⟩ : BufTy).Contents (Elt F)) := by
  rw [stage6_v100]
  rw [at5_arg16 V]
  first | done | rfl

theorem at6_v99 (V : Valuation τ sig (Elt F)) :
    after stage6 (after stage5 (after stage4 (after stage3 (after stage2 (after stage1 (after stage0 (V))))))) (Proc.devRef .tc main_v99)
      = (mulf ((mulf ((subf (rEij V) ((broadcastInDim S640000x128 ![0, 1] bcast_S1x128_S640000x128_0_1 ((broadcastInDim S1x128 ![1] bcast_S128_S1x128_1 (rMuE V) : (⟨S1x128, .f32⟩ : BufTy).Contents (Elt F))) : (⟨S640000x128, .f32⟩ : BufTy).Contents (Elt F))) : (⟨S640000x128, .f32⟩ : BufTy).Contents (Elt F))) ((broadcastInDim S640000x128 ![0, 1] bcast_S1x128_S640000x128_0_1 ((broadcastInDim S1x128 ![1] bcast_S128_S1x128_1 (rInvE V) : (⟨S1x128, .f32⟩ : BufTy).Contents (Elt F))) : (⟨S640000x128, .f32⟩ : BufTy).Contents (Elt F))) : (⟨S640000x128, .f32⟩ : BufTy).Contents (Elt F))) ((broadcastInDim S640000x128 ![0, 1] bcast_S1x128_S640000x128_0_1 ((broadcastInDim S1x128 ![1] bcast_S128_S1x128_1 ((V (Proc.devRef .tc main_arg15) : (⟨S128, .f32⟩ : BufTy).Contents (Elt F))) : (⟨S1x128, .f32⟩ : BufTy).Contents (Elt F))) : (⟨S640000x128, .f32⟩ : BufTy).Contents (Elt F))) : (⟨S640000x128, .f32⟩ : BufTy).Contents (Elt F)) := by
  rw [stage6_v99]
  rw [at5_v39 V, at5_v86 V, at5_v87 V, at5_arg15 V]
  first | done | rfl

theorem at6_v1 (V : Valuation τ sig (Elt F)) :
    after stage6 (after stage5 (after stage4 (after stage3 (after stage2 (after stage1 (after stage0 (V))))))) (Proc.devRef .tc main_v1)
      = rSrc V := by
  rw [stage6_keeps _ (r := main_v1) (by decide)]
  exact at5_v1 V

theorem at6_v83 (V : Valuation τ sig (Elt F)) :
    after stage6 (after stage5 (after stage4 (after stage3 (after stage2 (after stage1 (after stage0 (V))))))) (Proc.devRef .tc main_v83)
      = rXout V := by
  rw [stage6_keeps _ (r := main_v83) (by decide)]
  exact at5_v83 V

theorem at6_v3 (V : Valuation τ sig (Elt F)) :
    after stage6 (after stage5 (after stage4 (after stage3 (after stage2 (after stage1 (after stage0 (V))))))) (Proc.devRef .tc main_v3)
      = rDst V := by
  rw [stage6_keeps _ (r := main_v3) (by decide)]
  exact at5_v3 V

theorem at6_arg17 (V : Valuation τ sig (Elt F)) :
    after stage6 (after stage5 (after stage4 (after stage3 (after stage2 (after stage1 (after stage0 (V))))))) (Proc.devRef .tc main_arg17)
      = (V (Proc.devRef .tc main_arg17) : (⟨S384x256, .f32⟩ : BufTy).Contents (Elt F)) := by
  rw [stage6_keeps _ (r := main_arg17) (by decide)]
  exact at5_arg17 V

theorem at6_arg18 (V : Valuation τ sig (Elt F)) :
    after stage6 (after stage5 (after stage4 (after stage3 (after stage2 (after stage1 (after stage0 (V))))))) (Proc.devRef .tc main_arg18)
      = (V (Proc.devRef .tc main_arg18) : (⟨S256, .f32⟩ : BufTy).Contents (Elt F)) := by
  rw [stage6_keeps _ (r := main_arg18) (by decide)]
  exact at5_arg18 V

theorem at6_arg19 (V : Valuation τ sig (Elt F)) :
    after stage6 (after stage5 (after stage4 (after stage3 (after stage2 (after stage1 (after stage0 (V))))))) (Proc.devRef .tc main_arg19)
      = (V (Proc.devRef .tc main_arg19) : (⟨S256x1, .f32⟩ : BufTy).Contents (Elt F)) := by
  rw [stage6_keeps _ (r := main_arg19) (by decide)]
  exact at5_arg19 V

theorem at6_arg20 (V : Valuation τ sig (Elt F)) :
    after stage6 (after stage5 (after stage4 (after stage3 (after stage2 (after stage1 (after stage0 (V))))))) (Proc.devRef .tc main_arg20)
      = (V (Proc.devRef .tc main_arg20) : (⟨S1, .f32⟩ : BufTy).Contents (Elt F)) := by
  rw [stage6_keeps _ (r := main_arg20) (by decide)]
  exact at5_arg20 V

/-! ## After stage 7 -/

theorem at7_v83 (V : Valuation τ sig (Elt F)) :
    after stage7 (after stage6 (after stage5 (after stage4 (after stage3 (after stage2 (after stage1 (after stage0 (V)))))))) (Proc.devRef .tc main_v83)
      = rXout V := by
  rw [stage7_keeps _ (r := main_v83) (by decide)]
  exact at6_v83 V

theorem at7_v103 (V : Valuation τ sig (Elt F)) :
    after stage7 (after stage6 (after stage5 (after stage4 (after stage3 (after stage2 (after stage1 (after stage0 (V)))))))) (Proc.devRef .tc main_v103)
      = rEout V := by
  rw [stage7_v103]
  rw [at6_v99 V, at6_v100 V]
  first | done | rfl

theorem at7_v133 (V : Valuation τ sig (Elt F)) :
    after stage7 (after stage6 (after stage5 (after stage4 (after stage3 (after stage2 (after stage1 (after stage0 (V)))))))) (Proc.devRef .tc main_v133)
      = rScores V := by
  rw [stage7_v133]
  rw [at6_v83 V, at6_v1 V, at6_v3 V, at6_v99 V, at6_v100 V, at6_arg17 V, at6_arg18 V, at6_arg19 V, at6_arg20 V]
  first | done | rfl

/-! ## The three results -/

theorem rres0 (V : Valuation τ sig (Elt F)) : after ops V (Proc.devRef .tc main_v83) = rXout V := by
  rw [after_ops]; exact at7_v83 V
theorem rres1 (V : Valuation τ sig (Elt F)) : after ops V (Proc.devRef .tc main_v103) = rEout V := by
  rw [after_ops]; exact at7_v103 V
theorem rres2 (V : Valuation τ sig (Elt F)) : after ops V (Proc.devRef .tc main_v133) = rScores V := by
  rw [after_ops]; exact at7_v133 V

end Cert.ReferenceIdeal.Hand

end
-- ==== Proof.Join.lean ====
import proofs.«143299_j13005160972635_2_alg».proof.Proof.JoinProj
import proofs.«143299_j13005160972635_2_alg».proof.Proof.JoinGather
import proofs.«143299_j13005160972635_2_alg».proof.Proof.JoinEdge
import proofs.«143299_j13005160972635_2_alg».proof.Proof.JoinNorm
import proofs.«143299_j13005160972635_2_alg».proof.Proof.JoinScore
import proofs.«143299_j13005160972635_2_alg».proof.Proof.JoinRealArgs
import proofs.«143299_j13005160972635_2_alg».proof.Proof.KCompose
import proofs.«143299_j13005160972635_2_alg».proof.Proof.RefCompose
import proofs.«143299_j13005160972635_2_alg».proof.Proof.RefRun

set_option maxRecDepth 16384

noncomputable section

/-! # The value claim

Piece by piece the kernel program's closed expressions are the reference's: the gathered projections, the edge
pre-activation with its gate and gated messages, the node update, its batch statistics, the normalised node rows, the
normalised edge rows, the gathered normalised rows, the scores. The only steps that use more than rearranging sums are the two
normalisations, where every entry is a real number because the inputs are finite. -/

namespace Cert.Bridge

open Idealize.ShloMosaic Idealize.ShloMosaic.TcCoe Idealize.ShloMosaic.ValueIdx
open Idealize.SL.Sem
open Cert.KernelIdeal.Hand Cert.ReferenceIdeal.Hand

attribute [local irreducible] Host.reduceAdd Host.gather Host.scatterAdd

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : Agree m m' c)

set_option backward.isDefEq.respectTransparency.types false

section
include hag

theorem dxd_eq : kDxd m c = rDxd (RV m' c) := join_dxd m m' c hag (dx_eq m m' c hag)

theorem bex_lo_eq : ∀ (r : Fin 640000) (j : Fin 128),
    kBex m c (ix2 r (⟨j.val, by have := j.isLt; omega⟩ : Fin 256)) = rBxs (RV m' c) (ix2 r j) :=
  join_bex_lo m m' c hag fun n j => be_lo m m' c hag n j _ rfl

theorem bex_hi_eq : ∀ (r : Fin 640000) (j : Fin 128),
    kBex m c (ix2 r (⟨128 + j.val, by have := j.isLt; omega⟩ : Fin 256)) = rExs (RV m' c) (ix2 r j) :=
  join_bex_hi m m' c hag fun n j => be_hi m m' c hag n j _ rfl

theorem edge_eq : kEij m c = rEij (RV m' c) ∧ kSig m c = rSig (RV m' c) ∧ kNumt m c = rNumt (RV m' c) :=
  join_edge m m' c hag (dxd_eq m m' c hag) (bex_lo_eq m m' c hag) (bex_hi_eq m m' c hag)

/-- The node update before normalisation: the same two sums over arriving edges, of equal updates, added to equal rows. -/
theorem pre_eq : kPre m c = rPre (RV m' c) := by
  unfold kPre preK rPre
  rw [ax_eq m m' c hag, (edge_eq m m' c hag).2.2, (edge_eq m m' c hag).2.1, dst_eq m m' c hag]
  rfl

variable (hpre : Cert.Pre_KernelIdeal m)
include hpre

theorem xout_eq : kXout m c = rXout (RV m' c) :=
  join_xout m m' c hag (pre_eq m m' c hag) (join_rpre_real m m' c hag hpre) (real_arg13 m hpre c) (real_arg14 m hpre c)

theorem eout_eq : kEout m c = rEout (RV m' c) :=
  join_eout m m' c hag (edge_eq m m' c hag).1 (join_reij_real m m' c hag hpre) (real_arg15 m hpre c) (real_arg16 m hpre c)

theorem scores_eq : kScores m c = rScores (RV m' c) :=
  join_scores m m' c hag (join_xs m m' c hag (xout_eq m m' c hag hpre)) (join_xd m m' c hag (xout_eq m m' c hag hpre)) (eout_eq m m' c hag hpre)

theorem res0 : StableHlo.after ops (RV m' c) (Proc.devRef .tc Cert.ReferenceIdeal.main_v83) = Y12 m c (Proc.devRef .tc Cert.KernelIdeal.main_v50) :=
  (rres0 (RV m' c)).trans ((xout_eq m m' c hag hpre).symm.trans (kres0 m c).symm)

theorem res1 : StableHlo.after ops (RV m' c) (Proc.devRef .tc Cert.ReferenceIdeal.main_v103) = Y12 m c (Proc.devRef .tc Cert.KernelIdeal.main_v80_0) :=
  (rres1 (RV m' c)).trans ((eout_eq m m' c hag hpre).symm.trans (kres1 m c).symm)

theorem res2 : StableHlo.after ops (RV m' c) (Proc.devRef .tc Cert.ReferenceIdeal.main_v133) = Y12 m c (Proc.devRef .tc Cert.KernelIdeal.main_v80_1) :=
  (rres2 (RV m' c)).trans ((scores_eq m m' c hag hpre).symm.trans (kres2 m c).symm)

end

/-- The value claim: from memories agreeing on the arguments both programs run, end with equal results, and leave their
    arguments unchanged. -/
theorem algebraic : Cert.algebraic_KernelIdeal_ReferenceIdeal := by
  intro m ρ m' ρ' hpre hag
  refine ⟨fun c => Y12 m c (Proc.devRef .tc Cert.KernelIdeal.main_v50),
    fun c => Y12 m c (Proc.devRef .tc Cert.KernelIdeal.main_v80_0),
    fun c => Y12 m c (Proc.devRef .tc Cert.KernelIdeal.main_v80_1),
    Cert.KernelIdeal.Hand.run_results m ρ, ?_⟩
  refine (θ_run Cert.ReferenceIdeal.defs _ _).mono (fun r h c => ⟨(h c Cert.ReferenceIdeal.main_v83).trans (res0 m m' c (hag c) hpre),
    (h c Cert.ReferenceIdeal.main_v103).trans (res1 m m' c (hag c) hpre), (h c Cert.ReferenceIdeal.main_v133).trans (res2 m m' c (hag c) hpre),
    (h c Cert.ReferenceIdeal.main_arg0).trans (arg0_eq _),
    (h c Cert.ReferenceIdeal.main_arg1).trans (arg1_eq _),
    (h c Cert.ReferenceIdeal.main_arg2).trans (arg2_eq _),
    (h c Cert.ReferenceIdeal.main_arg3).trans (arg3_eq _),
    (h c Cert.ReferenceIdeal.main_arg4).trans (arg4_eq _),
    (h c Cert.ReferenceIdeal.main_arg5).trans (arg5_eq _),
    (h c Cert.ReferenceIdeal.main_arg6).trans (arg6_eq _),
    (h c Cert.ReferenceIdeal.main_arg7).trans (arg7_eq _),
    (h c Cert.ReferenceIdeal.main_arg8).trans (arg8_eq _),
    (h c Cert.ReferenceIdeal.main_arg9).trans (arg9_eq _),
    (h c Cert.ReferenceIdeal.main_arg10).trans (arg10_eq _),
    (h c Cert.ReferenceIdeal.main_arg11).trans (arg11_eq _),
    (h c Cert.ReferenceIdeal.main_arg12).trans (arg12_eq _),
    (h c Cert.ReferenceIdeal.main_arg13).trans (arg13_eq _),
    (h c Cert.ReferenceIdeal.main_arg14).trans (arg14_eq _),
    (h c Cert.ReferenceIdeal.main_arg15).trans (arg15_eq _),
    (h c Cert.ReferenceIdeal.main_arg16).trans (arg16_eq _),
    (h c Cert.ReferenceIdeal.main_arg17).trans (arg17_eq _),
    (h c Cert.ReferenceIdeal.main_arg18).trans (arg18_eq _),
    (h c Cert.ReferenceIdeal.main_arg19).trans (arg19_eq _),
    (h c Cert.ReferenceIdeal.main_arg20).trans (arg20_eq _)⟩) (Cert.ReferenceIdeal.Hand.run m' ρ')

end Cert.Bridge

end
-- ==== Proof.lean ====
/- The certificate of a gated graph-convolution layer with training-mode batch normalisation and an edge-scoring
   perceptron: a kernel program of four kernel launches between stretches of host operations, against a plain reference.

   The three frames come from one run per program. For the kernel program (at the bit-level values and at the ideal
   values alike) each launch is a segment entered with every unscoped buffer held at a known contents and left with the
   launch's output arrays at what its write-backs leave; the host stretches map the contents forward. For the reference
   the run is the composition of its host operations. No rewrite was made when the ideal program was printed, so the
   idealization claim is trivial. The value claim: at the ideal values the two programs' three results are one function of
   the arguments — the fused projection with concatenated weights is the four projections side by side, the merged
   gathers are the separate ones, the padded second perceptron weight contributes zeros, and the folded batch-norm scale and
   shift are the centred and scaled affine map because every entry involved is a real number. -/
import proofs.«143299_j13005160972635_2_alg».proof.Defs
import proofs.«143299_j13005160972635_2_alg».proof.Proof.Gen.Kernel
import proofs.«143299_j13005160972635_2_alg».proof.Proof.Gen.KernelIdeal
import proofs.«143299_j13005160972635_2_alg».proof.Proof.Gen.ReferenceIdeal
import proofs.«143299_j13005160972635_2_alg».proof.Proof.Gen.Pre_finite_inputs
import proofs.«143299_j13005160972635_2_alg».proof.Proof.KRun
import proofs.«143299_j13005160972635_2_alg».proof.Proof.BRun
import proofs.«143299_j13005160972635_2_alg».proof.Proof.RefRun
import proofs.«143299_j13005160972635_2_alg».proof.Proof.Join
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Hand.frame m ρ,
  trivial,
  Cert.Bridge.algebraic⟩

end Cert.Proof

end
